-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x54x32 : Shape := ⟨3, ![4096, 54, 32]⟩
abbrev S4096x72x16 : Shape := ⟨3, ![4096, 72, 16]⟩
abbrev S5x48x32 : Shape := ⟨3, ![5, 48, 32]⟩
abbrev S5x32 : Shape := ⟨2, ![5, 32]⟩
abbrev S5x64x32 : Shape := ⟨3, ![5, 64, 32]⟩
abbrev S54x3x2 : Shape := ⟨3, ![54, 3, 2]⟩
abbrev S_ : Shape := ⟨0, ![]⟩
abbrev S54x3x1 : Shape := ⟨3, ![54, 3, 1]⟩
abbrev S54x3 : Shape := ⟨2, ![54, 3]⟩
abbrev S4096x54x3x32 : Shape := ⟨4, ![4096, 54, 3, 32]⟩
abbrev S4096x54x3x16 : Shape := ⟨4, ![4096, 54, 3, 16]⟩
abbrev S4096x54x3x48 : Shape := ⟨4, ![4096, 54, 3, 48]⟩
abbrev S1x48x32 : Shape := ⟨3, ![1, 48, 32]⟩
abbrev S48x32 : Shape := ⟨2, ![48, 32]⟩
abbrev S1x32 : Shape := ⟨2, ![1, 32]⟩
abbrev S32 : Shape := ⟨1, ![32]⟩
abbrev S1x1x1x32 : Shape := ⟨4, ![1, 1, 1, 32]⟩
abbrev S4096x54x64 : Shape := ⟨3, ![4096, 54, 64]⟩
abbrev S1x64x32 : Shape := ⟨3, ![1, 64, 32]⟩
abbrev S64x32 : Shape := ⟨2, ![64, 32]⟩
abbrev S1x1x32 : Shape := ⟨3, ![1, 1, 32]⟩
abbrev S4096x54 : Shape := ⟨2, ![4096, 54]⟩
abbrev S4096x54x1 : Shape := ⟨3, ![4096, 54, 1]⟩

class Facts : Prop where
  bcast_S_S4096x54x32 : S_.BroadcastsInDim S4096x54x32 (![] : Fin 0 → Fin S4096x54x32.rank)
  reducesTo_S4096x54x32_S_d0_1_2 : S4096x54x32.ReducesTo [0, 1, 2] S_
  h_S_ : 0 < S_.numel
  bcast_S_S4096x72x16 : S_.BroadcastsInDim S4096x72x16 (![] : Fin 0 → Fin S4096x72x16.rank)
  reducesTo_S4096x72x16_S_d0_1_2 : S4096x72x16.ReducesTo [0, 1, 2] S_
  bcast_S_S5x48x32 : S_.BroadcastsInDim S5x48x32 (![] : Fin 0 → Fin S5x48x32.rank)
  reducesTo_S5x48x32_S_d0_1_2 : S5x48x32.ReducesTo [0, 1, 2] S_
  bcast_S_S5x32 : S_.BroadcastsInDim S5x32 (![] : Fin 0 → Fin S5x32.rank)
  reducesTo_S5x32_S_d0_1 : S5x32.ReducesTo [0, 1] S_
  bcast_S_S5x64x32 : S_.BroadcastsInDim S5x64x32 (![] : Fin 0 → Fin S5x64x32.rank)
  reducesTo_S5x64x32_S_d0_1_2 : S5x64x32.ReducesTo [0, 1, 2] S_
  slices_S54x3x2_S54x3x1_0_0_0 : S54x3x2.Slices ![0, 0, 0] S54x3x1
  shapeCasts_S54x3x1_S54x3 : S54x3x1.ShapeCasts S54x3
  slices_S54x3x2_S54x3x1_0_0_1 : S54x3x2.Slices ![0, 0, 1] S54x3x1
  bcast_S_S54x3 : S_.BroadcastsInDim S54x3 (![] : Fin 0 → Fin S54x3.rank)
  bcast_S54x3_S54x3x1_0_1 : S54x3.BroadcastsInDim S54x3x1 (![0, 1] : Fin 2 → Fin S54x3x1.rank)
  concatenates_S4096x54x3x32_S4096x54x3x16_S4096x54x3x48_d3 : Shape.Concatenates [S4096x54x3x32, S4096x54x3x16] S4096x54x3x48 3
  slices_S5x48x32_S1x48x32_0_0_0 : S5x48x32.Slices ![0, 0, 0] S1x48x32
  shapeCasts_S1x48x32_S48x32 : S1x48x32.ShapeCasts S48x32
  slices_S5x32_S1x32_0_0 : S5x32.Slices ![0, 0] S1x32
  shapeCasts_S1x32_S32 : S1x32.ShapeCasts S32
  bcast_S32_S1x1x1x32_3 : S32.BroadcastsInDim S1x1x1x32 (![3] : Fin 1 → Fin S1x1x1x32.rank)
  bcast_S1x1x1x32_S4096x54x3x32_0_1_2_3 : S1x1x1x32.BroadcastsInDim S4096x54x3x32 (![0, 1, 2, 3] : Fin 4 → Fin S4096x54x3x32.rank)
  reducesTo_S4096x54x3x32_S4096x54x32_d2 : S4096x54x3x32.ReducesTo [2] S4096x54x32
  concatenates_S4096x54x32_S4096x54x32_S4096x54x64_d2 : Shape.Concatenates [S4096x54x32, S4096x54x32] S4096x54x64 2
  slices_S5x64x32_S1x64x32_0_0_0 : S5x64x32.Slices ![0, 0, 0] S1x64x32
  shapeCasts_S1x64x32_S64x32 : S1x64x32.ShapeCasts S64x32
  bcast_S32_S1x1x32_2 : S32.BroadcastsInDim S1x1x32 (![2] : Fin 1 → Fin S1x1x32.rank)
  bcast_S1x1x32_S4096x54x32_0_1_2 : S1x1x32.BroadcastsInDim S4096x54x32 (![0, 1, 2] : Fin 3 → Fin S4096x54x32.rank)
  reducesTo_S4096x54x32_S4096x54_d2 : S4096x54x32.ReducesTo [2] S4096x54
  bcast_S4096x54_S4096x54x1_0_1 : S4096x54.BroadcastsInDim S4096x54x1 (![0, 1] : Fin 2 → Fin S4096x54x1.rank)
  bcast_S_S4096x54x1 : S_.BroadcastsInDim S4096x54x1 (![] : Fin 0 → Fin S4096x54x1.rank)
  reducesTo_S4096x54x1_S_d0_1_2 : S4096x54x1.ReducesTo [0, 1, 2] S_
  bcast_S4096x54x1_S4096x54x32_0_1_2 : S4096x54x1.BroadcastsInDim S4096x54x32 (![0, 1, 2] : Fin 3 → Fin S4096x54x32.rank)
  slices_S5x48x32_S1x48x32_1_0_0 : S5x48x32.Slices ![1, 0, 0] S1x48x32
  slices_S5x32_S1x32_1_0 : S5x32.Slices ![1, 0] S1x32
  slices_S5x64x32_S1x64x32_1_0_0 : S5x64x32.Slices ![1, 0, 0] S1x64x32
  slices_S5x48x32_S1x48x32_2_0_0 : S5x48x32.Slices ![2, 0, 0] S1x48x32
  slices_S5x32_S1x32_2_0 : S5x32.Slices ![2, 0] S1x32
  slices_S5x64x32_S1x64x32_2_0_0 : S5x64x32.Slices ![2, 0, 0] S1x64x32
  slices_S5x48x32_S1x48x32_3_0_0 : S5x48x32.Slices ![3, 0, 0] S1x48x32
  slices_S5x32_S1x32_3_0 : S5x32.Slices ![3, 0] S1x32
  slices_S5x64x32_S1x64x32_3_0_0 : S5x64x32.Slices ![3, 0, 0] S1x64x32
  gather_S4096x54x32_S54x3x1_S4096x54x3x32_03_1_n_n_1_2_4096132_wf : GatherDims.WF S4096x54x32 S54x3x1 S4096x54x3x32 [0, 3] [1] [] [1] [] 2 ![4096, 1, 32]
  gather_S4096x72x16_S54x3x1_S4096x54x3x16_03_1_n_n_1_2_4096116_wf : GatherDims.WF S4096x72x16 S54x3x1 S4096x54x3x16 [0, 3] [1] [] [1] [] 2 ![4096, 1, 16]
  dot_S4096x54x3x48_S48x32_S4096x54x3x32_3_0_012_1_n_n_wf : DotDims.WF S4096x54x3x48 S48x32 S4096x54x3x32 [3] [0] [0, 1, 2] [1] [] []
  dot_S4096x54x64_S64x32_S4096x54x32_2_0_01_1_n_n_wf : DotDims.WF S4096x54x64 S64x32 S4096x54x32 [2] [0] [0, 1] [1] [] []

variable [Facts]

def gather_S4096x54x32_S54x3x1_S4096x54x3x32_03_1_n_n_1_2_4096132 : GatherDims S4096x54x32 S54x3x1 S4096x54x3x32 where
  offsetDims := [0, 3]
  collapsedSliceDims := [1]
  operandBatchingDims := []
  startIndicesBatchingDims := []
  startIndexMap := [1]
  indexVectorDim := 2
  sliceSizes := ![4096, 1, 32]
  wf := gather_S4096x54x32_S54x3x1_S4096x54x3x32_03_1_n_n_1_2_4096132_wf
def gather_S4096x72x16_S54x3x1_S4096x54x3x16_03_1_n_n_1_2_4096116 : GatherDims S4096x72x16 S54x3x1 S4096x54x3x16 where
  offsetDims := [0, 3]
  collapsedSliceDims := [1]
  operandBatchingDims := []
  startIndicesBatchingDims := []
  startIndexMap := [1]
  indexVectorDim := 2
  sliceSizes := ![4096, 1, 16]
  wf := gather_S4096x72x16_S54x3x1_S4096x54x3x16_03_1_n_n_1_2_4096116_wf
def dot_S4096x54x3x48_S48x32_S4096x54x3x32_3_0_012_1_n_n : DotDims S4096x54x3x48 S48x32 S4096x54x3x32 where
  lhsContracting := [3]
  rhsContracting := [0]
  lhsNonContracting := [0, 1, 2]
  rhsNonContracting := [1]
  lhsBatch := []
  rhsBatch := []
  wf := dot_S4096x54x3x48_S48x32_S4096x54x3x32_3_0_012_1_n_n_wf
def dot_S4096x54x64_S64x32_S4096x54x32_2_0_01_1_n_n : DotDims S4096x54x64 S64x32 S4096x54x32 where
  lhsContracting := [2]
  rhsContracting := [0]
  lhsNonContracting := [0, 1]
  rhsNonContracting := [1]
  lhsBatch := []
  rhsBatch := []
  wf := dot_S4096x54x64_S64x32_S4096x54x32_2_0_01_1_n_n_wf

abbrev lit0 : Fin 324 → BitVec 32 := fun
  | 0 => 1#32 | 1 => 0#32 | 2 => 2#32 | 3 => 1#32 | 4 => 3#32 | 5 => 2#32 | 6 => 2#32 | 7 => 3#32
  | 8 => 3#32 | 9 => 4#32 | 10 => 4#32 | 11 => 5#32 | 12 => 3#32 | 13 => 6#32 | 14 => 4#32 | 15 => 7#32
  | 16 => 5#32 | 17 => 8#32 | 18 => 4#32 | 19 => 9#32 | 20 => 5#32 | 21 => 10#32 | 22 => 6#32 | 23 => 11#32
  | 24 => 5#32 | 25 => 12#32 | 26 => 6#32 | 27 => 13#32 | 28 => 7#32 | 29 => 14#32 | 30 => 6#32 | 31 => 15#32
  | 32 => 7#32 | 33 => 16#32 | 34 => 8#32 | 35 => 17#32 | 36 => 7#32 | 37 => 18#32 | 38 => 8#32 | 39 => 19#32
  | 40 => 9#32 | 41 => 20#32 | 42 => 8#32 | 43 => 21#32 | 44 => 9#32 | 45 => 22#32 | 46 => 10#32 | 47 => 23#32
  | 48 => 9#32 | 49 => 24#32 | 50 => 10#32 | 51 => 25#32 | 52 => 11#32 | 53 => 26#32 | 54 => 10#32 | 55 => 27#32
  | 56 => 11#32 | 57 => 28#32 | 58 => 12#32 | 59 => 29#32 | 60 => 11#32 | 61 => 30#32 | 62 => 12#32 | 63 => 31#32
  | 64 => 13#32 | 65 => 32#32 | 66 => 12#32 | 67 => 33#32 | 68 => 13#32 | 69 => 34#32 | 70 => 14#32 | 71 => 35#32
  | 72 => 13#32 | 73 => 36#32 | 74 => 14#32 | 75 => 37#32 | 76 => 15#32 | 77 => 38#32 | 78 => 14#32 | 79 => 39#32
  | 80 => 15#32 | 81 => 40#32 | 82 => 16#32 | 83 => 41#32 | 84 => 15#32 | 85 => 42#32 | 86 => 16#32 | 87 => 43#32
  | 88 => 17#32 | 89 => 44#32 | 90 => 16#32 | 91 => 45#32 | 92 => 17#32 | 93 => 46#32 | 94 => 18#32 | 95 => 47#32
  | 96 => 17#32 | 97 => 48#32 | 98 => 18#32 | 99 => 49#32 | 100 => 19#32 | 101 => 50#32 | 102 => 18#32 | 103 => 51#32
  | 104 => 19#32 | 105 => 52#32 | 106 => 20#32 | 107 => 53#32 | 108 => 19#32 | 109 => 54#32 | 110 => 20#32 | 111 => 55#32
  | 112 => 21#32 | 113 => 56#32 | 114 => 20#32 | 115 => 57#32 | 116 => 21#32 | 117 => 58#32 | 118 => 22#32 | 119 => 59#32
  | 120 => 21#32 | 121 => 60#32 | 122 => 22#32 | 123 => 61#32 | 124 => 23#32 | 125 => 62#32 | 126 => 22#32 | 127 => 63#32
  | 128 => 23#32 | 129 => 64#32 | 130 => 24#32 | 131 => 65#32 | 132 => 23#32 | 133 => 66#32 | 134 => 24#32 | 135 => 67#32
  | 136 => 25#32 | 137 => 68#32 | 138 => 24#32 | 139 => 69#32 | 140 => 25#32 | 141 => 70#32 | 142 => 26#32 | 143 => 71#32
  | 144 => 25#32 | 145 => 0#32 | 146 => 26#32 | 147 => 1#32 | 148 => 27#32 | 149 => 2#32 | 150 => 26#32 | 151 => 3#32
  | 152 => 27#32 | 153 => 4#32 | 154 => 28#32 | 155 => 5#32 | 156 => 27#32 | 157 => 6#32 | 158 => 28#32 | 159 => 7#32
  | 160 => 29#32 | 161 => 8#32 | 162 => 28#32 | 163 => 9#32 | 164 => 29#32 | 165 => 10#32 | 166 => 30#32 | 167 => 11#32
  | 168 => 29#32 | 169 => 12#32 | 170 => 30#32 | 171 => 13#32 | 172 => 31#32 | 173 => 14#32 | 174 => 30#32 | 175 => 15#32
  | 176 => 31#32 | 177 => 16#32 | 178 => 32#32 | 179 => 17#32 | 180 => 31#32 | 181 => 18#32 | 182 => 32#32 | 183 => 19#32
  | 184 => 33#32 | 185 => 20#32 | 186 => 32#32 | 187 => 21#32 | 188 => 33#32 | 189 => 22#32 | 190 => 34#32 | 191 => 23#32
  | 192 => 33#32 | 193 => 24#32 | 194 => 34#32 | 195 => 25#32 | 196 => 35#32 | 197 => 26#32 | 198 => 34#32 | 199 => 27#32
  | 200 => 35#32 | 201 => 28#32 | 202 => 36#32 | 203 => 29#32 | 204 => 35#32 | 205 => 30#32 | 206 => 36#32 | 207 => 31#32
  | 208 => 37#32 | 209 => 32#32 | 210 => 36#32 | 211 => 33#32 | 212 => 37#32 | 213 => 34#32 | 214 => 38#32 | 215 => 35#32
  | 216 => 37#32 | 217 => 36#32 | 218 => 38#32 | 219 => 37#32 | 220 => 39#32 | 221 => 38#32 | 222 => 38#32 | 223 => 39#32
  | 224 => 39#32 | 225 => 40#32 | 226 => 40#32 | 227 => 41#32 | 228 => 39#32 | 229 => 42#32 | 230 => 40#32 | 231 => 43#32
  | 232 => 41#32 | 233 => 44#32 | 234 => 40#32 | 235 => 45#32 | 236 => 41#32 | 237 => 46#32 | 238 => 42#32 | 239 => 47#32
  | 240 => 41#32 | 241 => 48#32 | 242 => 42#32 | 243 => 49#32 | 244 => 43#32 | 245 => 50#32 | 246 => 42#32 | 247 => 51#32
  | 248 => 43#32 | 249 => 52#32 | 250 => 44#32 | 251 => 53#32 | 252 => 43#32 | 253 => 54#32 | 254 => 44#32 | 255 => 55#32
  | 256 => 45#32 | 257 => 56#32 | 258 => 44#32 | 259 => 57#32 | 260 => 45#32 | 261 => 58#32 | 262 => 46#32 | 263 => 59#32
  | 264 => 45#32 | 265 => 60#32 | 266 => 46#32 | 267 => 61#32 | 268 => 47#32 | 269 => 62#32 | 270 => 46#32 | 271 => 63#32
  | 272 => 47#32 | 273 => 64#32 | 274 => 48#32 | 275 => 65#32 | 276 => 47#32 | 277 => 66#32 | 278 => 48#32 | 279 => 67#32
  | 280 => 49#32 | 281 => 68#32 | 282 => 48#32 | 283 => 69#32 | 284 => 49#32 | 285 => 70#32 | 286 => 50#32 | 287 => 71#32
  | 288 => 49#32 | 289 => 0#32 | 290 => 50#32 | 291 => 1#32 | 292 => 51#32 | 293 => 2#32 | 294 => 50#32 | 295 => 3#32
  | 296 => 51#32 | 297 => 4#32 | 298 => 52#32 | 299 => 5#32 | 300 => 51#32 | 301 => 6#32 | 302 => 52#32 | 303 => 7#32
  | 304 => 53#32 | 305 => 8#32 | 306 => 52#32 | 307 => 9#32 | 308 => 53#32 | 309 => 10#32 | 310 => 0#32 | 311 => 11#32
  | 312 => 53#32 | 313 => 12#32 | 314 => 0#32 | 315 => 13#32 | 316 => 1#32 | 317 => 14#32 | 318 => 0#32 | 319 => 15#32
  | 320 => 1#32 | 321 => 16#32 | 322 => 2#32 | 323 => 17#32
  | _ => 0#32

def fn_part10 {F : FTy → Type} [FloatOps F] (main_v28 : IVec S_ 1) (main_v74 : IVec S_ 1) (main_v118 : IVec S_ 1) (main_v162 : IVec S_ 1) (main_v193 : FVec F S4096x54x32 .f32) (main_v197 : FVec F S4096x54x32 .f32) : IVec S_ 1 :=
  let main_v198 : FVec F S4096x54x32 .f32 := addf main_v193 main_v197
  let main_v199 : FVec F S4096x54x32 .f32 := Host.tanh main_v198
  let main_v200 : FVec F S4096x54x32 .f32 := mulf main_v199 main_v199
  let main_cst_40 : FVec F S_ .f32 := constant S_ .f32 0x00000000#32
  let main_v201 : FVec F S4096x54 .f32 := (fun x v => Host.reduceAdd x v reducesTo_S4096x54x32_S4096x54_d2 h_S_) main_v200 main_cst_40
  let main_v202 : FVec F S4096x54x1 .f32 := broadcastInDim S4096x54x1 ![0, 1] bcast_S4096x54_S4096x54x1_0_1 main_v201
  let main_v203 : FVec F S4096x54x1 .f32 := Host.sqrt main_v202
  let main_cst_41 : FVec F S_ .f32 := constant S_ .f32 0x00000000#32
  let main_v204 : FVec F S4096x54x1 .f32 := broadcastInDim S4096x54x1 ![] bcast_S_S4096x54x1 main_cst_41
  let main_v205 : IVec S4096x54x1 1 := cmpf .une main_v203 main_v204
  let main_c_42 : IVec S_ 1 := constantI S_ 1 1#1
  let main_v206 : IVec S_ 1 := (fun x v => Host.reduce IntOp.andi x v reducesTo_S4096x54x1_S_d0_1_2 h_S_) main_v205 main_c_42
  let main_v207 : FVec F S4096x54x32 .f32 := broadcastInDim S4096x54x32 ![0, 1, 2] bcast_S4096x54x1_S4096x54x32_0_1_2 main_v203
  let main_v208 : FVec F S4096x54x32 .f32 := Host.divf main_v199 main_v207
  let main_v209 : IVec S_ 1 := andi main_v74 main_v118
  let main_v210 : IVec S_ 1 := andi main_v209 main_v162
  let main_v211 : IVec S_ 1 := andi main_v210 main_v206
  let main_v212 : IVec S_ 1 := andi main_v28 main_v211
  main_v212

def fn_part9 {F : FTy → Type} [FloatOps F] (main_arg1 : FVec F S4096x72x16 .f32) (main_arg2 : FVec F S5x48x32 .f32) (main_arg3 : FVec F S5x32 .f32) (main_arg4 : FVec F S5x64x32 .f32) (main_arg5 : FVec F S5x32 .f32) (main_v28 : IVec S_ 1) (main_v32 : IVec S54x3 32) (main_v74 : IVec S_ 1) (main_v118 : IVec S_ 1) (main_v162 : IVec S_ 1) (main_v164 : FVec F S4096x54x32 .f32) (main_v171 : FVec F S4096x54x3x32 .f32) (main_v173 : IVec S54x3 1) (main_v174 : IVec S54x3 32) : IVec S_ 1 :=
  let main_v175 : IVec S54x3 32 := addi main_v32 main_v174
  let main_v176 : IVec S54x3 32 := select main_v173 main_v175 main_v32
  let main_v177 : IVec S54x3x1 32 := broadcastInDim S54x3x1 ![0, 1] bcast_S54x3_S54x3x1_0_1 main_v176
  let main_v178 : FVec F S4096x54x3x16 .f32 := (fun x i => Host.gather gather_S4096x72x16_S54x3x1_S4096x54x3x16_03_1_n_n_1_2_4096116 x i) main_arg1 main_v177
  let main_v179 : FVec F S4096x54x3x48 .f32 := (fun a b => concatenate S4096x54x3x48 3 [⟨S4096x54x3x32, a⟩, ⟨S4096x54x3x16, b⟩] concatenates_S4096x54x3x32_S4096x54x3x16_S4096x54x3x48_d3) main_v171 main_v178
  let main_v180 : FVec F S1x48x32 .f32 := (extractStridedSlice S1x48x32 ![3, 0, 0] · slices_S5x48x32_S1x48x32_3_0_0) main_arg2
  let main_v181 : FVec F S48x32 .f32 := shapeCast S48x32 main_v180 shapeCasts_S1x48x32_S48x32
  let main_v182 : FVec F S4096x54x3x32 .f32 := (fun l r => Host.dotGeneral dot_S4096x54x3x48_S48x32_S4096x54x3x32_3_0_012_1_n_n none l r) main_v179 main_v181
  let main_v183 : FVec F S1x32 .f32 := (extractStridedSlice S1x32 ![3, 0] · slices_S5x32_S1x32_3_0) main_arg3
  let main_v184 : FVec F S32 .f32 := shapeCast S32 main_v183 shapeCasts_S1x32_S32
  let main_v185 : FVec F S1x1x1x32 .f32 := broadcastInDim S1x1x1x32 ![3] bcast_S32_S1x1x1x32_3 main_v184
  let main_v186 : FVec F S4096x54x3x32 .f32 := broadcastInDim S4096x54x3x32 ![0, 1, 2, 3] bcast_S1x1x1x32_S4096x54x3x32_0_1_2_3 main_v185
  let main_v187 : FVec F S4096x54x3x32 .f32 := addf main_v182 main_v186
  let main_v188 : FVec F S4096x54x3x32 .f32 := Host.tanh main_v187
  let main_cst_39 : FVec F S_ .f32 := constant S_ .f32 0xFF800000#32
  let main_v189 : FVec F S4096x54x32 .f32 := (fun x v => Host.reduce FloatOps.maximumf x v reducesTo_S4096x54x3x32_S4096x54x32_d2 h_S_) main_v188 main_cst_39
  let main_v190 : FVec F S4096x54x64 .f32 := (fun a b => concatenate S4096x54x64 2 [⟨S4096x54x32, a⟩, ⟨S4096x54x32, b⟩] concatenates_S4096x54x32_S4096x54x32_S4096x54x64_d2) main_v164 main_v189
  let main_v191 : FVec F S1x64x32 .f32 := (extractStridedSlice S1x64x32 ![3, 0, 0] · slices_S5x64x32_S1x64x32_3_0_0) main_arg4
  let main_v192 : FVec F S64x32 .f32 := shapeCast S64x32 main_v191 shapeCasts_S1x64x32_S64x32
  let main_v193 : FVec F S4096x54x32 .f32 := (fun l r => Host.dotGeneral dot_S4096x54x64_S64x32_S4096x54x32_2_0_01_1_n_n none l r) main_v190 main_v192
  let main_v194 : FVec F S1x32 .f32 := (extractStridedSlice S1x32 ![3, 0] · slices_S5x32_S1x32_3_0) main_arg5
  let main_v195 : FVec F S32 .f32 := shapeCast S32 main_v194 shapeCasts_S1x32_S32
  let main_v196 : FVec F S1x1x32 .f32 := broadcastInDim S1x1x32 ![2] bcast_S32_S1x1x32_2 main_v195
  let main_v197 : FVec F S4096x54x32 .f32 := broadcastInDim S4096x54x32 ![0, 1, 2] bcast_S1x1x32_S4096x54x32_0_1_2 main_v196
  fn_part10 (F := F) main_v28 main_v74 main_v118 main_v162 main_v193 main_v197

def fn_part8 {F : FTy → Type} [FloatOps F] (main_arg1 : FVec F S4096x72x16 .f32) (main_arg2 : FVec F S5x48x32 .f32) (main_arg3 : FVec F S5x32 .f32) (main_arg4 : FVec F S5x64x32 .f32) (main_arg5 : FVec F S5x32 .f32) (main_v28 : IVec S_ 1) (main_v30 : IVec S54x3 32) (main_v32 : IVec S54x3 32) (main_v74 : IVec S_ 1) (main_v118 : IVec S_ 1) (main_v155 : FVec F S4096x54x32 .f32) (main_v156 : FVec F S4096x54x32 .f32) (main_cst_32 : FVec F S_ .f32) : IVec S_ 1 :=
  let main_v157 : FVec F S4096x54 .f32 := (fun x v => Host.reduceAdd x v reducesTo_S4096x54x32_S4096x54_d2 h_S_) main_v156 main_cst_32
  let main_v158 : FVec F S4096x54x1 .f32 := broadcastInDim S4096x54x1 ![0, 1] bcast_S4096x54_S4096x54x1_0_1 main_v157
  let main_v159 : FVec F S4096x54x1 .f32 := Host.sqrt main_v158
  let main_cst_33 : FVec F S_ .f32 := constant S_ .f32 0x00000000#32
  let main_v160 : FVec F S4096x54x1 .f32 := broadcastInDim S4096x54x1 ![] bcast_S_S4096x54x1 main_cst_33
  let main_v161 : IVec S4096x54x1 1 := cmpf .une main_v159 main_v160
  let main_c_34 : IVec S_ 1 := constantI S_ 1 1#1
  let main_v162 : IVec S_ 1 := (fun x v => Host.reduce IntOp.andi x v reducesTo_S4096x54x1_S_d0_1_2 h_S_) main_v161 main_c_34
  let main_v163 : FVec F S4096x54x32 .f32 := broadcastInDim S4096x54x32 ![0, 1, 2] bcast_S4096x54x1_S4096x54x32_0_1_2 main_v159
  let main_v164 : FVec F S4096x54x32 .f32 := Host.divf main_v155 main_v163
  let main_c_35 : IVec S_ 32 := constantI S_ 32 0#32
  let main_v165 : IVec S54x3 32 := broadcastInDim S54x3 ![] bcast_S_S54x3 main_c_35
  let main_v166 : IVec S54x3 1 := cmpi .slt main_v30 main_v165
  let main_c_36 : IVec S_ 32 := constantI S_ 32 54#32
  let main_v167 : IVec S54x3 32 := broadcastInDim S54x3 ![] bcast_S_S54x3 main_c_36
  let main_v168 : IVec S54x3 32 := addi main_v30 main_v167
  let main_v169 : IVec S54x3 32 := select main_v166 main_v168 main_v30
  let main_v170 : IVec S54x3x1 32 := broadcastInDim S54x3x1 ![0, 1] bcast_S54x3_S54x3x1_0_1 main_v169
  let main_v171 : FVec F S4096x54x3x32 .f32 := (fun x i => Host.gather gather_S4096x54x32_S54x3x1_S4096x54x3x32_03_1_n_n_1_2_4096132 x i) main_v164 main_v170
  let main_c_37 : IVec S_ 32 := constantI S_ 32 0#32
  let main_v172 : IVec S54x3 32 := broadcastInDim S54x3 ![] bcast_S_S54x3 main_c_37
  let main_v173 : IVec S54x3 1 := cmpi .slt main_v32 main_v172
  let main_c_38 : IVec S_ 32 := constantI S_ 32 72#32
  let main_v174 : IVec S54x3 32 := broadcastInDim S54x3 ![] bcast_S_S54x3 main_c_38
  fn_part9 (F := F) main_arg1 main_arg2 main_arg3 main_arg4 main_arg5 main_v28 main_v32 main_v74 main_v118 main_v162 main_v164 main_v171 main_v173 main_v174

def fn_part7 {F : FTy → Type} [FloatOps F] (main_arg1 : FVec F S4096x72x16 .f32) (main_arg2 : FVec F S5x48x32 .f32) (main_arg3 : FVec F S5x32 .f32) (main_arg4 : FVec F S5x64x32 .f32) (main_arg5 : FVec F S5x32 .f32) (main_v28 : IVec S_ 1) (main_v30 : IVec S54x3 32) (main_v32 : IVec S54x3 32) (main_v74 : IVec S_ 1) (main_v118 : IVec S_ 1) (main_v120 : FVec F S4096x54x32 .f32) (main_v127 : FVec F S4096x54x3x32 .f32) (main_v134 : FVec F S4096x54x3x16 .f32) : IVec S_ 1 :=
  let main_v135 : FVec F S4096x54x3x48 .f32 := (fun a b => concatenate S4096x54x3x48 3 [⟨S4096x54x3x32, a⟩, ⟨S4096x54x3x16, b⟩] concatenates_S4096x54x3x32_S4096x54x3x16_S4096x54x3x48_d3) main_v127 main_v134
  let main_v136 : FVec F S1x48x32 .f32 := (extractStridedSlice S1x48x32 ![2, 0, 0] · slices_S5x48x32_S1x48x32_2_0_0) main_arg2
  let main_v137 : FVec F S48x32 .f32 := shapeCast S48x32 main_v136 shapeCasts_S1x48x32_S48x32
  let main_v138 : FVec F S4096x54x3x32 .f32 := (fun l r => Host.dotGeneral dot_S4096x54x3x48_S48x32_S4096x54x3x32_3_0_012_1_n_n none l r) main_v135 main_v137
  let main_v139 : FVec F S1x32 .f32 := (extractStridedSlice S1x32 ![2, 0] · slices_S5x32_S1x32_2_0) main_arg3
  let main_v140 : FVec F S32 .f32 := shapeCast S32 main_v139 shapeCasts_S1x32_S32
  let main_v141 : FVec F S1x1x1x32 .f32 := broadcastInDim S1x1x1x32 ![3] bcast_S32_S1x1x1x32_3 main_v140
  let main_v142 : FVec F S4096x54x3x32 .f32 := broadcastInDim S4096x54x3x32 ![0, 1, 2, 3] bcast_S1x1x1x32_S4096x54x3x32_0_1_2_3 main_v141
  let main_v143 : FVec F S4096x54x3x32 .f32 := addf main_v138 main_v142
  let main_v144 : FVec F S4096x54x3x32 .f32 := Host.tanh main_v143
  let main_cst_31 : FVec F S_ .f32 := constant S_ .f32 0xFF800000#32
  let main_v145 : FVec F S4096x54x32 .f32 := (fun x v => Host.reduce FloatOps.maximumf x v reducesTo_S4096x54x3x32_S4096x54x32_d2 h_S_) main_v144 main_cst_31
  let main_v146 : FVec F S4096x54x64 .f32 := (fun a b => concatenate S4096x54x64 2 [⟨S4096x54x32, a⟩, ⟨S4096x54x32, b⟩] concatenates_S4096x54x32_S4096x54x32_S4096x54x64_d2) main_v120 main_v145
  let main_v147 : FVec F S1x64x32 .f32 := (extractStridedSlice S1x64x32 ![2, 0, 0] · slices_S5x64x32_S1x64x32_2_0_0) main_arg4
  let main_v148 : FVec F S64x32 .f32 := shapeCast S64x32 main_v147 shapeCasts_S1x64x32_S64x32
  let main_v149 : FVec F S4096x54x32 .f32 := (fun l r => Host.dotGeneral dot_S4096x54x64_S64x32_S4096x54x32_2_0_01_1_n_n none l r) main_v146 main_v148
  let main_v150 : FVec F S1x32 .f32 := (extractStridedSlice S1x32 ![2, 0] · slices_S5x32_S1x32_2_0) main_arg5
  let main_v151 : FVec F S32 .f32 := shapeCast S32 main_v150 shapeCasts_S1x32_S32
  let main_v152 : FVec F S1x1x32 .f32 := broadcastInDim S1x1x32 ![2] bcast_S32_S1x1x32_2 main_v151
  let main_v153 : FVec F S4096x54x32 .f32 := broadcastInDim S4096x54x32 ![0, 1, 2] bcast_S1x1x32_S4096x54x32_0_1_2 main_v152
  let main_v154 : FVec F S4096x54x32 .f32 := addf main_v149 main_v153
  let main_v155 : FVec F S4096x54x32 .f32 := Host.tanh main_v154
  let main_v156 : FVec F S4096x54x32 .f32 := mulf main_v155 main_v155
  let main_cst_32 : FVec F S_ .f32 := constant S_ .f32 0x00000000#32
  fn_part8 (F := F) main_arg1 main_arg2 main_arg3 main_arg4 main_arg5 main_v28 main_v30 main_v32 main_v74 main_v118 main_v155 main_v156 main_cst_32

def fn_part6 {F : FTy → Type} [FloatOps F] (main_arg1 : FVec F S4096x72x16 .f32) (main_arg2 : FVec F S5x48x32 .f32) (main_arg3 : FVec F S5x32 .f32) (main_arg4 : FVec F S5x64x32 .f32) (main_arg5 : FVec F S5x32 .f32) (main_v28 : IVec S_ 1) (main_v30 : IVec S54x3 32) (main_v32 : IVec S54x3 32) (main_v74 : IVec S_ 1) (main_v111 : FVec F S4096x54x32 .f32) (main_v115 : FVec F S4096x54x1 .f32) (main_cst_25 : FVec F S_ .f32) : IVec S_ 1 :=
  let main_v116 : FVec F S4096x54x1 .f32 := broadcastInDim S4096x54x1 ![] bcast_S_S4096x54x1 main_cst_25
  let main_v117 : IVec S4096x54x1 1 := cmpf .une main_v115 main_v116
  let main_c_26 : IVec S_ 1 := constantI S_ 1 1#1
  let main_v118 : IVec S_ 1 := (fun x v => Host.reduce IntOp.andi x v reducesTo_S4096x54x1_S_d0_1_2 h_S_) main_v117 main_c_26
  let main_v119 : FVec F S4096x54x32 .f32 := broadcastInDim S4096x54x32 ![0, 1, 2] bcast_S4096x54x1_S4096x54x32_0_1_2 main_v115
  let main_v120 : FVec F S4096x54x32 .f32 := Host.divf main_v111 main_v119
  let main_c_27 : IVec S_ 32 := constantI S_ 32 0#32
  let main_v121 : IVec S54x3 32 := broadcastInDim S54x3 ![] bcast_S_S54x3 main_c_27
  let main_v122 : IVec S54x3 1 := cmpi .slt main_v30 main_v121
  let main_c_28 : IVec S_ 32 := constantI S_ 32 54#32
  let main_v123 : IVec S54x3 32 := broadcastInDim S54x3 ![] bcast_S_S54x3 main_c_28
  let main_v124 : IVec S54x3 32 := addi main_v30 main_v123
  let main_v125 : IVec S54x3 32 := select main_v122 main_v124 main_v30
  let main_v126 : IVec S54x3x1 32 := broadcastInDim S54x3x1 ![0, 1] bcast_S54x3_S54x3x1_0_1 main_v125
  let main_v127 : FVec F S4096x54x3x32 .f32 := (fun x i => Host.gather gather_S4096x54x32_S54x3x1_S4096x54x3x32_03_1_n_n_1_2_4096132 x i) main_v120 main_v126
  let main_c_29 : IVec S_ 32 := constantI S_ 32 0#32
  let main_v128 : IVec S54x3 32 := broadcastInDim S54x3 ![] bcast_S_S54x3 main_c_29
  let main_v129 : IVec S54x3 1 := cmpi .slt main_v32 main_v128
  let main_c_30 : IVec S_ 32 := constantI S_ 32 72#32
  let main_v130 : IVec S54x3 32 := broadcastInDim S54x3 ![] bcast_S_S54x3 main_c_30
  let main_v131 : IVec S54x3 32 := addi main_v32 main_v130
  let main_v132 : IVec S54x3 32 := select main_v129 main_v131 main_v32
  let main_v133 : IVec S54x3x1 32 := broadcastInDim S54x3x1 ![0, 1] bcast_S54x3_S54x3x1_0_1 main_v132
  let main_v134 : FVec F S4096x54x3x16 .f32 := (fun x i => Host.gather gather_S4096x72x16_S54x3x1_S4096x54x3x16_03_1_n_n_1_2_4096116 x i) main_arg1 main_v133
  fn_part7 (F := F) main_arg1 main_arg2 main_arg3 main_arg4 main_arg5 main_v28 main_v30 main_v32 main_v74 main_v118 main_v120 main_v127 main_v134

def fn_part5 {F : FTy → Type} [FloatOps F] (main_arg1 : FVec F S4096x72x16 .f32) (main_arg2 : FVec F S5x48x32 .f32) (main_arg3 : FVec F S5x32 .f32) (main_arg4 : FVec F S5x64x32 .f32) (main_arg5 : FVec F S5x32 .f32) (main_v28 : IVec S_ 1) (main_v30 : IVec S54x3 32) (main_v32 : IVec S54x3 32) (main_v74 : IVec S_ 1) (main_v76 : FVec F S4096x54x32 .f32) (main_v94 : FVec F S4096x54x3x32 .f32) : IVec S_ 1 :=
  let main_v95 : FVec F S1x32 .f32 := (extractStridedSlice S1x32 ![1, 0] · slices_S5x32_S1x32_1_0) main_arg3
  let main_v96 : FVec F S32 .f32 := shapeCast S32 main_v95 shapeCasts_S1x32_S32
  let main_v97 : FVec F S1x1x1x32 .f32 := broadcastInDim S1x1x1x32 ![3] bcast_S32_S1x1x1x32_3 main_v96
  let main_v98 : FVec F S4096x54x3x32 .f32 := broadcastInDim S4096x54x3x32 ![0, 1, 2, 3] bcast_S1x1x1x32_S4096x54x3x32_0_1_2_3 main_v97
  let main_v99 : FVec F S4096x54x3x32 .f32 := addf main_v94 main_v98
  let main_v100 : FVec F S4096x54x3x32 .f32 := Host.tanh main_v99
  let main_cst_23 : FVec F S_ .f32 := constant S_ .f32 0xFF800000#32
  let main_v101 : FVec F S4096x54x32 .f32 := (fun x v => Host.reduce FloatOps.maximumf x v reducesTo_S4096x54x3x32_S4096x54x32_d2 h_S_) main_v100 main_cst_23
  let main_v102 : FVec F S4096x54x64 .f32 := (fun a b => concatenate S4096x54x64 2 [⟨S4096x54x32, a⟩, ⟨S4096x54x32, b⟩] concatenates_S4096x54x32_S4096x54x32_S4096x54x64_d2) main_v76 main_v101
  let main_v103 : FVec F S1x64x32 .f32 := (extractStridedSlice S1x64x32 ![1, 0, 0] · slices_S5x64x32_S1x64x32_1_0_0) main_arg4
  let main_v104 : FVec F S64x32 .f32 := shapeCast S64x32 main_v103 shapeCasts_S1x64x32_S64x32
  let main_v105 : FVec F S4096x54x32 .f32 := (fun l r => Host.dotGeneral dot_S4096x54x64_S64x32_S4096x54x32_2_0_01_1_n_n none l r) main_v102 main_v104
  let main_v106 : FVec F S1x32 .f32 := (extractStridedSlice S1x32 ![1, 0] · slices_S5x32_S1x32_1_0) main_arg5
  let main_v107 : FVec F S32 .f32 := shapeCast S32 main_v106 shapeCasts_S1x32_S32
  let main_v108 : FVec F S1x1x32 .f32 := broadcastInDim S1x1x32 ![2] bcast_S32_S1x1x32_2 main_v107
  let main_v109 : FVec F S4096x54x32 .f32 := broadcastInDim S4096x54x32 ![0, 1, 2] bcast_S1x1x32_S4096x54x32_0_1_2 main_v108
  let main_v110 : FVec F S4096x54x32 .f32 := addf main_v105 main_v109
  let main_v111 : FVec F S4096x54x32 .f32 := Host.tanh main_v110
  let main_v112 : FVec F S4096x54x32 .f32 := mulf main_v111 main_v111
  let main_cst_24 : FVec F S_ .f32 := constant S_ .f32 0x00000000#32
  let main_v113 : FVec F S4096x54 .f32 := (fun x v => Host.reduceAdd x v reducesTo_S4096x54x32_S4096x54_d2 h_S_) main_v112 main_cst_24
  let main_v114 : FVec F S4096x54x1 .f32 := broadcastInDim S4096x54x1 ![0, 1] bcast_S4096x54_S4096x54x1_0_1 main_v113
  let main_v115 : FVec F S4096x54x1 .f32 := Host.sqrt main_v114
  let main_cst_25 : FVec F S_ .f32 := constant S_ .f32 0x00000000#32
  fn_part6 (F := F) main_arg1 main_arg2 main_arg3 main_arg4 main_arg5 main_v28 main_v30 main_v32 main_v74 main_v111 main_v115 main_cst_25

def fn_part4 {F : FTy → Type} [FloatOps F] (main_arg1 : FVec F S4096x72x16 .f32) (main_arg2 : FVec F S5x48x32 .f32) (main_arg3 : FVec F S5x32 .f32) (main_arg4 : FVec F S5x64x32 .f32) (main_arg5 : FVec F S5x32 .f32) (main_v28 : IVec S_ 1) (main_v30 : IVec S54x3 32) (main_v32 : IVec S54x3 32) (main_v67 : FVec F S4096x54x32 .f32) (main_v71 : FVec F S4096x54x1 .f32) (main_v74 : IVec S_ 1) : IVec S_ 1 :=
  let main_v75 : FVec F S4096x54x32 .f32 := broadcastInDim S4096x54x32 ![0, 1, 2] bcast_S4096x54x1_S4096x54x32_0_1_2 main_v71
  let main_v76 : FVec F S4096x54x32 .f32 := Host.divf main_v67 main_v75
  let main_c_19 : IVec S_ 32 := constantI S_ 32 0#32
  let main_v77 : IVec S54x3 32 := broadcastInDim S54x3 ![] bcast_S_S54x3 main_c_19
  let main_v78 : IVec S54x3 1 := cmpi .slt main_v30 main_v77
  let main_c_20 : IVec S_ 32 := constantI S_ 32 54#32
  let main_v79 : IVec S54x3 32 := broadcastInDim S54x3 ![] bcast_S_S54x3 main_c_20
  let main_v80 : IVec S54x3 32 := addi main_v30 main_v79
  let main_v81 : IVec S54x3 32 := select main_v78 main_v80 main_v30
  let main_v82 : IVec S54x3x1 32 := broadcastInDim S54x3x1 ![0, 1] bcast_S54x3_S54x3x1_0_1 main_v81
  let main_v83 : FVec F S4096x54x3x32 .f32 := (fun x i => Host.gather gather_S4096x54x32_S54x3x1_S4096x54x3x32_03_1_n_n_1_2_4096132 x i) main_v76 main_v82
  let main_c_21 : IVec S_ 32 := constantI S_ 32 0#32
  let main_v84 : IVec S54x3 32 := broadcastInDim S54x3 ![] bcast_S_S54x3 main_c_21
  let main_v85 : IVec S54x3 1 := cmpi .slt main_v32 main_v84
  let main_c_22 : IVec S_ 32 := constantI S_ 32 72#32
  let main_v86 : IVec S54x3 32 := broadcastInDim S54x3 ![] bcast_S_S54x3 main_c_22
  let main_v87 : IVec S54x3 32 := addi main_v32 main_v86
  let main_v88 : IVec S54x3 32 := select main_v85 main_v87 main_v32
  let main_v89 : IVec S54x3x1 32 := broadcastInDim S54x3x1 ![0, 1] bcast_S54x3_S54x3x1_0_1 main_v88
  let main_v90 : FVec F S4096x54x3x16 .f32 := (fun x i => Host.gather gather_S4096x72x16_S54x3x1_S4096x54x3x16_03_1_n_n_1_2_4096116 x i) main_arg1 main_v89
  let main_v91 : FVec F S4096x54x3x48 .f32 := (fun a b => concatenate S4096x54x3x48 3 [⟨S4096x54x3x32, a⟩, ⟨S4096x54x3x16, b⟩] concatenates_S4096x54x3x32_S4096x54x3x16_S4096x54x3x48_d3) main_v83 main_v90
  let main_v92 : FVec F S1x48x32 .f32 := (extractStridedSlice S1x48x32 ![1, 0, 0] · slices_S5x48x32_S1x48x32_1_0_0) main_arg2
  let main_v93 : FVec F S48x32 .f32 := shapeCast S48x32 main_v92 shapeCasts_S1x48x32_S48x32
  let main_v94 : FVec F S4096x54x3x32 .f32 := (fun l r => Host.dotGeneral dot_S4096x54x3x48_S48x32_S4096x54x3x32_3_0_012_1_n_n none l r) main_v91 main_v93
  fn_part5 (F := F) main_arg1 main_arg2 main_arg3 main_arg4 main_arg5 main_v28 main_v30 main_v32 main_v74 main_v76 main_v94

def fn_part3 {F : FTy → Type} [FloatOps F] (main_arg0 : FVec F S4096x54x32 .f32) (main_arg1 : FVec F S4096x72x16 .f32) (main_arg2 : FVec F S5x48x32 .f32) (main_arg3 : FVec F S5x32 .f32) (main_arg4 : FVec F S5x64x32 .f32) (main_arg5 : FVec F S5x32 .f32) (main_v28 : IVec S_ 1) (main_v30 : IVec S54x3 32) (main_v32 : IVec S54x3 32) (main_v50 : FVec F S4096x54x3x32 .f32) (main_v54 : FVec F S4096x54x3x32 .f32) : IVec S_ 1 :=
  let main_v55 : FVec F S4096x54x3x32 .f32 := addf main_v50 main_v54
  let main_v56 : FVec F S4096x54x3x32 .f32 := Host.tanh main_v55
  let main_cst_15 : FVec F S_ .f32 := constant S_ .f32 0xFF800000#32
  let main_v57 : FVec F S4096x54x32 .f32 := (fun x v => Host.reduce FloatOps.maximumf x v reducesTo_S4096x54x3x32_S4096x54x32_d2 h_S_) main_v56 main_cst_15
  let main_v58 : FVec F S4096x54x64 .f32 := (fun a b => concatenate S4096x54x64 2 [⟨S4096x54x32, a⟩, ⟨S4096x54x32, b⟩] concatenates_S4096x54x32_S4096x54x32_S4096x54x64_d2) main_arg0 main_v57
  let main_v59 : FVec F S1x64x32 .f32 := (extractStridedSlice S1x64x32 ![0, 0, 0] · slices_S5x64x32_S1x64x32_0_0_0) main_arg4
  let main_v60 : FVec F S64x32 .f32 := shapeCast S64x32 main_v59 shapeCasts_S1x64x32_S64x32
  let main_v61 : FVec F S4096x54x32 .f32 := (fun l r => Host.dotGeneral dot_S4096x54x64_S64x32_S4096x54x32_2_0_01_1_n_n none l r) main_v58 main_v60
  let main_v62 : FVec F S1x32 .f32 := (extractStridedSlice S1x32 ![0, 0] · slices_S5x32_S1x32_0_0) main_arg5
  let main_v63 : FVec F S32 .f32 := shapeCast S32 main_v62 shapeCasts_S1x32_S32
  let main_v64 : FVec F S1x1x32 .f32 := broadcastInDim S1x1x32 ![2] bcast_S32_S1x1x32_2 main_v63
  let main_v65 : FVec F S4096x54x32 .f32 := broadcastInDim S4096x54x32 ![0, 1, 2] bcast_S1x1x32_S4096x54x32_0_1_2 main_v64
  let main_v66 : FVec F S4096x54x32 .f32 := addf main_v61 main_v65
  let main_v67 : FVec F S4096x54x32 .f32 := Host.tanh main_v66
  let main_v68 : FVec F S4096x54x32 .f32 := mulf main_v67 main_v67
  let main_cst_16 : FVec F S_ .f32 := constant S_ .f32 0x00000000#32
  let main_v69 : FVec F S4096x54 .f32 := (fun x v => Host.reduceAdd x v reducesTo_S4096x54x32_S4096x54_d2 h_S_) main_v68 main_cst_16
  let main_v70 : FVec F S4096x54x1 .f32 := broadcastInDim S4096x54x1 ![0, 1] bcast_S4096x54_S4096x54x1_0_1 main_v69
  let main_v71 : FVec F S4096x54x1 .f32 := Host.sqrt main_v70
  let main_cst_17 : FVec F S_ .f32 := constant S_ .f32 0x00000000#32
  let main_v72 : FVec F S4096x54x1 .f32 := broadcastInDim S4096x54x1 ![] bcast_S_S4096x54x1 main_cst_17
  let main_v73 : IVec S4096x54x1 1 := cmpf .une main_v71 main_v72
  let main_c_18 : IVec S_ 1 := constantI S_ 1 1#1
  let main_v74 : IVec S_ 1 := (fun x v => Host.reduce IntOp.andi x v reducesTo_S4096x54x1_S_d0_1_2 h_S_) main_v73 main_c_18
  fn_part4 (F := F) main_arg1 main_arg2 main_arg3 main_arg4 main_arg5 main_v28 main_v30 main_v32 main_v67 main_v71 main_v74

def fn_part2 {F : FTy → Type} [FloatOps F] (main_arg0 : FVec F S4096x54x32 .f32) (main_arg1 : FVec F S4096x72x16 .f32) (main_arg2 : FVec F S5x48x32 .f32) (main_arg3 : FVec F S5x32 .f32) (main_arg4 : FVec F S5x64x32 .f32) (main_arg5 : FVec F S5x32 .f32) (main_v28 : IVec S_ 1) (main_v30 : IVec S54x3 32) (main_v32 : IVec S54x3 32) (main_v33 : IVec S54x3 32) : IVec S_ 1 :=
  let main_v34 : IVec S54x3 1 := cmpi .slt main_v30 main_v33
  let main_c_12 : IVec S_ 32 := constantI S_ 32 54#32
  let main_v35 : IVec S54x3 32 := broadcastInDim S54x3 ![] bcast_S_S54x3 main_c_12
  let main_v36 : IVec S54x3 32 := addi main_v30 main_v35
  let main_v37 : IVec S54x3 32 := select main_v34 main_v36 main_v30
  let main_v38 : IVec S54x3x1 32 := broadcastInDim S54x3x1 ![0, 1] bcast_S54x3_S54x3x1_0_1 main_v37
  let main_v39 : FVec F S4096x54x3x32 .f32 := (fun x i => Host.gather gather_S4096x54x32_S54x3x1_S4096x54x3x32_03_1_n_n_1_2_4096132 x i) main_arg0 main_v38
  let main_c_13 : IVec S_ 32 := constantI S_ 32 0#32
  let main_v40 : IVec S54x3 32 := broadcastInDim S54x3 ![] bcast_S_S54x3 main_c_13
  let main_v41 : IVec S54x3 1 := cmpi .slt main_v32 main_v40
  let main_c_14 : IVec S_ 32 := constantI S_ 32 72#32
  let main_v42 : IVec S54x3 32 := broadcastInDim S54x3 ![] bcast_S_S54x3 main_c_14
  let main_v43 : IVec S54x3 32 := addi main_v32 main_v42
  let main_v44 : IVec S54x3 32 := select main_v41 main_v43 main_v32
  let main_v45 : IVec S54x3x1 32 := broadcastInDim S54x3x1 ![0, 1] bcast_S54x3_S54x3x1_0_1 main_v44
  let main_v46 : FVec F S4096x54x3x16 .f32 := (fun x i => Host.gather gather_S4096x72x16_S54x3x1_S4096x54x3x16_03_1_n_n_1_2_4096116 x i) main_arg1 main_v45
  let main_v47 : FVec F S4096x54x3x48 .f32 := (fun a b => concatenate S4096x54x3x48 3 [⟨S4096x54x3x32, a⟩, ⟨S4096x54x3x16, b⟩] concatenates_S4096x54x3x32_S4096x54x3x16_S4096x54x3x48_d3) main_v39 main_v46
  let main_v48 : FVec F S1x48x32 .f32 := (extractStridedSlice S1x48x32 ![0, 0, 0] · slices_S5x48x32_S1x48x32_0_0_0) main_arg2
  let main_v49 : FVec F S48x32 .f32 := shapeCast S48x32 main_v48 shapeCasts_S1x48x32_S48x32
  let main_v50 : FVec F S4096x54x3x32 .f32 := (fun l r => Host.dotGeneral dot_S4096x54x3x48_S48x32_S4096x54x3x32_3_0_012_1_n_n none l r) main_v47 main_v49
  let main_v51 : FVec F S1x32 .f32 := (extractStridedSlice S1x32 ![0, 0] · slices_S5x32_S1x32_0_0) main_arg3
  let main_v52 : FVec F S32 .f32 := shapeCast S32 main_v51 shapeCasts_S1x32_S32
  let main_v53 : FVec F S1x1x1x32 .f32 := broadcastInDim S1x1x1x32 ![3] bcast_S32_S1x1x1x32_3 main_v52
  let main_v54 : FVec F S4096x54x3x32 .f32 := broadcastInDim S4096x54x3x32 ![0, 1, 2, 3] bcast_S1x1x1x32_S4096x54x3x32_0_1_2_3 main_v53
  fn_part3 (F := F) main_arg0 main_arg1 main_arg2 main_arg3 main_arg4 main_arg5 main_v28 main_v30 main_v32 main_v50 main_v54

def fn_part1 {F : FTy → Type} [FloatOps F] (main_arg0 : FVec F S4096x54x32 .f32) (main_arg1 : FVec F S4096x72x16 .f32) (main_arg2 : FVec F S5x48x32 .f32) (main_arg3 : FVec F S5x32 .f32) (main_arg4 : FVec F S5x64x32 .f32) (main_arg5 : FVec F S5x32 .f32) (main_c : IVec S54x3x2 32) (main_v13 : IVec S_ 1) (main_v14 : FVec F S5x32 .f32) (main_v15 : FVec F S5x32 .f32) : IVec S_ 1 :=
  let main_v16 : IVec S5x32 1 := cmpf .olt main_v14 main_v15
  let main_c_6 : IVec S_ 1 := constantI S_ 1 1#1
  let main_v17 : IVec S_ 1 := (fun x v => Host.reduce IntOp.andi x v reducesTo_S5x32_S_d0_1 h_S_) main_v16 main_c_6
  let main_v18 : IVec S_ 1 := andi main_v13 main_v17
  let main_v19 : FVec F S5x64x32 .f32 := Host.absf main_arg4
  let main_cst_7 : FVec F S_ .f32 := constant S_ .f32 0x7F800000#32
  let main_v20 : FVec F S5x64x32 .f32 := broadcastInDim S5x64x32 ![] bcast_S_S5x64x32 main_cst_7
  let main_v21 : IVec S5x64x32 1 := cmpf .olt main_v19 main_v20
  let main_c_8 : IVec S_ 1 := constantI S_ 1 1#1
  let main_v22 : IVec S_ 1 := (fun x v => Host.reduce IntOp.andi x v reducesTo_S5x64x32_S_d0_1_2 h_S_) main_v21 main_c_8
  let main_v23 : IVec S_ 1 := andi main_v18 main_v22
  let main_v24 : FVec F S5x32 .f32 := Host.absf main_arg5
  let main_cst_9 : FVec F S_ .f32 := constant S_ .f32 0x7F800000#32
  let main_v25 : FVec F S5x32 .f32 := broadcastInDim S5x32 ![] bcast_S_S5x32 main_cst_9
  let main_v26 : IVec S5x32 1 := cmpf .olt main_v24 main_v25
  let main_c_10 : IVec S_ 1 := constantI S_ 1 1#1
  let main_v27 : IVec S_ 1 := (fun x v => Host.reduce IntOp.andi x v reducesTo_S5x32_S_d0_1 h_S_) main_v26 main_c_10
  let main_v28 : IVec S_ 1 := andi main_v23 main_v27
  let main_v29 : IVec S54x3x1 32 := (extractStridedSlice S54x3x1 ![0, 0, 0] · slices_S54x3x2_S54x3x1_0_0_0) main_c
  let main_v30 : IVec S54x3 32 := shapeCast S54x3 main_v29 shapeCasts_S54x3x1_S54x3
  let main_v31 : IVec S54x3x1 32 := (extractStridedSlice S54x3x1 ![0, 0, 1] · slices_S54x3x2_S54x3x1_0_0_1) main_c
  let main_v32 : IVec S54x3 32 := shapeCast S54x3 main_v31 shapeCasts_S54x3x1_S54x3
  let main_c_11 : IVec S_ 32 := constantI S_ 32 0#32
  let main_v33 : IVec S54x3 32 := broadcastInDim S54x3 ![] bcast_S_S54x3 main_c_11
  fn_part2 (F := F) main_arg0 main_arg1 main_arg2 main_arg3 main_arg4 main_arg5 main_v28 main_v30 main_v32 main_v33

def fn {F : FTy → Type} [FloatOps F] (main_arg0 : FVec F S4096x54x32 .f32) (main_arg1 : FVec F S4096x72x16 .f32) (main_arg2 : FVec F S5x48x32 .f32) (main_arg3 : FVec F S5x32 .f32) (main_arg4 : FVec F S5x64x32 .f32) (main_arg5 : FVec F S5x32 .f32) : IVec S_ 1 :=
  let main_c : IVec S54x3x2 32 := fun i => lit0 (S54x3x2.rowMajor i)
  let main_v0 : FVec F S4096x54x32 .f32 := Host.absf main_arg0
  let main_cst : FVec F S_ .f32 := constant S_ .f32 0x7F800000#32
  let main_v1 : FVec F S4096x54x32 .f32 := broadcastInDim S4096x54x32 ![] bcast_S_S4096x54x32 main_cst
  let main_v2 : IVec S4096x54x32 1 := cmpf .olt main_v0 main_v1
  let main_c_0 : IVec S_ 1 := constantI S_ 1 1#1
  let main_v3 : IVec S_ 1 := (fun x v => Host.reduce IntOp.andi x v reducesTo_S4096x54x32_S_d0_1_2 h_S_) main_v2 main_c_0
  let main_v4 : FVec F S4096x72x16 .f32 := Host.absf main_arg1
  let main_cst_1 : FVec F S_ .f32 := constant S_ .f32 0x7F800000#32
  let main_v5 : FVec F S4096x72x16 .f32 := broadcastInDim S4096x72x16 ![] bcast_S_S4096x72x16 main_cst_1
  let main_v6 : IVec S4096x72x16 1 := cmpf .olt main_v4 main_v5
  let main_c_2 : IVec S_ 1 := constantI S_ 1 1#1
  let main_v7 : IVec S_ 1 := (fun x v => Host.reduce IntOp.andi x v reducesTo_S4096x72x16_S_d0_1_2 h_S_) main_v6 main_c_2
  let main_v8 : IVec S_ 1 := andi main_v3 main_v7
  let main_v9 : FVec F S5x48x32 .f32 := Host.absf main_arg2
  let main_cst_3 : FVec F S_ .f32 := constant S_ .f32 0x7F800000#32
  let main_v10 : FVec F S5x48x32 .f32 := broadcastInDim S5x48x32 ![] bcast_S_S5x48x32 main_cst_3
  let main_v11 : IVec S5x48x32 1 := cmpf .olt main_v9 main_v10
  let main_c_4 : IVec S_ 1 := constantI S_ 1 1#1
  let main_v12 : IVec S_ 1 := (fun x v => Host.reduce IntOp.andi x v reducesTo_S5x48x32_S_d0_1_2 h_S_) main_v11 main_c_4
  let main_v13 : IVec S_ 1 := andi main_v8 main_v12
  let main_v14 : FVec F S5x32 .f32 := Host.absf main_arg3
  let main_cst_5 : FVec F S_ .f32 := constant S_ .f32 0x7F800000#32
  let main_v15 : FVec F S5x32 .f32 := broadcastInDim S5x32 ![] bcast_S_S5x32 main_cst_5
  fn_part1 (F := F) main_arg0 main_arg1 main_arg2 main_arg3 main_arg4 main_arg5 main_c main_v13 main_v14 main_v15
-- ==== Kernel.lean ====
abbrev S4096x54x32 : Shape := ⟨3, ![4096, 54, 32]⟩
abbrev S4096x72x16 : Shape := ⟨3, ![4096, 72, 16]⟩
abbrev S5x48x32 : Shape := ⟨3, ![5, 48, 32]⟩
abbrev S5x32 : Shape := ⟨2, ![5, 32]⟩
abbrev S5x64x32 : Shape := ⟨3, ![5, 64, 32]⟩
abbrev S5x32x32 : Shape := ⟨3, ![5, 32, 32]⟩
abbrev S5x16x32 : Shape := ⟨3, ![5, 16, 32]⟩
abbrev S4x4 : Shape := ⟨2, ![4, 4]⟩
abbrev S_ : Shape := ⟨0, ![]⟩
abbrev S1x4x1x4x1 : Shape := ⟨5, ![1, 4, 1, 4, 1]⟩
abbrev S5x1x32x1x32 : Shape := ⟨5, ![5, 1, 32, 1, 32]⟩
abbrev S5x4x32x4x32 : Shape := ⟨5, ![5, 4, 32, 4, 32]⟩
abbrev S5x128x128 : Shape := ⟨3, ![5, 128, 128]⟩
abbrev S5x1x16x1x32 : Shape := ⟨5, ![5, 1, 16, 1, 32]⟩
abbrev S5x4x16x4x32 : Shape := ⟨5, ![5, 4, 16, 4, 32]⟩
abbrev S5x64x128 : Shape := ⟨3, ![5, 64, 128]⟩
abbrev S1x5x1x32 : Shape := ⟨4, ![1, 5, 1, 32]⟩
abbrev S1x5x4x32 : Shape := ⟨4, ![1, 5, 4, 32]⟩
abbrev S5x128 : Shape := ⟨2, ![5, 128]⟩
abbrev S5x1x128 : Shape := ⟨3, ![5, 1, 128]⟩
abbrev S32x32 : Shape := ⟨2, ![32, 32]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S1024x54x32 : Shape := ⟨3, ![1024, 54, 32]⟩
abbrev S1024x72x16 : Shape := ⟨3, ![1024, 72, 16]⟩
abbrev S54x1024x32 : Shape := ⟨3, ![54, 1024, 32]⟩
abbrev S54x256x128 : Shape := ⟨3, ![54, 256, 128]⟩
abbrev S256x4x24x3x16 : Shape := ⟨5, ![256, 4, 24, 3, 16]⟩
abbrev S3x24x256x4x16 : Shape := ⟨5, ![3, 24, 256, 4, 16]⟩
abbrev S72x256x64 : Shape := ⟨3, ![72, 256, 64]⟩
abbrev S54x128x128 : Shape := ⟨3, ![54, 128, 128]⟩
abbrev S72x128x64 : Shape := ⟨3, ![72, 128, 64]⟩
abbrev S1x128x128 : Shape := ⟨3, ![1, 128, 128]⟩
abbrev S6912x128 : Shape := ⟨2, ![6912, 128]⟩
abbrev S1x64x128 : Shape := ⟨3, ![1, 64, 128]⟩
abbrev S64x128 : Shape := ⟨2, ![64, 128]⟩
abbrev S9216x64 : Shape := ⟨2, ![9216, 64]⟩
abbrev S9216x128 : Shape := ⟨2, ![9216, 128]⟩
abbrev S72x128x128 : Shape := ⟨3, ![72, 128, 128]⟩
abbrev S53x128x128 : Shape := ⟨3, ![53, 128, 128]⟩
abbrev S24x128x128 : Shape := ⟨3, ![24, 128, 128]⟩
abbrev S6x128x128 : Shape := ⟨3, ![6, 128, 128]⟩
abbrev S52x128x128 : Shape := ⟨3, ![52, 128, 128]⟩
abbrev S2x128x128 : Shape := ⟨3, ![2, 128, 128]⟩
abbrev S51x128x128 : Shape := ⟨3, ![51, 128, 128]⟩
abbrev S3x128x128 : Shape := ⟨3, ![3, 128, 128]⟩
abbrev S1x1x128 : Shape := ⟨3, ![1, 1, 128]⟩
abbrev S1x128 : Shape := ⟨2, ![1, 128]⟩

abbrev nBuf : Space → Nat
  | .hbm => 126
  | .vmem => 52
  | .smem => 0
  | _ => 0

abbrev bufTy : (tb : Table) → Fin (tcTables nBuf tb) → BufTy
  | .hbm, ⟨0, _⟩ => ⟨S4096x54x32, .f32⟩
  | .hbm, ⟨1, _⟩ => ⟨S4096x72x16, .f32⟩
  | .hbm, ⟨2, _⟩ => ⟨S5x48x32, .f32⟩
  | .hbm, ⟨3, _⟩ => ⟨S5x32, .f32⟩
  | .hbm, ⟨4, _⟩ => ⟨S5x64x32, .f32⟩
  | .hbm, ⟨5, _⟩ => ⟨S5x32, .f32⟩
  | .hbm, ⟨6, _⟩ => ⟨S5x32x32, .f32⟩
  | .hbm, ⟨7, _⟩ => ⟨S5x16x32, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S1x4x1x4x1, .f32⟩
  | .hbm, ⟨16, _⟩ => ⟨S5x1x32x1x32, .f32⟩
  | .hbm, ⟨17, _⟩ => ⟨S5x4x32x4x32, .f32⟩
  | .hbm, ⟨18, _⟩ => ⟨S5x4x32x4x32, .f32⟩
  | .hbm, ⟨19, _⟩ => ⟨S5x4x32x4x32, .f32⟩
  | .hbm, ⟨20, _⟩ => ⟨S5x128x128, .f32⟩
  | .hbm, ⟨21, _⟩ => ⟨S4x4, .i32⟩
  | .hbm, ⟨22, _⟩ => ⟨S4x4, .i32⟩
  | .hbm, ⟨23, _⟩ => ⟨S_, .i32⟩
  | .hbm, ⟨24, _⟩ => ⟨S4x4, .i32⟩
  | .hbm, ⟨25, _⟩ => ⟨S4x4, .i32⟩
  | .hbm, ⟨26, _⟩ => ⟨S4x4, .i1⟩
  | .hbm, ⟨27, _⟩ => ⟨S4x4, .f32⟩
  | .hbm, ⟨28, _⟩ => ⟨S1x4x1x4x1, .f32⟩
  | .hbm, ⟨29, _⟩ => ⟨S5x1x16x1x32, .f32⟩
  | .hbm, ⟨30, _⟩ => ⟨S5x4x16x4x32, .f32⟩
  | .hbm, ⟨31, _⟩ => ⟨S5x4x16x4x32, .f32⟩
  | .hbm, ⟨32, _⟩ => ⟨S5x4x16x4x32, .f32⟩
  | .hbm, ⟨33, _⟩ => ⟨S5x64x128, .f32⟩
  | .hbm, ⟨34, _⟩ => ⟨S5x32x32, .f32⟩
  | .hbm, ⟨35, _⟩ => ⟨S4x4, .i32⟩
  | .hbm, ⟨36, _⟩ => ⟨S4x4, .i32⟩
  | .hbm, ⟨37, _⟩ => ⟨S_, .i32⟩
  | .hbm, ⟨38, _⟩ => ⟨S4x4, .i32⟩
  | .hbm, ⟨39, _⟩ => ⟨S4x4, .i32⟩
  | .hbm, ⟨40, _⟩ => ⟨S4x4, .i1⟩
  | .hbm, ⟨41, _⟩ => ⟨S4x4, .f32⟩
  | .hbm, ⟨42, _⟩ => ⟨S1x4x1x4x1, .f32⟩
  | .hbm, ⟨43, _⟩ => ⟨S5x1x32x1x32, .f32⟩
  | .hbm, ⟨44, _⟩ => ⟨S5x4x32x4x32, .f32⟩
  | .hbm, ⟨45, _⟩ => ⟨S5x4x32x4x32, .f32⟩
  | .hbm, ⟨46, _⟩ => ⟨S5x4x32x4x32, .f32⟩
  | .hbm, ⟨47, _⟩ => ⟨S5x128x128, .f32⟩
  | .hbm, ⟨48, _⟩ => ⟨S5x32x32, .f32⟩
  | .hbm, ⟨49, _⟩ => ⟨S4x4, .i32⟩
  | .hbm, ⟨50, _⟩ => ⟨S4x4, .i32⟩
  | .hbm, ⟨51, _⟩ => ⟨S_, .i32⟩
  | .hbm, ⟨52, _⟩ => ⟨S4x4, .i32⟩
  | .hbm, ⟨53, _⟩ => ⟨S4x4, .i32⟩
  | .hbm, ⟨54, _⟩ => ⟨S4x4, .i1⟩
  | .hbm, ⟨55, _⟩ => ⟨S4x4, .f32⟩
  | .hbm, ⟨56, _⟩ => ⟨S1x4x1x4x1, .f32⟩
  | .hbm, ⟨57, _⟩ => ⟨S5x1x32x1x32, .f32⟩
  | .hbm, ⟨58, _⟩ => ⟨S5x4x32x4x32, .f32⟩
  | .hbm, ⟨59, _⟩ => ⟨S5x4x32x4x32, .f32⟩
  | .hbm, ⟨60, _⟩ => ⟨S5x4x32x4x32, .f32⟩
  | .hbm, ⟨61, _⟩ => ⟨S5x128x128, .f32⟩
  | .hbm, ⟨62, _⟩ => ⟨S1x5x1x32, .f32⟩
  | .hbm, ⟨63, _⟩ => ⟨S1x5x4x32, .f32⟩
  | .hbm, ⟨64, _⟩ => ⟨S5x128, .f32⟩
  | .hbm, ⟨65, _⟩ => ⟨S5x1x128, .f32⟩
  | .hbm, ⟨66, _⟩ => ⟨S1x5x1x32, .f32⟩
  | .hbm, ⟨67, _⟩ => ⟨S1x5x4x32, .f32⟩
  | .hbm, ⟨68, _⟩ => ⟨S5x128, .f32⟩
  | .hbm, ⟨69, _⟩ => ⟨S5x1x128, .f32⟩
  | .hbm, ⟨70, _⟩ => ⟨S4x4, .i32⟩
  | .hbm, ⟨71, _⟩ => ⟨S4x4, .i32⟩
  | .hbm, ⟨72, _⟩ => ⟨S_, .i32⟩
  | .hbm, ⟨73, _⟩ => ⟨S4x4, .i32⟩
  | .hbm, ⟨74, _⟩ => ⟨S4x4, .i32⟩
  | .hbm, ⟨75, _⟩ => ⟨S4x4, .i1⟩
  | .hbm, ⟨76, _⟩ => ⟨S4x4, .f32⟩
  | .hbm, ⟨77, _⟩ => ⟨S_, .f32⟩
  | .hbm, ⟨78, _⟩ => ⟨S32x32, .f32⟩
  | .hbm, ⟨79, _⟩ => ⟨S4x1x4x1, .f32⟩
  | .hbm, ⟨80, _⟩ => ⟨S1x32x1x32, .f32⟩
  | .hbm, ⟨81, _⟩ => ⟨S4x32x4x32, .f32⟩
  | .hbm, ⟨82, _⟩ => ⟨S4x32x4x32, .f32⟩
  | .hbm, ⟨83, _⟩ => ⟨S4x32x4x32, .f32⟩
  | .hbm, ⟨84, _⟩ => ⟨S128x128, .f32⟩
  | .hbm, ⟨85, _⟩ => ⟨S1024x54x32, .f32⟩
  | .hbm, ⟨86, _⟩ => ⟨S1024x72x16, .f32⟩
  | .hbm, ⟨87, _⟩ => ⟨S54x1024x32, .f32⟩
  | .hbm, ⟨88, _⟩ => ⟨S54x256x128, .f32⟩
  | .hbm, ⟨89, _⟩ => ⟨S256x4x24x3x16, .f32⟩
  | .hbm, ⟨90, _⟩ => ⟨S3x24x256x4x16, .f32⟩
  | .hbm, ⟨91, _⟩ => ⟨S72x256x64, .f32⟩
  | .hbm, ⟨92, _⟩ => ⟨S54x256x128, .f32⟩
  | .hbm, ⟨93, _⟩ => ⟨S54x1024x32, .f32⟩
  | .hbm, ⟨94, _⟩ => ⟨S1024x54x32, .f32⟩
  | .hbm, ⟨95, _⟩ => ⟨S1024x54x32, .f32⟩
  | .hbm, ⟨96, _⟩ => ⟨S1024x72x16, .f32⟩
  | .hbm, ⟨97, _⟩ => ⟨S54x1024x32, .f32⟩
  | .hbm, ⟨98, _⟩ => ⟨S54x256x128, .f32⟩
  | .hbm, ⟨99, _⟩ => ⟨S256x4x24x3x16, .f32⟩
  | .hbm, ⟨100, _⟩ => ⟨S3x24x256x4x16, .f32⟩
  | .hbm, ⟨101, _⟩ => ⟨S72x256x64, .f32⟩
  | .hbm, ⟨102, _⟩ => ⟨S54x256x128, .f32⟩
  | .hbm, ⟨103, _⟩ => ⟨S54x1024x32, .f32⟩
  | .hbm, ⟨104, _⟩ => ⟨S1024x54x32, .f32⟩
  | .hbm, ⟨105, _⟩ => ⟨S1024x54x32, .f32⟩
  | .hbm, ⟨106, _⟩ => ⟨S1024x72x16, .f32⟩
  | .hbm, ⟨107, _⟩ => ⟨S54x1024x32, .f32⟩
  | .hbm, ⟨108, _⟩ => ⟨S54x256x128, .f32⟩
  | .hbm, ⟨109, _⟩ => ⟨S256x4x24x3x16, .f32⟩
  | .hbm, ⟨110, _⟩ => ⟨S3x24x256x4x16, .f32⟩
  | .hbm, ⟨111, _⟩ => ⟨S72x256x64, .f32⟩
  | .hbm, ⟨112, _⟩ => ⟨S54x256x128, .f32⟩
  | .hbm, ⟨113, _⟩ => ⟨S54x1024x32, .f32⟩
  | .hbm, ⟨114, _⟩ => ⟨S1024x54x32, .f32⟩
  | .hbm, ⟨115, _⟩ => ⟨S1024x54x32, .f32⟩
  | .hbm, ⟨116, _⟩ => ⟨S1024x72x16, .f32⟩
  | .hbm, ⟨117, _⟩ => ⟨S54x1024x32, .f32⟩
  | .hbm, ⟨118, _⟩ => ⟨S54x256x128, .f32⟩
  | .hbm, ⟨119, _⟩ => ⟨S256x4x24x3x16, .f32⟩
  | .hbm, ⟨120, _⟩ => ⟨S3x24x256x4x16, .f32⟩
  | .hbm, ⟨121, _⟩ => ⟨S72x256x64, .f32⟩
  | .hbm, ⟨122, _⟩ => ⟨S54x256x128, .f32⟩
  | .hbm, ⟨123, _⟩ => ⟨S54x1024x32, .f32⟩
  | .hbm, ⟨124, _⟩ => ⟨S1024x54x32, .f32⟩
  | .hbm, ⟨125, _⟩ => ⟨S4096x54x32, .f32⟩
  | .local _ .vmem, ⟨0, _⟩ => ⟨S54x128x128, .f32⟩
  | .local _ .vmem, ⟨1, _⟩ => ⟨S54x128x128, .f32⟩
  | .local _ .vmem, ⟨2, _⟩ => ⟨S72x128x64, .f32⟩
  | .local _ .vmem, ⟨3, _⟩ => ⟨S72x128x64, .f32⟩
  | .local _ .vmem, ⟨4, _⟩ => ⟨S5x128x128, .f32⟩
  | .local _ .vmem, ⟨5, _⟩ => ⟨S5x64x128, .f32⟩
  | .local _ .vmem, ⟨6, _⟩ => ⟨S5x128x128, .f32⟩
  | .local _ .vmem, ⟨7, _⟩ => ⟨S5x128x128, .f32⟩
  | .local _ .vmem, ⟨8, _⟩ => ⟨S5x1x128, .f32⟩
  | .local _ .vmem, ⟨9, _⟩ => ⟨S5x1x128, .f32⟩
  | .local _ .vmem, ⟨10, _⟩ => ⟨S128x128, .f32⟩
  | .local _ .vmem, ⟨11, _⟩ => ⟨S54x128x128, .f32⟩
  | .local _ .vmem, ⟨12, _⟩ => ⟨S54x128x128, .f32⟩
  | .local _ .vmem, ⟨13, _⟩ => ⟨S54x128x128, .f32⟩
  | .local _ .vmem, ⟨14, _⟩ => ⟨S54x128x128, .f32⟩
  | .local _ .vmem, ⟨15, _⟩ => ⟨S72x128x64, .f32⟩
  | .local _ .vmem, ⟨16, _⟩ => ⟨S72x128x64, .f32⟩
  | .local _ .vmem, ⟨17, _⟩ => ⟨S5x128x128, .f32⟩
  | .local _ .vmem, ⟨18, _⟩ => ⟨S5x64x128, .f32⟩
  | .local _ .vmem, ⟨19, _⟩ => ⟨S5x128x128, .f32⟩
  | .local _ .vmem, ⟨20, _⟩ => ⟨S5x128x128, .f32⟩
  | .local _ .vmem, ⟨21, _⟩ => ⟨S5x1x128, .f32⟩
  | .local _ .vmem, ⟨22, _⟩ => ⟨S5x1x128, .f32⟩
  | .local _ .vmem, ⟨23, _⟩ => ⟨S128x128, .f32⟩
  | .local _ .vmem, ⟨24, _⟩ => ⟨S54x128x128, .f32⟩
  | .local _ .vmem, ⟨25, _⟩ => ⟨S54x128x128, .f32⟩
  | .local _ .vmem, ⟨26, _⟩ => ⟨S54x128x128, .f32⟩
  | .local _ .vmem, ⟨27, _⟩ => ⟨S54x128x128, .f32⟩
  | .local _ .vmem, ⟨28, _⟩ => ⟨S72x128x64, .f32⟩
  | .local _ .vmem, ⟨29, _⟩ => ⟨S72x128x64, .f32⟩
  | .local _ .vmem, ⟨30, _⟩ => ⟨S5x128x128, .f32⟩
  | .local _ .vmem, ⟨31, _⟩ => ⟨S5x64x128, .f32⟩
  | .local _ .vmem, ⟨32, _⟩ => ⟨S5x128x128, .f32⟩
  | .local _ .vmem, ⟨33, _⟩ => ⟨S5x128x128, .f32⟩
  | .local _ .vmem, ⟨34, _⟩ => ⟨S5x1x128, .f32⟩
  | .local _ .vmem, ⟨35, _⟩ => ⟨S5x1x128, .f32⟩
  | .local _ .vmem, ⟨36, _⟩ => ⟨S128x128, .f32⟩
  | .local _ .vmem, ⟨37, _⟩ => ⟨S54x128x128, .f32⟩
  | .local _ .vmem, ⟨38, _⟩ => ⟨S54x128x128, .f32⟩
  | .local _ .vmem, ⟨39, _⟩ => ⟨S54x128x128, .f32⟩
  | .local _ .vmem, ⟨40, _⟩ => ⟨S54x128x128, .f32⟩
  | .local _ .vmem, ⟨41, _⟩ => ⟨S72x128x64, .f32⟩
  | .local _ .vmem, ⟨42, _⟩ => ⟨S72x128x64, .f32⟩
  | .local _ .vmem, ⟨43, _⟩ => ⟨S5x128x128, .f32⟩
  | .local _ .vmem, ⟨44, _⟩ => ⟨S5x64x128, .f32⟩
  | .local _ .vmem, ⟨45, _⟩ => ⟨S5x128x128, .f32⟩
  | .local _ .vmem, ⟨46, _⟩ => ⟨S5x128x128, .f32⟩
  | .local _ .vmem, ⟨47, _⟩ => ⟨S5x1x128, .f32⟩
  | .local _ .vmem, ⟨48, _⟩ => ⟨S5x1x128, .f32⟩
  | .local _ .vmem, ⟨49, _⟩ => ⟨S128x128, .f32⟩
  | .local _ .vmem, ⟨50, _⟩ => ⟨S54x128x128, .f32⟩
  | .local _ .vmem, ⟨51, _⟩ => ⟨S54x128x128, .f32⟩
  | _, _ => ⟨S4096x54x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_2 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_c_3 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_cst : Ref sig .tc := ⟨.hbm, 77, rfl⟩
abbrev main_v66 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg9_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem9_1 : DmaSem sig := 51

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S54x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S72x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S54x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S54x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S72x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5x64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S5x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S5x128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S5x1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S5x1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S54x128x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S54x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S72x128x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S5x128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S5x64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S5x128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S5x128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S5x1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S5x1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S54x128x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S54x128x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S72x128x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S5x128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S5x64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S5x128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S5x128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S5x1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S5x1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S54x128x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S5x48x32_S5x32x32_0_0_0 : S5x48x32.Slices ![0, 0, 0] S5x32x32
  slices_S5x48x32_S5x16x32_0_32_0 : S5x48x32.Slices ![0, 32, 0] S5x16x32
  bcast_S_S4x4 : S_.BroadcastsInDim S4x4 (![] : Fin 0 → Fin S4x4.rank)
  bcast_S4x4_S1x4x1x4x1_1_3 : S4x4.BroadcastsInDim S1x4x1x4x1 (![1, 3] : Fin 2 → Fin S1x4x1x4x1.rank)
  bcast_S5x32x32_S5x1x32x1x32_0_2_4 : S5x32x32.BroadcastsInDim S5x1x32x1x32 (![0, 2, 4] : Fin 3 → Fin S5x1x32x1x32.rank)
  bcast_S1x4x1x4x1_S5x4x32x4x32_0_1_2_3_4 : S1x4x1x4x1.BroadcastsInDim S5x4x32x4x32 (![0, 1, 2, 3, 4] : Fin 5 → Fin S5x4x32x4x32.rank)
  bcast_S5x1x32x1x32_S5x4x32x4x32_0_1_2_3_4 : S5x1x32x1x32.BroadcastsInDim S5x4x32x4x32 (![0, 1, 2, 3, 4] : Fin 5 → Fin S5x4x32x4x32.rank)
  shapeCasts_S5x4x32x4x32_S5x128x128 : S5x4x32x4x32.ShapeCasts S5x128x128
  bcast_S5x16x32_S5x1x16x1x32_0_2_4 : S5x16x32.BroadcastsInDim S5x1x16x1x32 (![0, 2, 4] : Fin 3 → Fin S5x1x16x1x32.rank)
  bcast_S1x4x1x4x1_S5x4x16x4x32_0_1_2_3_4 : S1x4x1x4x1.BroadcastsInDim S5x4x16x4x32 (![0, 1, 2, 3, 4] : Fin 5 → Fin S5x4x16x4x32.rank)
  bcast_S5x1x16x1x32_S5x4x16x4x32_0_1_2_3_4 : S5x1x16x1x32.BroadcastsInDim S5x4x16x4x32 (![0, 1, 2, 3, 4] : Fin 5 → Fin S5x4x16x4x32.rank)
  shapeCasts_S5x4x16x4x32_S5x64x128 : S5x4x16x4x32.ShapeCasts S5x64x128
  slices_S5x64x32_S5x32x32_0_0_0 : S5x64x32.Slices ![0, 0, 0] S5x32x32
  slices_S5x64x32_S5x32x32_0_32_0 : S5x64x32.Slices ![0, 32, 0] S5x32x32
  shapeCasts_S5x32_S1x5x1x32 : S5x32.ShapeCasts S1x5x1x32
  bcast_S1x5x1x32_S1x5x4x32_0_1_2_3 : S1x5x1x32.BroadcastsInDim S1x5x4x32 (![0, 1, 2, 3] : Fin 4 → Fin S1x5x4x32.rank)
  shapeCasts_S1x5x4x32_S5x128 : S1x5x4x32.ShapeCasts S5x128
  shapeCasts_S5x128_S5x1x128 : S5x128.ShapeCasts S5x1x128
  bcast_S_S32x32 : S_.BroadcastsInDim S32x32 (![] : Fin 0 → Fin S32x32.rank)
  bcast_S4x4_S4x1x4x1_0_2 : S4x4.BroadcastsInDim S4x1x4x1 (![0, 2] : Fin 2 → Fin S4x1x4x1.rank)
  bcast_S32x32_S1x32x1x32_1_3 : S32x32.BroadcastsInDim S1x32x1x32 (![1, 3] : Fin 2 → Fin S1x32x1x32.rank)
  bcast_S4x1x4x1_S4x32x4x32_0_1_2_3 : S4x1x4x1.BroadcastsInDim S4x32x4x32 (![0, 1, 2, 3] : Fin 4 → Fin S4x32x4x32.rank)
  bcast_S1x32x1x32_S4x32x4x32_0_1_2_3 : S1x32x1x32.BroadcastsInDim S4x32x4x32 (![0, 1, 2, 3] : Fin 4 → Fin S4x32x4x32.rank)
  shapeCasts_S4x32x4x32_S128x128 : S4x32x4x32.ShapeCasts S128x128
  slices_S4096x54x32_S1024x54x32_0_0_0 : S4096x54x32.Slices ![0, 0, 0] S1024x54x32
  slices_S4096x72x16_S1024x72x16_0_0_0 : S4096x72x16.Slices ![0, 0, 0] S1024x72x16
  transposes_S1024x54x32_S54x1024x32_1_0_2 : S1024x54x32.Transposes [1, 0, 2] S54x1024x32
  shapeCasts_S54x1024x32_S54x256x128 : S54x1024x32.ShapeCasts S54x256x128
  shapeCasts_S1024x72x16_S256x4x24x3x16 : S1024x72x16.ShapeCasts S256x4x24x3x16
  transposes_S256x4x24x3x16_S3x24x256x4x16_3_2_0_1_4 : S256x4x24x3x16.Transposes [3, 2, 0, 1, 4] S3x24x256x4x16
  shapeCasts_S3x24x256x4x16_S72x256x64 : S3x24x256x4x16.ShapeCasts S72x256x64
  inb_S54x128x128_S54x128x128_0_0_0 : ∀ a, (![0, 0, 0] : Fin 3 → Nat) a + S54x128x128.size a ≤ S54x128x128.size a
  h_S54x128x128 : 0 < S54x128x128.numel
  shapeCasts_S54x128x128_S54x128x128 : S54x128x128.ShapeCasts S54x128x128
  inb_S72x128x64_S72x128x64_0_0_0 : ∀ a, (![0, 0, 0] : Fin 3 → Nat) a + S72x128x64.size a ≤ S72x128x64.size a
  h_S72x128x64 : 0 < S72x128x64.numel
  shapeCasts_S72x128x64_S72x128x64 : S72x128x64.ShapeCasts S72x128x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  shapeCasts_S54x128x128_S6912x128 : S54x128x128.ShapeCasts S6912x128
  shapeCasts_S6912x128_S54x128x128 : S6912x128.ShapeCasts S54x128x128
  inb_S5x64x128_S1x64x128_0_0_0 : ∀ a, (![0, 0, 0] : Fin 3 → Nat) a + S1x64x128.size a ≤ S5x64x128.size a
  h_S1x64x128 : 0 < S1x64x128.numel
  shapeCasts_S1x64x128_S64x128 : S1x64x128.ShapeCasts S64x128
  shapeCasts_S72x128x64_S9216x64 : S72x128x64.ShapeCasts S9216x64
  shapeCasts_S9216x128_S72x128x128 : S9216x128.ShapeCasts S72x128x128
  slices_S54x128x128_o1_0_0_S53x128x128 : S54x128x128.Slices ![1, 0, 0] S53x128x128
  slices_S54x128x128_o0_0_0_S1x128x128 : S54x128x128.Slices ![0, 0, 0] S1x128x128
  concatenates_S53x128x128_S1x128x128_S54x128x128_d0 : Shape.Concatenates [S53x128x128, S1x128x128] S54x128x128 0
  slices_S72x128x128_o0_0_0_S24x128x128 : S72x128x128.Slices ![0, 0, 0] S24x128x128
  slices_S24x128x128_o0_0_0_S6x128x128 : S24x128x128.Slices ![0, 0, 0] S6x128x128
  concatenates_S24x128x128_S24x128x128_S6x128x128_S54x128x128_d0 : Shape.Concatenates [S24x128x128, S24x128x128, S6x128x128] S54x128x128 0
  slices_S54x128x128_o2_0_0_S52x128x128 : S54x128x128.Slices ![2, 0, 0] S52x128x128
  slices_S54x128x128_o0_0_0_S2x128x128 : S54x128x128.Slices ![0, 0, 0] S2x128x128
  concatenates_S52x128x128_S2x128x128_S54x128x128_d0 : Shape.Concatenates [S52x128x128, S2x128x128] S54x128x128 0
  slices_S72x128x128_o24_0_0_S24x128x128 : S72x128x128.Slices ![24, 0, 0] S24x128x128
  slices_S54x128x128_o3_0_0_S51x128x128 : S54x128x128.Slices ![3, 0, 0] S51x128x128
  slices_S54x128x128_o0_0_0_S3x128x128 : S54x128x128.Slices ![0, 0, 0] S3x128x128
  concatenates_S51x128x128_S3x128x128_S54x128x128_d0 : Shape.Concatenates [S51x128x128, S3x128x128] S54x128x128 0
  slices_S72x128x128_o48_0_0_S24x128x128 : S72x128x128.Slices ![48, 0, 0] S24x128x128
  inb_S5x1x128_S1x1x128_0_0_0 : ∀ a, (![0, 0, 0] : Fin 3 → Nat) a + S1x1x128.size a ≤ S5x1x128.size a
  h_S1x1x128 : 0 < S1x1x128.numel
  shapeCasts_S1x1x128_S1x128 : S1x1x128.ShapeCasts S1x128
  shapeCasts_S1x128_S1x1x128 : S1x128.ShapeCasts S1x1x128
  broadcasts_S1x1x128_S54x128x128 : S1x1x128.Broadcasts S54x128x128
  inb_S5x128x128_S1x128x128_1_0_0 : ∀ a, (![1, 0, 0] : Fin 3 → Nat) a + S1x128x128.size a ≤ S5x128x128.size a
  inb_S5x64x128_S1x64x128_1_0_0 : ∀ a, (![1, 0, 0] : Fin 3 → Nat) a + S1x64x128.size a ≤ S5x64x128.size a
  inb_S5x1x128_S1x1x128_1_0_0 : ∀ a, (![1, 0, 0] : Fin 3 → Nat) a + S1x1x128.size a ≤ S5x1x128.size a
  inb_S5x128x128_S1x128x128_2_0_0 : ∀ a, (![2, 0, 0] : Fin 3 → Nat) a + S1x128x128.size a ≤ S5x128x128.size a
  inb_S5x64x128_S1x64x128_2_0_0 : ∀ a, (![2, 0, 0] : Fin 3 → Nat) a + S1x64x128.size a ≤ S5x64x128.size a
  inb_S5x1x128_S1x1x128_2_0_0 : ∀ a, (![2, 0, 0] : Fin 3 → Nat) a + S1x1x128.size a ≤ S5x1x128.size a
  inb_S5x128x128_S1x128x128_3_0_0 : ∀ a, (![3, 0, 0] : Fin 3 → Nat) a + S1x128x128.size a ≤ S5x128x128.size a
  inb_S5x64x128_S1x64x128_3_0_0 : ∀ a, (![3, 0, 0] : Fin 3 → Nat) a + S1x64x128.size a ≤ S5x64x128.size a
  inb_S5x1x128_S1x1x128_3_0_0 : ∀ a, (![3, 0, 0] : Fin 3 → Nat) a + S1x1x128.size a ≤ S5x1x128.size a
  inb_S5x128x128_S1x128x128_4_0_0 : ∀ a, (![4, 0, 0] : Fin 3 → Nat) a + S1x128x128.size a ≤ S5x128x128.size a
  inb_S5x64x128_S1x64x128_4_0_0 : ∀ a, (![4, 0, 0] : Fin 3 → Nat) a + S1x64x128.size a ≤ S5x64x128.size a
  inb_S5x1x128_S1x1x128_4_0_0 : ∀ a, (![4, 0, 0] : Fin 3 → Nat) a + S1x1x128.size a ≤ S5x1x128.size a
  shapeCasts_S54x256x128_S54x1024x32 : S54x256x128.ShapeCasts S54x1024x32
  transposes_S54x1024x32_S1024x54x32_1_0_2 : S54x1024x32.Transposes [1, 0, 2] S1024x54x32
  slices_S4096x54x32_S1024x54x32_1024_0_0 : S4096x54x32.Slices ![1024, 0, 0] S1024x54x32
  slices_S4096x72x16_S1024x72x16_1024_0_0 : S4096x72x16.Slices ![1024, 0, 0] S1024x72x16
  slices_S4096x54x32_S1024x54x32_2048_0_0 : S4096x54x32.Slices ![2048, 0, 0] S1024x54x32
  slices_S4096x72x16_S1024x72x16_2048_0_0 : S4096x72x16.Slices ![2048, 0, 0] S1024x72x16
  slices_S4096x54x32_S1024x54x32_3072_0_0 : S4096x54x32.Slices ![3072, 0, 0] S1024x54x32
  slices_S4096x72x16_S1024x72x16_3072_0_0 : S4096x72x16.Slices ![3072, 0, 0] S1024x72x16
  concatenates_S1024x54x32_S1024x54x32_S1024x54x32_S1024x54x32_S4096x54x32_d0 : Shape.Concatenates [S1024x54x32, S1024x54x32, S1024x54x32, S1024x54x32] S4096x54x32 0
  dot_S6912x128_S128x128_S6912x128_1_0_0_1_n_n_wf : DotDims.WF S6912x128 S128x128 S6912x128 [1] [0] [0] [1] [] []
  dot_S9216x64_S64x128_S9216x128_1_0_0_1_n_n_wf : DotDims.WF S9216x64 S64x128 S9216x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S54x128x128.size a ≤ S54x256x128.size a
  hwx0_0 : ∀ i : grid0.Coords, EltTy.bits .f32 = 32 ∨ (Rect.block (s := S54x256x128) S54x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S72x128x64.size a ≤ S72x256x64.size a
  hwx0_1 : ∀ i : grid0.Coords, EltTy.bits .f32 = 32 ∨ (Rect.block (s := S72x256x64) S72x128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x128x128.size a ≤ S5x128x128.size a
  hwx0_2 : ∀ i : grid0.Coords, EltTy.bits .f32 = 32 ∨ (Rect.block (s := S5x128x128) S5x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x64x128.size a ≤ S5x64x128.size a
  hwx0_3 : ∀ i : grid0.Coords, EltTy.bits .f32 = 32 ∨ (Rect.block (s := S5x64x128) S5x64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x128x128.size a ≤ S5x128x128.size a
  hwx0_4 : ∀ i : grid0.Coords, EltTy.bits .f32 = 32 ∨ (Rect.block (s := S5x128x128) S5x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128x128.size a ≤ S5x128x128.size a
  hwx0_5 : ∀ i : grid0.Coords, EltTy.bits .f32 = 32 ∨ (Rect.block (s := S5x128x128) S5x128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x1x128.size a ≤ S5x1x128.size a
  hwx0_6 : ∀ i : grid0.Coords, EltTy.bits .f32 = 32 ∨ (Rect.block (s := S5x1x128) S5x1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5x1x128.size a ≤ S5x1x128.size a
  hwx0_7 : ∀ i : grid0.Coords, EltTy.bits .f32 = 32 ∨ (Rect.block (s := S5x1x128) S5x1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S54x128x128.size a ≤ S54x256x128.size a
  hwx0_9 : ∀ i : grid0.Coords, EltTy.bits .f32 = 32 ∨ (Rect.block (s := S54x256x128) S54x128x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S54x128x128.size a ≤ S54x256x128.size a
  hwx1_0 : ∀ i : grid1.Coords, EltTy.bits .f32 = 32 ∨ (Rect.block (s := S54x256x128) S54x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S72x128x64.size a ≤ S72x256x64.size a
  hwx1_1 : ∀ i : grid1.Coords, EltTy.bits .f32 = 32 ∨ (Rect.block (s := S72x256x64) S72x128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x128x128.size a ≤ S5x128x128.size a
  hwx1_2 : ∀ i : grid1.Coords, EltTy.bits .f32 = 32 ∨ (Rect.block (s := S5x128x128) S5x128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x64x128.size a ≤ S5x64x128.size a
  hwx1_3 : ∀ i : grid1.Coords, EltTy.bits .f32 = 32 ∨ (Rect.block (s := S5x64x128) S5x64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S5x128x128.size a ≤ S5x128x128.size a
  hwx1_4 : ∀ i : grid1.Coords, EltTy.bits .f32 = 32 ∨ (Rect.block (s := S5x128x128) S5x128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S5x128x128.size a ≤ S5x128x128.size a
  hwx1_5 : ∀ i : grid1.Coords, EltTy.bits .f32 = 32 ∨ (Rect.block (s := S5x128x128) S5x128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S5x1x128.size a ≤ S5x1x128.size a
  hwx1_6 : ∀ i : grid1.Coords, EltTy.bits .f32 = 32 ∨ (Rect.block (s := S5x1x128) S5x1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S5x1x128.size a ≤ S5x1x128.size a
  hwx1_7 : ∀ i : grid1.Coords, EltTy.bits .f32 = 32 ∨ (Rect.block (s := S5x1x128) S5x1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S54x128x128.size a ≤ S54x256x128.size a
  hwx1_9 : ∀ i : grid1.Coords, EltTy.bits .f32 = 32 ∨ (Rect.block (s := S54x256x128) S54x128x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S54x128x128.size a ≤ S54x256x128.size a
  hwx2_0 : ∀ i : grid2.Coords, EltTy.bits .f32 = 32 ∨ (Rect.block (s := S54x256x128) S54x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S72x128x64.size a ≤ S72x256x64.size a
  hwx2_1 : ∀ i : grid2.Coords, EltTy.bits .f32 = 32 ∨ (Rect.block (s := S72x256x64) S72x128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S5x128x128.size a ≤ S5x128x128.size a
  hwx2_2 : ∀ i : grid2.Coords, EltTy.bits .f32 = 32 ∨ (Rect.block (s := S5x128x128) S5x128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S5x64x128.size a ≤ S5x64x128.size a
  hwx2_3 : ∀ i : grid2.Coords, EltTy.bits .f32 = 32 ∨ (Rect.block (s := S5x64x128) S5x64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S5x128x128.size a ≤ S5x128x128.size a
  hwx2_4 : ∀ i : grid2.Coords, EltTy.bits .f32 = 32 ∨ (Rect.block (s := S5x128x128) S5x128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S5x128x128.size a ≤ S5x128x128.size a
  hwx2_5 : ∀ i : grid2.Coords, EltTy.bits .f32 = 32 ∨ (Rect.block (s := S5x128x128) S5x128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S5x1x128.size a ≤ S5x1x128.size a
  hwx2_6 : ∀ i : grid2.Coords, EltTy.bits .f32 = 32 ∨ (Rect.block (s := S5x1x128) S5x1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S5x1x128.size a ≤ S5x1x128.size a
  hwx2_7 : ∀ i : grid2.Coords, EltTy.bits .f32 = 32 ∨ (Rect.block (s := S5x1x128) S5x1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S54x128x128.size a ≤ S54x256x128.size a
  hwx2_9 : ∀ i : grid2.Coords, EltTy.bits .f32 = 32 ∨ (Rect.block (s := S54x256x128) S54x128x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S54x128x128.size a ≤ S54x256x128.size a
  hwx3_0 : ∀ i : grid3.Coords, EltTy.bits .f32 = 32 ∨ (Rect.block (s := S54x256x128) S54x128x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S72x128x64.size a ≤ S72x256x64.size a
  hwx3_1 : ∀ i : grid3.Coords, EltTy.bits .f32 = 32 ∨ (Rect.block (s := S72x256x64) S72x128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S5x128x128.size a ≤ S5x128x128.size a
  hwx3_2 : ∀ i : grid3.Coords, EltTy.bits .f32 = 32 ∨ (Rect.block (s := S5x128x128) S5x128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S5x64x128.size a ≤ S5x64x128.size a
  hwx3_3 : ∀ i : grid3.Coords, EltTy.bits .f32 = 32 ∨ (Rect.block (s := S5x64x128) S5x64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S5x128x128.size a ≤ S5x128x128.size a
  hwx3_4 : ∀ i : grid3.Coords, EltTy.bits .f32 = 32 ∨ (Rect.block (s := S5x128x128) S5x128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S5x128x128.size a ≤ S5x128x128.size a
  hwx3_5 : ∀ i : grid3.Coords, EltTy.bits .f32 = 32 ∨ (Rect.block (s := S5x128x128) S5x128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S5x1x128.size a ≤ S5x1x128.size a
  hwx3_6 : ∀ i : grid3.Coords, EltTy.bits .f32 = 32 ∨ (Rect.block (s := S5x1x128) S5x1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S5x1x128.size a ≤ S5x1x128.size a
  hwx3_7 : ∀ i : grid3.Coords, EltTy.bits .f32 = 32 ∨ (Rect.block (s := S5x1x128) S5x1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S54x128x128.size a ≤ S54x256x128.size a
  hwx3_9 : ∀ i : grid3.Coords, EltTy.bits .f32 = 32 ∨ (Rect.block (s := S54x256x128) S54x128x128.size (cc3_transform_9 i) (hinb3_9 i)).WholeWords (EltTy.packing .f32)

variable [Facts₀]

def dot_S6912x128_S128x128_S6912x128_1_0_0_1_n_n : DotDims S6912x128 S128x128 S6912x128 where
  lhsContracting := [1]
  rhsContracting := [0]
  lhsNonContracting := [0]
  rhsNonContracting := [1]
  lhsBatch := []
  rhsBatch := []
  wf := dot_S6912x128_S128x128_S6912x128_1_0_0_1_n_n_wf
def dot_S9216x64_S64x128_S9216x128_1_0_0_1_n_n : DotDims S9216x64 S64x128 S9216x128 where
  lhsContracting := [1]
  rhsContracting := [0]
  lhsNonContracting := [0]
  rhsNonContracting := [1]
  lhsBatch := []
  rhsBatch := []
  wf := dot_S9216x64_S64x128_S9216x128_1_0_0_1_n_n_wf

abbrev win0_0 : Pipeline.Window sig grid0 :=
  Pipeline.Window.ofSpec (Memref.whole main_v71) S54x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v74) S72x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S5x64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S5x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S5x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v55) S5x1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v59) S5x1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v67) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v75) S54x128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v81) S54x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S72x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5x64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S5x128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S5x128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S5x1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59) S5x1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v67) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v85) S54x128x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v91) S54x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v94) S72x128x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S5x128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5x64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S5x128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S5x128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S5x1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v59) S5x1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v67) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v95) S54x128x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v101) S54x128x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v104) S72x128x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S5x128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S5x64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S5x128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S5x128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S5x1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v59) S5x1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v67) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v105) S54x128x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S4096x54x32 : Shape := ⟨3, ![4096, 54, 32]⟩
abbrev S4096x72x16 : Shape := ⟨3, ![4096, 72, 16]⟩
abbrev S5x48x32 : Shape := ⟨3, ![5, 48, 32]⟩
abbrev S5x32 : Shape := ⟨2, ![5, 32]⟩
abbrev S5x64x32 : Shape := ⟨3, ![5, 64, 32]⟩
abbrev S54x3x2 : Shape := ⟨3, ![54, 3, 2]⟩
abbrev S54x3x1 : Shape := ⟨3, ![54, 3, 1]⟩
abbrev S54x3 : Shape := ⟨2, ![54, 3]⟩
abbrev S_ : Shape := ⟨0, ![]⟩
abbrev S4096x54x3x32 : Shape := ⟨4, ![4096, 54, 3, 32]⟩
abbrev S4096x54x3x16 : Shape := ⟨4, ![4096, 54, 3, 16]⟩
abbrev S4096x54x3x48 : Shape := ⟨4, ![4096, 54, 3, 48]⟩
abbrev S1x48x32 : Shape := ⟨3, ![1, 48, 32]⟩
abbrev S48x32 : Shape := ⟨2, ![48, 32]⟩
abbrev S1x32 : Shape := ⟨2, ![1, 32]⟩
abbrev S32 : Shape := ⟨1, ![32]⟩
abbrev S1x1x1x32 : Shape := ⟨4, ![1, 1, 1, 32]⟩
abbrev S4096x54x64 : Shape := ⟨3, ![4096, 54, 64]⟩
abbrev S1x64x32 : Shape := ⟨3, ![1, 64, 32]⟩
abbrev S64x32 : Shape := ⟨2, ![64, 32]⟩
abbrev S1x1x32 : Shape := ⟨3, ![1, 1, 32]⟩
abbrev S4096x54 : Shape := ⟨2, ![4096, 54]⟩
abbrev S4096x54x1 : Shape := ⟨3, ![4096, 54, 1]⟩

abbrev nBuf : Space → Nat
  | .hbm => 238
  | .vmem => 0
  | .smem => 0
  | _ => 0

abbrev hbmTy0_0 (i : Nat) : BufTy := match i % 128 with
  | 0 => ⟨S4096x54x32, .f32⟩
  | 1 => ⟨S4096x72x16, .f32⟩
  | 2 => ⟨S5x48x32, .f32⟩
  | 3 => ⟨S5x32, .f32⟩
  | 4 => ⟨S5x64x32, .f32⟩
  | 5 => ⟨S5x32, .f32⟩
  | 6 => ⟨S54x3x2, .i32⟩
  | 7 => ⟨S54x3x1, .i32⟩
  | 8 => ⟨S54x3, .i32⟩
  | 9 => ⟨S54x3x1, .i32⟩
  | 10 => ⟨S54x3, .i32⟩
  | 11 => ⟨S_, .i32⟩
  | 12 => ⟨S54x3, .i32⟩
  | 13 => ⟨S54x3, .i1⟩
  | 14 => ⟨S_, .i32⟩
  | 15 => ⟨S54x3, .i32⟩
  | 16 => ⟨S54x3, .i32⟩
  | 17 => ⟨S54x3, .i32⟩
  | 18 => ⟨S54x3x1, .i32⟩
  | 19 => ⟨S4096x54x3x32, .f32⟩
  | 20 => ⟨S_, .i32⟩
  | 21 => ⟨S54x3, .i32⟩
  | 22 => ⟨S54x3, .i1⟩
  | 23 => ⟨S_, .i32⟩
  | 24 => ⟨S54x3, .i32⟩
  | 25 => ⟨S54x3, .i32⟩
  | 26 => ⟨S54x3, .i32⟩
  | 27 => ⟨S54x3x1, .i32⟩
  | 28 => ⟨S4096x54x3x16, .f32⟩
  | 29 => ⟨S4096x54x3x48, .f32⟩
  | 30 => ⟨S1x48x32, .f32⟩
  | 31 => ⟨S48x32, .f32⟩
  | 32 => ⟨S4096x54x3x32, .f32⟩
  | 33 => ⟨S1x32, .f32⟩
  | 34 => ⟨S32, .f32⟩
  | 35 => ⟨S1x1x1x32, .f32⟩
  | 36 => ⟨S4096x54x3x32, .f32⟩
  | 37 => ⟨S4096x54x3x32, .f32⟩
  | 38 => ⟨S4096x54x3x32, .f32⟩
  | 39 => ⟨S_, .f32⟩
  | 40 => ⟨S4096x54x32, .f32⟩
  | 41 => ⟨S4096x54x64, .f32⟩
  | 42 => ⟨S1x64x32, .f32⟩
  | 43 => ⟨S64x32, .f32⟩
  | 44 => ⟨S4096x54x32, .f32⟩
  | 45 => ⟨S1x32, .f32⟩
  | 46 => ⟨S32, .f32⟩
  | 47 => ⟨S1x1x32, .f32⟩
  | 48 => ⟨S4096x54x32, .f32⟩
  | 49 => ⟨S4096x54x32, .f32⟩
  | 50 => ⟨S4096x54x32, .f32⟩
  | 51 => ⟨S4096x54x32, .f32⟩
  | 52 => ⟨S_, .f32⟩
  | 53 => ⟨S4096x54, .f32⟩
  | 54 => ⟨S4096x54x1, .f32⟩
  | 55 => ⟨S4096x54x1, .f32⟩
  | 56 => ⟨S4096x54x32, .f32⟩
  | 57 => ⟨S4096x54x32, .f32⟩
  | 58 => ⟨S_, .i32⟩
  | 59 => ⟨S54x3, .i32⟩
  | 60 => ⟨S54x3, .i1⟩
  | 61 => ⟨S_, .i32⟩
  | 62 => ⟨S54x3, .i32⟩
  | 63 => ⟨S54x3, .i32⟩
  | 64 => ⟨S54x3, .i32⟩
  | 65 => ⟨S54x3x1, .i32⟩
  | 66 => ⟨S4096x54x3x32, .f32⟩
  | 67 => ⟨S_, .i32⟩
  | 68 => ⟨S54x3, .i32⟩
  | 69 => ⟨S54x3, .i1⟩
  | 70 => ⟨S_, .i32⟩
  | 71 => ⟨S54x3, .i32⟩
  | 72 => ⟨S54x3, .i32⟩
  | 73 => ⟨S54x3, .i32⟩
  | 74 => ⟨S54x3x1, .i32⟩
  | 75 => ⟨S4096x54x3x16, .f32⟩
  | 76 => ⟨S4096x54x3x48, .f32⟩
  | 77 => ⟨S1x48x32, .f32⟩
  | 78 => ⟨S48x32, .f32⟩
  | 79 => ⟨S4096x54x3x32, .f32⟩
  | 80 => ⟨S1x32, .f32⟩
  | 81 => ⟨S32, .f32⟩
  | 82 => ⟨S1x1x1x32, .f32⟩
  | 83 => ⟨S4096x54x3x32, .f32⟩
  | 84 => ⟨S4096x54x3x32, .f32⟩
  | 85 => ⟨S4096x54x3x32, .f32⟩
  | 86 => ⟨S_, .f32⟩
  | 87 => ⟨S4096x54x32, .f32⟩
  | 88 => ⟨S4096x54x64, .f32⟩
  | 89 => ⟨S1x64x32, .f32⟩
  | 90 => ⟨S64x32, .f32⟩
  | 91 => ⟨S4096x54x32, .f32⟩
  | 92 => ⟨S1x32, .f32⟩
  | 93 => ⟨S32, .f32⟩
  | 94 => ⟨S1x1x32, .f32⟩
  | 95 => ⟨S4096x54x32, .f32⟩
  | 96 => ⟨S4096x54x32, .f32⟩
  | 97 => ⟨S4096x54x32, .f32⟩
  | 98 => ⟨S4096x54x32, .f32⟩
  | 99 => ⟨S_, .f32⟩
  | 100 => ⟨S4096x54, .f32⟩
  | 101 => ⟨S4096x54x1, .f32⟩
  | 102 => ⟨S4096x54x1, .f32⟩
  | 103 => ⟨S4096x54x32, .f32⟩
  | 104 => ⟨S4096x54x32, .f32⟩
  | 105 => ⟨S_, .i32⟩
  | 106 => ⟨S54x3, .i32⟩
  | 107 => ⟨S54x3, .i1⟩
  | 108 => ⟨S_, .i32⟩
  | 109 => ⟨S54x3, .i32⟩
  | 110 => ⟨S54x3, .i32⟩
  | 111 => ⟨S54x3, .i32⟩
  | 112 => ⟨S54x3x1, .i32⟩
  | 113 => ⟨S4096x54x3x32, .f32⟩
  | 114 => ⟨S_, .i32⟩
  | 115 => ⟨S54x3, .i32⟩
  | 116 => ⟨S54x3, .i1⟩
  | 117 => ⟨S_, .i32⟩
  | 118 => ⟨S54x3, .i32⟩
  | 119 => ⟨S54x3, .i32⟩
  | 120 => ⟨S54x3, .i32⟩
  | 121 => ⟨S54x3x1, .i32⟩
  | 122 => ⟨S4096x54x3x16, .f32⟩
  | 123 => ⟨S4096x54x3x48, .f32⟩
  | 124 => ⟨S1x48x32, .f32⟩
  | 125 => ⟨S48x32, .f32⟩
  | 126 => ⟨S4096x54x3x32, .f32⟩
  | 127 => ⟨S1x32, .f32⟩
  | _ => ⟨S4096x54x32, .f32⟩

abbrev hbmTy0_1 (i : Nat) : BufTy := match i % 128 with
  | 0 => ⟨S32, .f32⟩
  | 1 => ⟨S1x1x1x32, .f32⟩
  | 2 => ⟨S4096x54x3x32, .f32⟩
  | 3 => ⟨S4096x54x3x32, .f32⟩
  | 4 => ⟨S4096x54x3x32, .f32⟩
  | 5 => ⟨S_, .f32⟩
  | 6 => ⟨S4096x54x32, .f32⟩
  | 7 => ⟨S4096x54x64, .f32⟩
  | 8 => ⟨S1x64x32, .f32⟩
  | 9 => ⟨S64x32, .f32⟩
  | 10 => ⟨S4096x54x32, .f32⟩
  | 11 => ⟨S1x32, .f32⟩
  | 12 => ⟨S32, .f32⟩
  | 13 => ⟨S1x1x32, .f32⟩
  | 14 => ⟨S4096x54x32, .f32⟩
  | 15 => ⟨S4096x54x32, .f32⟩
  | 16 => ⟨S4096x54x32, .f32⟩
  | 17 => ⟨S4096x54x32, .f32⟩
  | 18 => ⟨S_, .f32⟩
  | 19 => ⟨S4096x54, .f32⟩
  | 20 => ⟨S4096x54x1, .f32⟩
  | 21 => ⟨S4096x54x1, .f32⟩
  | 22 => ⟨S4096x54x32, .f32⟩
  | 23 => ⟨S4096x54x32, .f32⟩
  | 24 => ⟨S_, .i32⟩
  | 25 => ⟨S54x3, .i32⟩
  | 26 => ⟨S54x3, .i1⟩
  | 27 => ⟨S_, .i32⟩
  | 28 => ⟨S54x3, .i32⟩
  | 29 => ⟨S54x3, .i32⟩
  | 30 => ⟨S54x3, .i32⟩
  | 31 => ⟨S54x3x1, .i32⟩
  | 32 => ⟨S4096x54x3x32, .f32⟩
  | 33 => ⟨S_, .i32⟩
  | 34 => ⟨S54x3, .i32⟩
  | 35 => ⟨S54x3, .i1⟩
  | 36 => ⟨S_, .i32⟩
  | 37 => ⟨S54x3, .i32⟩
  | 38 => ⟨S54x3, .i32⟩
  | 39 => ⟨S54x3, .i32⟩
  | 40 => ⟨S54x3x1, .i32⟩
  | 41 => ⟨S4096x54x3x16, .f32⟩
  | 42 => ⟨S4096x54x3x48, .f32⟩
  | 43 => ⟨S1x48x32, .f32⟩
  | 44 => ⟨S48x32, .f32⟩
  | 45 => ⟨S4096x54x3x32, .f32⟩
  | 46 => ⟨S1x32, .f32⟩
  | 47 => ⟨S32, .f32⟩
  | 48 => ⟨S1x1x1x32, .f32⟩
  | 49 => ⟨S4096x54x3x32, .f32⟩
  | 50 => ⟨S4096x54x3x32, .f32⟩
  | 51 => ⟨S4096x54x3x32, .f32⟩
  | 52 => ⟨S_, .f32⟩
  | 53 => ⟨S4096x54x32, .f32⟩
  | 54 => ⟨S4096x54x64, .f32⟩
  | 55 => ⟨S1x64x32, .f32⟩
  | 56 => ⟨S64x32, .f32⟩
  | 57 => ⟨S4096x54x32, .f32⟩
  | 58 => ⟨S1x32, .f32⟩
  | 59 => ⟨S32, .f32⟩
  | 60 => ⟨S1x1x32, .f32⟩
  | 61 => ⟨S4096x54x32, .f32⟩
  | 62 => ⟨S4096x54x32, .f32⟩
  | 63 => ⟨S4096x54x32, .f32⟩
  | 64 => ⟨S4096x54x32, .f32⟩
  | 65 => ⟨S_, .f32⟩
  | 66 => ⟨S4096x54, .f32⟩
  | 67 => ⟨S4096x54x1, .f32⟩
  | 68 => ⟨S4096x54x1, .f32⟩
  | 69 => ⟨S4096x54x32, .f32⟩
  | 70 => ⟨S4096x54x32, .f32⟩
  | 71 => ⟨S_, .i32⟩
  | 72 => ⟨S54x3, .i32⟩
  | 73 => ⟨S54x3, .i1⟩
  | 74 => ⟨S_, .i32⟩
  | 75 => ⟨S54x3, .i32⟩
  | 76 => ⟨S54x3, .i32⟩
  | 77 => ⟨S54x3, .i32⟩
  | 78 => ⟨S54x3x1, .i32⟩
  | 79 => ⟨S4096x54x3x32, .f32⟩
  | 80 => ⟨S_, .i32⟩
  | 81 => ⟨S54x3, .i32⟩
  | 82 => ⟨S54x3, .i1⟩
  | 83 => ⟨S_, .i32⟩
  | 84 => ⟨S54x3, .i32⟩
  | 85 => ⟨S54x3, .i32⟩
  | 86 => ⟨S54x3, .i32⟩
  | 87 => ⟨S54x3x1, .i32⟩
  | 88 => ⟨S4096x54x3x16, .f32⟩
  | 89 => ⟨S4096x54x3x48, .f32⟩
  | 90 => ⟨S1x48x32, .f32⟩
  | 91 => ⟨S48x32, .f32⟩
  | 92 => ⟨S4096x54x3x32, .f32⟩
  | 93 => ⟨S1x32, .f32⟩
  | 94 => ⟨S32, .f32⟩
  | 95 => ⟨S1x1x1x32, .f32⟩
  | 96 => ⟨S4096x54x3x32, .f32⟩
  | 97 => ⟨S4096x54x3x32, .f32⟩
  | 98 => ⟨S4096x54x3x32, .f32⟩
  | 99 => ⟨S_, .f32⟩
  | 100 => ⟨S4096x54x32, .f32⟩
  | 101 => ⟨S4096x54x64, .f32⟩
  | 102 => ⟨S1x64x32, .f32⟩
  | 103 => ⟨S64x32, .f32⟩
  | 104 => ⟨S4096x54x32, .f32⟩
  | 105 => ⟨S1x32, .f32⟩
  | 106 => ⟨S32, .f32⟩
  | 107 => ⟨S1x1x32, .f32⟩
  | 108 => ⟨S4096x54x32, .f32⟩
  | 109 => ⟨S4096x54x32, .f32⟩
  | _ => ⟨S4096x54x32, .f32⟩

abbrev hbmTy (i : Nat) : BufTy := match i / 128 with
  | 0 => hbmTy0_0 i
  | 1 => hbmTy0_1 i
  | _ => ⟨S4096x54x32, .f32⟩

abbrev bufTy : (tb : Table) → Fin (tcTables nBuf tb) → BufTy
  | .hbm, ⟨i, _⟩ => hbmTy i
  | _, _ => ⟨S4096x54x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_cst : Ref sig .tc := ⟨.hbm, 52, rfl⟩
abbrev main_call0_v1 : Ref sig .tc := ⟨.hbm, 53, rfl⟩
abbrev main_call0_v2 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_4 : Ref sig .tc := ⟨.hbm, 58, rfl⟩
abbrev main_v42 : Ref sig .tc := ⟨.hbm, 59, rfl⟩
abbrev main_v43 : Ref sig .tc := ⟨.hbm, 60, rfl⟩
abbrev main_c_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_6 : Ref sig .tc := ⟨.hbm, 67, rfl⟩
abbrev main_v49 : Ref sig .tc := ⟨.hbm, 68, rfl⟩
abbrev main_v50 : Ref sig .tc := ⟨.hbm, 69, rfl⟩
abbrev main_c_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_call1_v0 : Ref sig .tc := ⟨.hbm, 98, rfl⟩
abbrev main_call1_cst : Ref sig .tc := ⟨.hbm, 99, rfl⟩
abbrev main_call1_v1 : Ref sig .tc := ⟨.hbm, 100, rfl⟩
abbrev main_call1_v2 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_9 : Ref sig .tc := ⟨.hbm, 105, rfl⟩
abbrev main_v80 : Ref sig .tc := ⟨.hbm, 106, rfl⟩
abbrev main_v81 : Ref sig .tc := ⟨.hbm, 107, rfl⟩
abbrev main_c_10 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_11 : Ref sig .tc := ⟨.hbm, 114, rfl⟩
abbrev main_v87 : Ref sig .tc := ⟨.hbm, 115, rfl⟩
abbrev main_v88 : Ref sig .tc := ⟨.hbm, 116, rfl⟩
abbrev main_c_12 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_13 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_call2_v0 : Ref sig .tc := ⟨.hbm, 145, rfl⟩
abbrev main_call2_cst : Ref sig .tc := ⟨.hbm, 146, rfl⟩
abbrev main_call2_v1 : Ref sig .tc := ⟨.hbm, 147, rfl⟩
abbrev main_call2_v2 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_c_14 : Ref sig .tc := ⟨.hbm, 152, rfl⟩
abbrev main_v118 : Ref sig .tc := ⟨.hbm, 153, rfl⟩
abbrev main_v119 : Ref sig .tc := ⟨.hbm, 154, rfl⟩
abbrev main_c_15 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_c_16 : Ref sig .tc := ⟨.hbm, 161, rfl⟩
abbrev main_v125 : Ref sig .tc := ⟨.hbm, 162, rfl⟩
abbrev main_v126 : Ref sig .tc := ⟨.hbm, 163, rfl⟩
abbrev main_c_17 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_18 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_call3_v0 : Ref sig .tc := ⟨.hbm, 192, rfl⟩
abbrev main_call3_cst : Ref sig .tc := ⟨.hbm, 193, rfl⟩
abbrev main_call3_v1 : Ref sig .tc := ⟨.hbm, 194, rfl⟩
abbrev main_call3_v2 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_c_19 : Ref sig .tc := ⟨.hbm, 199, rfl⟩
abbrev main_v156 : Ref sig .tc := ⟨.hbm, 200, rfl⟩
abbrev main_v157 : Ref sig .tc := ⟨.hbm, 201, rfl⟩
abbrev main_c_20 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_c_21 : Ref sig .tc := ⟨.hbm, 208, rfl⟩
abbrev main_v163 : Ref sig .tc := ⟨.hbm, 209, rfl⟩
abbrev main_v164 : Ref sig .tc := ⟨.hbm, 210, rfl⟩
abbrev main_c_22 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_23 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩

abbrev nD : Nat := 1
abbrev τ : Topo := Topo.v7x

variable {F : FTy → Type} [FloatOps F]

class Facts₀ : Prop where
  slices_S54x3x2_S54x3x1_0_0_0 : S54x3x2.Slices ![0, 0, 0] S54x3x1
  shapeCasts_S54x3x1_S54x3 : S54x3x1.ShapeCasts S54x3
  slices_S54x3x2_S54x3x1_0_0_1 : S54x3x2.Slices ![0, 0, 1] S54x3x1
  bcast_S_S54x3 : S_.BroadcastsInDim S54x3 (![] : Fin 0 → Fin S54x3.rank)
  bcast_S54x3_S54x3x1_0_1 : S54x3.BroadcastsInDim S54x3x1 (![0, 1] : Fin 2 → Fin S54x3x1.rank)
  concatenates_S4096x54x3x32_S4096x54x3x16_S4096x54x3x48_d3 : Shape.Concatenates [S4096x54x3x32, S4096x54x3x16] S4096x54x3x48 3
  slices_S5x48x32_S1x48x32_0_0_0 : S5x48x32.Slices ![0, 0, 0] S1x48x32
  shapeCasts_S1x48x32_S48x32 : S1x48x32.ShapeCasts S48x32
  slices_S5x32_S1x32_0_0 : S5x32.Slices ![0, 0] S1x32
  shapeCasts_S1x32_S32 : S1x32.ShapeCasts S32
  bcast_S32_S1x1x1x32_3 : S32.BroadcastsInDim S1x1x1x32 (![3] : Fin 1 → Fin S1x1x1x32.rank)
  bcast_S1x1x1x32_S4096x54x3x32_0_1_2_3 : S1x1x1x32.BroadcastsInDim S4096x54x3x32 (![0, 1, 2, 3] : Fin 4 → Fin S4096x54x3x32.rank)
  reducesTo_S4096x54x3x32_S4096x54x32_d2 : S4096x54x3x32.ReducesTo [2] S4096x54x32
  h_S_ : 0 < S_.numel
  concatenates_S4096x54x32_S4096x54x32_S4096x54x64_d2 : Shape.Concatenates [S4096x54x32, S4096x54x32] S4096x54x64 2
  slices_S5x64x32_S1x64x32_0_0_0 : S5x64x32.Slices ![0, 0, 0] S1x64x32
  shapeCasts_S1x64x32_S64x32 : S1x64x32.ShapeCasts S64x32
  bcast_S32_S1x1x32_2 : S32.BroadcastsInDim S1x1x32 (![2] : Fin 1 → Fin S1x1x32.rank)
  bcast_S1x1x32_S4096x54x32_0_1_2 : S1x1x32.BroadcastsInDim S4096x54x32 (![0, 1, 2] : Fin 3 → Fin S4096x54x32.rank)
  reducesTo_S4096x54x32_S4096x54_d2 : S4096x54x32.ReducesTo [2] S4096x54
  bcast_S4096x54_S4096x54x1_0_1 : S4096x54.BroadcastsInDim S4096x54x1 (![0, 1] : Fin 2 → Fin S4096x54x1.rank)
  bcast_S4096x54x1_S4096x54x32_0_1_2 : S4096x54x1.BroadcastsInDim S4096x54x32 (![0, 1, 2] : Fin 3 → Fin S4096x54x32.rank)
  slices_S5x48x32_S1x48x32_1_0_0 : S5x48x32.Slices ![1, 0, 0] S1x48x32
  slices_S5x32_S1x32_1_0 : S5x32.Slices ![1, 0] S1x32
  slices_S5x64x32_S1x64x32_1_0_0 : S5x64x32.Slices ![1, 0, 0] S1x64x32
  slices_S5x48x32_S1x48x32_2_0_0 : S5x48x32.Slices ![2, 0, 0] S1x48x32
  slices_S5x32_S1x32_2_0 : S5x32.Slices ![2, 0] S1x32
  slices_S5x64x32_S1x64x32_2_0_0 : S5x64x32.Slices ![2, 0, 0] S1x64x32
  slices_S5x48x32_S1x48x32_3_0_0 : S5x48x32.Slices ![3, 0, 0] S1x48x32
  slices_S5x32_S1x32_3_0 : S5x32.Slices ![3, 0] S1x32
  slices_S5x64x32_S1x64x32_3_0_0 : S5x64x32.Slices ![3, 0, 0] S1x64x32
  slices_S5x48x32_S1x48x32_4_0_0 : S5x48x32.Slices ![4, 0, 0] S1x48x32
  slices_S5x32_S1x32_4_0 : S5x32.Slices ![4, 0] S1x32
  slices_S5x64x32_S1x64x32_4_0_0 : S5x64x32.Slices ![4, 0, 0] S1x64x32
  gather_S4096x54x32_S54x3x1_S4096x54x3x32_03_1_n_n_1_2_4096132_wf : GatherDims.WF S4096x54x32 S54x3x1 S4096x54x3x32 [0, 3] [1] [] [1] [] 2 ![4096, 1, 32]
  gather_S4096x72x16_S54x3x1_S4096x54x3x16_03_1_n_n_1_2_4096116_wf : GatherDims.WF S4096x72x16 S54x3x1 S4096x54x3x16 [0, 3] [1] [] [1] [] 2 ![4096, 1, 16]
  dot_S4096x54x3x48_S48x32_S4096x54x3x32_3_0_012_1_n_n_wf : DotDims.WF S4096x54x3x48 S48x32 S4096x54x3x32 [3] [0] [0, 1, 2] [1] [] []
  dot_S4096x54x64_S64x32_S4096x54x32_2_0_01_1_n_n_wf : DotDims.WF S4096x54x64 S64x32 S4096x54x32 [2] [0] [0, 1] [1] [] []

variable [Facts₀]

def gather_S4096x54x32_S54x3x1_S4096x54x3x32_03_1_n_n_1_2_4096132 : GatherDims S4096x54x32 S54x3x1 S4096x54x3x32 where
  offsetDims := [0, 3]
  collapsedSliceDims := [1]
  operandBatchingDims := []
  startIndicesBatchingDims := []
  startIndexMap := [1]
  indexVectorDim := 2
  sliceSizes := ![4096, 1, 32]
  wf := gather_S4096x54x32_S54x3x1_S4096x54x3x32_03_1_n_n_1_2_4096132_wf
def gather_S4096x72x16_S54x3x1_S4096x54x3x16_03_1_n_n_1_2_4096116 : GatherDims S4096x72x16 S54x3x1 S4096x54x3x16 where
  offsetDims := [0, 3]
  collapsedSliceDims := [1]
  operandBatchingDims := []
  startIndicesBatchingDims := []
  startIndexMap := [1]
  indexVectorDim := 2
  sliceSizes := ![4096, 1, 16]
  wf := gather_S4096x72x16_S54x3x1_S4096x54x3x16_03_1_n_n_1_2_4096116_wf
def dot_S4096x54x3x48_S48x32_S4096x54x3x32_3_0_012_1_n_n : DotDims S4096x54x3x48 S48x32 S4096x54x3x32 where
  lhsContracting := [3]
  rhsContracting := [0]
  lhsNonContracting := [0, 1, 2]
  rhsNonContracting := [1]
  lhsBatch := []
  rhsBatch := []
  wf := dot_S4096x54x3x48_S48x32_S4096x54x3x32_3_0_012_1_n_n_wf
def dot_S4096x54x64_S64x32_S4096x54x32_2_0_01_1_n_n : DotDims S4096x54x64 S64x32 S4096x54x32 where
  lhsContracting := [2]
  rhsContracting := [0]
  lhsNonContracting := [0, 1]
  rhsNonContracting := [1]
  lhsBatch := []
  rhsBatch := []
  wf := dot_S4096x54x64_S64x32_S4096x54x32_2_0_01_1_n_n_wf

class Facts : Prop extends Facts₀ where

variable [Facts]
-- ==== Proof.KRegion0.lean ====
/-
  REGION 0 OF THE KERNEL'S @main (the pallas_call on batch chunk 0): each window's block at a grid point, the block the body
  leaves in the output window as one pure function of the nine input blocks (the five unrolled layers: the body's
  payloads composed in the order the body computes them), the body's triple — on whole staging buffers holding the input
  blocks, the body runs to its return, the inputs as they were and the output at that function of them —, the region's
  proof data and the obligation at every grid point. Stated at a parameter V: the buffers' contents when the region is
  entered. Generic in the float instance.
-/
import proofs.«182073_g78494822302262_cont_9to1_m_206_7_alg».proof.Proof.Gen.Kernel.Launch
import proofs.«182073_g78494822302262_cont_9to1_m_206_7_alg».proof.Proof.Gen.Kernel.Skeleton
import proofs.«182073_g78494822302262_cont_9to1_m_206_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- An input window's staging buffer holds its block at every point, fetched there or not (a weight window is fetched
-- once: its block index does not move), for any proof data whose array is V's and whose body leaves the block in place.
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window -/

/-- The whole-block rectangle of the output window. -/
abbrev rOut0 : Rect S54x128x128 := Rect.unit (s := S54x128x128) ![0, 0, 0] S54x128x128.size inb_S54x128x128_S54x128x128_0_0_0

/-- The body's result block from the nine input blocks: the vertex block, the edge block and the ones matrix loaded
    whole, the five layers' weight and bias slices loaded at their layer's offset, and the payloads composed as the
    body composes them, layer 0 first. -/
def bodyVal0 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : FVec F S54x128x128 .f32 :=
  let v0 := View.ld x0 rOut0
  let v2 := View.ld x1 (Rect.unit (s := S72x128x64) ![0, 0, 0] S72x128x64.size inb_S72x128x64_S72x128x64_0_0_0)
  let v4 := View.ld x8 (Rect.unit (s := S128x128) ![0, 0] S128x128.size inb_S128x128_S128x128_0_0)
  let v1 := k0_pay2 v0
  let v3 := k0_pay3 v2
  let v5 := k0_pay4 v4
  let v38 := k0_pay5 v0 v2 (View.ld x2 (Rect.unit (s := S5x128x128) ![0, 0, 0] S1x128x128.size inb_S5x128x128_S1x128x128_0_0_0)) (View.ld x3 (Rect.unit (s := S5x64x128) ![0, 0, 0] S1x64x128.size inb_S5x64x128_S1x64x128_0_0_0))
  let v39 := View.ld x6 (Rect.unit (s := S5x1x128) ![0, 0, 0] S1x1x128.size inb_S5x1x128_S1x1x128_0_0_0)
  let v45 := View.ld x4 (Rect.unit (s := S5x128x128) ![0, 0, 0] S1x128x128.size inb_S5x128x128_S1x128x128_0_0_0)
  let v50 := View.ld x5 (Rect.unit (s := S5x128x128) ![0, 0, 0] S1x128x128.size inb_S5x128x128_S1x128x128_0_0_0)
  let v56 := View.ld x7 (Rect.unit (s := S5x1x128) ![0, 0, 0] S1x1x128.size inb_S5x1x128_S1x1x128_0_0_0)
  let v68 := View.ld x2 (Rect.unit (s := S5x128x128) ![1, 0, 0] S1x128x128.size inb_S5x128x128_S1x128x128_1_0_0)
  let v67 := k0_pay6 v1 v5 v38 v39 v45 v50 v56
  let v72 := k0_pay7 v1 v5 v38 v39 v45 v50 v56 v68
  let v77 := k0_pay8 v3 (View.ld x3 (Rect.unit (s := S5x64x128) ![1, 0, 0] S1x64x128.size inb_S5x64x128_S1x64x128_1_0_0))
  let v78 := k0_pay9 v1 v5 v38 v39 v45 v50 v56 v68
  let v79 := k0_pay10 v1 v5 v38 v39 v45 v50 v56 v68
  let v101 := View.ld x6 (Rect.unit (s := S5x1x128) ![1, 0, 0] S1x1x128.size inb_S5x1x128_S1x1x128_1_0_0)
  let v107 := View.ld x4 (Rect.unit (s := S5x128x128) ![1, 0, 0] S1x128x128.size inb_S5x128x128_S1x128x128_1_0_0)
  let v112 := View.ld x5 (Rect.unit (s := S5x128x128) ![1, 0, 0] S1x128x128.size inb_S5x128x128_S1x128x128_1_0_0)
  let v118 := View.ld x7 (Rect.unit (s := S5x1x128) ![1, 0, 0] S1x1x128.size inb_S5x1x128_S1x1x128_1_0_0)
  let v123 := k0_pay11 v67 v72 v77 v78 v79 v101 v107 v112 v118
  let v125 := k0_pay12 v67 v72 v77 v78 v79 v101 v107 v112 v118
  let v129 := k0_pay13 v5 v123 v125
  let v168 := k0_pay14 v3 v5 v123 v125 (View.ld x2 (Rect.unit (s := S5x128x128) ![2, 0, 0] S1x128x128.size inb_S5x128x128_S1x128x128_2_0_0)) (View.ld x3 (Rect.unit (s := S5x64x128) ![2, 0, 0] S1x64x128.size inb_S5x64x128_S1x64x128_2_0_0)) (View.ld x6 (Rect.unit (s := S5x1x128) ![2, 0, 0] S1x1x128.size inb_S5x1x128_S1x1x128_2_0_0))
  let v170 := k0_pay15 (View.ld x4 (Rect.unit (s := S5x128x128) ![2, 0, 0] S1x128x128.size inb_S5x128x128_S1x128x128_2_0_0))
  let v174 := View.ld x5 (Rect.unit (s := S5x128x128) ![2, 0, 0] S1x128x128.size inb_S5x128x128_S1x128x128_2_0_0)
  let v180 := View.ld x7 (Rect.unit (s := S5x1x128) ![2, 0, 0] S1x1x128.size inb_S5x1x128_S1x1x128_2_0_0)
  let v192 := View.ld x2 (Rect.unit (s := S5x128x128) ![3, 0, 0] S1x128x128.size inb_S5x128x128_S1x128x128_3_0_0)
  let v197 := View.ld x3 (Rect.unit (s := S5x64x128) ![3, 0, 0] S1x64x128.size inb_S5x64x128_S1x64x128_3_0_0)
  let v191 := k0_pay16 v5 v129 v168 v170 v174 v180
  let v196 := k0_pay17 v5 v129 v168 v170 v174 v180 v192
  let v201 := k0_pay18 v3 v197
  let v208 := k0_pay19 v3 v5 v129 v168 v170 v174 v180 v192 v197
  let v211 := k0_pay20 v5 v129 v168 v170 v174 v180 v192
  let v212 := k0_pay21 v3 v197
  let v213 := k0_pay22 v3 v197
  let v253 := k0_pay23 v5 v191 v196 v201 v208 v211 v212 v213 (View.ld x6 (Rect.unit (s := S5x1x128) ![3, 0, 0] S1x1x128.size inb_S5x1x128_S1x1x128_3_0_0)) (View.ld x4 (Rect.unit (s := S5x128x128) ![3, 0, 0] S1x128x128.size inb_S5x128x128_S1x128x128_3_0_0)) (View.ld x5 (Rect.unit (s := S5x128x128) ![3, 0, 0] S1x128x128.size inb_S5x128x128_S1x128x128_3_0_0)) (View.ld x7 (Rect.unit (s := S5x1x128) ![3, 0, 0] S1x1x128.size inb_S5x1x128_S1x1x128_3_0_0))
  let v255 := k0_pay24 (View.ld x2 (Rect.unit (s := S5x128x128) ![4, 0, 0] S1x128x128.size inb_S5x128x128_S1x128x128_4_0_0))
  let v297 := k0_pay25 v253 (View.ld x4 (Rect.unit (s := S5x128x128) ![4, 0, 0] S1x128x128.size inb_S5x128x128_S1x128x128_4_0_0))
  let v299 := k0_pay26 (View.ld x5 (Rect.unit (s := S5x128x128) ![4, 0, 0] S1x128x128.size inb_S5x128x128_S1x128x128_4_0_0))
  let v300 := k0_pay27 v3 v253 v255 (View.ld x3 (Rect.unit (s := S5x64x128) ![4, 0, 0] S1x64x128.size inb_S5x64x128_S1x64x128_4_0_0)) (View.ld x6 (Rect.unit (s := S5x1x128) ![4, 0, 0] S1x1x128.size inb_S5x1x128_S1x1x128_4_0_0))
  k0_pay1 v297 v299 v300 (View.ld x7 (Rect.unit (s := S5x1x128) ![4, 0, 0] S1x1x128.size inb_S5x1x128_S1x1x128_4_0_0))

/-- The output window's staging buffer after the body: its one whole-block store. -/
def out0_9 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : Vec F S54x128x128 .f32 :=
  View.canon [⟨rOut0, bodyVal0 x0 x1 x2 x3 x4 x5 x6 x7 x8⟩]

/-- The one store covers the block. -/
theorem cover0_9 (p0 : Vec F S54x128x128 .f32) (y : S54x128x128.Idx) :
    ∃ pc ∈ ([⟨rOut0, p0⟩] : List (View.Piece (Elt F) S54x128x128 .f32)), y ∈ pc.1.set :=
  View.cover_of_tiled [⟨rOut0, p0⟩] S54x128x128.size (by rfl) y

/-! ## The body's triple -/

set_option maxHeartbeats 4000000 in
/-- The kernel body on whole staging memrefs, the inputs' at read contents x0 … x8 and the output's at anything, runs to
    the continuation holding the inputs' as they were and the output's at out0_9 of the inputs'. -/
theorem sound_kernel0 (c : Dev nD) (E : Set ℕ) (i : grid0.Coords)
    (arg0 : Memref sig .tc .vmem S54x128x128 .f32) (harg0 : arg0.IsWhole)
    (arg1 : Memref sig .tc .vmem S72x128x64 .f32) (harg1 : arg1.IsWhole)
    (arg2 : Memref sig .tc .vmem S5x128x128 .f32) (harg2 : arg2.IsWhole)
    (arg3 : Memref sig .tc .vmem S5x64x128 .f32) (harg3 : arg3.IsWhole)
    (arg4 : Memref sig .tc .vmem S5x128x128 .f32) (harg4 : arg4.IsWhole)
    (arg5 : Memref sig .tc .vmem S5x128x128 .f32) (harg5 : arg5.IsWhole)
    (arg6 : Memref sig .tc .vmem S5x1x128 .f32) (harg6 : arg6.IsWhole)
    (arg7 : Memref sig .tc .vmem S5x1x128 .f32) (harg7 : arg7.IsWhole)
    (arg8 : Memref sig .tc .vmem S128x128 .f32) (harg8 : arg8.IsWhole)
    (arg9 : Memref sig .tc .vmem S54x128x128 .f32) (harg9 : arg9.IsWhole)
    (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out0_9 x0 x1 x2 x3 x4 x5 x6 x7 x8)) -∗ Kc ⟨⟩))
      ⊢ wp frame (wpE (defs₀ (F := F)) Variants.none c none) E (cc0__sage_block i arg0 harg0 arg1 harg1 arg2 harg2 arg3 harg3 arg4 harg4 arg5 harg5 arg6 harg6 arg7 harg7 arg8 harg8 arg9 harg9) Kc := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The region's proof data -/

/-- The proof data of pipeline 0 on core c: the arrays as the region finds them; after the body at point t each input's
    staging buffer at its block and the output's at out0_9 of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The obligation at a grid point -/

/-- What the body is called with at point t: the invariant, the core's debts (none), and each window's staging buffer —
    the inputs' at their blocks, the output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' staging buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  REGION 1 OF THE KERNEL'S @main (the pallas_call on batch chunk 1): each window's block at a grid point, the block the body
  leaves in the output window as one pure function of the nine input blocks (the five unrolled layers: the body's
  payloads composed in the order the body computes them), the body's triple — on whole staging buffers holding the input
  blocks, the body runs to its return, the inputs as they were and the output at that function of them —, the region's
  proof data and the obligation at every grid point. Stated at a parameter V: the buffers' contents when the region is
  entered. Generic in the float instance.
-/
import proofs.«182073_g78494822302262_cont_9to1_m_206_7_alg».proof.Proof.Gen.Kernel.Launch
import proofs.«182073_g78494822302262_cont_9to1_m_206_7_alg».proof.Proof.Gen.Kernel.Skeleton
import proofs.«182073_g78494822302262_cont_9to1_m_206_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- An input window's staging buffer holds its block at every point, fetched there or not (a weight window is fetched
-- once: its block index does not move), for any proof data whose array is V's and whose body leaves the block in place.
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window -/

/-- The whole-block rectangle of the output window. -/
abbrev rOut1 : Rect S54x128x128 := Rect.unit (s := S54x128x128) ![0, 0, 0] S54x128x128.size inb_S54x128x128_S54x128x128_0_0_0

/-- The body's result block from the nine input blocks: the vertex block, the edge block and the ones matrix loaded
    whole, the five layers' weight and bias slices loaded at their layer's offset, and the payloads composed as the
    body composes them, layer 0 first. -/
def bodyVal1 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : FVec F S54x128x128 .f32 :=
  let v0 := View.ld x0 rOut1
  let v2 := View.ld x1 (Rect.unit (s := S72x128x64) ![0, 0, 0] S72x128x64.size inb_S72x128x64_S72x128x64_0_0_0)
  let v4 := View.ld x8 (Rect.unit (s := S128x128) ![0, 0] S128x128.size inb_S128x128_S128x128_0_0)
  let v1 := k1_pay2 v0
  let v3 := k1_pay3 v2
  let v5 := k1_pay4 v4
  let v38 := k1_pay5 v0 v2 (View.ld x2 (Rect.unit (s := S5x128x128) ![0, 0, 0] S1x128x128.size inb_S5x128x128_S1x128x128_0_0_0)) (View.ld x3 (Rect.unit (s := S5x64x128) ![0, 0, 0] S1x64x128.size inb_S5x64x128_S1x64x128_0_0_0))
  let v39 := View.ld x6 (Rect.unit (s := S5x1x128) ![0, 0, 0] S1x1x128.size inb_S5x1x128_S1x1x128_0_0_0)
  let v45 := View.ld x4 (Rect.unit (s := S5x128x128) ![0, 0, 0] S1x128x128.size inb_S5x128x128_S1x128x128_0_0_0)
  let v50 := View.ld x5 (Rect.unit (s := S5x128x128) ![0, 0, 0] S1x128x128.size inb_S5x128x128_S1x128x128_0_0_0)
  let v56 := View.ld x7 (Rect.unit (s := S5x1x128) ![0, 0, 0] S1x1x128.size inb_S5x1x128_S1x1x128_0_0_0)
  let v68 := View.ld x2 (Rect.unit (s := S5x128x128) ![1, 0, 0] S1x128x128.size inb_S5x128x128_S1x128x128_1_0_0)
  let v67 := k1_pay6 v1 v5 v38 v39 v45 v50 v56
  let v72 := k1_pay7 v1 v5 v38 v39 v45 v50 v56 v68
  let v77 := k1_pay8 v3 (View.ld x3 (Rect.unit (s := S5x64x128) ![1, 0, 0] S1x64x128.size inb_S5x64x128_S1x64x128_1_0_0))
  let v78 := k1_pay9 v1 v5 v38 v39 v45 v50 v56 v68
  let v79 := k1_pay10 v1 v5 v38 v39 v45 v50 v56 v68
  let v101 := View.ld x6 (Rect.unit (s := S5x1x128) ![1, 0, 0] S1x1x128.size inb_S5x1x128_S1x1x128_1_0_0)
  let v107 := View.ld x4 (Rect.unit (s := S5x128x128) ![1, 0, 0] S1x128x128.size inb_S5x128x128_S1x128x128_1_0_0)
  let v112 := View.ld x5 (Rect.unit (s := S5x128x128) ![1, 0, 0] S1x128x128.size inb_S5x128x128_S1x128x128_1_0_0)
  let v118 := View.ld x7 (Rect.unit (s := S5x1x128) ![1, 0, 0] S1x1x128.size inb_S5x1x128_S1x1x128_1_0_0)
  let v123 := k1_pay11 v67 v72 v77 v78 v79 v101 v107 v112 v118
  let v125 := k1_pay12 v67 v72 v77 v78 v79 v101 v107 v112 v118
  let v129 := k1_pay13 v5 v123 v125
  let v168 := k1_pay14 v3 v5 v123 v125 (View.ld x2 (Rect.unit (s := S5x128x128) ![2, 0, 0] S1x128x128.size inb_S5x128x128_S1x128x128_2_0_0)) (View.ld x3 (Rect.unit (s := S5x64x128) ![2, 0, 0] S1x64x128.size inb_S5x64x128_S1x64x128_2_0_0)) (View.ld x6 (Rect.unit (s := S5x1x128) ![2, 0, 0] S1x1x128.size inb_S5x1x128_S1x1x128_2_0_0))
  let v170 := k1_pay15 (View.ld x4 (Rect.unit (s := S5x128x128) ![2, 0, 0] S1x128x128.size inb_S5x128x128_S1x128x128_2_0_0))
  let v174 := View.ld x5 (Rect.unit (s := S5x128x128) ![2, 0, 0] S1x128x128.size inb_S5x128x128_S1x128x128_2_0_0)
  let v180 := View.ld x7 (Rect.unit (s := S5x1x128) ![2, 0, 0] S1x1x128.size inb_S5x1x128_S1x1x128_2_0_0)
  let v192 := View.ld x2 (Rect.unit (s := S5x128x128) ![3, 0, 0] S1x128x128.size inb_S5x128x128_S1x128x128_3_0_0)
  let v197 := View.ld x3 (Rect.unit (s := S5x64x128) ![3, 0, 0] S1x64x128.size inb_S5x64x128_S1x64x128_3_0_0)
  let v191 := k1_pay16 v5 v129 v168 v170 v174 v180
  let v196 := k1_pay17 v5 v129 v168 v170 v174 v180 v192
  let v201 := k1_pay18 v3 v197
  let v208 := k1_pay19 v3 v5 v129 v168 v170 v174 v180 v192 v197
  let v211 := k1_pay20 v5 v129 v168 v170 v174 v180 v192
  let v212 := k1_pay21 v3 v197
  let v213 := k1_pay22 v3 v197
  let v253 := k1_pay23 v5 v191 v196 v201 v208 v211 v212 v213 (View.ld x6 (Rect.unit (s := S5x1x128) ![3, 0, 0] S1x1x128.size inb_S5x1x128_S1x1x128_3_0_0)) (View.ld x4 (Rect.unit (s := S5x128x128) ![3, 0, 0] S1x128x128.size inb_S5x128x128_S1x128x128_3_0_0)) (View.ld x5 (Rect.unit (s := S5x128x128) ![3, 0, 0] S1x128x128.size inb_S5x128x128_S1x128x128_3_0_0)) (View.ld x7 (Rect.unit (s := S5x1x128) ![3, 0, 0] S1x1x128.size inb_S5x1x128_S1x1x128_3_0_0))
  let v255 := k1_pay24 (View.ld x2 (Rect.unit (s := S5x128x128) ![4, 0, 0] S1x128x128.size inb_S5x128x128_S1x128x128_4_0_0))
  let v297 := k1_pay25 v253 (View.ld x4 (Rect.unit (s := S5x128x128) ![4, 0, 0] S1x128x128.size inb_S5x128x128_S1x128x128_4_0_0))
  let v299 := k1_pay26 (View.ld x5 (Rect.unit (s := S5x128x128) ![4, 0, 0] S1x128x128.size inb_S5x128x128_S1x128x128_4_0_0))
  let v300 := k1_pay27 v3 v253 v255 (View.ld x3 (Rect.unit (s := S5x64x128) ![4, 0, 0] S1x64x128.size inb_S5x64x128_S1x64x128_4_0_0)) (View.ld x6 (Rect.unit (s := S5x1x128) ![4, 0, 0] S1x1x128.size inb_S5x1x128_S1x1x128_4_0_0))
  k1_pay1 v297 v299 v300 (View.ld x7 (Rect.unit (s := S5x1x128) ![4, 0, 0] S1x1x128.size inb_S5x1x128_S1x1x128_4_0_0))

/-- The output window's staging buffer after the body: its one whole-block store. -/
def out1_9 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : Vec F S54x128x128 .f32 :=
  View.canon [⟨rOut1, bodyVal1 x0 x1 x2 x3 x4 x5 x6 x7 x8⟩]

/-- The one store covers the block. -/
theorem cover1_9 (p0 : Vec F S54x128x128 .f32) (y : S54x128x128.Idx) :
    ∃ pc ∈ ([⟨rOut1, p0⟩] : List (View.Piece (Elt F) S54x128x128 .f32)), y ∈ pc.1.set :=
  View.cover_of_tiled [⟨rOut1, p0⟩] S54x128x128.size (by rfl) y

/-! ## The body's triple -/

set_option maxHeartbeats 4000000 in
/-- The kernel body on whole staging memrefs, the inputs' at read contents x0 … x8 and the output's at anything, runs to
    the continuation holding the inputs' as they were and the output's at out1_9 of the inputs'. -/
theorem sound_kernel1 (c : Dev nD) (E : Set ℕ) (i : grid1.Coords)
    (arg0 : Memref sig .tc .vmem S54x128x128 .f32) (harg0 : arg0.IsWhole)
    (arg1 : Memref sig .tc .vmem S72x128x64 .f32) (harg1 : arg1.IsWhole)
    (arg2 : Memref sig .tc .vmem S5x128x128 .f32) (harg2 : arg2.IsWhole)
    (arg3 : Memref sig .tc .vmem S5x64x128 .f32) (harg3 : arg3.IsWhole)
    (arg4 : Memref sig .tc .vmem S5x128x128 .f32) (harg4 : arg4.IsWhole)
    (arg5 : Memref sig .tc .vmem S5x128x128 .f32) (harg5 : arg5.IsWhole)
    (arg6 : Memref sig .tc .vmem S5x1x128 .f32) (harg6 : arg6.IsWhole)
    (arg7 : Memref sig .tc .vmem S5x1x128 .f32) (harg7 : arg7.IsWhole)
    (arg8 : Memref sig .tc .vmem S128x128 .f32) (harg8 : arg8.IsWhole)
    (arg9 : Memref sig .tc .vmem S54x128x128 .f32) (harg9 : arg9.IsWhole)
    (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out1_9 x0 x1 x2 x3 x4 x5 x6 x7 x8)) -∗ Kc ⟨⟩))
      ⊢ wp frame (wpE (defs₀ (F := F)) Variants.none c none) E (cc1__sage_block i arg0 harg0 arg1 harg1 arg2 harg2 arg3 harg3 arg4 harg4 arg5 harg5 arg6 harg6 arg7 harg7 arg8 harg8 arg9 harg9) Kc := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The region's proof data -/

/-- The proof data of pipeline 1 on core c: the arrays as the region finds them; after the body at point t each input's
    staging buffer at its block and the output's at out1_9 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The obligation at a grid point -/

/-- What the body is called with at point t: the invariant, the core's debts (none), and each window's staging buffer —
    the inputs' at their blocks, the output's at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- The body at any point: the inputs' staging buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegion2.lean ====
/-
  REGION 2 OF THE KERNEL'S @main (the pallas_call on batch chunk 2): each window's block at a grid point, the block the body
  leaves in the output window as one pure function of the nine input blocks (the five unrolled layers: the body's
  payloads composed in the order the body computes them), the body's triple — on whole staging buffers holding the input
  blocks, the body runs to its return, the inputs as they were and the output at that function of them —, the region's
  proof data and the obligation at every grid point. Stated at a parameter V: the buffers' contents when the region is
  entered. Generic in the float instance.
-/
import proofs.«182073_g78494822302262_cont_9to1_m_206_7_alg».proof.Proof.Gen.Kernel.Launch
import proofs.«182073_g78494822302262_cont_9to1_m_206_7_alg».proof.Proof.Gen.Kernel.Skeleton
import proofs.«182073_g78494822302262_cont_9to1_m_206_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- An input window's staging buffer holds its block at every point, fetched there or not (a weight window is fetched
-- once: its block index does not move), for any proof data whose array is V's and whose body leaves the block in place.
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window -/

/-- The whole-block rectangle of the output window. -/
abbrev rOut2 : Rect S54x128x128 := Rect.unit (s := S54x128x128) ![0, 0, 0] S54x128x128.size inb_S54x128x128_S54x128x128_0_0_0

/-- The body's result block from the nine input blocks: the vertex block, the edge block and the ones matrix loaded
    whole, the five layers' weight and bias slices loaded at their layer's offset, and the payloads composed as the
    body composes them, layer 0 first. -/
def bodyVal2 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : FVec F S54x128x128 .f32 :=
  let v0 := View.ld x0 rOut2
  let v2 := View.ld x1 (Rect.unit (s := S72x128x64) ![0, 0, 0] S72x128x64.size inb_S72x128x64_S72x128x64_0_0_0)
  let v4 := View.ld x8 (Rect.unit (s := S128x128) ![0, 0] S128x128.size inb_S128x128_S128x128_0_0)
  let v1 := k2_pay2 v0
  let v3 := k2_pay3 v2
  let v5 := k2_pay4 v4
  let v38 := k2_pay5 v0 v2 (View.ld x2 (Rect.unit (s := S5x128x128) ![0, 0, 0] S1x128x128.size inb_S5x128x128_S1x128x128_0_0_0)) (View.ld x3 (Rect.unit (s := S5x64x128) ![0, 0, 0] S1x64x128.size inb_S5x64x128_S1x64x128_0_0_0))
  let v39 := View.ld x6 (Rect.unit (s := S5x1x128) ![0, 0, 0] S1x1x128.size inb_S5x1x128_S1x1x128_0_0_0)
  let v45 := View.ld x4 (Rect.unit (s := S5x128x128) ![0, 0, 0] S1x128x128.size inb_S5x128x128_S1x128x128_0_0_0)
  let v50 := View.ld x5 (Rect.unit (s := S5x128x128) ![0, 0, 0] S1x128x128.size inb_S5x128x128_S1x128x128_0_0_0)
  let v56 := View.ld x7 (Rect.unit (s := S5x1x128) ![0, 0, 0] S1x1x128.size inb_S5x1x128_S1x1x128_0_0_0)
  let v68 := View.ld x2 (Rect.unit (s := S5x128x128) ![1, 0, 0] S1x128x128.size inb_S5x128x128_S1x128x128_1_0_0)
  let v67 := k2_pay6 v1 v5 v38 v39 v45 v50 v56
  let v72 := k2_pay7 v1 v5 v38 v39 v45 v50 v56 v68
  let v77 := k2_pay8 v3 (View.ld x3 (Rect.unit (s := S5x64x128) ![1, 0, 0] S1x64x128.size inb_S5x64x128_S1x64x128_1_0_0))
  let v78 := k2_pay9 v1 v5 v38 v39 v45 v50 v56 v68
  let v79 := k2_pay10 v1 v5 v38 v39 v45 v50 v56 v68
  let v101 := View.ld x6 (Rect.unit (s := S5x1x128) ![1, 0, 0] S1x1x128.size inb_S5x1x128_S1x1x128_1_0_0)
  let v107 := View.ld x4 (Rect.unit (s := S5x128x128) ![1, 0, 0] S1x128x128.size inb_S5x128x128_S1x128x128_1_0_0)
  let v112 := View.ld x5 (Rect.unit (s := S5x128x128) ![1, 0, 0] S1x128x128.size inb_S5x128x128_S1x128x128_1_0_0)
  let v118 := View.ld x7 (Rect.unit (s := S5x1x128) ![1, 0, 0] S1x1x128.size inb_S5x1x128_S1x1x128_1_0_0)
  let v123 := k2_pay11 v67 v72 v77 v78 v79 v101 v107 v112 v118
  let v125 := k2_pay12 v67 v72 v77 v78 v79 v101 v107 v112 v118
  let v129 := k2_pay13 v5 v123 v125
  let v168 := k2_pay14 v3 v5 v123 v125 (View.ld x2 (Rect.unit (s := S5x128x128) ![2, 0, 0] S1x128x128.size inb_S5x128x128_S1x128x128_2_0_0)) (View.ld x3 (Rect.unit (s := S5x64x128) ![2, 0, 0] S1x64x128.size inb_S5x64x128_S1x64x128_2_0_0)) (View.ld x6 (Rect.unit (s := S5x1x128) ![2, 0, 0] S1x1x128.size inb_S5x1x128_S1x1x128_2_0_0))
  let v170 := k2_pay15 (View.ld x4 (Rect.unit (s := S5x128x128) ![2, 0, 0] S1x128x128.size inb_S5x128x128_S1x128x128_2_0_0))
  let v174 := View.ld x5 (Rect.unit (s := S5x128x128) ![2, 0, 0] S1x128x128.size inb_S5x128x128_S1x128x128_2_0_0)
  let v180 := View.ld x7 (Rect.unit (s := S5x1x128) ![2, 0, 0] S1x1x128.size inb_S5x1x128_S1x1x128_2_0_0)
  let v192 := View.ld x2 (Rect.unit (s := S5x128x128) ![3, 0, 0] S1x128x128.size inb_S5x128x128_S1x128x128_3_0_0)
  let v197 := View.ld x3 (Rect.unit (s := S5x64x128) ![3, 0, 0] S1x64x128.size inb_S5x64x128_S1x64x128_3_0_0)
  let v191 := k2_pay16 v5 v129 v168 v170 v174 v180
  let v196 := k2_pay17 v5 v129 v168 v170 v174 v180 v192
  let v201 := k2_pay18 v3 v197
  let v208 := k2_pay19 v3 v5 v129 v168 v170 v174 v180 v192 v197
  let v211 := k2_pay20 v5 v129 v168 v170 v174 v180 v192
  let v212 := k2_pay21 v3 v197
  let v213 := k2_pay22 v3 v197
  let v253 := k2_pay23 v5 v191 v196 v201 v208 v211 v212 v213 (View.ld x6 (Rect.unit (s := S5x1x128) ![3, 0, 0] S1x1x128.size inb_S5x1x128_S1x1x128_3_0_0)) (View.ld x4 (Rect.unit (s := S5x128x128) ![3, 0, 0] S1x128x128.size inb_S5x128x128_S1x128x128_3_0_0)) (View.ld x5 (Rect.unit (s := S5x128x128) ![3, 0, 0] S1x128x128.size inb_S5x128x128_S1x128x128_3_0_0)) (View.ld x7 (Rect.unit (s := S5x1x128) ![3, 0, 0] S1x1x128.size inb_S5x1x128_S1x1x128_3_0_0))
  let v255 := k2_pay24 (View.ld x2 (Rect.unit (s := S5x128x128) ![4, 0, 0] S1x128x128.size inb_S5x128x128_S1x128x128_4_0_0))
  let v297 := k2_pay25 v253 (View.ld x4 (Rect.unit (s := S5x128x128) ![4, 0, 0] S1x128x128.size inb_S5x128x128_S1x128x128_4_0_0))
  let v299 := k2_pay26 (View.ld x5 (Rect.unit (s := S5x128x128) ![4, 0, 0] S1x128x128.size inb_S5x128x128_S1x128x128_4_0_0))
  let v300 := k2_pay27 v3 v253 v255 (View.ld x3 (Rect.unit (s := S5x64x128) ![4, 0, 0] S1x64x128.size inb_S5x64x128_S1x64x128_4_0_0)) (View.ld x6 (Rect.unit (s := S5x1x128) ![4, 0, 0] S1x1x128.size inb_S5x1x128_S1x1x128_4_0_0))
  k2_pay1 v297 v299 v300 (View.ld x7 (Rect.unit (s := S5x1x128) ![4, 0, 0] S1x1x128.size inb_S5x1x128_S1x1x128_4_0_0))

/-- The output window's staging buffer after the body: its one whole-block store. -/
def out2_9 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : Vec F S54x128x128 .f32 :=
  View.canon [⟨rOut2, bodyVal2 x0 x1 x2 x3 x4 x5 x6 x7 x8⟩]

/-- The one store covers the block. -/
theorem cover2_9 (p0 : Vec F S54x128x128 .f32) (y : S54x128x128.Idx) :
    ∃ pc ∈ ([⟨rOut2, p0⟩] : List (View.Piece (Elt F) S54x128x128 .f32)), y ∈ pc.1.set :=
  View.cover_of_tiled [⟨rOut2, p0⟩] S54x128x128.size (by rfl) y

/-! ## The body's triple -/

set_option maxHeartbeats 4000000 in
/-- The kernel body on whole staging memrefs, the inputs' at read contents x0 … x8 and the output's at anything, runs to
    the continuation holding the inputs' as they were and the output's at out2_9 of the inputs'. -/
theorem sound_kernel2 (c : Dev nD) (E : Set ℕ) (i : grid2.Coords)
    (arg0 : Memref sig .tc .vmem S54x128x128 .f32) (harg0 : arg0.IsWhole)
    (arg1 : Memref sig .tc .vmem S72x128x64 .f32) (harg1 : arg1.IsWhole)
    (arg2 : Memref sig .tc .vmem S5x128x128 .f32) (harg2 : arg2.IsWhole)
    (arg3 : Memref sig .tc .vmem S5x64x128 .f32) (harg3 : arg3.IsWhole)
    (arg4 : Memref sig .tc .vmem S5x128x128 .f32) (harg4 : arg4.IsWhole)
    (arg5 : Memref sig .tc .vmem S5x128x128 .f32) (harg5 : arg5.IsWhole)
    (arg6 : Memref sig .tc .vmem S5x1x128 .f32) (harg6 : arg6.IsWhole)
    (arg7 : Memref sig .tc .vmem S5x1x128 .f32) (harg7 : arg7.IsWhole)
    (arg8 : Memref sig .tc .vmem S128x128 .f32) (harg8 : arg8.IsWhole)
    (arg9 : Memref sig .tc .vmem S54x128x128 .f32) (harg9 : arg9.IsWhole)
    (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out2_9 x0 x1 x2 x3 x4 x5 x6 x7 x8)) -∗ Kc ⟨⟩))
      ⊢ wp frame (wpE (defs₀ (F := F)) Variants.none c none) E (cc2__sage_block i arg0 harg0 arg1 harg1 arg2 harg2 arg3 harg3 arg4 harg4 arg5 harg5 arg6 harg6 arg7 harg7 arg8 harg8 arg9 harg9) Kc := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The region's proof data -/

/-- The proof data of pipeline 2 on core c: the arrays as the region finds them; after the body at point t each input's
    staging buffer at its block and the output's at out2_9 of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The obligation at a grid point -/

/-- What the body is called with at point t: the invariant, the core's debts (none), and each window's staging buffer —
    the inputs' at their blocks, the output's at anything. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 4000000 in
/-- The body at any point: the inputs' staging buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3.lean ====
/-
  REGION 3 OF THE KERNEL'S @main (the pallas_call on batch chunk 3): each window's block at a grid point, the block the body
  leaves in the output window as one pure function of the nine input blocks (the five unrolled layers: the body's
  payloads composed in the order the body computes them), the body's triple — on whole staging buffers holding the input
  blocks, the body runs to its return, the inputs as they were and the output at that function of them —, the region's
  proof data and the obligation at every grid point. Stated at a parameter V: the buffers' contents when the region is
  entered. Generic in the float instance.
-/
import proofs.«182073_g78494822302262_cont_9to1_m_206_7_alg».proof.Proof.Gen.Kernel.Launch
import proofs.«182073_g78494822302262_cont_9to1_m_206_7_alg».proof.Proof.Gen.Kernel.Skeleton
import proofs.«182073_g78494822302262_cont_9to1_m_206_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- An input window's staging buffer holds its block at every point, fetched there or not (a weight window is fetched
-- once: its block index does not move), for any proof data whose array is V's and whose body leaves the block in place.
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window -/

/-- The whole-block rectangle of the output window. -/
abbrev rOut3 : Rect S54x128x128 := Rect.unit (s := S54x128x128) ![0, 0, 0] S54x128x128.size inb_S54x128x128_S54x128x128_0_0_0

/-- The body's result block from the nine input blocks: the vertex block, the edge block and the ones matrix loaded
    whole, the five layers' weight and bias slices loaded at their layer's offset, and the payloads composed as the
    body composes them, layer 0 first. -/
def bodyVal3 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : FVec F S54x128x128 .f32 :=
  let v0 := View.ld x0 rOut3
  let v2 := View.ld x1 (Rect.unit (s := S72x128x64) ![0, 0, 0] S72x128x64.size inb_S72x128x64_S72x128x64_0_0_0)
  let v4 := View.ld x8 (Rect.unit (s := S128x128) ![0, 0] S128x128.size inb_S128x128_S128x128_0_0)
  let v1 := k3_pay2 v0
  let v3 := k3_pay3 v2
  let v5 := k3_pay4 v4
  let v38 := k3_pay5 v0 v2 (View.ld x2 (Rect.unit (s := S5x128x128) ![0, 0, 0] S1x128x128.size inb_S5x128x128_S1x128x128_0_0_0)) (View.ld x3 (Rect.unit (s := S5x64x128) ![0, 0, 0] S1x64x128.size inb_S5x64x128_S1x64x128_0_0_0))
  let v39 := View.ld x6 (Rect.unit (s := S5x1x128) ![0, 0, 0] S1x1x128.size inb_S5x1x128_S1x1x128_0_0_0)
  let v45 := View.ld x4 (Rect.unit (s := S5x128x128) ![0, 0, 0] S1x128x128.size inb_S5x128x128_S1x128x128_0_0_0)
  let v50 := View.ld x5 (Rect.unit (s := S5x128x128) ![0, 0, 0] S1x128x128.size inb_S5x128x128_S1x128x128_0_0_0)
  let v56 := View.ld x7 (Rect.unit (s := S5x1x128) ![0, 0, 0] S1x1x128.size inb_S5x1x128_S1x1x128_0_0_0)
  let v68 := View.ld x2 (Rect.unit (s := S5x128x128) ![1, 0, 0] S1x128x128.size inb_S5x128x128_S1x128x128_1_0_0)
  let v67 := k3_pay6 v1 v5 v38 v39 v45 v50 v56
  let v72 := k3_pay7 v1 v5 v38 v39 v45 v50 v56 v68
  let v77 := k3_pay8 v3 (View.ld x3 (Rect.unit (s := S5x64x128) ![1, 0, 0] S1x64x128.size inb_S5x64x128_S1x64x128_1_0_0))
  let v78 := k3_pay9 v1 v5 v38 v39 v45 v50 v56 v68
  let v79 := k3_pay10 v1 v5 v38 v39 v45 v50 v56 v68
  let v101 := View.ld x6 (Rect.unit (s := S5x1x128) ![1, 0, 0] S1x1x128.size inb_S5x1x128_S1x1x128_1_0_0)
  let v107 := View.ld x4 (Rect.unit (s := S5x128x128) ![1, 0, 0] S1x128x128.size inb_S5x128x128_S1x128x128_1_0_0)
  let v112 := View.ld x5 (Rect.unit (s := S5x128x128) ![1, 0, 0] S1x128x128.size inb_S5x128x128_S1x128x128_1_0_0)
  let v118 := View.ld x7 (Rect.unit (s := S5x1x128) ![1, 0, 0] S1x1x128.size inb_S5x1x128_S1x1x128_1_0_0)
  let v123 := k3_pay11 v67 v72 v77 v78 v79 v101 v107 v112 v118
  let v125 := k3_pay12 v67 v72 v77 v78 v79 v101 v107 v112 v118
  let v129 := k3_pay13 v5 v123 v125
  let v168 := k3_pay14 v3 v5 v123 v125 (View.ld x2 (Rect.unit (s := S5x128x128) ![2, 0, 0] S1x128x128.size inb_S5x128x128_S1x128x128_2_0_0)) (View.ld x3 (Rect.unit (s := S5x64x128) ![2, 0, 0] S1x64x128.size inb_S5x64x128_S1x64x128_2_0_0)) (View.ld x6 (Rect.unit (s := S5x1x128) ![2, 0, 0] S1x1x128.size inb_S5x1x128_S1x1x128_2_0_0))
  let v170 := k3_pay15 (View.ld x4 (Rect.unit (s := S5x128x128) ![2, 0, 0] S1x128x128.size inb_S5x128x128_S1x128x128_2_0_0))
  let v174 := View.ld x5 (Rect.unit (s := S5x128x128) ![2, 0, 0] S1x128x128.size inb_S5x128x128_S1x128x128_2_0_0)
  let v180 := View.ld x7 (Rect.unit (s := S5x1x128) ![2, 0, 0] S1x1x128.size inb_S5x1x128_S1x1x128_2_0_0)
  let v192 := View.ld x2 (Rect.unit (s := S5x128x128) ![3, 0, 0] S1x128x128.size inb_S5x128x128_S1x128x128_3_0_0)
  let v197 := View.ld x3 (Rect.unit (s := S5x64x128) ![3, 0, 0] S1x64x128.size inb_S5x64x128_S1x64x128_3_0_0)
  let v191 := k3_pay16 v5 v129 v168 v170 v174 v180
  let v196 := k3_pay17 v5 v129 v168 v170 v174 v180 v192
  let v201 := k3_pay18 v3 v197
  let v208 := k3_pay19 v3 v5 v129 v168 v170 v174 v180 v192 v197
  let v211 := k3_pay20 v5 v129 v168 v170 v174 v180 v192
  let v212 := k3_pay21 v3 v197
  let v213 := k3_pay22 v3 v197
  let v253 := k3_pay23 v5 v191 v196 v201 v208 v211 v212 v213 (View.ld x6 (Rect.unit (s := S5x1x128) ![3, 0, 0] S1x1x128.size inb_S5x1x128_S1x1x128_3_0_0)) (View.ld x4 (Rect.unit (s := S5x128x128) ![3, 0, 0] S1x128x128.size inb_S5x128x128_S1x128x128_3_0_0)) (View.ld x5 (Rect.unit (s := S5x128x128) ![3, 0, 0] S1x128x128.size inb_S5x128x128_S1x128x128_3_0_0)) (View.ld x7 (Rect.unit (s := S5x1x128) ![3, 0, 0] S1x1x128.size inb_S5x1x128_S1x1x128_3_0_0))
  let v255 := k3_pay24 (View.ld x2 (Rect.unit (s := S5x128x128) ![4, 0, 0] S1x128x128.size inb_S5x128x128_S1x128x128_4_0_0))
  let v297 := k3_pay25 v253 (View.ld x4 (Rect.unit (s := S5x128x128) ![4, 0, 0] S1x128x128.size inb_S5x128x128_S1x128x128_4_0_0))
  let v299 := k3_pay26 (View.ld x5 (Rect.unit (s := S5x128x128) ![4, 0, 0] S1x128x128.size inb_S5x128x128_S1x128x128_4_0_0))
  let v300 := k3_pay27 v3 v253 v255 (View.ld x3 (Rect.unit (s := S5x64x128) ![4, 0, 0] S1x64x128.size inb_S5x64x128_S1x64x128_4_0_0)) (View.ld x6 (Rect.unit (s := S5x1x128) ![4, 0, 0] S1x1x128.size inb_S5x1x128_S1x1x128_4_0_0))
  k3_pay1 v297 v299 v300 (View.ld x7 (Rect.unit (s := S5x1x128) ![4, 0, 0] S1x1x128.size inb_S5x1x128_S1x1x128_4_0_0))

/-- The output window's staging buffer after the body: its one whole-block store. -/
def out3_9 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : Vec F S54x128x128 .f32 :=
  View.canon [⟨rOut3, bodyVal3 x0 x1 x2 x3 x4 x5 x6 x7 x8⟩]

/-- The one store covers the block. -/
theorem cover3_9 (p0 : Vec F S54x128x128 .f32) (y : S54x128x128.Idx) :
    ∃ pc ∈ ([⟨rOut3, p0⟩] : List (View.Piece (Elt F) S54x128x128 .f32)), y ∈ pc.1.set :=
  View.cover_of_tiled [⟨rOut3, p0⟩] S54x128x128.size (by rfl) y

/-! ## The body's triple -/

set_option maxHeartbeats 4000000 in
/-- The kernel body on whole staging memrefs, the inputs' at read contents x0 … x8 and the output's at anything, runs to
    the continuation holding the inputs' as they were and the output's at out3_9 of the inputs'. -/
theorem sound_kernel3 (c : Dev nD) (E : Set ℕ) (i : grid3.Coords)
    (arg0 : Memref sig .tc .vmem S54x128x128 .f32) (harg0 : arg0.IsWhole)
    (arg1 : Memref sig .tc .vmem S72x128x64 .f32) (harg1 : arg1.IsWhole)
    (arg2 : Memref sig .tc .vmem S5x128x128 .f32) (harg2 : arg2.IsWhole)
    (arg3 : Memref sig .tc .vmem S5x64x128 .f32) (harg3 : arg3.IsWhole)
    (arg4 : Memref sig .tc .vmem S5x128x128 .f32) (harg4 : arg4.IsWhole)
    (arg5 : Memref sig .tc .vmem S5x128x128 .f32) (harg5 : arg5.IsWhole)
    (arg6 : Memref sig .tc .vmem S5x1x128 .f32) (harg6 : arg6.IsWhole)
    (arg7 : Memref sig .tc .vmem S5x1x128 .f32) (harg7 : arg7.IsWhole)
    (arg8 : Memref sig .tc .vmem S128x128 .f32) (harg8 : arg8.IsWhole)
    (arg9 : Memref sig .tc .vmem S54x128x128 .f32) (harg9 : arg9.IsWhole)
    (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out3_9 x0 x1 x2 x3 x4 x5 x6 x7 x8)) -∗ Kc ⟨⟩))
      ⊢ wp frame (wpE (defs₀ (F := F)) Variants.none c none) E (cc3__sage_block i arg0 harg0 arg1 harg1 arg2 harg2 arg3 harg3 arg4 harg4 arg5 harg5 arg6 harg6 arg7 harg7 arg8 harg8 arg9 harg9) Kc := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-! ## The region's proof data -/

/-- The proof data of pipeline 3 on core c: the arrays as the region finds them; after the body at point t each input's
    staging buffer at its block and the output's at out3_9 of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The obligation at a grid point -/

/-- What the body is called with at point t: the invariant, the core's debts (none), and each window's staging buffer —
    the inputs' at their blocks, the output's at anything. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

set_option maxHeartbeats 4000000 in
/-- The body at any point: the inputs' staging buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRun.lean ====
/-
  THE KERNEL'S RUN. @main is eleven segments: three stretches of host operations (the packed block-diagonal weights, the
  tiled biases, the ones matrix, then batch chunk 0's vertex-major vertices and pre-gathered edges), the region on
  chunk 0, and for each of the chunks 1, 2, 3 a stretch (the previous chunk's result restored to batch-major, this
  chunk's operands) and its region; the last stretch restores chunk 3 and joins the four results. The buffers' contents
  at the twelve boundaries are a fold from the launch memory: a stretch's operations applied, a region's arrays at what
  its write-backs leave and every other buffer as entered. Each region is entered from "every unscoped buffer at the
  boundary's contents" and left there; no argument array is written by a host operation or is a window's array, so the
  six arguments end as launched. Generic in the float instance.
-/
import proofs.«182073_g78494822302262_cont_9to1_m_206_7_alg».proof.Proof.KRegion0
import proofs.«182073_g78494822302262_cont_9to1_m_206_7_alg».proof.Proof.KRegion1
import proofs.«182073_g78494822302262_cont_9to1_m_206_7_alg».proof.Proof.KRegion2
import proofs.«182073_g78494822302262_cont_9to1_m_206_7_alg».proof.Proof.KRegion3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After `hostOps3`. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
/-- At region 3's exit: its arrays at what the pipeline leaves, every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- After `hostOps4`. -/
abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b

/-! ## The arguments end as launched -/

set_option maxRecDepth 8192 in
set_option maxHeartbeats 4000000 in
/-- Argument 0 ends as launched: no host operation writes it and no region's window is on it. -/
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := StableHlo.after_of_forall_not_mem (b := Proc.devRef .tc main_arg0) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W9 m ρ c (Proc.devRef .tc main_arg0) := W10_of_ne m ρ c main_arg0 (by decide)
    _ = W8 m ρ c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W7 m ρ c (Proc.devRef .tc main_arg0) := W8_of_ne m ρ c main_arg0 (by decide)
    _ = W6 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

set_option maxRecDepth 8192 in
set_option maxHeartbeats 4000000 in
/-- Argument 1 ends as launched: no host operation writes it and no region's window is on it. -/
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := StableHlo.after_of_forall_not_mem (b := Proc.devRef .tc main_arg1) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

set_option maxRecDepth 8192 in
set_option maxHeartbeats 4000000 in
/-- Argument 2 ends as launched: no host operation writes it and no region's window is on it. -/
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := StableHlo.after_of_forall_not_mem (b := Proc.devRef .tc main_arg2) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

set_option maxRecDepth 8192 in
set_option maxHeartbeats 4000000 in
/-- Argument 3 ends as launched: no host operation writes it and no region's window is on it. -/
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := StableHlo.after_of_forall_not_mem (b := Proc.devRef .tc main_arg3) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

set_option maxRecDepth 8192 in
set_option maxHeartbeats 4000000 in
/-- Argument 4 ends as launched: no host operation writes it and no region's window is on it. -/
theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := StableHlo.after_of_forall_not_mem (b := Proc.devRef .tc main_arg4) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

set_option maxRecDepth 8192 in
set_option maxHeartbeats 4000000 in
/-- Argument 5 ends as launched: no host operation writes it and no region's window is on it. -/
theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := StableHlo.after_of_forall_not_mem (b := Proc.devRef .tc main_arg5) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at W3, left at W4. Its arrays are split out of
    the unscoped buffers and put back at the exit contents; the generator register goes into the invariant and out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W5, left at W6. Its arrays are split out of
    the unscoped buffers and put back at the exit contents; the generator register goes into the invariant and out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W7, left at W8. Its arrays are split out of
    the unscoped buffers and put back at the exit contents; the generator register goes into the invariant and out;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W9, left at W10. Its arrays are split out of
    the unscoped buffers and put back at the exit contents; the generator register goes into the invariant and out;
    nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)) ]

theorem main_run (c : Dev nD) : main (F := F) c = Pipeline.Seg.run (segs m ρ) := (main_chain c).trans (by chain_rfl)

set_option backward.isDefEq.respectTransparency.types false in
/-- Every weakly fair execution of @main terminates without a fault, and every final state has each unscoped buffer at
    the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_arg0 (by decide))).trans (W11_main_arg0 m ρ c),
        (h c _ (mem_uc main_arg1 (by decide))).trans (W11_main_arg1 m ρ c),
        (h c _ (mem_uc main_arg2 (by decide))).trans (W11_main_arg2 m ρ c),
        (h c _ (mem_uc main_arg3 (by decide))).trans (W11_main_arg3 m ρ c),
        (h c _ (mem_uc main_arg4 (by decide))).trans (W11_main_arg4 m ρ c),
        (h c _ (mem_uc main_arg5 (by decide))).trans (W11_main_arg5 m ρ c)⟩)
    (run_main m ρ)

end Cert.Kernel.Hand

end
-- ==== Proof.KIRegion0.lean ====
/-
  REGION 0 OF THE KERNEL'S @main (the pallas_call on batch chunk 0): each window's block at a grid point, the block the body
  leaves in the output window as one pure function of the nine input blocks (the five unrolled layers: the body's
  payloads composed in the order the body computes them), the body's triple — on whole staging buffers holding the input
  blocks, the body runs to its return, the inputs as they were and the output at that function of them —, the region's
  proof data and the obligation at every grid point. Stated at a parameter V: the buffers' contents when the region is
  entered. Generic in the float instance.
-/
import proofs.«182073_g78494822302262_cont_9to1_m_206_7_alg».proof.Proof.Gen.KernelIdeal.Launch
import proofs.«182073_g78494822302262_cont_9to1_m_206_7_alg».proof.Proof.Gen.KernelIdeal.Skeleton
import proofs.«182073_g78494822302262_cont_9to1_m_206_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- An input window's staging buffer holds its block at every point, fetched there or not (a weight window is fetched
-- once: its block index does not move), for any proof data whose array is V's and whose body leaves the block in place.
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window -/

/-- The whole-block rectangle of the output window. -/
abbrev rOut0 : Rect S54x128x128 := Rect.unit (s := S54x128x128) ![0, 0, 0] S54x128x128.size inb_S54x128x128_S54x128x128_0_0_0

/-- The body's result block from the nine input blocks: the vertex block, the edge block and the ones matrix loaded
    whole, the five layers' weight and bias slices loaded at their layer's offset, and the payloads composed as the
    body composes them, layer 0 first. -/
def bodyVal0 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : FVec F S54x128x128 .f32 :=
  let v0 := View.ld x0 rOut0
  let v2 := View.ld x1 (Rect.unit (s := S72x128x64) ![0, 0, 0] S72x128x64.size inb_S72x128x64_S72x128x64_0_0_0)
  let v4 := View.ld x8 (Rect.unit (s := S128x128) ![0, 0] S128x128.size inb_S128x128_S128x128_0_0)
  let v1 := k0_pay2 v0
  let v3 := k0_pay3 v2
  let v5 := k0_pay4 v4
  let v38 := k0_pay5 v0 v2 (View.ld x2 (Rect.unit (s := S5x128x128) ![0, 0, 0] S1x128x128.size inb_S5x128x128_S1x128x128_0_0_0)) (View.ld x3 (Rect.unit (s := S5x64x128) ![0, 0, 0] S1x64x128.size inb_S5x64x128_S1x64x128_0_0_0))
  let v39 := View.ld x6 (Rect.unit (s := S5x1x128) ![0, 0, 0] S1x1x128.size inb_S5x1x128_S1x1x128_0_0_0)
  let v45 := View.ld x4 (Rect.unit (s := S5x128x128) ![0, 0, 0] S1x128x128.size inb_S5x128x128_S1x128x128_0_0_0)
  let v50 := View.ld x5 (Rect.unit (s := S5x128x128) ![0, 0, 0] S1x128x128.size inb_S5x128x128_S1x128x128_0_0_0)
  let v56 := View.ld x7 (Rect.unit (s := S5x1x128) ![0, 0, 0] S1x1x128.size inb_S5x1x128_S1x1x128_0_0_0)
  let v68 := View.ld x2 (Rect.unit (s := S5x128x128) ![1, 0, 0] S1x128x128.size inb_S5x128x128_S1x128x128_1_0_0)
  let v67 := k0_pay6 v1 v5 v38 v39 v45 v50 v56
  let v72 := k0_pay7 v1 v5 v38 v39 v45 v50 v56 v68
  let v77 := k0_pay8 v3 (View.ld x3 (Rect.unit (s := S5x64x128) ![1, 0, 0] S1x64x128.size inb_S5x64x128_S1x64x128_1_0_0))
  let v78 := k0_pay9 v1 v5 v38 v39 v45 v50 v56 v68
  let v79 := k0_pay10 v1 v5 v38 v39 v45 v50 v56 v68
  let v101 := View.ld x6 (Rect.unit (s := S5x1x128) ![1, 0, 0] S1x1x128.size inb_S5x1x128_S1x1x128_1_0_0)
  let v107 := View.ld x4 (Rect.unit (s := S5x128x128) ![1, 0, 0] S1x128x128.size inb_S5x128x128_S1x128x128_1_0_0)
  let v112 := View.ld x5 (Rect.unit (s := S5x128x128) ![1, 0, 0] S1x128x128.size inb_S5x128x128_S1x128x128_1_0_0)
  let v118 := View.ld x7 (Rect.unit (s := S5x1x128) ![1, 0, 0] S1x1x128.size inb_S5x1x128_S1x1x128_1_0_0)
  let v123 := k0_pay11 v67 v72 v77 v78 v79 v101 v107 v112 v118
  let v125 := k0_pay12 v67 v72 v77 v78 v79 v101 v107 v112 v118
  let v129 := k0_pay13 v5 v123 v125
  let v168 := k0_pay14 v3 v5 v123 v125 (View.ld x2 (Rect.unit (s := S5x128x128) ![2, 0, 0] S1x128x128.size inb_S5x128x128_S1x128x128_2_0_0)) (View.ld x3 (Rect.unit (s := S5x64x128) ![2, 0, 0] S1x64x128.size inb_S5x64x128_S1x64x128_2_0_0)) (View.ld x6 (Rect.unit (s := S5x1x128) ![2, 0, 0] S1x1x128.size inb_S5x1x128_S1x1x128_2_0_0))
  let v170 := k0_pay15 (View.ld x4 (Rect.unit (s := S5x128x128) ![2, 0, 0] S1x128x128.size inb_S5x128x128_S1x128x128_2_0_0))
  let v174 := View.ld x5 (Rect.unit (s := S5x128x128) ![2, 0, 0] S1x128x128.size inb_S5x128x128_S1x128x128_2_0_0)
  let v180 := View.ld x7 (Rect.unit (s := S5x1x128) ![2, 0, 0] S1x1x128.size inb_S5x1x128_S1x1x128_2_0_0)
  let v192 := View.ld x2 (Rect.unit (s := S5x128x128) ![3, 0, 0] S1x128x128.size inb_S5x128x128_S1x128x128_3_0_0)
  let v197 := View.ld x3 (Rect.unit (s := S5x64x128) ![3, 0, 0] S1x64x128.size inb_S5x64x128_S1x64x128_3_0_0)
  let v191 := k0_pay16 v5 v129 v168 v170 v174 v180
  let v196 := k0_pay17 v5 v129 v168 v170 v174 v180 v192
  let v201 := k0_pay18 v3 v197
  let v208 := k0_pay19 v3 v5 v129 v168 v170 v174 v180 v192 v197
  let v211 := k0_pay20 v5 v129 v168 v170 v174 v180 v192
  let v212 := k0_pay21 v3 v197
  let v213 := k0_pay22 v3 v197
  let v253 := k0_pay23 v5 v191 v196 v201 v208 v211 v212 v213 (View.ld x6 (Rect.unit (s := S5x1x128) ![3, 0, 0] S1x1x128.size inb_S5x1x128_S1x1x128_3_0_0)) (View.ld x4 (Rect.unit (s := S5x128x128) ![3, 0, 0] S1x128x128.size inb_S5x128x128_S1x128x128_3_0_0)) (View.ld x5 (Rect.unit (s := S5x128x128) ![3, 0, 0] S1x128x128.size inb_S5x128x128_S1x128x128_3_0_0)) (View.ld x7 (Rect.unit (s := S5x1x128) ![3, 0, 0] S1x1x128.size inb_S5x1x128_S1x1x128_3_0_0))
  let v255 := k0_pay24 (View.ld x2 (Rect.unit (s := S5x128x128) ![4, 0, 0] S1x128x128.size inb_S5x128x128_S1x128x128_4_0_0))
  let v297 := k0_pay25 v253 (View.ld x4 (Rect.unit (s := S5x128x128) ![4, 0, 0] S1x128x128.size inb_S5x128x128_S1x128x128_4_0_0))
  let v299 := k0_pay26 (View.ld x5 (Rect.unit (s := S5x128x128) ![4, 0, 0] S1x128x128.size inb_S5x128x128_S1x128x128_4_0_0))
  let v300 := k0_pay27 v3 v253 v255 (View.ld x3 (Rect.unit (s := S5x64x128) ![4, 0, 0] S1x64x128.size inb_S5x64x128_S1x64x128_4_0_0)) (View.ld x6 (Rect.unit (s := S5x1x128) ![4, 0, 0] S1x1x128.size inb_S5x1x128_S1x1x128_4_0_0))
  k0_pay1 v297 v299 v300 (View.ld x7 (Rect.unit (s := S5x1x128) ![4, 0, 0] S1x1x128.size inb_S5x1x128_S1x1x128_4_0_0))

/-- The output window's staging buffer after the body: its one whole-block store. -/
def out0_9 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : Vec F S54x128x128 .f32 :=
  View.canon [⟨rOut0, bodyVal0 x0 x1 x2 x3 x4 x5 x6 x7 x8⟩]

/-- The one store covers the block. -/
theorem cover0_9 (p0 : Vec F S54x128x128 .f32) (y : S54x128x128.Idx) :
    ∃ pc ∈ ([⟨rOut0, p0⟩] : List (View.Piece (Elt F) S54x128x128 .f32)), y ∈ pc.1.set :=
  View.cover_of_tiled [⟨rOut0, p0⟩] S54x128x128.size (by rfl) y

/-! ## The body's triple -/

set_option maxHeartbeats 4000000 in
/-- The kernel body on whole staging memrefs, the inputs' at read contents x0 … x8 and the output's at anything, runs to
    the continuation holding the inputs' as they were and the output's at out0_9 of the inputs'. -/
theorem sound_kernel0 (c : Dev nD) (E : Set ℕ) (i : grid0.Coords)
    (arg0 : Memref sig .tc .vmem S54x128x128 .f32) (harg0 : arg0.IsWhole)
    (arg1 : Memref sig .tc .vmem S72x128x64 .f32) (harg1 : arg1.IsWhole)
    (arg2 : Memref sig .tc .vmem S5x128x128 .f32) (harg2 : arg2.IsWhole)
    (arg3 : Memref sig .tc .vmem S5x64x128 .f32) (harg3 : arg3.IsWhole)
    (arg4 : Memref sig .tc .vmem S5x128x128 .f32) (harg4 : arg4.IsWhole)
    (arg5 : Memref sig .tc .vmem S5x128x128 .f32) (harg5 : arg5.IsWhole)
    (arg6 : Memref sig .tc .vmem S5x1x128 .f32) (harg6 : arg6.IsWhole)
    (arg7 : Memref sig .tc .vmem S5x1x128 .f32) (harg7 : arg7.IsWhole)
    (arg8 : Memref sig .tc .vmem S128x128 .f32) (harg8 : arg8.IsWhole)
    (arg9 : Memref sig .tc .vmem S54x128x128 .f32) (harg9 : arg9.IsWhole)
    (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out0_9 x0 x1 x2 x3 x4 x5 x6 x7 x8)) -∗ Kc ⟨⟩))
      ⊢ wp frame (wpE (defs₀ (F := F)) Variants.none c none) E (cc0__sage_block i arg0 harg0 arg1 harg1 arg2 harg2 arg3 harg3 arg4 harg4 arg5 harg5 arg6 harg6 arg7 harg7 arg8 harg8 arg9 harg9) Kc := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The region's proof data -/

/-- The proof data of pipeline 0 on core c: the arrays as the region finds them; after the body at point t each input's
    staging buffer at its block and the output's at out0_9 of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The obligation at a grid point -/

/-- What the body is called with at point t: the invariant, the core's debts (none), and each window's staging buffer —
    the inputs' at their blocks, the output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' staging buffers hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  REGION 1 OF THE KERNEL'S @main (the pallas_call on batch chunk 1): each window's block at a grid point, the block the body
  leaves in the output window as one pure function of the nine input blocks (the five unrolled layers: the body's
  payloads composed in the order the body computes them), the body's triple — on whole staging buffers holding the input
  blocks, the body runs to its return, the inputs as they were and the output at that function of them —, the region's
  proof data and the obligation at every grid point. Stated at a parameter V: the buffers' contents when the region is
  entered. Generic in the float instance.
-/
import proofs.«182073_g78494822302262_cont_9to1_m_206_7_alg».proof.Proof.Gen.KernelIdeal.Launch
import proofs.«182073_g78494822302262_cont_9to1_m_206_7_alg».proof.Proof.Gen.KernelIdeal.Skeleton
import proofs.«182073_g78494822302262_cont_9to1_m_206_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- An input window's staging buffer holds its block at every point, fetched there or not (a weight window is fetched
-- once: its block index does not move), for any proof data whose array is V's and whose body leaves the block in place.
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window -/

/-- The whole-block rectangle of the output window. -/
abbrev rOut1 : Rect S54x128x128 := Rect.unit (s := S54x128x128) ![0, 0, 0] S54x128x128.size inb_S54x128x128_S54x128x128_0_0_0

/-- The body's result block from the nine input blocks: the vertex block, the edge block and the ones matrix loaded
    whole, the five layers' weight and bias slices loaded at their layer's offset, and the payloads composed as the
    body composes them, layer 0 first. -/
def bodyVal1 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : FVec F S54x128x128 .f32 :=
  let v0 := View.ld x0 rOut1
  let v2 := View.ld x1 (Rect.unit (s := S72x128x64) ![0, 0, 0] S72x128x64.size inb_S72x128x64_S72x128x64_0_0_0)
  let v4 := View.ld x8 (Rect.unit (s := S128x128) ![0, 0] S128x128.size inb_S128x128_S128x128_0_0)
  let v1 := k1_pay2 v0
  let v3 := k1_pay3 v2
  let v5 := k1_pay4 v4
  let v38 := k1_pay5 v0 v2 (View.ld x2 (Rect.unit (s := S5x128x128) ![0, 0, 0] S1x128x128.size inb_S5x128x128_S1x128x128_0_0_0)) (View.ld x3 (Rect.unit (s := S5x64x128) ![0, 0, 0] S1x64x128.size inb_S5x64x128_S1x64x128_0_0_0))
  let v39 := View.ld x6 (Rect.unit (s := S5x1x128) ![0, 0, 0] S1x1x128.size inb_S5x1x128_S1x1x128_0_0_0)
  let v45 := View.ld x4 (Rect.unit (s := S5x128x128) ![0, 0, 0] S1x128x128.size inb_S5x128x128_S1x128x128_0_0_0)
  let v50 := View.ld x5 (Rect.unit (s := S5x128x128) ![0, 0, 0] S1x128x128.size inb_S5x128x128_S1x128x128_0_0_0)
  let v56 := View.ld x7 (Rect.unit (s := S5x1x128) ![0, 0, 0] S1x1x128.size inb_S5x1x128_S1x1x128_0_0_0)
  let v68 := View.ld x2 (Rect.unit (s := S5x128x128) ![1, 0, 0] S1x128x128.size inb_S5x128x128_S1x128x128_1_0_0)
  let v67 := k1_pay6 v1 v5 v38 v39 v45 v50 v56
  let v72 := k1_pay7 v1 v5 v38 v39 v45 v50 v56 v68
  let v77 := k1_pay8 v3 (View.ld x3 (Rect.unit (s := S5x64x128) ![1, 0, 0] S1x64x128.size inb_S5x64x128_S1x64x128_1_0_0))
  let v78 := k1_pay9 v1 v5 v38 v39 v45 v50 v56 v68
  let v79 := k1_pay10 v1 v5 v38 v39 v45 v50 v56 v68
  let v101 := View.ld x6 (Rect.unit (s := S5x1x128) ![1, 0, 0] S1x1x128.size inb_S5x1x128_S1x1x128_1_0_0)
  let v107 := View.ld x4 (Rect.unit (s := S5x128x128) ![1, 0, 0] S1x128x128.size inb_S5x128x128_S1x128x128_1_0_0)
  let v112 := View.ld x5 (Rect.unit (s := S5x128x128) ![1, 0, 0] S1x128x128.size inb_S5x128x128_S1x128x128_1_0_0)
  let v118 := View.ld x7 (Rect.unit (s := S5x1x128) ![1, 0, 0] S1x1x128.size inb_S5x1x128_S1x1x128_1_0_0)
  let v123 := k1_pay11 v67 v72 v77 v78 v79 v101 v107 v112 v118
  let v125 := k1_pay12 v67 v72 v77 v78 v79 v101 v107 v112 v118
  let v129 := k1_pay13 v5 v123 v125
  let v168 := k1_pay14 v3 v5 v123 v125 (View.ld x2 (Rect.unit (s := S5x128x128) ![2, 0, 0] S1x128x128.size inb_S5x128x128_S1x128x128_2_0_0)) (View.ld x3 (Rect.unit (s := S5x64x128) ![2, 0, 0] S1x64x128.size inb_S5x64x128_S1x64x128_2_0_0)) (View.ld x6 (Rect.unit (s := S5x1x128) ![2, 0, 0] S1x1x128.size inb_S5x1x128_S1x1x128_2_0_0))
  let v170 := k1_pay15 (View.ld x4 (Rect.unit (s := S5x128x128) ![2, 0, 0] S1x128x128.size inb_S5x128x128_S1x128x128_2_0_0))
  let v174 := View.ld x5 (Rect.unit (s := S5x128x128) ![2, 0, 0] S1x128x128.size inb_S5x128x128_S1x128x128_2_0_0)
  let v180 := View.ld x7 (Rect.unit (s := S5x1x128) ![2, 0, 0] S1x1x128.size inb_S5x1x128_S1x1x128_2_0_0)
  let v192 := View.ld x2 (Rect.unit (s := S5x128x128) ![3, 0, 0] S1x128x128.size inb_S5x128x128_S1x128x128_3_0_0)
  let v197 := View.ld x3 (Rect.unit (s := S5x64x128) ![3, 0, 0] S1x64x128.size inb_S5x64x128_S1x64x128_3_0_0)
  let v191 := k1_pay16 v5 v129 v168 v170 v174 v180
  let v196 := k1_pay17 v5 v129 v168 v170 v174 v180 v192
  let v201 := k1_pay18 v3 v197
  let v208 := k1_pay19 v3 v5 v129 v168 v170 v174 v180 v192 v197
  let v211 := k1_pay20 v5 v129 v168 v170 v174 v180 v192
  let v212 := k1_pay21 v3 v197
  let v213 := k1_pay22 v3 v197
  let v253 := k1_pay23 v5 v191 v196 v201 v208 v211 v212 v213 (View.ld x6 (Rect.unit (s := S5x1x128) ![3, 0, 0] S1x1x128.size inb_S5x1x128_S1x1x128_3_0_0)) (View.ld x4 (Rect.unit (s := S5x128x128) ![3, 0, 0] S1x128x128.size inb_S5x128x128_S1x128x128_3_0_0)) (View.ld x5 (Rect.unit (s := S5x128x128) ![3, 0, 0] S1x128x128.size inb_S5x128x128_S1x128x128_3_0_0)) (View.ld x7 (Rect.unit (s := S5x1x128) ![3, 0, 0] S1x1x128.size inb_S5x1x128_S1x1x128_3_0_0))
  let v255 := k1_pay24 (View.ld x2 (Rect.unit (s := S5x128x128) ![4, 0, 0] S1x128x128.size inb_S5x128x128_S1x128x128_4_0_0))
  let v297 := k1_pay25 v253 (View.ld x4 (Rect.unit (s := S5x128x128) ![4, 0, 0] S1x128x128.size inb_S5x128x128_S1x128x128_4_0_0))
  let v299 := k1_pay26 (View.ld x5 (Rect.unit (s := S5x128x128) ![4, 0, 0] S1x128x128.size inb_S5x128x128_S1x128x128_4_0_0))
  let v300 := k1_pay27 v3 v253 v255 (View.ld x3 (Rect.unit (s := S5x64x128) ![4, 0, 0] S1x64x128.size inb_S5x64x128_S1x64x128_4_0_0)) (View.ld x6 (Rect.unit (s := S5x1x128) ![4, 0, 0] S1x1x128.size inb_S5x1x128_S1x1x128_4_0_0))
  k1_pay1 v297 v299 v300 (View.ld x7 (Rect.unit (s := S5x1x128) ![4, 0, 0] S1x1x128.size inb_S5x1x128_S1x1x128_4_0_0))

/-- The output window's staging buffer after the body: its one whole-block store. -/
def out1_9 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : Vec F S54x128x128 .f32 :=
  View.canon [⟨rOut1, bodyVal1 x0 x1 x2 x3 x4 x5 x6 x7 x8⟩]

/-- The one store covers the block. -/
theorem cover1_9 (p0 : Vec F S54x128x128 .f32) (y : S54x128x128.Idx) :
    ∃ pc ∈ ([⟨rOut1, p0⟩] : List (View.Piece (Elt F) S54x128x128 .f32)), y ∈ pc.1.set :=
  View.cover_of_tiled [⟨rOut1, p0⟩] S54x128x128.size (by rfl) y

/-! ## The body's triple -/

set_option maxHeartbeats 4000000 in
/-- The kernel body on whole staging memrefs, the inputs' at read contents x0 … x8 and the output's at anything, runs to
    the continuation holding the inputs' as they were and the output's at out1_9 of the inputs'. -/
theorem sound_kernel1 (c : Dev nD) (E : Set ℕ) (i : grid1.Coords)
    (arg0 : Memref sig .tc .vmem S54x128x128 .f32) (harg0 : arg0.IsWhole)
    (arg1 : Memref sig .tc .vmem S72x128x64 .f32) (harg1 : arg1.IsWhole)
    (arg2 : Memref sig .tc .vmem S5x128x128 .f32) (harg2 : arg2.IsWhole)
    (arg3 : Memref sig .tc .vmem S5x64x128 .f32) (harg3 : arg3.IsWhole)
    (arg4 : Memref sig .tc .vmem S5x128x128 .f32) (harg4 : arg4.IsWhole)
    (arg5 : Memref sig .tc .vmem S5x128x128 .f32) (harg5 : arg5.IsWhole)
    (arg6 : Memref sig .tc .vmem S5x1x128 .f32) (harg6 : arg6.IsWhole)
    (arg7 : Memref sig .tc .vmem S5x1x128 .f32) (harg7 : arg7.IsWhole)
    (arg8 : Memref sig .tc .vmem S128x128 .f32) (harg8 : arg8.IsWhole)
    (arg9 : Memref sig .tc .vmem S54x128x128 .f32) (harg9 : arg9.IsWhole)
    (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out1_9 x0 x1 x2 x3 x4 x5 x6 x7 x8)) -∗ Kc ⟨⟩))
      ⊢ wp frame (wpE (defs₀ (F := F)) Variants.none c none) E (cc1__sage_block i arg0 harg0 arg1 harg1 arg2 harg2 arg3 harg3 arg4 harg4 arg5 harg5 arg6 harg6 arg7 harg7 arg8 harg8 arg9 harg9) Kc := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The region's proof data -/

/-- The proof data of pipeline 1 on core c: the arrays as the region finds them; after the body at point t each input's
    staging buffer at its block and the output's at out1_9 of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The obligation at a grid point -/

/-- What the body is called with at point t: the invariant, the core's debts (none), and each window's staging buffer —
    the inputs' at their blocks, the output's at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- The body at any point: the inputs' staging buffers hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRegion2.lean ====
/-
  REGION 2 OF THE KERNEL'S @main (the pallas_call on batch chunk 2): each window's block at a grid point, the block the body
  leaves in the output window as one pure function of the nine input blocks (the five unrolled layers: the body's
  payloads composed in the order the body computes them), the body's triple — on whole staging buffers holding the input
  blocks, the body runs to its return, the inputs as they were and the output at that function of them —, the region's
  proof data and the obligation at every grid point. Stated at a parameter V: the buffers' contents when the region is
  entered. Generic in the float instance.
-/
import proofs.«182073_g78494822302262_cont_9to1_m_206_7_alg».proof.Proof.Gen.KernelIdeal.Launch
import proofs.«182073_g78494822302262_cont_9to1_m_206_7_alg».proof.Proof.Gen.KernelIdeal.Skeleton
import proofs.«182073_g78494822302262_cont_9to1_m_206_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- An input window's staging buffer holds its block at every point, fetched there or not (a weight window is fetched
-- once: its block index does not move), for any proof data whose array is V's and whose body leaves the block in place.
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window -/

/-- The whole-block rectangle of the output window. -/
abbrev rOut2 : Rect S54x128x128 := Rect.unit (s := S54x128x128) ![0, 0, 0] S54x128x128.size inb_S54x128x128_S54x128x128_0_0_0

/-- The body's result block from the nine input blocks: the vertex block, the edge block and the ones matrix loaded
    whole, the five layers' weight and bias slices loaded at their layer's offset, and the payloads composed as the
    body composes them, layer 0 first. -/
def bodyVal2 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : FVec F S54x128x128 .f32 :=
  let v0 := View.ld x0 rOut2
  let v2 := View.ld x1 (Rect.unit (s := S72x128x64) ![0, 0, 0] S72x128x64.size inb_S72x128x64_S72x128x64_0_0_0)
  let v4 := View.ld x8 (Rect.unit (s := S128x128) ![0, 0] S128x128.size inb_S128x128_S128x128_0_0)
  let v1 := k2_pay2 v0
  let v3 := k2_pay3 v2
  let v5 := k2_pay4 v4
  let v38 := k2_pay5 v0 v2 (View.ld x2 (Rect.unit (s := S5x128x128) ![0, 0, 0] S1x128x128.size inb_S5x128x128_S1x128x128_0_0_0)) (View.ld x3 (Rect.unit (s := S5x64x128) ![0, 0, 0] S1x64x128.size inb_S5x64x128_S1x64x128_0_0_0))
  let v39 := View.ld x6 (Rect.unit (s := S5x1x128) ![0, 0, 0] S1x1x128.size inb_S5x1x128_S1x1x128_0_0_0)
  let v45 := View.ld x4 (Rect.unit (s := S5x128x128) ![0, 0, 0] S1x128x128.size inb_S5x128x128_S1x128x128_0_0_0)
  let v50 := View.ld x5 (Rect.unit (s := S5x128x128) ![0, 0, 0] S1x128x128.size inb_S5x128x128_S1x128x128_0_0_0)
  let v56 := View.ld x7 (Rect.unit (s := S5x1x128) ![0, 0, 0] S1x1x128.size inb_S5x1x128_S1x1x128_0_0_0)
  let v68 := View.ld x2 (Rect.unit (s := S5x128x128) ![1, 0, 0] S1x128x128.size inb_S5x128x128_S1x128x128_1_0_0)
  let v67 := k2_pay6 v1 v5 v38 v39 v45 v50 v56
  let v72 := k2_pay7 v1 v5 v38 v39 v45 v50 v56 v68
  let v77 := k2_pay8 v3 (View.ld x3 (Rect.unit (s := S5x64x128) ![1, 0, 0] S1x64x128.size inb_S5x64x128_S1x64x128_1_0_0))
  let v78 := k2_pay9 v1 v5 v38 v39 v45 v50 v56 v68
  let v79 := k2_pay10 v1 v5 v38 v39 v45 v50 v56 v68
  let v101 := View.ld x6 (Rect.unit (s := S5x1x128) ![1, 0, 0] S1x1x128.size inb_S5x1x128_S1x1x128_1_0_0)
  let v107 := View.ld x4 (Rect.unit (s := S5x128x128) ![1, 0, 0] S1x128x128.size inb_S5x128x128_S1x128x128_1_0_0)
  let v112 := View.ld x5 (Rect.unit (s := S5x128x128) ![1, 0, 0] S1x128x128.size inb_S5x128x128_S1x128x128_1_0_0)
  let v118 := View.ld x7 (Rect.unit (s := S5x1x128) ![1, 0, 0] S1x1x128.size inb_S5x1x128_S1x1x128_1_0_0)
  let v123 := k2_pay11 v67 v72 v77 v78 v79 v101 v107 v112 v118
  let v125 := k2_pay12 v67 v72 v77 v78 v79 v101 v107 v112 v118
  let v129 := k2_pay13 v5 v123 v125
  let v168 := k2_pay14 v3 v5 v123 v125 (View.ld x2 (Rect.unit (s := S5x128x128) ![2, 0, 0] S1x128x128.size inb_S5x128x128_S1x128x128_2_0_0)) (View.ld x3 (Rect.unit (s := S5x64x128) ![2, 0, 0] S1x64x128.size inb_S5x64x128_S1x64x128_2_0_0)) (View.ld x6 (Rect.unit (s := S5x1x128) ![2, 0, 0] S1x1x128.size inb_S5x1x128_S1x1x128_2_0_0))
  let v170 := k2_pay15 (View.ld x4 (Rect.unit (s := S5x128x128) ![2, 0, 0] S1x128x128.size inb_S5x128x128_S1x128x128_2_0_0))
  let v174 := View.ld x5 (Rect.unit (s := S5x128x128) ![2, 0, 0] S1x128x128.size inb_S5x128x128_S1x128x128_2_0_0)
  let v180 := View.ld x7 (Rect.unit (s := S5x1x128) ![2, 0, 0] S1x1x128.size inb_S5x1x128_S1x1x128_2_0_0)
  let v192 := View.ld x2 (Rect.unit (s := S5x128x128) ![3, 0, 0] S1x128x128.size inb_S5x128x128_S1x128x128_3_0_0)
  let v197 := View.ld x3 (Rect.unit (s := S5x64x128) ![3, 0, 0] S1x64x128.size inb_S5x64x128_S1x64x128_3_0_0)
  let v191 := k2_pay16 v5 v129 v168 v170 v174 v180
  let v196 := k2_pay17 v5 v129 v168 v170 v174 v180 v192
  let v201 := k2_pay18 v3 v197
  let v208 := k2_pay19 v3 v5 v129 v168 v170 v174 v180 v192 v197
  let v211 := k2_pay20 v5 v129 v168 v170 v174 v180 v192
  let v212 := k2_pay21 v3 v197
  let v213 := k2_pay22 v3 v197
  let v253 := k2_pay23 v5 v191 v196 v201 v208 v211 v212 v213 (View.ld x6 (Rect.unit (s := S5x1x128) ![3, 0, 0] S1x1x128.size inb_S5x1x128_S1x1x128_3_0_0)) (View.ld x4 (Rect.unit (s := S5x128x128) ![3, 0, 0] S1x128x128.size inb_S5x128x128_S1x128x128_3_0_0)) (View.ld x5 (Rect.unit (s := S5x128x128) ![3, 0, 0] S1x128x128.size inb_S5x128x128_S1x128x128_3_0_0)) (View.ld x7 (Rect.unit (s := S5x1x128) ![3, 0, 0] S1x1x128.size inb_S5x1x128_S1x1x128_3_0_0))
  let v255 := k2_pay24 (View.ld x2 (Rect.unit (s := S5x128x128) ![4, 0, 0] S1x128x128.size inb_S5x128x128_S1x128x128_4_0_0))
  let v297 := k2_pay25 v253 (View.ld x4 (Rect.unit (s := S5x128x128) ![4, 0, 0] S1x128x128.size inb_S5x128x128_S1x128x128_4_0_0))
  let v299 := k2_pay26 (View.ld x5 (Rect.unit (s := S5x128x128) ![4, 0, 0] S1x128x128.size inb_S5x128x128_S1x128x128_4_0_0))
  let v300 := k2_pay27 v3 v253 v255 (View.ld x3 (Rect.unit (s := S5x64x128) ![4, 0, 0] S1x64x128.size inb_S5x64x128_S1x64x128_4_0_0)) (View.ld x6 (Rect.unit (s := S5x1x128) ![4, 0, 0] S1x1x128.size inb_S5x1x128_S1x1x128_4_0_0))
  k2_pay1 v297 v299 v300 (View.ld x7 (Rect.unit (s := S5x1x128) ![4, 0, 0] S1x1x128.size inb_S5x1x128_S1x1x128_4_0_0))

/-- The output window's staging buffer after the body: its one whole-block store. -/
def out2_9 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : Vec F S54x128x128 .f32 :=
  View.canon [⟨rOut2, bodyVal2 x0 x1 x2 x3 x4 x5 x6 x7 x8⟩]

/-- The one store covers the block. -/
theorem cover2_9 (p0 : Vec F S54x128x128 .f32) (y : S54x128x128.Idx) :
    ∃ pc ∈ ([⟨rOut2, p0⟩] : List (View.Piece (Elt F) S54x128x128 .f32)), y ∈ pc.1.set :=
  View.cover_of_tiled [⟨rOut2, p0⟩] S54x128x128.size (by rfl) y

/-! ## The body's triple -/

set_option maxHeartbeats 4000000 in
/-- The kernel body on whole staging memrefs, the inputs' at read contents x0 … x8 and the output's at anything, runs to
    the continuation holding the inputs' as they were and the output's at out2_9 of the inputs'. -/
theorem sound_kernel2 (c : Dev nD) (E : Set ℕ) (i : grid2.Coords)
    (arg0 : Memref sig .tc .vmem S54x128x128 .f32) (harg0 : arg0.IsWhole)
    (arg1 : Memref sig .tc .vmem S72x128x64 .f32) (harg1 : arg1.IsWhole)
    (arg2 : Memref sig .tc .vmem S5x128x128 .f32) (harg2 : arg2.IsWhole)
    (arg3 : Memref sig .tc .vmem S5x64x128 .f32) (harg3 : arg3.IsWhole)
    (arg4 : Memref sig .tc .vmem S5x128x128 .f32) (harg4 : arg4.IsWhole)
    (arg5 : Memref sig .tc .vmem S5x128x128 .f32) (harg5 : arg5.IsWhole)
    (arg6 : Memref sig .tc .vmem S5x1x128 .f32) (harg6 : arg6.IsWhole)
    (arg7 : Memref sig .tc .vmem S5x1x128 .f32) (harg7 : arg7.IsWhole)
    (arg8 : Memref sig .tc .vmem S128x128 .f32) (harg8 : arg8.IsWhole)
    (arg9 : Memref sig .tc .vmem S54x128x128 .f32) (harg9 : arg9.IsWhole)
    (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out2_9 x0 x1 x2 x3 x4 x5 x6 x7 x8)) -∗ Kc ⟨⟩))
      ⊢ wp frame (wpE (defs₀ (F := F)) Variants.none c none) E (cc2__sage_block i arg0 harg0 arg1 harg1 arg2 harg2 arg3 harg3 arg4 harg4 arg5 harg5 arg6 harg6 arg7 harg7 arg8 harg8 arg9 harg9) Kc := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The region's proof data -/

/-- The proof data of pipeline 2 on core c: the arrays as the region finds them; after the body at point t each input's
    staging buffer at its block and the output's at out2_9 of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The obligation at a grid point -/

/-- What the body is called with at point t: the invariant, the core's debts (none), and each window's staging buffer —
    the inputs' at their blocks, the output's at anything. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 4000000 in
/-- The body at any point: the inputs' staging buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRegion3.lean ====
/-
  REGION 3 OF THE KERNEL'S @main (the pallas_call on batch chunk 3): each window's block at a grid point, the block the body
  leaves in the output window as one pure function of the nine input blocks (the five unrolled layers: the body's
  payloads composed in the order the body computes them), the body's triple — on whole staging buffers holding the input
  blocks, the body runs to its return, the inputs as they were and the output at that function of them —, the region's
  proof data and the obligation at every grid point. Stated at a parameter V: the buffers' contents when the region is
  entered. Generic in the float instance.
-/
import proofs.«182073_g78494822302262_cont_9to1_m_206_7_alg».proof.Proof.Gen.KernelIdeal.Launch
import proofs.«182073_g78494822302262_cont_9to1_m_206_7_alg».proof.Proof.Gen.KernelIdeal.Skeleton
import proofs.«182073_g78494822302262_cont_9to1_m_206_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- An input window's staging buffer holds its block at every point, fetched there or not (a weight window is fetched
-- once: its block index does not move), for any proof data whose array is V's and whose body leaves the block in place.
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window -/

/-- The whole-block rectangle of the output window. -/
abbrev rOut3 : Rect S54x128x128 := Rect.unit (s := S54x128x128) ![0, 0, 0] S54x128x128.size inb_S54x128x128_S54x128x128_0_0_0

/-- The body's result block from the nine input blocks: the vertex block, the edge block and the ones matrix loaded
    whole, the five layers' weight and bias slices loaded at their layer's offset, and the payloads composed as the
    body composes them, layer 0 first. -/
def bodyVal3 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : FVec F S54x128x128 .f32 :=
  let v0 := View.ld x0 rOut3
  let v2 := View.ld x1 (Rect.unit (s := S72x128x64) ![0, 0, 0] S72x128x64.size inb_S72x128x64_S72x128x64_0_0_0)
  let v4 := View.ld x8 (Rect.unit (s := S128x128) ![0, 0] S128x128.size inb_S128x128_S128x128_0_0)
  let v1 := k3_pay2 v0
  let v3 := k3_pay3 v2
  let v5 := k3_pay4 v4
  let v38 := k3_pay5 v0 v2 (View.ld x2 (Rect.unit (s := S5x128x128) ![0, 0, 0] S1x128x128.size inb_S5x128x128_S1x128x128_0_0_0)) (View.ld x3 (Rect.unit (s := S5x64x128) ![0, 0, 0] S1x64x128.size inb_S5x64x128_S1x64x128_0_0_0))
  let v39 := View.ld x6 (Rect.unit (s := S5x1x128) ![0, 0, 0] S1x1x128.size inb_S5x1x128_S1x1x128_0_0_0)
  let v45 := View.ld x4 (Rect.unit (s := S5x128x128) ![0, 0, 0] S1x128x128.size inb_S5x128x128_S1x128x128_0_0_0)
  let v50 := View.ld x5 (Rect.unit (s := S5x128x128) ![0, 0, 0] S1x128x128.size inb_S5x128x128_S1x128x128_0_0_0)
  let v56 := View.ld x7 (Rect.unit (s := S5x1x128) ![0, 0, 0] S1x1x128.size inb_S5x1x128_S1x1x128_0_0_0)
  let v68 := View.ld x2 (Rect.unit (s := S5x128x128) ![1, 0, 0] S1x128x128.size inb_S5x128x128_S1x128x128_1_0_0)
  let v67 := k3_pay6 v1 v5 v38 v39 v45 v50 v56
  let v72 := k3_pay7 v1 v5 v38 v39 v45 v50 v56 v68
  let v77 := k3_pay8 v3 (View.ld x3 (Rect.unit (s := S5x64x128) ![1, 0, 0] S1x64x128.size inb_S5x64x128_S1x64x128_1_0_0))
  let v78 := k3_pay9 v1 v5 v38 v39 v45 v50 v56 v68
  let v79 := k3_pay10 v1 v5 v38 v39 v45 v50 v56 v68
  let v101 := View.ld x6 (Rect.unit (s := S5x1x128) ![1, 0, 0] S1x1x128.size inb_S5x1x128_S1x1x128_1_0_0)
  let v107 := View.ld x4 (Rect.unit (s := S5x128x128) ![1, 0, 0] S1x128x128.size inb_S5x128x128_S1x128x128_1_0_0)
  let v112 := View.ld x5 (Rect.unit (s := S5x128x128) ![1, 0, 0] S1x128x128.size inb_S5x128x128_S1x128x128_1_0_0)
  let v118 := View.ld x7 (Rect.unit (s := S5x1x128) ![1, 0, 0] S1x1x128.size inb_S5x1x128_S1x1x128_1_0_0)
  let v123 := k3_pay11 v67 v72 v77 v78 v79 v101 v107 v112 v118
  let v125 := k3_pay12 v67 v72 v77 v78 v79 v101 v107 v112 v118
  let v129 := k3_pay13 v5 v123 v125
  let v168 := k3_pay14 v3 v5 v123 v125 (View.ld x2 (Rect.unit (s := S5x128x128) ![2, 0, 0] S1x128x128.size inb_S5x128x128_S1x128x128_2_0_0)) (View.ld x3 (Rect.unit (s := S5x64x128) ![2, 0, 0] S1x64x128.size inb_S5x64x128_S1x64x128_2_0_0)) (View.ld x6 (Rect.unit (s := S5x1x128) ![2, 0, 0] S1x1x128.size inb_S5x1x128_S1x1x128_2_0_0))
  let v170 := k3_pay15 (View.ld x4 (Rect.unit (s := S5x128x128) ![2, 0, 0] S1x128x128.size inb_S5x128x128_S1x128x128_2_0_0))
  let v174 := View.ld x5 (Rect.unit (s := S5x128x128) ![2, 0, 0] S1x128x128.size inb_S5x128x128_S1x128x128_2_0_0)
  let v180 := View.ld x7 (Rect.unit (s := S5x1x128) ![2, 0, 0] S1x1x128.size inb_S5x1x128_S1x1x128_2_0_0)
  let v192 := View.ld x2 (Rect.unit (s := S5x128x128) ![3, 0, 0] S1x128x128.size inb_S5x128x128_S1x128x128_3_0_0)
  let v197 := View.ld x3 (Rect.unit (s := S5x64x128) ![3, 0, 0] S1x64x128.size inb_S5x64x128_S1x64x128_3_0_0)
  let v191 := k3_pay16 v5 v129 v168 v170 v174 v180
  let v196 := k3_pay17 v5 v129 v168 v170 v174 v180 v192
  let v201 := k3_pay18 v3 v197
  let v208 := k3_pay19 v3 v5 v129 v168 v170 v174 v180 v192 v197
  let v211 := k3_pay20 v5 v129 v168 v170 v174 v180 v192
  let v212 := k3_pay21 v3 v197
  let v213 := k3_pay22 v3 v197
  let v253 := k3_pay23 v5 v191 v196 v201 v208 v211 v212 v213 (View.ld x6 (Rect.unit (s := S5x1x128) ![3, 0, 0] S1x1x128.size inb_S5x1x128_S1x1x128_3_0_0)) (View.ld x4 (Rect.unit (s := S5x128x128) ![3, 0, 0] S1x128x128.size inb_S5x128x128_S1x128x128_3_0_0)) (View.ld x5 (Rect.unit (s := S5x128x128) ![3, 0, 0] S1x128x128.size inb_S5x128x128_S1x128x128_3_0_0)) (View.ld x7 (Rect.unit (s := S5x1x128) ![3, 0, 0] S1x1x128.size inb_S5x1x128_S1x1x128_3_0_0))
  let v255 := k3_pay24 (View.ld x2 (Rect.unit (s := S5x128x128) ![4, 0, 0] S1x128x128.size inb_S5x128x128_S1x128x128_4_0_0))
  let v297 := k3_pay25 v253 (View.ld x4 (Rect.unit (s := S5x128x128) ![4, 0, 0] S1x128x128.size inb_S5x128x128_S1x128x128_4_0_0))
  let v299 := k3_pay26 (View.ld x5 (Rect.unit (s := S5x128x128) ![4, 0, 0] S1x128x128.size inb_S5x128x128_S1x128x128_4_0_0))
  let v300 := k3_pay27 v3 v253 v255 (View.ld x3 (Rect.unit (s := S5x64x128) ![4, 0, 0] S1x64x128.size inb_S5x64x128_S1x64x128_4_0_0)) (View.ld x6 (Rect.unit (s := S5x1x128) ![4, 0, 0] S1x1x128.size inb_S5x1x128_S1x1x128_4_0_0))
  k3_pay1 v297 v299 v300 (View.ld x7 (Rect.unit (s := S5x1x128) ![4, 0, 0] S1x1x128.size inb_S5x1x128_S1x1x128_4_0_0))

/-- The output window's staging buffer after the body: its one whole-block store. -/
def out3_9 (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) : Vec F S54x128x128 .f32 :=
  View.canon [⟨rOut3, bodyVal3 x0 x1 x2 x3 x4 x5 x6 x7 x8⟩]

/-- The one store covers the block. -/
theorem cover3_9 (p0 : Vec F S54x128x128 .f32) (y : S54x128x128.Idx) :
    ∃ pc ∈ ([⟨rOut3, p0⟩] : List (View.Piece (Elt F) S54x128x128 .f32)), y ∈ pc.1.set :=
  View.cover_of_tiled [⟨rOut3, p0⟩] S54x128x128.size (by rfl) y

/-! ## The body's triple -/

set_option maxHeartbeats 4000000 in
/-- The kernel body on whole staging memrefs, the inputs' at read contents x0 … x8 and the output's at anything, runs to
    the continuation holding the inputs' as they were and the output's at out3_9 of the inputs'. -/
theorem sound_kernel3 (c : Dev nD) (E : Set ℕ) (i : grid3.Coords)
    (arg0 : Memref sig .tc .vmem S54x128x128 .f32) (harg0 : arg0.IsWhole)
    (arg1 : Memref sig .tc .vmem S72x128x64 .f32) (harg1 : arg1.IsWhole)
    (arg2 : Memref sig .tc .vmem S5x128x128 .f32) (harg2 : arg2.IsWhole)
    (arg3 : Memref sig .tc .vmem S5x64x128 .f32) (harg3 : arg3.IsWhole)
    (arg4 : Memref sig .tc .vmem S5x128x128 .f32) (harg4 : arg4.IsWhole)
    (arg5 : Memref sig .tc .vmem S5x128x128 .f32) (harg5 : arg5.IsWhole)
    (arg6 : Memref sig .tc .vmem S5x1x128 .f32) (harg6 : arg6.IsWhole)
    (arg7 : Memref sig .tc .vmem S5x1x128 .f32) (harg7 : arg7.IsWhole)
    (arg8 : Memref sig .tc .vmem S128x128 .f32) (harg8 : arg8.IsWhole)
    (arg9 : Memref sig .tc .vmem S54x128x128 .f32) (harg9 : arg9.IsWhole)
    (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) (Kc : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out3_9 x0 x1 x2 x3 x4 x5 x6 x7 x8)) -∗ Kc ⟨⟩))
      ⊢ wp frame (wpE (defs₀ (F := F)) Variants.none c none) E (cc3__sage_block i arg0 harg0 arg1 harg1 arg2 harg2 arg3 harg3 arg4 harg4 arg5 harg5 arg6 harg6 arg7 harg7 arg8 harg8 arg9 harg9) Kc := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-! ## The region's proof data -/

/-- The proof data of pipeline 3 on core c: the arrays as the region finds them; after the body at point t each input's
    staging buffer at its block and the output's at out3_9 of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The obligation at a grid point -/

/-- What the body is called with at point t: the invariant, the core's debts (none), and each window's staging buffer —
    the inputs' at their blocks, the output's at anything. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

set_option maxHeartbeats 4000000 in
/-- The body at any point: the inputs' staging buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIRun.lean ====
/-
  THE KERNEL'S RUN. @main is eleven segments: three stretches of host operations (the packed block-diagonal weights, the
  tiled biases, the ones matrix, then batch chunk 0's vertex-major vertices and pre-gathered edges), the region on
  chunk 0, and for each of the chunks 1, 2, 3 a stretch (the previous chunk's result restored to batch-major, this
  chunk's operands) and its region; the last stretch restores chunk 3 and joins the four results. The buffers' contents
  at the twelve boundaries are a fold from the launch memory: a stretch's operations applied, a region's arrays at what
  its write-backs leave and every other buffer as entered. Each region is entered from "every unscoped buffer at the
  boundary's contents" and left there; no argument array is written by a host operation or is a window's array, so the
  six arguments end as launched. Generic in the float instance.
-/
import proofs.«182073_g78494822302262_cont_9to1_m_206_7_alg».proof.Proof.KIRegion0
import proofs.«182073_g78494822302262_cont_9to1_m_206_7_alg».proof.Proof.KIRegion1
import proofs.«182073_g78494822302262_cont_9to1_m_206_7_alg».proof.Proof.KIRegion2
import proofs.«182073_g78494822302262_cont_9to1_m_206_7_alg».proof.Proof.KIRegion3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After `hostOps2`. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- At region 2's exit: its arrays at what the pipeline leaves, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After `hostOps3`. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
/-- At region 3's exit: its arrays at what the pipeline leaves, every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- After `hostOps4`. -/
abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b

/-! ## The arguments end as launched -/

set_option maxRecDepth 8192 in
set_option maxHeartbeats 4000000 in
/-- Argument 0 ends as launched: no host operation writes it and no region's window is on it. -/
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := StableHlo.after_of_forall_not_mem (b := Proc.devRef .tc main_arg0) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W9 m ρ c (Proc.devRef .tc main_arg0) := W10_of_ne m ρ c main_arg0 (by decide)
    _ = W8 m ρ c (Proc.devRef .tc main_arg0) := StableHlo.after_of_forall_not_mem (b := Proc.devRef .tc main_arg0) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W7 m ρ c (Proc.devRef .tc main_arg0) := W8_of_ne m ρ c main_arg0 (by decide)
    _ = W6 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

set_option maxRecDepth 8192 in
set_option maxHeartbeats 4000000 in
/-- Argument 1 ends as launched: no host operation writes it and no region's window is on it. -/
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := StableHlo.after_of_forall_not_mem (b := Proc.devRef .tc main_arg1) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

set_option maxRecDepth 8192 in
set_option maxHeartbeats 4000000 in
/-- Argument 2 ends as launched: no host operation writes it and no region's window is on it. -/
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := StableHlo.after_of_forall_not_mem (b := Proc.devRef .tc main_arg2) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

set_option maxRecDepth 8192 in
set_option maxHeartbeats 4000000 in
/-- Argument 3 ends as launched: no host operation writes it and no region's window is on it. -/
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := StableHlo.after_of_forall_not_mem (b := Proc.devRef .tc main_arg3) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

set_option maxRecDepth 8192 in
set_option maxHeartbeats 4000000 in
/-- Argument 4 ends as launched: no host operation writes it and no region's window is on it. -/
theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := StableHlo.after_of_forall_not_mem (b := Proc.devRef .tc main_arg4) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg4) := rfl

set_option maxRecDepth 8192 in
set_option maxHeartbeats 4000000 in
/-- Argument 5 ends as launched: no host operation writes it and no region's window is on it. -/
theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := StableHlo.after_of_forall_not_mem (b := Proc.devRef .tc main_arg5) _ _ (List.forall_iff_forall_mem.mp (by
          simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg5) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at W3, left at W4. Its arrays are split out of
    the unscoped buffers and put back at the exit contents; the generator register goes into the invariant and out;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W5, left at W6. Its arrays are split out of
    the unscoped buffers and put back at the exit contents; the generator register goes into the invariant and out;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W7, left at W8. Its arrays are split out of
    the unscoped buffers and put back at the exit contents; the generator register goes into the invariant and out;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W9, left at W10. Its arrays are split out of
    the unscoped buffers and put back at the exit contents; the generator register goes into the invariant and out;
    nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)) ]

theorem main_run (c : Dev nD) : main (F := F) c = Pipeline.Seg.run (segs m ρ) := (main_chain c).trans (by chain_rfl)

set_option backward.isDefEq.respectTransparency.types false in
/-- Every weakly fair execution of @main terminates without a fault, and every final state has each unscoped buffer at
    the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_arg0 (by decide))).trans (W11_main_arg0 m ρ c),
        (h c _ (mem_uc main_arg1 (by decide))).trans (W11_main_arg1 m ρ c),
        (h c _ (mem_uc main_arg2 (by decide))).trans (W11_main_arg2 m ρ c),
        (h c _ (mem_uc main_arg3 (by decide))).trans (W11_main_arg3 m ρ c),
        (h c _ (mem_uc main_arg4 (by decide))).trans (W11_main_arg4 m ρ c),
        (h c _ (mem_uc main_arg5 (by decide))).trans (W11_main_arg5 m ρ c)⟩)
    (run_main m ρ)

end Cert.KernelIdeal.Hand

end
-- ==== Proof.RefRun.lean ====
/-
  THE REFERENCE'S RUN. @main of the reference as the list of its 232 host operations in order — its 212 printed steps and,
  at each of the four calls of the outlined row-norm function, that function's five operations over the call's buffers
  (the operation list below is transcribed from the printed program by scratch/gen_refrun.js (reads proof/ReferenceIdeal.lean: each `hlo rfl (OP) (fun _ => .ret ⟨⟩)` line of main_part0..3 gives OP; each `fn_norm.body (.of A) K` gives the five operations of @norm over K's buffers)) — and what follows from the list: every
  weakly fair execution of @main terminates without a fault with each buffer at the operations' fold over the launch
  contents, and since no operation writes an argument buffer, the six arguments end as they were launched.
-/
import proofs.«182073_g78494822302262_cont_9to1_m_206_7_alg».proof.ReferenceIdeal
import proofs.«182073_g78494822302262_cont_9to1_m_206_7_alg».proof.Proof.Gen.ReferenceIdeal
import Idealize.ShloMosaic.Lib.StableHlo.Run

noncomputable section

namespace Cert.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

set_option maxRecDepth 4096 in
/-- @main's operations, in order. -/
abbrev ops : List (HloOp τ sig (Elt F)) :=
  [
    StableHlo.nullary main_c (fun i => lit0 (S54x3x2.rowMajor i)),
    StableHlo.unary main_c main_v0 ((extractStridedSlice S54x3x1 ![0, 0, 0] · slices_S54x3x2_S54x3x1_0_0_0) : (⟨S54x3x2, .i32⟩ : BufTy).Contents (Elt F) → (⟨S54x3x1, .i32⟩ : BufTy).Contents (Elt F)),
    StableHlo.reshape main_v0 main_v1 rfl shapeCasts_S54x3x1_S54x3,
    StableHlo.unary main_c main_v2 ((extractStridedSlice S54x3x1 ![0, 0, 1] · slices_S54x3x2_S54x3x1_0_0_1) : (⟨S54x3x2, .i32⟩ : BufTy).Contents (Elt F) → (⟨S54x3x1, .i32⟩ : BufTy).Contents (Elt F)),
    StableHlo.reshape main_v2 main_v3 rfl shapeCasts_S54x3x1_S54x3,
    StableHlo.nullary main_c_0 (constantI S_ 32 0#32),
    StableHlo.unary main_c_0 main_v4 (broadcastInDim S54x3 ![] bcast_S_S54x3 : (⟨S_, .i32⟩ : BufTy).Contents (Elt F) → (⟨S54x3, .i32⟩ : BufTy).Contents (Elt F)),
    StableHlo.binary main_v1 main_v4 main_v5 (cmpi .slt : (⟨S54x3, .i32⟩ : BufTy).Contents (Elt F) → (⟨S54x3, .i32⟩ : BufTy).Contents (Elt F) → (⟨S54x3, .i1⟩ : BufTy).Contents (Elt F)),
    StableHlo.nullary main_c_1 (constantI S_ 32 54#32),
    StableHlo.unary main_c_1 main_v6 (broadcastInDim S54x3 ![] bcast_S_S54x3 : (⟨S_, .i32⟩ : BufTy).Contents (Elt F) → (⟨S54x3, .i32⟩ : BufTy).Contents (Elt F)),
    StableHlo.binary main_v1 main_v6 main_v7 (addi : (⟨S54x3, .i32⟩ : BufTy).Contents (Elt F) → (⟨S54x3, .i32⟩ : BufTy).Contents (Elt F) → (⟨S54x3, .i32⟩ : BufTy).Contents (Elt F)),
    StableHlo.ternary main_v5 main_v7 main_v1 main_v8 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v8 main_v9 (broadcastInDim S54x3x1 ![0, 1] bcast_S54x3_S54x3x1_0_1 : (⟨S54x3, .i32⟩ : BufTy).Contents (Elt F) → (⟨S54x3x1, .i32⟩ : BufTy).Contents (Elt F)),
    StableHlo.binary main_arg0 main_v9 main_v10 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_2 (constantI S_ 32 0#32),
    StableHlo.unary main_c_2 main_v11 (broadcastInDim S54x3 ![] bcast_S_S54x3 : (⟨S_, .i32⟩ : BufTy).Contents (Elt F) → (⟨S54x3, .i32⟩ : BufTy).Contents (Elt F)),
    StableHlo.binary main_v3 main_v11 main_v12 (cmpi .slt : (⟨S54x3, .i32⟩ : BufTy).Contents (Elt F) → (⟨S54x3, .i32⟩ : BufTy).Contents (Elt F) → (⟨S54x3, .i1⟩ : BufTy).Contents (Elt F)),
    StableHlo.nullary main_c_3 (constantI S_ 32 72#32),
    StableHlo.unary main_c_3 main_v13 (broadcastInDim S54x3 ![] bcast_S_S54x3 : (⟨S_, .i32⟩ : BufTy).Contents (Elt F) → (⟨S54x3, .i32⟩ : BufTy).Contents (Elt F)),
    StableHlo.binary main_v3 main_v13 main_v14 (addi : (⟨S54x3, .i32⟩ : BufTy).Contents (Elt F) → (⟨S54x3, .i32⟩ : BufTy).Contents (Elt F) → (⟨S54x3, .i32⟩ : BufTy).Contents (Elt F)),
    StableHlo.ternary main_v12 main_v14 main_v3 main_v15 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v15 main_v16 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v16 main_v17 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)),
    StableHlo.binary main_v10 main_v17 main_v18 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v19 ((extractStridedSlice S1x48x32 ![0, 0, 0] · slices_S5x48x32_S1x48x32_0_0_0) : (⟨S5x48x32, .f32⟩ : BufTy).Contents (Elt F) → (⟨S1x48x32, .f32⟩ : BufTy).Contents (Elt F)),
    StableHlo.reshape main_v19 main_v20 rfl shapeCasts_S1x48x32_S48x32,
    StableHlo.binary main_v18 main_v20 main_v21 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v22 ((extractStridedSlice S1x32 ![0, 0] · slices_S5x32_S1x32_0_0) : (⟨S5x32, .f32⟩ : BufTy).Contents (Elt F) → (⟨S1x32, .f32⟩ : BufTy).Contents (Elt F)),
    StableHlo.reshape main_v22 main_v23 rfl shapeCasts_S1x32_S32,
    StableHlo.unary main_v23 main_v24 (broadcastInDim S1x1x1x32 ![3] bcast_S32_S1x1x1x32_3 : (⟨S32, .f32⟩ : BufTy).Contents (Elt F) → (⟨S1x1x1x32, .f32⟩ : BufTy).Contents (Elt F)),
    StableHlo.unary main_v24 main_v25 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v21 main_v25 main_v26 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v26 main_v27 (Host.tanh : (⟨S4096x54x3x32, .f32⟩ : BufTy).Contents (Elt F) → (⟨S4096x54x3x32, .f32⟩ : BufTy).Contents (Elt F)),
    StableHlo.nullary main_cst (constant S_ .f32 0xFF800000#32),
    StableHlo.binary main_v27 main_cst main_v28 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)),
    StableHlo.binary main_arg0 main_v28 main_v29 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v30 ((extractStridedSlice S1x64x32 ![0, 0, 0] · slices_S5x64x32_S1x64x32_0_0_0) : (⟨S5x64x32, .f32⟩ : BufTy).Contents (Elt F) → (⟨S1x64x32, .f32⟩ : BufTy).Contents (Elt F)),
    StableHlo.reshape main_v30 main_v31 rfl shapeCasts_S1x64x32_S64x32,
    StableHlo.binary main_v29 main_v31 main_v32 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v33 ((extractStridedSlice S1x32 ![0, 0] · slices_S5x32_S1x32_0_0) : (⟨S5x32, .f32⟩ : BufTy).Contents (Elt F) → (⟨S1x32, .f32⟩ : BufTy).Contents (Elt F)),
    StableHlo.reshape main_v33 main_v34 rfl shapeCasts_S1x32_S32,
    StableHlo.unary main_v34 main_v35 (broadcastInDim S1x1x32 ![2] bcast_S32_S1x1x32_2 : (⟨S32, .f32⟩ : BufTy).Contents (Elt F) → (⟨S1x1x32, .f32⟩ : BufTy).Contents (Elt F)),
    StableHlo.unary main_v35 main_v36 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v32 main_v36 main_v37 (addf : (⟨S4096x54x32, .f32⟩ : BufTy).Contents (Elt F) → (⟨S4096x54x32, .f32⟩ : BufTy).Contents (Elt F) → (⟨S4096x54x32, .f32⟩ : BufTy).Contents (Elt F)),
    StableHlo.unary main_v37 main_v38 (Host.tanh : (⟨S4096x54x32, .f32⟩ : BufTy).Contents (Elt F) → (⟨S4096x54x32, .f32⟩ : BufTy).Contents (Elt F)),
    StableHlo.TRef.binary (.of main_v38) (.of main_v38) main_call0.v0 mulf,
    StableHlo.TRef.nullary main_call0.cst (constant S_ .f32 0x00000000#32),
    StableHlo.TRef.binary main_call0.v0 main_call0.cst main_call0.v1 (fun x v => Host.reduceAdd x v reducesTo_S4096x54x32_S4096x54_d2 h_S_),
    StableHlo.TRef.unary main_call0.v1 main_call0.v2 (broadcastInDim S4096x54x1 ![0, 1] bcast_S4096x54_S4096x54x1_0_1),
    StableHlo.TRef.unary main_call0.v2 main_call0.v3 Host.sqrt,
    StableHlo.unary main_v39 main_v40 (broadcastInDim S4096x54x32 ![0, 1, 2] bcast_S4096x54x1_S4096x54x32_0_1_2 : (⟨S4096x54x1, .f32⟩ : BufTy).Contents (Elt F) → (⟨S4096x54x32, .f32⟩ : BufTy).Contents (Elt F)),
    StableHlo.binary main_v38 main_v40 main_v41 (Host.divf : (⟨S4096x54x32, .f32⟩ : BufTy).Contents (Elt F) → (⟨S4096x54x32, .f32⟩ : BufTy).Contents (Elt F) → (⟨S4096x54x32, .f32⟩ : BufTy).Contents (Elt F)),
    StableHlo.nullary main_c_4 (constantI S_ 32 0#32),
    StableHlo.unary main_c_4 main_v42 (broadcastInDim S54x3 ![] bcast_S_S54x3 : (⟨S_, .i32⟩ : BufTy).Contents (Elt F) → (⟨S54x3, .i32⟩ : BufTy).Contents (Elt F)),
    StableHlo.binary main_v1 main_v42 main_v43 (cmpi .slt : (⟨S54x3, .i32⟩ : BufTy).Contents (Elt F) → (⟨S54x3, .i32⟩ : BufTy).Contents (Elt F) → (⟨S54x3, .i1⟩ : BufTy).Contents (Elt F)),
    StableHlo.nullary main_c_5 (constantI S_ 32 54#32),
    StableHlo.unary main_c_5 main_v44 (broadcastInDim S54x3 ![] bcast_S_S54x3 : (⟨S_, .i32⟩ : BufTy).Contents (Elt F) → (⟨S54x3, .i32⟩ : BufTy).Contents (Elt F)),
    StableHlo.binary main_v1 main_v44 main_v45 (addi : (⟨S54x3, .i32⟩ : BufTy).Contents (Elt F) → (⟨S54x3, .i32⟩ : BufTy).Contents (Elt F) → (⟨S54x3, .i32⟩ : BufTy).Contents (Elt F)),
    StableHlo.ternary main_v43 main_v45 main_v1 main_v46 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v46 main_v47 (broadcastInDim S54x3x1 ![0, 1] bcast_S54x3_S54x3x1_0_1 : (⟨S54x3, .i32⟩ : BufTy).Contents (Elt F) → (⟨S54x3x1, .i32⟩ : BufTy).Contents (Elt F)),
    StableHlo.binary main_v41 main_v47 main_v48 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_6 (constantI S_ 32 0#32),
    StableHlo.unary main_c_6 main_v49 (broadcastInDim S54x3 ![] bcast_S_S54x3 : (⟨S_, .i32⟩ : BufTy).Contents (Elt F) → (⟨S54x3, .i32⟩ : BufTy).Contents (Elt F)),
    StableHlo.binary main_v3 main_v49 main_v50 (cmpi .slt : (⟨S54x3, .i32⟩ : BufTy).Contents (Elt F) → (⟨S54x3, .i32⟩ : BufTy).Contents (Elt F) → (⟨S54x3, .i1⟩ : BufTy).Contents (Elt F)),
    StableHlo.nullary main_c_7 (constantI S_ 32 72#32),
    StableHlo.unary main_c_7 main_v51 (broadcastInDim S54x3 ![] bcast_S_S54x3 : (⟨S_, .i32⟩ : BufTy).Contents (Elt F) → (⟨S54x3, .i32⟩ : BufTy).Contents (Elt F)),
    StableHlo.binary main_v3 main_v51 main_v52 (addi : (⟨S54x3, .i32⟩ : BufTy).Contents (Elt F) → (⟨S54x3, .i32⟩ : BufTy).Contents (Elt F) → (⟨S54x3, .i32⟩ : BufTy).Contents (Elt F)),
    StableHlo.ternary main_v50 main_v52 main_v3 main_v53 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v53 main_v54 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v54 main_v55 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)),
    StableHlo.binary main_v48 main_v55 main_v56 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v57 ((extractStridedSlice S1x48x32 ![1, 0, 0] · slices_S5x48x32_S1x48x32_1_0_0) : (⟨S5x48x32, .f32⟩ : BufTy).Contents (Elt F) → (⟨S1x48x32, .f32⟩ : BufTy).Contents (Elt F)),
    StableHlo.reshape main_v57 main_v58 rfl shapeCasts_S1x48x32_S48x32,
    StableHlo.binary main_v56 main_v58 main_v59 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v60 ((extractStridedSlice S1x32 ![1, 0] · slices_S5x32_S1x32_1_0) : (⟨S5x32, .f32⟩ : BufTy).Contents (Elt F) → (⟨S1x32, .f32⟩ : BufTy).Contents (Elt F)),
    StableHlo.reshape main_v60 main_v61 rfl shapeCasts_S1x32_S32,
    StableHlo.unary main_v61 main_v62 (broadcastInDim S1x1x1x32 ![3] bcast_S32_S1x1x1x32_3 : (⟨S32, .f32⟩ : BufTy).Contents (Elt F) → (⟨S1x1x1x32, .f32⟩ : BufTy).Contents (Elt F)),
    StableHlo.unary main_v62 main_v63 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v59 main_v63 main_v64 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v64 main_v65 (Host.tanh : (⟨S4096x54x3x32, .f32⟩ : BufTy).Contents (Elt F) → (⟨S4096x54x3x32, .f32⟩ : BufTy).Contents (Elt F)),
    StableHlo.nullary main_cst_8 (constant S_ .f32 0xFF800000#32),
    StableHlo.binary main_v65 main_cst_8 main_v66 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)),
    StableHlo.binary main_v41 main_v66 main_v67 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v68 ((extractStridedSlice S1x64x32 ![1, 0, 0] · slices_S5x64x32_S1x64x32_1_0_0) : (⟨S5x64x32, .f32⟩ : BufTy).Contents (Elt F) → (⟨S1x64x32, .f32⟩ : BufTy).Contents (Elt F)),
    StableHlo.reshape main_v68 main_v69 rfl shapeCasts_S1x64x32_S64x32,
    StableHlo.binary main_v67 main_v69 main_v70 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v71 ((extractStridedSlice S1x32 ![1, 0] · slices_S5x32_S1x32_1_0) : (⟨S5x32, .f32⟩ : BufTy).Contents (Elt F) → (⟨S1x32, .f32⟩ : BufTy).Contents (Elt F)),
    StableHlo.reshape main_v71 main_v72 rfl shapeCasts_S1x32_S32,
    StableHlo.unary main_v72 main_v73 (broadcastInDim S1x1x32 ![2] bcast_S32_S1x1x32_2 : (⟨S32, .f32⟩ : BufTy).Contents (Elt F) → (⟨S1x1x32, .f32⟩ : BufTy).Contents (Elt F)),
    StableHlo.unary main_v73 main_v74 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v70 main_v74 main_v75 (addf : (⟨S4096x54x32, .f32⟩ : BufTy).Contents (Elt F) → (⟨S4096x54x32, .f32⟩ : BufTy).Contents (Elt F) → (⟨S4096x54x32, .f32⟩ : BufTy).Contents (Elt F)),
    StableHlo.unary main_v75 main_v76 (Host.tanh : (⟨S4096x54x32, .f32⟩ : BufTy).Contents (Elt F) → (⟨S4096x54x32, .f32⟩ : BufTy).Contents (Elt F)),
    StableHlo.TRef.binary (.of main_v76) (.of main_v76) main_call1.v0 mulf,
    StableHlo.TRef.nullary main_call1.cst (constant S_ .f32 0x00000000#32),
    StableHlo.TRef.binary main_call1.v0 main_call1.cst main_call1.v1 (fun x v => Host.reduceAdd x v reducesTo_S4096x54x32_S4096x54_d2 h_S_),
    StableHlo.TRef.unary main_call1.v1 main_call1.v2 (broadcastInDim S4096x54x1 ![0, 1] bcast_S4096x54_S4096x54x1_0_1),
    StableHlo.TRef.unary main_call1.v2 main_call1.v3 Host.sqrt,
    StableHlo.unary main_v77 main_v78 (broadcastInDim S4096x54x32 ![0, 1, 2] bcast_S4096x54x1_S4096x54x32_0_1_2 : (⟨S4096x54x1, .f32⟩ : BufTy).Contents (Elt F) → (⟨S4096x54x32, .f32⟩ : BufTy).Contents (Elt F)),
    StableHlo.binary main_v76 main_v78 main_v79 (Host.divf : (⟨S4096x54x32, .f32⟩ : BufTy).Contents (Elt F) → (⟨S4096x54x32, .f32⟩ : BufTy).Contents (Elt F) → (⟨S4096x54x32, .f32⟩ : BufTy).Contents (Elt F)),
    StableHlo.nullary main_c_9 (constantI S_ 32 0#32),
    StableHlo.unary main_c_9 main_v80 (broadcastInDim S54x3 ![] bcast_S_S54x3 : (⟨S_, .i32⟩ : BufTy).Contents (Elt F) → (⟨S54x3, .i32⟩ : BufTy).Contents (Elt F)),
    StableHlo.binary main_v1 main_v80 main_v81 (cmpi .slt : (⟨S54x3, .i32⟩ : BufTy).Contents (Elt F) → (⟨S54x3, .i32⟩ : BufTy).Contents (Elt F) → (⟨S54x3, .i1⟩ : BufTy).Contents (Elt F)),
    StableHlo.nullary main_c_10 (constantI S_ 32 54#32),
    StableHlo.unary main_c_10 main_v82 (broadcastInDim S54x3 ![] bcast_S_S54x3 : (⟨S_, .i32⟩ : BufTy).Contents (Elt F) → (⟨S54x3, .i32⟩ : BufTy).Contents (Elt F)),
    StableHlo.binary main_v1 main_v82 main_v83 (addi : (⟨S54x3, .i32⟩ : BufTy).Contents (Elt F) → (⟨S54x3, .i32⟩ : BufTy).Contents (Elt F) → (⟨S54x3, .i32⟩ : BufTy).Contents (Elt F)),
    StableHlo.ternary main_v81 main_v83 main_v1 main_v84 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v84 main_v85 (broadcastInDim S54x3x1 ![0, 1] bcast_S54x3_S54x3x1_0_1 : (⟨S54x3, .i32⟩ : BufTy).Contents (Elt F) → (⟨S54x3x1, .i32⟩ : BufTy).Contents (Elt F)),
    StableHlo.binary main_v79 main_v85 main_v86 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_11 (constantI S_ 32 0#32),
    StableHlo.unary main_c_11 main_v87 (broadcastInDim S54x3 ![] bcast_S_S54x3 : (⟨S_, .i32⟩ : BufTy).Contents (Elt F) → (⟨S54x3, .i32⟩ : BufTy).Contents (Elt F)),
    StableHlo.binary main_v3 main_v87 main_v88 (cmpi .slt : (⟨S54x3, .i32⟩ : BufTy).Contents (Elt F) → (⟨S54x3, .i32⟩ : BufTy).Contents (Elt F) → (⟨S54x3, .i1⟩ : BufTy).Contents (Elt F)),
    StableHlo.nullary main_c_12 (constantI S_ 32 72#32),
    StableHlo.unary main_c_12 main_v89 (broadcastInDim S54x3 ![] bcast_S_S54x3 : (⟨S_, .i32⟩ : BufTy).Contents (Elt F) → (⟨S54x3, .i32⟩ : BufTy).Contents (Elt F)),
    StableHlo.binary main_v3 main_v89 main_v90 (addi : (⟨S54x3, .i32⟩ : BufTy).Contents (Elt F) → (⟨S54x3, .i32⟩ : BufTy).Contents (Elt F) → (⟨S54x3, .i32⟩ : BufTy).Contents (Elt F)),
    StableHlo.ternary main_v88 main_v90 main_v3 main_v91 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v91 main_v92 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v92 main_v93 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)),
    StableHlo.binary main_v86 main_v93 main_v94 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v95 ((extractStridedSlice S1x48x32 ![2, 0, 0] · slices_S5x48x32_S1x48x32_2_0_0) : (⟨S5x48x32, .f32⟩ : BufTy).Contents (Elt F) → (⟨S1x48x32, .f32⟩ : BufTy).Contents (Elt F)),
    StableHlo.reshape main_v95 main_v96 rfl shapeCasts_S1x48x32_S48x32,
    StableHlo.binary main_v94 main_v96 main_v97 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v98 ((extractStridedSlice S1x32 ![2, 0] · slices_S5x32_S1x32_2_0) : (⟨S5x32, .f32⟩ : BufTy).Contents (Elt F) → (⟨S1x32, .f32⟩ : BufTy).Contents (Elt F)),
    StableHlo.reshape main_v98 main_v99 rfl shapeCasts_S1x32_S32,
    StableHlo.unary main_v99 main_v100 (broadcastInDim S1x1x1x32 ![3] bcast_S32_S1x1x1x32_3 : (⟨S32, .f32⟩ : BufTy).Contents (Elt F) → (⟨S1x1x1x32, .f32⟩ : BufTy).Contents (Elt F)),
    StableHlo.unary main_v100 main_v101 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v97 main_v101 main_v102 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v102 main_v103 (Host.tanh : (⟨S4096x54x3x32, .f32⟩ : BufTy).Contents (Elt F) → (⟨S4096x54x3x32, .f32⟩ : BufTy).Contents (Elt F)),
    StableHlo.nullary main_cst_13 (constant S_ .f32 0xFF800000#32),
    StableHlo.binary main_v103 main_cst_13 main_v104 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)),
    StableHlo.binary main_v79 main_v104 main_v105 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v106 ((extractStridedSlice S1x64x32 ![2, 0, 0] · slices_S5x64x32_S1x64x32_2_0_0) : (⟨S5x64x32, .f32⟩ : BufTy).Contents (Elt F) → (⟨S1x64x32, .f32⟩ : BufTy).Contents (Elt F)),
    StableHlo.reshape main_v106 main_v107 rfl shapeCasts_S1x64x32_S64x32,
    StableHlo.binary main_v105 main_v107 main_v108 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v109 ((extractStridedSlice S1x32 ![2, 0] · slices_S5x32_S1x32_2_0) : (⟨S5x32, .f32⟩ : BufTy).Contents (Elt F) → (⟨S1x32, .f32⟩ : BufTy).Contents (Elt F)),
    StableHlo.reshape main_v109 main_v110 rfl shapeCasts_S1x32_S32,
    StableHlo.unary main_v110 main_v111 (broadcastInDim S1x1x32 ![2] bcast_S32_S1x1x32_2 : (⟨S32, .f32⟩ : BufTy).Contents (Elt F) → (⟨S1x1x32, .f32⟩ : BufTy).Contents (Elt F)),
    StableHlo.unary main_v111 main_v112 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v108 main_v112 main_v113 (addf : (⟨S4096x54x32, .f32⟩ : BufTy).Contents (Elt F) → (⟨S4096x54x32, .f32⟩ : BufTy).Contents (Elt F) → (⟨S4096x54x32, .f32⟩ : BufTy).Contents (Elt F)),
    StableHlo.unary main_v113 main_v114 (Host.tanh : (⟨S4096x54x32, .f32⟩ : BufTy).Contents (Elt F) → (⟨S4096x54x32, .f32⟩ : BufTy).Contents (Elt F)),
    StableHlo.TRef.binary (.of main_v114) (.of main_v114) main_call2.v0 mulf,
    StableHlo.TRef.nullary main_call2.cst (constant S_ .f32 0x00000000#32),
    StableHlo.TRef.binary main_call2.v0 main_call2.cst main_call2.v1 (fun x v => Host.reduceAdd x v reducesTo_S4096x54x32_S4096x54_d2 h_S_),
    StableHlo.TRef.unary main_call2.v1 main_call2.v2 (broadcastInDim S4096x54x1 ![0, 1] bcast_S4096x54_S4096x54x1_0_1),
    StableHlo.TRef.unary main_call2.v2 main_call2.v3 Host.sqrt,
    StableHlo.unary main_v115 main_v116 (broadcastInDim S4096x54x32 ![0, 1, 2] bcast_S4096x54x1_S4096x54x32_0_1_2 : (⟨S4096x54x1, .f32⟩ : BufTy).Contents (Elt F) → (⟨S4096x54x32, .f32⟩ : BufTy).Contents (Elt F)),
    StableHlo.binary main_v114 main_v116 main_v117 (Host.divf : (⟨S4096x54x32, .f32⟩ : BufTy).Contents (Elt F) → (⟨S4096x54x32, .f32⟩ : BufTy).Contents (Elt F) → (⟨S4096x54x32, .f32⟩ : BufTy).Contents (Elt F)),
    StableHlo.nullary main_c_14 (constantI S_ 32 0#32),
    StableHlo.unary main_c_14 main_v118 (broadcastInDim S54x3 ![] bcast_S_S54x3 : (⟨S_, .i32⟩ : BufTy).Contents (Elt F) → (⟨S54x3, .i32⟩ : BufTy).Contents (Elt F)),
    StableHlo.binary main_v1 main_v118 main_v119 (cmpi .slt : (⟨S54x3, .i32⟩ : BufTy).Contents (Elt F) → (⟨S54x3, .i32⟩ : BufTy).Contents (Elt F) → (⟨S54x3, .i1⟩ : BufTy).Contents (Elt F)),
    StableHlo.nullary main_c_15 (constantI S_ 32 54#32),
    StableHlo.unary main_c_15 main_v120 (broadcastInDim S54x3 ![] bcast_S_S54x3 : (⟨S_, .i32⟩ : BufTy).Contents (Elt F) → (⟨S54x3, .i32⟩ : BufTy).Contents (Elt F)),
    StableHlo.binary main_v1 main_v120 main_v121 (addi : (⟨S54x3, .i32⟩ : BufTy).Contents (Elt F) → (⟨S54x3, .i32⟩ : BufTy).Contents (Elt F) → (⟨S54x3, .i32⟩ : BufTy).Contents (Elt F)),
    StableHlo.ternary main_v119 main_v121 main_v1 main_v122 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v122 main_v123 (broadcastInDim S54x3x1 ![0, 1] bcast_S54x3_S54x3x1_0_1 : (⟨S54x3, .i32⟩ : BufTy).Contents (Elt F) → (⟨S54x3x1, .i32⟩ : BufTy).Contents (Elt F)),
    StableHlo.binary main_v117 main_v123 main_v124 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_16 (constantI S_ 32 0#32),
    StableHlo.unary main_c_16 main_v125 (broadcastInDim S54x3 ![] bcast_S_S54x3 : (⟨S_, .i32⟩ : BufTy).Contents (Elt F) → (⟨S54x3, .i32⟩ : BufTy).Contents (Elt F)),
    StableHlo.binary main_v3 main_v125 main_v126 (cmpi .slt : (⟨S54x3, .i32⟩ : BufTy).Contents (Elt F) → (⟨S54x3, .i32⟩ : BufTy).Contents (Elt F) → (⟨S54x3, .i1⟩ : BufTy).Contents (Elt F)),
    StableHlo.nullary main_c_17 (constantI S_ 32 72#32),
    StableHlo.unary main_c_17 main_v127 (broadcastInDim S54x3 ![] bcast_S_S54x3 : (⟨S_, .i32⟩ : BufTy).Contents (Elt F) → (⟨S54x3, .i32⟩ : BufTy).Contents (Elt F)),
    StableHlo.binary main_v3 main_v127 main_v128 (addi : (⟨S54x3, .i32⟩ : BufTy).Contents (Elt F) → (⟨S54x3, .i32⟩ : BufTy).Contents (Elt F) → (⟨S54x3, .i32⟩ : BufTy).Contents (Elt F)),
    StableHlo.ternary main_v126 main_v128 main_v3 main_v129 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v129 main_v130 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v130 main_v131 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)),
    StableHlo.binary main_v124 main_v131 main_v132 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v133 ((extractStridedSlice S1x48x32 ![3, 0, 0] · slices_S5x48x32_S1x48x32_3_0_0) : (⟨S5x48x32, .f32⟩ : BufTy).Contents (Elt F) → (⟨S1x48x32, .f32⟩ : BufTy).Contents (Elt F)),
    StableHlo.reshape main_v133 main_v134 rfl shapeCasts_S1x48x32_S48x32,
    StableHlo.binary main_v132 main_v134 main_v135 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v136 ((extractStridedSlice S1x32 ![3, 0] · slices_S5x32_S1x32_3_0) : (⟨S5x32, .f32⟩ : BufTy).Contents (Elt F) → (⟨S1x32, .f32⟩ : BufTy).Contents (Elt F)),
    StableHlo.reshape main_v136 main_v137 rfl shapeCasts_S1x32_S32,
    StableHlo.unary main_v137 main_v138 (broadcastInDim S1x1x1x32 ![3] bcast_S32_S1x1x1x32_3 : (⟨S32, .f32⟩ : BufTy).Contents (Elt F) → (⟨S1x1x1x32, .f32⟩ : BufTy).Contents (Elt F)),
    StableHlo.unary main_v138 main_v139 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v135 main_v139 main_v140 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v140 main_v141 (Host.tanh : (⟨S4096x54x3x32, .f32⟩ : BufTy).Contents (Elt F) → (⟨S4096x54x3x32, .f32⟩ : BufTy).Contents (Elt F)),
    StableHlo.nullary main_cst_18 (constant S_ .f32 0xFF800000#32),
    StableHlo.binary main_v141 main_cst_18 main_v142 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)),
    StableHlo.binary main_v117 main_v142 main_v143 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v144 ((extractStridedSlice S1x64x32 ![3, 0, 0] · slices_S5x64x32_S1x64x32_3_0_0) : (⟨S5x64x32, .f32⟩ : BufTy).Contents (Elt F) → (⟨S1x64x32, .f32⟩ : BufTy).Contents (Elt F)),
    StableHlo.reshape main_v144 main_v145 rfl shapeCasts_S1x64x32_S64x32,
    StableHlo.binary main_v143 main_v145 main_v146 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v147 ((extractStridedSlice S1x32 ![3, 0] · slices_S5x32_S1x32_3_0) : (⟨S5x32, .f32⟩ : BufTy).Contents (Elt F) → (⟨S1x32, .f32⟩ : BufTy).Contents (Elt F)),
    StableHlo.reshape main_v147 main_v148 rfl shapeCasts_S1x32_S32,
    StableHlo.unary main_v148 main_v149 (broadcastInDim S1x1x32 ![2] bcast_S32_S1x1x32_2 : (⟨S32, .f32⟩ : BufTy).Contents (Elt F) → (⟨S1x1x32, .f32⟩ : BufTy).Contents (Elt F)),
    StableHlo.unary main_v149 main_v150 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v146 main_v150 main_v151 (addf : (⟨S4096x54x32, .f32⟩ : BufTy).Contents (Elt F) → (⟨S4096x54x32, .f32⟩ : BufTy).Contents (Elt F) → (⟨S4096x54x32, .f32⟩ : BufTy).Contents (Elt F)),
    StableHlo.unary main_v151 main_v152 (Host.tanh : (⟨S4096x54x32, .f32⟩ : BufTy).Contents (Elt F) → (⟨S4096x54x32, .f32⟩ : BufTy).Contents (Elt F)),
    StableHlo.TRef.binary (.of main_v152) (.of main_v152) main_call3.v0 mulf,
    StableHlo.TRef.nullary main_call3.cst (constant S_ .f32 0x00000000#32),
    StableHlo.TRef.binary main_call3.v0 main_call3.cst main_call3.v1 (fun x v => Host.reduceAdd x v reducesTo_S4096x54x32_S4096x54_d2 h_S_),
    StableHlo.TRef.unary main_call3.v1 main_call3.v2 (broadcastInDim S4096x54x1 ![0, 1] bcast_S4096x54_S4096x54x1_0_1),
    StableHlo.TRef.unary main_call3.v2 main_call3.v3 Host.sqrt,
    StableHlo.unary main_v153 main_v154 (broadcastInDim S4096x54x32 ![0, 1, 2] bcast_S4096x54x1_S4096x54x32_0_1_2 : (⟨S4096x54x1, .f32⟩ : BufTy).Contents (Elt F) → (⟨S4096x54x32, .f32⟩ : BufTy).Contents (Elt F)),
    StableHlo.binary main_v152 main_v154 main_v155 (Host.divf : (⟨S4096x54x32, .f32⟩ : BufTy).Contents (Elt F) → (⟨S4096x54x32, .f32⟩ : BufTy).Contents (Elt F) → (⟨S4096x54x32, .f32⟩ : BufTy).Contents (Elt F)),
    StableHlo.nullary main_c_19 (constantI S_ 32 0#32),
    StableHlo.unary main_c_19 main_v156 (broadcastInDim S54x3 ![] bcast_S_S54x3 : (⟨S_, .i32⟩ : BufTy).Contents (Elt F) → (⟨S54x3, .i32⟩ : BufTy).Contents (Elt F)),
    StableHlo.binary main_v1 main_v156 main_v157 (cmpi .slt : (⟨S54x3, .i32⟩ : BufTy).Contents (Elt F) → (⟨S54x3, .i32⟩ : BufTy).Contents (Elt F) → (⟨S54x3, .i1⟩ : BufTy).Contents (Elt F)),
    StableHlo.nullary main_c_20 (constantI S_ 32 54#32),
    StableHlo.unary main_c_20 main_v158 (broadcastInDim S54x3 ![] bcast_S_S54x3 : (⟨S_, .i32⟩ : BufTy).Contents (Elt F) → (⟨S54x3, .i32⟩ : BufTy).Contents (Elt F)),
    StableHlo.binary main_v1 main_v158 main_v159 (addi : (⟨S54x3, .i32⟩ : BufTy).Contents (Elt F) → (⟨S54x3, .i32⟩ : BufTy).Contents (Elt F) → (⟨S54x3, .i32⟩ : BufTy).Contents (Elt F)),
    StableHlo.ternary main_v157 main_v159 main_v1 main_v160 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v160 main_v161 (broadcastInDim S54x3x1 ![0, 1] bcast_S54x3_S54x3x1_0_1 : (⟨S54x3, .i32⟩ : BufTy).Contents (Elt F) → (⟨S54x3x1, .i32⟩ : BufTy).Contents (Elt F)),
    StableHlo.binary main_v155 main_v161 main_v162 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_21 (constantI S_ 32 0#32),
    StableHlo.unary main_c_21 main_v163 (broadcastInDim S54x3 ![] bcast_S_S54x3 : (⟨S_, .i32⟩ : BufTy).Contents (Elt F) → (⟨S54x3, .i32⟩ : BufTy).Contents (Elt F)),
    StableHlo.binary main_v3 main_v163 main_v164 (cmpi .slt : (⟨S54x3, .i32⟩ : BufTy).Contents (Elt F) → (⟨S54x3, .i32⟩ : BufTy).Contents (Elt F) → (⟨S54x3, .i1⟩ : BufTy).Contents (Elt F)),
    StableHlo.nullary main_c_22 (constantI S_ 32 72#32),
    StableHlo.unary main_c_22 main_v165 (broadcastInDim S54x3 ![] bcast_S_S54x3 : (⟨S_, .i32⟩ : BufTy).Contents (Elt F) → (⟨S54x3, .i32⟩ : BufTy).Contents (Elt F)),
    StableHlo.binary main_v3 main_v165 main_v166 (addi : (⟨S54x3, .i32⟩ : BufTy).Contents (Elt F) → (⟨S54x3, .i32⟩ : BufTy).Contents (Elt F) → (⟨S54x3, .i32⟩ : BufTy).Contents (Elt F)),
    StableHlo.ternary main_v164 main_v166 main_v3 main_v167 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v167 main_v168 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v168 main_v169 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)),
    StableHlo.binary main_v162 main_v169 main_v170 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v171 ((extractStridedSlice S1x48x32 ![4, 0, 0] · slices_S5x48x32_S1x48x32_4_0_0) : (⟨S5x48x32, .f32⟩ : BufTy).Contents (Elt F) → (⟨S1x48x32, .f32⟩ : BufTy).Contents (Elt F)),
    StableHlo.reshape main_v171 main_v172 rfl shapeCasts_S1x48x32_S48x32,
    StableHlo.binary main_v170 main_v172 main_v173 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v174 ((extractStridedSlice S1x32 ![4, 0] · slices_S5x32_S1x32_4_0) : (⟨S5x32, .f32⟩ : BufTy).Contents (Elt F) → (⟨S1x32, .f32⟩ : BufTy).Contents (Elt F)),
    StableHlo.reshape main_v174 main_v175 rfl shapeCasts_S1x32_S32,
    StableHlo.unary main_v175 main_v176 (broadcastInDim S1x1x1x32 ![3] bcast_S32_S1x1x1x32_3 : (⟨S32, .f32⟩ : BufTy).Contents (Elt F) → (⟨S1x1x1x32, .f32⟩ : BufTy).Contents (Elt F)),
    StableHlo.unary main_v176 main_v177 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v173 main_v177 main_v178 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v178 main_v179 (Host.tanh : (⟨S4096x54x3x32, .f32⟩ : BufTy).Contents (Elt F) → (⟨S4096x54x3x32, .f32⟩ : BufTy).Contents (Elt F)),
    StableHlo.nullary main_cst_23 (constant S_ .f32 0xFF800000#32),
    StableHlo.binary main_v179 main_cst_23 main_v180 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)),
    StableHlo.binary main_v155 main_v180 main_v181 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v182 ((extractStridedSlice S1x64x32 ![4, 0, 0] · slices_S5x64x32_S1x64x32_4_0_0) : (⟨S5x64x32, .f32⟩ : BufTy).Contents (Elt F) → (⟨S1x64x32, .f32⟩ : BufTy).Contents (Elt F)),
    StableHlo.reshape main_v182 main_v183 rfl shapeCasts_S1x64x32_S64x32,
    StableHlo.binary main_v181 main_v183 main_v184 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v185 ((extractStridedSlice S1x32 ![4, 0] · slices_S5x32_S1x32_4_0) : (⟨S5x32, .f32⟩ : BufTy).Contents (Elt F) → (⟨S1x32, .f32⟩ : BufTy).Contents (Elt F)),
    StableHlo.reshape main_v185 main_v186 rfl shapeCasts_S1x32_S32,
    StableHlo.unary main_v186 main_v187 (broadcastInDim S1x1x32 ![2] bcast_S32_S1x1x32_2 : (⟨S32, .f32⟩ : BufTy).Contents (Elt F) → (⟨S1x1x32, .f32⟩ : BufTy).Contents (Elt F)),
    StableHlo.unary main_v187 main_v188 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v184 main_v188 main_v189 (addf : (⟨S4096x54x32, .f32⟩ : BufTy).Contents (Elt F) → (⟨S4096x54x32, .f32⟩ : BufTy).Contents (Elt F) → (⟨S4096x54x32, .f32⟩ : BufTy).Contents (Elt F)) ]

set_option maxRecDepth 16384 in
set_option maxHeartbeats 4000000 in
/-- @main is that straight line: its four windows and the outlined function unfolded, sequencing reassociated. -/
theorem main_eq (c : Dev nD) : main (F := F) c = seq ops := by
  simp only [main, main_part0, main_part1, main_part2, main_part3, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 4096 in
theorem ops_sub : (ops : List (HloOp τ sig (Elt F))).Forall fun op => op.bufs ⊆ tcRefs τ sig :=
  ⟨nullary_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., reshape_bufs_sub .., binary_bufs_sub .., unary_bufs_sub .., reshape_bufs_sub .., unary_bufs_sub ..,
    unary_bufs_sub .., binary_bufs_sub .., unary_bufs_sub .., nullary_bufs_sub .., binary_bufs_sub .., binary_bufs_sub ..,
    unary_bufs_sub .., reshape_bufs_sub .., binary_bufs_sub .., unary_bufs_sub .., reshape_bufs_sub .., unary_bufs_sub ..,
    unary_bufs_sub .., binary_bufs_sub .., unary_bufs_sub .., binary_bufs_sub .., nullary_bufs_sub .., binary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    reshape_bufs_sub .., binary_bufs_sub .., unary_bufs_sub .., reshape_bufs_sub .., unary_bufs_sub .., unary_bufs_sub ..,
    binary_bufs_sub .., unary_bufs_sub .., nullary_bufs_sub .., binary_bufs_sub .., binary_bufs_sub .., unary_bufs_sub ..,
    reshape_bufs_sub .., binary_bufs_sub .., unary_bufs_sub .., reshape_bufs_sub .., unary_bufs_sub .., unary_bufs_sub ..,
    binary_bufs_sub .., unary_bufs_sub .., binary_bufs_sub .., nullary_bufs_sub .., binary_bufs_sub .., unary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., nullary_bufs_sub .., binary_bufs_sub .., binary_bufs_sub .., unary_bufs_sub .., reshape_bufs_sub ..,
    binary_bufs_sub .., unary_bufs_sub .., reshape_bufs_sub .., unary_bufs_sub .., unary_bufs_sub .., binary_bufs_sub ..,
    unary_bufs_sub .., binary_bufs_sub .., nullary_bufs_sub .., binary_bufs_sub .., unary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., reshape_bufs_sub .., binary_bufs_sub ..,
    unary_bufs_sub .., reshape_bufs_sub .., unary_bufs_sub .., unary_bufs_sub .., binary_bufs_sub .., unary_bufs_sub ..,
    nullary_bufs_sub .., binary_bufs_sub .., binary_bufs_sub .., unary_bufs_sub .., reshape_bufs_sub .., binary_bufs_sub ..,
    unary_bufs_sub .., reshape_bufs_sub .., unary_bufs_sub .., unary_bufs_sub .., binary_bufs_sub .., unary_bufs_sub ..,
    binary_bufs_sub .., nullary_bufs_sub .., binary_bufs_sub .., unary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., nullary_bufs_sub ..,
    binary_bufs_sub .., binary_bufs_sub .., unary_bufs_sub .., reshape_bufs_sub .., binary_bufs_sub .., unary_bufs_sub ..,
    reshape_bufs_sub .., unary_bufs_sub .., unary_bufs_sub .., binary_bufs_sub ..⟩

/-- Every weakly fair execution of @main terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
set_option maxHeartbeats 4000000 in
/-- No operation writes argument 0. -/
theorem arg0_kept (V : Valuation τ sig (Elt F)) : after (ops (F := F)) V (main_arg0 : DevRef τ sig) = V (main_arg0 : DevRef τ sig) :=
  after_of_forall_not_mem (b := Proc.devRef .tc main_arg0) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 8192 in
set_option maxHeartbeats 4000000 in
/-- No operation writes argument 1. -/
theorem arg1_kept (V : Valuation τ sig (Elt F)) : after (ops (F := F)) V (main_arg1 : DevRef τ sig) = V (main_arg1 : DevRef τ sig) :=
  after_of_forall_not_mem (b := Proc.devRef .tc main_arg1) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 8192 in
set_option maxHeartbeats 4000000 in
/-- No operation writes argument 2. -/
theorem arg2_kept (V : Valuation τ sig (Elt F)) : after (ops (F := F)) V (main_arg2 : DevRef τ sig) = V (main_arg2 : DevRef τ sig) :=
  after_of_forall_not_mem (b := Proc.devRef .tc main_arg2) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 8192 in
set_option maxHeartbeats 4000000 in
/-- No operation writes argument 3. -/
theorem arg3_kept (V : Valuation τ sig (Elt F)) : after (ops (F := F)) V (main_arg3 : DevRef τ sig) = V (main_arg3 : DevRef τ sig) :=
  after_of_forall_not_mem (b := Proc.devRef .tc main_arg3) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 8192 in
set_option maxHeartbeats 4000000 in
/-- No operation writes argument 4. -/
theorem arg4_kept (V : Valuation τ sig (Elt F)) : after (ops (F := F)) V (main_arg4 : DevRef τ sig) = V (main_arg4 : DevRef τ sig) :=
  after_of_forall_not_mem (b := Proc.devRef .tc main_arg4) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 8192 in
set_option maxHeartbeats 4000000 in
/-- No operation writes argument 5. -/
theorem arg5_kept (V : Valuation τ sig (Elt F)) : after (ops (F := F)) V (main_arg5 : DevRef τ sig) = V (main_arg5 : DevRef τ sig) :=
  after_of_forall_not_mem (b := Proc.devRef .tc main_arg5) _ _ (List.forall_iff_forall_mem.mp (by
    simp only [ops, List.Forall, nullary_writes, unary_writes, binary_writes, ternary_writes, reshape_writes, Finset.mem_singleton]
    repeat' apply And.intro
    all_goals exact devRef_ne_of_ne (by decide)))

/-- The reference's frame: every weakly fair execution terminates without a fault and the six arguments end as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_arg0).trans (arg0_kept _), (h c main_arg1).trans (arg1_kept _), (h c main_arg2).trans (arg2_kept _),
      (h c main_arg3).trans (arg3_kept _), (h c main_arg4).trans (arg4_kept _), (h c main_arg5).trans (arg5_kept _)⟩)
    (run_main m ρ)

end Cert.RefRun

end
-- ==== Proof.KLayer.lean ====
/-
  ONE LAYER OF THE KERNEL'S BODY, AS A FUNCTION OF BLOCKS. The body works on a block of 54 vertices × 128 packed rows ×
  128 lanes (four batch elements of 32 features per row). One layer, from the layer's input block, the edge block, the
  ones matrix and the layer's six loaded parameter slices: the vertex and edge projections as two products of the
  blocks with their two leading axes merged; for each neighbour slot the vertex projection rolled up the vertex axis by
  1, 2, 3 and the slot's 24 edge-projection rows tiled 24 + 24 + 6 down it; the maximum of the three sums; bias and tanh;
  the update as two more products and a bias. A normalising layer goes on with tanh, the per-group sums of squares as a
  product with the ones matrix, the reciprocal square root and the product with it. The body's result block is the
  update of layer 4 on four normalising layers.
-/
import proofs.«182073_g78494822302262_cont_9to1_m_206_7_alg».proof.KernelIdeal
import proofs.«182073_g78494822302262_cont_9to1_m_206_7_alg».proof.Proof.Gen.KernelIdeal
import proofs.«182073_g78494822302262_cont_9to1_m_206_7_alg».proof.Proof.Gen.KernelIdeal.Skeleton

noncomputable section

namespace Cert.KLayer

open Cert.KernelIdeal Cert.KernelIdeal.Facts₀ Cert.KernelIdeal.Facts Idealize.ShloMosaic

variable {F : FTy → Type} [FloatOps F]

/-- A block times a 128 × 128 parameter slice: the block's two leading axes merged, the product into the zero block, split back. -/
def mm (x : FVec F S54x128x128 .f32) (w : Vec F S1x128x128 .f32) : FVec F S54x128x128 .f32 :=
  shapeCast S54x128x128
    (matmul dot_S6912x128_S128x128_S6912x128_1_0_0_1_n_n none (shapeCast S6912x128 x shapeCasts_S54x128x128_S6912x128)
      (shapeCast S128x128 w shapeCasts_S1x128x128_S128x128) (constant S6912x128 .f32 0x00000000#32))
    shapeCasts_S6912x128_S54x128x128

/-- The edge block times a 64 × 128 parameter slice. -/
def mmE (x : FVec F S72x128x64 .f32) (w : Vec F S1x64x128 .f32) : FVec F S72x128x128 .f32 :=
  shapeCast S72x128x128
    (matmul dot_S9216x64_S64x128_S9216x128_1_0_0_1_n_n none (shapeCast S9216x64 x shapeCasts_S72x128x64_S9216x64)
      (shapeCast S64x128 w shapeCasts_S1x64x128_S64x128) (constant S9216x128 .f32 0x00000000#32))
    shapeCasts_S9216x128_S72x128x128

/-- A bias slice [1, 1, 128] spread over the block. -/
def biasB (b : Vec F S1x1x128 .f32) : FVec F S54x128x128 .f32 :=
  broadcastTo S54x128x128 (shapeCast S1x1x128 (shapeCast S1x128 b shapeCasts_S1x1x128_S1x128) shapeCasts_S1x128_S1x1x128)
    broadcasts_S1x1x128_S54x128x128

/-- The strongest message of every vertex, after bias and tanh. -/
def aggB (x : FVec F S54x128x128 .f32) (e3 : FVec F S72x128x64 .f32) (wpS : Vec F S1x128x128 .f32)
    (weS : Vec F S1x64x128 .f32) (ebS : Vec F S1x1x128 .f32) : FVec F S54x128x128 .f32 :=
  let p := mm x wpS
  let t := mmE e3 weS
  let r1 := concatenate S54x128x128 0 [⟨S53x128x128, extractStridedSlice S53x128x128 ![1, 0, 0] p slices_S54x128x128_o1_0_0_S53x128x128⟩,
    ⟨S1x128x128, extractStridedSlice S1x128x128 ![0, 0, 0] p slices_S54x128x128_o0_0_0_S1x128x128⟩] concatenates_S53x128x128_S1x128x128_S54x128x128_d0
  let t0 := extractStridedSlice S24x128x128 ![0, 0, 0] t slices_S72x128x128_o0_0_0_S24x128x128
  let u0 := concatenate S54x128x128 0 [⟨S24x128x128, t0⟩, ⟨S24x128x128, t0⟩,
    ⟨S6x128x128, extractStridedSlice S6x128x128 ![0, 0, 0] t0 slices_S24x128x128_o0_0_0_S6x128x128⟩] concatenates_S24x128x128_S24x128x128_S6x128x128_S54x128x128_d0
  let r2 := concatenate S54x128x128 0 [⟨S52x128x128, extractStridedSlice S52x128x128 ![2, 0, 0] p slices_S54x128x128_o2_0_0_S52x128x128⟩,
    ⟨S2x128x128, extractStridedSlice S2x128x128 ![0, 0, 0] p slices_S54x128x128_o0_0_0_S2x128x128⟩] concatenates_S52x128x128_S2x128x128_S54x128x128_d0
  let t1 := extractStridedSlice S24x128x128 ![24, 0, 0] t slices_S72x128x128_o24_0_0_S24x128x128
  let u1 := concatenate S54x128x128 0 [⟨S24x128x128, t1⟩, ⟨S24x128x128, t1⟩,
    ⟨S6x128x128, extractStridedSlice S6x128x128 ![0, 0, 0] t1 slices_S24x128x128_o0_0_0_S6x128x128⟩] concatenates_S24x128x128_S24x128x128_S6x128x128_S54x128x128_d0
  let r3 := concatenate S54x128x128 0 [⟨S51x128x128, extractStridedSlice S51x128x128 ![3, 0, 0] p slices_S54x128x128_o3_0_0_S51x128x128⟩,
    ⟨S3x128x128, extractStridedSlice S3x128x128 ![0, 0, 0] p slices_S54x128x128_o0_0_0_S3x128x128⟩] concatenates_S51x128x128_S3x128x128_S54x128x128_d0
  let t2 := extractStridedSlice S24x128x128 ![48, 0, 0] t slices_S72x128x128_o48_0_0_S24x128x128
  let u2 := concatenate S54x128x128 0 [⟨S24x128x128, t2⟩, ⟨S24x128x128, t2⟩,
    ⟨S6x128x128, extractStridedSlice S6x128x128 ![0, 0, 0] t2 slices_S24x128x128_o0_0_0_S6x128x128⟩] concatenates_S24x128x128_S24x128x128_S6x128x128_S54x128x128_d0
  tanh (addf (maximumf (maximumf (addf r1 u0) (addf r2 u1)) (addf r3 u2)) (biasB ebS))

/-- The vertex update of a layer. -/
def linB (x : FVec F S54x128x128 .f32) (e3 : FVec F S72x128x64 .f32) (wpS : Vec F S1x128x128 .f32)
    (weS : Vec F S1x64x128 .f32) (ebS : Vec F S1x1x128 .f32) (wh1S wh2S : Vec F S1x128x128 .f32) (hbS : Vec F S1x1x128 .f32) :
    FVec F S54x128x128 .f32 :=
  addf (addf (mm x wh1S) (mm (aggB x e3 wpS weS ebS) wh2S)) (biasB hbS)

/-- Scaling every 32-lane group of a row to unit length: the group sums of squares by a product with the ones matrix. -/
def unitB (x : FVec F S54x128x128 .f32) (ones : FVec F S128x128 .f32) : FVec F S54x128x128 .f32 :=
  mulf x (rsqrt (shapeCast S54x128x128
    (matmul dot_S6912x128_S128x128_S6912x128_1_0_0_1_n_n none (shapeCast S6912x128 (mulf x x) shapeCasts_S54x128x128_S6912x128) ones
      (constant S6912x128 .f32 0x00000000#32)) shapeCasts_S6912x128_S54x128x128))

/-- A normalising layer. -/
def layerB (x : FVec F S54x128x128 .f32) (e3 : FVec F S72x128x64 .f32) (ones : FVec F S128x128 .f32)
    (wpS : Vec F S1x128x128 .f32) (weS : Vec F S1x64x128 .f32) (ebS : Vec F S1x1x128 .f32)
    (wh1S wh2S : Vec F S1x128x128 .f32) (hbS : Vec F S1x1x128 .f32) : FVec F S54x128x128 .f32 :=
  unitB (tanh (linB x e3 wpS weS ebS wh1S wh2S hbS)) ones

end Cert.KLayer

end
-- ==== Proof.LibTanhOrder.lean ====
/-
  The hyperbolic tangent on the extended reals (the real function, with the limits -1 at -∞ and 1 at +∞)
  is monotone; so it commutes with a maximum, and a maximum of tanh values is the tanh of the maximum of
  the arguments. Its value is always a real number between -1 and 1, whatever the argument.
-/
import Idealize.ShloMosaic.PureOps.Ideal

noncomputable section

namespace Cert.LibTanhOrder

open Idealize.ShloMosaic

/-- The real hyperbolic tangent is monotone: were tanh y < tanh x for x ≤ y, the inverse function, strictly
    increasing on (-1, 1), would give y < x. -/
theorem real_tanh_mono : Monotone Real.tanh := by
  intro x y hxy
  by_contra h
  have h' : Real.tanh y < Real.tanh x := not_le.mp h
  have hx : Real.tanh x ∈ Set.Ioo (-1 : ℝ) 1 := ⟨Real.neg_one_lt_tanh x, Real.tanh_lt_one x⟩
  have hy : Real.tanh y ∈ Set.Ioo (-1 : ℝ) 1 := ⟨Real.neg_one_lt_tanh y, Real.tanh_lt_one y⟩
  have hlt := Real.strictMonoOn_artanh hy hx h'
  rw [Real.artanh_tanh, Real.artanh_tanh] at hlt
  exact absurd hxy (not_le.mpr hlt)

/-- The value of tanh at any extended real is a real number in [-1, 1]. -/
theorem tanh_real (x : EReal) : ∃ r : ℝ, Ideal.tanh x = (r : EReal) ∧ -1 ≤ r ∧ r ≤ 1 := by
  induction x using EReal.rec with
  | bot => exact ⟨-1, by rw [Ideal.tanh_bot, EReal.coe_neg, EReal.coe_one], le_refl _, by norm_num⟩
  | coe a => exact ⟨Real.tanh a, Ideal.tanh_coe a, (Real.neg_one_lt_tanh a).le, (Real.tanh_lt_one a).le⟩
  | top => exact ⟨1, by rw [Ideal.tanh_top, EReal.coe_one], by norm_num, le_refl _⟩

/-- tanh on the extended reals is monotone. -/
theorem tanh_mono : Monotone Ideal.tanh := by
  intro x y hxy
  induction x using EReal.rec with
  | bot =>
    obtain ⟨r, hr, h1, _⟩ := tanh_real y
    rw [Ideal.tanh_bot, hr, ← EReal.coe_one, ← EReal.coe_neg]
    exact EReal.coe_le_coe_iff.mpr h1
  | coe a =>
    induction y using EReal.rec with
    | bot => exact absurd hxy (by simp)
    | coe b =>
      rw [Ideal.tanh_coe, Ideal.tanh_coe]
      exact_mod_cast real_tanh_mono (by exact_mod_cast hxy)
    | top =>
      rw [Ideal.tanh_coe, Ideal.tanh_top, ← EReal.coe_one]
      exact EReal.coe_le_coe_iff.mpr (Real.tanh_lt_one a).le
  | top =>
    rw [top_le_iff.mp hxy]

/-- tanh of a maximum is the maximum of the tanh values. -/
theorem tanh_max (a b : EReal) : Ideal.tanh (max a b) = max (Ideal.tanh a) (Ideal.tanh b) :=
  tanh_mono.map_max

/-- Adding one extended real on the right commutes with a maximum (addition is monotone in each argument,
    at the infinities too). -/
theorem max_add_right (a b c : EReal) : max a b + c = max (a + c) (b + c) :=
  Monotone.map_max (f := fun t : EReal => t + c) (fun _ _ h => add_le_add_left h c)

end Cert.LibTanhOrder

end
-- ==== Proof.LibUnitRow.lean ====
/-
  Scaling to unit length, on the extended reals. For a positive real s the reciprocal square root of s is the
  real number (√s)⁻¹, and dividing by √s is multiplying by that number: so x · rsqrt s and x / √s are one
  extended real, for every x. For a real s ≥ 0 the square root is nonzero exactly when s is positive. A finite
  sum of real numbers, read in the extended reals, is the sum of the terms read there.
-/
import Idealize.ShloMosaic.PureOps.Ideal

noncomputable section

namespace Cert.LibUnitRow

open Idealize.ShloMosaic

/-- The square root of a nonnegative real, on the extended reals, is the real square root. -/
theorem sqrt_coe_of_nonneg {s : ℝ} (hs : 0 ≤ s) : Ideal.sqrt (s : EReal) = ((Real.sqrt s : ℝ) : EReal) := by
  rw [Ideal.sqrt_coe, if_neg (not_lt.mpr hs)]

/-- A nonnegative real whose square root is not zero is positive. -/
theorem pos_of_sqrt_ne_zero {s : ℝ} (hs : 0 ≤ s) (h : Ideal.sqrt (s : EReal) ≠ 0) : 0 < s := by
  rcases hs.lt_or_eq with h0 | h0
  · exact h0
  · exfalso
    apply h
    rw [← h0, sqrt_coe_of_nonneg le_rfl, Real.sqrt_zero, EReal.coe_zero]

/-- For a positive real s: x · rsqrt s = x / √s, for every extended real x. -/
theorem mul_rsqrt_eq_div_sqrt (x : EReal) {s : ℝ} (hs : 0 < s) :
    x * Ideal.rsqrt (s : EReal) = Ideal.div x (Ideal.sqrt (s : EReal)) := by
  rw [Ideal.rsqrt_coe, if_neg (not_lt.mpr hs.le), if_neg hs.ne', sqrt_coe_of_nonneg hs.le,
    Ideal.div_coe (Real.sqrt_pos.mpr hs).ne', one_div]

/-- A finite sum of reals, read in the extended reals, is the sum of its terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of squares of reals, read in the extended reals, is a nonnegative real. -/
theorem sum_sq_real {ι : Type*} (s : Finset ι) (f : ι → ℝ) :
    ∑ i ∈ s, (f i : EReal) * (f i : EReal) = ((∑ i ∈ s, f i * f i : ℝ) : EReal)
      ∧ 0 ≤ ∑ i ∈ s, f i * f i := by
  refine ⟨?_, Finset.sum_nonneg fun i _ => mul_self_nonneg (f i)⟩
  rw [coe_sum]
  exact Finset.sum_congr rfl fun i _ => (EReal.coe_mul _ _).symm

end Cert.LibUnitRow

end
-- ==== Proof.Spec.lean ====
/-
  THE NETWORK, INDEX BY INDEX, ON THE EXTENDED REALS. A batch of `B` graphs on 54 vertices (32 features each) and 72 edges
  (16 features each), with the static neighbour tables
      sv(n, k) = (n + k + 1) mod 54   (the vertex behind neighbour slot k of vertex n),
      se(n, k) = (3 n + k) mod 72     (the edge behind it),   k < 3.
  One layer with weights eW : 48 × 32, eb : 32, hW : 64 × 32, hb : 32 maps vf : B × 54 × 32 to

      emb(b, n, k, o) = tanh( ∑ f < 32, vf(b, sv(n,k), f) · eW(f, o) + ∑ d < 16, e(b, se(n,k), d) · eW(32 + d, o) + eb(o) )
      agg(b, n, o)    = max emb(b, n, 0, o) (max emb(b, n, 1, o) emb(b, n, 2, o))
      lin(b, n, o)    = ∑ f < 32, vf(b, n, f) · hW(f, o) + ∑ f < 32, agg(b, n, f) · hW(32 + f, o) + hb(o).

  Layers 0 … 3 continue with x = tanh(lin) scaled to unit length along its last axis; layer 4 ends at lin. The scaling
  is written twice: dividing by the square root of s = ∑ o, x(b, n, o)² (`unitDiv`) and multiplying by the reciprocal
  square root of s (`unitMul`). They are one function wherever s is a positive real (`unit_eq`); x = tanh(…) is always a
  real number, so s is a real number ≥ 0, and s ≠ 0 is all that is asked.
-/
import Idealize.ShloMosaic.PureOps.Ideal
import proofs.«182073_g78494822302262_cont_9to1_m_206_7_alg».proof.Proof.LibTanhOrder
import proofs.«182073_g78494822302262_cont_9to1_m_206_7_alg».proof.Proof.LibUnitRow

noncomputable section

namespace Cert.Spec

open Idealize.ShloMosaic
open scoped BigOperators

/-- The vertex behind neighbour slot `k` of vertex `n`. -/
def sv (n : Fin 54) (k : Fin 3) : Fin 54 := ⟨(n.val + k.val + 1) % 54, Nat.mod_lt _ (by decide)⟩
/-- The edge behind neighbour slot `k` of vertex `n`. -/
def se (n : Fin 54) (k : Fin 3) : Fin 72 := ⟨(3 * n.val + k.val) % 72, Nat.mod_lt _ (by decide)⟩

variable {B : ℕ}

/-- The message of neighbour slot `k` at vertex `n`, output feature `o`. -/
def emb (eW : Fin 48 → Fin 32 → EReal) (eb : Fin 32 → EReal) (vf : Fin B → Fin 54 → Fin 32 → EReal)
    (e : Fin B → Fin 72 → Fin 16 → EReal) (b : Fin B) (n : Fin 54) (k : Fin 3) (o : Fin 32) : EReal :=
  Ideal.tanh ((∑ f : Fin 32, vf b (sv n k) f * eW ⟨f.val, by omega⟩ o
      + ∑ d : Fin 16, e b (se n k) d * eW ⟨32 + d.val, by omega⟩ o) + eb o)

/-- The strongest of the three messages. -/
def agg (eW : Fin 48 → Fin 32 → EReal) (eb : Fin 32 → EReal) (vf : Fin B → Fin 54 → Fin 32 → EReal)
    (e : Fin B → Fin 72 → Fin 16 → EReal) (b : Fin B) (n : Fin 54) (o : Fin 32) : EReal :=
  max (emb eW eb vf e b n 0 o) (max (emb eW eb vf e b n 1 o) (emb eW eb vf e b n 2 o))

/-- The vertex update before any nonlinearity. -/
def lin (eW : Fin 48 → Fin 32 → EReal) (eb : Fin 32 → EReal) (hW : Fin 64 → Fin 32 → EReal) (hb : Fin 32 → EReal)
    (vf : Fin B → Fin 54 → Fin 32 → EReal) (e : Fin B → Fin 72 → Fin 16 → EReal) (b : Fin B) (n : Fin 54) (o : Fin 32) : EReal :=
  (∑ f : Fin 32, vf b n f * hW ⟨f.val, by omega⟩ o
    + ∑ f : Fin 32, agg eW eb vf e b n f * hW ⟨32 + f.val, by omega⟩ o) + hb o

/-- The sum of squares of row `(b, n)`. -/
def sumSq (x : Fin B → Fin 54 → Fin 32 → EReal) (b : Fin B) (n : Fin 54) : EReal := ∑ f : Fin 32, x b n f * x b n f

/-- Scaling to unit length by division by the square root (the reference's spelling). -/
def unitDiv (x : Fin B → Fin 54 → Fin 32 → EReal) (b : Fin B) (n : Fin 54) (o : Fin 32) : EReal :=
  Ideal.div (x b n o) (Ideal.sqrt (sumSq x b n))

/-- Scaling to unit length by multiplication with the reciprocal square root (the kernel's spelling). -/
def unitMul (x : Fin B → Fin 54 → Fin 32 → EReal) (b : Fin B) (n : Fin 54) (o : Fin 32) : EReal :=
  x b n o * Ideal.rsqrt (sumSq x b n)

/-- The activation of a normalising layer: tanh of the update. -/
def act (eW : Fin 48 → Fin 32 → EReal) (eb : Fin 32 → EReal) (hW : Fin 64 → Fin 32 → EReal) (hb : Fin 32 → EReal)
    (vf : Fin B → Fin 54 → Fin 32 → EReal) (e : Fin B → Fin 72 → Fin 16 → EReal) (b : Fin B) (n : Fin 54) (o : Fin 32) : EReal :=
  Ideal.tanh (lin eW eb hW hb vf e b n o)

/-- An activation is a real number in [-1, 1] whatever the update is, so a row's sum of squares is a nonnegative real. -/
theorem sumSq_act_real (eW : Fin 48 → Fin 32 → EReal) (eb : Fin 32 → EReal) (hW : Fin 64 → Fin 32 → EReal) (hb : Fin 32 → EReal)
    (vf : Fin B → Fin 54 → Fin 32 → EReal) (e : Fin B → Fin 72 → Fin 16 → EReal) (b : Fin B) (n : Fin 54) :
    ∃ s : ℝ, 0 ≤ s ∧ sumSq (act eW eb hW hb vf e) b n = (s : EReal) := by
  choose r hr _ _ using fun f : Fin 32 => Cert.LibTanhOrder.tanh_real (lin eW eb hW hb vf e b n f)
  refine ⟨∑ f : Fin 32, r f * r f, (Cert.LibUnitRow.sum_sq_real Finset.univ r).2, ?_⟩
  unfold sumSq act
  rw [← (Cert.LibUnitRow.sum_sq_real Finset.univ r).1]
  exact Finset.sum_congr rfl fun f _ => by rw [hr f]

/-- Where the reference's divisor, the row's length, is not zero, the two scalings of an activation agree. -/
theorem unit_eq (eW : Fin 48 → Fin 32 → EReal) (eb : Fin 32 → EReal) (hW : Fin 64 → Fin 32 → EReal) (hb : Fin 32 → EReal)
    (vf : Fin B → Fin 54 → Fin 32 → EReal) (e : Fin B → Fin 72 → Fin 16 → EReal) (b : Fin B) (n : Fin 54) (o : Fin 32)
    (hne : Ideal.sqrt (sumSq (act eW eb hW hb vf e) b n) ≠ 0) :
    unitMul (act eW eb hW hb vf e) b n o = unitDiv (act eW eb hW hb vf e) b n o := by
  obtain ⟨s, hs, he⟩ := sumSq_act_real eW eb hW hb vf e b n
  unfold unitMul unitDiv
  rw [he] at hne ⊢
  exact Cert.LibUnitRow.mul_rsqrt_eq_div_sqrt _ (Cert.LibUnitRow.pos_of_sqrt_ne_zero hs hne)

/-- One normalising layer, the reference's spelling and the kernel's. -/
def layerDiv (eW : Fin 48 → Fin 32 → EReal) (eb : Fin 32 → EReal) (hW : Fin 64 → Fin 32 → EReal) (hb : Fin 32 → EReal)
    (e : Fin B → Fin 72 → Fin 16 → EReal) (vf : Fin B → Fin 54 → Fin 32 → EReal) : Fin B → Fin 54 → Fin 32 → EReal :=
  unitDiv (act eW eb hW hb vf e)
def layerMul (eW : Fin 48 → Fin 32 → EReal) (eb : Fin 32 → EReal) (hW : Fin 64 → Fin 32 → EReal) (hb : Fin 32 → EReal)
    (e : Fin B → Fin 72 → Fin 16 → EReal) (vf : Fin B → Fin 54 → Fin 32 → EReal) : Fin B → Fin 54 → Fin 32 → EReal :=
  unitMul (act eW eb hW hb vf e)

/-- The two spellings of a layer are one function when no row of the activation has length zero. -/
theorem layer_eq (eW : Fin 48 → Fin 32 → EReal) (eb : Fin 32 → EReal) (hW : Fin 64 → Fin 32 → EReal) (hb : Fin 32 → EReal)
    (e : Fin B → Fin 72 → Fin 16 → EReal) (vf : Fin B → Fin 54 → Fin 32 → EReal)
    (hne : ∀ b n, Ideal.sqrt (sumSq (act eW eb hW hb vf e) b n) ≠ 0) :
    layerMul eW eb hW hb e vf = layerDiv eW eb hW hb e vf := by
  funext b n o
  exact unit_eq eW eb hW hb vf e b n o (hne b n)

/-- The maximum may be taken before the tanh and the bias added after it: with m_k the contraction of slot k,
    max over k of tanh (m_k + c) = tanh (max over k of m_k + c). -/
theorem tanh_max3_add (m0 m1 m2 c : EReal) :
    max (Ideal.tanh (m0 + c)) (max (Ideal.tanh (m1 + c)) (Ideal.tanh (m2 + c)))
      = Ideal.tanh (max (max m0 m1) m2 + c) := by
  rw [Cert.LibTanhOrder.max_add_right, Cert.LibTanhOrder.max_add_right, Cert.LibTanhOrder.tanh_max,
    Cert.LibTanhOrder.tanh_max, max_assoc]

/-! ## A batch element is computed from its own data only -/

section Congr

variable {B' : ℕ} (eW1 : Fin 48 → Fin 32 → EReal) (eb1 : Fin 32 → EReal) (hW1 : Fin 64 → Fin 32 → EReal) (hb1 : Fin 32 → EReal)
  (vf : Fin B → Fin 54 → Fin 32 → EReal) (e : Fin B → Fin 72 → Fin 16 → EReal)
  (vf' : Fin B' → Fin 54 → Fin 32 → EReal) (e' : Fin B' → Fin 72 → Fin 16 → EReal) (b : Fin B) (b' : Fin B')
  (hv : ∀ n f, vf b n f = vf' b' n f) (he : ∀ m d, e b m d = e' b' m d)

include hv he in
theorem emb_congr (n : Fin 54) (k : Fin 3) (o : Fin 32) : emb eW1 eb1 vf e b n k o = emb eW1 eb1 vf' e' b' n k o := by
  unfold emb; simp only [hv, he]

include hv he in
theorem agg_congr (n : Fin 54) (o : Fin 32) : agg eW1 eb1 vf e b n o = agg eW1 eb1 vf' e' b' n o := by
  unfold agg
  rw [emb_congr eW1 eb1 vf e vf' e' b b' hv he, emb_congr eW1 eb1 vf e vf' e' b b' hv he, emb_congr eW1 eb1 vf e vf' e' b b' hv he]

include hv he in
theorem lin_congr (n : Fin 54) (o : Fin 32) : lin eW1 eb1 hW1 hb1 vf e b n o = lin eW1 eb1 hW1 hb1 vf' e' b' n o := by
  unfold lin
  simp only [hv, agg_congr eW1 eb1 vf e vf' e' b b' hv he]

include hv he in
theorem layerMul_congr (n : Fin 54) (o : Fin 32) :
    layerMul eW1 eb1 hW1 hb1 e vf b n o = layerMul eW1 eb1 hW1 hb1 e' vf' b' n o := by
  unfold layerMul unitMul sumSq act
  simp only [lin_congr eW1 eb1 hW1 hb1 vf e vf' e' b b' hv he]

end Congr

/-! ## The whole network -/

variable (eW : Fin 5 → Fin 48 → Fin 32 → EReal) (eb : Fin 5 → Fin 32 → EReal) (hW : Fin 5 → Fin 64 → Fin 32 → EReal)
  (hb : Fin 5 → Fin 32 → EReal) (e : Fin B → Fin 72 → Fin 16 → EReal)

/-- The layer inputs along the network in the spelling that divides: the vertices, then each normalising layer's output. -/
def stateDiv (vf : Fin B → Fin 54 → Fin 32 → EReal) : ℕ → Fin B → Fin 54 → Fin 32 → EReal
  | 0 => vf
  | i + 1 => layerDiv (eW ⟨i % 5, Nat.mod_lt _ (by decide)⟩) (eb ⟨i % 5, Nat.mod_lt _ (by decide)⟩)
      (hW ⟨i % 5, Nat.mod_lt _ (by decide)⟩) (hb ⟨i % 5, Nat.mod_lt _ (by decide)⟩) e (stateDiv vf i)

/-- The same in the spelling that multiplies by the reciprocal square root. -/
def stateMul (vf : Fin B → Fin 54 → Fin 32 → EReal) : ℕ → Fin B → Fin 54 → Fin 32 → EReal
  | 0 => vf
  | i + 1 => layerMul (eW ⟨i % 5, Nat.mod_lt _ (by decide)⟩) (eb ⟨i % 5, Nat.mod_lt _ (by decide)⟩)
      (hW ⟨i % 5, Nat.mod_lt _ (by decide)⟩) (hb ⟨i % 5, Nat.mod_lt _ (by decide)⟩) e (stateMul vf i)

/-- The network's result: the update of layer 4 on the fourth normalised state. -/
def netDiv (vf : Fin B → Fin 54 → Fin 32 → EReal) : Fin B → Fin 54 → Fin 32 → EReal :=
  lin (eW 4) (eb 4) (hW 4) (hb 4) (stateDiv eW eb hW hb e vf 4) e
def netMul (vf : Fin B → Fin 54 → Fin 32 → EReal) : Fin B → Fin 54 → Fin 32 → EReal :=
  lin (eW 4) (eb 4) (hW 4) (hb 4) (stateMul eW eb hW hb e vf 4) e

/-- The row lengths the dividing network divides by at layer i are all nonzero. -/
def NormsNonzero (vf : Fin B → Fin 54 → Fin 32 → EReal) (i : ℕ) : Prop :=
  ∀ b n, Ideal.sqrt (sumSq (act (eW ⟨i % 5, Nat.mod_lt _ (by decide)⟩) (eb ⟨i % 5, Nat.mod_lt _ (by decide)⟩)
    (hW ⟨i % 5, Nat.mod_lt _ (by decide)⟩) (hb ⟨i % 5, Nat.mod_lt _ (by decide)⟩) (stateDiv eW eb hW hb e vf i) e) b n) ≠ 0

/-- Where no row length of layers 0 … i − 1 is zero, the two spellings reach the same state after i layers. -/
theorem state_eq (vf : Fin B → Fin 54 → Fin 32 → EReal) (i : ℕ) (h : ∀ j < i, NormsNonzero eW eb hW hb e vf j) :
    stateMul eW eb hW hb e vf i = stateDiv eW eb hW hb e vf i := by
  induction i with
  | zero => rfl
  | succ i ih =>
    have hi := ih fun j hj => h j (Nat.lt_succ_of_lt hj)
    show layerMul _ _ _ _ e (stateMul eW eb hW hb e vf i) = layerDiv _ _ _ _ e (stateDiv eW eb hW hb e vf i)
    rw [hi]
    exact layer_eq _ _ _ _ e _ (h i (Nat.lt_succ_self i))

/-- Where none of the four row lengths is zero the two spellings of the network are one function. -/
theorem net_eq (vf : Fin B → Fin 54 → Fin 32 → EReal) (h : ∀ j < 4, NormsNonzero eW eb hW hb e vf j) :
    netMul eW eb hW hb e vf = netDiv eW eb hW hb e vf := by
  unfold netMul netDiv
  rw [state_eq eW eb hW hb e vf 4 h]

end Cert.Spec

end
-- ==== Proof.LibBatchBlocks.lean ====
/-
  Layout operations and reductions of rank-3 blocks [a, b, c] read at explicit coordinates: what a kernel meets when it
  treats a block of a batches of b rows as one matrix of a·b rows and takes statistics over the batch axis.

  * merging the two leading axes by a shape cast, [a, b, c] → [a·b, c], and splitting them again: row i·b + r of the
    matrix is row r of batch i;
  * one row [1, 1, c], and one matrix [1, b, c], broadcast over the leading axes;
  * at the ideal values, a sum over the batch axis (axis 0) and over the lane axis (axis 2) as sums over that axis's
    coordinates;
  * at the ideal values, a plain matrix product into a zero accumulator as the sum over the contraction coordinate, for
    any dimension numbers that contract the left operand's columns with the right operand's rows;
  * the small casts [a, 1] → [a] and [a] → [1, 1, a].
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibBatchBlocks

open Idealize.ShloMosaic Idealize.ShloMosaic.ValueIdx

variable {α : Type}

/-- An [a, b, c] array cast to [n, c] (n = a·b) reads, at row p = i·b + r and column k, the operand at (i, r, k). -/
theorem shapeCast_merge01_apply {a b c n : ℕ} (x : (⟨3, ![a, b, c]⟩ : Shape).Idx → α)
    (h : (⟨3, ![a, b, c]⟩ : Shape).ShapeCasts ⟨2, ![n, c]⟩) (p : Fin n) (i : Fin a) (r : Fin b) (k : Fin c)
    (hp : p.val = i.val * b + r.val) : shapeCast ⟨2, ![n, c]⟩ x h (ix2 p k) = x (ix3 i r k) :=
  shapeCast_apply x h _ _ (by
    rw [Shape.rowMajor_val_three, Shape.rowMajor_val_two]
    show (i.val * b + r.val) * c + k.val = p.val * c + k.val
    rw [hp])

/-- An [n, c] array (n = a·b) cast to [a, b, c] reads, at (i, r, k), the operand at row p = i·b + r and column k. -/
theorem shapeCast_split01_apply {a b c n : ℕ} (x : (⟨2, ![n, c]⟩ : Shape).Idx → α)
    (h : (⟨2, ![n, c]⟩ : Shape).ShapeCasts ⟨3, ![a, b, c]⟩) (p : Fin n) (i : Fin a) (r : Fin b) (k : Fin c)
    (hp : p.val = i.val * b + r.val) : shapeCast ⟨3, ![a, b, c]⟩ x h (ix3 i r k) = x (ix2 p k) :=
  shapeCast_apply x h _ _ (by
    rw [Shape.rowMajor_val_three, Shape.rowMajor_val_two]
    show p.val * c + k.val = (i.val * b + r.val) * c + k.val
    rw [hp])

/-- A row [1, 1, c] broadcast to [a, b, c] reads, at (i, r, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (r : Fin b) (k : Fin c) :
    broadcastTo ⟨3, ![a, b, c]⟩ v h (ix3 i r k) = v (ix3 (0 : Fin 1) (0 : Fin 1) k) := by
  refine broadcastTo_apply v h (ix3 i r k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A matrix [1, b, c] broadcast to [a, b, c] reads, at (i, r, k), the matrix at (r, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (r : Fin b) (k : Fin c) :
    broadcastTo ⟨3, ![a, b, c]⟩ v h (ix3 i r k) = v (ix3 (0 : Fin 1) r k) := by
  refine broadcastTo_apply v h (ix3 i r k) (ix3 (0 : Fin 1) r k) fun ax => ?_
  match ax with
  | ⟨0, _⟩ => rfl
  | ⟨1, _⟩ =>
    show r.val = if b = 1 then 0 else r.val
    split
    · have := r.isLt; omega
    · rfl
  | ⟨2, _⟩ =>
    show k.val = if c = 1 then 0 else k.val
    split
    · have := k.isLt; omega
    · rfl

/-- An [a, 1] column cast to the vector [a] reads, at i, the column's entry (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector [a] cast to [1, 1, a] reads, at (u, v, i), the vector's entry i. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; omega)

/-- At the ideal values the sum of an [a, b, c] block over its batch axis reads, at (r, k), the sum over the batches i of
    the block at (i, r, k). -/
theorem sum_axis0_apply {a b c : ℕ} (src : FVec Ideal ⟨3, ![a, b, c]⟩ .f32)
    (h : Shape.Reduces ⟨3, ![a, b, c]⟩ [0] ⟨2, ![b, c]⟩) (hφ : FKind.Formats .f32)
    (hacc : (0x00000000#32 : BitVec 32) = FKind.add.neutral .f32 hφ) (r : Fin b) (k : Fin c) :
    multiReduction .add [0] ⟨2, ![b, c]⟩ src 0x00000000#32 h hφ hacc (ix2 r k) = ∑ i : Fin a, src (ix3 i r k) := by
  refine (Ideal.multiReduction_add_single src _ h hφ hacc (ix2 r k)).trans ?_
  refine Finset.sum_congr rfl fun i _ => ?_
  exact congrArg src (funext fun ax => Fin.ext (by match ax with | ⟨0, _⟩ => rfl | ⟨1, _⟩ => rfl | ⟨2, _⟩ => rfl))

/-- At the ideal values the sum of an [a, b, c] block over its last axis reads, at (i, r), the sum over k of the block at
    (i, r, k). -/
theorem sum_axis2_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = FKind.add.neutral .f32 hφ) (i : Fin a) (r : Fin b) :
    multiReduction .add [2] ⟨2, ![a, b]⟩ src 0x00000000#32 h hφ hacc (ix2 i r) = ∑ k : Fin c, src (ix3 i r k) := by
  refine (Ideal.multiReduction_add_single src _ h hφ hacc (ix2 i r)).trans ?_
  refine Finset.sum_congr rfl fun k _ => ?_
  exact congrArg src (funext fun ax => Fin.ext (by match ax with | ⟨0, _⟩ => rfl | ⟨1, _⟩ => rfl | ⟨2, _⟩ => rfl))

/-- At the ideal values a matrix product [n, K] × [K, F] into the zero accumulator reads, at (p, f), the sum over the
    contraction coordinate k of left (p, k) times right (k, f) — for any dimension numbers with one contracted axis of
    extent K whose operand indices are the rows of the left operand and the columns of the right one (the four
    coordinate facts, which compute on a literal record). -/
theorem matmul_rows_apply {n K F : ℕ} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ .f32) (r : FVec Ideal ⟨2, ![K, F]⟩ .f32)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibBatchBlocks

end
-- ==== Proof.LibBlockDiagonal.lean ====
/-
  CONTRACTION AGAINST A BLOCK-DIAGONAL MATRIX. Let the P·n rows of K be cut into P groups of n and its P·q columns
  into P groups of q, with K zero off the diagonal blocks and every diagonal block a copy of one n×q matrix W — the
  Kronecker product of the P×P identity with W. Then for a row vector x of length P·n,
      ∑ k, x k · K k (g', o)  =  ∑ f < n, x (g', f) · W f o :
  column o of group g' only meets group g' of x. Only the law a · 0 = 0 is used (taken as a hypothesis; no distributivity), so the
  law holds on the extended reals, infinite entries of x included. Indices of a group are paired with `finProdFinEquiv`:
  `(g, f)` is position `f + n · g`.
-/
import Mathlib.Algebra.BigOperators.Fin
import Mathlib.Logic.Equiv.Fin.Basic
import Mathlib.Algebra.BigOperators.Group.Finset.Basic

namespace Cert.LibBlockDiagonal

open scoped BigOperators

/-- The contraction of `x` with column `(g', o)` of a block-diagonal `K` whose diagonal blocks are all `W`. -/
theorem sum_blockDiag {R : Type*} [AddCommMonoid R] [Mul R] (hmz : ∀ a : R, a * 0 = 0) {P n q : ℕ}
    (x : Fin (P * n) → R) (W : Fin n → Fin q → R) (K : Fin (P * n) → Fin (P * q) → R)
    (hK : ∀ (g : Fin P) (f : Fin n) (g' : Fin P) (o : Fin q),
      K (finProdFinEquiv (g, f)) (finProdFinEquiv (g', o)) = if g = g' then W f o else 0)
    (g' : Fin P) (o : Fin q) :
    ∑ k, x k * K k (finProdFinEquiv (g', o)) = ∑ f : Fin n, x (finProdFinEquiv (g', f)) * W f o := by
  rw [← Equiv.sum_comp finProdFinEquiv, Fintype.sum_prod_type, Finset.sum_eq_single g']
  · exact Finset.sum_congr rfl fun f _ => by rw [hK, if_pos rfl]
  · intro g _ hg
    exact Finset.sum_eq_zero fun f _ => by rw [hK, if_neg hg, hmz]
  · intro h
    exact absurd (Finset.mem_univ _) h

/-- The same with the diagonal blocks all ones: the contraction is the sum of the entries of `x` in group `g'`, in every
    column of that group (a per-group total computed by one matrix product). -/
theorem sum_blockOnes {R : Type*} [AddCommMonoid R] [Mul R] [One R] (hmz : ∀ a : R, a * 0 = 0)
    (hm1 : ∀ a : R, a * 1 = a) {P n q : ℕ}
    (x : Fin (P * n) → R) (K : Fin (P * n) → Fin (P * q) → R)
    (hK : ∀ (g : Fin P) (f : Fin n) (g' : Fin P) (o : Fin q),
      K (finProdFinEquiv (g, f)) (finProdFinEquiv (g', o)) = if g = g' then 1 else 0)
    (g' : Fin P) (o : Fin q) :
    ∑ k, x k * K k (finProdFinEquiv (g', o)) = ∑ f : Fin n, x (finProdFinEquiv (g', f)) := by
  rw [sum_blockDiag hmz x (fun _ _ => (1 : R)) K hK g' o]
  exact Finset.sum_congr rfl fun f _ => hm1 _

/-- Position of `(g, f)` in the packed vector: `f + n · g`. -/
theorem pos_val {P n : ℕ} (g : Fin P) (f : Fin n) : (finProdFinEquiv (g, f)).val = f.val + n * g.val := rfl

end Cert.LibBlockDiagonal
-- ==== Proof.KLayerAt.lean ====
/-
  ONE LAYER OF THE KERNEL'S BODY, READ AT AN INDEX. The block functions of KLayer.lean at entry (n, r, lane): a product
  with a parameter slice is a sum over the 128 lanes of row (n, r); against a block-diagonal slice only the lane's own
  group of 32 contributes (LibBlockDiagonal), so for the batch element in group g of row r the product is that element's
  32 features against the 32 × 32 weight block. The vertex projection rolled by s reads vertex (n + s) mod 54, the tiled
  edge projection of slot j reads row 24 j + n mod 24, which holds edge 3 (n mod 24) + j = (3 n + j) mod 72. With the
  per-group sum of squares by the ones matrix, a layer of the block at (n, r, 32 g + o) is the network's layer (Spec.lean,
  the spelling that multiplies by the reciprocal square root) of the batch element (r, g), at (n, o).
-/
import proofs.«182073_g78494822302262_cont_9to1_m_206_7_alg».proof.Proof.KLayer
import proofs.«182073_g78494822302262_cont_9to1_m_206_7_alg».proof.Proof.Spec
import proofs.«182073_g78494822302262_cont_9to1_m_206_7_alg».proof.Proof.LibBatchBlocks
import proofs.«182073_g78494822302262_cont_9to1_m_206_7_alg».proof.Proof.LibBlockDiagonal
import Idealize.ShloMosaic.PureOps.Ideal.Laws
import Idealize.ShloMosaic.Lib.ValueIdx
import Idealize.ShloMosaic.Lib.ValueLayout
import Idealize.ShloMosaic.Lib.Pipeline.Value

noncomputable section

namespace Cert.KLayerAt

open Cert.KernelIdeal Cert.KernelIdeal.Facts₀ Cert.KernelIdeal.Facts Idealize.ShloMosaic Idealize.ShloMosaic.ValueIdx
open Cert.KLayer
open scoped BigOperators

/-- A plain product [n, K] × [K, N] into the zero block, at (p, l): the sum over the K columns of row p. For any record
    contracting the left operand's axis 1 with the right operand's axis 0 and no batch axis. -/
theorem plainMatmul_apply {n K N : ℕ} (D : DotDims ⟨2, ![n, K]⟩ ⟨2, ![K, N]⟩ ⟨2, ![n, N]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (l : FVec Ideal ⟨2, ![n, K]⟩ .f32) (r : FVec Ideal ⟨2, ![K, N]⟩ .f32) (p : Fin n) (c : Fin N) :
    matmul D prec l r (constant ⟨2, ![n, N]⟩ .f32 0x00000000#32) (ix2 p c) = ∑ k : Fin K, l (ix2 p k) * r (ix2 k c) := by
  refine (Ideal.matmul_constant_zero_apply D prec l r (ix2 p c)).trans ?_
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have el : (DotDims.mk [1] [0] [0] [1] [] [] wf).lhsIdx (ix2 p c) ((contrEquiv1 (DotDims.mk [1] [0] [0] [1] [] [] wf) K rfl rfl).symm k) = ix2 p k :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p c) ((contrEquiv1 (DotDims.mk [1] [0] [0] [1] [] [] wf) K rfl rfl).symm k) = ix2 k c :=
    funext fun a => Fin.ext (by
      match a with
      | ⟨0, _⟩ => exact ((DotDims.mk [1] [0] [0] [1] [] [] wf).rhsIdx_val_of_single rfl _ _).trans hk
      | ⟨1, _⟩ => rfl)
  rw [el, er]

/-- A block times a 128 × 128 parameter slice, at (n, r, l): the sum over the lanes k of x(n, r, k) · w(0, k, l). -/
theorem mm_apply (x : FVec Ideal S54x128x128 .f32) (w : Vec Ideal S1x128x128 .f32) (n : Fin 54) (r : Fin 128) (l : Fin 128) :
    mm (F := Ideal) x w (ix3 n r l) = ∑ k : Fin 128, x (ix3 n r k) * w (ix3 (0 : Fin 1) k l) := by
  unfold mm
  rw [Cert.LibBatchBlocks.shapeCast_split01_apply _ _ (⟨n.val * 128 + r.val, by have := n.isLt; have := r.isLt; omega⟩ : Fin 6912) n r l rfl,
    plainMatmul_apply _ rfl rfl rfl rfl rfl rfl]
  refine Finset.sum_congr rfl fun k _ => ?_
  rw [Cert.LibBatchBlocks.shapeCast_merge01_apply _ _ _ n r k rfl, shapeCast_1ab_ab_apply]

/-- The edge block times a 64 × 128 parameter slice, at (m, r, l). -/
theorem mmE_apply (x : FVec Ideal S72x128x64 .f32) (w : Vec Ideal S1x64x128 .f32) (m : Fin 72) (r : Fin 128) (l : Fin 128) :
    mmE (F := Ideal) x w (ix3 m r l) = ∑ k : Fin 64, x (ix3 m r k) * w (ix3 (0 : Fin 1) k l) := by
  unfold mmE
  rw [Cert.LibBatchBlocks.shapeCast_split01_apply _ _ (⟨m.val * 128 + r.val, by have := m.isLt; have := r.isLt; omega⟩ : Fin 9216) m r l rfl,
    plainMatmul_apply _ rfl rfl rfl rfl rfl rfl]
  refine Finset.sum_congr rfl fun k _ => ?_
  rw [Cert.LibBatchBlocks.shapeCast_merge01_apply _ _ _ m r k rfl, shapeCast_1ab_ab_apply]

/-- A bias slice spread over the block, at (n, r, l): the slice's entry l. -/
theorem biasB_apply (b : Vec Ideal S1x1x128 .f32) (n : Fin 54) (r : Fin 128) (l : Fin 128) :
    biasB (F := Ideal) b (ix3 n r l) = b (ix3 (0 : Fin 1) (0 : Fin 1) l) := by
  unfold biasB
  rw [Cert.LibBatchBlocks.broadcastTo_11c_abc_apply, shapeCast_ab_1ab_apply, shapeCast_1ab_ab_apply]

/-! ## Lanes, rolls and tiles -/

/-- Feature f of the batch element in group g of a packed row: lane 32 g + f. -/
def lane (g : Fin 4) (f : Fin 32) : Fin 128 := ⟨f.val + 32 * g.val, by have := g.isLt; have := f.isLt; omega⟩
/-- Edge feature d of the batch element in group g: lane 16 g + d of the edge block. -/
def lane16 (g : Fin 4) (d : Fin 16) : Fin 64 := ⟨d.val + 16 * g.val, by have := g.isLt; have := d.isLt; omega⟩

/-- A contraction over the 128 lanes against a block-diagonal 128 × 128 matrix: only the lane's own group contributes. -/
theorem sum_lanes (x : Fin 128 → EReal) (K : Fin 128 → Fin 128 → EReal) (W : Fin 32 → Fin 32 → EReal)
    (hK : ∀ (g : Fin 4) (f : Fin 32) (g' : Fin 4) (o : Fin 32), K (lane g f) (lane g' o) = if g = g' then W f o else 0)
    (g' : Fin 4) (o : Fin 32) : ∑ k, x k * K k (lane g' o) = ∑ f : Fin 32, x (lane g' f) * W f o :=
  Cert.LibBlockDiagonal.sum_blockDiag (P := 4) (n := 32) (q := 32) mul_zero x W K hK g' o

/-- The same over the 64 lanes of the edge block against a block-diagonal 64 × 128 matrix. -/
theorem sum_lanes16 (x : Fin 64 → EReal) (K : Fin 64 → Fin 128 → EReal) (W : Fin 16 → Fin 32 → EReal)
    (hK : ∀ (g : Fin 4) (d : Fin 16) (g' : Fin 4) (o : Fin 32), K (lane16 g d) (lane g' o) = if g = g' then W d o else 0)
    (g' : Fin 4) (o : Fin 32) : ∑ k, x k * K k (lane g' o) = ∑ d : Fin 16, x (lane16 g' d) * W d o :=
  Cert.LibBlockDiagonal.sum_blockDiag (P := 4) (n := 16) (q := 32) mul_zero x W K hK g' o

/-- The same against the ones matrix: the total of the lane's own group. -/
theorem sum_lanes_ones (x : Fin 128 → EReal) (K : Fin 128 → Fin 128 → EReal)
    (hK : ∀ (g : Fin 4) (f : Fin 32) (g' : Fin 4) (o : Fin 32), K (lane g f) (lane g' o) = if g = g' then 1 else 0)
    (g' : Fin 4) (o : Fin 32) : ∑ k, x k * K k (lane g' o) = ∑ f : Fin 32, x (lane g' f) :=
  Cert.LibBlockDiagonal.sum_blockOnes (P := 4) (n := 32) (q := 32) mul_zero mul_one x K hK g' o

/-- A block rolled up its leading axis by a2 rows (rows a2 … N − 1 followed by rows 0 … a2 − 1), at row n: row
    (n + a2) mod N of the block. -/
theorem rollUp_apply {α : Type} {N a1 a2 b c : ℕ} (hN : a1 + a2 = N) (p : (⟨3, ![N, b, c]⟩ : Shape).Idx → α)
    (h1 : (⟨3, ![N, b, c]⟩ : Shape).Slices ![a2, 0, 0] ⟨3, ![a1, b, c]⟩)
    (h2 : (⟨3, ![N, b, c]⟩ : Shape).Slices ![0, 0, 0] ⟨3, ![a2, b, c]⟩)
    (hc : Shape.Concatenates [⟨3, ![a1, b, c]⟩, ⟨3, ![a2, b, c]⟩] ⟨3, ![N, b, c]⟩ 0)
    (n : Fin N) (r : Fin b) (l : Fin c) (m : Fin N) (hm : m.val = (n.val + a2) % N) :
    concatenate ⟨3, ![N, b, c]⟩ 0 [⟨⟨3, ![a1, b, c]⟩, extractStridedSlice ⟨3, ![a1, b, c]⟩ ![a2, 0, 0] p h1⟩,
        ⟨⟨3, ![a2, b, c]⟩, extractStridedSlice ⟨3, ![a2, b, c]⟩ ![0, 0, 0] p h2⟩] hc (ix3 n r l) = p (ix3 m r l) := by
  have hn := n.isLt
  by_cases hlt : n.val < a1
  · rw [concatenate_pair_apply_left 0 _ _ hc (ix3 n r l) rfl (ix3 (⟨n.val, hlt⟩ : Fin a1) r l)
      (fun t => match t with | ⟨0, _⟩ => rfl | ⟨1, _⟩ => rfl | ⟨2, _⟩ => rfl)]
    refine extractStridedSlice_apply _ _ _ _ _ (fun ax => ?_)
    match ax with
    | ⟨0, _⟩ =>
      show m.val = a2 + n.val
      rw [hm, Nat.mod_eq_of_lt (by omega)]; omega
    | ⟨1, _⟩ => exact (Nat.zero_add _).symm
    | ⟨2, _⟩ => exact (Nat.zero_add _).symm
  · have hge : a1 ≤ n.val := Nat.le_of_not_lt hlt
    rw [concatenate_pair_apply_right 0 _ _ hc (ix3 n r l) rfl rfl (ix3 (⟨n.val - a1, by omega⟩ : Fin a2) r l)
      (fun t ht => match t, ht with | ⟨0, _⟩, ht => absurd rfl ht | ⟨1, _⟩, _ => rfl | ⟨2, _⟩, _ => rfl)
      (by show (n.val - a1) + a1 = n.val; omega)]
    refine extractStridedSlice_apply _ _ _ _ _ (fun ax => ?_)
    match ax with
    | ⟨0, _⟩ =>
      show m.val = 0 + (n.val - a1)
      rw [hm, show n.val + a2 = (n.val - a1) + N by omega, Nat.add_mod_right, Nat.mod_eq_of_lt (by omega)]; omega
    | ⟨1, _⟩ => exact (Nat.zero_add _).symm
    | ⟨2, _⟩ => exact (Nat.zero_add _).symm

/-- 24 rows tiled down 54 rows (the 24 rows, the 24 rows again, then the first 6), at row n: row n mod 24. -/
theorem tile_apply {α : Type} {b c : ℕ} (t : (⟨3, ![24, b, c]⟩ : Shape).Idx → α)
    (h6 : (⟨3, ![24, b, c]⟩ : Shape).Slices ![0, 0, 0] ⟨3, ![6, b, c]⟩)
    (hc : Shape.Concatenates [⟨3, ![24, b, c]⟩, ⟨3, ![24, b, c]⟩, ⟨3, ![6, b, c]⟩] ⟨3, ![54, b, c]⟩ 0)
    (n : Fin 54) (r : Fin b) (l : Fin c) (m : Fin 24) (hm : m.val = n.val % 24) :
    concatenate ⟨3, ![54, b, c]⟩ 0 [⟨⟨3, ![24, b, c]⟩, t⟩, ⟨⟨3, ![24, b, c]⟩, t⟩,
        ⟨⟨3, ![6, b, c]⟩, extractStridedSlice ⟨3, ![6, b, c]⟩ ![0, 0, 0] t h6⟩] hc (ix3 n r l) = t (ix3 m r l) := by
  have hn := n.isLt
  have hmv := m.isLt
  by_cases h0 : n.val < 24
  · refine (concatenate_apply_piece 0 [⟨⟨3, ![24, b, c]⟩, t⟩, ⟨⟨3, ![24, b, c]⟩, t⟩, ⟨⟨3, ![6, b, c]⟩, extractStridedSlice ⟨3, ![6, b, c]⟩ ![0, 0, 0] t h6⟩] hc (ix3 n r l) 0 (show 0 < 3 by omega) _ t rfl rfl 0 rfl (ix3 m r l)
      (fun bb hb => match bb, hb with | ⟨0, _⟩, hb => absurd rfl hb | ⟨1, _⟩, _ => rfl | ⟨2, _⟩, _ => rfl) ?_)
    show 0 + m.val = n.val
    rw [hm, Nat.mod_eq_of_lt h0, Nat.zero_add]
  · by_cases h1 : n.val < 48
    · refine (concatenate_apply_piece 0 [⟨⟨3, ![24, b, c]⟩, t⟩, ⟨⟨3, ![24, b, c]⟩, t⟩, ⟨⟨3, ![6, b, c]⟩, extractStridedSlice ⟨3, ![6, b, c]⟩ ![0, 0, 0] t h6⟩] hc (ix3 n r l) 1 (show 1 < 3 by omega) _ t rfl rfl 24 rfl (ix3 m r l)
        (fun bb hb => match bb, hb with | ⟨0, _⟩, hb => absurd rfl hb | ⟨1, _⟩, _ => rfl | ⟨2, _⟩, _ => rfl) ?_)
      show 24 + m.val = n.val
      rw [hm]; omega
    · refine (concatenate_apply_piece 0 [⟨⟨3, ![24, b, c]⟩, t⟩, ⟨⟨3, ![24, b, c]⟩, t⟩, ⟨⟨3, ![6, b, c]⟩, extractStridedSlice ⟨3, ![6, b, c]⟩ ![0, 0, 0] t h6⟩] hc (ix3 n r l) 2 (show 2 < 3 by omega) _ _ rfl rfl 48 rfl
        (ix3 (⟨n.val - 48, by omega⟩ : Fin 6) r l)
        (fun bb hb => match bb, hb with | ⟨0, _⟩, hb => absurd rfl hb | ⟨1, _⟩, _ => rfl | ⟨2, _⟩, _ => rfl)
        (by show 48 + (n.val - 48) = n.val; omega)).trans ?_
      refine extractStridedSlice_apply _ _ _ _ _ (fun ax => ?_)
      match ax with
      | ⟨0, _⟩ =>
        show m.val = 0 + (n.val - 48)
        rw [hm]; omega
      | ⟨1, _⟩ => exact (Nat.zero_add _).symm
      | ⟨2, _⟩ => exact (Nat.zero_add _).symm

/-! ## The layer at an index -/

section Layer

variable (eW : Fin 48 → Fin 32 → EReal) (eb : Fin 32 → EReal) (hW : Fin 64 → Fin 32 → EReal) (hb : Fin 32 → EReal)

/-- The six loaded slices are a layer's parameters packed for four batch elements: each weight block-diagonal with four
    copies of its 32-column block, each bias tiled four times. -/
structure Packed (wpS : Vec Ideal S1x128x128 .f32) (weS : Vec Ideal S1x64x128 .f32) (ebS : Vec Ideal S1x1x128 .f32)
    (wh1S wh2S : Vec Ideal S1x128x128 .f32) (hbS : Vec Ideal S1x1x128 .f32) : Prop where
  wp : ∀ (g : Fin 4) (f : Fin 32) (g' : Fin 4) (o : Fin 32),
    wpS (ix3 (0 : Fin 1) (lane g f) (lane g' o)) = if g = g' then eW ⟨f.val, by have := f.isLt; omega⟩ o else 0
  we : ∀ (g : Fin 4) (d : Fin 16) (g' : Fin 4) (o : Fin 32),
    weS (ix3 (0 : Fin 1) (lane16 g d) (lane g' o)) = if g = g' then eW ⟨32 + d.val, by have := d.isLt; omega⟩ o else 0
  eb : ∀ (g : Fin 4) (o : Fin 32), ebS (ix3 (0 : Fin 1) (0 : Fin 1) (lane g o)) = eb o
  wh1 : ∀ (g : Fin 4) (f : Fin 32) (g' : Fin 4) (o : Fin 32),
    wh1S (ix3 (0 : Fin 1) (lane g f) (lane g' o)) = if g = g' then hW ⟨f.val, by have := f.isLt; omega⟩ o else 0
  wh2 : ∀ (g : Fin 4) (f : Fin 32) (g' : Fin 4) (o : Fin 32),
    wh2S (ix3 (0 : Fin 1) (lane g f) (lane g' o)) = if g = g' then hW ⟨32 + f.val, by have := f.isLt; omega⟩ o else 0
  hb : ∀ (g : Fin 4) (o : Fin 32), hbS (ix3 (0 : Fin 1) (0 : Fin 1) (lane g o)) = hb o

variable {eW eb hW hb}
variable {wpS : Vec Ideal S1x128x128 .f32} {weS : Vec Ideal S1x64x128 .f32} {ebS : Vec Ideal S1x1x128 .f32}
  {wh1S wh2S : Vec Ideal S1x128x128 .f32} {hbS : Vec Ideal S1x1x128 .f32}
  (hP : Packed eW eb hW hb wpS weS ebS wh1S wh2S hbS)
  (x : FVec Ideal S54x128x128 .f32) (e3 : FVec Ideal S72x128x64 .f32) (r : Fin 128) (g : Fin 4)
  (vf : Fin 54 → Fin 32 → EReal) (e : Fin 72 → Fin 16 → EReal)
  (hX : ∀ (n : Fin 54) (f : Fin 32), x (ix3 n r (lane g f)) = vf n f)
  (hE : ∀ (j : Fin 3) (w : Fin 24) (d : Fin 16),
    e3 (ix3 (⟨24 * j.val + w.val, by have := j.isLt; have := w.isLt; omega⟩ : Fin 72) r (lane16 g d))
      = e ⟨3 * w.val + j.val, by have := j.isLt; have := w.isLt; omega⟩ d)

include hP hX in
/-- The vertex projection at vertex m, for the batch element (r, g). -/
theorem proj_apply (m : Fin 54) (o : Fin 32) :
    mm (F := Ideal) x wpS (ix3 m r (lane g o)) = ∑ f : Fin 32, vf m f * eW ⟨f.val, by have := f.isLt; omega⟩ o := by
  rw [mm_apply, sum_lanes (fun k => x (ix3 m r k)) (fun k l => wpS (ix3 (0 : Fin 1) k l)) _ hP.wp g o]
  exact Finset.sum_congr rfl fun f _ => by rw [hX]

include hP hE in
/-- The edge projection at row 24 j + w of the pre-gathered edge block, for the batch element (r, g): edge 3 w + j. -/
theorem projE_apply (j : Fin 3) (w : Fin 24) (o : Fin 32) :
    mmE (F := Ideal) e3 weS (ix3 (⟨24 * j.val + w.val, by have := j.isLt; have := w.isLt; omega⟩ : Fin 72) r (lane g o))
      = ∑ d : Fin 16, e ⟨3 * w.val + j.val, by have := j.isLt; have := w.isLt; omega⟩ d * eW ⟨32 + d.val, by have := d.isLt; omega⟩ o := by
  rw [mmE_apply, sum_lanes16 (fun k => e3 (ix3 _ r k)) (fun k l => weS (ix3 (0 : Fin 1) k l)) _ hP.we g o]
  exact Finset.sum_congr rfl fun d _ => by rw [hE]

include hP hX hE in
/-- One neighbour slot: the rolled vertex projection plus the tiled edge projection is the slot's contraction. -/
theorem slot_sum (j : Fin 3) (n : Fin 54) (o : Fin 32) :
    mm (F := Ideal) x wpS (ix3 (Cert.Spec.sv n j) r (lane g o))
        + mmE (F := Ideal) e3 weS (ix3 (⟨24 * j.val + n.val % 24, by have := j.isLt; omega⟩ : Fin 72) r (lane g o))
      = ∑ f : Fin 32, vf (Cert.Spec.sv n j) f * eW ⟨f.val, by have := f.isLt; omega⟩ o
        + ∑ d : Fin 16, e (Cert.Spec.se n j) d * eW ⟨32 + d.val, by have := d.isLt; omega⟩ o := by
  rw [proj_apply hP x r g vf hX, projE_apply hP e3 r g e hE j ⟨n.val % 24, Nat.mod_lt _ (by decide)⟩ o]
  have hse : (⟨3 * (n.val % 24) + j.val, by have := j.isLt; omega⟩ : Fin 72) = Cert.Spec.se n j :=
    Fin.ext (by show 3 * (n.val % 24) + j.val = (3 * n.val + j.val) % 72; have := n.isLt; have := j.isLt; omega)
  rw [hse]

include hP hX hE in
/-- The strongest message of the block at (n, r, 32 g + o) is the network's, for the batch element (r, g). -/
theorem aggB_apply (n : Fin 54) (o : Fin 32) :
    aggB (F := Ideal) x e3 wpS weS ebS (ix3 n r (lane g o))
      = Cert.Spec.agg (B := 1) eW eb (fun _ => vf) (fun _ => e) 0 n o := by
  unfold Cert.Spec.agg Cert.Spec.emb
  rw [Cert.Spec.tanh_max3_add]
  unfold aggB
  dsimp only
  show Ideal.tanh (max (max (_ + _) (_ + _)) (_ + _) + biasB (F := Ideal) ebS (ix3 n r (lane g o))) = _
  rw [biasB_apply, hP.eb]
  refine congrArg Ideal.tanh (congrArg (· + eb o) (congrArg₂ max (congrArg₂ max ?_ ?_) ?_))
  · refine (congrArg₂ (· + ·) ?_ ?_).trans (slot_sum hP x e3 r g vf e hX hE 0 n o)
    · exact rollUp_apply (N := 54) (a1 := 53) (a2 := 1) rfl _ _ _ _ n r (lane g o) (Cert.Spec.sv n 0) rfl
    · refine (tile_apply _ _ _ n r (lane g o) ⟨n.val % 24, Nat.mod_lt _ (by decide)⟩ rfl).trans ?_
      exact extractStridedSlice_apply _ _ _ _ _ (fun ax => match ax with
        | ⟨0, _⟩ => rfl
        | ⟨1, _⟩ => (Nat.zero_add _).symm
        | ⟨2, _⟩ => (Nat.zero_add _).symm)
  · refine (congrArg₂ (· + ·) ?_ ?_).trans (slot_sum hP x e3 r g vf e hX hE 1 n o)
    · exact rollUp_apply (N := 54) (a1 := 52) (a2 := 2) rfl _ _ _ _ n r (lane g o) (Cert.Spec.sv n 1) rfl
    · refine (tile_apply _ _ _ n r (lane g o) ⟨n.val % 24, Nat.mod_lt _ (by decide)⟩ rfl).trans ?_
      exact extractStridedSlice_apply _ _ _ _ _ (fun ax => match ax with
        | ⟨0, _⟩ => rfl
        | ⟨1, _⟩ => (Nat.zero_add _).symm
        | ⟨2, _⟩ => (Nat.zero_add _).symm)
  · refine (congrArg₂ (· + ·) ?_ ?_).trans (slot_sum hP x e3 r g vf e hX hE 2 n o)
    · exact rollUp_apply (N := 54) (a1 := 51) (a2 := 3) rfl _ _ _ _ n r (lane g o) (Cert.Spec.sv n 2) rfl
    · refine (tile_apply _ _ _ n r (lane g o) ⟨n.val % 24, Nat.mod_lt _ (by decide)⟩ rfl).trans ?_
      exact extractStridedSlice_apply _ _ _ _ _ (fun ax => match ax with
        | ⟨0, _⟩ => rfl
        | ⟨1, _⟩ => (Nat.zero_add _).symm
        | ⟨2, _⟩ => (Nat.zero_add _).symm)

include hP hX hE in
/-- The update of the block at (n, r, 32 g + o) is the network's, for the batch element (r, g). -/
theorem linB_apply (n : Fin 54) (o : Fin 32) :
    linB (F := Ideal) x e3 wpS weS ebS wh1S wh2S hbS (ix3 n r (lane g o))
      = Cert.Spec.lin (B := 1) eW eb hW hb (fun _ => vf) (fun _ => e) 0 n o := by
  unfold linB Cert.Spec.lin
  show (mm (F := Ideal) x wh1S (ix3 n r (lane g o)) + mm (F := Ideal) (aggB (F := Ideal) x e3 wpS weS ebS) wh2S (ix3 n r (lane g o)))
      + biasB (F := Ideal) hbS (ix3 n r (lane g o)) = _
  rw [biasB_apply, hP.hb, mm_apply, mm_apply,
    sum_lanes (fun k => x (ix3 n r k)) (fun k l => wh1S (ix3 (0 : Fin 1) k l)) _ hP.wh1 g o,
    sum_lanes (fun k => aggB (F := Ideal) x e3 wpS weS ebS (ix3 n r k)) (fun k l => wh2S (ix3 (0 : Fin 1) k l)) _ hP.wh2 g o]
  refine congrArg (· + hb o) (congrArg₂ (· + ·) (Finset.sum_congr rfl fun f _ => ?_) (Finset.sum_congr rfl fun f _ => ?_))
  · rw [hX]
  · rw [aggB_apply hP x e3 r g vf e hX hE n f]

/-- Scaling the 32-lane groups of a block to unit length, at (n, r, 32 g + o): the entry times the reciprocal square root
    of the sum of squares of its own group of row (n, r). -/
theorem unitB_apply (y : FVec Ideal S54x128x128 .f32) (ones : FVec Ideal S128x128 .f32)
    (hO : ∀ (g : Fin 4) (f : Fin 32) (g' : Fin 4) (o : Fin 32), ones (ix2 (lane g f) (lane g' o)) = if g = g' then 1 else 0)
    (n : Fin 54) (r : Fin 128) (g : Fin 4) (o : Fin 32) :
    unitB (F := Ideal) y ones (ix3 n r (lane g o))
      = y (ix3 n r (lane g o)) * Ideal.rsqrt (∑ f : Fin 32, y (ix3 n r (lane g f)) * y (ix3 n r (lane g f))) := by
  unfold unitB
  show y (ix3 n r (lane g o)) * Ideal.rsqrt (shapeCast S54x128x128 _ _ (ix3 n r (lane g o))) = _
  rw [Cert.LibBatchBlocks.shapeCast_split01_apply _ _ (⟨n.val * 128 + r.val, by have := n.isLt; have := r.isLt; omega⟩ : Fin 6912) n r (lane g o) rfl,
    plainMatmul_apply _ rfl rfl rfl rfl rfl rfl,
    sum_lanes_ones (fun k => shapeCast S6912x128 (mulf y y) shapeCasts_S54x128x128_S6912x128 (ix2 _ k)) (fun k l => ones (ix2 k l)) hO g o]
  refine congrArg (fun s => y (ix3 n r (lane g o)) * Ideal.rsqrt s) (Finset.sum_congr rfl fun f _ => ?_)
  rw [Cert.LibBatchBlocks.shapeCast_merge01_apply _ _ _ n r (lane g f) rfl]
  rfl

include hP hX hE in
/-- A normalising layer of the block at (n, r, 32 g + o) is the network's layer in the spelling that multiplies by the
    reciprocal square root, for the batch element (r, g). -/
theorem layerB_apply (ones : FVec Ideal S128x128 .f32)
    (hO : ∀ (g : Fin 4) (f : Fin 32) (g' : Fin 4) (o : Fin 32), ones (ix2 (lane g f) (lane g' o)) = if g = g' then 1 else 0)
    (n : Fin 54) (o : Fin 32) :
    layerB (F := Ideal) x e3 ones wpS weS ebS wh1S wh2S hbS (ix3 n r (lane g o))
      = Cert.Spec.layerMul (B := 1) eW eb hW hb (fun _ => e) (fun _ => vf) 0 n o := by
  unfold layerB Cert.Spec.layerMul Cert.Spec.unitMul Cert.Spec.sumSq Cert.Spec.act
  rw [unitB_apply _ ones hO n r g o]
  have hy : ∀ f : Fin 32, tanh (F := Ideal) (linB (F := Ideal) x e3 wpS weS ebS wh1S wh2S hbS) (ix3 n r (lane g f))
      = Ideal.tanh (Cert.Spec.lin (B := 1) eW eb hW hb (fun _ => vf) (fun _ => e) 0 n f) := fun f => by
    show Ideal.tanh (linB (F := Ideal) x e3 wpS weS ebS wh1S wh2S hbS (ix3 n r (lane g f))) = _
    rw [linB_apply hP x e3 r g vf e hX hE n f]
  rw [hy o]
  exact congrArg (fun s => _ * Ideal.rsqrt s) (Finset.sum_congr rfl fun f _ => by rw [hy f])

end Layer

end Cert.KLayerAt

end
-- ==== Proof.LibKronPlacement.lean ====
/-
  A BLOCK-DIAGONAL STACK BUILT BY PLACEMENT, READ AT AN INDEX. The host builds kron(I₄, W[l]) for a stack W : [L, a, c] as
  (the 4 × 4 identity mask placed as [1, 4, 1, 4, 1] and spread to [L, 4, a, 4, c]) times (W placed as [L, 1, a, 1, c] and
  spread to [L, 4, a, 4, c]), reshaped to [L, 4a, 4c]. Each step read at an index: entry (l, a·g + f, c·g' + o) of the result
  is mask(g, g') · W(l, f, o).
-/
import Idealize.ShloMosaic.Lib.ValueIdx
import Idealize.ShloMosaic.Lib.Pipeline.Value
import Mathlib.Tactic.Ring

namespace Cert.LibKronPlacement

open Idealize.ShloMosaic Idealize.ShloMosaic.ValueIdx

/-- A coordinate below an extent `n` is `0` when `n = 1`, and itself otherwise (a broadcast's side condition on one axis). -/
private theorem val_eq_ite_one {n : ℕ} (i : Fin n) (m : ℕ) (hm : m = n) : i.val = if m = 1 then 0 else i.val := by
  subst hm
  split_ifs with h
  · have := i.isLt; omega
  · rfl

/-- The stack placed as [L, 1, a, 1, c] (dims [0, 2, 4]): entry (l, u, f, v, o) is W(l, f, o). -/
theorem place_stack {α : Type} {L a c : ℕ} (w : (⟨3, ![L, a, c]⟩ : Shape).Idx → α)
    (h : (⟨3, ![L, a, c]⟩ : Shape).BroadcastsInDim ⟨5, ![L, 1, a, 1, c]⟩ ![0, 2, 4])
    (l : Fin L) (u : Fin 1) (f : Fin a) (v : Fin 1) (o : Fin c) :
    broadcastInDim ⟨5, ![L, 1, a, 1, c]⟩ ![0, 2, 4] h w (ix5 l u f v o) = w (ix3 l f o) :=
  broadcastInDim_apply _ h w _ _ (fun t => match t with
    | ⟨0, _⟩ => val_eq_ite_one l _ rfl
    | ⟨1, _⟩ => val_eq_ite_one f _ rfl
    | ⟨2, _⟩ => val_eq_ite_one o _ rfl)

/-- The placed stack spread over the two group axes: entry (l, g, f, g', o) is entry (l, 0, f, 0, o). -/
theorem spread_stack {α : Type} {L P a c : ℕ} (y : (⟨5, ![L, 1, a, 1, c]⟩ : Shape).Idx → α)
    (h : (⟨5, ![L, 1, a, 1, c]⟩ : Shape).BroadcastsInDim ⟨5, ![L, P, a, P, c]⟩ ![0, 1, 2, 3, 4])
    (l : Fin L) (g : Fin P) (f : Fin a) (g' : Fin P) (o : Fin c) :
    broadcastInDim ⟨5, ![L, P, a, P, c]⟩ ![0, 1, 2, 3, 4] h y (ix5 l g f g' o) = y (ix5 l (0 : Fin 1) f (0 : Fin 1) o) :=
  broadcastInDim_apply _ h y _ _ (fun t => match t with
    | ⟨0, _⟩ => val_eq_ite_one l _ rfl
    | ⟨1, _⟩ => (if_pos rfl).symm
    | ⟨2, _⟩ => val_eq_ite_one f _ rfl
    | ⟨3, _⟩ => (if_pos rfl).symm
    | ⟨4, _⟩ => val_eq_ite_one o _ rfl)

/-- The mask placed as [1, P, 1, P, 1] (dims [1, 3]): entry (u, g, v, g', w) is mask(g, g'). -/
theorem place_mask {α : Type} {P : ℕ} (E : (⟨2, ![P, P]⟩ : Shape).Idx → α)
    (h : (⟨2, ![P, P]⟩ : Shape).BroadcastsInDim ⟨5, ![1, P, 1, P, 1]⟩ ![1, 3])
    (u : Fin 1) (g : Fin P) (v : Fin 1) (g' : Fin P) (w : Fin 1) :
    broadcastInDim ⟨5, ![1, P, 1, P, 1]⟩ ![1, 3] h E (ix5 u g v g' w) = E (ix2 g g') :=
  broadcastInDim_apply _ h E _ _ (fun t => match t with
    | ⟨0, _⟩ => val_eq_ite_one g _ rfl
    | ⟨1, _⟩ => val_eq_ite_one g' _ rfl)

/-- The placed mask spread over the stack, row and column axes: entry (l, g, f, g', o) is entry (0, g, 0, g', 0). -/
theorem spread_mask {α : Type} {L P a c : ℕ} (y : (⟨5, ![1, P, 1, P, 1]⟩ : Shape).Idx → α)
    (h : (⟨5, ![1, P, 1, P, 1]⟩ : Shape).BroadcastsInDim ⟨5, ![L, P, a, P, c]⟩ ![0, 1, 2, 3, 4])
    (l : Fin L) (g : Fin P) (f : Fin a) (g' : Fin P) (o : Fin c) :
    broadcastInDim ⟨5, ![L, P, a, P, c]⟩ ![0, 1, 2, 3, 4] h y (ix5 l g f g' o)
      = y (ix5 (0 : Fin 1) g (0 : Fin 1) g' (0 : Fin 1)) :=
  broadcastInDim_apply _ h y _ _ (fun t => match t with
    | ⟨0, _⟩ => (if_pos rfl).symm
    | ⟨1, _⟩ => val_eq_ite_one g _ rfl
    | ⟨2, _⟩ => (if_pos rfl).symm
    | ⟨3, _⟩ => val_eq_ite_one g' _ rfl
    | ⟨4, _⟩ => (if_pos rfl).symm)

/-- [L, P, a, P, c] reshaped to [L, R, C] with R = P·a and C = P·c: row a·g + f, column c·g' + o is entry (l, g, f, g', o). -/
theorem merge_groups {α : Type} {L P a c R C : ℕ} (hR : R = P * a) (hC : C = P * c)
    (y : (⟨5, ![L, P, a, P, c]⟩ : Shape).Idx → α) (h : (⟨5, ![L, P, a, P, c]⟩ : Shape).ShapeCasts ⟨3, ![L, R, C]⟩)
    (l : Fin L) (g : Fin P) (f : Fin a) (g' : Fin P) (o : Fin c) (p : Fin R) (q : Fin C)
    (hp : p.val = f.val + a * g.val) (hq : q.val = o.val + c * g'.val) :
    shapeCast ⟨3, ![L, R, C]⟩ y h (ix3 l p q) = y (ix5 l g f g' o) :=
  shapeCast_apply y h _ _ (by
    rw [Shape.rowMajor_val_five, Shape.rowMajor_val_three]
    show (((l.val * P + g.val) * a + f.val) * P + g'.val) * c + o.val = (l.val * R + p.val) * C + q.val
    rw [hp, hq, hR, hC]
    ring)

end Cert.LibKronPlacement
-- ==== Proof.KHost.lean ====
/-
  THE KERNEL'S OPERANDS AS THE HOST BUILDS THEM, READ AT AN INDEX. The stacked block-diagonal weights kron(I₄, W[l]) (the
  4 × 4 identity mask from two iotas compared, placed and spread, times the weight stack placed and spread, reshaped),
  the biases tiled four times, the ones matrix kron(I₄, ones(32, 32)), and per batch chunk the vertex-major packed
  vertices and the pre-gathered packed edges — each as a pure function of the argument it is built from, spelled as the
  printed host operations spell it, and read at the lanes of one batch element.
-/
import proofs.«182073_g78494822302262_cont_9to1_m_206_7_alg».proof.KernelIdeal
import proofs.«182073_g78494822302262_cont_9to1_m_206_7_alg».proof.Proof.Gen.KernelIdeal
import proofs.«182073_g78494822302262_cont_9to1_m_206_7_alg».proof.Proof.KLayerAt
import proofs.«182073_g78494822302262_cont_9to1_m_206_7_alg».proof.Proof.LibKronPlacement
import Idealize.ShloMosaic.Lib.IdealHost
import Idealize.ShloMosaic.Lib.ValueLayout

noncomputable section

namespace Cert.KHost

open Cert.KernelIdeal Cert.KernelIdeal.Facts₀ Cert.KernelIdeal.Facts Idealize.ShloMosaic Idealize.ShloMosaic.ValueIdx
open Cert.KLayerAt

variable {F : FTy → Type} [FloatOps F]

/-! ## The identity mask -/

/-- Row index equals column index, as one-bit words. -/
def eyeBits : IVec S4x4 1 :=
  cmpi .eq (addi (iotaInDim S4x4 32 0) (broadcastInDim S4x4 ![] bcast_S_S4x4 (constantI S_ 32 0#32))) (iotaInDim S4x4 32 1)

theorem eyeBits_apply : ∀ g g' : Fin 4, eyeBits (ix2 g g') = if g = g' then 1#1 else 0#1 := by
  decide +kernel

/-- The mask as reals: 1 on the diagonal, 0 off it. -/
theorem eye_apply (g g' : Fin 4) : uitofp (F := Ideal) .f32 eyeBits (ix2 g g') = if g = g' then (1 : EReal) else 0 := by
  show (((eyeBits (ix2 g g')).toNat : ℝ) : EReal) = _
  rw [eyeBits_apply]
  split_ifs <;> simp

/-! ## Block-diagonal stacks -/

/-- kron(I₄, W[l]) for a stack of 32 × 32 blocks. -/
def kron32 (w : FVec F S5x32x32 .f32) : FVec F S5x128x128 .f32 :=
  shapeCast S5x128x128 (mulf
    (broadcastInDim S5x4x32x4x32 ![0, 1, 2, 3, 4] bcast_S1x4x1x4x1_S5x4x32x4x32_0_1_2_3_4
      (broadcastInDim S1x4x1x4x1 ![1, 3] bcast_S4x4_S1x4x1x4x1_1_3 (uitofp .f32 eyeBits)))
    (broadcastInDim S5x4x32x4x32 ![0, 1, 2, 3, 4] bcast_S5x1x32x1x32_S5x4x32x4x32_0_1_2_3_4
      (broadcastInDim S5x1x32x1x32 ![0, 2, 4] bcast_S5x32x32_S5x1x32x1x32_0_2_4 w))) shapeCasts_S5x4x32x4x32_S5x128x128

theorem kron32_apply (w : FVec Ideal S5x32x32 .f32) (i : Fin 5) (g : Fin 4) (f : Fin 32) (g' : Fin 4) (o : Fin 32) :
    kron32 (F := Ideal) w (ix3 i (lane g f) (lane g' o)) = if g = g' then w (ix3 i f o) else 0 := by
  unfold kron32
  rw [Cert.LibKronPlacement.merge_groups (P := 4) (a := 32) (c := 32) rfl rfl _ _ i g f g' o (lane g f) (lane g' o) rfl rfl]
  show broadcastInDim _ _ _ _ (ix5 i g f g' o) * broadcastInDim _ _ _ _ (ix5 i g f g' o) = _
  rw [Cert.LibKronPlacement.spread_mask, Cert.LibKronPlacement.place_mask, eye_apply,
    Cert.LibKronPlacement.spread_stack, Cert.LibKronPlacement.place_stack]
  split_ifs with h
  · exact one_mul _
  · exact zero_mul _

/-- kron(I₄, W[l]) for a stack of 16 × 32 blocks. -/
def kron16 (w : FVec F S5x16x32 .f32) : FVec F S5x64x128 .f32 :=
  shapeCast S5x64x128 (mulf
    (broadcastInDim S5x4x16x4x32 ![0, 1, 2, 3, 4] bcast_S1x4x1x4x1_S5x4x16x4x32_0_1_2_3_4
      (broadcastInDim S1x4x1x4x1 ![1, 3] bcast_S4x4_S1x4x1x4x1_1_3 (uitofp .f32 eyeBits)))
    (broadcastInDim S5x4x16x4x32 ![0, 1, 2, 3, 4] bcast_S5x1x16x1x32_S5x4x16x4x32_0_1_2_3_4
      (broadcastInDim S5x1x16x1x32 ![0, 2, 4] bcast_S5x16x32_S5x1x16x1x32_0_2_4 w))) shapeCasts_S5x4x16x4x32_S5x64x128

theorem kron16_apply (w : FVec Ideal S5x16x32 .f32) (i : Fin 5) (g : Fin 4) (d : Fin 16) (g' : Fin 4) (o : Fin 32) :
    kron16 (F := Ideal) w (ix3 i (lane16 g d) (lane g' o)) = if g = g' then w (ix3 i d o) else 0 := by
  unfold kron16
  rw [Cert.LibKronPlacement.merge_groups (P := 4) (a := 16) (c := 32) rfl rfl _ _ i g d g' o (lane16 g d) (lane g' o) rfl rfl]
  show broadcastInDim _ _ _ _ (ix5 i g d g' o) * broadcastInDim _ _ _ _ (ix5 i g d g' o) = _
  rw [Cert.LibKronPlacement.spread_mask, Cert.LibKronPlacement.place_mask, eye_apply,
    Cert.LibKronPlacement.spread_stack, Cert.LibKronPlacement.place_stack]
  split_ifs with h
  · exact one_mul _
  · exact zero_mul _

/-! ## Tiled biases -/

/-- A bias stack [5, 32] tiled four times along its last axis, as [5, 1, 128]. -/
def tile4 (b : FVec F S5x32 .f32) : FVec F S5x1x128 .f32 :=
  shapeCast S5x1x128 (shapeCast S5x128
    (broadcastInDim S1x5x4x32 ![0, 1, 2, 3] bcast_S1x5x1x32_S1x5x4x32_0_1_2_3 (shapeCast S1x5x1x32 b shapeCasts_S5x32_S1x5x1x32))
    shapeCasts_S1x5x4x32_S5x128) shapeCasts_S5x128_S5x1x128

private theorem val_eq_ite_one {n : ℕ} (i : Fin n) (m : ℕ) (hm : m = n) : i.val = if m = 1 then 0 else i.val := by
  subst hm
  split_ifs with h
  · have := i.isLt; omega
  · rfl

theorem tile4_apply {α : Type} (b : (S5x32 : Shape).Idx → α) (i : Fin 5) (u : Fin 1) (g : Fin 4) (o : Fin 32) :
    shapeCast S5x1x128 (shapeCast S5x128
      (broadcastInDim S1x5x4x32 ![0, 1, 2, 3] bcast_S1x5x1x32_S1x5x4x32_0_1_2_3 (shapeCast S1x5x1x32 b shapeCasts_S5x32_S1x5x1x32))
      shapeCasts_S1x5x4x32_S5x128) shapeCasts_S5x128_S5x1x128 (ix3 i u (lane g o)) = b (ix2 i o) := by
  have hu : u.val = 0 := by omega
  have hg := g.isLt
  have ho := o.isLt
  rw [shapeCast_apply _ shapeCasts_S5x128_S5x1x128 (ix3 i u (lane g o)) (ix2 i (lane g o)) (by
      rw [Shape.rowMajor_val_two, Shape.rowMajor_val_three]
      show i.val * 128 + (o.val + 32 * g.val) = (i.val * 1 + u.val) * 128 + (o.val + 32 * g.val)
      omega),
    shapeCast_apply _ shapeCasts_S1x5x4x32_S5x128 (ix2 i (lane g o)) (ix4 (0 : Fin 1) i g o) (by
      rw [Shape.rowMajor_val_four, Shape.rowMajor_val_two]
      show ((0 * 5 + i.val) * 4 + g.val) * 32 + o.val = i.val * 128 + (o.val + 32 * g.val)
      omega),
    broadcastInDim_apply _ bcast_S1x5x1x32_S1x5x4x32_0_1_2_3 _ (ix4 (0 : Fin 1) i g o) (ix4 (0 : Fin 1) i (0 : Fin 1) o) (fun t => match t with
      | ⟨0, _⟩ => (if_pos rfl).symm
      | ⟨1, _⟩ => val_eq_ite_one i _ rfl
      | ⟨2, _⟩ => (if_pos rfl).symm
      | ⟨3, _⟩ => val_eq_ite_one o _ rfl),
    shapeCast_apply _ shapeCasts_S5x32_S1x5x1x32 (ix4 (0 : Fin 1) i (0 : Fin 1) o) (ix2 i o) (by
      rw [Shape.rowMajor_val_two, Shape.rowMajor_val_four]
      show i.val * 32 + o.val = ((0 * 5 + i.val) * 1 + 0) * 32 + o.val
      omega)]

/-! ## The vertex-major packed vertices and the pre-gathered packed edges of a batch chunk -/

/-- Chunk rows [1024, 54, 32] transposed to vertex-major and packed four to a row: [54, 256, 128]. -/
theorem packV_apply {α : Type} (v : (S1024x54x32 : Shape).Idx → α) (n : Fin 54) (c' : Fin 256) (g : Fin 4) (f : Fin 32) :
    shapeCast S54x256x128 (transpose S54x1024x32 [1, 0, 2] v transposes_S1024x54x32_S54x1024x32_1_0_2) shapeCasts_S54x1024x32_S54x256x128
        (ix3 n c' (lane g f))
      = v (ix3 (⟨4 * c'.val + g.val, by have := c'.isLt; have := g.isLt; omega⟩ : Fin 1024) n f) := by
  have hc := c'.isLt
  have hg := g.isLt
  have hf := f.isLt
  rw [shapeCast_apply _ shapeCasts_S54x1024x32_S54x256x128 (ix3 n c' (lane g f))
      (ix3 n (⟨4 * c'.val + g.val, by omega⟩ : Fin 1024) f) (by
      rw [Shape.rowMajor_val_three, Shape.rowMajor_val_three]
      show (n.val * 1024 + (4 * c'.val + g.val)) * 32 + f.val = (n.val * 256 + c'.val) * 128 + (f.val + 32 * g.val)
      omega)]
  exact transpose_apply _ v _ _ _ (fun t => match t with | ⟨0, _⟩ => rfl | ⟨1, _⟩ => rfl | ⟨2, _⟩ => rfl)

/-- Chunk edges [1024, 72, 16] regrouped as [256, 4, 24, 3, 16], transposed to [3, 24, 256, 4, 16] and packed as
    [72, 256, 64]: row 24 j + w holds edge 3 w + j. -/
theorem packE_apply {α : Type} (e : (S1024x72x16 : Shape).Idx → α) (j : Fin 3) (w : Fin 24) (c' : Fin 256) (g : Fin 4) (d : Fin 16) :
    shapeCast S72x256x64 (transpose S3x24x256x4x16 [3, 2, 0, 1, 4]
        (shapeCast S256x4x24x3x16 e shapeCasts_S1024x72x16_S256x4x24x3x16) transposes_S256x4x24x3x16_S3x24x256x4x16_3_2_0_1_4)
        shapeCasts_S3x24x256x4x16_S72x256x64
        (ix3 (⟨24 * j.val + w.val, by have := j.isLt; have := w.isLt; omega⟩ : Fin 72) c' (lane16 g d))
      = e (ix3 (⟨4 * c'.val + g.val, by have := c'.isLt; have := g.isLt; omega⟩ : Fin 1024)
            (⟨3 * w.val + j.val, by have := j.isLt; have := w.isLt; omega⟩ : Fin 72) d) := by
  have hj := j.isLt
  have hw := w.isLt
  have hc := c'.isLt
  have hg := g.isLt
  have hd := d.isLt
  rw [shapeCast_apply _ shapeCasts_S3x24x256x4x16_S72x256x64 _ (ix5 j w c' g d) (by
      rw [Shape.rowMajor_val_five, Shape.rowMajor_val_three]
      show (((j.val * 24 + w.val) * 256 + c'.val) * 4 + g.val) * 16 + d.val
        = ((24 * j.val + w.val) * 256 + c'.val) * 64 + (d.val + 16 * g.val)
      omega),
    transpose_apply _ _ transposes_S256x4x24x3x16_S3x24x256x4x16_3_2_0_1_4 (ix5 j w c' g d) (ix5 c' g w j d)
      (fun t => match t with | ⟨0, _⟩ => rfl | ⟨1, _⟩ => rfl | ⟨2, _⟩ => rfl | ⟨3, _⟩ => rfl | ⟨4, _⟩ => rfl)]
  exact shapeCast_apply _ shapeCasts_S1024x72x16_S256x4x24x3x16 (ix5 c' g w j d) _ (by
    rw [Shape.rowMajor_val_three, Shape.rowMajor_val_five]
    show ((4 * c'.val + g.val) * 72 + (3 * w.val + j.val)) * 16 + d.val
      = (((c'.val * 4 + g.val) * 24 + w.val) * 3 + j.val) * 16 + d.val
    omega)

/-- A region's result [54, 256, 128] unpacked to [54, 1024, 32] and restored to batch-major [1024, 54, 32]. -/
theorem unpack_apply {α : Type} (y : (S54x256x128 : Shape).Idx → α) (c' : Fin 256) (g : Fin 4) (n : Fin 54) (o : Fin 32) :
    transpose S1024x54x32 [1, 0, 2] (shapeCast S54x1024x32 y shapeCasts_S54x256x128_S54x1024x32) transposes_S54x1024x32_S1024x54x32_1_0_2
        (ix3 (⟨4 * c'.val + g.val, by have := c'.isLt; have := g.isLt; omega⟩ : Fin 1024) n o)
      = y (ix3 n c' (lane g o)) := by
  have hc := c'.isLt
  have hg := g.isLt
  have ho := o.isLt
  rw [transpose_apply _ _ transposes_S54x1024x32_S1024x54x32_1_0_2 _ (ix3 n (⟨4 * c'.val + g.val, by omega⟩ : Fin 1024) o)
    (fun t => match t with | ⟨0, _⟩ => rfl | ⟨1, _⟩ => rfl | ⟨2, _⟩ => rfl)]
  exact shapeCast_apply _ shapeCasts_S54x256x128_S54x1024x32 _ (ix3 n c' (lane g o)) (by
    rw [Shape.rowMajor_val_three, Shape.rowMajor_val_three]
    show (n.val * 256 + c'.val) * 128 + (o.val + 32 * g.val) = (n.val * 1024 + (4 * c'.val + g.val)) * 32 + o.val
    omega)

/-! ## The block-diagonal ones matrix -/

/-- kron(I₄, ones(32, 32)) as the outlined function builds it. -/
def onesBd : FVec F S128x128 .f32 :=
  shapeCast S128x128 (mulf
    (broadcastInDim S4x32x4x32 ![0, 1, 2, 3] bcast_S4x1x4x1_S4x32x4x32_0_1_2_3
      (broadcastInDim S4x1x4x1 ![0, 2] bcast_S4x4_S4x1x4x1_0_2 (uitofp .f32 eyeBits)))
    (broadcastInDim S4x32x4x32 ![0, 1, 2, 3] bcast_S1x32x1x32_S4x32x4x32_0_1_2_3
      (broadcastInDim S1x32x1x32 ![1, 3] bcast_S32x32_S1x32x1x32_1_3
        (broadcastInDim S32x32 ![] bcast_S_S32x32 (constant S_ .f32 0x3F800000#32))))) shapeCasts_S4x32x4x32_S128x128

/-- The f32 pattern 0x3F800000 is the real number 1. -/
theorem ofBits_one : Ideal.ofBits .f32 0x3F800000#32 = (1 : EReal) := Ideal.ofBits_one_f32

theorem onesBd_apply (g : Fin 4) (f : Fin 32) (g' : Fin 4) (o : Fin 32) :
    onesBd (F := Ideal) (ix2 (lane g f) (lane g' o)) = if g = g' then (1 : EReal) else 0 := by
  have hg := g.isLt
  have hf := f.isLt
  have hg' := g'.isLt
  have ho := o.isLt
  unfold onesBd
  rw [shapeCast_apply _ shapeCasts_S4x32x4x32_S128x128 (ix2 (lane g f) (lane g' o)) (ix4 g f g' o) (by
      rw [Shape.rowMajor_val_four, Shape.rowMajor_val_two]
      show ((g.val * 32 + f.val) * 4 + g'.val) * 32 + o.val = (f.val + 32 * g.val) * 128 + (o.val + 32 * g'.val)
      omega)]
  show broadcastInDim _ _ _ _ (ix4 g f g' o) * broadcastInDim _ _ _ _ (ix4 g f g' o) = _
  rw [broadcastInDim_apply _ bcast_S4x1x4x1_S4x32x4x32_0_1_2_3 _ (ix4 g f g' o) (ix4 g (0 : Fin 1) g' (0 : Fin 1)) (fun t => match t with
      | ⟨0, _⟩ => val_eq_ite_one g _ rfl
      | ⟨1, _⟩ => (if_pos rfl).symm
      | ⟨2, _⟩ => val_eq_ite_one g' _ rfl
      | ⟨3, _⟩ => (if_pos rfl).symm),
    broadcastInDim_apply _ bcast_S4x4_S4x1x4x1_0_2 _ (ix4 g (0 : Fin 1) g' (0 : Fin 1)) (ix2 g g') (fun t => match t with
      | ⟨0, _⟩ => val_eq_ite_one g _ rfl
      | ⟨1, _⟩ => val_eq_ite_one g' _ rfl),
    eye_apply,
    broadcastInDim_apply _ bcast_S1x32x1x32_S4x32x4x32_0_1_2_3 _ (ix4 g f g' o) (ix4 (0 : Fin 1) f (0 : Fin 1) o) (fun t => match t with
      | ⟨0, _⟩ => (if_pos rfl).symm
      | ⟨1, _⟩ => val_eq_ite_one f _ rfl
      | ⟨2, _⟩ => (if_pos rfl).symm
      | ⟨3, _⟩ => val_eq_ite_one o _ rfl),
    broadcastInDim_apply _ bcast_S32x32_S1x32x1x32_1_3 _ (ix4 (0 : Fin 1) f (0 : Fin 1) o) (ix2 f o) (fun t => match t with
      | ⟨0, _⟩ => val_eq_ite_one f _ rfl
      | ⟨1, _⟩ => val_eq_ite_one o _ rfl),
    broadcastInDim_scalar_apply, constant_apply, ofBits_one, mul_one]

end Cert.KHost

end
-- ==== Proof.KIBodyEq0.lean ====
/-
  THE BODY OF REGION 0 IS FIVE LAYERS. The block the body of region 0 leaves (the composition of its payloads, KIRegion0.lean)
  is the update of layer 4 on four normalising layers (KLayer.lean), each layer reading its six parameter slices at
  its own offset of the stacked parameter blocks: the two are one term once the payloads and the layer functions are
  unfolded.
-/
import proofs.«182073_g78494822302262_cont_9to1_m_206_7_alg».proof.Proof.KIRegion0
import proofs.«182073_g78494822302262_cont_9to1_m_206_7_alg».proof.Proof.KLayer

set_option maxRecDepth 65536

noncomputable section

namespace Cert.KernelIdeal.Hand

open Cert.KernelIdeal Cert.KernelIdeal.Gen Idealize.ShloMosaic

variable {F : FTy → Type} [FloatOps F]

/-- The layer's input block, the edge block and the ones matrix as the body first casts them. -/
abbrev X0 (x0 : Vec F S54x128x128 .f32) : FVec F S54x128x128 .f32 :=
  shapeCast S54x128x128 (View.ld x0 rOut0) shapeCasts_S54x128x128_S54x128x128
abbrev E0 (x1 : Vec F S72x128x64 .f32) : FVec F S72x128x64 .f32 :=
  shapeCast S72x128x64 (View.ld x1 (Rect.unit (s := S72x128x64) ![0, 0, 0] S72x128x64.size inb_S72x128x64_S72x128x64_0_0_0)) shapeCasts_S72x128x64_S72x128x64
abbrev O0 (x8 : Vec F S128x128 .f32) : FVec F S128x128 .f32 :=
  shapeCast S128x128 (View.ld x8 (Rect.unit (s := S128x128) ![0, 0] S128x128.size inb_S128x128_S128x128_0_0)) shapeCasts_S128x128_S128x128

set_option maxHeartbeats 8000000 in
theorem bodyVal0_eq (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) :
    bodyVal0 x0 x1 x2 x3 x4 x5 x6 x7 x8
      = Cert.KLayer.linB
          (Cert.KLayer.layerB
            (Cert.KLayer.layerB
              (Cert.KLayer.layerB
                (Cert.KLayer.layerB (X0 x0) (E0 x1) (O0 x8) (View.ld x2 (Rect.unit (s := S5x128x128) ![0, 0, 0] S1x128x128.size inb_S5x128x128_S1x128x128_0_0_0)) (View.ld x3 (Rect.unit (s := S5x64x128) ![0, 0, 0] S1x64x128.size inb_S5x64x128_S1x64x128_0_0_0)) (View.ld x6 (Rect.unit (s := S5x1x128) ![0, 0, 0] S1x1x128.size inb_S5x1x128_S1x1x128_0_0_0)) (View.ld x4 (Rect.unit (s := S5x128x128) ![0, 0, 0] S1x128x128.size inb_S5x128x128_S1x128x128_0_0_0)) (View.ld x5 (Rect.unit (s := S5x128x128) ![0, 0, 0] S1x128x128.size inb_S5x128x128_S1x128x128_0_0_0)) (View.ld x7 (Rect.unit (s := S5x1x128) ![0, 0, 0] S1x1x128.size inb_S5x1x128_S1x1x128_0_0_0)))
                (E0 x1) (O0 x8) (View.ld x2 (Rect.unit (s := S5x128x128) ![1, 0, 0] S1x128x128.size inb_S5x128x128_S1x128x128_1_0_0)) (View.ld x3 (Rect.unit (s := S5x64x128) ![1, 0, 0] S1x64x128.size inb_S5x64x128_S1x64x128_1_0_0)) (View.ld x6 (Rect.unit (s := S5x1x128) ![1, 0, 0] S1x1x128.size inb_S5x1x128_S1x1x128_1_0_0)) (View.ld x4 (Rect.unit (s := S5x128x128) ![1, 0, 0] S1x128x128.size inb_S5x128x128_S1x128x128_1_0_0)) (View.ld x5 (Rect.unit (s := S5x128x128) ![1, 0, 0] S1x128x128.size inb_S5x128x128_S1x128x128_1_0_0)) (View.ld x7 (Rect.unit (s := S5x1x128) ![1, 0, 0] S1x1x128.size inb_S5x1x128_S1x1x128_1_0_0)))
              (E0 x1) (O0 x8) (View.ld x2 (Rect.unit (s := S5x128x128) ![2, 0, 0] S1x128x128.size inb_S5x128x128_S1x128x128_2_0_0)) (View.ld x3 (Rect.unit (s := S5x64x128) ![2, 0, 0] S1x64x128.size inb_S5x64x128_S1x64x128_2_0_0)) (View.ld x6 (Rect.unit (s := S5x1x128) ![2, 0, 0] S1x1x128.size inb_S5x1x128_S1x1x128_2_0_0)) (View.ld x4 (Rect.unit (s := S5x128x128) ![2, 0, 0] S1x128x128.size inb_S5x128x128_S1x128x128_2_0_0)) (View.ld x5 (Rect.unit (s := S5x128x128) ![2, 0, 0] S1x128x128.size inb_S5x128x128_S1x128x128_2_0_0)) (View.ld x7 (Rect.unit (s := S5x1x128) ![2, 0, 0] S1x1x128.size inb_S5x1x128_S1x1x128_2_0_0)))
            (E0 x1) (O0 x8) (View.ld x2 (Rect.unit (s := S5x128x128) ![3, 0, 0] S1x128x128.size inb_S5x128x128_S1x128x128_3_0_0)) (View.ld x3 (Rect.unit (s := S5x64x128) ![3, 0, 0] S1x64x128.size inb_S5x64x128_S1x64x128_3_0_0)) (View.ld x6 (Rect.unit (s := S5x1x128) ![3, 0, 0] S1x1x128.size inb_S5x1x128_S1x1x128_3_0_0)) (View.ld x4 (Rect.unit (s := S5x128x128) ![3, 0, 0] S1x128x128.size inb_S5x128x128_S1x128x128_3_0_0)) (View.ld x5 (Rect.unit (s := S5x128x128) ![3, 0, 0] S1x128x128.size inb_S5x128x128_S1x128x128_3_0_0)) (View.ld x7 (Rect.unit (s := S5x1x128) ![3, 0, 0] S1x1x128.size inb_S5x1x128_S1x1x128_3_0_0)))
          (E0 x1) (View.ld x2 (Rect.unit (s := S5x128x128) ![4, 0, 0] S1x128x128.size inb_S5x128x128_S1x128x128_4_0_0)) (View.ld x3 (Rect.unit (s := S5x64x128) ![4, 0, 0] S1x64x128.size inb_S5x64x128_S1x64x128_4_0_0)) (View.ld x6 (Rect.unit (s := S5x1x128) ![4, 0, 0] S1x1x128.size inb_S5x1x128_S1x1x128_4_0_0)) (View.ld x4 (Rect.unit (s := S5x128x128) ![4, 0, 0] S1x128x128.size inb_S5x128x128_S1x128x128_4_0_0)) (View.ld x5 (Rect.unit (s := S5x128x128) ![4, 0, 0] S1x128x128.size inb_S5x128x128_S1x128x128_4_0_0)) (View.ld x7 (Rect.unit (s := S5x1x128) ![4, 0, 0] S1x1x128.size inb_S5x1x128_S1x1x128_4_0_0)) := by
  unfold bodyVal0 k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 Cert.KLayer.linB Cert.KLayer.layerB Cert.KLayer.unitB Cert.KLayer.aggB Cert.KLayer.biasB Cert.KLayer.mm Cert.KLayer.mmE
  rfl

end Cert.KernelIdeal.Hand

end
-- ==== Proof.KNet.lean ====
/-
  THE BODY'S FIVE LAYERS ON ONE BATCH ELEMENT. Four normalising layers and the update of layer 4 (KLayer.lean), each with
  its own packed parameter slices, on a block whose row r, group g holds batch element b of a batch of B: the result at
  (n, r, 32 g + o) is the network (Spec.lean, the spelling that multiplies by the reciprocal square root) at (b, n, o) —
  a layer computes a batch element from its own data only, so the block's layers compose as the network's do.
-/
import proofs.«182073_g78494822302262_cont_9to1_m_206_7_alg».proof.Proof.KLayerAt

noncomputable section

namespace Cert.KNet

open Cert.KernelIdeal Idealize.ShloMosaic Idealize.ShloMosaic.ValueIdx
open Cert.KLayer Cert.KLayerAt

variable {B : ℕ} (eW : Fin 5 → Fin 48 → Fin 32 → EReal) (eb : Fin 5 → Fin 32 → EReal) (hW : Fin 5 → Fin 64 → Fin 32 → EReal)
  (hb : Fin 5 → Fin 32 → EReal)
  (wp : Fin 5 → Vec Ideal S1x128x128 .f32) (we : Fin 5 → Vec Ideal S1x64x128 .f32) (ebs : Fin 5 → Vec Ideal S1x1x128 .f32)
  (wh1 wh2 : Fin 5 → Vec Ideal S1x128x128 .f32) (hbs : Fin 5 → Vec Ideal S1x1x128 .f32)
  (hP : ∀ i : Fin 5, Packed (eW i) (eb i) (hW i) (hb i) (wp i) (we i) (ebs i) (wh1 i) (wh2 i) (hbs i))
  (ones : FVec Ideal S128x128 .f32)
  (hO : ∀ (g : Fin 4) (f : Fin 32) (g' : Fin 4) (o : Fin 32), ones (ix2 (lane g f) (lane g' o)) = if g = g' then 1 else 0)
  (X : FVec Ideal S54x128x128 .f32) (E3 : FVec Ideal S72x128x64 .f32) (r : Fin 128) (g : Fin 4)
  (VF : Fin B → Fin 54 → Fin 32 → EReal) (E : Fin B → Fin 72 → Fin 16 → EReal) (b : Fin B)
  (hX : ∀ (n : Fin 54) (f : Fin 32), X (ix3 n r (lane g f)) = VF b n f)
  (hE : ∀ (j : Fin 3) (w : Fin 24) (d : Fin 16),
    E3 (ix3 (⟨24 * j.val + w.val, by have := j.isLt; have := w.isLt; omega⟩ : Fin 72) r (lane16 g d))
      = E b ⟨3 * w.val + j.val, by have := j.isLt; have := w.isLt; omega⟩ d)

include hP hO hE in
/-- A normalising layer with layer i's slices on a block holding the network's state i for the batch element is the
    state i + 1 for it. -/
theorem layer_step (i : Fin 5) (Y : FVec Ideal S54x128x128 .f32) (k : ℕ) (hk : k % 5 = i.val)
    (hY : ∀ (n : Fin 54) (f : Fin 32), Y (ix3 n r (lane g f)) = Cert.Spec.stateMul eW eb hW hb E VF k b n f)
    (n : Fin 54) (o : Fin 32) :
    layerB (F := Ideal) Y E3 ones (wp i) (we i) (ebs i) (wh1 i) (wh2 i) (hbs i) (ix3 n r (lane g o))
      = Cert.Spec.stateMul eW eb hW hb E VF (k + 1) b n o := by
  rw [layerB_apply (hP i) Y E3 r g (fun n f => Cert.Spec.stateMul eW eb hW hb E VF k b n f) (E b) hY hE ones hO n o]
  have hi : (⟨k % 5, Nat.mod_lt _ (by decide)⟩ : Fin 5) = i := Fin.ext hk
  show _ = Cert.Spec.layerMul (eW ⟨k % 5, _⟩) (eb ⟨k % 5, _⟩) (hW ⟨k % 5, _⟩) (hb ⟨k % 5, _⟩) E (Cert.Spec.stateMul eW eb hW hb E VF k) b n o
  rw [hi]
  exact Cert.Spec.layerMul_congr (eW i) (eb i) (hW i) (hb i) _ _ _ _ 0 b (fun _ _ => rfl) (fun _ _ => rfl) n o

include hP hO hX hE in
/-- The five layers on the block, at (n, r, 32 g + o): the network at (b, n, o). -/
theorem net_apply (n : Fin 54) (o : Fin 32) :
    linB (F := Ideal)
        (layerB (layerB (layerB (layerB X E3 ones (wp 0) (we 0) (ebs 0) (wh1 0) (wh2 0) (hbs 0))
          E3 ones (wp 1) (we 1) (ebs 1) (wh1 1) (wh2 1) (hbs 1))
          E3 ones (wp 2) (we 2) (ebs 2) (wh1 2) (wh2 2) (hbs 2))
          E3 ones (wp 3) (we 3) (ebs 3) (wh1 3) (wh2 3) (hbs 3))
        E3 (wp 4) (we 4) (ebs 4) (wh1 4) (wh2 4) (hbs 4) (ix3 n r (lane g o))
      = Cert.Spec.netMul eW eb hW hb E VF b n o := by
  have h1 := layer_step eW eb hW hb wp we ebs wh1 wh2 hbs hP ones hO E3 r g VF E b hE 0 X 0 rfl hX
  have h2 := layer_step eW eb hW hb wp we ebs wh1 wh2 hbs hP ones hO E3 r g VF E b hE 1 _ 1 rfl h1
  have h3 := layer_step eW eb hW hb wp we ebs wh1 wh2 hbs hP ones hO E3 r g VF E b hE 2 _ 2 rfl h2
  have h4 := layer_step eW eb hW hb wp we ebs wh1 wh2 hbs hP ones hO E3 r g VF E b hE 3 _ 3 rfl h3
  rw [linB_apply (hP 4) _ E3 r g (fun n f => Cert.Spec.stateMul eW eb hW hb E VF 4 b n f) (E b) h4 hE n o]
  exact Cert.Spec.lin_congr (eW 4) (eb 4) (hW 4) (hb 4) _ _ _ _ 0 b (fun _ _ => rfl) (fun _ _ => rfl) n o

end Cert.KNet

end
-- ==== Proof.LibStackLoad.lean ====
/-
  A LOAD OF ONE LAYER'S SLICE OF A STACKED BLOCK, READ AT AN INDEX. The body loads layer i's parameters through the
  rectangle at offset (i, 0, 0) of a stacked block [L, a, b], of extent [1, a, b]: the loaded slice at (0, k, l) is the
  block's entry (i, k, l).
-/
import Idealize.ShloMosaic.Lib.Pipeline.FrameBody
import Idealize.ShloMosaic.Lib.Pipeline.Value
import Idealize.ShloMosaic.Lib.ValueIdx

namespace Cert.LibStackLoad

open Idealize.ShloMosaic Idealize.ShloMosaic.ValueIdx

theorem ld_slice_apply {Val : EltTy → Type} {e' : EltTy} {L a b : ℕ} (X : (⟨3, ![L, a, b]⟩ : Shape).Idx → Val e') (i : ℕ) (hi : i < L)
    (inb : ∀ t : Fin 3, (![i, 0, 0] : Fin 3 → ℕ) t + (⟨3, ![1, a, b]⟩ : Shape).size t ≤ (⟨3, ![L, a, b]⟩ : Shape).size t)
    (k : Fin a) (l : Fin b) :
    View.ld (Val := Val) (e' := e') X (Rect.unit (s := ⟨3, ![L, a, b]⟩) ![i, 0, 0] (⟨3, ![1, a, b]⟩ : Shape).size inb)
        (ix3 (0 : Fin 1) k l)
      = X (ix3 (⟨i, hi⟩ : Fin L) k l) := by
  show X _ = X _
  congr 1
  funext t
  apply Fin.ext
  match t with
  | ⟨0, _⟩ => simp only [LoadRect.idx_apply, Rect.off_unit, Rect.stride_unit, Nat.one_mul]; rfl
  | ⟨1, _⟩ => simp only [LoadRect.idx_apply, Rect.off_unit, Rect.stride_unit, Nat.one_mul]; exact Nat.zero_add _
  | ⟨2, _⟩ => simp only [LoadRect.idx_apply, Rect.off_unit, Rect.stride_unit, Nat.one_mul]; exact Nat.zero_add _

end Cert.LibStackLoad
-- ==== Proof.KIValue0.lean ====
/-
  WHAT REGION 0 LEAVES IN ITS OUTPUT ARRAY. If, when the region is entered, the packed vertex array holds batch element
  1024·0 + 4 c' + g of the vertices in group g of row c', the packed edge array that element's edge 3 w + j in row 24 j + w,
  the four weight arrays the block-diagonal stacks, the two bias arrays the biases tiled four times and the ones array
  the block-diagonal ones, then after the region every entry (n, c', 32 g + o) of the output array is the network
  (Spec.lean, the spelling that multiplies by the reciprocal square root) at (1024·0 + 4 c' + g, n, o): each grid point
  writes back the body's five layers of its blocks (KIBodyEq0, KNet), and the two points' blocks cover the array.
-/
import proofs.«182073_g78494822302262_cont_9to1_m_206_7_alg».proof.Proof.KIBodyEq0
import proofs.«182073_g78494822302262_cont_9to1_m_206_7_alg».proof.Proof.KNet
import proofs.«182073_g78494822302262_cont_9to1_m_206_7_alg».proof.Proof.LibStackLoad
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window BodyObligation cellOf)
open Cert.KLayerAt

variable (V : (c : Dev nD) → (b : Ref sig .tc) → Buf (Elt Ideal) ((c : Thread nD τ).loc b))

theorem hz3_0 : (![0, 0, 0] : Fin 3 → Nat) = fun _ => 0 := funext fun a => by fin_cases a <;> rfl

/-- What grid point t writes back: the body's result block of the input blocks at t. -/
theorem flushed0_eq (c : Dev nD) (t : Fin cfg0.N) :
    (dat0 (F := Ideal) V c).flushed 9 t = bodyVal0 (iblk0 V c 0 t) (iblk0 V c 1 t) (iblk0 V c 2 t) (iblk0 V c 3 t) (iblk0 V c 4 t) (iblk0 V c 5 t) (iblk0 V c 6 t) (iblk0 V c 7 t) (iblk0 V c 8 t) := by
  show (cfg0.win 9).cut (grid0.coords t) ((dat0 (F := Ideal) V c).after 9 t) = _
  rw [after0_9]
  unfold out0_9
  rw [View.canon_unit_zero hz3_0]
  rfl

/-! ## Where the blocks sit -/

/-- The printed index maps over the grid's two points: the vertex, edge and output windows move along axis 1 with the
    point, the parameter windows stay. -/
theorem idx_facts0 : ∀ t : Fin cfg0.N,
    (win0_0.index t (0 : Fin 3) = 0 ∧ win0_0.index t (1 : Fin 3) = t.val ∧ win0_0.index t (2 : Fin 3) = 0) ∧ (win0_1.index t (0 : Fin 3) = 0 ∧ win0_1.index t (1 : Fin 3) = t.val ∧ win0_1.index t (2 : Fin 3) = 0) ∧ (win0_9.index t (0 : Fin 3) = 0 ∧ win0_9.index t (1 : Fin 3) = t.val ∧ win0_9.index t (2 : Fin 3) = 0)
    ∧ (win0_2.index t (0 : Fin 3) = 0 ∧ win0_2.index t (1 : Fin 3) = 0 ∧ win0_2.index t (2 : Fin 3) = 0) ∧ (win0_3.index t (0 : Fin 3) = 0 ∧ win0_3.index t (1 : Fin 3) = 0 ∧ win0_3.index t (2 : Fin 3) = 0) ∧ (win0_4.index t (0 : Fin 3) = 0 ∧ win0_4.index t (1 : Fin 3) = 0 ∧ win0_4.index t (2 : Fin 3) = 0) ∧ (win0_5.index t (0 : Fin 3) = 0 ∧ win0_5.index t (1 : Fin 3) = 0 ∧ win0_5.index t (2 : Fin 3) = 0) ∧ (win0_6.index t (0 : Fin 3) = 0 ∧ win0_6.index t (1 : Fin 3) = 0 ∧ win0_6.index t (2 : Fin 3) = 0) ∧ (win0_7.index t (0 : Fin 3) = 0 ∧ win0_7.index t (1 : Fin 3) = 0 ∧ win0_7.index t (2 : Fin 3) = 0)
    ∧ (win0_8.index t (0 : Fin 2) = 0 ∧ win0_8.index t (1 : Fin 2) = 0) :=
  (by decide +kernel : ∀ t : Fin grid0.N, _)

/-- The vertex window's block at point t, row r of the block: row 128 t + r of the packed array. -/
theorem iblk0_0_apply (c : Dev nD) (t : Fin cfg0.N) (n : Fin 54) (r : Fin 128) (l : Fin 128) :
    iblk0 (F := Ideal) V c 0 t (ix3 n r l)
      = V c main_v71 (ix3 n (⟨128 * t.val + r.val, by have := t.isLt; have hN : cfg0.N = 2 := N_0; have := r.isLt; omega⟩ : Fin 256) l) := by
  show V c main_v71 (((cfg0.win 0).blk t).view.emb (ix3 n r l)) = _
  obtain ⟨⟨e0, e1, e2⟩, -⟩ := idx_facts0 t
  refine congrArg (V c main_v71) (funext fun a => Fin.ext ?_)
  match a with
  | ⟨0, _⟩ => show win0_0.index t (0 : Fin 3) * 54 + 1 * n.val = n.val; omega
  | ⟨1, _⟩ => show win0_0.index t (1 : Fin 3) * 128 + 1 * r.val = 128 * t.val + r.val; omega
  | ⟨2, _⟩ => show win0_0.index t (2 : Fin 3) * 128 + 1 * l.val = l.val; omega

/-- The edge window's block at point t. -/
theorem iblk0_1_apply (c : Dev nD) (t : Fin cfg0.N) (m' : Fin 72) (r : Fin 128) (l : Fin 64) :
    iblk0 (F := Ideal) V c 1 t (ix3 m' r l)
      = V c main_v74 (ix3 m' (⟨128 * t.val + r.val, by have := t.isLt; have hN : cfg0.N = 2 := N_0; have := r.isLt; omega⟩ : Fin 256) l) := by
  show V c main_v74 (((cfg0.win 1).blk t).view.emb (ix3 m' r l)) = _
  obtain ⟨-, ⟨e0, e1, e2⟩, -⟩ := idx_facts0 t
  refine congrArg (V c main_v74) (funext fun a => Fin.ext ?_)
  match a with
  | ⟨0, _⟩ => show win0_1.index t (0 : Fin 3) * 72 + 1 * m'.val = m'.val; omega
  | ⟨1, _⟩ => show win0_1.index t (1 : Fin 3) * 128 + 1 * r.val = 128 * t.val + r.val; omega
  | ⟨2, _⟩ => show win0_1.index t (2 : Fin 3) * 64 + 1 * l.val = l.val; omega

/-- Input window 2's block (the whole array) at a grid point. -/
theorem iblk0_2_apply (c : Dev nD) (t : Fin cfg0.N) (i : Fin 5) (k : Fin 128) (l : Fin 128) :
    iblk0 (F := Ideal) V c 2 t (ix3 i k l) = V c main_v13 (ix3 i k l) := by
  show V c main_v13 (((cfg0.win 2).blk t).view.emb (ix3 i k l)) = _
  obtain ⟨-, -, -, h2, h3, h4, h5, h6, h7, -⟩ := idx_facts0 t
  refine congrArg (V c main_v13) (funext fun a => Fin.ext ?_)
  obtain ⟨e0, e1, e2⟩ := h2
  match a with
  | ⟨0, _⟩ => show win0_2.index t (0 : Fin 3) * 5 + 1 * i.val = i.val; omega
  | ⟨1, _⟩ => show win0_2.index t (1 : Fin 3) * 128 + 1 * k.val = k.val; omega
  | ⟨2, _⟩ => show win0_2.index t (2 : Fin 3) * 128 + 1 * l.val = l.val; omega

/-- Input window 3's block (the whole array) at a grid point. -/
theorem iblk0_3_apply (c : Dev nD) (t : Fin cfg0.N) (i : Fin 5) (k : Fin 64) (l : Fin 128) :
    iblk0 (F := Ideal) V c 3 t (ix3 i k l) = V c main_v25 (ix3 i k l) := by
  show V c main_v25 (((cfg0.win 3).blk t).view.emb (ix3 i k l)) = _
  obtain ⟨-, -, -, h2, h3, h4, h5, h6, h7, -⟩ := idx_facts0 t
  refine congrArg (V c main_v25) (funext fun a => Fin.ext ?_)
  obtain ⟨e0, e1, e2⟩ := h3
  match a with
  | ⟨0, _⟩ => show win0_3.index t (0 : Fin 3) * 5 + 1 * i.val = i.val; omega
  | ⟨1, _⟩ => show win0_3.index t (1 : Fin 3) * 64 + 1 * k.val = k.val; omega
  | ⟨2, _⟩ => show win0_3.index t (2 : Fin 3) * 128 + 1 * l.val = l.val; omega

/-- Input window 4's block (the whole array) at a grid point. -/
theorem iblk0_4_apply (c : Dev nD) (t : Fin cfg0.N) (i : Fin 5) (k : Fin 128) (l : Fin 128) :
    iblk0 (F := Ideal) V c 4 t (ix3 i k l) = V c main_v38 (ix3 i k l) := by
  show V c main_v38 (((cfg0.win 4).blk t).view.emb (ix3 i k l)) = _
  obtain ⟨-, -, -, h2, h3, h4, h5, h6, h7, -⟩ := idx_facts0 t
  refine congrArg (V c main_v38) (funext fun a => Fin.ext ?_)
  obtain ⟨e0, e1, e2⟩ := h4
  match a with
  | ⟨0, _⟩ => show win0_4.index t (0 : Fin 3) * 5 + 1 * i.val = i.val; omega
  | ⟨1, _⟩ => show win0_4.index t (1 : Fin 3) * 128 + 1 * k.val = k.val; omega
  | ⟨2, _⟩ => show win0_4.index t (2 : Fin 3) * 128 + 1 * l.val = l.val; omega

/-- Input window 5's block (the whole array) at a grid point. -/
theorem iblk0_5_apply (c : Dev nD) (t : Fin cfg0.N) (i : Fin 5) (k : Fin 128) (l : Fin 128) :
    iblk0 (F := Ideal) V c 5 t (ix3 i k l) = V c main_v51 (ix3 i k l) := by
  show V c main_v51 (((cfg0.win 5).blk t).view.emb (ix3 i k l)) = _
  obtain ⟨-, -, -, h2, h3, h4, h5, h6, h7, -⟩ := idx_facts0 t
  refine congrArg (V c main_v51) (funext fun a => Fin.ext ?_)
  obtain ⟨e0, e1, e2⟩ := h5
  match a with
  | ⟨0, _⟩ => show win0_5.index t (0 : Fin 3) * 5 + 1 * i.val = i.val; omega
  | ⟨1, _⟩ => show win0_5.index t (1 : Fin 3) * 128 + 1 * k.val = k.val; omega
  | ⟨2, _⟩ => show win0_5.index t (2 : Fin 3) * 128 + 1 * l.val = l.val; omega

/-- Input window 6's block (the whole array) at a grid point. -/
theorem iblk0_6_apply (c : Dev nD) (t : Fin cfg0.N) (i : Fin 5) (k : Fin 1) (l : Fin 128) :
    iblk0 (F := Ideal) V c 6 t (ix3 i k l) = V c main_v55 (ix3 i k l) := by
  show V c main_v55 (((cfg0.win 6).blk t).view.emb (ix3 i k l)) = _
  obtain ⟨-, -, -, h2, h3, h4, h5, h6, h7, -⟩ := idx_facts0 t
  refine congrArg (V c main_v55) (funext fun a => Fin.ext ?_)
  obtain ⟨e0, e1, e2⟩ := h6
  match a with
  | ⟨0, _⟩ => show win0_6.index t (0 : Fin 3) * 5 + 1 * i.val = i.val; omega
  | ⟨1, _⟩ => show win0_6.index t (1 : Fin 3) * 1 + 1 * k.val = k.val; omega
  | ⟨2, _⟩ => show win0_6.index t (2 : Fin 3) * 128 + 1 * l.val = l.val; omega

/-- Input window 7's block (the whole array) at a grid point. -/
theorem iblk0_7_apply (c : Dev nD) (t : Fin cfg0.N) (i : Fin 5) (k : Fin 1) (l : Fin 128) :
    iblk0 (F := Ideal) V c 7 t (ix3 i k l) = V c main_v59 (ix3 i k l) := by
  show V c main_v59 (((cfg0.win 7).blk t).view.emb (ix3 i k l)) = _
  obtain ⟨-, -, -, h2, h3, h4, h5, h6, h7, -⟩ := idx_facts0 t
  refine congrArg (V c main_v59) (funext fun a => Fin.ext ?_)
  obtain ⟨e0, e1, e2⟩ := h7
  match a with
  | ⟨0, _⟩ => show win0_7.index t (0 : Fin 3) * 5 + 1 * i.val = i.val; omega
  | ⟨1, _⟩ => show win0_7.index t (1 : Fin 3) * 1 + 1 * k.val = k.val; omega
  | ⟨2, _⟩ => show win0_7.index t (2 : Fin 3) * 128 + 1 * l.val = l.val; omega

/-- The ones window's block (the whole matrix) at a grid point. -/
theorem iblk0_8_apply (c : Dev nD) (t : Fin cfg0.N) (k : Fin 128) (l : Fin 128) :
    iblk0 (F := Ideal) V c 8 t (ix2 k l) = V c main_v67 (ix2 k l) := by
  show V c main_v67 (((cfg0.win 8).blk t).view.emb (ix2 k l)) = _
  obtain ⟨-, -, -, -, -, -, -, -, -, e0, e1⟩ := idx_facts0 t
  refine congrArg (V c main_v67) (funext fun a => Fin.ext ?_)
  match a with
  | ⟨0, _⟩ => show win0_8.index t (0 : Fin 2) * 128 + 1 * k.val = k.val; omega
  | ⟨1, _⟩ => show win0_8.index t (1 : Fin 2) * 128 + 1 * l.val = l.val; omega

/-! ## The output array after the region -/

section Final

variable (a0 : FVec Ideal S4096x54x32 .f32) (a1 : FVec Ideal S4096x72x16 .f32) (a2 : FVec Ideal S5x48x32 .f32)
  (a3 : FVec Ideal S5x32 .f32) (a4 : FVec Ideal S5x64x32 .f32) (a5 : FVec Ideal S5x32 .f32)

/-- What the region-entry contents hold at the lanes of each batch element of chunk 0. -/
structure Entry0 (c : Dev nD) : Prop where
  vt : ∀ (n : Fin 54) (c' : Fin 256) (g : Fin 4) (f : Fin 32), V c main_v71 (ix3 n c' (lane g f))
    = a0 (ix3 (⟨0 + (4 * c'.val + g.val), by have := c'.isLt; have := g.isLt; omega⟩ : Fin 4096) n f)
  ep : ∀ (j : Fin 3) (w : Fin 24) (c' : Fin 256) (g : Fin 4) (d : Fin 16),
    V c main_v74 (ix3 (⟨24 * j.val + w.val, by have := j.isLt; have := w.isLt; omega⟩ : Fin 72) c' (lane16 g d))
    = a1 (ix3 (⟨0 + (4 * c'.val + g.val), by have := c'.isLt; have := g.isLt; omega⟩ : Fin 4096)
        (⟨3 * w.val + j.val, by have := j.isLt; have := w.isLt; omega⟩ : Fin 72) d)
  wp : ∀ (i : Fin 5) (g : Fin 4) (f : Fin 32) (g' : Fin 4) (o : Fin 32), V c main_v13 (ix3 i (lane g f) (lane g' o))
    = if g = g' then a2 (ix3 i (⟨f.val, by have := f.isLt; omega⟩ : Fin 48) o) else 0
  we : ∀ (i : Fin 5) (g : Fin 4) (d : Fin 16) (g' : Fin 4) (o : Fin 32), V c main_v25 (ix3 i (lane16 g d) (lane g' o))
    = if g = g' then a2 (ix3 i (⟨32 + d.val, by have := d.isLt; omega⟩ : Fin 48) o) else 0
  wh1 : ∀ (i : Fin 5) (g : Fin 4) (f : Fin 32) (g' : Fin 4) (o : Fin 32), V c main_v38 (ix3 i (lane g f) (lane g' o))
    = if g = g' then a4 (ix3 i (⟨f.val, by have := f.isLt; omega⟩ : Fin 64) o) else 0
  wh2 : ∀ (i : Fin 5) (g : Fin 4) (f : Fin 32) (g' : Fin 4) (o : Fin 32), V c main_v51 (ix3 i (lane g f) (lane g' o))
    = if g = g' then a4 (ix3 i (⟨32 + f.val, by have := f.isLt; omega⟩ : Fin 64) o) else 0
  eb : ∀ (i : Fin 5) (g : Fin 4) (o : Fin 32), V c main_v55 (ix3 i (0 : Fin 1) (lane g o)) = a3 (ix2 i o)
  hb : ∀ (i : Fin 5) (g : Fin 4) (o : Fin 32), V c main_v59 (ix3 i (0 : Fin 1) (lane g o)) = a5 (ix2 i o)
  ones : ∀ (g : Fin 4) (f : Fin 32) (g' : Fin 4) (o : Fin 32), V c main_v67 (ix2 (lane g f) (lane g' o)) = if g = g' then (1 : EReal) else 0

abbrev wpF0 (c : Dev nD) (t : Fin cfg0.N) : Fin 5 → Vec Ideal S1x128x128 .f32
  | ⟨0, _⟩ => View.ld (iblk0 (F := Ideal) V c 2 t) (Rect.unit (s := S5x128x128) ![0, 0, 0] S1x128x128.size inb_S5x128x128_S1x128x128_0_0_0)
  | ⟨1, _⟩ => View.ld (iblk0 (F := Ideal) V c 2 t) (Rect.unit (s := S5x128x128) ![1, 0, 0] S1x128x128.size inb_S5x128x128_S1x128x128_1_0_0)
  | ⟨2, _⟩ => View.ld (iblk0 (F := Ideal) V c 2 t) (Rect.unit (s := S5x128x128) ![2, 0, 0] S1x128x128.size inb_S5x128x128_S1x128x128_2_0_0)
  | ⟨3, _⟩ => View.ld (iblk0 (F := Ideal) V c 2 t) (Rect.unit (s := S5x128x128) ![3, 0, 0] S1x128x128.size inb_S5x128x128_S1x128x128_3_0_0)
  | ⟨4, _⟩ => View.ld (iblk0 (F := Ideal) V c 2 t) (Rect.unit (s := S5x128x128) ![4, 0, 0] S1x128x128.size inb_S5x128x128_S1x128x128_4_0_0)
abbrev weF0 (c : Dev nD) (t : Fin cfg0.N) : Fin 5 → Vec Ideal S1x64x128 .f32
  | ⟨0, _⟩ => View.ld (iblk0 (F := Ideal) V c 3 t) (Rect.unit (s := S5x64x128) ![0, 0, 0] S1x64x128.size inb_S5x64x128_S1x64x128_0_0_0)
  | ⟨1, _⟩ => View.ld (iblk0 (F := Ideal) V c 3 t) (Rect.unit (s := S5x64x128) ![1, 0, 0] S1x64x128.size inb_S5x64x128_S1x64x128_1_0_0)
  | ⟨2, _⟩ => View.ld (iblk0 (F := Ideal) V c 3 t) (Rect.unit (s := S5x64x128) ![2, 0, 0] S1x64x128.size inb_S5x64x128_S1x64x128_2_0_0)
  | ⟨3, _⟩ => View.ld (iblk0 (F := Ideal) V c 3 t) (Rect.unit (s := S5x64x128) ![3, 0, 0] S1x64x128.size inb_S5x64x128_S1x64x128_3_0_0)
  | ⟨4, _⟩ => View.ld (iblk0 (F := Ideal) V c 3 t) (Rect.unit (s := S5x64x128) ![4, 0, 0] S1x64x128.size inb_S5x64x128_S1x64x128_4_0_0)
abbrev ebF0 (c : Dev nD) (t : Fin cfg0.N) : Fin 5 → Vec Ideal S1x1x128 .f32
  | ⟨0, _⟩ => View.ld (iblk0 (F := Ideal) V c 6 t) (Rect.unit (s := S5x1x128) ![0, 0, 0] S1x1x128.size inb_S5x1x128_S1x1x128_0_0_0)
  | ⟨1, _⟩ => View.ld (iblk0 (F := Ideal) V c 6 t) (Rect.unit (s := S5x1x128) ![1, 0, 0] S1x1x128.size inb_S5x1x128_S1x1x128_1_0_0)
  | ⟨2, _⟩ => View.ld (iblk0 (F := Ideal) V c 6 t) (Rect.unit (s := S5x1x128) ![2, 0, 0] S1x1x128.size inb_S5x1x128_S1x1x128_2_0_0)
  | ⟨3, _⟩ => View.ld (iblk0 (F := Ideal) V c 6 t) (Rect.unit (s := S5x1x128) ![3, 0, 0] S1x1x128.size inb_S5x1x128_S1x1x128_3_0_0)
  | ⟨4, _⟩ => View.ld (iblk0 (F := Ideal) V c 6 t) (Rect.unit (s := S5x1x128) ![4, 0, 0] S1x1x128.size inb_S5x1x128_S1x1x128_4_0_0)
abbrev wh1F0 (c : Dev nD) (t : Fin cfg0.N) : Fin 5 → Vec Ideal S1x128x128 .f32
  | ⟨0, _⟩ => View.ld (iblk0 (F := Ideal) V c 4 t) (Rect.unit (s := S5x128x128) ![0, 0, 0] S1x128x128.size inb_S5x128x128_S1x128x128_0_0_0)
  | ⟨1, _⟩ => View.ld (iblk0 (F := Ideal) V c 4 t) (Rect.unit (s := S5x128x128) ![1, 0, 0] S1x128x128.size inb_S5x128x128_S1x128x128_1_0_0)
  | ⟨2, _⟩ => View.ld (iblk0 (F := Ideal) V c 4 t) (Rect.unit (s := S5x128x128) ![2, 0, 0] S1x128x128.size inb_S5x128x128_S1x128x128_2_0_0)
  | ⟨3, _⟩ => View.ld (iblk0 (F := Ideal) V c 4 t) (Rect.unit (s := S5x128x128) ![3, 0, 0] S1x128x128.size inb_S5x128x128_S1x128x128_3_0_0)
  | ⟨4, _⟩ => View.ld (iblk0 (F := Ideal) V c 4 t) (Rect.unit (s := S5x128x128) ![4, 0, 0] S1x128x128.size inb_S5x128x128_S1x128x128_4_0_0)
abbrev wh2F0 (c : Dev nD) (t : Fin cfg0.N) : Fin 5 → Vec Ideal S1x128x128 .f32
  | ⟨0, _⟩ => View.ld (iblk0 (F := Ideal) V c 5 t) (Rect.unit (s := S5x128x128) ![0, 0, 0] S1x128x128.size inb_S5x128x128_S1x128x128_0_0_0)
  | ⟨1, _⟩ => View.ld (iblk0 (F := Ideal) V c 5 t) (Rect.unit (s := S5x128x128) ![1, 0, 0] S1x128x128.size inb_S5x128x128_S1x128x128_1_0_0)
  | ⟨2, _⟩ => View.ld (iblk0 (F := Ideal) V c 5 t) (Rect.unit (s := S5x128x128) ![2, 0, 0] S1x128x128.size inb_S5x128x128_S1x128x128_2_0_0)
  | ⟨3, _⟩ => View.ld (iblk0 (F := Ideal) V c 5 t) (Rect.unit (s := S5x128x128) ![3, 0, 0] S1x128x128.size inb_S5x128x128_S1x128x128_3_0_0)
  | ⟨4, _⟩ => View.ld (iblk0 (F := Ideal) V c 5 t) (Rect.unit (s := S5x128x128) ![4, 0, 0] S1x128x128.size inb_S5x128x128_S1x128x128_4_0_0)
abbrev hbF0 (c : Dev nD) (t : Fin cfg0.N) : Fin 5 → Vec Ideal S1x1x128 .f32
  | ⟨0, _⟩ => View.ld (iblk0 (F := Ideal) V c 7 t) (Rect.unit (s := S5x1x128) ![0, 0, 0] S1x1x128.size inb_S5x1x128_S1x1x128_0_0_0)
  | ⟨1, _⟩ => View.ld (iblk0 (F := Ideal) V c 7 t) (Rect.unit (s := S5x1x128) ![1, 0, 0] S1x1x128.size inb_S5x1x128_S1x1x128_1_0_0)
  | ⟨2, _⟩ => View.ld (iblk0 (F := Ideal) V c 7 t) (Rect.unit (s := S5x1x128) ![2, 0, 0] S1x1x128.size inb_S5x1x128_S1x1x128_2_0_0)
  | ⟨3, _⟩ => View.ld (iblk0 (F := Ideal) V c 7 t) (Rect.unit (s := S5x1x128) ![3, 0, 0] S1x1x128.size inb_S5x1x128_S1x1x128_3_0_0)
  | ⟨4, _⟩ => View.ld (iblk0 (F := Ideal) V c 7 t) (Rect.unit (s := S5x1x128) ![4, 0, 0] S1x1x128.size inb_S5x1x128_S1x1x128_4_0_0)

variable {V a0 a1 a2 a3 a4 a5}

/-- The loaded slices are the layers' packed parameters. -/
theorem packed0 {c : Dev nD} (hE : Entry0 V a0 a1 a2 a3 a4 a5 c) (t : Fin cfg0.N) (i : Fin 5) :
    Packed (fun f o => a2 (ix3 i f o)) (fun o => a3 (ix2 i o)) (fun f o => a4 (ix3 i f o)) (fun o => a5 (ix2 i o))
      (wpF0 V c t i) (weF0 V c t i) (ebF0 V c t i) (wh1F0 V c t i) (wh2F0 V c t i) (hbF0 V c t i) := by
  match i with
  | ⟨0, _⟩ => exact
    { wp := fun g f g' o => by
        show View.ld (iblk0 (F := Ideal) V c 2 t) (Rect.unit (s := S5x128x128) ![0, 0, 0] S1x128x128.size inb_S5x128x128_S1x128x128_0_0_0) (ix3 (0 : Fin 1) (lane g f) (lane g' o)) = _
        rw [Cert.LibStackLoad.ld_slice_apply _ 0 (by decide), iblk0_2_apply, hE.wp]
      we := fun g d g' o => by
        show View.ld (iblk0 (F := Ideal) V c 3 t) (Rect.unit (s := S5x64x128) ![0, 0, 0] S1x64x128.size inb_S5x64x128_S1x64x128_0_0_0) (ix3 (0 : Fin 1) (lane16 g d) (lane g' o)) = _
        rw [Cert.LibStackLoad.ld_slice_apply _ 0 (by decide), iblk0_3_apply, hE.we]
      eb := fun g o => by
        show View.ld (iblk0 (F := Ideal) V c 6 t) (Rect.unit (s := S5x1x128) ![0, 0, 0] S1x1x128.size inb_S5x1x128_S1x1x128_0_0_0) (ix3 (0 : Fin 1) (0 : Fin 1) (lane g o)) = _
        rw [Cert.LibStackLoad.ld_slice_apply _ 0 (by decide), iblk0_6_apply, hE.eb]
      wh1 := fun g f g' o => by
        show View.ld (iblk0 (F := Ideal) V c 4 t) (Rect.unit (s := S5x128x128) ![0, 0, 0] S1x128x128.size inb_S5x128x128_S1x128x128_0_0_0) (ix3 (0 : Fin 1) (lane g f) (lane g' o)) = _
        rw [Cert.LibStackLoad.ld_slice_apply _ 0 (by decide), iblk0_4_apply, hE.wh1]
      wh2 := fun g f g' o => by
        show View.ld (iblk0 (F := Ideal) V c 5 t) (Rect.unit (s := S5x128x128) ![0, 0, 0] S1x128x128.size inb_S5x128x128_S1x128x128_0_0_0) (ix3 (0 : Fin 1) (lane g f) (lane g' o)) = _
        rw [Cert.LibStackLoad.ld_slice_apply _ 0 (by decide), iblk0_5_apply, hE.wh2]
      hb := fun g o => by
        show View.ld (iblk0 (F := Ideal) V c 7 t) (Rect.unit (s := S5x1x128) ![0, 0, 0] S1x1x128.size inb_S5x1x128_S1x1x128_0_0_0) (ix3 (0 : Fin 1) (0 : Fin 1) (lane g o)) = _
        rw [Cert.LibStackLoad.ld_slice_apply _ 0 (by decide), iblk0_7_apply, hE.hb] }
  | ⟨1, _⟩ => exact
    { wp := fun g f g' o => by
        show View.ld (iblk0 (F := Ideal) V c 2 t) (Rect.unit (s := S5x128x128) ![1, 0, 0] S1x128x128.size inb_S5x128x128_S1x128x128_1_0_0) (ix3 (0 : Fin 1) (lane g f) (lane g' o)) = _
        rw [Cert.LibStackLoad.ld_slice_apply _ 1 (by decide), iblk0_2_apply, hE.wp]
      we := fun g d g' o => by
        show View.ld (iblk0 (F := Ideal) V c 3 t) (Rect.unit (s := S5x64x128) ![1, 0, 0] S1x64x128.size inb_S5x64x128_S1x64x128_1_0_0) (ix3 (0 : Fin 1) (lane16 g d) (lane g' o)) = _
        rw [Cert.LibStackLoad.ld_slice_apply _ 1 (by decide), iblk0_3_apply, hE.we]
      eb := fun g o => by
        show View.ld (iblk0 (F := Ideal) V c 6 t) (Rect.unit (s := S5x1x128) ![1, 0, 0] S1x1x128.size inb_S5x1x128_S1x1x128_1_0_0) (ix3 (0 : Fin 1) (0 : Fin 1) (lane g o)) = _
        rw [Cert.LibStackLoad.ld_slice_apply _ 1 (by decide), iblk0_6_apply, hE.eb]
      wh1 := fun g f g' o => by
        show View.ld (iblk0 (F := Ideal) V c 4 t) (Rect.unit (s := S5x128x128) ![1, 0, 0] S1x128x128.size inb_S5x128x128_S1x128x128_1_0_0) (ix3 (0 : Fin 1) (lane g f) (lane g' o)) = _
        rw [Cert.LibStackLoad.ld_slice_apply _ 1 (by decide), iblk0_4_apply, hE.wh1]
      wh2 := fun g f g' o => by
        show View.ld (iblk0 (F := Ideal) V c 5 t) (Rect.unit (s := S5x128x128) ![1, 0, 0] S1x128x128.size inb_S5x128x128_S1x128x128_1_0_0) (ix3 (0 : Fin 1) (lane g f) (lane g' o)) = _
        rw [Cert.LibStackLoad.ld_slice_apply _ 1 (by decide), iblk0_5_apply, hE.wh2]
      hb := fun g o => by
        show View.ld (iblk0 (F := Ideal) V c 7 t) (Rect.unit (s := S5x1x128) ![1, 0, 0] S1x1x128.size inb_S5x1x128_S1x1x128_1_0_0) (ix3 (0 : Fin 1) (0 : Fin 1) (lane g o)) = _
        rw [Cert.LibStackLoad.ld_slice_apply _ 1 (by decide), iblk0_7_apply, hE.hb] }
  | ⟨2, _⟩ => exact
    { wp := fun g f g' o => by
        show View.ld (iblk0 (F := Ideal) V c 2 t) (Rect.unit (s := S5x128x128) ![2, 0, 0] S1x128x128.size inb_S5x128x128_S1x128x128_2_0_0) (ix3 (0 : Fin 1) (lane g f) (lane g' o)) = _
        rw [Cert.LibStackLoad.ld_slice_apply _ 2 (by decide), iblk0_2_apply, hE.wp]
      we := fun g d g' o => by
        show View.ld (iblk0 (F := Ideal) V c 3 t) (Rect.unit (s := S5x64x128) ![2, 0, 0] S1x64x128.size inb_S5x64x128_S1x64x128_2_0_0) (ix3 (0 : Fin 1) (lane16 g d) (lane g' o)) = _
        rw [Cert.LibStackLoad.ld_slice_apply _ 2 (by decide), iblk0_3_apply, hE.we]
      eb := fun g o => by
        show View.ld (iblk0 (F := Ideal) V c 6 t) (Rect.unit (s := S5x1x128) ![2, 0, 0] S1x1x128.size inb_S5x1x128_S1x1x128_2_0_0) (ix3 (0 : Fin 1) (0 : Fin 1) (lane g o)) = _
        rw [Cert.LibStackLoad.ld_slice_apply _ 2 (by decide), iblk0_6_apply, hE.eb]
      wh1 := fun g f g' o => by
        show View.ld (iblk0 (F := Ideal) V c 4 t) (Rect.unit (s := S5x128x128) ![2, 0, 0] S1x128x128.size inb_S5x128x128_S1x128x128_2_0_0) (ix3 (0 : Fin 1) (lane g f) (lane g' o)) = _
        rw [Cert.LibStackLoad.ld_slice_apply _ 2 (by decide), iblk0_4_apply, hE.wh1]
      wh2 := fun g f g' o => by
        show View.ld (iblk0 (F := Ideal) V c 5 t) (Rect.unit (s := S5x128x128) ![2, 0, 0] S1x128x128.size inb_S5x128x128_S1x128x128_2_0_0) (ix3 (0 : Fin 1) (lane g f) (lane g' o)) = _
        rw [Cert.LibStackLoad.ld_slice_apply _ 2 (by decide), iblk0_5_apply, hE.wh2]
      hb := fun g o => by
        show View.ld (iblk0 (F := Ideal) V c 7 t) (Rect.unit (s := S5x1x128) ![2, 0, 0] S1x1x128.size inb_S5x1x128_S1x1x128_2_0_0) (ix3 (0 : Fin 1) (0 : Fin 1) (lane g o)) = _
        rw [Cert.LibStackLoad.ld_slice_apply _ 2 (by decide), iblk0_7_apply, hE.hb] }
  | ⟨3, _⟩ => exact
    { wp := fun g f g' o => by
        show View.ld (iblk0 (F := Ideal) V c 2 t) (Rect.unit (s := S5x128x128) ![3, 0, 0] S1x128x128.size inb_S5x128x128_S1x128x128_3_0_0) (ix3 (0 : Fin 1) (lane g f) (lane g' o)) = _
        rw [Cert.LibStackLoad.ld_slice_apply _ 3 (by decide), iblk0_2_apply, hE.wp]
      we := fun g d g' o => by
        show View.ld (iblk0 (F := Ideal) V c 3 t) (Rect.unit (s := S5x64x128) ![3, 0, 0] S1x64x128.size inb_S5x64x128_S1x64x128_3_0_0) (ix3 (0 : Fin 1) (lane16 g d) (lane g' o)) = _
        rw [Cert.LibStackLoad.ld_slice_apply _ 3 (by decide), iblk0_3_apply, hE.we]
      eb := fun g o => by
        show View.ld (iblk0 (F := Ideal) V c 6 t) (Rect.unit (s := S5x1x128) ![3, 0, 0] S1x1x128.size inb_S5x1x128_S1x1x128_3_0_0) (ix3 (0 : Fin 1) (0 : Fin 1) (lane g o)) = _
        rw [Cert.LibStackLoad.ld_slice_apply _ 3 (by decide), iblk0_6_apply, hE.eb]
      wh1 := fun g f g' o => by
        show View.ld (iblk0 (F := Ideal) V c 4 t) (Rect.unit (s := S5x128x128) ![3, 0, 0] S1x128x128.size inb_S5x128x128_S1x128x128_3_0_0) (ix3 (0 : Fin 1) (lane g f) (lane g' o)) = _
        rw [Cert.LibStackLoad.ld_slice_apply _ 3 (by decide), iblk0_4_apply, hE.wh1]
      wh2 := fun g f g' o => by
        show View.ld (iblk0 (F := Ideal) V c 5 t) (Rect.unit (s := S5x128x128) ![3, 0, 0] S1x128x128.size inb_S5x128x128_S1x128x128_3_0_0) (ix3 (0 : Fin 1) (lane g f) (lane g' o)) = _
        rw [Cert.LibStackLoad.ld_slice_apply _ 3 (by decide), iblk0_5_apply, hE.wh2]
      hb := fun g o => by
        show View.ld (iblk0 (F := Ideal) V c 7 t) (Rect.unit (s := S5x1x128) ![3, 0, 0] S1x1x128.size inb_S5x1x128_S1x1x128_3_0_0) (ix3 (0 : Fin 1) (0 : Fin 1) (lane g o)) = _
        rw [Cert.LibStackLoad.ld_slice_apply _ 3 (by decide), iblk0_7_apply, hE.hb] }
  | ⟨4, _⟩ => exact
    { wp := fun g f g' o => by
        show View.ld (iblk0 (F := Ideal) V c 2 t) (Rect.unit (s := S5x128x128) ![4, 0, 0] S1x128x128.size inb_S5x128x128_S1x128x128_4_0_0) (ix3 (0 : Fin 1) (lane g f) (lane g' o)) = _
        rw [Cert.LibStackLoad.ld_slice_apply _ 4 (by decide), iblk0_2_apply, hE.wp]
      we := fun g d g' o => by
        show View.ld (iblk0 (F := Ideal) V c 3 t) (Rect.unit (s := S5x64x128) ![4, 0, 0] S1x64x128.size inb_S5x64x128_S1x64x128_4_0_0) (ix3 (0 : Fin 1) (lane16 g d) (lane g' o)) = _
        rw [Cert.LibStackLoad.ld_slice_apply _ 4 (by decide), iblk0_3_apply, hE.we]
      eb := fun g o => by
        show View.ld (iblk0 (F := Ideal) V c 6 t) (Rect.unit (s := S5x1x128) ![4, 0, 0] S1x1x128.size inb_S5x1x128_S1x1x128_4_0_0) (ix3 (0 : Fin 1) (0 : Fin 1) (lane g o)) = _
        rw [Cert.LibStackLoad.ld_slice_apply _ 4 (by decide), iblk0_6_apply, hE.eb]
      wh1 := fun g f g' o => by
        show View.ld (iblk0 (F := Ideal) V c 4 t) (Rect.unit (s := S5x128x128) ![4, 0, 0] S1x128x128.size inb_S5x128x128_S1x128x128_4_0_0) (ix3 (0 : Fin 1) (lane g f) (lane g' o)) = _
        rw [Cert.LibStackLoad.ld_slice_apply _ 4 (by decide), iblk0_4_apply, hE.wh1]
      wh2 := fun g f g' o => by
        show View.ld (iblk0 (F := Ideal) V c 5 t) (Rect.unit (s := S5x128x128) ![4, 0, 0] S1x128x128.size inb_S5x128x128_S1x128x128_4_0_0) (ix3 (0 : Fin 1) (lane g f) (lane g' o)) = _
        rw [Cert.LibStackLoad.ld_slice_apply _ 4 (by decide), iblk0_5_apply, hE.wh2]
      hb := fun g o => by
        show View.ld (iblk0 (F := Ideal) V c 7 t) (Rect.unit (s := S5x1x128) ![4, 0, 0] S1x1x128.size inb_S5x1x128_S1x1x128_4_0_0) (ix3 (0 : Fin 1) (0 : Fin 1) (lane g o)) = _
        rw [Cert.LibStackLoad.ld_slice_apply _ 4 (by decide), iblk0_7_apply, hE.hb] }

end Final

section Last

variable {a0 : FVec Ideal S4096x54x32 .f32} {a1 : FVec Ideal S4096x72x16 .f32} {a2 : FVec Ideal S5x48x32 .f32}
  {a3 : FVec Ideal S5x32 .f32} {a4 : FVec Ideal S5x64x32 .f32} {a5 : FVec Ideal S5x32 .f32}

theorem hz2_0 : (![0, 0] : Fin 2 → Nat) = fun _ => 0 := funext fun a => by fin_cases a <;> rfl

/-- The block the body leaves at grid point t, at row r of the block and the lanes of group g: the network at the batch
    element in group g of row 128 t + r of chunk 0. -/
theorem block0_apply {V : (c : Dev nD) → (b : Ref sig .tc) → Buf (Elt Ideal) ((c : Thread nD τ).loc b)} {c : Dev nD}
    (hE : Entry0 V a0 a1 a2 a3 a4 a5 c) (t : Fin cfg0.N) (n : Fin 54) (r : Fin 128) (g : Fin 4) (o : Fin 32) :
    bodyVal0 (iblk0 (F := Ideal) V c 0 t) (iblk0 (F := Ideal) V c 1 t) (iblk0 (F := Ideal) V c 2 t)
        (iblk0 (F := Ideal) V c 3 t) (iblk0 (F := Ideal) V c 4 t) (iblk0 (F := Ideal) V c 5 t)
        (iblk0 (F := Ideal) V c 6 t) (iblk0 (F := Ideal) V c 7 t) (iblk0 (F := Ideal) V c 8 t) (ix3 n r (lane g o))
      = Cert.Spec.netMul (fun i f o => a2 (ix3 i f o)) (fun i o => a3 (ix2 i o)) (fun i f o => a4 (ix3 i f o)) (fun i o => a5 (ix2 i o))
          (fun b m d => a1 (ix3 b m d)) (fun b n f => a0 (ix3 b n f))
          (⟨0 + (4 * (128 * t.val + r.val) + g.val), by have := t.isLt; have hN : cfg0.N = 2 := N_0; have := r.isLt; have := g.isLt; omega⟩ : Fin 4096) n o := by
  have ht := t.isLt
  have hN : cfg0.N = 2 := N_0
  have hr := r.isLt
  have hg := g.isLt
  rw [bodyVal0_eq]
  refine Cert.KNet.net_apply (B := 4096) _ _ _ _ (wpF0 V c t) (weF0 V c t) (ebF0 V c t) (wh1F0 V c t) (wh2F0 V c t) (hbF0 V c t)
    (packed0 hE t) (O0 (iblk0 (F := Ideal) V c 8 t)) ?hO (X0 (iblk0 (F := Ideal) V c 0 t)) (E0 (iblk0 (F := Ideal) V c 1 t)) r g
    (fun b n f => a0 (ix3 b n f)) (fun b m d => a1 (ix3 b m d)) _ ?hX ?hE n o
  case hO =>
    intro g1 f1 g2 o2
    show shapeCast S128x128 (View.ld (iblk0 (F := Ideal) V c 8 t) _) _ (ix2 (lane g1 f1) (lane g2 o2)) = _
    rw [shapeCast_apply _ _ _ (ix2 (lane g1 f1) (lane g2 o2)) rfl, View.ld_unit_zero (S := S128x128) hz2_0, iblk0_8_apply, hE.ones]
  case hX =>
    intro n' f
    show shapeCast S54x128x128 (View.ld (iblk0 (F := Ideal) V c 0 t) _) _ (ix3 n' r (lane g f)) = _
    rw [shapeCast_apply _ _ _ (ix3 n' r (lane g f)) rfl, View.ld_unit_zero (S := S54x128x128) hz3_0, iblk0_0_apply, hE.vt]
  case hE =>
    intro j w d
    show shapeCast S72x128x64 (View.ld (iblk0 (F := Ideal) V c 1 t) _) _ (ix3 (⟨24 * j.val + w.val, by have := j.isLt; have := w.isLt; omega⟩ : Fin 72) r (lane16 g d)) = _
    rw [shapeCast_apply _ _ _ (ix3 (⟨24 * j.val + w.val, by have := j.isLt; have := w.isLt; omega⟩ : Fin 72) r (lane16 g d)) rfl, View.ld_unit_zero (S := S72x128x64) hz3_0, iblk0_1_apply, hE.ep]

end Last

section Cover

variable {a0 : FVec Ideal S4096x54x32 .f32} {a1 : FVec Ideal S4096x72x16 .f32} {a2 : FVec Ideal S5x48x32 .f32}
  {a3 : FVec Ideal S5x32 .f32} {a4 : FVec Ideal S5x64x32 .f32} {a5 : FVec Ideal S5x32 .f32}

/-- An index of the output array is in point t's block iff each coordinate is in the block's range on its axis. -/
theorem mem_blk0 (t : Fin cfg0.N) (i : S54x256x128.Idx) :
    i ∈ ((cfg0.win 9).blk t).view.set ↔ ∀ a : Fin 3, win0_9.index t a * S54x128x128.size a ≤ (i a).val
      ∧ (i a).val < win0_9.index t a * S54x128x128.size a + S54x128x128.size a := by
  show i ∈ ((View.whole main_v75).slice (win0_9.rect t)).set ↔ _
  rw [View.set_slice_whole, Rect.mem_set_unit]
  exact Iff.rfl

set_option maxHeartbeats 8000000 in
/-- After the region every entry of the output array is the network at the entry's batch element. -/
theorem final0_apply {V : (c : Dev nD) → (b : Ref sig .tc) → Buf (Elt Ideal) ((c : Thread nD τ).loc b)} {c : Dev nD}
    (hE : Entry0 V a0 a1 a2 a3 a4 a5 c) (n : Fin 54) (c' : Fin 256) (g : Fin 4) (o : Fin 32) :
    (dat0 (F := Ideal) V c).arrAt 9 cfg0.N (ix3 n c' (lane g o))
      = Cert.Spec.netMul (fun i f o => a2 (ix3 i f o)) (fun i o => a3 (ix2 i o)) (fun i f o => a4 (ix3 i f o)) (fun i o => a5 (ix2 i o))
          (fun b m d => a1 (ix3 b m d)) (fun b n f => a0 (ix3 b n f))
          (⟨0 + (4 * c'.val + g.val), by have := c'.isLt; have := g.isLt; omega⟩ : Fin 4096) n o := by
  have hN : cfg0.N = 2 := N_0
  refine (dat0 (F := Ideal) V c).arrAt_forall_of_cover 9
    (fun i v => ∀ (n : Fin 54) (c' : Fin 256) (g : Fin 4) (o : Fin 32), i = ix3 n c' (lane g o) →
      v = Cert.Spec.netMul (fun i f o => a2 (ix3 i f o)) (fun i o => a3 (ix2 i o)) (fun i f o => a4 (ix3 i f o)) (fun i o => a5 (ix2 i o))
          (fun b m d => a1 (ix3 b m d)) (fun b n f => a0 (ix3 b n f))
          (⟨0 + (4 * c'.val + g.val), by have := c'.isLt; have := g.isLt; omega⟩ : Fin 4096) n o)
    ?hP ?hcover (ix3 n c' (lane g o)) n c' g o rfl
  case hP =>
    intro t hf y n c' g o hi
    have ht := t.isLt
    obtain ⟨-, -, ⟨e0, e1, e2⟩, -⟩ := idx_facts0 t
    have h0 : win0_9.index t (0 : Fin 3) * 54 + 1 * (y 0).val = n.val := congrArg (fun i : S54x256x128.Idx => (i 0).val) hi
    have h1 : win0_9.index t (1 : Fin 3) * 128 + 1 * (y 1).val = c'.val := congrArg (fun i : S54x256x128.Idx => (i 1).val) hi
    have h2 : win0_9.index t (2 : Fin 3) * 128 + 1 * (y 2).val = (lane g o).val := congrArg (fun i : S54x256x128.Idx => (i 2).val) hi
    have hy : y = ix3 n (⟨(y 1).val, (y 1).isLt⟩ : Fin 128) (lane g o) := by
      funext a; apply Fin.ext
      match a with
      | ⟨0, _⟩ => show (y 0).val = n.val; omega
      | ⟨1, _⟩ => rfl
      | ⟨2, _⟩ => show (y 2).val = (lane g o).val; omega
    rw [cast_eq, flushed0_eq V c t, hy, block0_apply hE t n ⟨(y 1).val, (y 1).isLt⟩ g o]
    congr 1
    apply Fin.ext
    show 0 + (4 * (128 * t.val + (y 1).val) + g.val) = 0 + (4 * c'.val + g.val)
    omega
  case hcover =>
    intro i
    have hi1 : (i 1).val < 256 := (i 1).isLt
    have hi0 : (i 0).val < 54 := (i 0).isLt
    have hi2 : (i 2).val < 128 := (i 2).isLt
    refine ⟨⟨(i 1).val / 128, by omega⟩, flush0_9 _, ?_⟩
    rw [mem_blk0]
    obtain ⟨-, -, ⟨e0, e1, e2⟩, -⟩ := idx_facts0 (⟨(i 1).val / 128, by omega⟩ : Fin cfg0.N)
    intro a
    match a with
    | ⟨0, _⟩ => show win0_9.index _ (0 : Fin 3) * 54 ≤ (i 0).val ∧ (i 0).val < win0_9.index _ (0 : Fin 3) * 54 + 54; omega
    | ⟨1, _⟩ => show win0_9.index _ (1 : Fin 3) * 128 ≤ (i 1).val ∧ (i 1).val < win0_9.index _ (1 : Fin 3) * 128 + 128; rw [e1]; show (i 1).val / 128 * 128 ≤ (i 1).val ∧ (i 1).val < (i 1).val / 128 * 128 + 128; omega
    | ⟨2, _⟩ => show win0_9.index _ (2 : Fin 3) * 128 ≤ (i 2).val ∧ (i 2).val < win0_9.index _ (2 : Fin 3) * 128 + 128; omega

end Cover

end Cert.KernelIdeal.Hand

end
-- ==== Proof.KIBodyEq1.lean ====
/-
  THE BODY OF REGION 1 IS FIVE LAYERS. The block the body of region 1 leaves (the composition of its payloads, KIRegion1.lean)
  is the update of layer 4 on four normalising layers (KLayer.lean), each layer reading its six parameter slices at
  its own offset of the stacked parameter blocks: the two are one term once the payloads and the layer functions are
  unfolded.
-/
import proofs.«182073_g78494822302262_cont_9to1_m_206_7_alg».proof.Proof.KIRegion1
import proofs.«182073_g78494822302262_cont_9to1_m_206_7_alg».proof.Proof.KLayer

set_option maxRecDepth 65536

noncomputable section

namespace Cert.KernelIdeal.Hand

open Cert.KernelIdeal Cert.KernelIdeal.Gen Idealize.ShloMosaic

variable {F : FTy → Type} [FloatOps F]

/-- The layer's input block, the edge block and the ones matrix as the body first casts them. -/
abbrev X1 (x0 : Vec F S54x128x128 .f32) : FVec F S54x128x128 .f32 :=
  shapeCast S54x128x128 (View.ld x0 rOut1) shapeCasts_S54x128x128_S54x128x128
abbrev E1 (x1 : Vec F S72x128x64 .f32) : FVec F S72x128x64 .f32 :=
  shapeCast S72x128x64 (View.ld x1 (Rect.unit (s := S72x128x64) ![0, 0, 0] S72x128x64.size inb_S72x128x64_S72x128x64_0_0_0)) shapeCasts_S72x128x64_S72x128x64
abbrev O1 (x8 : Vec F S128x128 .f32) : FVec F S128x128 .f32 :=
  shapeCast S128x128 (View.ld x8 (Rect.unit (s := S128x128) ![0, 0] S128x128.size inb_S128x128_S128x128_0_0)) shapeCasts_S128x128_S128x128

set_option maxHeartbeats 8000000 in
theorem bodyVal1_eq (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) :
    bodyVal1 x0 x1 x2 x3 x4 x5 x6 x7 x8
      = Cert.KLayer.linB
          (Cert.KLayer.layerB
            (Cert.KLayer.layerB
              (Cert.KLayer.layerB
                (Cert.KLayer.layerB (X1 x0) (E1 x1) (O1 x8) (View.ld x2 (Rect.unit (s := S5x128x128) ![0, 0, 0] S1x128x128.size inb_S5x128x128_S1x128x128_0_0_0)) (View.ld x3 (Rect.unit (s := S5x64x128) ![0, 0, 0] S1x64x128.size inb_S5x64x128_S1x64x128_0_0_0)) (View.ld x6 (Rect.unit (s := S5x1x128) ![0, 0, 0] S1x1x128.size inb_S5x1x128_S1x1x128_0_0_0)) (View.ld x4 (Rect.unit (s := S5x128x128) ![0, 0, 0] S1x128x128.size inb_S5x128x128_S1x128x128_0_0_0)) (View.ld x5 (Rect.unit (s := S5x128x128) ![0, 0, 0] S1x128x128.size inb_S5x128x128_S1x128x128_0_0_0)) (View.ld x7 (Rect.unit (s := S5x1x128) ![0, 0, 0] S1x1x128.size inb_S5x1x128_S1x1x128_0_0_0)))
                (E1 x1) (O1 x8) (View.ld x2 (Rect.unit (s := S5x128x128) ![1, 0, 0] S1x128x128.size inb_S5x128x128_S1x128x128_1_0_0)) (View.ld x3 (Rect.unit (s := S5x64x128) ![1, 0, 0] S1x64x128.size inb_S5x64x128_S1x64x128_1_0_0)) (View.ld x6 (Rect.unit (s := S5x1x128) ![1, 0, 0] S1x1x128.size inb_S5x1x128_S1x1x128_1_0_0)) (View.ld x4 (Rect.unit (s := S5x128x128) ![1, 0, 0] S1x128x128.size inb_S5x128x128_S1x128x128_1_0_0)) (View.ld x5 (Rect.unit (s := S5x128x128) ![1, 0, 0] S1x128x128.size inb_S5x128x128_S1x128x128_1_0_0)) (View.ld x7 (Rect.unit (s := S5x1x128) ![1, 0, 0] S1x1x128.size inb_S5x1x128_S1x1x128_1_0_0)))
              (E1 x1) (O1 x8) (View.ld x2 (Rect.unit (s := S5x128x128) ![2, 0, 0] S1x128x128.size inb_S5x128x128_S1x128x128_2_0_0)) (View.ld x3 (Rect.unit (s := S5x64x128) ![2, 0, 0] S1x64x128.size inb_S5x64x128_S1x64x128_2_0_0)) (View.ld x6 (Rect.unit (s := S5x1x128) ![2, 0, 0] S1x1x128.size inb_S5x1x128_S1x1x128_2_0_0)) (View.ld x4 (Rect.unit (s := S5x128x128) ![2, 0, 0] S1x128x128.size inb_S5x128x128_S1x128x128_2_0_0)) (View.ld x5 (Rect.unit (s := S5x128x128) ![2, 0, 0] S1x128x128.size inb_S5x128x128_S1x128x128_2_0_0)) (View.ld x7 (Rect.unit (s := S5x1x128) ![2, 0, 0] S1x1x128.size inb_S5x1x128_S1x1x128_2_0_0)))
            (E1 x1) (O1 x8) (View.ld x2 (Rect.unit (s := S5x128x128) ![3, 0, 0] S1x128x128.size inb_S5x128x128_S1x128x128_3_0_0)) (View.ld x3 (Rect.unit (s := S5x64x128) ![3, 0, 0] S1x64x128.size inb_S5x64x128_S1x64x128_3_0_0)) (View.ld x6 (Rect.unit (s := S5x1x128) ![3, 0, 0] S1x1x128.size inb_S5x1x128_S1x1x128_3_0_0)) (View.ld x4 (Rect.unit (s := S5x128x128) ![3, 0, 0] S1x128x128.size inb_S5x128x128_S1x128x128_3_0_0)) (View.ld x5 (Rect.unit (s := S5x128x128) ![3, 0, 0] S1x128x128.size inb_S5x128x128_S1x128x128_3_0_0)) (View.ld x7 (Rect.unit (s := S5x1x128) ![3, 0, 0] S1x1x128.size inb_S5x1x128_S1x1x128_3_0_0)))
          (E1 x1) (View.ld x2 (Rect.unit (s := S5x128x128) ![4, 0, 0] S1x128x128.size inb_S5x128x128_S1x128x128_4_0_0)) (View.ld x3 (Rect.unit (s := S5x64x128) ![4, 0, 0] S1x64x128.size inb_S5x64x128_S1x64x128_4_0_0)) (View.ld x6 (Rect.unit (s := S5x1x128) ![4, 0, 0] S1x1x128.size inb_S5x1x128_S1x1x128_4_0_0)) (View.ld x4 (Rect.unit (s := S5x128x128) ![4, 0, 0] S1x128x128.size inb_S5x128x128_S1x128x128_4_0_0)) (View.ld x5 (Rect.unit (s := S5x128x128) ![4, 0, 0] S1x128x128.size inb_S5x128x128_S1x128x128_4_0_0)) (View.ld x7 (Rect.unit (s := S5x1x128) ![4, 0, 0] S1x1x128.size inb_S5x1x128_S1x1x128_4_0_0)) := by
  unfold bodyVal1 k1_pay1 k1_pay2 k1_pay3 k1_pay4 k1_pay5 k1_pay6 k1_pay7 k1_pay8 k1_pay9 k1_pay10 k1_pay11 k1_pay12 k1_pay13 k1_pay14 k1_pay15 k1_pay16 k1_pay17 k1_pay18 k1_pay19 k1_pay20 k1_pay21 k1_pay22 k1_pay23 k1_pay24 k1_pay25 k1_pay26 k1_pay27 Cert.KLayer.linB Cert.KLayer.layerB Cert.KLayer.unitB Cert.KLayer.aggB Cert.KLayer.biasB Cert.KLayer.mm Cert.KLayer.mmE
  rfl

end Cert.KernelIdeal.Hand

end
-- ==== Proof.KIValue1.lean ====
/-
  WHAT REGION 1 LEAVES IN ITS OUTPUT ARRAY. If, when the region is entered, the packed vertex array holds batch element
  1024·1 + 4 c' + g of the vertices in group g of row c', the packed edge array that element's edge 3 w + j in row 24 j + w,
  the four weight arrays the block-diagonal stacks, the two bias arrays the biases tiled four times and the ones array
  the block-diagonal ones, then after the region every entry (n, c', 32 g + o) of the output array is the network
  (Spec.lean, the spelling that multiplies by the reciprocal square root) at (1024·1 + 4 c' + g, n, o): each grid point
  writes back the body's five layers of its blocks (KIBodyEq1, KNet), and the two points' blocks cover the array.
-/
import proofs.«182073_g78494822302262_cont_9to1_m_206_7_alg».proof.Proof.KIBodyEq1
import proofs.«182073_g78494822302262_cont_9to1_m_206_7_alg».proof.Proof.KNet
import proofs.«182073_g78494822302262_cont_9to1_m_206_7_alg».proof.Proof.LibStackLoad
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window BodyObligation cellOf)
open Cert.KLayerAt

variable (V : (c : Dev nD) → (b : Ref sig .tc) → Buf (Elt Ideal) ((c : Thread nD τ).loc b))

theorem hz3_1 : (![0, 0, 0] : Fin 3 → Nat) = fun _ => 0 := funext fun a => by fin_cases a <;> rfl

/-- What grid point t writes back: the body's result block of the input blocks at t. -/
theorem flushed1_eq (c : Dev nD) (t : Fin cfg1.N) :
    (dat1 (F := Ideal) V c).flushed 9 t = bodyVal1 (iblk1 V c 0 t) (iblk1 V c 1 t) (iblk1 V c 2 t) (iblk1 V c 3 t) (iblk1 V c 4 t) (iblk1 V c 5 t) (iblk1 V c 6 t) (iblk1 V c 7 t) (iblk1 V c 8 t) := by
  show (cfg1.win 9).cut (grid1.coords t) ((dat1 (F := Ideal) V c).after 9 t) = _
  rw [after1_9]
  unfold out1_9
  rw [View.canon_unit_zero hz3_1]
  rfl

/-! ## Where the blocks sit -/

/-- The printed index maps over the grid's two points: the vertex, edge and output windows move along axis 1 with the
    point, the parameter windows stay. -/
theorem idx_facts1 : ∀ t : Fin cfg1.N,
    (win1_0.index t (0 : Fin 3) = 0 ∧ win1_0.index t (1 : Fin 3) = t.val ∧ win1_0.index t (2 : Fin 3) = 0) ∧ (win1_1.index t (0 : Fin 3) = 0 ∧ win1_1.index t (1 : Fin 3) = t.val ∧ win1_1.index t (2 : Fin 3) = 0) ∧ (win1_9.index t (0 : Fin 3) = 0 ∧ win1_9.index t (1 : Fin 3) = t.val ∧ win1_9.index t (2 : Fin 3) = 0)
    ∧ (win1_2.index t (0 : Fin 3) = 0 ∧ win1_2.index t (1 : Fin 3) = 0 ∧ win1_2.index t (2 : Fin 3) = 0) ∧ (win1_3.index t (0 : Fin 3) = 0 ∧ win1_3.index t (1 : Fin 3) = 0 ∧ win1_3.index t (2 : Fin 3) = 0) ∧ (win1_4.index t (0 : Fin 3) = 0 ∧ win1_4.index t (1 : Fin 3) = 0 ∧ win1_4.index t (2 : Fin 3) = 0) ∧ (win1_5.index t (0 : Fin 3) = 0 ∧ win1_5.index t (1 : Fin 3) = 0 ∧ win1_5.index t (2 : Fin 3) = 0) ∧ (win1_6.index t (0 : Fin 3) = 0 ∧ win1_6.index t (1 : Fin 3) = 0 ∧ win1_6.index t (2 : Fin 3) = 0) ∧ (win1_7.index t (0 : Fin 3) = 0 ∧ win1_7.index t (1 : Fin 3) = 0 ∧ win1_7.index t (2 : Fin 3) = 0)
    ∧ (win1_8.index t (0 : Fin 2) = 0 ∧ win1_8.index t (1 : Fin 2) = 0) :=
  (by decide +kernel : ∀ t : Fin grid1.N, _)

/-- The vertex window's block at point t, row r of the block: row 128 t + r of the packed array. -/
theorem iblk1_0_apply (c : Dev nD) (t : Fin cfg1.N) (n : Fin 54) (r : Fin 128) (l : Fin 128) :
    iblk1 (F := Ideal) V c 0 t (ix3 n r l)
      = V c main_v81 (ix3 n (⟨128 * t.val + r.val, by have := t.isLt; have hN : cfg1.N = 2 := N_1; have := r.isLt; omega⟩ : Fin 256) l) := by
  show V c main_v81 (((cfg1.win 0).blk t).view.emb (ix3 n r l)) = _
  obtain ⟨⟨e0, e1, e2⟩, -⟩ := idx_facts1 t
  refine congrArg (V c main_v81) (funext fun a => Fin.ext ?_)
  match a with
  | ⟨0, _⟩ => show win1_0.index t (0 : Fin 3) * 54 + 1 * n.val = n.val; omega
  | ⟨1, _⟩ => show win1_0.index t (1 : Fin 3) * 128 + 1 * r.val = 128 * t.val + r.val; omega
  | ⟨2, _⟩ => show win1_0.index t (2 : Fin 3) * 128 + 1 * l.val = l.val; omega

/-- The edge window's block at point t. -/
theorem iblk1_1_apply (c : Dev nD) (t : Fin cfg1.N) (m' : Fin 72) (r : Fin 128) (l : Fin 64) :
    iblk1 (F := Ideal) V c 1 t (ix3 m' r l)
      = V c main_v84 (ix3 m' (⟨128 * t.val + r.val, by have := t.isLt; have hN : cfg1.N = 2 := N_1; have := r.isLt; omega⟩ : Fin 256) l) := by
  show V c main_v84 (((cfg1.win 1).blk t).view.emb (ix3 m' r l)) = _
  obtain ⟨-, ⟨e0, e1, e2⟩, -⟩ := idx_facts1 t
  refine congrArg (V c main_v84) (funext fun a => Fin.ext ?_)
  match a with
  | ⟨0, _⟩ => show win1_1.index t (0 : Fin 3) * 72 + 1 * m'.val = m'.val; omega
  | ⟨1, _⟩ => show win1_1.index t (1 : Fin 3) * 128 + 1 * r.val = 128 * t.val + r.val; omega
  | ⟨2, _⟩ => show win1_1.index t (2 : Fin 3) * 64 + 1 * l.val = l.val; omega

/-- Input window 2's block (the whole array) at a grid point. -/
theorem iblk1_2_apply (c : Dev nD) (t : Fin cfg1.N) (i : Fin 5) (k : Fin 128) (l : Fin 128) :
    iblk1 (F := Ideal) V c 2 t (ix3 i k l) = V c main_v13 (ix3 i k l) := by
  show V c main_v13 (((cfg1.win 2).blk t).view.emb (ix3 i k l)) = _
  obtain ⟨-, -, -, h2, h3, h4, h5, h6, h7, -⟩ := idx_facts1 t
  refine congrArg (V c main_v13) (funext fun a => Fin.ext ?_)
  obtain ⟨e0, e1, e2⟩ := h2
  match a with
  | ⟨0, _⟩ => show win1_2.index t (0 : Fin 3) * 5 + 1 * i.val = i.val; omega
  | ⟨1, _⟩ => show win1_2.index t (1 : Fin 3) * 128 + 1 * k.val = k.val; omega
  | ⟨2, _⟩ => show win1_2.index t (2 : Fin 3) * 128 + 1 * l.val = l.val; omega

/-- Input window 3's block (the whole array) at a grid point. -/
theorem iblk1_3_apply (c : Dev nD) (t : Fin cfg1.N) (i : Fin 5) (k : Fin 64) (l : Fin 128) :
    iblk1 (F := Ideal) V c 3 t (ix3 i k l) = V c main_v25 (ix3 i k l) := by
  show V c main_v25 (((cfg1.win 3).blk t).view.emb (ix3 i k l)) = _
  obtain ⟨-, -, -, h2, h3, h4, h5, h6, h7, -⟩ := idx_facts1 t
  refine congrArg (V c main_v25) (funext fun a => Fin.ext ?_)
  obtain ⟨e0, e1, e2⟩ := h3
  match a with
  | ⟨0, _⟩ => show win1_3.index t (0 : Fin 3) * 5 + 1 * i.val = i.val; omega
  | ⟨1, _⟩ => show win1_3.index t (1 : Fin 3) * 64 + 1 * k.val = k.val; omega
  | ⟨2, _⟩ => show win1_3.index t (2 : Fin 3) * 128 + 1 * l.val = l.val; omega

/-- Input window 4's block (the whole array) at a grid point. -/
theorem iblk1_4_apply (c : Dev nD) (t : Fin cfg1.N) (i : Fin 5) (k : Fin 128) (l : Fin 128) :
    iblk1 (F := Ideal) V c 4 t (ix3 i k l) = V c main_v38 (ix3 i k l) := by
  show V c main_v38 (((cfg1.win 4).blk t).view.emb (ix3 i k l)) = _
  obtain ⟨-, -, -, h2, h3, h4, h5, h6, h7, -⟩ := idx_facts1 t
  refine congrArg (V c main_v38) (funext fun a => Fin.ext ?_)
  obtain ⟨e0, e1, e2⟩ := h4
  match a with
  | ⟨0, _⟩ => show win1_4.index t (0 : Fin 3) * 5 + 1 * i.val = i.val; omega
  | ⟨1, _⟩ => show win1_4.index t (1 : Fin 3) * 128 + 1 * k.val = k.val; omega
  | ⟨2, _⟩ => show win1_4.index t (2 : Fin 3) * 128 + 1 * l.val = l.val; omega

/-- Input window 5's block (the whole array) at a grid point. -/
theorem iblk1_5_apply (c : Dev nD) (t : Fin cfg1.N) (i : Fin 5) (k : Fin 128) (l : Fin 128) :
    iblk1 (F := Ideal) V c 5 t (ix3 i k l) = V c main_v51 (ix3 i k l) := by
  show V c main_v51 (((cfg1.win 5).blk t).view.emb (ix3 i k l)) = _
  obtain ⟨-, -, -, h2, h3, h4, h5, h6, h7, -⟩ := idx_facts1 t
  refine congrArg (V c main_v51) (funext fun a => Fin.ext ?_)
  obtain ⟨e0, e1, e2⟩ := h5
  match a with
  | ⟨0, _⟩ => show win1_5.index t (0 : Fin 3) * 5 + 1 * i.val = i.val; omega
  | ⟨1, _⟩ => show win1_5.index t (1 : Fin 3) * 128 + 1 * k.val = k.val; omega
  | ⟨2, _⟩ => show win1_5.index t (2 : Fin 3) * 128 + 1 * l.val = l.val; omega

/-- Input window 6's block (the whole array) at a grid point. -/
theorem iblk1_6_apply (c : Dev nD) (t : Fin cfg1.N) (i : Fin 5) (k : Fin 1) (l : Fin 128) :
    iblk1 (F := Ideal) V c 6 t (ix3 i k l) = V c main_v55 (ix3 i k l) := by
  show V c main_v55 (((cfg1.win 6).blk t).view.emb (ix3 i k l)) = _
  obtain ⟨-, -, -, h2, h3, h4, h5, h6, h7, -⟩ := idx_facts1 t
  refine congrArg (V c main_v55) (funext fun a => Fin.ext ?_)
  obtain ⟨e0, e1, e2⟩ := h6
  match a with
  | ⟨0, _⟩ => show win1_6.index t (0 : Fin 3) * 5 + 1 * i.val = i.val; omega
  | ⟨1, _⟩ => show win1_6.index t (1 : Fin 3) * 1 + 1 * k.val = k.val; omega
  | ⟨2, _⟩ => show win1_6.index t (2 : Fin 3) * 128 + 1 * l.val = l.val; omega

/-- Input window 7's block (the whole array) at a grid point. -/
theorem iblk1_7_apply (c : Dev nD) (t : Fin cfg1.N) (i : Fin 5) (k : Fin 1) (l : Fin 128) :
    iblk1 (F := Ideal) V c 7 t (ix3 i k l) = V c main_v59 (ix3 i k l) := by
  show V c main_v59 (((cfg1.win 7).blk t).view.emb (ix3 i k l)) = _
  obtain ⟨-, -, -, h2, h3, h4, h5, h6, h7, -⟩ := idx_facts1 t
  refine congrArg (V c main_v59) (funext fun a => Fin.ext ?_)
  obtain ⟨e0, e1, e2⟩ := h7
  match a with
  | ⟨0, _⟩ => show win1_7.index t (0 : Fin 3) * 5 + 1 * i.val = i.val; omega
  | ⟨1, _⟩ => show win1_7.index t (1 : Fin 3) * 1 + 1 * k.val = k.val; omega
  | ⟨2, _⟩ => show win1_7.index t (2 : Fin 3) * 128 + 1 * l.val = l.val; omega

/-- The ones window's block (the whole matrix) at a grid point. -/
theorem iblk1_8_apply (c : Dev nD) (t : Fin cfg1.N) (k : Fin 128) (l : Fin 128) :
    iblk1 (F := Ideal) V c 8 t (ix2 k l) = V c main_v67 (ix2 k l) := by
  show V c main_v67 (((cfg1.win 8).blk t).view.emb (ix2 k l)) = _
  obtain ⟨-, -, -, -, -, -, -, -, -, e0, e1⟩ := idx_facts1 t
  refine congrArg (V c main_v67) (funext fun a => Fin.ext ?_)
  match a with
  | ⟨0, _⟩ => show win1_8.index t (0 : Fin 2) * 128 + 1 * k.val = k.val; omega
  | ⟨1, _⟩ => show win1_8.index t (1 : Fin 2) * 128 + 1 * l.val = l.val; omega

/-! ## The output array after the region -/

section Final

variable (a0 : FVec Ideal S4096x54x32 .f32) (a1 : FVec Ideal S4096x72x16 .f32) (a2 : FVec Ideal S5x48x32 .f32)
  (a3 : FVec Ideal S5x32 .f32) (a4 : FVec Ideal S5x64x32 .f32) (a5 : FVec Ideal S5x32 .f32)

/-- What the region-entry contents hold at the lanes of each batch element of chunk 1. -/
structure Entry1 (c : Dev nD) : Prop where
  vt : ∀ (n : Fin 54) (c' : Fin 256) (g : Fin 4) (f : Fin 32), V c main_v81 (ix3 n c' (lane g f))
    = a0 (ix3 (⟨1024 + (4 * c'.val + g.val), by have := c'.isLt; have := g.isLt; omega⟩ : Fin 4096) n f)
  ep : ∀ (j : Fin 3) (w : Fin 24) (c' : Fin 256) (g : Fin 4) (d : Fin 16),
    V c main_v84 (ix3 (⟨24 * j.val + w.val, by have := j.isLt; have := w.isLt; omega⟩ : Fin 72) c' (lane16 g d))
    = a1 (ix3 (⟨1024 + (4 * c'.val + g.val), by have := c'.isLt; have := g.isLt; omega⟩ : Fin 4096)
        (⟨3 * w.val + j.val, by have := j.isLt; have := w.isLt; omega⟩ : Fin 72) d)
  wp : ∀ (i : Fin 5) (g : Fin 4) (f : Fin 32) (g' : Fin 4) (o : Fin 32), V c main_v13 (ix3 i (lane g f) (lane g' o))
    = if g = g' then a2 (ix3 i (⟨f.val, by have := f.isLt; omega⟩ : Fin 48) o) else 0
  we : ∀ (i : Fin 5) (g : Fin 4) (d : Fin 16) (g' : Fin 4) (o : Fin 32), V c main_v25 (ix3 i (lane16 g d) (lane g' o))
    = if g = g' then a2 (ix3 i (⟨32 + d.val, by have := d.isLt; omega⟩ : Fin 48) o) else 0
  wh1 : ∀ (i : Fin 5) (g : Fin 4) (f : Fin 32) (g' : Fin 4) (o : Fin 32), V c main_v38 (ix3 i (lane g f) (lane g' o))
    = if g = g' then a4 (ix3 i (⟨f.val, by have := f.isLt; omega⟩ : Fin 64) o) else 0
  wh2 : ∀ (i : Fin 5) (g : Fin 4) (f : Fin 32) (g' : Fin 4) (o : Fin 32), V c main_v51 (ix3 i (lane g f) (lane g' o))
    = if g = g' then a4 (ix3 i (⟨32 + f.val, by have := f.isLt; omega⟩ : Fin 64) o) else 0
  eb : ∀ (i : Fin 5) (g : Fin 4) (o : Fin 32), V c main_v55 (ix3 i (0 : Fin 1) (lane g o)) = a3 (ix2 i o)
  hb : ∀ (i : Fin 5) (g : Fin 4) (o : Fin 32), V c main_v59 (ix3 i (0 : Fin 1) (lane g o)) = a5 (ix2 i o)
  ones : ∀ (g : Fin 4) (f : Fin 32) (g' : Fin 4) (o : Fin 32), V c main_v67 (ix2 (lane g f) (lane g' o)) = if g = g' then (1 : EReal) else 0

abbrev wpF1 (c : Dev nD) (t : Fin cfg1.N) : Fin 5 → Vec Ideal S1x128x128 .f32
  | ⟨0, _⟩ => View.ld (iblk1 (F := Ideal) V c 2 t) (Rect.unit (s := S5x128x128) ![0, 0, 0] S1x128x128.size inb_S5x128x128_S1x128x128_0_0_0)
  | ⟨1, _⟩ => View.ld (iblk1 (F := Ideal) V c 2 t) (Rect.unit (s := S5x128x128) ![1, 0, 0] S1x128x128.size inb_S5x128x128_S1x128x128_1_0_0)
  | ⟨2, _⟩ => View.ld (iblk1 (F := Ideal) V c 2 t) (Rect.unit (s := S5x128x128) ![2, 0, 0] S1x128x128.size inb_S5x128x128_S1x128x128_2_0_0)
  | ⟨3, _⟩ => View.ld (iblk1 (F := Ideal) V c 2 t) (Rect.unit (s := S5x128x128) ![3, 0, 0] S1x128x128.size inb_S5x128x128_S1x128x128_3_0_0)
  | ⟨4, _⟩ => View.ld (iblk1 (F := Ideal) V c 2 t) (Rect.unit (s := S5x128x128) ![4, 0, 0] S1x128x128.size inb_S5x128x128_S1x128x128_4_0_0)
abbrev weF1 (c : Dev nD) (t : Fin cfg1.N) : Fin 5 → Vec Ideal S1x64x128 .f32
  | ⟨0, _⟩ => View.ld (iblk1 (F := Ideal) V c 3 t) (Rect.unit (s := S5x64x128) ![0, 0, 0] S1x64x128.size inb_S5x64x128_S1x64x128_0_0_0)
  | ⟨1, _⟩ => View.ld (iblk1 (F := Ideal) V c 3 t) (Rect.unit (s := S5x64x128) ![1, 0, 0] S1x64x128.size inb_S5x64x128_S1x64x128_1_0_0)
  | ⟨2, _⟩ => View.ld (iblk1 (F := Ideal) V c 3 t) (Rect.unit (s := S5x64x128) ![2, 0, 0] S1x64x128.size inb_S5x64x128_S1x64x128_2_0_0)
  | ⟨3, _⟩ => View.ld (iblk1 (F := Ideal) V c 3 t) (Rect.unit (s := S5x64x128) ![3, 0, 0] S1x64x128.size inb_S5x64x128_S1x64x128_3_0_0)
  | ⟨4, _⟩ => View.ld (iblk1 (F := Ideal) V c 3 t) (Rect.unit (s := S5x64x128) ![4, 0, 0] S1x64x128.size inb_S5x64x128_S1x64x128_4_0_0)
abbrev ebF1 (c : Dev nD) (t : Fin cfg1.N) : Fin 5 → Vec Ideal S1x1x128 .f32
  | ⟨0, _⟩ => View.ld (iblk1 (F := Ideal) V c 6 t) (Rect.unit (s := S5x1x128) ![0, 0, 0] S1x1x128.size inb_S5x1x128_S1x1x128_0_0_0)
  | ⟨1, _⟩ => View.ld (iblk1 (F := Ideal) V c 6 t) (Rect.unit (s := S5x1x128) ![1, 0, 0] S1x1x128.size inb_S5x1x128_S1x1x128_1_0_0)
  | ⟨2, _⟩ => View.ld (iblk1 (F := Ideal) V c 6 t) (Rect.unit (s := S5x1x128) ![2, 0, 0] S1x1x128.size inb_S5x1x128_S1x1x128_2_0_0)
  | ⟨3, _⟩ => View.ld (iblk1 (F := Ideal) V c 6 t) (Rect.unit (s := S5x1x128) ![3, 0, 0] S1x1x128.size inb_S5x1x128_S1x1x128_3_0_0)
  | ⟨4, _⟩ => View.ld (iblk1 (F := Ideal) V c 6 t) (Rect.unit (s := S5x1x128) ![4, 0, 0] S1x1x128.size inb_S5x1x128_S1x1x128_4_0_0)
abbrev wh1F1 (c : Dev nD) (t : Fin cfg1.N) : Fin 5 → Vec Ideal S1x128x128 .f32
  | ⟨0, _⟩ => View.ld (iblk1 (F := Ideal) V c 4 t) (Rect.unit (s := S5x128x128) ![0, 0, 0] S1x128x128.size inb_S5x128x128_S1x128x128_0_0_0)
  | ⟨1, _⟩ => View.ld (iblk1 (F := Ideal) V c 4 t) (Rect.unit (s := S5x128x128) ![1, 0, 0] S1x128x128.size inb_S5x128x128_S1x128x128_1_0_0)
  | ⟨2, _⟩ => View.ld (iblk1 (F := Ideal) V c 4 t) (Rect.unit (s := S5x128x128) ![2, 0, 0] S1x128x128.size inb_S5x128x128_S1x128x128_2_0_0)
  | ⟨3, _⟩ => View.ld (iblk1 (F := Ideal) V c 4 t) (Rect.unit (s := S5x128x128) ![3, 0, 0] S1x128x128.size inb_S5x128x128_S1x128x128_3_0_0)
  | ⟨4, _⟩ => View.ld (iblk1 (F := Ideal) V c 4 t) (Rect.unit (s := S5x128x128) ![4, 0, 0] S1x128x128.size inb_S5x128x128_S1x128x128_4_0_0)
abbrev wh2F1 (c : Dev nD) (t : Fin cfg1.N) : Fin 5 → Vec Ideal S1x128x128 .f32
  | ⟨0, _⟩ => View.ld (iblk1 (F := Ideal) V c 5 t) (Rect.unit (s := S5x128x128) ![0, 0, 0] S1x128x128.size inb_S5x128x128_S1x128x128_0_0_0)
  | ⟨1, _⟩ => View.ld (iblk1 (F := Ideal) V c 5 t) (Rect.unit (s := S5x128x128) ![1, 0, 0] S1x128x128.size inb_S5x128x128_S1x128x128_1_0_0)
  | ⟨2, _⟩ => View.ld (iblk1 (F := Ideal) V c 5 t) (Rect.unit (s := S5x128x128) ![2, 0, 0] S1x128x128.size inb_S5x128x128_S1x128x128_2_0_0)
  | ⟨3, _⟩ => View.ld (iblk1 (F := Ideal) V c 5 t) (Rect.unit (s := S5x128x128) ![3, 0, 0] S1x128x128.size inb_S5x128x128_S1x128x128_3_0_0)
  | ⟨4, _⟩ => View.ld (iblk1 (F := Ideal) V c 5 t) (Rect.unit (s := S5x128x128) ![4, 0, 0] S1x128x128.size inb_S5x128x128_S1x128x128_4_0_0)
abbrev hbF1 (c : Dev nD) (t : Fin cfg1.N) : Fin 5 → Vec Ideal S1x1x128 .f32
  | ⟨0, _⟩ => View.ld (iblk1 (F := Ideal) V c 7 t) (Rect.unit (s := S5x1x128) ![0, 0, 0] S1x1x128.size inb_S5x1x128_S1x1x128_0_0_0)
  | ⟨1, _⟩ => View.ld (iblk1 (F := Ideal) V c 7 t) (Rect.unit (s := S5x1x128) ![1, 0, 0] S1x1x128.size inb_S5x1x128_S1x1x128_1_0_0)
  | ⟨2, _⟩ => View.ld (iblk1 (F := Ideal) V c 7 t) (Rect.unit (s := S5x1x128) ![2, 0, 0] S1x1x128.size inb_S5x1x128_S1x1x128_2_0_0)
  | ⟨3, _⟩ => View.ld (iblk1 (F := Ideal) V c 7 t) (Rect.unit (s := S5x1x128) ![3, 0, 0] S1x1x128.size inb_S5x1x128_S1x1x128_3_0_0)
  | ⟨4, _⟩ => View.ld (iblk1 (F := Ideal) V c 7 t) (Rect.unit (s := S5x1x128) ![4, 0, 0] S1x1x128.size inb_S5x1x128_S1x1x128_4_0_0)

variable {V a0 a1 a2 a3 a4 a5}

/-- The loaded slices are the layers' packed parameters. -/
theorem packed1 {c : Dev nD} (hE : Entry1 V a0 a1 a2 a3 a4 a5 c) (t : Fin cfg1.N) (i : Fin 5) :
    Packed (fun f o => a2 (ix3 i f o)) (fun o => a3 (ix2 i o)) (fun f o => a4 (ix3 i f o)) (fun o => a5 (ix2 i o))
      (wpF1 V c t i) (weF1 V c t i) (ebF1 V c t i) (wh1F1 V c t i) (wh2F1 V c t i) (hbF1 V c t i) := by
  match i with
  | ⟨0, _⟩ => exact
    { wp := fun g f g' o => by
        show View.ld (iblk1 (F := Ideal) V c 2 t) (Rect.unit (s := S5x128x128) ![0, 0, 0] S1x128x128.size inb_S5x128x128_S1x128x128_0_0_0) (ix3 (0 : Fin 1) (lane g f) (lane g' o)) = _
        rw [Cert.LibStackLoad.ld_slice_apply _ 0 (by decide), iblk1_2_apply, hE.wp]
      we := fun g d g' o => by
        show View.ld (iblk1 (F := Ideal) V c 3 t) (Rect.unit (s := S5x64x128) ![0, 0, 0] S1x64x128.size inb_S5x64x128_S1x64x128_0_0_0) (ix3 (0 : Fin 1) (lane16 g d) (lane g' o)) = _
        rw [Cert.LibStackLoad.ld_slice_apply _ 0 (by decide), iblk1_3_apply, hE.we]
      eb := fun g o => by
        show View.ld (iblk1 (F := Ideal) V c 6 t) (Rect.unit (s := S5x1x128) ![0, 0, 0] S1x1x128.size inb_S5x1x128_S1x1x128_0_0_0) (ix3 (0 : Fin 1) (0 : Fin 1) (lane g o)) = _
        rw [Cert.LibStackLoad.ld_slice_apply _ 0 (by decide), iblk1_6_apply, hE.eb]
      wh1 := fun g f g' o => by
        show View.ld (iblk1 (F := Ideal) V c 4 t) (Rect.unit (s := S5x128x128) ![0, 0, 0] S1x128x128.size inb_S5x128x128_S1x128x128_0_0_0) (ix3 (0 : Fin 1) (lane g f) (lane g' o)) = _
        rw [Cert.LibStackLoad.ld_slice_apply _ 0 (by decide), iblk1_4_apply, hE.wh1]
      wh2 := fun g f g' o => by
        show View.ld (iblk1 (F := Ideal) V c 5 t) (Rect.unit (s := S5x128x128) ![0, 0, 0] S1x128x128.size inb_S5x128x128_S1x128x128_0_0_0) (ix3 (0 : Fin 1) (lane g f) (lane g' o)) = _
        rw [Cert.LibStackLoad.ld_slice_apply _ 0 (by decide), iblk1_5_apply, hE.wh2]
      hb := fun g o => by
        show View.ld (iblk1 (F := Ideal) V c 7 t) (Rect.unit (s := S5x1x128) ![0, 0, 0] S1x1x128.size inb_S5x1x128_S1x1x128_0_0_0) (ix3 (0 : Fin 1) (0 : Fin 1) (lane g o)) = _
        rw [Cert.LibStackLoad.ld_slice_apply _ 0 (by decide), iblk1_7_apply, hE.hb] }
  | ⟨1, _⟩ => exact
    { wp := fun g f g' o => by
        show View.ld (iblk1 (F := Ideal) V c 2 t) (Rect.unit (s := S5x128x128) ![1, 0, 0] S1x128x128.size inb_S5x128x128_S1x128x128_1_0_0) (ix3 (0 : Fin 1) (lane g f) (lane g' o)) = _
        rw [Cert.LibStackLoad.ld_slice_apply _ 1 (by decide), iblk1_2_apply, hE.wp]
      we := fun g d g' o => by
        show View.ld (iblk1 (F := Ideal) V c 3 t) (Rect.unit (s := S5x64x128) ![1, 0, 0] S1x64x128.size inb_S5x64x128_S1x64x128_1_0_0) (ix3 (0 : Fin 1) (lane16 g d) (lane g' o)) = _
        rw [Cert.LibStackLoad.ld_slice_apply _ 1 (by decide), iblk1_3_apply, hE.we]
      eb := fun g o => by
        show View.ld (iblk1 (F := Ideal) V c 6 t) (Rect.unit (s := S5x1x128) ![1, 0, 0] S1x1x128.size inb_S5x1x128_S1x1x128_1_0_0) (ix3 (0 : Fin 1) (0 : Fin 1) (lane g o)) = _
        rw [Cert.LibStackLoad.ld_slice_apply _ 1 (by decide), iblk1_6_apply, hE.eb]
      wh1 := fun g f g' o => by
        show View.ld (iblk1 (F := Ideal) V c 4 t) (Rect.unit (s := S5x128x128) ![1, 0, 0] S1x128x128.size inb_S5x128x128_S1x128x128_1_0_0) (ix3 (0 : Fin 1) (lane g f) (lane g' o)) = _
        rw [Cert.LibStackLoad.ld_slice_apply _ 1 (by decide), iblk1_4_apply, hE.wh1]
      wh2 := fun g f g' o => by
        show View.ld (iblk1 (F := Ideal) V c 5 t) (Rect.unit (s := S5x128x128) ![1, 0, 0] S1x128x128.size inb_S5x128x128_S1x128x128_1_0_0) (ix3 (0 : Fin 1) (lane g f) (lane g' o)) = _
        rw [Cert.LibStackLoad.ld_slice_apply _ 1 (by decide), iblk1_5_apply, hE.wh2]
      hb := fun g o => by
        show View.ld (iblk1 (F := Ideal) V c 7 t) (Rect.unit (s := S5x1x128) ![1, 0, 0] S1x1x128.size inb_S5x1x128_S1x1x128_1_0_0) (ix3 (0 : Fin 1) (0 : Fin 1) (lane g o)) = _
        rw [Cert.LibStackLoad.ld_slice_apply _ 1 (by decide), iblk1_7_apply, hE.hb] }
  | ⟨2, _⟩ => exact
    { wp := fun g f g' o => by
        show View.ld (iblk1 (F := Ideal) V c 2 t) (Rect.unit (s := S5x128x128) ![2, 0, 0] S1x128x128.size inb_S5x128x128_S1x128x128_2_0_0) (ix3 (0 : Fin 1) (lane g f) (lane g' o)) = _
        rw [Cert.LibStackLoad.ld_slice_apply _ 2 (by decide), iblk1_2_apply, hE.wp]
      we := fun g d g' o => by
        show View.ld (iblk1 (F := Ideal) V c 3 t) (Rect.unit (s := S5x64x128) ![2, 0, 0] S1x64x128.size inb_S5x64x128_S1x64x128_2_0_0) (ix3 (0 : Fin 1) (lane16 g d) (lane g' o)) = _
        rw [Cert.LibStackLoad.ld_slice_apply _ 2 (by decide), iblk1_3_apply, hE.we]
      eb := fun g o => by
        show View.ld (iblk1 (F := Ideal) V c 6 t) (Rect.unit (s := S5x1x128) ![2, 0, 0] S1x1x128.size inb_S5x1x128_S1x1x128_2_0_0) (ix3 (0 : Fin 1) (0 : Fin 1) (lane g o)) = _
        rw [Cert.LibStackLoad.ld_slice_apply _ 2 (by decide), iblk1_6_apply, hE.eb]
      wh1 := fun g f g' o => by
        show View.ld (iblk1 (F := Ideal) V c 4 t) (Rect.unit (s := S5x128x128) ![2, 0, 0] S1x128x128.size inb_S5x128x128_S1x128x128_2_0_0) (ix3 (0 : Fin 1) (lane g f) (lane g' o)) = _
        rw [Cert.LibStackLoad.ld_slice_apply _ 2 (by decide), iblk1_4_apply, hE.wh1]
      wh2 := fun g f g' o => by
        show View.ld (iblk1 (F := Ideal) V c 5 t) (Rect.unit (s := S5x128x128) ![2, 0, 0] S1x128x128.size inb_S5x128x128_S1x128x128_2_0_0) (ix3 (0 : Fin 1) (lane g f) (lane g' o)) = _
        rw [Cert.LibStackLoad.ld_slice_apply _ 2 (by decide), iblk1_5_apply, hE.wh2]
      hb := fun g o => by
        show View.ld (iblk1 (F := Ideal) V c 7 t) (Rect.unit (s := S5x1x128) ![2, 0, 0] S1x1x128.size inb_S5x1x128_S1x1x128_2_0_0) (ix3 (0 : Fin 1) (0 : Fin 1) (lane g o)) = _
        rw [Cert.LibStackLoad.ld_slice_apply _ 2 (by decide), iblk1_7_apply, hE.hb] }
  | ⟨3, _⟩ => exact
    { wp := fun g f g' o => by
        show View.ld (iblk1 (F := Ideal) V c 2 t) (Rect.unit (s := S5x128x128) ![3, 0, 0] S1x128x128.size inb_S5x128x128_S1x128x128_3_0_0) (ix3 (0 : Fin 1) (lane g f) (lane g' o)) = _
        rw [Cert.LibStackLoad.ld_slice_apply _ 3 (by decide), iblk1_2_apply, hE.wp]
      we := fun g d g' o => by
        show View.ld (iblk1 (F := Ideal) V c 3 t) (Rect.unit (s := S5x64x128) ![3, 0, 0] S1x64x128.size inb_S5x64x128_S1x64x128_3_0_0) (ix3 (0 : Fin 1) (lane16 g d) (lane g' o)) = _
        rw [Cert.LibStackLoad.ld_slice_apply _ 3 (by decide), iblk1_3_apply, hE.we]
      eb := fun g o => by
        show View.ld (iblk1 (F := Ideal) V c 6 t) (Rect.unit (s := S5x1x128) ![3, 0, 0] S1x1x128.size inb_S5x1x128_S1x1x128_3_0_0) (ix3 (0 : Fin 1) (0 : Fin 1) (lane g o)) = _
        rw [Cert.LibStackLoad.ld_slice_apply _ 3 (by decide), iblk1_6_apply, hE.eb]
      wh1 := fun g f g' o => by
        show View.ld (iblk1 (F := Ideal) V c 4 t) (Rect.unit (s := S5x128x128) ![3, 0, 0] S1x128x128.size inb_S5x128x128_S1x128x128_3_0_0) (ix3 (0 : Fin 1) (lane g f) (lane g' o)) = _
        rw [Cert.LibStackLoad.ld_slice_apply _ 3 (by decide), iblk1_4_apply, hE.wh1]
      wh2 := fun g f g' o => by
        show View.ld (iblk1 (F := Ideal) V c 5 t) (Rect.unit (s := S5x128x128) ![3, 0, 0] S1x128x128.size inb_S5x128x128_S1x128x128_3_0_0) (ix3 (0 : Fin 1) (lane g f) (lane g' o)) = _
        rw [Cert.LibStackLoad.ld_slice_apply _ 3 (by decide), iblk1_5_apply, hE.wh2]
      hb := fun g o => by
        show View.ld (iblk1 (F := Ideal) V c 7 t) (Rect.unit (s := S5x1x128) ![3, 0, 0] S1x1x128.size inb_S5x1x128_S1x1x128_3_0_0) (ix3 (0 : Fin 1) (0 : Fin 1) (lane g o)) = _
        rw [Cert.LibStackLoad.ld_slice_apply _ 3 (by decide), iblk1_7_apply, hE.hb] }
  | ⟨4, _⟩ => exact
    { wp := fun g f g' o => by
        show View.ld (iblk1 (F := Ideal) V c 2 t) (Rect.unit (s := S5x128x128) ![4, 0, 0] S1x128x128.size inb_S5x128x128_S1x128x128_4_0_0) (ix3 (0 : Fin 1) (lane g f) (lane g' o)) = _
        rw [Cert.LibStackLoad.ld_slice_apply _ 4 (by decide), iblk1_2_apply, hE.wp]
      we := fun g d g' o => by
        show View.ld (iblk1 (F := Ideal) V c 3 t) (Rect.unit (s := S5x64x128) ![4, 0, 0] S1x64x128.size inb_S5x64x128_S1x64x128_4_0_0) (ix3 (0 : Fin 1) (lane16 g d) (lane g' o)) = _
        rw [Cert.LibStackLoad.ld_slice_apply _ 4 (by decide), iblk1_3_apply, hE.we]
      eb := fun g o => by
        show View.ld (iblk1 (F := Ideal) V c 6 t) (Rect.unit (s := S5x1x128) ![4, 0, 0] S1x1x128.size inb_S5x1x128_S1x1x128_4_0_0) (ix3 (0 : Fin 1) (0 : Fin 1) (lane g o)) = _
        rw [Cert.LibStackLoad.ld_slice_apply _ 4 (by decide), iblk1_6_apply, hE.eb]
      wh1 := fun g f g' o => by
        show View.ld (iblk1 (F := Ideal) V c 4 t) (Rect.unit (s := S5x128x128) ![4, 0, 0] S1x128x128.size inb_S5x128x128_S1x128x128_4_0_0) (ix3 (0 : Fin 1) (lane g f) (lane g' o)) = _
        rw [Cert.LibStackLoad.ld_slice_apply _ 4 (by decide), iblk1_4_apply, hE.wh1]
      wh2 := fun g f g' o => by
        show View.ld (iblk1 (F := Ideal) V c 5 t) (Rect.unit (s := S5x128x128) ![4, 0, 0] S1x128x128.size inb_S5x128x128_S1x128x128_4_0_0) (ix3 (0 : Fin 1) (lane g f) (lane g' o)) = _
        rw [Cert.LibStackLoad.ld_slice_apply _ 4 (by decide), iblk1_5_apply, hE.wh2]
      hb := fun g o => by
        show View.ld (iblk1 (F := Ideal) V c 7 t) (Rect.unit (s := S5x1x128) ![4, 0, 0] S1x1x128.size inb_S5x1x128_S1x1x128_4_0_0) (ix3 (0 : Fin 1) (0 : Fin 1) (lane g o)) = _
        rw [Cert.LibStackLoad.ld_slice_apply _ 4 (by decide), iblk1_7_apply, hE.hb] }

end Final

section Last

variable {a0 : FVec Ideal S4096x54x32 .f32} {a1 : FVec Ideal S4096x72x16 .f32} {a2 : FVec Ideal S5x48x32 .f32}
  {a3 : FVec Ideal S5x32 .f32} {a4 : FVec Ideal S5x64x32 .f32} {a5 : FVec Ideal S5x32 .f32}

theorem hz2_1 : (![0, 0] : Fin 2 → Nat) = fun _ => 0 := funext fun a => by fin_cases a <;> rfl

/-- The block the body leaves at grid point t, at row r of the block and the lanes of group g: the network at the batch
    element in group g of row 128 t + r of chunk 1. -/
theorem block1_apply {V : (c : Dev nD) → (b : Ref sig .tc) → Buf (Elt Ideal) ((c : Thread nD τ).loc b)} {c : Dev nD}
    (hE : Entry1 V a0 a1 a2 a3 a4 a5 c) (t : Fin cfg1.N) (n : Fin 54) (r : Fin 128) (g : Fin 4) (o : Fin 32) :
    bodyVal1 (iblk1 (F := Ideal) V c 0 t) (iblk1 (F := Ideal) V c 1 t) (iblk1 (F := Ideal) V c 2 t)
        (iblk1 (F := Ideal) V c 3 t) (iblk1 (F := Ideal) V c 4 t) (iblk1 (F := Ideal) V c 5 t)
        (iblk1 (F := Ideal) V c 6 t) (iblk1 (F := Ideal) V c 7 t) (iblk1 (F := Ideal) V c 8 t) (ix3 n r (lane g o))
      = Cert.Spec.netMul (fun i f o => a2 (ix3 i f o)) (fun i o => a3 (ix2 i o)) (fun i f o => a4 (ix3 i f o)) (fun i o => a5 (ix2 i o))
          (fun b m d => a1 (ix3 b m d)) (fun b n f => a0 (ix3 b n f))
          (⟨1024 + (4 * (128 * t.val + r.val) + g.val), by have := t.isLt; have hN : cfg1.N = 2 := N_1; have := r.isLt; have := g.isLt; omega⟩ : Fin 4096) n o := by
  have ht := t.isLt
  have hN : cfg1.N = 2 := N_1
  have hr := r.isLt
  have hg := g.isLt
  rw [bodyVal1_eq]
  refine Cert.KNet.net_apply (B := 4096) _ _ _ _ (wpF1 V c t) (weF1 V c t) (ebF1 V c t) (wh1F1 V c t) (wh2F1 V c t) (hbF1 V c t)
    (packed1 hE t) (O1 (iblk1 (F := Ideal) V c 8 t)) ?hO (X1 (iblk1 (F := Ideal) V c 0 t)) (E1 (iblk1 (F := Ideal) V c 1 t)) r g
    (fun b n f => a0 (ix3 b n f)) (fun b m d => a1 (ix3 b m d)) _ ?hX ?hE n o
  case hO =>
    intro g1 f1 g2 o2
    show shapeCast S128x128 (View.ld (iblk1 (F := Ideal) V c 8 t) _) _ (ix2 (lane g1 f1) (lane g2 o2)) = _
    rw [shapeCast_apply _ _ _ (ix2 (lane g1 f1) (lane g2 o2)) rfl, View.ld_unit_zero (S := S128x128) hz2_1, iblk1_8_apply, hE.ones]
  case hX =>
    intro n' f
    show shapeCast S54x128x128 (View.ld (iblk1 (F := Ideal) V c 0 t) _) _ (ix3 n' r (lane g f)) = _
    rw [shapeCast_apply _ _ _ (ix3 n' r (lane g f)) rfl, View.ld_unit_zero (S := S54x128x128) hz3_1, iblk1_0_apply, hE.vt]
  case hE =>
    intro j w d
    show shapeCast S72x128x64 (View.ld (iblk1 (F := Ideal) V c 1 t) _) _ (ix3 (⟨24 * j.val + w.val, by have := j.isLt; have := w.isLt; omega⟩ : Fin 72) r (lane16 g d)) = _
    rw [shapeCast_apply _ _ _ (ix3 (⟨24 * j.val + w.val, by have := j.isLt; have := w.isLt; omega⟩ : Fin 72) r (lane16 g d)) rfl, View.ld_unit_zero (S := S72x128x64) hz3_1, iblk1_1_apply, hE.ep]

end Last

section Cover

variable {a0 : FVec Ideal S4096x54x32 .f32} {a1 : FVec Ideal S4096x72x16 .f32} {a2 : FVec Ideal S5x48x32 .f32}
  {a3 : FVec Ideal S5x32 .f32} {a4 : FVec Ideal S5x64x32 .f32} {a5 : FVec Ideal S5x32 .f32}

/-- An index of the output array is in point t's block iff each coordinate is in the block's range on its axis. -/
theorem mem_blk1 (t : Fin cfg1.N) (i : S54x256x128.Idx) :
    i ∈ ((cfg1.win 9).blk t).view.set ↔ ∀ a : Fin 3, win1_9.index t a * S54x128x128.size a ≤ (i a).val
      ∧ (i a).val < win1_9.index t a * S54x128x128.size a + S54x128x128.size a := by
  show i ∈ ((View.whole main_v85).slice (win1_9.rect t)).set ↔ _
  rw [View.set_slice_whole, Rect.mem_set_unit]
  exact Iff.rfl

set_option maxHeartbeats 8000000 in
/-- After the region every entry of the output array is the network at the entry's batch element. -/
theorem final1_apply {V : (c : Dev nD) → (b : Ref sig .tc) → Buf (Elt Ideal) ((c : Thread nD τ).loc b)} {c : Dev nD}
    (hE : Entry1 V a0 a1 a2 a3 a4 a5 c) (n : Fin 54) (c' : Fin 256) (g : Fin 4) (o : Fin 32) :
    (dat1 (F := Ideal) V c).arrAt 9 cfg1.N (ix3 n c' (lane g o))
      = Cert.Spec.netMul (fun i f o => a2 (ix3 i f o)) (fun i o => a3 (ix2 i o)) (fun i f o => a4 (ix3 i f o)) (fun i o => a5 (ix2 i o))
          (fun b m d => a1 (ix3 b m d)) (fun b n f => a0 (ix3 b n f))
          (⟨1024 + (4 * c'.val + g.val), by have := c'.isLt; have := g.isLt; omega⟩ : Fin 4096) n o := by
  have hN : cfg1.N = 2 := N_1
  refine (dat1 (F := Ideal) V c).arrAt_forall_of_cover 9
    (fun i v => ∀ (n : Fin 54) (c' : Fin 256) (g : Fin 4) (o : Fin 32), i = ix3 n c' (lane g o) →
      v = Cert.Spec.netMul (fun i f o => a2 (ix3 i f o)) (fun i o => a3 (ix2 i o)) (fun i f o => a4 (ix3 i f o)) (fun i o => a5 (ix2 i o))
          (fun b m d => a1 (ix3 b m d)) (fun b n f => a0 (ix3 b n f))
          (⟨1024 + (4 * c'.val + g.val), by have := c'.isLt; have := g.isLt; omega⟩ : Fin 4096) n o)
    ?hP ?hcover (ix3 n c' (lane g o)) n c' g o rfl
  case hP =>
    intro t hf y n c' g o hi
    have ht := t.isLt
    obtain ⟨-, -, ⟨e0, e1, e2⟩, -⟩ := idx_facts1 t
    have h0 : win1_9.index t (0 : Fin 3) * 54 + 1 * (y 0).val = n.val := congrArg (fun i : S54x256x128.Idx => (i 0).val) hi
    have h1 : win1_9.index t (1 : Fin 3) * 128 + 1 * (y 1).val = c'.val := congrArg (fun i : S54x256x128.Idx => (i 1).val) hi
    have h2 : win1_9.index t (2 : Fin 3) * 128 + 1 * (y 2).val = (lane g o).val := congrArg (fun i : S54x256x128.Idx => (i 2).val) hi
    have hy : y = ix3 n (⟨(y 1).val, (y 1).isLt⟩ : Fin 128) (lane g o) := by
      funext a; apply Fin.ext
      match a with
      | ⟨0, _⟩ => show (y 0).val = n.val; omega
      | ⟨1, _⟩ => rfl
      | ⟨2, _⟩ => show (y 2).val = (lane g o).val; omega
    rw [cast_eq, flushed1_eq V c t, hy, block1_apply hE t n ⟨(y 1).val, (y 1).isLt⟩ g o]
    congr 1
    apply Fin.ext
    show 1024 + (4 * (128 * t.val + (y 1).val) + g.val) = 1024 + (4 * c'.val + g.val)
    omega
  case hcover =>
    intro i
    have hi1 : (i 1).val < 256 := (i 1).isLt
    have hi0 : (i 0).val < 54 := (i 0).isLt
    have hi2 : (i 2).val < 128 := (i 2).isLt
    refine ⟨⟨(i 1).val / 128, by omega⟩, flush1_9 _, ?_⟩
    rw [mem_blk1]
    obtain ⟨-, -, ⟨e0, e1, e2⟩, -⟩ := idx_facts1 (⟨(i 1).val / 128, by omega⟩ : Fin cfg1.N)
    intro a
    match a with
    | ⟨0, _⟩ => show win1_9.index _ (0 : Fin 3) * 54 ≤ (i 0).val ∧ (i 0).val < win1_9.index _ (0 : Fin 3) * 54 + 54; omega
    | ⟨1, _⟩ => show win1_9.index _ (1 : Fin 3) * 128 ≤ (i 1).val ∧ (i 1).val < win1_9.index _ (1 : Fin 3) * 128 + 128; rw [e1]; show (i 1).val / 128 * 128 ≤ (i 1).val ∧ (i 1).val < (i 1).val / 128 * 128 + 128; omega
    | ⟨2, _⟩ => show win1_9.index _ (2 : Fin 3) * 128 ≤ (i 2).val ∧ (i 2).val < win1_9.index _ (2 : Fin 3) * 128 + 128; omega

end Cover

end Cert.KernelIdeal.Hand

end
-- ==== Proof.KIBodyEq2.lean ====
/-
  THE BODY OF REGION 2 IS FIVE LAYERS. The block the body of region 2 leaves (the composition of its payloads, KIRegion2.lean)
  is the update of layer 4 on four normalising layers (KLayer.lean), each layer reading its six parameter slices at
  its own offset of the stacked parameter blocks: the two are one term once the payloads and the layer functions are
  unfolded.
-/
import proofs.«182073_g78494822302262_cont_9to1_m_206_7_alg».proof.Proof.KIRegion2
import proofs.«182073_g78494822302262_cont_9to1_m_206_7_alg».proof.Proof.KLayer

set_option maxRecDepth 65536

noncomputable section

namespace Cert.KernelIdeal.Hand

open Cert.KernelIdeal Cert.KernelIdeal.Gen Idealize.ShloMosaic

variable {F : FTy → Type} [FloatOps F]

/-- The layer's input block, the edge block and the ones matrix as the body first casts them. -/
abbrev X2 (x0 : Vec F S54x128x128 .f32) : FVec F S54x128x128 .f32 :=
  shapeCast S54x128x128 (View.ld x0 rOut2) shapeCasts_S54x128x128_S54x128x128
abbrev E2 (x1 : Vec F S72x128x64 .f32) : FVec F S72x128x64 .f32 :=
  shapeCast S72x128x64 (View.ld x1 (Rect.unit (s := S72x128x64) ![0, 0, 0] S72x128x64.size inb_S72x128x64_S72x128x64_0_0_0)) shapeCasts_S72x128x64_S72x128x64
abbrev O2 (x8 : Vec F S128x128 .f32) : FVec F S128x128 .f32 :=
  shapeCast S128x128 (View.ld x8 (Rect.unit (s := S128x128) ![0, 0] S128x128.size inb_S128x128_S128x128_0_0)) shapeCasts_S128x128_S128x128

set_option maxHeartbeats 8000000 in
theorem bodyVal2_eq (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) :
    bodyVal2 x0 x1 x2 x3 x4 x5 x6 x7 x8
      = Cert.KLayer.linB
          (Cert.KLayer.layerB
            (Cert.KLayer.layerB
              (Cert.KLayer.layerB
                (Cert.KLayer.layerB (X2 x0) (E2 x1) (O2 x8) (View.ld x2 (Rect.unit (s := S5x128x128) ![0, 0, 0] S1x128x128.size inb_S5x128x128_S1x128x128_0_0_0)) (View.ld x3 (Rect.unit (s := S5x64x128) ![0, 0, 0] S1x64x128.size inb_S5x64x128_S1x64x128_0_0_0)) (View.ld x6 (Rect.unit (s := S5x1x128) ![0, 0, 0] S1x1x128.size inb_S5x1x128_S1x1x128_0_0_0)) (View.ld x4 (Rect.unit (s := S5x128x128) ![0, 0, 0] S1x128x128.size inb_S5x128x128_S1x128x128_0_0_0)) (View.ld x5 (Rect.unit (s := S5x128x128) ![0, 0, 0] S1x128x128.size inb_S5x128x128_S1x128x128_0_0_0)) (View.ld x7 (Rect.unit (s := S5x1x128) ![0, 0, 0] S1x1x128.size inb_S5x1x128_S1x1x128_0_0_0)))
                (E2 x1) (O2 x8) (View.ld x2 (Rect.unit (s := S5x128x128) ![1, 0, 0] S1x128x128.size inb_S5x128x128_S1x128x128_1_0_0)) (View.ld x3 (Rect.unit (s := S5x64x128) ![1, 0, 0] S1x64x128.size inb_S5x64x128_S1x64x128_1_0_0)) (View.ld x6 (Rect.unit (s := S5x1x128) ![1, 0, 0] S1x1x128.size inb_S5x1x128_S1x1x128_1_0_0)) (View.ld x4 (Rect.unit (s := S5x128x128) ![1, 0, 0] S1x128x128.size inb_S5x128x128_S1x128x128_1_0_0)) (View.ld x5 (Rect.unit (s := S5x128x128) ![1, 0, 0] S1x128x128.size inb_S5x128x128_S1x128x128_1_0_0)) (View.ld x7 (Rect.unit (s := S5x1x128) ![1, 0, 0] S1x1x128.size inb_S5x1x128_S1x1x128_1_0_0)))
              (E2 x1) (O2 x8) (View.ld x2 (Rect.unit (s := S5x128x128) ![2, 0, 0] S1x128x128.size inb_S5x128x128_S1x128x128_2_0_0)) (View.ld x3 (Rect.unit (s := S5x64x128) ![2, 0, 0] S1x64x128.size inb_S5x64x128_S1x64x128_2_0_0)) (View.ld x6 (Rect.unit (s := S5x1x128) ![2, 0, 0] S1x1x128.size inb_S5x1x128_S1x1x128_2_0_0)) (View.ld x4 (Rect.unit (s := S5x128x128) ![2, 0, 0] S1x128x128.size inb_S5x128x128_S1x128x128_2_0_0)) (View.ld x5 (Rect.unit (s := S5x128x128) ![2, 0, 0] S1x128x128.size inb_S5x128x128_S1x128x128_2_0_0)) (View.ld x7 (Rect.unit (s := S5x1x128) ![2, 0, 0] S1x1x128.size inb_S5x1x128_S1x1x128_2_0_0)))
            (E2 x1) (O2 x8) (View.ld x2 (Rect.unit (s := S5x128x128) ![3, 0, 0] S1x128x128.size inb_S5x128x128_S1x128x128_3_0_0)) (View.ld x3 (Rect.unit (s := S5x64x128) ![3, 0, 0] S1x64x128.size inb_S5x64x128_S1x64x128_3_0_0)) (View.ld x6 (Rect.unit (s := S5x1x128) ![3, 0, 0] S1x1x128.size inb_S5x1x128_S1x1x128_3_0_0)) (View.ld x4 (Rect.unit (s := S5x128x128) ![3, 0, 0] S1x128x128.size inb_S5x128x128_S1x128x128_3_0_0)) (View.ld x5 (Rect.unit (s := S5x128x128) ![3, 0, 0] S1x128x128.size inb_S5x128x128_S1x128x128_3_0_0)) (View.ld x7 (Rect.unit (s := S5x1x128) ![3, 0, 0] S1x1x128.size inb_S5x1x128_S1x1x128_3_0_0)))
          (E2 x1) (View.ld x2 (Rect.unit (s := S5x128x128) ![4, 0, 0] S1x128x128.size inb_S5x128x128_S1x128x128_4_0_0)) (View.ld x3 (Rect.unit (s := S5x64x128) ![4, 0, 0] S1x64x128.size inb_S5x64x128_S1x64x128_4_0_0)) (View.ld x6 (Rect.unit (s := S5x1x128) ![4, 0, 0] S1x1x128.size inb_S5x1x128_S1x1x128_4_0_0)) (View.ld x4 (Rect.unit (s := S5x128x128) ![4, 0, 0] S1x128x128.size inb_S5x128x128_S1x128x128_4_0_0)) (View.ld x5 (Rect.unit (s := S5x128x128) ![4, 0, 0] S1x128x128.size inb_S5x128x128_S1x128x128_4_0_0)) (View.ld x7 (Rect.unit (s := S5x1x128) ![4, 0, 0] S1x1x128.size inb_S5x1x128_S1x1x128_4_0_0)) := by
  unfold bodyVal2 k2_pay1 k2_pay2 k2_pay3 k2_pay4 k2_pay5 k2_pay6 k2_pay7 k2_pay8 k2_pay9 k2_pay10 k2_pay11 k2_pay12 k2_pay13 k2_pay14 k2_pay15 k2_pay16 k2_pay17 k2_pay18 k2_pay19 k2_pay20 k2_pay21 k2_pay22 k2_pay23 k2_pay24 k2_pay25 k2_pay26 k2_pay27 Cert.KLayer.linB Cert.KLayer.layerB Cert.KLayer.unitB Cert.KLayer.aggB Cert.KLayer.biasB Cert.KLayer.mm Cert.KLayer.mmE
  rfl

end Cert.KernelIdeal.Hand

end
-- ==== Proof.KIValue2.lean ====
/-
  WHAT REGION 2 LEAVES IN ITS OUTPUT ARRAY. If, when the region is entered, the packed vertex array holds batch element
  1024·2 + 4 c' + g of the vertices in group g of row c', the packed edge array that element's edge 3 w + j in row 24 j + w,
  the four weight arrays the block-diagonal stacks, the two bias arrays the biases tiled four times and the ones array
  the block-diagonal ones, then after the region every entry (n, c', 32 g + o) of the output array is the network
  (Spec.lean, the spelling that multiplies by the reciprocal square root) at (1024·2 + 4 c' + g, n, o): each grid point
  writes back the body's five layers of its blocks (KIBodyEq2, KNet), and the two points' blocks cover the array.
-/
import proofs.«182073_g78494822302262_cont_9to1_m_206_7_alg».proof.Proof.KIBodyEq2
import proofs.«182073_g78494822302262_cont_9to1_m_206_7_alg».proof.Proof.KNet
import proofs.«182073_g78494822302262_cont_9to1_m_206_7_alg».proof.Proof.LibStackLoad
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window BodyObligation cellOf)
open Cert.KLayerAt

variable (V : (c : Dev nD) → (b : Ref sig .tc) → Buf (Elt Ideal) ((c : Thread nD τ).loc b))

theorem hz3_2 : (![0, 0, 0] : Fin 3 → Nat) = fun _ => 0 := funext fun a => by fin_cases a <;> rfl

/-- What grid point t writes back: the body's result block of the input blocks at t. -/
theorem flushed2_eq (c : Dev nD) (t : Fin cfg2.N) :
    (dat2 (F := Ideal) V c).flushed 9 t = bodyVal2 (iblk2 V c 0 t) (iblk2 V c 1 t) (iblk2 V c 2 t) (iblk2 V c 3 t) (iblk2 V c 4 t) (iblk2 V c 5 t) (iblk2 V c 6 t) (iblk2 V c 7 t) (iblk2 V c 8 t) := by
  show (cfg2.win 9).cut (grid2.coords t) ((dat2 (F := Ideal) V c).after 9 t) = _
  rw [after2_9]
  unfold out2_9
  rw [View.canon_unit_zero hz3_2]
  rfl

/-! ## Where the blocks sit -/

/-- The printed index maps over the grid's two points: the vertex, edge and output windows move along axis 1 with the
    point, the parameter windows stay. -/
theorem idx_facts2 : ∀ t : Fin cfg2.N,
    (win2_0.index t (0 : Fin 3) = 0 ∧ win2_0.index t (1 : Fin 3) = t.val ∧ win2_0.index t (2 : Fin 3) = 0) ∧ (win2_1.index t (0 : Fin 3) = 0 ∧ win2_1.index t (1 : Fin 3) = t.val ∧ win2_1.index t (2 : Fin 3) = 0) ∧ (win2_9.index t (0 : Fin 3) = 0 ∧ win2_9.index t (1 : Fin 3) = t.val ∧ win2_9.index t (2 : Fin 3) = 0)
    ∧ (win2_2.index t (0 : Fin 3) = 0 ∧ win2_2.index t (1 : Fin 3) = 0 ∧ win2_2.index t (2 : Fin 3) = 0) ∧ (win2_3.index t (0 : Fin 3) = 0 ∧ win2_3.index t (1 : Fin 3) = 0 ∧ win2_3.index t (2 : Fin 3) = 0) ∧ (win2_4.index t (0 : Fin 3) = 0 ∧ win2_4.index t (1 : Fin 3) = 0 ∧ win2_4.index t (2 : Fin 3) = 0) ∧ (win2_5.index t (0 : Fin 3) = 0 ∧ win2_5.index t (1 : Fin 3) = 0 ∧ win2_5.index t (2 : Fin 3) = 0) ∧ (win2_6.index t (0 : Fin 3) = 0 ∧ win2_6.index t (1 : Fin 3) = 0 ∧ win2_6.index t (2 : Fin 3) = 0) ∧ (win2_7.index t (0 : Fin 3) = 0 ∧ win2_7.index t (1 : Fin 3) = 0 ∧ win2_7.index t (2 : Fin 3) = 0)
    ∧ (win2_8.index t (0 : Fin 2) = 0 ∧ win2_8.index t (1 : Fin 2) = 0) :=
  (by decide +kernel : ∀ t : Fin grid2.N, _)

/-- The vertex window's block at point t, row r of the block: row 128 t + r of the packed array. -/
theorem iblk2_0_apply (c : Dev nD) (t : Fin cfg2.N) (n : Fin 54) (r : Fin 128) (l : Fin 128) :
    iblk2 (F := Ideal) V c 0 t (ix3 n r l)
      = V c main_v91 (ix3 n (⟨128 * t.val + r.val, by have := t.isLt; have hN : cfg2.N = 2 := N_2; have := r.isLt; omega⟩ : Fin 256) l) := by
  show V c main_v91 (((cfg2.win 0).blk t).view.emb (ix3 n r l)) = _
  obtain ⟨⟨e0, e1, e2⟩, -⟩ := idx_facts2 t
  refine congrArg (V c main_v91) (funext fun a => Fin.ext ?_)
  match a with
  | ⟨0, _⟩ => show win2_0.index t (0 : Fin 3) * 54 + 1 * n.val = n.val; omega
  | ⟨1, _⟩ => show win2_0.index t (1 : Fin 3) * 128 + 1 * r.val = 128 * t.val + r.val; omega
  | ⟨2, _⟩ => show win2_0.index t (2 : Fin 3) * 128 + 1 * l.val = l.val; omega

/-- The edge window's block at point t. -/
theorem iblk2_1_apply (c : Dev nD) (t : Fin cfg2.N) (m' : Fin 72) (r : Fin 128) (l : Fin 64) :
    iblk2 (F := Ideal) V c 1 t (ix3 m' r l)
      = V c main_v94 (ix3 m' (⟨128 * t.val + r.val, by have := t.isLt; have hN : cfg2.N = 2 := N_2; have := r.isLt; omega⟩ : Fin 256) l) := by
  show V c main_v94 (((cfg2.win 1).blk t).view.emb (ix3 m' r l)) = _
  obtain ⟨-, ⟨e0, e1, e2⟩, -⟩ := idx_facts2 t
  refine congrArg (V c main_v94) (funext fun a => Fin.ext ?_)
  match a with
  | ⟨0, _⟩ => show win2_1.index t (0 : Fin 3) * 72 + 1 * m'.val = m'.val; omega
  | ⟨1, _⟩ => show win2_1.index t (1 : Fin 3) * 128 + 1 * r.val = 128 * t.val + r.val; omega
  | ⟨2, _⟩ => show win2_1.index t (2 : Fin 3) * 64 + 1 * l.val = l.val; omega

/-- Input window 2's block (the whole array) at a grid point. -/
theorem iblk2_2_apply (c : Dev nD) (t : Fin cfg2.N) (i : Fin 5) (k : Fin 128) (l : Fin 128) :
    iblk2 (F := Ideal) V c 2 t (ix3 i k l) = V c main_v13 (ix3 i k l) := by
  show V c main_v13 (((cfg2.win 2).blk t).view.emb (ix3 i k l)) = _
  obtain ⟨-, -, -, h2, h3, h4, h5, h6, h7, -⟩ := idx_facts2 t
  refine congrArg (V c main_v13) (funext fun a => Fin.ext ?_)
  obtain ⟨e0, e1, e2⟩ := h2
  match a with
  | ⟨0, _⟩ => show win2_2.index t (0 : Fin 3) * 5 + 1 * i.val = i.val; omega
  | ⟨1, _⟩ => show win2_2.index t (1 : Fin 3) * 128 + 1 * k.val = k.val; omega
  | ⟨2, _⟩ => show win2_2.index t (2 : Fin 3) * 128 + 1 * l.val = l.val; omega

/-- Input window 3's block (the whole array) at a grid point. -/
theorem iblk2_3_apply (c : Dev nD) (t : Fin cfg2.N) (i : Fin 5) (k : Fin 64) (l : Fin 128) :
    iblk2 (F := Ideal) V c 3 t (ix3 i k l) = V c main_v25 (ix3 i k l) := by
  show V c main_v25 (((cfg2.win 3).blk t).view.emb (ix3 i k l)) = _
  obtain ⟨-, -, -, h2, h3, h4, h5, h6, h7, -⟩ := idx_facts2 t
  refine congrArg (V c main_v25) (funext fun a => Fin.ext ?_)
  obtain ⟨e0, e1, e2⟩ := h3
  match a with
  | ⟨0, _⟩ => show win2_3.index t (0 : Fin 3) * 5 + 1 * i.val = i.val; omega
  | ⟨1, _⟩ => show win2_3.index t (1 : Fin 3) * 64 + 1 * k.val = k.val; omega
  | ⟨2, _⟩ => show win2_3.index t (2 : Fin 3) * 128 + 1 * l.val = l.val; omega

/-- Input window 4's block (the whole array) at a grid point. -/
theorem iblk2_4_apply (c : Dev nD) (t : Fin cfg2.N) (i : Fin 5) (k : Fin 128) (l : Fin 128) :
    iblk2 (F := Ideal) V c 4 t (ix3 i k l) = V c main_v38 (ix3 i k l) := by
  show V c main_v38 (((cfg2.win 4).blk t).view.emb (ix3 i k l)) = _
  obtain ⟨-, -, -, h2, h3, h4, h5, h6, h7, -⟩ := idx_facts2 t
  refine congrArg (V c main_v38) (funext fun a => Fin.ext ?_)
  obtain ⟨e0, e1, e2⟩ := h4
  match a with
  | ⟨0, _⟩ => show win2_4.index t (0 : Fin 3) * 5 + 1 * i.val = i.val; omega
  | ⟨1, _⟩ => show win2_4.index t (1 : Fin 3) * 128 + 1 * k.val = k.val; omega
  | ⟨2, _⟩ => show win2_4.index t (2 : Fin 3) * 128 + 1 * l.val = l.val; omega

/-- Input window 5's block (the whole array) at a grid point. -/
theorem iblk2_5_apply (c : Dev nD) (t : Fin cfg2.N) (i : Fin 5) (k : Fin 128) (l : Fin 128) :
    iblk2 (F := Ideal) V c 5 t (ix3 i k l) = V c main_v51 (ix3 i k l) := by
  show V c main_v51 (((cfg2.win 5).blk t).view.emb (ix3 i k l)) = _
  obtain ⟨-, -, -, h2, h3, h4, h5, h6, h7, -⟩ := idx_facts2 t
  refine congrArg (V c main_v51) (funext fun a => Fin.ext ?_)
  obtain ⟨e0, e1, e2⟩ := h5
  match a with
  | ⟨0, _⟩ => show win2_5.index t (0 : Fin 3) * 5 + 1 * i.val = i.val; omega
  | ⟨1, _⟩ => show win2_5.index t (1 : Fin 3) * 128 + 1 * k.val = k.val; omega
  | ⟨2, _⟩ => show win2_5.index t (2 : Fin 3) * 128 + 1 * l.val = l.val; omega

/-- Input window 6's block (the whole array) at a grid point. -/
theorem iblk2_6_apply (c : Dev nD) (t : Fin cfg2.N) (i : Fin 5) (k : Fin 1) (l : Fin 128) :
    iblk2 (F := Ideal) V c 6 t (ix3 i k l) = V c main_v55 (ix3 i k l) := by
  show V c main_v55 (((cfg2.win 6).blk t).view.emb (ix3 i k l)) = _
  obtain ⟨-, -, -, h2, h3, h4, h5, h6, h7, -⟩ := idx_facts2 t
  refine congrArg (V c main_v55) (funext fun a => Fin.ext ?_)
  obtain ⟨e0, e1, e2⟩ := h6
  match a with
  | ⟨0, _⟩ => show win2_6.index t (0 : Fin 3) * 5 + 1 * i.val = i.val; omega
  | ⟨1, _⟩ => show win2_6.index t (1 : Fin 3) * 1 + 1 * k.val = k.val; omega
  | ⟨2, _⟩ => show win2_6.index t (2 : Fin 3) * 128 + 1 * l.val = l.val; omega

/-- Input window 7's block (the whole array) at a grid point. -/
theorem iblk2_7_apply (c : Dev nD) (t : Fin cfg2.N) (i : Fin 5) (k : Fin 1) (l : Fin 128) :
    iblk2 (F := Ideal) V c 7 t (ix3 i k l) = V c main_v59 (ix3 i k l) := by
  show V c main_v59 (((cfg2.win 7).blk t).view.emb (ix3 i k l)) = _
  obtain ⟨-, -, -, h2, h3, h4, h5, h6, h7, -⟩ := idx_facts2 t
  refine congrArg (V c main_v59) (funext fun a => Fin.ext ?_)
  obtain ⟨e0, e1, e2⟩ := h7
  match a with
  | ⟨0, _⟩ => show win2_7.index t (0 : Fin 3) * 5 + 1 * i.val = i.val; omega
  | ⟨1, _⟩ => show win2_7.index t (1 : Fin 3) * 1 + 1 * k.val = k.val; omega
  | ⟨2, _⟩ => show win2_7.index t (2 : Fin 3) * 128 + 1 * l.val = l.val; omega

/-- The ones window's block (the whole matrix) at a grid point. -/
theorem iblk2_8_apply (c : Dev nD) (t : Fin cfg2.N) (k : Fin 128) (l : Fin 128) :
    iblk2 (F := Ideal) V c 8 t (ix2 k l) = V c main_v67 (ix2 k l) := by
  show V c main_v67 (((cfg2.win 8).blk t).view.emb (ix2 k l)) = _
  obtain ⟨-, -, -, -, -, -, -, -, -, e0, e1⟩ := idx_facts2 t
  refine congrArg (V c main_v67) (funext fun a => Fin.ext ?_)
  match a with
  | ⟨0, _⟩ => show win2_8.index t (0 : Fin 2) * 128 + 1 * k.val = k.val; omega
  | ⟨1, _⟩ => show win2_8.index t (1 : Fin 2) * 128 + 1 * l.val = l.val; omega

/-! ## The output array after the region -/

section Final

variable (a0 : FVec Ideal S4096x54x32 .f32) (a1 : FVec Ideal S4096x72x16 .f32) (a2 : FVec Ideal S5x48x32 .f32)
  (a3 : FVec Ideal S5x32 .f32) (a4 : FVec Ideal S5x64x32 .f32) (a5 : FVec Ideal S5x32 .f32)

/-- What the region-entry contents hold at the lanes of each batch element of chunk 2. -/
structure Entry2 (c : Dev nD) : Prop where
  vt : ∀ (n : Fin 54) (c' : Fin 256) (g : Fin 4) (f : Fin 32), V c main_v91 (ix3 n c' (lane g f))
    = a0 (ix3 (⟨2048 + (4 * c'.val + g.val), by have := c'.isLt; have := g.isLt; omega⟩ : Fin 4096) n f)
  ep : ∀ (j : Fin 3) (w : Fin 24) (c' : Fin 256) (g : Fin 4) (d : Fin 16),
    V c main_v94 (ix3 (⟨24 * j.val + w.val, by have := j.isLt; have := w.isLt; omega⟩ : Fin 72) c' (lane16 g d))
    = a1 (ix3 (⟨2048 + (4 * c'.val + g.val), by have := c'.isLt; have := g.isLt; omega⟩ : Fin 4096)
        (⟨3 * w.val + j.val, by have := j.isLt; have := w.isLt; omega⟩ : Fin 72) d)
  wp : ∀ (i : Fin 5) (g : Fin 4) (f : Fin 32) (g' : Fin 4) (o : Fin 32), V c main_v13 (ix3 i (lane g f) (lane g' o))
    = if g = g' then a2 (ix3 i (⟨f.val, by have := f.isLt; omega⟩ : Fin 48) o) else 0
  we : ∀ (i : Fin 5) (g : Fin 4) (d : Fin 16) (g' : Fin 4) (o : Fin 32), V c main_v25 (ix3 i (lane16 g d) (lane g' o))
    = if g = g' then a2 (ix3 i (⟨32 + d.val, by have := d.isLt; omega⟩ : Fin 48) o) else 0
  wh1 : ∀ (i : Fin 5) (g : Fin 4) (f : Fin 32) (g' : Fin 4) (o : Fin 32), V c main_v38 (ix3 i (lane g f) (lane g' o))
    = if g = g' then a4 (ix3 i (⟨f.val, by have := f.isLt; omega⟩ : Fin 64) o) else 0
  wh2 : ∀ (i : Fin 5) (g : Fin 4) (f : Fin 32) (g' : Fin 4) (o : Fin 32), V c main_v51 (ix3 i (lane g f) (lane g' o))
    = if g = g' then a4 (ix3 i (⟨32 + f.val, by have := f.isLt; omega⟩ : Fin 64) o) else 0
  eb : ∀ (i : Fin 5) (g : Fin 4) (o : Fin 32), V c main_v55 (ix3 i (0 : Fin 1) (lane g o)) = a3 (ix2 i o)
  hb : ∀ (i : Fin 5) (g : Fin 4) (o : Fin 32), V c main_v59 (ix3 i (0 : Fin 1) (lane g o)) = a5 (ix2 i o)
  ones : ∀ (g : Fin 4) (f : Fin 32) (g' : Fin 4) (o : Fin 32), V c main_v67 (ix2 (lane g f) (lane g' o)) = if g = g' then (1 : EReal) else 0

abbrev wpF2 (c : Dev nD) (t : Fin cfg2.N) : Fin 5 → Vec Ideal S1x128x128 .f32
  | ⟨0, _⟩ => View.ld (iblk2 (F := Ideal) V c 2 t) (Rect.unit (s := S5x128x128) ![0, 0, 0] S1x128x128.size inb_S5x128x128_S1x128x128_0_0_0)
  | ⟨1, _⟩ => View.ld (iblk2 (F := Ideal) V c 2 t) (Rect.unit (s := S5x128x128) ![1, 0, 0] S1x128x128.size inb_S5x128x128_S1x128x128_1_0_0)
  | ⟨2, _⟩ => View.ld (iblk2 (F := Ideal) V c 2 t) (Rect.unit (s := S5x128x128) ![2, 0, 0] S1x128x128.size inb_S5x128x128_S1x128x128_2_0_0)
  | ⟨3, _⟩ => View.ld (iblk2 (F := Ideal) V c 2 t) (Rect.unit (s := S5x128x128) ![3, 0, 0] S1x128x128.size inb_S5x128x128_S1x128x128_3_0_0)
  | ⟨4, _⟩ => View.ld (iblk2 (F := Ideal) V c 2 t) (Rect.unit (s := S5x128x128) ![4, 0, 0] S1x128x128.size inb_S5x128x128_S1x128x128_4_0_0)
abbrev weF2 (c : Dev nD) (t : Fin cfg2.N) : Fin 5 → Vec Ideal S1x64x128 .f32
  | ⟨0, _⟩ => View.ld (iblk2 (F := Ideal) V c 3 t) (Rect.unit (s := S5x64x128) ![0, 0, 0] S1x64x128.size inb_S5x64x128_S1x64x128_0_0_0)
  | ⟨1, _⟩ => View.ld (iblk2 (F := Ideal) V c 3 t) (Rect.unit (s := S5x64x128) ![1, 0, 0] S1x64x128.size inb_S5x64x128_S1x64x128_1_0_0)
  | ⟨2, _⟩ => View.ld (iblk2 (F := Ideal) V c 3 t) (Rect.unit (s := S5x64x128) ![2, 0, 0] S1x64x128.size inb_S5x64x128_S1x64x128_2_0_0)
  | ⟨3, _⟩ => View.ld (iblk2 (F := Ideal) V c 3 t) (Rect.unit (s := S5x64x128) ![3, 0, 0] S1x64x128.size inb_S5x64x128_S1x64x128_3_0_0)
  | ⟨4, _⟩ => View.ld (iblk2 (F := Ideal) V c 3 t) (Rect.unit (s := S5x64x128) ![4, 0, 0] S1x64x128.size inb_S5x64x128_S1x64x128_4_0_0)
abbrev ebF2 (c : Dev nD) (t : Fin cfg2.N) : Fin 5 → Vec Ideal S1x1x128 .f32
  | ⟨0, _⟩ => View.ld (iblk2 (F := Ideal) V c 6 t) (Rect.unit (s := S5x1x128) ![0, 0, 0] S1x1x128.size inb_S5x1x128_S1x1x128_0_0_0)
  | ⟨1, _⟩ => View.ld (iblk2 (F := Ideal) V c 6 t) (Rect.unit (s := S5x1x128) ![1, 0, 0] S1x1x128.size inb_S5x1x128_S1x1x128_1_0_0)
  | ⟨2, _⟩ => View.ld (iblk2 (F := Ideal) V c 6 t) (Rect.unit (s := S5x1x128) ![2, 0, 0] S1x1x128.size inb_S5x1x128_S1x1x128_2_0_0)
  | ⟨3, _⟩ => View.ld (iblk2 (F := Ideal) V c 6 t) (Rect.unit (s := S5x1x128) ![3, 0, 0] S1x1x128.size inb_S5x1x128_S1x1x128_3_0_0)
  | ⟨4, _⟩ => View.ld (iblk2 (F := Ideal) V c 6 t) (Rect.unit (s := S5x1x128) ![4, 0, 0] S1x1x128.size inb_S5x1x128_S1x1x128_4_0_0)
abbrev wh1F2 (c : Dev nD) (t : Fin cfg2.N) : Fin 5 → Vec Ideal S1x128x128 .f32
  | ⟨0, _⟩ => View.ld (iblk2 (F := Ideal) V c 4 t) (Rect.unit (s := S5x128x128) ![0, 0, 0] S1x128x128.size inb_S5x128x128_S1x128x128_0_0_0)
  | ⟨1, _⟩ => View.ld (iblk2 (F := Ideal) V c 4 t) (Rect.unit (s := S5x128x128) ![1, 0, 0] S1x128x128.size inb_S5x128x128_S1x128x128_1_0_0)
  | ⟨2, _⟩ => View.ld (iblk2 (F := Ideal) V c 4 t) (Rect.unit (s := S5x128x128) ![2, 0, 0] S1x128x128.size inb_S5x128x128_S1x128x128_2_0_0)
  | ⟨3, _⟩ => View.ld (iblk2 (F := Ideal) V c 4 t) (Rect.unit (s := S5x128x128) ![3, 0, 0] S1x128x128.size inb_S5x128x128_S1x128x128_3_0_0)
  | ⟨4, _⟩ => View.ld (iblk2 (F := Ideal) V c 4 t) (Rect.unit (s := S5x128x128) ![4, 0, 0] S1x128x128.size inb_S5x128x128_S1x128x128_4_0_0)
abbrev wh2F2 (c : Dev nD) (t : Fin cfg2.N) : Fin 5 → Vec Ideal S1x128x128 .f32
  | ⟨0, _⟩ => View.ld (iblk2 (F := Ideal) V c 5 t) (Rect.unit (s := S5x128x128) ![0, 0, 0] S1x128x128.size inb_S5x128x128_S1x128x128_0_0_0)
  | ⟨1, _⟩ => View.ld (iblk2 (F := Ideal) V c 5 t) (Rect.unit (s := S5x128x128) ![1, 0, 0] S1x128x128.size inb_S5x128x128_S1x128x128_1_0_0)
  | ⟨2, _⟩ => View.ld (iblk2 (F := Ideal) V c 5 t) (Rect.unit (s := S5x128x128) ![2, 0, 0] S1x128x128.size inb_S5x128x128_S1x128x128_2_0_0)
  | ⟨3, _⟩ => View.ld (iblk2 (F := Ideal) V c 5 t) (Rect.unit (s := S5x128x128) ![3, 0, 0] S1x128x128.size inb_S5x128x128_S1x128x128_3_0_0)
  | ⟨4, _⟩ => View.ld (iblk2 (F := Ideal) V c 5 t) (Rect.unit (s := S5x128x128) ![4, 0, 0] S1x128x128.size inb_S5x128x128_S1x128x128_4_0_0)
abbrev hbF2 (c : Dev nD) (t : Fin cfg2.N) : Fin 5 → Vec Ideal S1x1x128 .f32
  | ⟨0, _⟩ => View.ld (iblk2 (F := Ideal) V c 7 t) (Rect.unit (s := S5x1x128) ![0, 0, 0] S1x1x128.size inb_S5x1x128_S1x1x128_0_0_0)
  | ⟨1, _⟩ => View.ld (iblk2 (F := Ideal) V c 7 t) (Rect.unit (s := S5x1x128) ![1, 0, 0] S1x1x128.size inb_S5x1x128_S1x1x128_1_0_0)
  | ⟨2, _⟩ => View.ld (iblk2 (F := Ideal) V c 7 t) (Rect.unit (s := S5x1x128) ![2, 0, 0] S1x1x128.size inb_S5x1x128_S1x1x128_2_0_0)
  | ⟨3, _⟩ => View.ld (iblk2 (F := Ideal) V c 7 t) (Rect.unit (s := S5x1x128) ![3, 0, 0] S1x1x128.size inb_S5x1x128_S1x1x128_3_0_0)
  | ⟨4, _⟩ => View.ld (iblk2 (F := Ideal) V c 7 t) (Rect.unit (s := S5x1x128) ![4, 0, 0] S1x1x128.size inb_S5x1x128_S1x1x128_4_0_0)

variable {V a0 a1 a2 a3 a4 a5}

/-- The loaded slices are the layers' packed parameters. -/
theorem packed2 {c : Dev nD} (hE : Entry2 V a0 a1 a2 a3 a4 a5 c) (t : Fin cfg2.N) (i : Fin 5) :
    Packed (fun f o => a2 (ix3 i f o)) (fun o => a3 (ix2 i o)) (fun f o => a4 (ix3 i f o)) (fun o => a5 (ix2 i o))
      (wpF2 V c t i) (weF2 V c t i) (ebF2 V c t i) (wh1F2 V c t i) (wh2F2 V c t i) (hbF2 V c t i) := by
  match i with
  | ⟨0, _⟩ => exact
    { wp := fun g f g' o => by
        show View.ld (iblk2 (F := Ideal) V c 2 t) (Rect.unit (s := S5x128x128) ![0, 0, 0] S1x128x128.size inb_S5x128x128_S1x128x128_0_0_0) (ix3 (0 : Fin 1) (lane g f) (lane g' o)) = _
        rw [Cert.LibStackLoad.ld_slice_apply _ 0 (by decide), iblk2_2_apply, hE.wp]
      we := fun g d g' o => by
        show View.ld (iblk2 (F := Ideal) V c 3 t) (Rect.unit (s := S5x64x128) ![0, 0, 0] S1x64x128.size inb_S5x64x128_S1x64x128_0_0_0) (ix3 (0 : Fin 1) (lane16 g d) (lane g' o)) = _
        rw [Cert.LibStackLoad.ld_slice_apply _ 0 (by decide), iblk2_3_apply, hE.we]
      eb := fun g o => by
        show View.ld (iblk2 (F := Ideal) V c 6 t) (Rect.unit (s := S5x1x128) ![0, 0, 0] S1x1x128.size inb_S5x1x128_S1x1x128_0_0_0) (ix3 (0 : Fin 1) (0 : Fin 1) (lane g o)) = _
        rw [Cert.LibStackLoad.ld_slice_apply _ 0 (by decide), iblk2_6_apply, hE.eb]
      wh1 := fun g f g' o => by
        show View.ld (iblk2 (F := Ideal) V c 4 t) (Rect.unit (s := S5x128x128) ![0, 0, 0] S1x128x128.size inb_S5x128x128_S1x128x128_0_0_0) (ix3 (0 : Fin 1) (lane g f) (lane g' o)) = _
        rw [Cert.LibStackLoad.ld_slice_apply _ 0 (by decide), iblk2_4_apply, hE.wh1]
      wh2 := fun g f g' o => by
        show View.ld (iblk2 (F := Ideal) V c 5 t) (Rect.unit (s := S5x128x128) ![0, 0, 0] S1x128x128.size inb_S5x128x128_S1x128x128_0_0_0) (ix3 (0 : Fin 1) (lane g f) (lane g' o)) = _
        rw [Cert.LibStackLoad.ld_slice_apply _ 0 (by decide), iblk2_5_apply, hE.wh2]
      hb := fun g o => by
        show View.ld (iblk2 (F := Ideal) V c 7 t) (Rect.unit (s := S5x1x128) ![0, 0, 0] S1x1x128.size inb_S5x1x128_S1x1x128_0_0_0) (ix3 (0 : Fin 1) (0 : Fin 1) (lane g o)) = _
        rw [Cert.LibStackLoad.ld_slice_apply _ 0 (by decide), iblk2_7_apply, hE.hb] }
  | ⟨1, _⟩ => exact
    { wp := fun g f g' o => by
        show View.ld (iblk2 (F := Ideal) V c 2 t) (Rect.unit (s := S5x128x128) ![1, 0, 0] S1x128x128.size inb_S5x128x128_S1x128x128_1_0_0) (ix3 (0 : Fin 1) (lane g f) (lane g' o)) = _
        rw [Cert.LibStackLoad.ld_slice_apply _ 1 (by decide), iblk2_2_apply, hE.wp]
      we := fun g d g' o => by
        show View.ld (iblk2 (F := Ideal) V c 3 t) (Rect.unit (s := S5x64x128) ![1, 0, 0] S1x64x128.size inb_S5x64x128_S1x64x128_1_0_0) (ix3 (0 : Fin 1) (lane16 g d) (lane g' o)) = _
        rw [Cert.LibStackLoad.ld_slice_apply _ 1 (by decide), iblk2_3_apply, hE.we]
      eb := fun g o => by
        show View.ld (iblk2 (F := Ideal) V c 6 t) (Rect.unit (s := S5x1x128) ![1, 0, 0] S1x1x128.size inb_S5x1x128_S1x1x128_1_0_0) (ix3 (0 : Fin 1) (0 : Fin 1) (lane g o)) = _
        rw [Cert.LibStackLoad.ld_slice_apply _ 1 (by decide), iblk2_6_apply, hE.eb]
      wh1 := fun g f g' o => by
        show View.ld (iblk2 (F := Ideal) V c 4 t) (Rect.unit (s := S5x128x128) ![1, 0, 0] S1x128x128.size inb_S5x128x128_S1x128x128_1_0_0) (ix3 (0 : Fin 1) (lane g f) (lane g' o)) = _
        rw [Cert.LibStackLoad.ld_slice_apply _ 1 (by decide), iblk2_4_apply, hE.wh1]
      wh2 := fun g f g' o => by
        show View.ld (iblk2 (F := Ideal) V c 5 t) (Rect.unit (s := S5x128x128) ![1, 0, 0] S1x128x128.size inb_S5x128x128_S1x128x128_1_0_0) (ix3 (0 : Fin 1) (lane g f) (lane g' o)) = _
        rw [Cert.LibStackLoad.ld_slice_apply _ 1 (by decide), iblk2_5_apply, hE.wh2]
      hb := fun g o => by
        show View.ld (iblk2 (F := Ideal) V c 7 t) (Rect.unit (s := S5x1x128) ![1, 0, 0] S1x1x128.size inb_S5x1x128_S1x1x128_1_0_0) (ix3 (0 : Fin 1) (0 : Fin 1) (lane g o)) = _
        rw [Cert.LibStackLoad.ld_slice_apply _ 1 (by decide), iblk2_7_apply, hE.hb] }
  | ⟨2, _⟩ => exact
    { wp := fun g f g' o => by
        show View.ld (iblk2 (F := Ideal) V c 2 t) (Rect.unit (s := S5x128x128) ![2, 0, 0] S1x128x128.size inb_S5x128x128_S1x128x128_2_0_0) (ix3 (0 : Fin 1) (lane g f) (lane g' o)) = _
        rw [Cert.LibStackLoad.ld_slice_apply _ 2 (by decide), iblk2_2_apply, hE.wp]
      we := fun g d g' o => by
        show View.ld (iblk2 (F := Ideal) V c 3 t) (Rect.unit (s := S5x64x128) ![2, 0, 0] S1x64x128.size inb_S5x64x128_S1x64x128_2_0_0) (ix3 (0 : Fin 1) (lane16 g d) (lane g' o)) = _
        rw [Cert.LibStackLoad.ld_slice_apply _ 2 (by decide), iblk2_3_apply, hE.we]
      eb := fun g o => by
        show View.ld (iblk2 (F := Ideal) V c 6 t) (Rect.unit (s := S5x1x128) ![2, 0, 0] S1x1x128.size inb_S5x1x128_S1x1x128_2_0_0) (ix3 (0 : Fin 1) (0 : Fin 1) (lane g o)) = _
        rw [Cert.LibStackLoad.ld_slice_apply _ 2 (by decide), iblk2_6_apply, hE.eb]
      wh1 := fun g f g' o => by
        show View.ld (iblk2 (F := Ideal) V c 4 t) (Rect.unit (s := S5x128x128) ![2, 0, 0] S1x128x128.size inb_S5x128x128_S1x128x128_2_0_0) (ix3 (0 : Fin 1) (lane g f) (lane g' o)) = _
        rw [Cert.LibStackLoad.ld_slice_apply _ 2 (by decide), iblk2_4_apply, hE.wh1]
      wh2 := fun g f g' o => by
        show View.ld (iblk2 (F := Ideal) V c 5 t) (Rect.unit (s := S5x128x128) ![2, 0, 0] S1x128x128.size inb_S5x128x128_S1x128x128_2_0_0) (ix3 (0 : Fin 1) (lane g f) (lane g' o)) = _
        rw [Cert.LibStackLoad.ld_slice_apply _ 2 (by decide), iblk2_5_apply, hE.wh2]
      hb := fun g o => by
        show View.ld (iblk2 (F := Ideal) V c 7 t) (Rect.unit (s := S5x1x128) ![2, 0, 0] S1x1x128.size inb_S5x1x128_S1x1x128_2_0_0) (ix3 (0 : Fin 1) (0 : Fin 1) (lane g o)) = _
        rw [Cert.LibStackLoad.ld_slice_apply _ 2 (by decide), iblk2_7_apply, hE.hb] }
  | ⟨3, _⟩ => exact
    { wp := fun g f g' o => by
        show View.ld (iblk2 (F := Ideal) V c 2 t) (Rect.unit (s := S5x128x128) ![3, 0, 0] S1x128x128.size inb_S5x128x128_S1x128x128_3_0_0) (ix3 (0 : Fin 1) (lane g f) (lane g' o)) = _
        rw [Cert.LibStackLoad.ld_slice_apply _ 3 (by decide), iblk2_2_apply, hE.wp]
      we := fun g d g' o => by
        show View.ld (iblk2 (F := Ideal) V c 3 t) (Rect.unit (s := S5x64x128) ![3, 0, 0] S1x64x128.size inb_S5x64x128_S1x64x128_3_0_0) (ix3 (0 : Fin 1) (lane16 g d) (lane g' o)) = _
        rw [Cert.LibStackLoad.ld_slice_apply _ 3 (by decide), iblk2_3_apply, hE.we]
      eb := fun g o => by
        show View.ld (iblk2 (F := Ideal) V c 6 t) (Rect.unit (s := S5x1x128) ![3, 0, 0] S1x1x128.size inb_S5x1x128_S1x1x128_3_0_0) (ix3 (0 : Fin 1) (0 : Fin 1) (lane g o)) = _
        rw [Cert.LibStackLoad.ld_slice_apply _ 3 (by decide), iblk2_6_apply, hE.eb]
      wh1 := fun g f g' o => by
        show View.ld (iblk2 (F := Ideal) V c 4 t) (Rect.unit (s := S5x128x128) ![3, 0, 0] S1x128x128.size inb_S5x128x128_S1x128x128_3_0_0) (ix3 (0 : Fin 1) (lane g f) (lane g' o)) = _
        rw [Cert.LibStackLoad.ld_slice_apply _ 3 (by decide), iblk2_4_apply, hE.wh1]
      wh2 := fun g f g' o => by
        show View.ld (iblk2 (F := Ideal) V c 5 t) (Rect.unit (s := S5x128x128) ![3, 0, 0] S1x128x128.size inb_S5x128x128_S1x128x128_3_0_0) (ix3 (0 : Fin 1) (lane g f) (lane g' o)) = _
        rw [Cert.LibStackLoad.ld_slice_apply _ 3 (by decide), iblk2_5_apply, hE.wh2]
      hb := fun g o => by
        show View.ld (iblk2 (F := Ideal) V c 7 t) (Rect.unit (s := S5x1x128) ![3, 0, 0] S1x1x128.size inb_S5x1x128_S1x1x128_3_0_0) (ix3 (0 : Fin 1) (0 : Fin 1) (lane g o)) = _
        rw [Cert.LibStackLoad.ld_slice_apply _ 3 (by decide), iblk2_7_apply, hE.hb] }
  | ⟨4, _⟩ => exact
    { wp := fun g f g' o => by
        show View.ld (iblk2 (F := Ideal) V c 2 t) (Rect.unit (s := S5x128x128) ![4, 0, 0] S1x128x128.size inb_S5x128x128_S1x128x128_4_0_0) (ix3 (0 : Fin 1) (lane g f) (lane g' o)) = _
        rw [Cert.LibStackLoad.ld_slice_apply _ 4 (by decide), iblk2_2_apply, hE.wp]
      we := fun g d g' o => by
        show View.ld (iblk2 (F := Ideal) V c 3 t) (Rect.unit (s := S5x64x128) ![4, 0, 0] S1x64x128.size inb_S5x64x128_S1x64x128_4_0_0) (ix3 (0 : Fin 1) (lane16 g d) (lane g' o)) = _
        rw [Cert.LibStackLoad.ld_slice_apply _ 4 (by decide), iblk2_3_apply, hE.we]
      eb := fun g o => by
        show View.ld (iblk2 (F := Ideal) V c 6 t) (Rect.unit (s := S5x1x128) ![4, 0, 0] S1x1x128.size inb_S5x1x128_S1x1x128_4_0_0) (ix3 (0 : Fin 1) (0 : Fin 1) (lane g o)) = _
        rw [Cert.LibStackLoad.ld_slice_apply _ 4 (by decide), iblk2_6_apply, hE.eb]
      wh1 := fun g f g' o => by
        show View.ld (iblk2 (F := Ideal) V c 4 t) (Rect.unit (s := S5x128x128) ![4, 0, 0] S1x128x128.size inb_S5x128x128_S1x128x128_4_0_0) (ix3 (0 : Fin 1) (lane g f) (lane g' o)) = _
        rw [Cert.LibStackLoad.ld_slice_apply _ 4 (by decide), iblk2_4_apply, hE.wh1]
      wh2 := fun g f g' o => by
        show View.ld (iblk2 (F := Ideal) V c 5 t) (Rect.unit (s := S5x128x128) ![4, 0, 0] S1x128x128.size inb_S5x128x128_S1x128x128_4_0_0) (ix3 (0 : Fin 1) (lane g f) (lane g' o)) = _
        rw [Cert.LibStackLoad.ld_slice_apply _ 4 (by decide), iblk2_5_apply, hE.wh2]
      hb := fun g o => by
        show View.ld (iblk2 (F := Ideal) V c 7 t) (Rect.unit (s := S5x1x128) ![4, 0, 0] S1x1x128.size inb_S5x1x128_S1x1x128_4_0_0) (ix3 (0 : Fin 1) (0 : Fin 1) (lane g o)) = _
        rw [Cert.LibStackLoad.ld_slice_apply _ 4 (by decide), iblk2_7_apply, hE.hb] }

end Final

section Last

variable {a0 : FVec Ideal S4096x54x32 .f32} {a1 : FVec Ideal S4096x72x16 .f32} {a2 : FVec Ideal S5x48x32 .f32}
  {a3 : FVec Ideal S5x32 .f32} {a4 : FVec Ideal S5x64x32 .f32} {a5 : FVec Ideal S5x32 .f32}

theorem hz2_2 : (![0, 0] : Fin 2 → Nat) = fun _ => 0 := funext fun a => by fin_cases a <;> rfl

/-- The block the body leaves at grid point t, at row r of the block and the lanes of group g: the network at the batch
    element in group g of row 128 t + r of chunk 2. -/
theorem block2_apply {V : (c : Dev nD) → (b : Ref sig .tc) → Buf (Elt Ideal) ((c : Thread nD τ).loc b)} {c : Dev nD}
    (hE : Entry2 V a0 a1 a2 a3 a4 a5 c) (t : Fin cfg2.N) (n : Fin 54) (r : Fin 128) (g : Fin 4) (o : Fin 32) :
    bodyVal2 (iblk2 (F := Ideal) V c 0 t) (iblk2 (F := Ideal) V c 1 t) (iblk2 (F := Ideal) V c 2 t)
        (iblk2 (F := Ideal) V c 3 t) (iblk2 (F := Ideal) V c 4 t) (iblk2 (F := Ideal) V c 5 t)
        (iblk2 (F := Ideal) V c 6 t) (iblk2 (F := Ideal) V c 7 t) (iblk2 (F := Ideal) V c 8 t) (ix3 n r (lane g o))
      = Cert.Spec.netMul (fun i f o => a2 (ix3 i f o)) (fun i o => a3 (ix2 i o)) (fun i f o => a4 (ix3 i f o)) (fun i o => a5 (ix2 i o))
          (fun b m d => a1 (ix3 b m d)) (fun b n f => a0 (ix3 b n f))
          (⟨2048 + (4 * (128 * t.val + r.val) + g.val), by have := t.isLt; have hN : cfg2.N = 2 := N_2; have := r.isLt; have := g.isLt; omega⟩ : Fin 4096) n o := by
  have ht := t.isLt
  have hN : cfg2.N = 2 := N_2
  have hr := r.isLt
  have hg := g.isLt
  rw [bodyVal2_eq]
  refine Cert.KNet.net_apply (B := 4096) _ _ _ _ (wpF2 V c t) (weF2 V c t) (ebF2 V c t) (wh1F2 V c t) (wh2F2 V c t) (hbF2 V c t)
    (packed2 hE t) (O2 (iblk2 (F := Ideal) V c 8 t)) ?hO (X2 (iblk2 (F := Ideal) V c 0 t)) (E2 (iblk2 (F := Ideal) V c 1 t)) r g
    (fun b n f => a0 (ix3 b n f)) (fun b m d => a1 (ix3 b m d)) _ ?hX ?hE n o
  case hO =>
    intro g1 f1 g2 o2
    show shapeCast S128x128 (View.ld (iblk2 (F := Ideal) V c 8 t) _) _ (ix2 (lane g1 f1) (lane g2 o2)) = _
    rw [shapeCast_apply _ _ _ (ix2 (lane g1 f1) (lane g2 o2)) rfl, View.ld_unit_zero (S := S128x128) hz2_2, iblk2_8_apply, hE.ones]
  case hX =>
    intro n' f
    show shapeCast S54x128x128 (View.ld (iblk2 (F := Ideal) V c 0 t) _) _ (ix3 n' r (lane g f)) = _
    rw [shapeCast_apply _ _ _ (ix3 n' r (lane g f)) rfl, View.ld_unit_zero (S := S54x128x128) hz3_2, iblk2_0_apply, hE.vt]
  case hE =>
    intro j w d
    show shapeCast S72x128x64 (View.ld (iblk2 (F := Ideal) V c 1 t) _) _ (ix3 (⟨24 * j.val + w.val, by have := j.isLt; have := w.isLt; omega⟩ : Fin 72) r (lane16 g d)) = _
    rw [shapeCast_apply _ _ _ (ix3 (⟨24 * j.val + w.val, by have := j.isLt; have := w.isLt; omega⟩ : Fin 72) r (lane16 g d)) rfl, View.ld_unit_zero (S := S72x128x64) hz3_2, iblk2_1_apply, hE.ep]

end Last

section Cover

variable {a0 : FVec Ideal S4096x54x32 .f32} {a1 : FVec Ideal S4096x72x16 .f32} {a2 : FVec Ideal S5x48x32 .f32}
  {a3 : FVec Ideal S5x32 .f32} {a4 : FVec Ideal S5x64x32 .f32} {a5 : FVec Ideal S5x32 .f32}

/-- An index of the output array is in point t's block iff each coordinate is in the block's range on its axis. -/
theorem mem_blk2 (t : Fin cfg2.N) (i : S54x256x128.Idx) :
    i ∈ ((cfg2.win 9).blk t).view.set ↔ ∀ a : Fin 3, win2_9.index t a * S54x128x128.size a ≤ (i a).val
      ∧ (i a).val < win2_9.index t a * S54x128x128.size a + S54x128x128.size a := by
  show i ∈ ((View.whole main_v95).slice (win2_9.rect t)).set ↔ _
  rw [View.set_slice_whole, Rect.mem_set_unit]
  exact Iff.rfl

set_option maxHeartbeats 8000000 in
/-- After the region every entry of the output array is the network at the entry's batch element. -/
theorem final2_apply {V : (c : Dev nD) → (b : Ref sig .tc) → Buf (Elt Ideal) ((c : Thread nD τ).loc b)} {c : Dev nD}
    (hE : Entry2 V a0 a1 a2 a3 a4 a5 c) (n : Fin 54) (c' : Fin 256) (g : Fin 4) (o : Fin 32) :
    (dat2 (F := Ideal) V c).arrAt 9 cfg2.N (ix3 n c' (lane g o))
      = Cert.Spec.netMul (fun i f o => a2 (ix3 i f o)) (fun i o => a3 (ix2 i o)) (fun i f o => a4 (ix3 i f o)) (fun i o => a5 (ix2 i o))
          (fun b m d => a1 (ix3 b m d)) (fun b n f => a0 (ix3 b n f))
          (⟨2048 + (4 * c'.val + g.val), by have := c'.isLt; have := g.isLt; omega⟩ : Fin 4096) n o := by
  have hN : cfg2.N = 2 := N_2
  refine (dat2 (F := Ideal) V c).arrAt_forall_of_cover 9
    (fun i v => ∀ (n : Fin 54) (c' : Fin 256) (g : Fin 4) (o : Fin 32), i = ix3 n c' (lane g o) →
      v = Cert.Spec.netMul (fun i f o => a2 (ix3 i f o)) (fun i o => a3 (ix2 i o)) (fun i f o => a4 (ix3 i f o)) (fun i o => a5 (ix2 i o))
          (fun b m d => a1 (ix3 b m d)) (fun b n f => a0 (ix3 b n f))
          (⟨2048 + (4 * c'.val + g.val), by have := c'.isLt; have := g.isLt; omega⟩ : Fin 4096) n o)
    ?hP ?hcover (ix3 n c' (lane g o)) n c' g o rfl
  case hP =>
    intro t hf y n c' g o hi
    have ht := t.isLt
    obtain ⟨-, -, ⟨e0, e1, e2⟩, -⟩ := idx_facts2 t
    have h0 : win2_9.index t (0 : Fin 3) * 54 + 1 * (y 0).val = n.val := congrArg (fun i : S54x256x128.Idx => (i 0).val) hi
    have h1 : win2_9.index t (1 : Fin 3) * 128 + 1 * (y 1).val = c'.val := congrArg (fun i : S54x256x128.Idx => (i 1).val) hi
    have h2 : win2_9.index t (2 : Fin 3) * 128 + 1 * (y 2).val = (lane g o).val := congrArg (fun i : S54x256x128.Idx => (i 2).val) hi
    have hy : y = ix3 n (⟨(y 1).val, (y 1).isLt⟩ : Fin 128) (lane g o) := by
      funext a; apply Fin.ext
      match a with
      | ⟨0, _⟩ => show (y 0).val = n.val; omega
      | ⟨1, _⟩ => rfl
      | ⟨2, _⟩ => show (y 2).val = (lane g o).val; omega
    rw [cast_eq, flushed2_eq V c t, hy, block2_apply hE t n ⟨(y 1).val, (y 1).isLt⟩ g o]
    congr 1
    apply Fin.ext
    show 2048 + (4 * (128 * t.val + (y 1).val) + g.val) = 2048 + (4 * c'.val + g.val)
    omega
  case hcover =>
    intro i
    have hi1 : (i 1).val < 256 := (i 1).isLt
    have hi0 : (i 0).val < 54 := (i 0).isLt
    have hi2 : (i 2).val < 128 := (i 2).isLt
    refine ⟨⟨(i 1).val / 128, by omega⟩, flush2_9 _, ?_⟩
    rw [mem_blk2]
    obtain ⟨-, -, ⟨e0, e1, e2⟩, -⟩ := idx_facts2 (⟨(i 1).val / 128, by omega⟩ : Fin cfg2.N)
    intro a
    match a with
    | ⟨0, _⟩ => show win2_9.index _ (0 : Fin 3) * 54 ≤ (i 0).val ∧ (i 0).val < win2_9.index _ (0 : Fin 3) * 54 + 54; omega
    | ⟨1, _⟩ => show win2_9.index _ (1 : Fin 3) * 128 ≤ (i 1).val ∧ (i 1).val < win2_9.index _ (1 : Fin 3) * 128 + 128; rw [e1]; show (i 1).val / 128 * 128 ≤ (i 1).val ∧ (i 1).val < (i 1).val / 128 * 128 + 128; omega
    | ⟨2, _⟩ => show win2_9.index _ (2 : Fin 3) * 128 ≤ (i 2).val ∧ (i 2).val < win2_9.index _ (2 : Fin 3) * 128 + 128; omega

end Cover

end Cert.KernelIdeal.Hand

end
-- ==== Proof.KIBodyEq3.lean ====
/-
  THE BODY OF REGION 3 IS FIVE LAYERS. The block the body of region 3 leaves (the composition of its payloads, KIRegion3.lean)
  is the update of layer 4 on four normalising layers (KLayer.lean), each layer reading its six parameter slices at
  its own offset of the stacked parameter blocks: the two are one term once the payloads and the layer functions are
  unfolded.
-/
import proofs.«182073_g78494822302262_cont_9to1_m_206_7_alg».proof.Proof.KIRegion3
import proofs.«182073_g78494822302262_cont_9to1_m_206_7_alg».proof.Proof.KLayer

set_option maxRecDepth 65536

noncomputable section

namespace Cert.KernelIdeal.Hand

open Cert.KernelIdeal Cert.KernelIdeal.Gen Idealize.ShloMosaic

variable {F : FTy → Type} [FloatOps F]

/-- The layer's input block, the edge block and the ones matrix as the body first casts them. -/
abbrev X3 (x0 : Vec F S54x128x128 .f32) : FVec F S54x128x128 .f32 :=
  shapeCast S54x128x128 (View.ld x0 rOut3) shapeCasts_S54x128x128_S54x128x128
abbrev E3 (x1 : Vec F S72x128x64 .f32) : FVec F S72x128x64 .f32 :=
  shapeCast S72x128x64 (View.ld x1 (Rect.unit (s := S72x128x64) ![0, 0, 0] S72x128x64.size inb_S72x128x64_S72x128x64_0_0_0)) shapeCasts_S72x128x64_S72x128x64
abbrev O3 (x8 : Vec F S128x128 .f32) : FVec F S128x128 .f32 :=
  shapeCast S128x128 (View.ld x8 (Rect.unit (s := S128x128) ![0, 0] S128x128.size inb_S128x128_S128x128_0_0)) shapeCasts_S128x128_S128x128

set_option maxHeartbeats 8000000 in
theorem bodyVal3_eq (x0 : Vec F S54x128x128 .f32) (x1 : Vec F S72x128x64 .f32) (x2 : Vec F S5x128x128 .f32) (x3 : Vec F S5x64x128 .f32) (x4 : Vec F S5x128x128 .f32) (x5 : Vec F S5x128x128 .f32) (x6 : Vec F S5x1x128 .f32) (x7 : Vec F S5x1x128 .f32) (x8 : Vec F S128x128 .f32) :
    bodyVal3 x0 x1 x2 x3 x4 x5 x6 x7 x8
      = Cert.KLayer.linB
          (Cert.KLayer.layerB
            (Cert.KLayer.layerB
              (Cert.KLayer.layerB
                (Cert.KLayer.layerB (X3 x0) (E3 x1) (O3 x8) (View.ld x2 (Rect.unit (s := S5x128x128) ![0, 0, 0] S1x128x128.size inb_S5x128x128_S1x128x128_0_0_0)) (View.ld x3 (Rect.unit (s := S5x64x128) ![0, 0, 0] S1x64x128.size inb_S5x64x128_S1x64x128_0_0_0)) (View.ld x6 (Rect.unit (s := S5x1x128) ![0, 0, 0] S1x1x128.size inb_S5x1x128_S1x1x128_0_0_0)) (View.ld x4 (Rect.unit (s := S5x128x128) ![0, 0, 0] S1x128x128.size inb_S5x128x128_S1x128x128_0_0_0)) (View.ld x5 (Rect.unit (s := S5x128x128) ![0, 0, 0] S1x128x128.size inb_S5x128x128_S1x128x128_0_0_0)) (View.ld x7 (Rect.unit (s := S5x1x128) ![0, 0, 0] S1x1x128.size inb_S5x1x128_S1x1x128_0_0_0)))
                (E3 x1) (O3 x8) (View.ld x2 (Rect.unit (s := S5x128x128) ![1, 0, 0] S1x128x128.size inb_S5x128x128_S1x128x128_1_0_0)) (View.ld x3 (Rect.unit (s := S5x64x128) ![1, 0, 0] S1x64x128.size inb_S5x64x128_S1x64x128_1_0_0)) (View.ld x6 (Rect.unit (s := S5x1x128) ![1, 0, 0] S1x1x128.size inb_S5x1x128_S1x1x128_1_0_0)) (View.ld x4 (Rect.unit (s := S5x128x128) ![1, 0, 0] S1x128x128.size inb_S5x128x128_S1x128x128_1_0_0)) (View.ld x5 (Rect.unit (s := S5x128x128) ![1, 0, 0] S1x128x128.size inb_S5x128x128_S1x128x128_1_0_0)) (View.ld x7 (Rect.unit (s := S5x1x128) ![1, 0, 0] S1x1x128.size inb_S5x1x128_S1x1x128_1_0_0)))
              (E3 x1) (O3 x8) (View.ld x2 (Rect.unit (s := S5x128x128) ![2, 0, 0] S1x128x128.size inb_S5x128x128_S1x128x128_2_0_0)) (View.ld x3 (Rect.unit (s := S5x64x128) ![2, 0, 0] S1x64x128.size inb_S5x64x128_S1x64x128_2_0_0)) (View.ld x6 (Rect.unit (s := S5x1x128) ![2, 0, 0] S1x1x128.size inb_S5x1x128_S1x1x128_2_0_0)) (View.ld x4 (Rect.unit (s := S5x128x128) ![2, 0, 0] S1x128x128.size inb_S5x128x128_S1x128x128_2_0_0)) (View.ld x5 (Rect.unit (s := S5x128x128) ![2, 0, 0] S1x128x128.size inb_S5x128x128_S1x128x128_2_0_0)) (View.ld x7 (Rect.unit (s := S5x1x128) ![2, 0, 0] S1x1x128.size inb_S5x1x128_S1x1x128_2_0_0)))
            (E3 x1) (O3 x8) (View.ld x2 (Rect.unit (s := S5x128x128) ![3, 0, 0] S1x128x128.size inb_S5x128x128_S1x128x128_3_0_0)) (View.ld x3 (Rect.unit (s := S5x64x128) ![3, 0, 0] S1x64x128.size inb_S5x64x128_S1x64x128_3_0_0)) (View.ld x6 (Rect.unit (s := S5x1x128) ![3, 0, 0] S1x1x128.size inb_S5x1x128_S1x1x128_3_0_0)) (View.ld x4 (Rect.unit (s := S5x128x128) ![3, 0, 0] S1x128x128.size inb_S5x128x128_S1x128x128_3_0_0)) (View.ld x5 (Rect.unit (s := S5x128x128) ![3, 0, 0] S1x128x128.size inb_S5x128x128_S1x128x128_3_0_0)) (View.ld x7 (Rect.unit (s := S5x1x128) ![3, 0, 0] S1x1x128.size inb_S5x1x128_S1x1x128_3_0_0)))
          (E3 x1) (View.ld x2 (Rect.unit (s := S5x128x128) ![4, 0, 0] S1x128x128.size inb_S5x128x128_S1x128x128_4_0_0)) (View.ld x3 (Rect.unit (s := S5x64x128) ![4, 0, 0] S1x64x128.size inb_S5x64x128_S1x64x128_4_0_0)) (View.ld x6 (Rect.unit (s := S5x1x128) ![4, 0, 0] S1x1x128.size inb_S5x1x128_S1x1x128_4_0_0)) (View.ld x4 (Rect.unit (s := S5x128x128) ![4, 0, 0] S1x128x128.size inb_S5x128x128_S1x128x128_4_0_0)) (View.ld x5 (Rect.unit (s := S5x128x128) ![4, 0, 0] S1x128x128.size inb_S5x128x128_S1x128x128_4_0_0)) (View.ld x7 (Rect.unit (s := S5x1x128) ![4, 0, 0] S1x1x128.size inb_S5x1x128_S1x1x128_4_0_0)) := by
  unfold bodyVal3 k3_pay1 k3_pay2 k3_pay3 k3_pay4 k3_pay5 k3_pay6 k3_pay7 k3_pay8 k3_pay9 k3_pay10 k3_pay11 k3_pay12 k3_pay13 k3_pay14 k3_pay15 k3_pay16 k3_pay17 k3_pay18 k3_pay19 k3_pay20 k3_pay21 k3_pay22 k3_pay23 k3_pay24 k3_pay25 k3_pay26 k3_pay27 Cert.KLayer.linB Cert.KLayer.layerB Cert.KLayer.unitB Cert.KLayer.aggB Cert.KLayer.biasB Cert.KLayer.mm Cert.KLayer.mmE
  rfl

end Cert.KernelIdeal.Hand

end
-- ==== Proof.KIValue3.lean ====
/-
  WHAT REGION 3 LEAVES IN ITS OUTPUT ARRAY. If, when the region is entered, the packed vertex array holds batch element
  1024·3 + 4 c' + g of the vertices in group g of row c', the packed edge array that element's edge 3 w + j in row 24 j + w,
  the four weight arrays the block-diagonal stacks, the two bias arrays the biases tiled four times and the ones array
  the block-diagonal ones, then after the region every entry (n, c', 32 g + o) of the output array is the network
  (Spec.lean, the spelling that multiplies by the reciprocal square root) at (1024·3 + 4 c' + g, n, o): each grid point
  writes back the body's five layers of its blocks (KIBodyEq3, KNet), and the two points' blocks cover the array.
-/
import proofs.«182073_g78494822302262_cont_9to1_m_206_7_alg».proof.Proof.KIBodyEq3
import proofs.«182073_g78494822302262_cont_9to1_m_206_7_alg».proof.Proof.KNet
import proofs.«182073_g78494822302262_cont_9to1_m_206_7_alg».proof.Proof.LibStackLoad
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window BodyObligation cellOf)
open Cert.KLayerAt

variable (V : (c : Dev nD) → (b : Ref sig .tc) → Buf (Elt Ideal) ((c : Thread nD τ).loc b))

theorem hz3_3 : (![0, 0, 0] : Fin 3 → Nat) = fun _ => 0 := funext fun a => by fin_cases a <;> rfl

/-- What grid point t writes back: the body's result block of the input blocks at t. -/
theorem flushed3_eq (c : Dev nD) (t : Fin cfg3.N) :
    (dat3 (F := Ideal) V c).flushed 9 t = bodyVal3 (iblk3 V c 0 t) (iblk3 V c 1 t) (iblk3 V c 2 t) (iblk3 V c 3 t) (iblk3 V c 4 t) (iblk3 V c 5 t) (iblk3 V c 6 t) (iblk3 V c 7 t) (iblk3 V c 8 t) := by
  show (cfg3.win 9).cut (grid3.coords t) ((dat3 (F := Ideal) V c).after 9 t) = _
  rw [after3_9]
  unfold out3_9
  rw [View.canon_unit_zero hz3_3]
  rfl

/-! ## Where the blocks sit -/

/-- The printed index maps over the grid's two points: the vertex, edge and output windows move along axis 1 with the
    point, the parameter windows stay. -/
theorem idx_facts3 : ∀ t : Fin cfg3.N,
    (win3_0.index t (0 : Fin 3) = 0 ∧ win3_0.index t (1 : Fin 3) = t.val ∧ win3_0.index t (2 : Fin 3) = 0) ∧ (win3_1.index t (0 : Fin 3) = 0 ∧ win3_1.index t (1 : Fin 3) = t.val ∧ win3_1.index t (2 : Fin 3) = 0) ∧ (win3_9.index t (0 : Fin 3) = 0 ∧ win3_9.index t (1 : Fin 3) = t.val ∧ win3_9.index t (2 : Fin 3) = 0)
    ∧ (win3_2.index t (0 : Fin 3) = 0 ∧ win3_2.index t (1 : Fin 3) = 0 ∧ win3_2.index t (2 : Fin 3) = 0) ∧ (win3_3.index t (0 : Fin 3) = 0 ∧ win3_3.index t (1 : Fin 3) = 0 ∧ win3_3.index t (2 : Fin 3) = 0) ∧ (win3_4.index t (0 : Fin 3) = 0 ∧ win3_4.index t (1 : Fin 3) = 0 ∧ win3_4.index t (2 : Fin 3) = 0) ∧ (win3_5.index t (0 : Fin 3) = 0 ∧ win3_5.index t (1 : Fin 3) = 0 ∧ win3_5.index t (2 : Fin 3) = 0) ∧ (win3_6.index t (0 : Fin 3) = 0 ∧ win3_6.index t (1 : Fin 3) = 0 ∧ win3_6.index t (2 : Fin 3) = 0) ∧ (win3_7.index t (0 : Fin 3) = 0 ∧ win3_7.index t (1 : Fin 3) = 0 ∧ win3_7.index t (2 : Fin 3) = 0)
    ∧ (win3_8.index t (0 : Fin 2) = 0 ∧ win3_8.index t (1 : Fin 2) = 0) :=
  (by decide +kernel : ∀ t : Fin grid3.N, _)

/-- The vertex window's block at point t, row r of the block: row 128 t + r of the packed array. -/
theorem iblk3_0_apply (c : Dev nD) (t : Fin cfg3.N) (n : Fin 54) (r : Fin 128) (l : Fin 128) :
    iblk3 (F := Ideal) V c 0 t (ix3 n r l)
      = V c main_v101 (ix3 n (⟨128 * t.val + r.val, by have := t.isLt; have hN : cfg3.N = 2 := N_3; have := r.isLt; omega⟩ : Fin 256) l) := by
  show V c main_v101 (((cfg3.win 0).blk t).view.emb (ix3 n r l)) = _
  obtain ⟨⟨e0, e1, e2⟩, -⟩ := idx_facts3 t
  refine congrArg (V c main_v101) (funext fun a => Fin.ext ?_)
  match a with
  | ⟨0, _⟩ => show win3_0.index t (0 : Fin 3) * 54 + 1 * n.val = n.val; omega
  | ⟨1, _⟩ => show win3_0.index t (1 : Fin 3) * 128 + 1 * r.val = 128 * t.val + r.val; omega
  | ⟨2, _⟩ => show win3_0.index t (2 : Fin 3) * 128 + 1 * l.val = l.val; omega

/-- The edge window's block at point t. -/
theorem iblk3_1_apply (c : Dev nD) (t : Fin cfg3.N) (m' : Fin 72) (r : Fin 128) (l : Fin 64) :
    iblk3 (F := Ideal) V c 1 t (ix3 m' r l)
      = V c main_v104 (ix3 m' (⟨128 * t.val + r.val, by have := t.isLt; have hN : cfg3.N = 2 := N_3; have := r.isLt; omega⟩ : Fin 256) l) := by
  show V c main_v104 (((cfg3.win 1).blk t).view.emb (ix3 m' r l)) = _
  obtain ⟨-, ⟨e0, e1, e2⟩, -⟩ := idx_facts3 t
  refine congrArg (V c main_v104) (funext fun a => Fin.ext ?_)
  match a with
  | ⟨0, _⟩ => show win3_1.index t (0 : Fin 3) * 72 + 1 * m'.val = m'.val; omega
  | ⟨1, _⟩ => show win3_1.index t (1 : Fin 3) * 128 + 1 * r.val = 128 * t.val + r.val; omega
  | ⟨2, _⟩ => show win3_1.index t (2 : Fin 3) * 64 + 1 * l.val = l.val; omega

/-- Input window 2's block (the whole array) at a grid point. -/
theorem iblk3_2_apply (c : Dev nD) (t : Fin cfg3.N) (i : Fin 5) (k : Fin 128) (l : Fin 128) :
    iblk3 (F := Ideal) V c 2 t (ix3 i k l) = V c main_v13 (ix3 i k l) := by
  show V c main_v13 (((cfg3.win 2).blk t).view.emb (ix3 i k l)) = _
  obtain ⟨-, -, -, h2, h3, h4, h5, h6, h7, -⟩ := idx_facts3 t
  refine congrArg (V c main_v13) (funext fun a => Fin.ext ?_)
  obtain ⟨e0, e1, e2⟩ := h2
  match a with
  | ⟨0, _⟩ => show win3_2.index t (0 : Fin 3) * 5 + 1 * i.val = i.val; omega
  | ⟨1, _⟩ => show win3_2.index t (1 : Fin 3) * 128 + 1 * k.val = k.val; omega
  | ⟨2, _⟩ => show win3_2.index t (2 : Fin 3) * 128 + 1 * l.val = l.val; omega

/-- Input window 3's block (the whole array) at a grid point. -/
theorem iblk3_3_apply (c : Dev nD) (t : Fin cfg3.N) (i : Fin 5) (k : Fin 64) (l : Fin 128) :
    iblk3 (F := Ideal) V c 3 t (ix3 i k l) = V c main_v25 (ix3 i k l) := by
  show V c main_v25 (((cfg3.win 3).blk t).view.emb (ix3 i k l)) = _
  obtain ⟨-, -, -, h2, h3, h4, h5, h6, h7, -⟩ := idx_facts3 t
  refine congrArg (V c main_v25) (funext fun a => Fin.ext ?_)
  obtain ⟨e0, e1, e2⟩ := h3
  match a with
  | ⟨0, _⟩ => show win3_3.index t (0 : Fin 3) * 5 + 1 * i.val = i.val; omega
  | ⟨1, _⟩ => show win3_3.index t (1 : Fin 3) * 64 + 1 * k.val = k.val; omega
  | ⟨2, _⟩ => show win3_3.index t (2 : Fin 3) * 128 + 1 * l.val = l.val; omega

/-- Input window 4's block (the whole array) at a grid point. -/
theorem iblk3_4_apply (c : Dev nD) (t : Fin cfg3.N) (i : Fin 5) (k : Fin 128) (l : Fin 128) :
    iblk3 (F := Ideal) V c 4 t (ix3 i k l) = V c main_v38 (ix3 i k l) := by
  show V c main_v38 (((cfg3.win 4).blk t).view.emb (ix3 i k l)) = _
  obtain ⟨-, -, -, h2, h3, h4, h5, h6, h7, -⟩ := idx_facts3 t
  refine congrArg (V c main_v38) (funext fun a => Fin.ext ?_)
  obtain ⟨e0, e1, e2⟩ := h4
  match a with
  | ⟨0, _⟩ => show win3_4.index t (0 : Fin 3) * 5 + 1 * i.val = i.val; omega
  | ⟨1, _⟩ => show win3_4.index t (1 : Fin 3) * 128 + 1 * k.val = k.val; omega
  | ⟨2, _⟩ => show win3_4.index t (2 : Fin 3) * 128 + 1 * l.val = l.val; omega

/-- Input window 5's block (the whole array) at a grid point. -/
theorem iblk3_5_apply (c : Dev nD) (t : Fin cfg3.N) (i : Fin 5) (k : Fin 128) (l : Fin 128) :
    iblk3 (F := Ideal) V c 5 t (ix3 i k l) = V c main_v51 (ix3 i k l) := by
  show V c main_v51 (((cfg3.win 5).blk t).view.emb (ix3 i k l)) = _
  obtain ⟨-, -, -, h2, h3, h4, h5, h6, h7, -⟩ := idx_facts3 t
  refine congrArg (V c main_v51) (funext fun a => Fin.ext ?_)
  obtain ⟨e0, e1, e2⟩ := h5
  match a with
  | ⟨0, _⟩ => show win3_5.index t (0 : Fin 3) * 5 + 1 * i.val = i.val; omega
  | ⟨1, _⟩ => show win3_5.index t (1 : Fin 3) * 128 + 1 * k.val = k.val; omega
  | ⟨2, _⟩ => show win3_5.index t (2 : Fin 3) * 128 + 1 * l.val = l.val; omega

/-- Input window 6's block (the whole array) at a grid point. -/
theorem iblk3_6_apply (c : Dev nD) (t : Fin cfg3.N) (i : Fin 5) (k : Fin 1) (l : Fin 128) :
    iblk3 (F := Ideal) V c 6 t (ix3 i k l) = V c main_v55 (ix3 i k l) := by
  show V c main_v55 (((cfg3.win 6).blk t).view.emb (ix3 i k l)) = _
  obtain ⟨-, -, -, h2, h3, h4, h5, h6, h7, -⟩ := idx_facts3 t
  refine congrArg (V c main_v55) (funext fun a => Fin.ext ?_)
  obtain ⟨e0, e1, e2⟩ := h6
  match a with
  | ⟨0, _⟩ => show win3_6.index t (0 : Fin 3) * 5 + 1 * i.val = i.val; omega
  | ⟨1, _⟩ => show win3_6.index t (1 : Fin 3) * 1 + 1 * k.val = k.val; omega
  | ⟨2, _⟩ => show win3_6.index t (2 : Fin 3) * 128 + 1 * l.val = l.val; omega

/-- Input window 7's block (the whole array) at a grid point. -/
theorem iblk3_7_apply (c : Dev nD) (t : Fin cfg3.N) (i : Fin 5) (k : Fin 1) (l : Fin 128) :
    iblk3 (F := Ideal) V c 7 t (ix3 i k l) = V c main_v59 (ix3 i k l) := by
  show V c main_v59 (((cfg3.win 7).blk t).view.emb (ix3 i k l)) = _
  obtain ⟨-, -, -, h2, h3, h4, h5, h6, h7, -⟩ := idx_facts3 t
  refine congrArg (V c main_v59) (funext fun a => Fin.ext ?_)
  obtain ⟨e0, e1, e2⟩ := h7
  match a with
  | ⟨0, _⟩ => show win3_7.index t (0 : Fin 3) * 5 + 1 * i.val = i.val; omega
  | ⟨1, _⟩ => show win3_7.index t (1 : Fin 3) * 1 + 1 * k.val = k.val; omega
  | ⟨2, _⟩ => show win3_7.index t (2 : Fin 3) * 128 + 1 * l.val = l.val; omega

/-- The ones window's block (the whole matrix) at a grid point. -/
theorem iblk3_8_apply (c : Dev nD) (t : Fin cfg3.N) (k : Fin 128) (l : Fin 128) :
    iblk3 (F := Ideal) V c 8 t (ix2 k l) = V c main_v67 (ix2 k l) := by
  show V c main_v67 (((cfg3.win 8).blk t).view.emb (ix2 k l)) = _
  obtain ⟨-, -, -, -, -, -, -, -, -, e0, e1⟩ := idx_facts3 t
  refine congrArg (V c main_v67) (funext fun a => Fin.ext ?_)
  match a with
  | ⟨0, _⟩ => show win3_8.index t (0 : Fin 2) * 128 + 1 * k.val = k.val; omega
  | ⟨1, _⟩ => show win3_8.index t (1 : Fin 2) * 128 + 1 * l.val = l.val; omega

/-! ## The output array after the region -/

section Final

variable (a0 : FVec Ideal S4096x54x32 .f32) (a1 : FVec Ideal S4096x72x16 .f32) (a2 : FVec Ideal S5x48x32 .f32)
  (a3 : FVec Ideal S5x32 .f32) (a4 : FVec Ideal S5x64x32 .f32) (a5 : FVec Ideal S5x32 .f32)

/-- What the region-entry contents hold at the lanes of each batch element of chunk 3. -/
structure Entry3 (c : Dev nD) : Prop where
  vt : ∀ (n : Fin 54) (c' : Fin 256) (g : Fin 4) (f : Fin 32), V c main_v101 (ix3 n c' (lane g f))
    = a0 (ix3 (⟨3072 + (4 * c'.val + g.val), by have := c'.isLt; have := g.isLt; omega⟩ : Fin 4096) n f)
  ep : ∀ (j : Fin 3) (w : Fin 24) (c' : Fin 256) (g : Fin 4) (d : Fin 16),
    V c main_v104 (ix3 (⟨24 * j.val + w.val, by have := j.isLt; have := w.isLt; omega⟩ : Fin 72) c' (lane16 g d))
    = a1 (ix3 (⟨3072 + (4 * c'.val + g.val), by have := c'.isLt; have := g.isLt; omega⟩ : Fin 4096)
        (⟨3 * w.val + j.val, by have := j.isLt; have := w.isLt; omega⟩ : Fin 72) d)
  wp : ∀ (i : Fin 5) (g : Fin 4) (f : Fin 32) (g' : Fin 4) (o : Fin 32), V c main_v13 (ix3 i (lane g f) (lane g' o))
    = if g = g' then a2 (ix3 i (⟨f.val, by have := f.isLt; omega⟩ : Fin 48) o) else 0
  we : ∀ (i : Fin 5) (g : Fin 4) (d : Fin 16) (g' : Fin 4) (o : Fin 32), V c main_v25 (ix3 i (lane16 g d) (lane g' o))
    = if g = g' then a2 (ix3 i (⟨32 + d.val, by have := d.isLt; omega⟩ : Fin 48) o) else 0
  wh1 : ∀ (i : Fin 5) (g : Fin 4) (f : Fin 32) (g' : Fin 4) (o : Fin 32), V c main_v38 (ix3 i (lane g f) (lane g' o))
    = if g = g' then a4 (ix3 i (⟨f.val, by have := f.isLt; omega⟩ : Fin 64) o) else 0
  wh2 : ∀ (i : Fin 5) (g : Fin 4) (f : Fin 32) (g' : Fin 4) (o : Fin 32), V c main_v51 (ix3 i (lane g f) (lane g' o))
    = if g = g' then a4 (ix3 i (⟨32 + f.val, by have := f.isLt; omega⟩ : Fin 64) o) else 0
  eb : ∀ (i : Fin 5) (g : Fin 4) (o : Fin 32), V c main_v55 (ix3 i (0 : Fin 1) (lane g o)) = a3 (ix2 i o)
  hb : ∀ (i : Fin 5) (g : Fin 4) (o : Fin 32), V c main_v59 (ix3 i (0 : Fin 1) (lane g o)) = a5 (ix2 i o)
  ones : ∀ (g : Fin 4) (f : Fin 32) (g' : Fin 4) (o : Fin 32), V c main_v67 (ix2 (lane g f) (lane g' o)) = if g = g' then (1 : EReal) else 0

abbrev wpF3 (c : Dev nD) (t : Fin cfg3.N) : Fin 5 → Vec Ideal S1x128x128 .f32
  | ⟨0, _⟩ => View.ld (iblk3 (F := Ideal) V c 2 t) (Rect.unit (s := S5x128x128) ![0, 0, 0] S1x128x128.size inb_S5x128x128_S1x128x128_0_0_0)
  | ⟨1, _⟩ => View.ld (iblk3 (F := Ideal) V c 2 t) (Rect.unit (s := S5x128x128) ![1, 0, 0] S1x128x128.size inb_S5x128x128_S1x128x128_1_0_0)
  | ⟨2, _⟩ => View.ld (iblk3 (F := Ideal) V c 2 t) (Rect.unit (s := S5x128x128) ![2, 0, 0] S1x128x128.size inb_S5x128x128_S1x128x128_2_0_0)
  | ⟨3, _⟩ => View.ld (iblk3 (F := Ideal) V c 2 t) (Rect.unit (s := S5x128x128) ![3, 0, 0] S1x128x128.size inb_S5x128x128_S1x128x128_3_0_0)
  | ⟨4, _⟩ => View.ld (iblk3 (F := Ideal) V c 2 t) (Rect.unit (s := S5x128x128) ![4, 0, 0] S1x128x128.size inb_S5x128x128_S1x128x128_4_0_0)
abbrev weF3 (c : Dev nD) (t : Fin cfg3.N) : Fin 5 → Vec Ideal S1x64x128 .f32
  | ⟨0, _⟩ => View.ld (iblk3 (F := Ideal) V c 3 t) (Rect.unit (s := S5x64x128) ![0, 0, 0] S1x64x128.size inb_S5x64x128_S1x64x128_0_0_0)
  | ⟨1, _⟩ => View.ld (iblk3 (F := Ideal) V c 3 t) (Rect.unit (s := S5x64x128) ![1, 0, 0] S1x64x128.size inb_S5x64x128_S1x64x128_1_0_0)
  | ⟨2, _⟩ => View.ld (iblk3 (F := Ideal) V c 3 t) (Rect.unit (s := S5x64x128) ![2, 0, 0] S1x64x128.size inb_S5x64x128_S1x64x128_2_0_0)
  | ⟨3, _⟩ => View.ld (iblk3 (F := Ideal) V c 3 t) (Rect.unit (s := S5x64x128) ![3, 0, 0] S1x64x128.size inb_S5x64x128_S1x64x128_3_0_0)
  | ⟨4, _⟩ => View.ld (iblk3 (F := Ideal) V c 3 t) (Rect.unit (s := S5x64x128) ![4, 0, 0] S1x64x128.size inb_S5x64x128_S1x64x128_4_0_0)
abbrev ebF3 (c : Dev nD) (t : Fin cfg3.N) : Fin 5 → Vec Ideal S1x1x128 .f32
  | ⟨0, _⟩ => View.ld (iblk3 (F := Ideal) V c 6 t) (Rect.unit (s := S5x1x128) ![0, 0, 0] S1x1x128.size inb_S5x1x128_S1x1x128_0_0_0)
  | ⟨1, _⟩ => View.ld (iblk3 (F := Ideal) V c 6 t) (Rect.unit (s := S5x1x128) ![1, 0, 0] S1x1x128.size inb_S5x1x128_S1x1x128_1_0_0)
  | ⟨2, _⟩ => View.ld (iblk3 (F := Ideal) V c 6 t) (Rect.unit (s := S5x1x128) ![2, 0, 0] S1x1x128.size inb_S5x1x128_S1x1x128_2_0_0)
  | ⟨3, _⟩ => View.ld (iblk3 (F := Ideal) V c 6 t) (Rect.unit (s := S5x1x128) ![3, 0, 0] S1x1x128.size inb_S5x1x128_S1x1x128_3_0_0)
  | ⟨4, _⟩ => View.ld (iblk3 (F := Ideal) V c 6 t) (Rect.unit (s := S5x1x128) ![4, 0, 0] S1x1x128.size inb_S5x1x128_S1x1x128_4_0_0)
abbrev wh1F3 (c : Dev nD) (t : Fin cfg3.N) : Fin 5 → Vec Ideal S1x128x128 .f32
  | ⟨0, _⟩ => View.ld (iblk3 (F := Ideal) V c 4 t) (Rect.unit (s := S5x128x128) ![0, 0, 0] S1x128x128.size inb_S5x128x128_S1x128x128_0_0_0)
  | ⟨1, _⟩ => View.ld (iblk3 (F := Ideal) V c 4 t) (Rect.unit (s := S5x128x128) ![1, 0, 0] S1x128x128.size inb_S5x128x128_S1x128x128_1_0_0)
  | ⟨2, _⟩ => View.ld (iblk3 (F := Ideal) V c 4 t) (Rect.unit (s := S5x128x128) ![2, 0, 0] S1x128x128.size inb_S5x128x128_S1x128x128_2_0_0)
  | ⟨3, _⟩ => View.ld (iblk3 (F := Ideal) V c 4 t) (Rect.unit (s := S5x128x128) ![3, 0, 0] S1x128x128.size inb_S5x128x128_S1x128x128_3_0_0)
  | ⟨4, _⟩ => View.ld (iblk3 (F := Ideal) V c 4 t) (Rect.unit (s := S5x128x128) ![4, 0, 0] S1x128x128.size inb_S5x128x128_S1x128x128_4_0_0)
abbrev wh2F3 (c : Dev nD) (t : Fin cfg3.N) : Fin 5 → Vec Ideal S1x128x128 .f32
  | ⟨0, _⟩ => View.ld (iblk3 (F := Ideal) V c 5 t) (Rect.unit (s := S5x128x128) ![0, 0, 0] S1x128x128.size inb_S5x128x128_S1x128x128_0_0_0)
  | ⟨1, _⟩ => View.ld (iblk3 (F := Ideal) V c 5 t) (Rect.unit (s := S5x128x128) ![1, 0, 0] S1x128x128.size inb_S5x128x128_S1x128x128_1_0_0)
  | ⟨2, _⟩ => View.ld (iblk3 (F := Ideal) V c 5 t) (Rect.unit (s := S5x128x128) ![2, 0, 0] S1x128x128.size inb_S5x128x128_S1x128x128_2_0_0)
  | ⟨3, _⟩ => View.ld (iblk3 (F := Ideal) V c 5 t) (Rect.unit (s := S5x128x128) ![3, 0, 0] S1x128x128.size inb_S5x128x128_S1x128x128_3_0_0)
  | ⟨4, _⟩ => View.ld (iblk3 (F := Ideal) V c 5 t) (Rect.unit (s := S5x128x128) ![4, 0, 0] S1x128x128.size inb_S5x128x128_S1x128x128_4_0_0)
abbrev hbF3 (c : Dev nD) (t : Fin cfg3.N) : Fin 5 → Vec Ideal S1x1x128 .f32
  | ⟨0, _⟩ => View.ld (iblk3 (F := Ideal) V c 7 t) (Rect.unit (s := S5x1x128) ![0, 0, 0] S1x1x128.size inb_S5x1x128_S1x1x128_0_0_0)
  | ⟨1, _⟩ => View.ld (iblk3 (F := Ideal) V c 7 t) (Rect.unit (s := S5x1x128) ![1, 0, 0] S1x1x128.size inb_S5x1x128_S1x1x128_1_0_0)
  | ⟨2, _⟩ => View.ld (iblk3 (F := Ideal) V c 7 t) (Rect.unit (s := S5x1x128) ![2, 0, 0] S1x1x128.size inb_S5x1x128_S1x1x128_2_0_0)
  | ⟨3, _⟩ => View.ld (iblk3 (F := Ideal) V c 7 t) (Rect.unit (s := S5x1x128) ![3, 0, 0] S1x1x128.size inb_S5x1x128_S1x1x128_3_0_0)
  | ⟨4, _⟩ => View.ld (iblk3 (F := Ideal) V c 7 t) (Rect.unit (s := S5x1x128) ![4, 0, 0] S1x1x128.size inb_S5x1x128_S1x1x128_4_0_0)

variable {V a0 a1 a2 a3 a4 a5}

/-- The loaded slices are the layers' packed parameters. -/
theorem packed3 {c : Dev nD} (hE : Entry3 V a0 a1 a2 a3 a4 a5 c) (t : Fin cfg3.N) (i : Fin 5) :
    Packed (fun f o => a2 (ix3 i f o)) (fun o => a3 (ix2 i o)) (fun f o => a4 (ix3 i f o)) (fun o => a5 (ix2 i o))
      (wpF3 V c t i) (weF3 V c t i) (ebF3 V c t i) (wh1F3 V c t i) (wh2F3 V c t i) (hbF3 V c t i) := by
  match i with
  | ⟨0, _⟩ => exact
    { wp := fun g f g' o => by
        show View.ld (iblk3 (F := Ideal) V c 2 t) (Rect.unit (s := S5x128x128) ![0, 0, 0] S1x128x128.size inb_S5x128x128_S1x128x128_0_0_0) (ix3 (0 : Fin 1) (lane g f) (lane g' o)) = _
        rw [Cert.LibStackLoad.ld_slice_apply _ 0 (by decide), iblk3_2_apply, hE.wp]
      we := fun g d g' o => by
        show View.ld (iblk3 (F := Ideal) V c 3 t) (Rect.unit (s := S5x64x128) ![0, 0, 0] S1x64x128.size inb_S5x64x128_S1x64x128_0_0_0) (ix3 (0 : Fin 1) (lane16 g d) (lane g' o)) = _
        rw [Cert.LibStackLoad.ld_slice_apply _ 0 (by decide), iblk3_3_apply, hE.we]
      eb := fun g o => by
        show View.ld (iblk3 (F := Ideal) V c 6 t) (Rect.unit (s := S5x1x128) ![0, 0, 0] S1x1x128.size inb_S5x1x128_S1x1x128_0_0_0) (ix3 (0 : Fin 1) (0 : Fin 1) (lane g o)) = _
        rw [Cert.LibStackLoad.ld_slice_apply _ 0 (by decide), iblk3_6_apply, hE.eb]
      wh1 := fun g f g' o => by
        show View.ld (iblk3 (F := Ideal) V c 4 t) (Rect.unit (s := S5x128x128) ![0, 0, 0] S1x128x128.size inb_S5x128x128_S1x128x128_0_0_0) (ix3 (0 : Fin 1) (lane g f) (lane g' o)) = _
        rw [Cert.LibStackLoad.ld_slice_apply _ 0 (by decide), iblk3_4_apply, hE.wh1]
      wh2 := fun g f g' o => by
        show View.ld (iblk3 (F := Ideal) V c 5 t) (Rect.unit (s := S5x128x128) ![0, 0, 0] S1x128x128.size inb_S5x128x128_S1x128x128_0_0_0) (ix3 (0 : Fin 1) (lane g f) (lane g' o)) = _
        rw [Cert.LibStackLoad.ld_slice_apply _ 0 (by decide), iblk3_5_apply, hE.wh2]
      hb := fun g o => by
        show View.ld (iblk3 (F := Ideal) V c 7 t) (Rect.unit (s := S5x1x128) ![0, 0, 0] S1x1x128.size inb_S5x1x128_S1x1x128_0_0_0) (ix3 (0 : Fin 1) (0 : Fin 1) (lane g o)) = _
        rw [Cert.LibStackLoad.ld_slice_apply _ 0 (by decide), iblk3_7_apply, hE.hb] }
  | ⟨1, _⟩ => exact
    { wp := fun g f g' o => by
        show View.ld (iblk3 (F := Ideal) V c 2 t) (Rect.unit (s := S5x128x128) ![1, 0, 0] S1x128x128.size inb_S5x128x128_S1x128x128_1_0_0) (ix3 (0 : Fin 1) (lane g f) (lane g' o)) = _
        rw [Cert.LibStackLoad.ld_slice_apply _ 1 (by decide), iblk3_2_apply, hE.wp]
      we := fun g d g' o => by
        show View.ld (iblk3 (F := Ideal) V c 3 t) (Rect.unit (s := S5x64x128) ![1, 0, 0] S1x64x128.size inb_S5x64x128_S1x64x128_1_0_0) (ix3 (0 : Fin 1) (lane16 g d) (lane g' o)) = _
        rw [Cert.LibStackLoad.ld_slice_apply _ 1 (by decide), iblk3_3_apply, hE.we]
      eb := fun g o => by
        show View.ld (iblk3 (F := Ideal) V c 6 t) (Rect.unit (s := S5x1x128) ![1, 0, 0] S1x1x128.size inb_S5x1x128_S1x1x128_1_0_0) (ix3 (0 : Fin 1) (0 : Fin 1) (lane g o)) = _
        rw [Cert.LibStackLoad.ld_slice_apply _ 1 (by decide), iblk3_6_apply, hE.eb]
      wh1 := fun g f g' o => by
        show View.ld (iblk3 (F := Ideal) V c 4 t) (Rect.unit (s := S5x128x128) ![1, 0, 0] S1x128x128.size inb_S5x128x128_S1x128x128_1_0_0) (ix3 (0 : Fin 1) (lane g f) (lane g' o)) = _
        rw [Cert.LibStackLoad.ld_slice_apply _ 1 (by decide), iblk3_4_apply, hE.wh1]
      wh2 := fun g f g' o => by
        show View.ld (iblk3 (F := Ideal) V c 5 t) (Rect.unit (s := S5x128x128) ![1, 0, 0] S1x128x128.size inb_S5x128x128_S1x128x128_1_0_0) (ix3 (0 : Fin 1) (lane g f) (lane g' o)) = _
        rw [Cert.LibStackLoad.ld_slice_apply _ 1 (by decide), iblk3_5_apply, hE.wh2]
      hb := fun g o => by
        show View.ld (iblk3 (F := Ideal) V c 7 t) (Rect.unit (s := S5x1x128) ![1, 0, 0] S1x1x128.size inb_S5x1x128_S1x1x128_1_0_0) (ix3 (0 : Fin 1) (0 : Fin 1) (lane g o)) = _
        rw [Cert.LibStackLoad.ld_slice_apply _ 1 (by decide), iblk3_7_apply, hE.hb] }
  | ⟨2, _⟩ => exact
    { wp := fun g f g' o => by
        show View.ld (iblk3 (F := Ideal) V c 2 t) (Rect.unit (s := S5x128x128) ![2, 0, 0] S1x128x128.size inb_S5x128x128_S1x128x128_2_0_0) (ix3 (0 : Fin 1) (lane g f) (lane g' o)) = _
        rw [Cert.LibStackLoad.ld_slice_apply _ 2 (by decide), iblk3_2_apply, hE.wp]
      we := fun g d g' o => by
        show View.ld (iblk3 (F := Ideal) V c 3 t) (Rect.unit (s := S5x64x128) ![2, 0, 0] S1x64x128.size inb_S5x64x128_S1x64x128_2_0_0) (ix3 (0 : Fin 1) (lane16 g d) (lane g' o)) = _
        rw [Cert.LibStackLoad.ld_slice_apply _ 2 (by decide), iblk3_3_apply, hE.we]
      eb := fun g o => by
        show View.ld (iblk3 (F := Ideal) V c 6 t) (Rect.unit (s := S5x1x128) ![2, 0, 0] S1x1x128.size inb_S5x1x128_S1x1x128_2_0_0) (ix3 (0 : Fin 1) (0 : Fin 1) (lane g o)) = _
        rw [Cert.LibStackLoad.ld_slice_apply _ 2 (by decide), iblk3_6_apply, hE.eb]
      wh1 := fun g f g' o => by
        show View.ld (iblk3 (F := Ideal) V c 4 t) (Rect.unit (s := S5x128x128) ![2, 0, 0] S1x128x128.size inb_S5x128x128_S1x128x128_2_0_0) (ix3 (0 : Fin 1) (lane g f) (lane g' o)) = _
        rw [Cert.LibStackLoad.ld_slice_apply _ 2 (by decide), iblk3_4_apply, hE.wh1]
      wh2 := fun g f g' o => by
        show View.ld (iblk3 (F := Ideal) V c 5 t) (Rect.unit (s := S5x128x128) ![2, 0, 0] S1x128x128.size inb_S5x128x128_S1x128x128_2_0_0) (ix3 (0 : Fin 1) (lane g f) (lane g' o)) = _
        rw [Cert.LibStackLoad.ld_slice_apply _ 2 (by decide), iblk3_5_apply, hE.wh2]
      hb := fun g o => by
        show View.ld (iblk3 (F := Ideal) V c 7 t) (Rect.unit (s := S5x1x128) ![2, 0, 0] S1x1x128.size inb_S5x1x128_S1x1x128_2_0_0) (ix3 (0 : Fin 1) (0 : Fin 1) (lane g o)) = _
        rw [Cert.LibStackLoad.ld_slice_apply _ 2 (by decide), iblk3_7_apply, hE.hb] }
  | ⟨3, _⟩ => exact
    { wp := fun g f g' o => by
        show View.ld (iblk3 (F := Ideal) V c 2 t) (Rect.unit (s := S5x128x128) ![3, 0, 0] S1x128x128.size inb_S5x128x128_S1x128x128_3_0_0) (ix3 (0 : Fin 1) (lane g f) (lane g' o)) = _
        rw [Cert.LibStackLoad.ld_slice_apply _ 3 (by decide), iblk3_2_apply, hE.wp]
      we := fun g d g' o => by
        show View.ld (iblk3 (F := Ideal) V c 3 t) (Rect.unit (s := S5x64x128) ![3, 0, 0] S1x64x128.size inb_S5x64x128_S1x64x128_3_0_0) (ix3 (0 : Fin 1) (lane16 g d) (lane g' o)) = _
        rw [Cert.LibStackLoad.ld_slice_apply _ 3 (by decide), iblk3_3_apply, hE.we]
      eb := fun g o => by
        show View.ld (iblk3 (F := Ideal) V c 6 t) (Rect.unit (s := S5x1x128) ![3, 0, 0] S1x1x128.size inb_S5x1x128_S1x1x128_3_0_0) (ix3 (0 : Fin 1) (0 : Fin 1) (lane g o)) = _
        rw [Cert.LibStackLoad.ld_slice_apply _ 3 (by decide), iblk3_6_apply, hE.eb]
      wh1 := fun g f g' o => by
        show View.ld (iblk3 (F := Ideal) V c 4 t) (Rect.unit (s := S5x128x128) ![3, 0, 0] S1x128x128.size inb_S5x128x128_S1x128x128_3_0_0) (ix3 (0 : Fin 1) (lane g f) (lane g' o)) = _
        rw [Cert.LibStackLoad.ld_slice_apply _ 3 (by decide), iblk3_4_apply, hE.wh1]
      wh2 := fun g f g' o => by
        show View.ld (iblk3 (F := Ideal) V c 5 t) (Rect.unit (s := S5x128x128) ![3, 0, 0] S1x128x128.size inb_S5x128x128_S1x128x128_3_0_0) (ix3 (0 : Fin 1) (lane g f) (lane g' o)) = _
        rw [Cert.LibStackLoad.ld_slice_apply _ 3 (by decide), iblk3_5_apply, hE.wh2]
      hb := fun g o => by
        show View.ld (iblk3 (F := Ideal) V c 7 t) (Rect.unit (s := S5x1x128) ![3, 0, 0] S1x1x128.size inb_S5x1x128_S1x1x128_3_0_0) (ix3 (0 : Fin 1) (0 : Fin 1) (lane g o)) = _
        rw [Cert.LibStackLoad.ld_slice_apply _ 3 (by decide), iblk3_7_apply, hE.hb] }
  | ⟨4, _⟩ => exact
    { wp := fun g f g' o => by
        show View.ld (iblk3 (F := Ideal) V c 2 t) (Rect.unit (s := S5x128x128) ![4, 0, 0] S1x128x128.size inb_S5x128x128_S1x128x128_4_0_0) (ix3 (0 : Fin 1) (lane g f) (lane g' o)) = _
        rw [Cert.LibStackLoad.ld_slice_apply _ 4 (by decide), iblk3_2_apply, hE.wp]
      we := fun g d g' o => by
        show View.ld (iblk3 (F := Ideal) V c 3 t) (Rect.unit (s := S5x64x128) ![4, 0, 0] S1x64x128.size inb_S5x64x128_S1x64x128_4_0_0) (ix3 (0 : Fin 1) (lane16 g d) (lane g' o)) = _
        rw [Cert.LibStackLoad.ld_slice_apply _ 4 (by decide), iblk3_3_apply, hE.we]
      eb := fun g o => by
        show View.ld (iblk3 (F := Ideal) V c 6 t) (Rect.unit (s := S5x1x128) ![4, 0, 0] S1x1x128.size inb_S5x1x128_S1x1x128_4_0_0) (ix3 (0 : Fin 1) (0 : Fin 1) (lane g o)) = _
        rw [Cert.LibStackLoad.ld_slice_apply _ 4 (by decide), iblk3_6_apply, hE.eb]
      wh1 := fun g f g' o => by
        show View.ld (iblk3 (F := Ideal) V c 4 t) (Rect.unit (s := S5x128x128) ![4, 0, 0] S1x128x128.size inb_S5x128x128_S1x128x128_4_0_0) (ix3 (0 : Fin 1) (lane g f) (lane g' o)) = _
        rw [Cert.LibStackLoad.ld_slice_apply _ 4 (by decide), iblk3_4_apply, hE.wh1]
      wh2 := fun g f g' o => by
        show View.ld (iblk3 (F := Ideal) V c 5 t) (Rect.unit (s := S5x128x128) ![4, 0, 0] S1x128x128.size inb_S5x128x128_S1x128x128_4_0_0) (ix3 (0 : Fin 1) (lane g f) (lane g' o)) = _
        rw [Cert.LibStackLoad.ld_slice_apply _ 4 (by decide), iblk3_5_apply, hE.wh2]
      hb := fun g o => by
        show View.ld (iblk3 (F := Ideal) V c 7 t) (Rect.unit (s := S5x1x128) ![4, 0, 0] S1x1x128.size inb_S5x1x128_S1x1x128_4_0_0) (ix3 (0 : Fin 1) (0 : Fin 1) (lane g o)) = _
        rw [Cert.LibStackLoad.ld_slice_apply _ 4 (by decide), iblk3_7_apply, hE.hb] }

end Final

section Last

variable {a0 : FVec Ideal S4096x54x32 .f32} {a1 : FVec Ideal S4096x72x16 .f32} {a2 : FVec Ideal S5x48x32 .f32}
  {a3 : FVec Ideal S5x32 .f32} {a4 : FVec Ideal S5x64x32 .f32} {a5 : FVec Ideal S5x32 .f32}

theorem hz2_3 : (![0, 0] : Fin 2 → Nat) = fun _ => 0 := funext fun a => by fin_cases a <;> rfl

/-- The block the body leaves at grid point t, at row r of the block and the lanes of group g: the network at the batch
    element in group g of row 128 t + r of chunk 3. -/
theorem block3_apply {V : (c : Dev nD) → (b : Ref sig .tc) → Buf (Elt Ideal) ((c : Thread nD τ).loc b)} {c : Dev nD}
    (hE : Entry3 V a0 a1 a2 a3 a4 a5 c) (t : Fin cfg3.N) (n : Fin 54) (r : Fin 128) (g : Fin 4) (o : Fin 32) :
    bodyVal3 (iblk3 (F := Ideal) V c 0 t) (iblk3 (F := Ideal) V c 1 t) (iblk3 (F := Ideal) V c 2 t)
        (iblk3 (F := Ideal) V c 3 t) (iblk3 (F := Ideal) V c 4 t) (iblk3 (F := Ideal) V c 5 t)
        (iblk3 (F := Ideal) V c 6 t) (iblk3 (F := Ideal) V c 7 t) (iblk3 (F := Ideal) V c 8 t) (ix3 n r (lane g o))
      = Cert.Spec.netMul (fun i f o => a2 (ix3 i f o)) (fun i o => a3 (ix2 i o)) (fun i f o => a4 (ix3 i f o)) (fun i o => a5 (ix2 i o))
          (fun b m d => a1 (ix3 b m d)) (fun b n f => a0 (ix3 b n f))
          (⟨3072 + (4 * (128 * t.val + r.val) + g.val), by have := t.isLt; have hN : cfg3.N = 2 := N_3; have := r.isLt; have := g.isLt; omega⟩ : Fin 4096) n o := by
  have ht := t.isLt
  have hN : cfg3.N = 2 := N_3
  have hr := r.isLt
  have hg := g.isLt
  rw [bodyVal3_eq]
  refine Cert.KNet.net_apply (B := 4096) _ _ _ _ (wpF3 V c t) (weF3 V c t) (ebF3 V c t) (wh1F3 V c t) (wh2F3 V c t) (hbF3 V c t)
    (packed3 hE t) (O3 (iblk3 (F := Ideal) V c 8 t)) ?hO (X3 (iblk3 (F := Ideal) V c 0 t)) (E3 (iblk3 (F := Ideal) V c 1 t)) r g
    (fun b n f => a0 (ix3 b n f)) (fun b m d => a1 (ix3 b m d)) _ ?hX ?hE n o
  case hO =>
    intro g1 f1 g2 o2
    show shapeCast S128x128 (View.ld (iblk3 (F := Ideal) V c 8 t) _) _ (ix2 (lane g1 f1) (lane g2 o2)) = _
    rw [shapeCast_apply _ _ _ (ix2 (lane g1 f1) (lane g2 o2)) rfl, View.ld_unit_zero (S := S128x128) hz2_3, iblk3_8_apply, hE.ones]
  case hX =>
    intro n' f
    show shapeCast S54x128x128 (View.ld (iblk3 (F := Ideal) V c 0 t) _) _ (ix3 n' r (lane g f)) = _
    rw [shapeCast_apply _ _ _ (ix3 n' r (lane g f)) rfl, View.ld_unit_zero (S := S54x128x128) hz3_3, iblk3_0_apply, hE.vt]
  case hE =>
    intro j w d
    show shapeCast S72x128x64 (View.ld (iblk3 (F := Ideal) V c 1 t) _) _ (ix3 (⟨24 * j.val + w.val, by have := j.isLt; have := w.isLt; omega⟩ : Fin 72) r (lane16 g d)) = _
    rw [shapeCast_apply _ _ _ (ix3 (⟨24 * j.val + w.val, by have := j.isLt; have := w.isLt; omega⟩ : Fin 72) r (lane16 g d)) rfl, View.ld_unit_zero (S := S72x128x64) hz3_3, iblk3_1_apply, hE.ep]

end Last

section Cover

variable {a0 : FVec Ideal S4096x54x32 .f32} {a1 : FVec Ideal S4096x72x16 .f32} {a2 : FVec Ideal S5x48x32 .f32}
  {a3 : FVec Ideal S5x32 .f32} {a4 : FVec Ideal S5x64x32 .f32} {a5 : FVec Ideal S5x32 .f32}

/-- An index of the output array is in point t's block iff each coordinate is in the block's range on its axis. -/
theorem mem_blk3 (t : Fin cfg3.N) (i : S54x256x128.Idx) :
    i ∈ ((cfg3.win 9).blk t).view.set ↔ ∀ a : Fin 3, win3_9.index t a * S54x128x128.size a ≤ (i a).val
      ∧ (i a).val < win3_9.index t a * S54x128x128.size a + S54x128x128.size a := by
  show i ∈ ((View.whole main_v105).slice (win3_9.rect t)).set ↔ _
  rw [View.set_slice_whole, Rect.mem_set_unit]
  exact Iff.rfl

set_option maxHeartbeats 8000000 in
/-- After the region every entry of the output array is the network at the entry's batch element. -/
theorem final3_apply {V : (c : Dev nD) → (b : Ref sig .tc) → Buf (Elt Ideal) ((c : Thread nD τ).loc b)} {c : Dev nD}
    (hE : Entry3 V a0 a1 a2 a3 a4 a5 c) (n : Fin 54) (c' : Fin 256) (g : Fin 4) (o : Fin 32) :
    (dat3 (F := Ideal) V c).arrAt 9 cfg3.N (ix3 n c' (lane g o))
      = Cert.Spec.netMul (fun i f o => a2 (ix3 i f o)) (fun i o => a3 (ix2 i o)) (fun i f o => a4 (ix3 i f o)) (fun i o => a5 (ix2 i o))
          (fun b m d => a1 (ix3 b m d)) (fun b n f => a0 (ix3 b n f))
          (⟨3072 + (4 * c'.val + g.val), by have := c'.isLt; have := g.isLt; omega⟩ : Fin 4096) n o := by
  have hN : cfg3.N = 2 := N_3
  refine (dat3 (F := Ideal) V c).arrAt_forall_of_cover 9
    (fun i v => ∀ (n : Fin 54) (c' : Fin 256) (g : Fin 4) (o : Fin 32), i = ix3 n c' (lane g o) →
      v = Cert.Spec.netMul (fun i f o => a2 (ix3 i f o)) (fun i o => a3 (ix2 i o)) (fun i f o => a4 (ix3 i f o)) (fun i o => a5 (ix2 i o))
          (fun b m d => a1 (ix3 b m d)) (fun b n f => a0 (ix3 b n f))
          (⟨3072 + (4 * c'.val + g.val), by have := c'.isLt; have := g.isLt; omega⟩ : Fin 4096) n o)
    ?hP ?hcover (ix3 n c' (lane g o)) n c' g o rfl
  case hP =>
    intro t hf y n c' g o hi
    have ht := t.isLt
    obtain ⟨-, -, ⟨e0, e1, e2⟩, -⟩ := idx_facts3 t
    have h0 : win3_9.index t (0 : Fin 3) * 54 + 1 * (y 0).val = n.val := congrArg (fun i : S54x256x128.Idx => (i 0).val) hi
    have h1 : win3_9.index t (1 : Fin 3) * 128 + 1 * (y 1).val = c'.val := congrArg (fun i : S54x256x128.Idx => (i 1).val) hi
    have h2 : win3_9.index t (2 : Fin 3) * 128 + 1 * (y 2).val = (lane g o).val := congrArg (fun i : S54x256x128.Idx => (i 2).val) hi
    have hy : y = ix3 n (⟨(y 1).val, (y 1).isLt⟩ : Fin 128) (lane g o) := by
      funext a; apply Fin.ext
      match a with
      | ⟨0, _⟩ => show (y 0).val = n.val; omega
      | ⟨1, _⟩ => rfl
      | ⟨2, _⟩ => show (y 2).val = (lane g o).val; omega
    rw [cast_eq, flushed3_eq V c t, hy, block3_apply hE t n ⟨(y 1).val, (y 1).isLt⟩ g o]
    congr 1
    apply Fin.ext
    show 3072 + (4 * (128 * t.val + (y 1).val) + g.val) = 3072 + (4 * c'.val + g.val)
    omega
  case hcover =>
    intro i
    have hi1 : (i 1).val < 256 := (i 1).isLt
    have hi0 : (i 0).val < 54 := (i 0).isLt
    have hi2 : (i 2).val < 128 := (i 2).isLt
    refine ⟨⟨(i 1).val / 128, by omega⟩, flush3_9 _, ?_⟩
    rw [mem_blk3]
    obtain ⟨-, -, ⟨e0, e1, e2⟩, -⟩ := idx_facts3 (⟨(i 1).val / 128, by omega⟩ : Fin cfg3.N)
    intro a
    match a with
    | ⟨0, _⟩ => show win3_9.index _ (0 : Fin 3) * 54 ≤ (i 0).val ∧ (i 0).val < win3_9.index _ (0 : Fin 3) * 54 + 54; omega
    | ⟨1, _⟩ => show win3_9.index _ (1 : Fin 3) * 128 ≤ (i 1).val ∧ (i 1).val < win3_9.index _ (1 : Fin 3) * 128 + 128; rw [e1]; show (i 1).val / 128 * 128 ≤ (i 1).val ∧ (i 1).val < (i 1).val / 128 * 128 + 128; omega
    | ⟨2, _⟩ => show win3_9.index _ (2 : Fin 3) * 128 ≤ (i 2).val ∧ (i 2).val < win3_9.index _ (2 : Fin 3) * 128 + 128; omega

end Cover

end Cert.KernelIdeal.Hand

end
-- ==== Proof.KIEntry.lean ====
/-
  THE OPERANDS AT EACH REGION'S ENTRY. Read back through the host stretches, the arrays the regions' windows sit on are the
  host functions of the arguments (KHost.lean): the block-diagonal weight stacks, the tiled biases and the ones matrix
  are computed before region 0 and reach the later regions unchanged (a region only reads them, a stretch does not
  write them); chunk K's packed vertices and pre-gathered edges are computed in the stretch before region K from rows
  1024 K … 1024 K + 1023 of the arguments.
-/
import proofs.«182073_g78494822302262_cont_9to1_m_206_7_alg».proof.Proof.KIRun
import proofs.«182073_g78494822302262_cont_9to1_m_206_7_alg».proof.Proof.KHost
import proofs.«182073_g78494822302262_cont_9to1_m_206_7_alg».proof.Proof.KIValue0
import proofs.«182073_g78494822302262_cont_9to1_m_206_7_alg».proof.Proof.KIValue1
import proofs.«182073_g78494822302262_cont_9to1_m_206_7_alg».proof.Proof.KIValue2
import proofs.«182073_g78494822302262_cont_9to1_m_206_7_alg».proof.Proof.KIValue3

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window BodyObligation cellOf)
open Cert.KLayerAt

variable (m : (ℓ : Loc nD τ sig) → Buf (Elt Ideal) ℓ) (ρ : Dev nD → PrngReg)

/-! ## The operands at region 0's entry, as functions of the arguments -/

set_option maxRecDepth 65536 in
set_option maxHeartbeats 8000000 in
theorem w3_wp (c : Dev nD) : (W3 (F := Ideal) m ρ c main_v13 : FVec Ideal S5x128x128 .f32)
    = Cert.KHost.kron32 (F := Ideal) (extractStridedSlice S5x32x32 ![0, 0, 0] (m ((c : Thread nD τ).loc main_arg2) : FVec Ideal S5x48x32 .f32) slices_S5x48x32_S5x32x32_0_0_0) := by
  show StableHlo.after hostOps0_2 (StableHlo.after hostOps0_1 (StableHlo.after hostOps0 (W0 m ρ c))) main_v13 = _
  after_results_simp
  rfl

set_option maxRecDepth 65536 in
set_option maxHeartbeats 8000000 in
theorem w3_we (c : Dev nD) : (W3 (F := Ideal) m ρ c main_v25 : FVec Ideal S5x64x128 .f32)
    = Cert.KHost.kron16 (F := Ideal) (extractStridedSlice S5x16x32 ![0, 32, 0] (m ((c : Thread nD τ).loc main_arg2) : FVec Ideal S5x48x32 .f32) slices_S5x48x32_S5x16x32_0_32_0) := by
  show StableHlo.after hostOps0_2 (StableHlo.after hostOps0_1 (StableHlo.after hostOps0 (W0 m ρ c))) main_v25 = _
  after_results_simp
  rfl

set_option maxRecDepth 65536 in
set_option maxHeartbeats 8000000 in
theorem w3_wh1 (c : Dev nD) : (W3 (F := Ideal) m ρ c main_v38 : FVec Ideal S5x128x128 .f32)
    = Cert.KHost.kron32 (F := Ideal) (extractStridedSlice S5x32x32 ![0, 0, 0] (m ((c : Thread nD τ).loc main_arg4) : FVec Ideal S5x64x32 .f32) slices_S5x64x32_S5x32x32_0_0_0) := by
  show StableHlo.after hostOps0_2 (StableHlo.after hostOps0_1 (StableHlo.after hostOps0 (W0 m ρ c))) main_v38 = _
  after_results_simp
  rfl

set_option maxRecDepth 65536 in
set_option maxHeartbeats 8000000 in
theorem w3_wh2 (c : Dev nD) : (W3 (F := Ideal) m ρ c main_v51 : FVec Ideal S5x128x128 .f32)
    = Cert.KHost.kron32 (F := Ideal) (extractStridedSlice S5x32x32 ![0, 32, 0] (m ((c : Thread nD τ).loc main_arg4) : FVec Ideal S5x64x32 .f32) slices_S5x64x32_S5x32x32_0_32_0) := by
  show StableHlo.after hostOps0_2 (StableHlo.after hostOps0_1 (StableHlo.after hostOps0 (W0 m ρ c))) main_v51 = _
  after_results_simp
  rfl

set_option maxRecDepth 65536 in
set_option maxHeartbeats 8000000 in
theorem w3_eb (c : Dev nD) : (W3 (F := Ideal) m ρ c main_v55 : FVec Ideal S5x1x128 .f32) = Cert.KHost.tile4 (F := Ideal) (m ((c : Thread nD τ).loc main_arg3) : FVec Ideal S5x32 .f32) := by
  show StableHlo.after hostOps0_2 (StableHlo.after hostOps0_1 (StableHlo.after hostOps0 (W0 m ρ c))) main_v55 = _
  after_results_simp
  rfl

set_option maxRecDepth 65536 in
set_option maxHeartbeats 8000000 in
theorem w3_hb (c : Dev nD) : (W3 (F := Ideal) m ρ c main_v59 : FVec Ideal S5x1x128 .f32) = Cert.KHost.tile4 (F := Ideal) (m ((c : Thread nD τ).loc main_arg5) : FVec Ideal S5x32 .f32) := by
  show StableHlo.after hostOps0_2 (StableHlo.after hostOps0_1 (StableHlo.after hostOps0 (W0 m ρ c))) main_v59 = _
  after_results_simp
  rfl

set_option maxRecDepth 65536 in
set_option maxHeartbeats 8000000 in
theorem w3_ones (c : Dev nD) : (W3 (F := Ideal) m ρ c main_v67 : FVec Ideal S128x128 .f32) = Cert.KHost.onesBd (F := Ideal) := by
  show StableHlo.after hostOps0_2 (StableHlo.after hostOps0_1 (StableHlo.after hostOps0 (W0 m ρ c))) main_v67 = _
  after_results_simp
  rfl

/-! ## What the later stretches and regions leave alone -/

set_option maxRecDepth 8192 in
set_option maxHeartbeats 4000000 in
theorem W3_arg0 (c : Dev nD) : W3 (F := Ideal) m ρ c (Proc.devRef .tc main_arg0) = m ((c : Thread nD τ).loc main_arg0) :=
  calc W3 (F := Ideal) m ρ c (Proc.devRef .tc main_arg0)
    _ = W2 m ρ c (Proc.devRef .tc main_arg0) := StableHlo.after_of_forall_not_mem (b := Proc.devRef .tc main_arg0) _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W1 m ρ c (Proc.devRef .tc main_arg0) := StableHlo.after_of_forall_not_mem (b := Proc.devRef .tc main_arg0) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W0 m ρ c (Proc.devRef .tc main_arg0) := StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = m ((c : Thread nD τ).loc main_arg0) := rfl

set_option maxRecDepth 8192 in
set_option maxHeartbeats 4000000 in
theorem W4_arg0 (c : Dev nD) : W4 (F := Ideal) m ρ c (Proc.devRef .tc main_arg0) = m ((c : Thread nD τ).loc main_arg0) :=
  calc W4 (F := Ideal) m ρ c (Proc.devRef .tc main_arg0)
    _ = W3 m ρ c (Proc.devRef .tc main_arg0) := W4_of_ne m ρ c main_arg0 (by decide)
    _ = m ((c : Thread nD τ).loc main_arg0) := W3_arg0 m ρ c

set_option maxRecDepth 8192 in
set_option maxHeartbeats 4000000 in
theorem W6_arg0 (c : Dev nD) : W6 (F := Ideal) m ρ c (Proc.devRef .tc main_arg0) = m ((c : Thread nD τ).loc main_arg0) :=
  calc W6 (F := Ideal) m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = m ((c : Thread nD τ).loc main_arg0) := W4_arg0 m ρ c

set_option maxRecDepth 8192 in
set_option maxHeartbeats 4000000 in
theorem W8_arg0 (c : Dev nD) : W8 (F := Ideal) m ρ c (Proc.devRef .tc main_arg0) = m ((c : Thread nD τ).loc main_arg0) :=
  calc W8 (F := Ideal) m ρ c (Proc.devRef .tc main_arg0)
    _ = W7 m ρ c (Proc.devRef .tc main_arg0) := W8_of_ne m ρ c main_arg0 (by decide)
    _ = W6 m ρ c (Proc.devRef .tc main_arg0) := StableHlo.after_of_forall_not_mem (b := Proc.devRef .tc main_arg0) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = m ((c : Thread nD τ).loc main_arg0) := W6_arg0 m ρ c

set_option maxRecDepth 8192 in
set_option maxHeartbeats 4000000 in
theorem W3_arg1 (c : Dev nD) : W3 (F := Ideal) m ρ c (Proc.devRef .tc main_arg1) = m ((c : Thread nD τ).loc main_arg1) :=
  calc W3 (F := Ideal) m ρ c (Proc.devRef .tc main_arg1)
    _ = W2 m ρ c (Proc.devRef .tc main_arg1) := StableHlo.after_of_forall_not_mem (b := Proc.devRef .tc main_arg1) _ _ (List.forall_iff_forall_mem.mp (by
      simp only [hostOps0_2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W1 m ρ c (Proc.devRef .tc main_arg1) := StableHlo.after_of_forall_not_mem (b := Proc.devRef .tc main_arg1) _ _ (List.forall_iff_forall_mem.mp (by
      simp only [hostOps0_1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W0 m ρ c (Proc.devRef .tc main_arg1) := StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = m ((c : Thread nD τ).loc main_arg1) := rfl

set_option maxRecDepth 8192 in
set_option maxHeartbeats 4000000 in
theorem W4_arg1 (c : Dev nD) : W4 (F := Ideal) m ρ c (Proc.devRef .tc main_arg1) = m ((c : Thread nD τ).loc main_arg1) :=
  calc W4 (F := Ideal) m ρ c (Proc.devRef .tc main_arg1)
    _ = W3 m ρ c (Proc.devRef .tc main_arg1) := W4_of_ne m ρ c main_arg1 (by decide)
    _ = m ((c : Thread nD τ).loc main_arg1) := W3_arg1 m ρ c

set_option maxRecDepth 8192 in
set_option maxHeartbeats 4000000 in
theorem W6_arg1 (c : Dev nD) : W6 (F := Ideal) m ρ c (Proc.devRef .tc main_arg1) = m ((c : Thread nD τ).loc main_arg1) :=
  calc W6 (F := Ideal) m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = m ((c : Thread nD τ).loc main_arg1) := W4_arg1 m ρ c

set_option maxRecDepth 8192 in
set_option maxHeartbeats 4000000 in
theorem W8_arg1 (c : Dev nD) : W8 (F := Ideal) m ρ c (Proc.devRef .tc main_arg1) = m ((c : Thread nD τ).loc main_arg1) :=
  calc W8 (F := Ideal) m ρ c (Proc.devRef .tc main_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = m ((c : Thread nD τ).loc main_arg1) := W6_arg1 m ρ c

/-- An input window's array passes region 0 unchanged. -/
theorem W4_in (c : Dev nD) (w : Fin cfg0.W) (hw : (cfg0.win w).isOut = false) :
    W4 (F := Ideal) m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))

/-- An input window's array passes region 1 unchanged. -/
theorem W6_in (c : Dev nD) (w : Fin cfg1.W) (hw : (cfg1.win w).isOut = false) :
    W6 (F := Ideal) m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))

/-- An input window's array passes region 2 unchanged. -/
theorem W8_in (c : Dev nD) (w : Fin cfg2.W) (hw : (cfg2.win w).isOut = false) :
    W8 (F := Ideal) m ρ c (Proc.devRef .tc (Pipeline.arrRef spec2 w)) = W7 m ρ c (Proc.devRef .tc (Pipeline.arrRef spec2 w)) :=
  (W8_arr m ρ c w).trans (((dat2 (V7 m ρ) c).arrAt_in w hw _).trans (A_eq2 (V7 m ρ) c w))

set_option maxRecDepth 8192 in
set_option maxHeartbeats 4000000 in
theorem W5_main_v13 (c : Dev nD) : W5 (F := Ideal) m ρ c (Proc.devRef .tc main_v13) = W3 m ρ c (Proc.devRef .tc main_v13) :=
  calc W5 (F := Ideal) m ρ c (Proc.devRef .tc main_v13)
    _ = W4 m ρ c (Proc.devRef .tc main_v13) := StableHlo.after_of_forall_not_mem (b := Proc.devRef .tc main_v13) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W3 m ρ c (Proc.devRef .tc main_v13) := W4_in m ρ c 2 rfl

set_option maxRecDepth 8192 in
set_option maxHeartbeats 4000000 in
theorem W5_main_v25 (c : Dev nD) : W5 (F := Ideal) m ρ c (Proc.devRef .tc main_v25) = W3 m ρ c (Proc.devRef .tc main_v25) :=
  calc W5 (F := Ideal) m ρ c (Proc.devRef .tc main_v25)
    _ = W4 m ρ c (Proc.devRef .tc main_v25) := StableHlo.after_of_forall_not_mem (b := Proc.devRef .tc main_v25) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W3 m ρ c (Proc.devRef .tc main_v25) := W4_in m ρ c 3 rfl

set_option maxRecDepth 8192 in
set_option maxHeartbeats 4000000 in
theorem W5_main_v38 (c : Dev nD) : W5 (F := Ideal) m ρ c (Proc.devRef .tc main_v38) = W3 m ρ c (Proc.devRef .tc main_v38) :=
  calc W5 (F := Ideal) m ρ c (Proc.devRef .tc main_v38)
    _ = W4 m ρ c (Proc.devRef .tc main_v38) := StableHlo.after_of_forall_not_mem (b := Proc.devRef .tc main_v38) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W3 m ρ c (Proc.devRef .tc main_v38) := W4_in m ρ c 4 rfl

set_option maxRecDepth 8192 in
set_option maxHeartbeats 4000000 in
theorem W5_main_v51 (c : Dev nD) : W5 (F := Ideal) m ρ c (Proc.devRef .tc main_v51) = W3 m ρ c (Proc.devRef .tc main_v51) :=
  calc W5 (F := Ideal) m ρ c (Proc.devRef .tc main_v51)
    _ = W4 m ρ c (Proc.devRef .tc main_v51) := StableHlo.after_of_forall_not_mem (b := Proc.devRef .tc main_v51) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W3 m ρ c (Proc.devRef .tc main_v51) := W4_in m ρ c 5 rfl

set_option maxRecDepth 8192 in
set_option maxHeartbeats 4000000 in
theorem W5_main_v55 (c : Dev nD) : W5 (F := Ideal) m ρ c (Proc.devRef .tc main_v55) = W3 m ρ c (Proc.devRef .tc main_v55) :=
  calc W5 (F := Ideal) m ρ c (Proc.devRef .tc main_v55)
    _ = W4 m ρ c (Proc.devRef .tc main_v55) := StableHlo.after_of_forall_not_mem (b := Proc.devRef .tc main_v55) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W3 m ρ c (Proc.devRef .tc main_v55) := W4_in m ρ c 6 rfl

set_option maxRecDepth 8192 in
set_option maxHeartbeats 4000000 in
theorem W5_main_v59 (c : Dev nD) : W5 (F := Ideal) m ρ c (Proc.devRef .tc main_v59) = W3 m ρ c (Proc.devRef .tc main_v59) :=
  calc W5 (F := Ideal) m ρ c (Proc.devRef .tc main_v59)
    _ = W4 m ρ c (Proc.devRef .tc main_v59) := StableHlo.after_of_forall_not_mem (b := Proc.devRef .tc main_v59) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W3 m ρ c (Proc.devRef .tc main_v59) := W4_in m ρ c 7 rfl

set_option maxRecDepth 8192 in
set_option maxHeartbeats 4000000 in
theorem W5_main_v67 (c : Dev nD) : W5 (F := Ideal) m ρ c (Proc.devRef .tc main_v67) = W3 m ρ c (Proc.devRef .tc main_v67) :=
  calc W5 (F := Ideal) m ρ c (Proc.devRef .tc main_v67)
    _ = W4 m ρ c (Proc.devRef .tc main_v67) := StableHlo.after_of_forall_not_mem (b := Proc.devRef .tc main_v67) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W3 m ρ c (Proc.devRef .tc main_v67) := W4_in m ρ c 8 rfl

set_option maxRecDepth 8192 in
set_option maxHeartbeats 4000000 in
theorem W7_main_v13 (c : Dev nD) : W7 (F := Ideal) m ρ c (Proc.devRef .tc main_v13) = W3 m ρ c (Proc.devRef .tc main_v13) :=
  calc W7 (F := Ideal) m ρ c (Proc.devRef .tc main_v13)
    _ = W6 m ρ c (Proc.devRef .tc main_v13) := StableHlo.after_of_forall_not_mem (b := Proc.devRef .tc main_v13) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W5 m ρ c (Proc.devRef .tc main_v13) := W6_in m ρ c 2 rfl
    _ = W3 m ρ c (Proc.devRef .tc main_v13) := W5_main_v13 m ρ c

set_option maxRecDepth 8192 in
set_option maxHeartbeats 4000000 in
theorem W7_main_v25 (c : Dev nD) : W7 (F := Ideal) m ρ c (Proc.devRef .tc main_v25) = W3 m ρ c (Proc.devRef .tc main_v25) :=
  calc W7 (F := Ideal) m ρ c (Proc.devRef .tc main_v25)
    _ = W6 m ρ c (Proc.devRef .tc main_v25) := StableHlo.after_of_forall_not_mem (b := Proc.devRef .tc main_v25) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W5 m ρ c (Proc.devRef .tc main_v25) := W6_in m ρ c 3 rfl
    _ = W3 m ρ c (Proc.devRef .tc main_v25) := W5_main_v25 m ρ c

set_option maxRecDepth 8192 in
set_option maxHeartbeats 4000000 in
theorem W7_main_v38 (c : Dev nD) : W7 (F := Ideal) m ρ c (Proc.devRef .tc main_v38) = W3 m ρ c (Proc.devRef .tc main_v38) :=
  calc W7 (F := Ideal) m ρ c (Proc.devRef .tc main_v38)
    _ = W6 m ρ c (Proc.devRef .tc main_v38) := StableHlo.after_of_forall_not_mem (b := Proc.devRef .tc main_v38) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W5 m ρ c (Proc.devRef .tc main_v38) := W6_in m ρ c 4 rfl
    _ = W3 m ρ c (Proc.devRef .tc main_v38) := W5_main_v38 m ρ c

set_option maxRecDepth 8192 in
set_option maxHeartbeats 4000000 in
theorem W7_main_v51 (c : Dev nD) : W7 (F := Ideal) m ρ c (Proc.devRef .tc main_v51) = W3 m ρ c (Proc.devRef .tc main_v51) :=
  calc W7 (F := Ideal) m ρ c (Proc.devRef .tc main_v51)
    _ = W6 m ρ c (Proc.devRef .tc main_v51) := StableHlo.after_of_forall_not_mem (b := Proc.devRef .tc main_v51) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W5 m ρ c (Proc.devRef .tc main_v51) := W6_in m ρ c 5 rfl
    _ = W3 m ρ c (Proc.devRef .tc main_v51) := W5_main_v51 m ρ c

set_option maxRecDepth 8192 in
set_option maxHeartbeats 4000000 in
theorem W7_main_v55 (c : Dev nD) : W7 (F := Ideal) m ρ c (Proc.devRef .tc main_v55) = W3 m ρ c (Proc.devRef .tc main_v55) :=
  calc W7 (F := Ideal) m ρ c (Proc.devRef .tc main_v55)
    _ = W6 m ρ c (Proc.devRef .tc main_v55) := StableHlo.after_of_forall_not_mem (b := Proc.devRef .tc main_v55) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W5 m ρ c (Proc.devRef .tc main_v55) := W6_in m ρ c 6 rfl
    _ = W3 m ρ c (Proc.devRef .tc main_v55) := W5_main_v55 m ρ c

set_option maxRecDepth 8192 in
set_option maxHeartbeats 4000000 in
theorem W7_main_v59 (c : Dev nD) : W7 (F := Ideal) m ρ c (Proc.devRef .tc main_v59) = W3 m ρ c (Proc.devRef .tc main_v59) :=
  calc W7 (F := Ideal) m ρ c (Proc.devRef .tc main_v59)
    _ = W6 m ρ c (Proc.devRef .tc main_v59) := StableHlo.after_of_forall_not_mem (b := Proc.devRef .tc main_v59) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W5 m ρ c (Proc.devRef .tc main_v59) := W6_in m ρ c 7 rfl
    _ = W3 m ρ c (Proc.devRef .tc main_v59) := W5_main_v59 m ρ c

set_option maxRecDepth 8192 in
set_option maxHeartbeats 4000000 in
theorem W7_main_v67 (c : Dev nD) : W7 (F := Ideal) m ρ c (Proc.devRef .tc main_v67) = W3 m ρ c (Proc.devRef .tc main_v67) :=
  calc W7 (F := Ideal) m ρ c (Proc.devRef .tc main_v67)
    _ = W6 m ρ c (Proc.devRef .tc main_v67) := StableHlo.after_of_forall_not_mem (b := Proc.devRef .tc main_v67) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W5 m ρ c (Proc.devRef .tc main_v67) := W6_in m ρ c 8 rfl
    _ = W3 m ρ c (Proc.devRef .tc main_v67) := W5_main_v67 m ρ c

set_option maxRecDepth 8192 in
set_option maxHeartbeats 4000000 in
theorem W9_main_v13 (c : Dev nD) : W9 (F := Ideal) m ρ c (Proc.devRef .tc main_v13) = W3 m ρ c (Proc.devRef .tc main_v13) :=
  calc W9 (F := Ideal) m ρ c (Proc.devRef .tc main_v13)
    _ = W8 m ρ c (Proc.devRef .tc main_v13) := StableHlo.after_of_forall_not_mem (b := Proc.devRef .tc main_v13) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W7 m ρ c (Proc.devRef .tc main_v13) := W8_in m ρ c 2 rfl
    _ = W3 m ρ c (Proc.devRef .tc main_v13) := W7_main_v13 m ρ c

set_option maxRecDepth 8192 in
set_option maxHeartbeats 4000000 in
theorem W9_main_v25 (c : Dev nD) : W9 (F := Ideal) m ρ c (Proc.devRef .tc main_v25) = W3 m ρ c (Proc.devRef .tc main_v25) :=
  calc W9 (F := Ideal) m ρ c (Proc.devRef .tc main_v25)
    _ = W8 m ρ c (Proc.devRef .tc main_v25) := StableHlo.after_of_forall_not_mem (b := Proc.devRef .tc main_v25) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W7 m ρ c (Proc.devRef .tc main_v25) := W8_in m ρ c 3 rfl
    _ = W3 m ρ c (Proc.devRef .tc main_v25) := W7_main_v25 m ρ c

set_option maxRecDepth 8192 in
set_option maxHeartbeats 4000000 in
theorem W9_main_v38 (c : Dev nD) : W9 (F := Ideal) m ρ c (Proc.devRef .tc main_v38) = W3 m ρ c (Proc.devRef .tc main_v38) :=
  calc W9 (F := Ideal) m ρ c (Proc.devRef .tc main_v38)
    _ = W8 m ρ c (Proc.devRef .tc main_v38) := StableHlo.after_of_forall_not_mem (b := Proc.devRef .tc main_v38) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W7 m ρ c (Proc.devRef .tc main_v38) := W8_in m ρ c 4 rfl
    _ = W3 m ρ c (Proc.devRef .tc main_v38) := W7_main_v38 m ρ c

set_option maxRecDepth 8192 in
set_option maxHeartbeats 4000000 in
theorem W9_main_v51 (c : Dev nD) : W9 (F := Ideal) m ρ c (Proc.devRef .tc main_v51) = W3 m ρ c (Proc.devRef .tc main_v51) :=
  calc W9 (F := Ideal) m ρ c (Proc.devRef .tc main_v51)
    _ = W8 m ρ c (Proc.devRef .tc main_v51) := StableHlo.after_of_forall_not_mem (b := Proc.devRef .tc main_v51) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W7 m ρ c (Proc.devRef .tc main_v51) := W8_in m ρ c 5 rfl
    _ = W3 m ρ c (Proc.devRef .tc main_v51) := W7_main_v51 m ρ c

set_option maxRecDepth 8192 in
set_option maxHeartbeats 4000000 in
theorem W9_main_v55 (c : Dev nD) : W9 (F := Ideal) m ρ c (Proc.devRef .tc main_v55) = W3 m ρ c (Proc.devRef .tc main_v55) :=
  calc W9 (F := Ideal) m ρ c (Proc.devRef .tc main_v55)
    _ = W8 m ρ c (Proc.devRef .tc main_v55) := StableHlo.after_of_forall_not_mem (b := Proc.devRef .tc main_v55) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W7 m ρ c (Proc.devRef .tc main_v55) := W8_in m ρ c 6 rfl
    _ = W3 m ρ c (Proc.devRef .tc main_v55) := W7_main_v55 m ρ c

set_option maxRecDepth 8192 in
set_option maxHeartbeats 4000000 in
theorem W9_main_v59 (c : Dev nD) : W9 (F := Ideal) m ρ c (Proc.devRef .tc main_v59) = W3 m ρ c (Proc.devRef .tc main_v59) :=
  calc W9 (F := Ideal) m ρ c (Proc.devRef .tc main_v59)
    _ = W8 m ρ c (Proc.devRef .tc main_v59) := StableHlo.after_of_forall_not_mem (b := Proc.devRef .tc main_v59) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W7 m ρ c (Proc.devRef .tc main_v59) := W8_in m ρ c 7 rfl
    _ = W3 m ρ c (Proc.devRef .tc main_v59) := W7_main_v59 m ρ c

set_option maxRecDepth 8192 in
set_option maxHeartbeats 4000000 in
theorem W9_main_v67 (c : Dev nD) : W9 (F := Ideal) m ρ c (Proc.devRef .tc main_v67) = W3 m ρ c (Proc.devRef .tc main_v67) :=
  calc W9 (F := Ideal) m ρ c (Proc.devRef .tc main_v67)
    _ = W8 m ρ c (Proc.devRef .tc main_v67) := StableHlo.after_of_forall_not_mem (b := Proc.devRef .tc main_v67) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W7 m ρ c (Proc.devRef .tc main_v67) := W8_in m ρ c 8 rfl
    _ = W3 m ρ c (Proc.devRef .tc main_v67) := W7_main_v67 m ρ c

/-! ## Chunk K's packed vertices and pre-gathered edges at region K's entry -/

set_option maxRecDepth 65536 in
set_option maxHeartbeats 8000000 in
theorem w3_vt (c : Dev nD) : (W3 (F := Ideal) m ρ c main_v71 : FVec Ideal S54x256x128 .f32)
    = shapeCast S54x256x128 (transpose S54x1024x32 [1, 0, 2]
        (extractStridedSlice S1024x54x32 ![0, 0, 0] (m ((c : Thread nD τ).loc main_arg0) : FVec Ideal S4096x54x32 .f32) slices_S4096x54x32_S1024x54x32_0_0_0)
        transposes_S1024x54x32_S54x1024x32_1_0_2) shapeCasts_S54x1024x32_S54x256x128 := by
  show StableHlo.after hostOps0_2 (StableHlo.after hostOps0_1 (StableHlo.after hostOps0 (W0 m ρ c))) main_v71 = _
  after_results_simp
  rfl

set_option maxRecDepth 65536 in
set_option maxHeartbeats 8000000 in
theorem w3_ep (c : Dev nD) : (W3 (F := Ideal) m ρ c main_v74 : FVec Ideal S72x256x64 .f32)
    = shapeCast S72x256x64 (transpose S3x24x256x4x16 [3, 2, 0, 1, 4]
        (shapeCast S256x4x24x3x16 (extractStridedSlice S1024x72x16 ![0, 0, 0] (m ((c : Thread nD τ).loc main_arg1) : FVec Ideal S4096x72x16 .f32) slices_S4096x72x16_S1024x72x16_0_0_0)
          shapeCasts_S1024x72x16_S256x4x24x3x16) transposes_S256x4x24x3x16_S3x24x256x4x16_3_2_0_1_4) shapeCasts_S3x24x256x4x16_S72x256x64 := by
  show StableHlo.after hostOps0_2 (StableHlo.after hostOps0_1 (StableHlo.after hostOps0 (W0 m ρ c))) main_v74 = _
  after_results_simp
  rfl

set_option maxRecDepth 65536 in
set_option maxHeartbeats 8000000 in
theorem w5_vt (c : Dev nD) : (W5 (F := Ideal) m ρ c main_v81 : FVec Ideal S54x256x128 .f32)
    = shapeCast S54x256x128 (transpose S54x1024x32 [1, 0, 2]
        (extractStridedSlice S1024x54x32 ![1024, 0, 0] (m ((c : Thread nD τ).loc main_arg0) : FVec Ideal S4096x54x32 .f32) slices_S4096x54x32_S1024x54x32_1024_0_0)
        transposes_S1024x54x32_S54x1024x32_1_0_2) shapeCasts_S54x1024x32_S54x256x128 := by
  show StableHlo.after hostOps1 (W4 m ρ c) main_v81 = _
  after_results_simp
  rw [W4_arg0 m ρ c]
  rfl

set_option maxRecDepth 65536 in
set_option maxHeartbeats 8000000 in
theorem w5_ep (c : Dev nD) : (W5 (F := Ideal) m ρ c main_v84 : FVec Ideal S72x256x64 .f32)
    = shapeCast S72x256x64 (transpose S3x24x256x4x16 [3, 2, 0, 1, 4]
        (shapeCast S256x4x24x3x16 (extractStridedSlice S1024x72x16 ![1024, 0, 0] (m ((c : Thread nD τ).loc main_arg1) : FVec Ideal S4096x72x16 .f32) slices_S4096x72x16_S1024x72x16_1024_0_0)
          shapeCasts_S1024x72x16_S256x4x24x3x16) transposes_S256x4x24x3x16_S3x24x256x4x16_3_2_0_1_4) shapeCasts_S3x24x256x4x16_S72x256x64 := by
  show StableHlo.after hostOps1 (W4 m ρ c) main_v84 = _
  after_results_simp
  rw [W4_arg1 m ρ c]
  rfl

set_option maxRecDepth 65536 in
set_option maxHeartbeats 8000000 in
theorem w7_vt (c : Dev nD) : (W7 (F := Ideal) m ρ c main_v91 : FVec Ideal S54x256x128 .f32)
    = shapeCast S54x256x128 (transpose S54x1024x32 [1, 0, 2]
        (extractStridedSlice S1024x54x32 ![2048, 0, 0] (m ((c : Thread nD τ).loc main_arg0) : FVec Ideal S4096x54x32 .f32) slices_S4096x54x32_S1024x54x32_2048_0_0)
        transposes_S1024x54x32_S54x1024x32_1_0_2) shapeCasts_S54x1024x32_S54x256x128 := by
  show StableHlo.after hostOps2 (W6 m ρ c) main_v91 = _
  after_results_simp
  rw [W6_arg0 m ρ c]
  rfl

set_option maxRecDepth 65536 in
set_option maxHeartbeats 8000000 in
theorem w7_ep (c : Dev nD) : (W7 (F := Ideal) m ρ c main_v94 : FVec Ideal S72x256x64 .f32)
    = shapeCast S72x256x64 (transpose S3x24x256x4x16 [3, 2, 0, 1, 4]
        (shapeCast S256x4x24x3x16 (extractStridedSlice S1024x72x16 ![2048, 0, 0] (m ((c : Thread nD τ).loc main_arg1) : FVec Ideal S4096x72x16 .f32) slices_S4096x72x16_S1024x72x16_2048_0_0)
          shapeCasts_S1024x72x16_S256x4x24x3x16) transposes_S256x4x24x3x16_S3x24x256x4x16_3_2_0_1_4) shapeCasts_S3x24x256x4x16_S72x256x64 := by
  show StableHlo.after hostOps2 (W6 m ρ c) main_v94 = _
  after_results_simp
  rw [W6_arg1 m ρ c]
  rfl

set_option maxRecDepth 65536 in
set_option maxHeartbeats 8000000 in
theorem w9_vt (c : Dev nD) : (W9 (F := Ideal) m ρ c main_v101 : FVec Ideal S54x256x128 .f32)
    = shapeCast S54x256x128 (transpose S54x1024x32 [1, 0, 2]
        (extractStridedSlice S1024x54x32 ![3072, 0, 0] (m ((c : Thread nD τ).loc main_arg0) : FVec Ideal S4096x54x32 .f32) slices_S4096x54x32_S1024x54x32_3072_0_0)
        transposes_S1024x54x32_S54x1024x32_1_0_2) shapeCasts_S54x1024x32_S54x256x128 := by
  show StableHlo.after hostOps3 (W8 m ρ c) main_v101 = _
  after_results_simp
  rw [W8_arg0 m ρ c]
  rfl

set_option maxRecDepth 65536 in
set_option maxHeartbeats 8000000 in
theorem w9_ep (c : Dev nD) : (W9 (F := Ideal) m ρ c main_v104 : FVec Ideal S72x256x64 .f32)
    = shapeCast S72x256x64 (transpose S3x24x256x4x16 [3, 2, 0, 1, 4]
        (shapeCast S256x4x24x3x16 (extractStridedSlice S1024x72x16 ![3072, 0, 0] (m ((c : Thread nD τ).loc main_arg1) : FVec Ideal S4096x72x16 .f32) slices_S4096x72x16_S1024x72x16_3072_0_0)
          shapeCasts_S1024x72x16_S256x4x24x3x16) transposes_S256x4x24x3x16_S3x24x256x4x16_3_2_0_1_4) shapeCasts_S3x24x256x4x16_S72x256x64 := by
  show StableHlo.after hostOps3 (W8 m ρ c) main_v104 = _
  after_results_simp
  rw [W8_arg1 m ρ c]
  rfl

/-! ## The regions' entry facts -/

set_option maxHeartbeats 4000000 in
theorem entry0 (c : Dev nD) : Entry0 (V3 (F := Ideal) m ρ) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) c where
  vt := fun n c' g f => by
    show (W3 (F := Ideal) m ρ c main_v71 : FVec Ideal S54x256x128 .f32) (ix3 n c' (lane g f)) = _
    rw [w3_vt m ρ c, Cert.KHost.packV_apply]
    exact extractStridedSlice_apply _ _ _ _ _ (fun ax => match ax with
      | ⟨0, _⟩ => rfl
      | ⟨1, _⟩ => (Nat.zero_add _).symm
      | ⟨2, _⟩ => (Nat.zero_add _).symm)
  ep := fun j w c' g d => by
    show (W3 (F := Ideal) m ρ c main_v74 : FVec Ideal S72x256x64 .f32) (ix3 _ c' (lane16 g d)) = _
    rw [w3_ep m ρ c, Cert.KHost.packE_apply]
    exact extractStridedSlice_apply _ _ _ _ _ (fun ax => match ax with
      | ⟨0, _⟩ => rfl
      | ⟨1, _⟩ => (Nat.zero_add _).symm
      | ⟨2, _⟩ => (Nat.zero_add _).symm)
  wp := fun i g f g' o => by
    show (W3 (F := Ideal) m ρ c (Proc.devRef .tc main_v13) : FVec Ideal S5x128x128 .f32) (ix3 i (lane g f) (lane g' o)) = _
    rw [show W3 (F := Ideal) m ρ c (Proc.devRef .tc main_v13) = _ from w3_wp m ρ c, Cert.KHost.kron32_apply]
    refine if_congr Iff.rfl ?_ rfl
    exact slice3_axis1_apply 0 _ _ i f o _ (Nat.zero_add _).symm
  we := fun i g d g' o => by
    show (W3 (F := Ideal) m ρ c (Proc.devRef .tc main_v25) : FVec Ideal S5x64x128 .f32) (ix3 i (lane16 g d) (lane g' o)) = _
    rw [show W3 (F := Ideal) m ρ c (Proc.devRef .tc main_v25) = _ from w3_we m ρ c, Cert.KHost.kron16_apply]
    refine if_congr Iff.rfl ?_ rfl
    exact slice3_axis1_apply 32 _ _ i d o _ rfl
  wh1 := fun i g f g' o => by
    show (W3 (F := Ideal) m ρ c (Proc.devRef .tc main_v38) : FVec Ideal S5x128x128 .f32) (ix3 i (lane g f) (lane g' o)) = _
    rw [show W3 (F := Ideal) m ρ c (Proc.devRef .tc main_v38) = _ from w3_wh1 m ρ c, Cert.KHost.kron32_apply]
    refine if_congr Iff.rfl ?_ rfl
    exact slice3_axis1_apply 0 _ _ i f o _ (Nat.zero_add _).symm
  wh2 := fun i g f g' o => by
    show (W3 (F := Ideal) m ρ c (Proc.devRef .tc main_v51) : FVec Ideal S5x128x128 .f32) (ix3 i (lane g f) (lane g' o)) = _
    rw [show W3 (F := Ideal) m ρ c (Proc.devRef .tc main_v51) = _ from w3_wh2 m ρ c, Cert.KHost.kron32_apply]
    refine if_congr Iff.rfl ?_ rfl
    exact slice3_axis1_apply 32 _ _ i f o _ rfl
  eb := fun i g o => by
    show (W3 (F := Ideal) m ρ c (Proc.devRef .tc main_v55) : FVec Ideal S5x1x128 .f32) (ix3 i (0 : Fin 1) (lane g o)) = _
    rw [show W3 (F := Ideal) m ρ c (Proc.devRef .tc main_v55) = _ from w3_eb m ρ c]
    exact Cert.KHost.tile4_apply _ i 0 g o
  hb := fun i g o => by
    show (W3 (F := Ideal) m ρ c (Proc.devRef .tc main_v59) : FVec Ideal S5x1x128 .f32) (ix3 i (0 : Fin 1) (lane g o)) = _
    rw [show W3 (F := Ideal) m ρ c (Proc.devRef .tc main_v59) = _ from w3_hb m ρ c]
    exact Cert.KHost.tile4_apply _ i 0 g o
  ones := fun g f g' o => by
    show (W3 (F := Ideal) m ρ c (Proc.devRef .tc main_v67) : FVec Ideal S128x128 .f32) (ix2 (lane g f) (lane g' o)) = _
    rw [show W3 (F := Ideal) m ρ c (Proc.devRef .tc main_v67) = _ from w3_ones m ρ c]
    exact Cert.KHost.onesBd_apply g f g' o

set_option maxHeartbeats 4000000 in
theorem entry1 (c : Dev nD) : Entry1 (V5 (F := Ideal) m ρ) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) c where
  vt := fun n c' g f => by
    show (W5 (F := Ideal) m ρ c main_v81 : FVec Ideal S54x256x128 .f32) (ix3 n c' (lane g f)) = _
    rw [w5_vt m ρ c, Cert.KHost.packV_apply]
    exact extractStridedSlice_apply _ _ _ _ _ (fun ax => match ax with
      | ⟨0, _⟩ => rfl
      | ⟨1, _⟩ => (Nat.zero_add _).symm
      | ⟨2, _⟩ => (Nat.zero_add _).symm)
  ep := fun j w c' g d => by
    show (W5 (F := Ideal) m ρ c main_v84 : FVec Ideal S72x256x64 .f32) (ix3 _ c' (lane16 g d)) = _
    rw [w5_ep m ρ c, Cert.KHost.packE_apply]
    exact extractStridedSlice_apply _ _ _ _ _ (fun ax => match ax with
      | ⟨0, _⟩ => rfl
      | ⟨1, _⟩ => (Nat.zero_add _).symm
      | ⟨2, _⟩ => (Nat.zero_add _).symm)
  wp := fun i g f g' o => by
    show (W5 (F := Ideal) m ρ c (Proc.devRef .tc main_v13) : FVec Ideal S5x128x128 .f32) (ix3 i (lane g f) (lane g' o)) = _
    rw [W5_main_v13 m ρ c, show W3 (F := Ideal) m ρ c (Proc.devRef .tc main_v13) = _ from w3_wp m ρ c, Cert.KHost.kron32_apply]
    refine if_congr Iff.rfl ?_ rfl
    exact slice3_axis1_apply 0 _ _ i f o _ (Nat.zero_add _).symm
  we := fun i g d g' o => by
    show (W5 (F := Ideal) m ρ c (Proc.devRef .tc main_v25) : FVec Ideal S5x64x128 .f32) (ix3 i (lane16 g d) (lane g' o)) = _
    rw [W5_main_v25 m ρ c, show W3 (F := Ideal) m ρ c (Proc.devRef .tc main_v25) = _ from w3_we m ρ c, Cert.KHost.kron16_apply]
    refine if_congr Iff.rfl ?_ rfl
    exact slice3_axis1_apply 32 _ _ i d o _ rfl
  wh1 := fun i g f g' o => by
    show (W5 (F := Ideal) m ρ c (Proc.devRef .tc main_v38) : FVec Ideal S5x128x128 .f32) (ix3 i (lane g f) (lane g' o)) = _
    rw [W5_main_v38 m ρ c, show W3 (F := Ideal) m ρ c (Proc.devRef .tc main_v38) = _ from w3_wh1 m ρ c, Cert.KHost.kron32_apply]
    refine if_congr Iff.rfl ?_ rfl
    exact slice3_axis1_apply 0 _ _ i f o _ (Nat.zero_add _).symm
  wh2 := fun i g f g' o => by
    show (W5 (F := Ideal) m ρ c (Proc.devRef .tc main_v51) : FVec Ideal S5x128x128 .f32) (ix3 i (lane g f) (lane g' o)) = _
    rw [W5_main_v51 m ρ c, show W3 (F := Ideal) m ρ c (Proc.devRef .tc main_v51) = _ from w3_wh2 m ρ c, Cert.KHost.kron32_apply]
    refine if_congr Iff.rfl ?_ rfl
    exact slice3_axis1_apply 32 _ _ i f o _ rfl
  eb := fun i g o => by
    show (W5 (F := Ideal) m ρ c (Proc.devRef .tc main_v55) : FVec Ideal S5x1x128 .f32) (ix3 i (0 : Fin 1) (lane g o)) = _
    rw [W5_main_v55 m ρ c, show W3 (F := Ideal) m ρ c (Proc.devRef .tc main_v55) = _ from w3_eb m ρ c]
    exact Cert.KHost.tile4_apply _ i 0 g o
  hb := fun i g o => by
    show (W5 (F := Ideal) m ρ c (Proc.devRef .tc main_v59) : FVec Ideal S5x1x128 .f32) (ix3 i (0 : Fin 1) (lane g o)) = _
    rw [W5_main_v59 m ρ c, show W3 (F := Ideal) m ρ c (Proc.devRef .tc main_v59) = _ from w3_hb m ρ c]
    exact Cert.KHost.tile4_apply _ i 0 g o
  ones := fun g f g' o => by
    show (W5 (F := Ideal) m ρ c (Proc.devRef .tc main_v67) : FVec Ideal S128x128 .f32) (ix2 (lane g f) (lane g' o)) = _
    rw [W5_main_v67 m ρ c, show W3 (F := Ideal) m ρ c (Proc.devRef .tc main_v67) = _ from w3_ones m ρ c]
    exact Cert.KHost.onesBd_apply g f g' o

set_option maxHeartbeats 4000000 in
theorem entry2 (c : Dev nD) : Entry2 (V7 (F := Ideal) m ρ) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) c where
  vt := fun n c' g f => by
    show (W7 (F := Ideal) m ρ c main_v91 : FVec Ideal S54x256x128 .f32) (ix3 n c' (lane g f)) = _
    rw [w7_vt m ρ c, Cert.KHost.packV_apply]
    exact extractStridedSlice_apply _ _ _ _ _ (fun ax => match ax with
      | ⟨0, _⟩ => rfl
      | ⟨1, _⟩ => (Nat.zero_add _).symm
      | ⟨2, _⟩ => (Nat.zero_add _).symm)
  ep := fun j w c' g d => by
    show (W7 (F := Ideal) m ρ c main_v94 : FVec Ideal S72x256x64 .f32) (ix3 _ c' (lane16 g d)) = _
    rw [w7_ep m ρ c, Cert.KHost.packE_apply]
    exact extractStridedSlice_apply _ _ _ _ _ (fun ax => match ax with
      | ⟨0, _⟩ => rfl
      | ⟨1, _⟩ => (Nat.zero_add _).symm
      | ⟨2, _⟩ => (Nat.zero_add _).symm)
  wp := fun i g f g' o => by
    show (W7 (F := Ideal) m ρ c (Proc.devRef .tc main_v13) : FVec Ideal S5x128x128 .f32) (ix3 i (lane g f) (lane g' o)) = _
    rw [W7_main_v13 m ρ c, show W3 (F := Ideal) m ρ c (Proc.devRef .tc main_v13) = _ from w3_wp m ρ c, Cert.KHost.kron32_apply]
    refine if_congr Iff.rfl ?_ rfl
    exact slice3_axis1_apply 0 _ _ i f o _ (Nat.zero_add _).symm
  we := fun i g d g' o => by
    show (W7 (F := Ideal) m ρ c (Proc.devRef .tc main_v25) : FVec Ideal S5x64x128 .f32) (ix3 i (lane16 g d) (lane g' o)) = _
    rw [W7_main_v25 m ρ c, show W3 (F := Ideal) m ρ c (Proc.devRef .tc main_v25) = _ from w3_we m ρ c, Cert.KHost.kron16_apply]
    refine if_congr Iff.rfl ?_ rfl
    exact slice3_axis1_apply 32 _ _ i d o _ rfl
  wh1 := fun i g f g' o => by
    show (W7 (F := Ideal) m ρ c (Proc.devRef .tc main_v38) : FVec Ideal S5x128x128 .f32) (ix3 i (lane g f) (lane g' o)) = _
    rw [W7_main_v38 m ρ c, show W3 (F := Ideal) m ρ c (Proc.devRef .tc main_v38) = _ from w3_wh1 m ρ c, Cert.KHost.kron32_apply]
    refine if_congr Iff.rfl ?_ rfl
    exact slice3_axis1_apply 0 _ _ i f o _ (Nat.zero_add _).symm
  wh2 := fun i g f g' o => by
    show (W7 (F := Ideal) m ρ c (Proc.devRef .tc main_v51) : FVec Ideal S5x128x128 .f32) (ix3 i (lane g f) (lane g' o)) = _
    rw [W7_main_v51 m ρ c, show W3 (F := Ideal) m ρ c (Proc.devRef .tc main_v51) = _ from w3_wh2 m ρ c, Cert.KHost.kron32_apply]
    refine if_congr Iff.rfl ?_ rfl
    exact slice3_axis1_apply 32 _ _ i f o _ rfl
  eb := fun i g o => by
    show (W7 (F := Ideal) m ρ c (Proc.devRef .tc main_v55) : FVec Ideal S5x1x128 .f32) (ix3 i (0 : Fin 1) (lane g o)) = _
    rw [W7_main_v55 m ρ c, show W3 (F := Ideal) m ρ c (Proc.devRef .tc main_v55) = _ from w3_eb m ρ c]
    exact Cert.KHost.tile4_apply _ i 0 g o
  hb := fun i g o => by
    show (W7 (F := Ideal) m ρ c (Proc.devRef .tc main_v59) : FVec Ideal S5x1x128 .f32) (ix3 i (0 : Fin 1) (lane g o)) = _
    rw [W7_main_v59 m ρ c, show W3 (F := Ideal) m ρ c (Proc.devRef .tc main_v59) = _ from w3_hb m ρ c]
    exact Cert.KHost.tile4_apply _ i 0 g o
  ones := fun g f g' o => by
    show (W7 (F := Ideal) m ρ c (Proc.devRef .tc main_v67) : FVec Ideal S128x128 .f32) (ix2 (lane g f) (lane g' o)) = _
    rw [W7_main_v67 m ρ c, show W3 (F := Ideal) m ρ c (Proc.devRef .tc main_v67) = _ from w3_ones m ρ c]
    exact Cert.KHost.onesBd_apply g f g' o

set_option maxHeartbeats 4000000 in
theorem entry3 (c : Dev nD) : Entry3 (V9 (F := Ideal) m ρ) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) c where
  vt := fun n c' g f => by
    show (W9 (F := Ideal) m ρ c main_v101 : FVec Ideal S54x256x128 .f32) (ix3 n c' (lane g f)) = _
    rw [w9_vt m ρ c, Cert.KHost.packV_apply]
    exact extractStridedSlice_apply _ _ _ _ _ (fun ax => match ax with
      | ⟨0, _⟩ => rfl
      | ⟨1, _⟩ => (Nat.zero_add _).symm
      | ⟨2, _⟩ => (Nat.zero_add _).symm)
  ep := fun j w c' g d => by
    show (W9 (F := Ideal) m ρ c main_v104 : FVec Ideal S72x256x64 .f32) (ix3 _ c' (lane16 g d)) = _
    rw [w9_ep m ρ c, Cert.KHost.packE_apply]
    exact extractStridedSlice_apply _ _ _ _ _ (fun ax => match ax with
      | ⟨0, _⟩ => rfl
      | ⟨1, _⟩ => (Nat.zero_add _).symm
      | ⟨2, _⟩ => (Nat.zero_add _).symm)
  wp := fun i g f g' o => by
    show (W9 (F := Ideal) m ρ c (Proc.devRef .tc main_v13) : FVec Ideal S5x128x128 .f32) (ix3 i (lane g f) (lane g' o)) = _
    rw [W9_main_v13 m ρ c, show W3 (F := Ideal) m ρ c (Proc.devRef .tc main_v13) = _ from w3_wp m ρ c, Cert.KHost.kron32_apply]
    refine if_congr Iff.rfl ?_ rfl
    exact slice3_axis1_apply 0 _ _ i f o _ (Nat.zero_add _).symm
  we := fun i g d g' o => by
    show (W9 (F := Ideal) m ρ c (Proc.devRef .tc main_v25) : FVec Ideal S5x64x128 .f32) (ix3 i (lane16 g d) (lane g' o)) = _
    rw [W9_main_v25 m ρ c, show W3 (F := Ideal) m ρ c (Proc.devRef .tc main_v25) = _ from w3_we m ρ c, Cert.KHost.kron16_apply]
    refine if_congr Iff.rfl ?_ rfl
    exact slice3_axis1_apply 32 _ _ i d o _ rfl
  wh1 := fun i g f g' o => by
    show (W9 (F := Ideal) m ρ c (Proc.devRef .tc main_v38) : FVec Ideal S5x128x128 .f32) (ix3 i (lane g f) (lane g' o)) = _
    rw [W9_main_v38 m ρ c, show W3 (F := Ideal) m ρ c (Proc.devRef .tc main_v38) = _ from w3_wh1 m ρ c, Cert.KHost.kron32_apply]
    refine if_congr Iff.rfl ?_ rfl
    exact slice3_axis1_apply 0 _ _ i f o _ (Nat.zero_add _).symm
  wh2 := fun i g f g' o => by
    show (W9 (F := Ideal) m ρ c (Proc.devRef .tc main_v51) : FVec Ideal S5x128x128 .f32) (ix3 i (lane g f) (lane g' o)) = _
    rw [W9_main_v51 m ρ c, show W3 (F := Ideal) m ρ c (Proc.devRef .tc main_v51) = _ from w3_wh2 m ρ c, Cert.KHost.kron32_apply]
    refine if_congr Iff.rfl ?_ rfl
    exact slice3_axis1_apply 32 _ _ i f o _ rfl
  eb := fun i g o => by
    show (W9 (F := Ideal) m ρ c (Proc.devRef .tc main_v55) : FVec Ideal S5x1x128 .f32) (ix3 i (0 : Fin 1) (lane g o)) = _
    rw [W9_main_v55 m ρ c, show W3 (F := Ideal) m ρ c (Proc.devRef .tc main_v55) = _ from w3_eb m ρ c]
    exact Cert.KHost.tile4_apply _ i 0 g o
  hb := fun i g o => by
    show (W9 (F := Ideal) m ρ c (Proc.devRef .tc main_v59) : FVec Ideal S5x1x128 .f32) (ix3 i (0 : Fin 1) (lane g o)) = _
    rw [W9_main_v59 m ρ c, show W3 (F := Ideal) m ρ c (Proc.devRef .tc main_v59) = _ from w3_hb m ρ c]
    exact Cert.KHost.tile4_apply _ i 0 g o
  ones := fun g f g' o => by
    show (W9 (F := Ideal) m ρ c (Proc.devRef .tc main_v67) : FVec Ideal S128x128 .f32) (ix2 (lane g f) (lane g' o)) = _
    rw [W9_main_v67 m ρ c, show W3 (F := Ideal) m ρ c (Proc.devRef .tc main_v67) = _ from w3_ones m ρ c]
    exact Cert.KHost.onesBd_apply g f g' o

end Cert.KernelIdeal.Hand

end
-- ==== Proof.KIFinal.lean ====
/-
  THE KERNEL'S RESULT, INDEX BY INDEX. Region K's output array is unpacked to batch-major in the stretch after the region;
  the unpacked chunks reach the last boundary unchanged (no later region's window is on them, no later stretch writes
  them), where the four are joined along the batch axis. So entry (1024 K + 4 c' + g, n, o) of the result is entry
  (n, c', 32 g + o) of region K's output array, which is the network at that batch element (KIValue K with KIEntry).
-/
import proofs.«182073_g78494822302262_cont_9to1_m_206_7_alg».proof.Proof.KIEntry

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window BodyObligation cellOf)
open Cert.KLayerAt

variable (m : (ℓ : Loc nD τ sig) → Buf (Elt Ideal) ℓ) (ρ : Dev nD → PrngReg)

/-! ## Each chunk's result, unpacked -/

set_option maxRecDepth 65536 in
set_option maxHeartbeats 8000000 in
theorem unpacked0 (c : Dev nD) : (W5 (F := Ideal) m ρ c main_v77 : FVec Ideal S1024x54x32 .f32)
    = transpose S1024x54x32 [1, 0, 2] (shapeCast S54x1024x32 (W4 (F := Ideal) m ρ c main_v75 : FVec Ideal S54x256x128 .f32)
        shapeCasts_S54x256x128_S54x1024x32) transposes_S54x1024x32_S1024x54x32_1_0_2 := by
  show StableHlo.after hostOps1 (W4 m ρ c) main_v77 = _
  after_results_simp
  rfl

/-- Chunk 0's unpacked result at (4 c' + g, n, o) is the network at batch element 0 + 4 c' + g. -/
theorem chunk0_apply (c : Dev nD) (c' : Fin 256) (g : Fin 4) (n : Fin 54) (o : Fin 32) :
    (W5 (F := Ideal) m ρ c main_v77 : FVec Ideal S1024x54x32 .f32)
        (ix3 (⟨4 * c'.val + g.val, by have := c'.isLt; have := g.isLt; omega⟩ : Fin 1024) n o)
      = Cert.Spec.netMul (fun i f o => (m ((c : Thread nD τ).loc main_arg2)) (ix3 i f o)) (fun i o => (m ((c : Thread nD τ).loc main_arg3)) (ix2 i o)) (fun i f o => (m ((c : Thread nD τ).loc main_arg4)) (ix3 i f o)) (fun i o => (m ((c : Thread nD τ).loc main_arg5)) (ix2 i o))
          (fun b m' d => (m ((c : Thread nD τ).loc main_arg1)) (ix3 b m' d)) (fun b n f => (m ((c : Thread nD τ).loc main_arg0)) (ix3 b n f))
          (⟨0 + (4 * c'.val + g.val), by have := c'.isLt; have := g.isLt; omega⟩ : Fin 4096) n o := by
  rw [unpacked0 m ρ c, Cert.KHost.unpack_apply]
  show W4 (F := Ideal) m ρ c (Proc.devRef .tc (Pipeline.arrRef spec0 9)) (ix3 n c' (lane g o)) = _
  rw [W4_arr m ρ c 9]
  exact final0_apply (entry0 m ρ c) n c' g o

set_option maxRecDepth 65536 in
set_option maxHeartbeats 8000000 in
theorem unpacked1 (c : Dev nD) : (W7 (F := Ideal) m ρ c main_v87 : FVec Ideal S1024x54x32 .f32)
    = transpose S1024x54x32 [1, 0, 2] (shapeCast S54x1024x32 (W6 (F := Ideal) m ρ c main_v85 : FVec Ideal S54x256x128 .f32)
        shapeCasts_S54x256x128_S54x1024x32) transposes_S54x1024x32_S1024x54x32_1_0_2 := by
  show StableHlo.after hostOps2 (W6 m ρ c) main_v87 = _
  after_results_simp
  rfl

/-- Chunk 1's unpacked result at (4 c' + g, n, o) is the network at batch element 1024 + 4 c' + g. -/
theorem chunk1_apply (c : Dev nD) (c' : Fin 256) (g : Fin 4) (n : Fin 54) (o : Fin 32) :
    (W7 (F := Ideal) m ρ c main_v87 : FVec Ideal S1024x54x32 .f32)
        (ix3 (⟨4 * c'.val + g.val, by have := c'.isLt; have := g.isLt; omega⟩ : Fin 1024) n o)
      = Cert.Spec.netMul (fun i f o => (m ((c : Thread nD τ).loc main_arg2)) (ix3 i f o)) (fun i o => (m ((c : Thread nD τ).loc main_arg3)) (ix2 i o)) (fun i f o => (m ((c : Thread nD τ).loc main_arg4)) (ix3 i f o)) (fun i o => (m ((c : Thread nD τ).loc main_arg5)) (ix2 i o))
          (fun b m' d => (m ((c : Thread nD τ).loc main_arg1)) (ix3 b m' d)) (fun b n f => (m ((c : Thread nD τ).loc main_arg0)) (ix3 b n f))
          (⟨1024 + (4 * c'.val + g.val), by have := c'.isLt; have := g.isLt; omega⟩ : Fin 4096) n o := by
  rw [unpacked1 m ρ c, Cert.KHost.unpack_apply]
  show W6 (F := Ideal) m ρ c (Proc.devRef .tc (Pipeline.arrRef spec1 9)) (ix3 n c' (lane g o)) = _
  rw [W6_arr m ρ c 9]
  exact final1_apply (entry1 m ρ c) n c' g o

set_option maxRecDepth 65536 in
set_option maxHeartbeats 8000000 in
theorem unpacked2 (c : Dev nD) : (W9 (F := Ideal) m ρ c main_v97 : FVec Ideal S1024x54x32 .f32)
    = transpose S1024x54x32 [1, 0, 2] (shapeCast S54x1024x32 (W8 (F := Ideal) m ρ c main_v95 : FVec Ideal S54x256x128 .f32)
        shapeCasts_S54x256x128_S54x1024x32) transposes_S54x1024x32_S1024x54x32_1_0_2 := by
  show StableHlo.after hostOps3 (W8 m ρ c) main_v97 = _
  after_results_simp
  rfl

/-- Chunk 2's unpacked result at (4 c' + g, n, o) is the network at batch element 2048 + 4 c' + g. -/
theorem chunk2_apply (c : Dev nD) (c' : Fin 256) (g : Fin 4) (n : Fin 54) (o : Fin 32) :
    (W9 (F := Ideal) m ρ c main_v97 : FVec Ideal S1024x54x32 .f32)
        (ix3 (⟨4 * c'.val + g.val, by have := c'.isLt; have := g.isLt; omega⟩ : Fin 1024) n o)
      = Cert.Spec.netMul (fun i f o => (m ((c : Thread nD τ).loc main_arg2)) (ix3 i f o)) (fun i o => (m ((c : Thread nD τ).loc main_arg3)) (ix2 i o)) (fun i f o => (m ((c : Thread nD τ).loc main_arg4)) (ix3 i f o)) (fun i o => (m ((c : Thread nD τ).loc main_arg5)) (ix2 i o))
          (fun b m' d => (m ((c : Thread nD τ).loc main_arg1)) (ix3 b m' d)) (fun b n f => (m ((c : Thread nD τ).loc main_arg0)) (ix3 b n f))
          (⟨2048 + (4 * c'.val + g.val), by have := c'.isLt; have := g.isLt; omega⟩ : Fin 4096) n o := by
  rw [unpacked2 m ρ c, Cert.KHost.unpack_apply]
  show W8 (F := Ideal) m ρ c (Proc.devRef .tc (Pipeline.arrRef spec2 9)) (ix3 n c' (lane g o)) = _
  rw [W8_arr m ρ c 9]
  exact final2_apply (entry2 m ρ c) n c' g o

set_option maxRecDepth 65536 in
set_option maxHeartbeats 8000000 in
theorem unpacked3 (c : Dev nD) : (W11 (F := Ideal) m ρ c main_v107 : FVec Ideal S1024x54x32 .f32)
    = transpose S1024x54x32 [1, 0, 2] (shapeCast S54x1024x32 (W10 (F := Ideal) m ρ c main_v105 : FVec Ideal S54x256x128 .f32)
        shapeCasts_S54x256x128_S54x1024x32) transposes_S54x1024x32_S1024x54x32_1_0_2 := by
  show StableHlo.after hostOps4 (W10 m ρ c) main_v107 = _
  after_results_simp
  rfl

/-- Chunk 3's unpacked result at (4 c' + g, n, o) is the network at batch element 3072 + 4 c' + g. -/
theorem chunk3_apply (c : Dev nD) (c' : Fin 256) (g : Fin 4) (n : Fin 54) (o : Fin 32) :
    (W11 (F := Ideal) m ρ c main_v107 : FVec Ideal S1024x54x32 .f32)
        (ix3 (⟨4 * c'.val + g.val, by have := c'.isLt; have := g.isLt; omega⟩ : Fin 1024) n o)
      = Cert.Spec.netMul (fun i f o => (m ((c : Thread nD τ).loc main_arg2)) (ix3 i f o)) (fun i o => (m ((c : Thread nD τ).loc main_arg3)) (ix2 i o)) (fun i f o => (m ((c : Thread nD τ).loc main_arg4)) (ix3 i f o)) (fun i o => (m ((c : Thread nD τ).loc main_arg5)) (ix2 i o))
          (fun b m' d => (m ((c : Thread nD τ).loc main_arg1)) (ix3 b m' d)) (fun b n f => (m ((c : Thread nD τ).loc main_arg0)) (ix3 b n f))
          (⟨3072 + (4 * c'.val + g.val), by have := c'.isLt; have := g.isLt; omega⟩ : Fin 4096) n o := by
  rw [unpacked3 m ρ c, Cert.KHost.unpack_apply]
  show W10 (F := Ideal) m ρ c (Proc.devRef .tc (Pipeline.arrRef spec3 9)) (ix3 n c' (lane g o)) = _
  rw [W10_arr m ρ c 9]
  exact final3_apply (entry3 m ρ c) n c' g o

/-! ## The unpacked chunks reach the last boundary -/

set_option maxRecDepth 8192 in
set_option maxHeartbeats 4000000 in
theorem carried0 (c : Dev nD) : W11 (F := Ideal) m ρ c (Proc.devRef .tc main_v77) = W5 m ρ c (Proc.devRef .tc main_v77) :=
  calc W11 (F := Ideal) m ρ c (Proc.devRef .tc main_v77)
    _ = W10 m ρ c (Proc.devRef .tc main_v77) := StableHlo.after_of_forall_not_mem (b := Proc.devRef .tc main_v77) _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W9 m ρ c (Proc.devRef .tc main_v77) := W10_of_ne m ρ c main_v77 (by decide)
    _ = W8 m ρ c (Proc.devRef .tc main_v77) := StableHlo.after_of_forall_not_mem (b := Proc.devRef .tc main_v77) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W7 m ρ c (Proc.devRef .tc main_v77) := W8_of_ne m ρ c main_v77 (by decide)
    _ = W6 m ρ c (Proc.devRef .tc main_v77) := StableHlo.after_of_forall_not_mem (b := Proc.devRef .tc main_v77) _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W5 m ρ c (Proc.devRef .tc main_v77) := W6_of_ne m ρ c main_v77 (by decide)

set_option maxRecDepth 8192 in
set_option maxHeartbeats 4000000 in
theorem carried1 (c : Dev nD) : W11 (F := Ideal) m ρ c (Proc.devRef .tc main_v87) = W7 m ρ c (Proc.devRef .tc main_v87) :=
  calc W11 (F := Ideal) m ρ c (Proc.devRef .tc main_v87)
    _ = W10 m ρ c (Proc.devRef .tc main_v87) := StableHlo.after_of_forall_not_mem (b := Proc.devRef .tc main_v87) _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W9 m ρ c (Proc.devRef .tc main_v87) := W10_of_ne m ρ c main_v87 (by decide)
    _ = W8 m ρ c (Proc.devRef .tc main_v87) := StableHlo.after_of_forall_not_mem (b := Proc.devRef .tc main_v87) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W7 m ρ c (Proc.devRef .tc main_v87) := W8_of_ne m ρ c main_v87 (by decide)

set_option maxRecDepth 8192 in
set_option maxHeartbeats 4000000 in
theorem carried2 (c : Dev nD) : W11 (F := Ideal) m ρ c (Proc.devRef .tc main_v97) = W9 m ρ c (Proc.devRef .tc main_v97) :=
  calc W11 (F := Ideal) m ρ c (Proc.devRef .tc main_v97)
    _ = W10 m ρ c (Proc.devRef .tc main_v97) := StableHlo.after_of_forall_not_mem (b := Proc.devRef .tc main_v97) _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))
    _ = W9 m ρ c (Proc.devRef .tc main_v97) := W10_of_ne m ρ c main_v97 (by decide)

/-! ## The join -/

set_option maxRecDepth 65536 in
set_option maxHeartbeats 8000000 in
/-- The result buffer is the four unpacked chunks joined along the batch axis. -/
theorem joined (c : Dev nD) : (W11 (F := Ideal) m ρ c main_v108 : FVec Ideal S4096x54x32 .f32)
    = concatenate S4096x54x32 0 [⟨S1024x54x32, (W11 (F := Ideal) m ρ c main_v77 : FVec Ideal S1024x54x32 .f32)⟩,
        ⟨S1024x54x32, (W11 (F := Ideal) m ρ c main_v87 : FVec Ideal S1024x54x32 .f32)⟩,
        ⟨S1024x54x32, (W11 (F := Ideal) m ρ c main_v97 : FVec Ideal S1024x54x32 .f32)⟩,
        ⟨S1024x54x32, (W11 (F := Ideal) m ρ c main_v107 : FVec Ideal S1024x54x32 .f32)⟩]
        concatenates_S1024x54x32_S1024x54x32_S1024x54x32_S1024x54x32_S4096x54x32_d0 := by
  show StableHlo.after hostOps4 (W10 m ρ c) main_v108 = _
  simp only [hostOps4, after_cons, after_nil]
  rw [nary_result]
  rfl

set_option maxHeartbeats 4000000 in
/-- Rows 0 … 1023 of the result are chunk 0. -/
theorem result0_apply (c : Dev nD) (b' : Fin 1024) (n : Fin 54) (o : Fin 32) :
    (W11 (F := Ideal) m ρ c main_v108 : FVec Ideal S4096x54x32 .f32)
        (ix3 (⟨0 + b'.val, by have := b'.isLt; omega⟩ : Fin 4096) n o)
      = (W11 (F := Ideal) m ρ c main_v77 : FVec Ideal S1024x54x32 .f32) (ix3 b' n o) := by
  rw [joined m ρ c]
  exact concatenate_apply_piece 0 [⟨S1024x54x32, (W11 (F := Ideal) m ρ c main_v77 : FVec Ideal S1024x54x32 .f32)⟩,
        ⟨S1024x54x32, (W11 (F := Ideal) m ρ c main_v87 : FVec Ideal S1024x54x32 .f32)⟩,
        ⟨S1024x54x32, (W11 (F := Ideal) m ρ c main_v97 : FVec Ideal S1024x54x32 .f32)⟩,
        ⟨S1024x54x32, (W11 (F := Ideal) m ρ c main_v107 : FVec Ideal S1024x54x32 .f32)⟩]
    concatenates_S1024x54x32_S1024x54x32_S1024x54x32_S1024x54x32_S4096x54x32_d0 _ 0 (show 0 < 4 by omega) _ _ rfl rfl 0 rfl (ix3 b' n o)
    (fun bb hb => match bb, hb with | ⟨0, _⟩, hb => absurd rfl hb | ⟨1, _⟩, _ => rfl | ⟨2, _⟩, _ => rfl) rfl

set_option maxHeartbeats 4000000 in
/-- Rows 1024 … 2047 of the result are chunk 1. -/
theorem result1_apply (c : Dev nD) (b' : Fin 1024) (n : Fin 54) (o : Fin 32) :
    (W11 (F := Ideal) m ρ c main_v108 : FVec Ideal S4096x54x32 .f32)
        (ix3 (⟨1024 + b'.val, by have := b'.isLt; omega⟩ : Fin 4096) n o)
      = (W11 (F := Ideal) m ρ c main_v87 : FVec Ideal S1024x54x32 .f32) (ix3 b' n o) := by
  rw [joined m ρ c]
  exact concatenate_apply_piece 0 [⟨S1024x54x32, (W11 (F := Ideal) m ρ c main_v77 : FVec Ideal S1024x54x32 .f32)⟩,
        ⟨S1024x54x32, (W11 (F := Ideal) m ρ c main_v87 : FVec Ideal S1024x54x32 .f32)⟩,
        ⟨S1024x54x32, (W11 (F := Ideal) m ρ c main_v97 : FVec Ideal S1024x54x32 .f32)⟩,
        ⟨S1024x54x32, (W11 (F := Ideal) m ρ c main_v107 : FVec Ideal S1024x54x32 .f32)⟩]
    concatenates_S1024x54x32_S1024x54x32_S1024x54x32_S1024x54x32_S4096x54x32_d0 _ 1 (show 1 < 4 by omega) _ _ rfl rfl 1024 rfl (ix3 b' n o)
    (fun bb hb => match bb, hb with | ⟨0, _⟩, hb => absurd rfl hb | ⟨1, _⟩, _ => rfl | ⟨2, _⟩, _ => rfl) rfl

set_option maxHeartbeats 4000000 in
/-- Rows 2048 … 3071 of the result are chunk 2. -/
theorem result2_apply (c : Dev nD) (b' : Fin 1024) (n : Fin 54) (o : Fin 32) :
    (W11 (F := Ideal) m ρ c main_v108 : FVec Ideal S4096x54x32 .f32)
        (ix3 (⟨2048 + b'.val, by have := b'.isLt; omega⟩ : Fin 4096) n o)
      = (W11 (F := Ideal) m ρ c main_v97 : FVec Ideal S1024x54x32 .f32) (ix3 b' n o) := by
  rw [joined m ρ c]
  exact concatenate_apply_piece 0 [⟨S1024x54x32, (W11 (F := Ideal) m ρ c main_v77 : FVec Ideal S1024x54x32 .f32)⟩,
        ⟨S1024x54x32, (W11 (F := Ideal) m ρ c main_v87 : FVec Ideal S1024x54x32 .f32)⟩,
        ⟨S1024x54x32, (W11 (F := Ideal) m ρ c main_v97 : FVec Ideal S1024x54x32 .f32)⟩,
        ⟨S1024x54x32, (W11 (F := Ideal) m ρ c main_v107 : FVec Ideal S1024x54x32 .f32)⟩]
    concatenates_S1024x54x32_S1024x54x32_S1024x54x32_S1024x54x32_S4096x54x32_d0 _ 2 (show 2 < 4 by omega) _ _ rfl rfl 2048 rfl (ix3 b' n o)
    (fun bb hb => match bb, hb with | ⟨0, _⟩, hb => absurd rfl hb | ⟨1, _⟩, _ => rfl | ⟨2, _⟩, _ => rfl) rfl

set_option maxHeartbeats 4000000 in
/-- Rows 3072 … 4095 of the result are chunk 3. -/
theorem result3_apply (c : Dev nD) (b' : Fin 1024) (n : Fin 54) (o : Fin 32) :
    (W11 (F := Ideal) m ρ c main_v108 : FVec Ideal S4096x54x32 .f32)
        (ix3 (⟨3072 + b'.val, by have := b'.isLt; omega⟩ : Fin 4096) n o)
      = (W11 (F := Ideal) m ρ c main_v107 : FVec Ideal S1024x54x32 .f32) (ix3 b' n o) := by
  rw [joined m ρ c]
  exact concatenate_apply_piece 0 [⟨S1024x54x32, (W11 (F := Ideal) m ρ c main_v77 : FVec Ideal S1024x54x32 .f32)⟩,
        ⟨S1024x54x32, (W11 (F := Ideal) m ρ c main_v87 : FVec Ideal S1024x54x32 .f32)⟩,
        ⟨S1024x54x32, (W11 (F := Ideal) m ρ c main_v97 : FVec Ideal S1024x54x32 .f32)⟩,
        ⟨S1024x54x32, (W11 (F := Ideal) m ρ c main_v107 : FVec Ideal S1024x54x32 .f32)⟩]
    concatenates_S1024x54x32_S1024x54x32_S1024x54x32_S1024x54x32_S4096x54x32_d0 _ 3 (show 3 < 4 by omega) _ _ rfl rfl 3072 rfl (ix3 b' n o)
    (fun bb hb => match bb, hb with | ⟨0, _⟩, hb => absurd rfl hb | ⟨1, _⟩, _ => rfl | ⟨2, _⟩, _ => rfl) rfl

/-! ## The kernel's value -/

set_option maxHeartbeats 4000000 in
theorem kernel_value0 (c : Dev nD) (c' : Fin 256) (g : Fin 4) (n : Fin 54) (o : Fin 32) :
    (W11 (F := Ideal) m ρ c main_v108 : FVec Ideal S4096x54x32 .f32)
        (ix3 (⟨0 + (4 * c'.val + g.val), by have := c'.isLt; have := g.isLt; omega⟩ : Fin 4096) n o)
      = Cert.Spec.netMul (fun i f o => (m ((c : Thread nD τ).loc main_arg2)) (ix3 i f o)) (fun i o => (m ((c : Thread nD τ).loc main_arg3)) (ix2 i o)) (fun i f o => (m ((c : Thread nD τ).loc main_arg4)) (ix3 i f o)) (fun i o => (m ((c : Thread nD τ).loc main_arg5)) (ix2 i o))
          (fun b m' d => (m ((c : Thread nD τ).loc main_arg1)) (ix3 b m' d)) (fun b n f => (m ((c : Thread nD τ).loc main_arg0)) (ix3 b n f))
          (⟨0 + (4 * c'.val + g.val), by have := c'.isLt; have := g.isLt; omega⟩ : Fin 4096) n o := by
  have hc := c'.isLt
  have hg := g.isLt
  rw [show (⟨0 + (4 * c'.val + g.val), by omega⟩ : Fin 4096)
      = ⟨0 + (⟨4 * c'.val + g.val, by omega⟩ : Fin 1024).val, by show 0 + (4 * c'.val + g.val) < 4096; omega⟩ from rfl,
    result0_apply m ρ c, carried0 m ρ c]
  exact chunk0_apply m ρ c c' g n o

set_option maxHeartbeats 4000000 in
theorem kernel_value1 (c : Dev nD) (c' : Fin 256) (g : Fin 4) (n : Fin 54) (o : Fin 32) :
    (W11 (F := Ideal) m ρ c main_v108 : FVec Ideal S4096x54x32 .f32)
        (ix3 (⟨1024 + (4 * c'.val + g.val), by have := c'.isLt; have := g.isLt; omega⟩ : Fin 4096) n o)
      = Cert.Spec.netMul (fun i f o => (m ((c : Thread nD τ).loc main_arg2)) (ix3 i f o)) (fun i o => (m ((c : Thread nD τ).loc main_arg3)) (ix2 i o)) (fun i f o => (m ((c : Thread nD τ).loc main_arg4)) (ix3 i f o)) (fun i o => (m ((c : Thread nD τ).loc main_arg5)) (ix2 i o))
          (fun b m' d => (m ((c : Thread nD τ).loc main_arg1)) (ix3 b m' d)) (fun b n f => (m ((c : Thread nD τ).loc main_arg0)) (ix3 b n f))
          (⟨1024 + (4 * c'.val + g.val), by have := c'.isLt; have := g.isLt; omega⟩ : Fin 4096) n o := by
  have hc := c'.isLt
  have hg := g.isLt
  rw [show (⟨1024 + (4 * c'.val + g.val), by omega⟩ : Fin 4096)
      = ⟨1024 + (⟨4 * c'.val + g.val, by omega⟩ : Fin 1024).val, by show 1024 + (4 * c'.val + g.val) < 4096; omega⟩ from rfl,
    result1_apply m ρ c, carried1 m ρ c]
  exact chunk1_apply m ρ c c' g n o

set_option maxHeartbeats 4000000 in
theorem kernel_value2 (c : Dev nD) (c' : Fin 256) (g : Fin 4) (n : Fin 54) (o : Fin 32) :
    (W11 (F := Ideal) m ρ c main_v108 : FVec Ideal S4096x54x32 .f32)
        (ix3 (⟨2048 + (4 * c'.val + g.val), by have := c'.isLt; have := g.isLt; omega⟩ : Fin 4096) n o)
      = Cert.Spec.netMul (fun i f o => (m ((c : Thread nD τ).loc main_arg2)) (ix3 i f o)) (fun i o => (m ((c : Thread nD τ).loc main_arg3)) (ix2 i o)) (fun i f o => (m ((c : Thread nD τ).loc main_arg4)) (ix3 i f o)) (fun i o => (m ((c : Thread nD τ).loc main_arg5)) (ix2 i o))
          (fun b m' d => (m ((c : Thread nD τ).loc main_arg1)) (ix3 b m' d)) (fun b n f => (m ((c : Thread nD τ).loc main_arg0)) (ix3 b n f))
          (⟨2048 + (4 * c'.val + g.val), by have := c'.isLt; have := g.isLt; omega⟩ : Fin 4096) n o := by
  have hc := c'.isLt
  have hg := g.isLt
  rw [show (⟨2048 + (4 * c'.val + g.val), by omega⟩ : Fin 4096)
      = ⟨2048 + (⟨4 * c'.val + g.val, by omega⟩ : Fin 1024).val, by show 2048 + (4 * c'.val + g.val) < 4096; omega⟩ from rfl,
    result2_apply m ρ c, carried2 m ρ c]
  exact chunk2_apply m ρ c c' g n o

set_option maxHeartbeats 4000000 in
theorem kernel_value3 (c : Dev nD) (c' : Fin 256) (g : Fin 4) (n : Fin 54) (o : Fin 32) :
    (W11 (F := Ideal) m ρ c main_v108 : FVec Ideal S4096x54x32 .f32)
        (ix3 (⟨3072 + (4 * c'.val + g.val), by have := c'.isLt; have := g.isLt; omega⟩ : Fin 4096) n o)
      = Cert.Spec.netMul (fun i f o => (m ((c : Thread nD τ).loc main_arg2)) (ix3 i f o)) (fun i o => (m ((c : Thread nD τ).loc main_arg3)) (ix2 i o)) (fun i f o => (m ((c : Thread nD τ).loc main_arg4)) (ix3 i f o)) (fun i o => (m ((c : Thread nD τ).loc main_arg5)) (ix2 i o))
          (fun b m' d => (m ((c : Thread nD τ).loc main_arg1)) (ix3 b m' d)) (fun b n f => (m ((c : Thread nD τ).loc main_arg0)) (ix3 b n f))
          (⟨3072 + (4 * c'.val + g.val), by have := c'.isLt; have := g.isLt; omega⟩ : Fin 4096) n o := by
  have hc := c'.isLt
  have hg := g.isLt
  rw [show (⟨3072 + (4 * c'.val + g.val), by omega⟩ : Fin 4096)
      = ⟨3072 + (⟨4 * c'.val + g.val, by omega⟩ : Fin 1024).val, by show 3072 + (4 * c'.val + g.val) < 4096; omega⟩ from rfl,
    result3_apply m ρ c]
  exact chunk3_apply m ρ c c' g n o

set_option maxHeartbeats 4000000 in
/-- The kernel's result at (b, n, o) is the network at (b, n, o). -/
theorem kernel_value (c : Dev nD) (b : Fin 4096) (n : Fin 54) (o : Fin 32) :
    (W11 (F := Ideal) m ρ c main_v108 : FVec Ideal S4096x54x32 .f32) (ix3 b n o)
      = Cert.Spec.netMul (fun i f o => (m ((c : Thread nD τ).loc main_arg2)) (ix3 i f o)) (fun i o => (m ((c : Thread nD τ).loc main_arg3)) (ix2 i o)) (fun i f o => (m ((c : Thread nD τ).loc main_arg4)) (ix3 i f o)) (fun i o => (m ((c : Thread nD τ).loc main_arg5)) (ix2 i o))
          (fun b m' d => (m ((c : Thread nD τ).loc main_arg1)) (ix3 b m' d)) (fun b n f => (m ((c : Thread nD τ).loc main_arg0)) (ix3 b n f)) b n o := by
  have hb := b.isLt
  by_cases h0 : b.val < 1024
  · have e : b = (⟨0 + (4 * (⟨b.val / 4, by omega⟩ : Fin 256).val + (⟨b.val % 4, Nat.mod_lt _ (by decide)⟩ : Fin 4).val), by show 0 + (4 * (b.val / 4) + b.val % 4) < 4096; omega⟩ : Fin 4096) :=
      Fin.ext (by show b.val = 0 + (4 * (b.val / 4) + b.val % 4); omega)
    rw [e]
    exact kernel_value0 m ρ c _ _ n o
  · by_cases h1 : b.val < 2048
    · have e : b = (⟨1024 + (4 * (⟨(b.val - 1024) / 4, by omega⟩ : Fin 256).val + (⟨(b.val - 1024) % 4, Nat.mod_lt _ (by decide)⟩ : Fin 4).val), by show 1024 + (4 * ((b.val - 1024) / 4) + (b.val - 1024) % 4) < 4096; omega⟩ : Fin 4096) :=
        Fin.ext (by show b.val = 1024 + (4 * ((b.val - 1024) / 4) + (b.val - 1024) % 4); omega)
      rw [e]
      exact kernel_value1 m ρ c _ _ n o
    · by_cases h2 : b.val < 3072
      · have e : b = (⟨2048 + (4 * (⟨(b.val - 2048) / 4, by omega⟩ : Fin 256).val + (⟨(b.val - 2048) % 4, Nat.mod_lt _ (by decide)⟩ : Fin 4).val), by show 2048 + (4 * ((b.val - 2048) / 4) + (b.val - 2048) % 4) < 4096; omega⟩ : Fin 4096) :=
          Fin.ext (by show b.val = 2048 + (4 * ((b.val - 2048) / 4) + (b.val - 2048) % 4); omega)
        rw [e]
        exact kernel_value2 m ρ c _ _ n o
      · have e : b = (⟨3072 + (4 * (⟨(b.val - 3072) / 4, by omega⟩ : Fin 256).val + (⟨(b.val - 3072) % 4, Nat.mod_lt _ (by decide)⟩ : Fin 4).val), by show 3072 + (4 * ((b.val - 3072) / 4) + (b.val - 3072) % 4) < 4096; omega⟩ : Fin 4096) :=
          Fin.ext (by show b.val = 3072 + (4 * ((b.val - 3072) / 4) + (b.val - 3072) % 4); omega)
        rw [e]
        exact kernel_value3 m ρ c _ _ n o

end Cert.KernelIdeal.Hand

end
-- ==== Proof.LibNeighbourGather.lean ====
/-
  NEIGHBOUR GATHER READ AT AN INDEX. A gather along the middle axis of a rank-3 array `x : [B, N, D]` at a table of
  start indices `idx : [R, C, 1]` (offset axes 0 and 3, collapsed slice axis 1, start index map [1], index vector
  axis 2, slice sizes [B, 1, D]) — what `x[:, table]` lowers to for a rank-2 integer table: result element
  `(b, r, c, f)` is `x` at batch `b`, at row `idx[r, c, 0]` read as a signed integer and clamped into `[0, N - 1]`, and
  at feature `f`.
-/
import Idealize.ShloMosaic.Lib.ValueIdx
import Idealize.ShloMosaic.PureOps.ShapeOps

namespace Cert.LibNeighbourGather

open Idealize.ShloMosaic Idealize.ShloMosaic.ValueIdx

/-- The gather at `(b, r, c, f)`: the operand at `(b, min (idx[r, c, 0] read signed, negative as 0) (N - 1), f)`.
    Axes 0 and 2 of the operand are not in the start index map, so their start is 0 and the offset coordinates are the
    result's `b` and `f`; on axis 1 the operand index is the clamped start (one row per slice, the axis collapsed). -/
theorem neighbourGather_apply {α : Type} {B N D R C w : ℕ} (hN : 0 < N)
    (d : GatherDims ⟨3, ![B, N, D]⟩ ⟨3, ![R, C, 1]⟩ ⟨4, ![B, R, C, D]⟩)
    (h1 : d.offsetDims = [0, 3]) (h2 : d.collapsedSliceDims = [1]) (h3 : d.operandBatchingDims = [])
    (h4 : d.startIndicesBatchingDims = []) (h5 : d.startIndexMap = [1]) (h6 : d.indexVectorDim = 2)
    (h7 : d.sliceSizes = ![B, 1, D])
    (x : (⟨3, ![B, N, D]⟩ : Shape).Idx → α) (idx : IVec ⟨3, ![R, C, 1]⟩ w)
    (b : Fin B) (r : Fin R) (c : Fin C) (f : Fin D) :
    Host.gather d x idx (ix4 b r c f)
      = x (ix3 b ⟨min (idx (ix3 r c (0 : Fin 1))).toInt.toNat (N - 1), by omega⟩ f) := by
  obtain ⟨od, cs, ob, sb, sim, ivd, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix4 b r c f) idx 0 + GatherDims.batchCoord _ (ix4 b r c f) 0
      + GatherDims.offCoord _ (ix4 b r c f) 0 = _
    rw [GatherDims.batchCoord_eq_zero _ _ _ List.not_mem_nil]
    unfold GatherDims.start GatherDims.offCoord
    rw [dif_neg (show (0 : Fin 3) ∉ [1] by decide),
      dif_pos ((GatherDims.mem_sKept _ _).mpr ⟨(show (0 : Fin 3) ∉ [1] by decide), List.not_mem_nil⟩)]
    simp only [Nat.zero_add]
    rfl
  | ⟨1, _⟩ =>
    show GatherDims.start _ (ix4 b r c f) idx 1 + GatherDims.batchCoord _ (ix4 b r c f) 1
      + GatherDims.offCoord _ (ix4 b r c f) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[0, 3], [1], [], [], [1], 2, ![B, 1, D], wf⟩ :
          GatherDims ⟨3, ![B, N, D]⟩ ⟨3, ![R, C, 1]⟩ ⟨4, ![B, R, C, D]⟩) (ix4 b r c f)
        ⟨List.idxOf (1 : Fin 3) [1], List.idxOf_lt_length_iff.2 (List.mem_singleton.mpr rfl)⟩
          = ix3 r c (0 : Fin 1) := by
      funext t; refine Fin.ext ?_
      match t with
      | ⟨0, _⟩ => rfl
      | ⟨1, _⟩ => rfl
      | ⟨2, _⟩ => rfl
    rw [hsi]
    rfl
  | ⟨2, _⟩ =>
    show GatherDims.start _ (ix4 b r c f) idx 2 + GatherDims.batchCoord _ (ix4 b r c f) 2
      + GatherDims.offCoord _ (ix4 b r c f) 2 = _
    rw [GatherDims.batchCoord_eq_zero _ _ _ List.not_mem_nil]
    unfold GatherDims.start GatherDims.offCoord
    rw [dif_neg (show (2 : Fin 3) ∉ [1] by decide),
      dif_pos ((GatherDims.mem_sKept _ _).mpr ⟨(show (2 : Fin 3) ∉ [1] by decide), List.not_mem_nil⟩)]
    simp only [Nat.zero_add]
    rfl

end Cert.LibNeighbourGather
-- ==== Proof.LibLayerSlice.lean ====
/-
  ONE LAYER OF A STACK OF PARAMETERS, READ AT AN INDEX. A stack `x : [L, a, b]` of L matrices cut at row `i` of its
  leading axis as `[1, a, b]` and reshaped to the matrix `[a, b]` (what `x[i]` lowers to) is, at `(f, o)`, the stack's
  entry `(i, f, o)`; a stack `x : [L, a]` of L vectors cut as `[1, a]` and reshaped to `[a]` is, at `o`, the entry `(i, o)`.
-/
import Idealize.ShloMosaic.Lib.ValueLayout
import Idealize.ShloMosaic.Lib.Pipeline.Value

namespace Cert.LibLayerSlice

open Idealize.ShloMosaic Idealize.ShloMosaic.ValueIdx

/-- Matrix `i` of a stack of matrices, read at `(f, o)`. -/
theorem layerMatrix_apply {α : Type} {L a b : ℕ} (i : ℕ) (hi : i < L) (x : (⟨3, ![L, a, b]⟩ : Shape).Idx → α)
    (hs : (⟨3, ![L, a, b]⟩ : Shape).Slices ![i, 0, 0] ⟨3, ![1, a, b]⟩)
    (hc : (⟨3, ![1, a, b]⟩ : Shape).ShapeCasts ⟨2, ![a, b]⟩) (f : Fin a) (o : Fin b) :
    shapeCast ⟨2, ![a, b]⟩ (extractStridedSlice ⟨3, ![1, a, b]⟩ ![i, 0, 0] x hs) hc (ix2 f o)
      = x (ix3 ⟨i, hi⟩ f o) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- Vector `i` of a stack of vectors, read at `o`. -/
theorem layerVector_apply {α : Type} {L a : ℕ} (i : ℕ) (hi : i < L) (x : (⟨2, ![L, a]⟩ : Shape).Idx → α)
    (hs : (⟨2, ![L, a]⟩ : Shape).Slices ![i, 0] ⟨2, ![1, a]⟩)
    (hc : (⟨2, ![1, a]⟩ : Shape).ShapeCasts ⟨1, ![a]⟩) (o : Fin a) :
    shapeCast ⟨1, ![a]⟩ (extractStridedSlice ⟨2, ![1, a]⟩ ![i, 0] x hs) hc (ix1 o)
      = x (ix2 ⟨i, hi⟩ o) := by
  rw [shapeCast_1a_a_apply]
  exact extractStridedSlice_apply _ _ _ _ _ (fun ax => by
    match ax with
    | ⟨0, _⟩ => rfl
    | ⟨1, _⟩ => exact (Nat.zero_add _).symm)

end Cert.LibLayerSlice
-- ==== Proof.LibFeatureDot.lean ====
/-
  A contraction of the last (feature) axis of a batched array with the first axis of a weight matrix, read at one entry.

  With the dimension numbers of "the last axis of the left operand against axis 0 of a [k, d] matrix" (no batch axis, the
  result laid out as the left operand with its last extent replaced by d), entry (p, q, o) of the result of a rank-3
  left operand is the sum over j of lhs(p, q, j) · rhs(j, o), and entry (p, q, r, o) for a rank-4 left operand is the sum
  over j of lhs(p, q, r, j) · rhs(j, o) — what `einsum('bnf,fo->bno')` and `einsum('bnkf,fo->bnko')` lower to. This holds
  for any record of those dimension numbers, whatever its extents and formats, and gives the reading of the host's
  dot_general on the extended reals.
-/
import Idealize.ShloMosaic.PureOps.Ideal.Laws
import Idealize.ShloMosaic.Lib.ValueIdx

noncomputable section

namespace Cert.LibFeatureDot

open Idealize.ShloMosaic Idealize.ShloMosaic.ValueIdx

/-- Rank 3: the sum over the contraction index is the sum over the one contracted coordinate j, the left operand read at
    (p, q, j) and the right at (j, o). -/
theorem sum_contr3 {n₀ n₁ k d : ℕ} (D : DotDims ⟨3, ![n₀, n₁, k]⟩ ⟨2, ![k, d]⟩ ⟨3, ![n₀, n₁, d]⟩)
    (hlc : D.lhsContracting = [2]) (hrc : D.rhsContracting = [0]) (hln : D.lhsNonContracting = [0, 1]) (hrn : D.rhsNonContracting = [1])
    (hlb : D.lhsBatch = []) (hrb : D.rhsBatch = [])
    (lhs : (⟨3, ![n₀, n₁, k]⟩ : Shape).Idx → EReal) (rhs : (⟨2, ![k, d]⟩ : Shape).Idx → EReal) (p : Fin n₀) (q : Fin n₁) (o : Fin d) :
    ∑ c : D.contr.Idx, lhs (D.lhsIdx (ix3 p q o) c) * rhs (D.rhsIdx (ix3 p q o) c) = ∑ j : Fin k, lhs (ix3 p q j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [2] [0] [0, 1] [1] [] [] wf) k rfl rfl).symm]
  refine Finset.sum_congr rfl fun j _ => ?_
  have hk := contrEquiv1_symm_val (DotDims.mk [2] [0] [0, 1] [1] [] [] wf) k rfl rfl j
  have el : (DotDims.mk [2] [0] [0, 1] [1] [] [] wf).lhsIdx (ix3 p q o) ((contrEquiv1 (DotDims.mk [2] [0] [0, 1] [1] [] [] wf) k rfl rfl).symm j) = ix3 p q j :=
    funext fun a => Fin.ext (by
      match a with
      | ⟨0, _⟩ => rfl
      | ⟨1, _⟩ => rfl
      | ⟨2, _⟩ => exact ((DotDims.mk [2] [0] [0, 1] [1] [] [] wf).lhsIdx_val_of_single rfl _ _).trans hk)
  have er : (DotDims.mk [2] [0] [0, 1] [1] [] [] wf).rhsIdx (ix3 p q o) ((contrEquiv1 (DotDims.mk [2] [0] [0, 1] [1] [] [] wf) k rfl rfl).symm j) = ix2 j o :=
    funext fun a => Fin.ext (by
      match a with
      | ⟨0, _⟩ => exact ((DotDims.mk [2] [0] [0, 1] [1] [] [] wf).rhsIdx_val_of_single rfl _ _).trans hk
      | ⟨1, _⟩ => rfl)
  rw [el, er]

/-- The host's dot_general of a rank-3 left operand, at (p, q, o). -/
theorem dotGeneral3_apply {n₀ n₁ k d : ℕ} {φ₁ φ₂ : FTy} (D : DotDims ⟨3, ![n₀, n₁, k]⟩ ⟨2, ![k, d]⟩ ⟨3, ![n₀, n₁, d]⟩)
    (hlc : D.lhsContracting = [2]) (hrc : D.rhsContracting = [0]) (hln : D.lhsNonContracting = [0, 1]) (hrn : D.rhsNonContracting = [1])
    (hlb : D.lhsBatch = []) (hrb : D.rhsBatch = []) (prec : Option ContractPrecision) (sched : HostSchedule)
    (lhs : FVec Ideal ⟨3, ![n₀, n₁, k]⟩ φ₁) (rhs : FVec Ideal ⟨2, ![k, d]⟩ φ₂) (p : Fin n₀) (q : Fin n₁) (o : Fin d) :
    FloatOps.dotGeneral D prec sched lhs rhs (ix3 p q o) = ∑ j : Fin k, lhs (ix3 p q j) * rhs (ix2 j o) :=
  (Ideal.dotGeneral_apply D prec sched lhs rhs (ix3 p q o)).trans (sum_contr3 D hlc hrc hln hrn hlb hrb lhs rhs p q o)

/-- Rank 4: the sum over the contraction index is the sum over the one contracted coordinate j, the left operand read at
    (p, q, r, j) and the right at (j, o). -/
theorem sum_contr4 {n₀ n₁ n₂ k d : ℕ} (D : DotDims ⟨4, ![n₀, n₁, n₂, k]⟩ ⟨2, ![k, d]⟩ ⟨4, ![n₀, n₁, n₂, d]⟩)
    (hlc : D.lhsContracting = [3]) (hrc : D.rhsContracting = [0]) (hln : D.lhsNonContracting = [0, 1, 2]) (hrn : D.rhsNonContracting = [1])
    (hlb : D.lhsBatch = []) (hrb : D.rhsBatch = [])
    (lhs : (⟨4, ![n₀, n₁, n₂, k]⟩ : Shape).Idx → EReal) (rhs : (⟨2, ![k, d]⟩ : Shape).Idx → EReal)
    (p : Fin n₀) (q : Fin n₁) (r : Fin n₂) (o : Fin d) :
    ∑ c : D.contr.Idx, lhs (D.lhsIdx (ix4 p q r o) c) * rhs (D.rhsIdx (ix4 p q r o) c)
      = ∑ j : Fin k, lhs (ix4 p q r j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [3] [0] [0, 1, 2] [1] [] [] wf) k rfl rfl).symm]
  refine Finset.sum_congr rfl fun j _ => ?_
  have hk := contrEquiv1_symm_val (DotDims.mk [3] [0] [0, 1, 2] [1] [] [] wf) k rfl rfl j
  have el : (DotDims.mk [3] [0] [0, 1, 2] [1] [] [] wf).lhsIdx (ix4 p q r o) ((contrEquiv1 (DotDims.mk [3] [0] [0, 1, 2] [1] [] [] wf) k rfl rfl).symm j) = ix4 p q r j :=
    funext fun a => Fin.ext (by
      match a with
      | ⟨0, _⟩ => rfl
      | ⟨1, _⟩ => rfl
      | ⟨2, _⟩ => rfl
      | ⟨3, _⟩ => exact ((DotDims.mk [3] [0] [0, 1, 2] [1] [] [] wf).lhsIdx_val_of_single rfl _ _).trans hk)
  have er : (DotDims.mk [3] [0] [0, 1, 2] [1] [] [] wf).rhsIdx (ix4 p q r o) ((contrEquiv1 (DotDims.mk [3] [0] [0, 1, 2] [1] [] [] wf) k rfl rfl).symm j) = ix2 j o :=
    funext fun a => Fin.ext (by
      match a with
      | ⟨0, _⟩ => exact ((DotDims.mk [3] [0] [0, 1, 2] [1] [] [] wf).rhsIdx_val_of_single rfl _ _).trans hk
      | ⟨1, _⟩ => rfl)
  rw [el, er]

/-- The host's dot_general of a rank-4 left operand, at (p, q, r, o). -/
theorem dotGeneral4_apply {n₀ n₁ n₂ k d : ℕ} {φ₁ φ₂ : FTy} (D : DotDims ⟨4, ![n₀, n₁, n₂, k]⟩ ⟨2, ![k, d]⟩ ⟨4, ![n₀, n₁, n₂, d]⟩)
    (hlc : D.lhsContracting = [3]) (hrc : D.rhsContracting = [0]) (hln : D.lhsNonContracting = [0, 1, 2]) (hrn : D.rhsNonContracting = [1])
    (hlb : D.lhsBatch = []) (hrb : D.rhsBatch = []) (prec : Option ContractPrecision) (sched : HostSchedule)
    (lhs : FVec Ideal ⟨4, ![n₀, n₁, n₂, k]⟩ φ₁) (rhs : FVec Ideal ⟨2, ![k, d]⟩ φ₂)
    (p : Fin n₀) (q : Fin n₁) (r : Fin n₂) (o : Fin d) :
    FloatOps.dotGeneral D prec sched lhs rhs (ix4 p q r o) = ∑ j : Fin k, lhs (ix4 p q r j) * rhs (ix2 j o) :=
  (Ideal.dotGeneral_apply D prec sched lhs rhs (ix4 p q r o)).trans (sum_contr4 D hlc hrc hln hrn hlb hrb lhs rhs p q r o)

end Cert.LibFeatureDot

end
-- ==== Proof.LibNeighbourMax.lean ====
/-
  THE MAXIMUM OVER A NEIGHBOUR AXIS, READ AT AN INDEX. The host's reduce with a maximum body over axis 2 of a rank-4
  array `x : [B, N, K, O]`, started from −∞ (`jnp.max(x, axis=2)`), is at `(b, n, o)` the maximum over `k < K` of
  `x(b, n, k, o)` on the extended reals: the fold of `max` from the bottom element. For K = 3 it is
  `max x(b,n,0,o) (max x(b,n,1,o) x(b,n,2,o))`.
-/
import Idealize.ShloMosaic.PureOps.Ideal.Laws
import Idealize.ShloMosaic.PureOps.Reduce
import Idealize.ShloMosaic.Lib.ValueIdx

noncomputable section

namespace Cert.LibNeighbourMax

open Idealize.ShloMosaic Idealize.ShloMosaic.ValueIdx

/-- The reduced index `(b, n, o)` with coordinate `k` put back on axis 2 is `(b, n, k, o)`. -/
theorem lift_ix4 {B N K O : ℕ} (h : (⟨4, ![B, N, K, O]⟩ : Shape).Reduces [2] (⟨3, ![B, N, O]⟩ : Shape))
    (b : Fin B) (n : Fin N) (o : Fin O) (k : Fin ((⟨4, ![B, N, K, O]⟩ : Shape).size 2)) :
    h.lift (ix3 b n o) k = ix4 b n (⟨k.val, k.isLt⟩ : Fin K) o := by
  funext c; apply Fin.ext
  fin_cases c <;> rfl

/-- The −∞ pattern of f32 is the bottom of the extended reals: a maximum with it is the other argument. -/
theorem max_negInf (y : Ideal .f32) : max (Ideal.ofBits .f32 0xFF800000#32) y = y := by
  simp [Ideal.ofBits, Ideal.ieee]

/-- The host's maximum over axis 2, from −∞, at `(b, n, o)`: the fold of `max` over `k` of `x(b, n, k, o)`. -/
theorem hostMax_axis2 {B N K O : ℕ} (x : FVec Ideal ⟨4, ![B, N, K, O]⟩ .f32)
    (h' : (⟨4, ![B, N, K, O]⟩ : Shape).ReducesTo [2] (⟨3, ![B, N, O]⟩ : Shape))
    (h : (⟨4, ![B, N, K, O]⟩ : Shape).Reduces [2] (⟨3, ![B, N, O]⟩ : Shape))
    (hu : 0 < (⟨0, ![]⟩ : Shape).numel) (b : Fin B) (n : Fin N) (o : Fin O) :
    Host.reduce FloatOps.maximumf x (constant (⟨0, ![]⟩ : Shape) .f32 0xFF800000#32) h' hu (ix3 b n o)
      = (Finset.univ : Finset (Fin K)).fold max (Ideal.ofBits .f32 0xFF800000#32) (fun k => x (ix4 b n k o)) := by
  rw [Host.reduce_eq_fold_single FloatOps.maximumf x _ h' h hu]
  have hf : (x ∘ h.lift (ix3 b n o)) = fun k : Fin K => x (ix4 b n k o) :=
    funext fun k => congrArg x (lift_ix4 h b n o k)
  exact congrArg (fun f => Finset.fold max (Ideal.ofBits .f32 0xFF800000#32) f (Finset.univ : Finset (Fin K))) hf

/-- A fold of `max` from −∞ over three terms is their maximum. -/
theorem fold_max_three (f : Fin 3 → Ideal .f32) :
    (Finset.univ : Finset (Fin 3)).fold max (Ideal.ofBits .f32 0xFF800000#32) f = max (f 0) (max (f 1) (f 2)) := by
  have hu : (Finset.univ : Finset (Fin 3)) = insert 0 (insert 1 {2}) := by decide
  rw [hu, Finset.fold_insert (by decide), Finset.fold_insert (by decide), Finset.fold_singleton,
    max_comm (f 2), max_negInf]

/-- Three neighbours: the host's maximum over axis 2 at `(b, n, o)` is the nested maximum of the three entries. -/
theorem hostMax3_apply {B N O : ℕ} (x : FVec Ideal ⟨4, ![B, N, 3, O]⟩ .f32)
    (h' : (⟨4, ![B, N, 3, O]⟩ : Shape).ReducesTo [2] (⟨3, ![B, N, O]⟩ : Shape))
    (h : (⟨4, ![B, N, 3, O]⟩ : Shape).Reduces [2] (⟨3, ![B, N, O]⟩ : Shape))
    (hu : 0 < (⟨0, ![]⟩ : Shape).numel) (b : Fin B) (n : Fin N) (o : Fin O) :
    Host.reduce FloatOps.maximumf x (constant (⟨0, ![]⟩ : Shape) .f32 0xFF800000#32) h' hu (ix3 b n o)
      = max (x (ix4 b n 0 o)) (max (x (ix4 b n 1 o)) (x (ix4 b n 2 o))) := by
  rw [hostMax_axis2 x h' h hu b n o]
  exact fold_max_three fun k => x (ix4 b n k o)

end Cert.LibNeighbourMax

end
-- ==== Proof.LibRowNorm.lean ====
/-
  THE LENGTH OF EACH ROW, READ AT AN INDEX. For `x : [B, N, F]` the host's float sum over the last axis, started from the
  zero word, is at `(b, n)` the sum over `f < F` of `x(b, n, f)` on the extended reals. Spread back over a unit last
  axis and then over `O` columns (the keepdims broadcast of `jnp.sum(…, axis=2, keepdims=True)` against an
  array of the row's shape), every entry `(b, n, o)` reads the row's total.
-/
import Idealize.ShloMosaic.PureOps.Ideal.Laws
import Idealize.ShloMosaic.Lib.IdealHost
import Idealize.ShloMosaic.Lib.ValueIdx
import Idealize.ShloMosaic.Lib.Pipeline.Value

noncomputable section

namespace Cert.LibRowNorm

open Idealize.ShloMosaic Idealize.ShloMosaic.ValueIdx

/-- The reduced index `(b, n)` with coordinate `f` put back on the last axis is `(b, n, f)`. -/
theorem lift_ix3 {B N F' : ℕ} (h : (⟨3, ![B, N, F']⟩ : Shape).Reduces [2] (⟨2, ![B, N]⟩ : Shape))
    (b : Fin B) (n : Fin N) (k : Fin ((⟨3, ![B, N, F']⟩ : Shape).size 2)) :
    h.lift (ix2 b n) k = ix3 b n (⟨k.val, k.isLt⟩ : Fin F') := by
  funext c; apply Fin.ext
  fin_cases c <;> rfl

/-- The host's sum over the last axis, from the zero word, at `(b, n)`. -/
theorem hostSum_lastAxis {B N F' : ℕ} (x : FVec Ideal ⟨3, ![B, N, F']⟩ .f32)
    (h' : (⟨3, ![B, N, F']⟩ : Shape).ReducesTo [2] (⟨2, ![B, N]⟩ : Shape))
    (h : (⟨3, ![B, N, F']⟩ : Shape).Reduces [2] (⟨2, ![B, N]⟩ : Shape))
    (hu : 0 < (⟨0, ![]⟩ : Shape).numel) (b : Fin B) (n : Fin N) :
    Host.reduceAdd x (constant (⟨0, ![]⟩ : Shape) .f32 0x00000000#32) h' hu (ix2 b n)
      = ∑ f : Fin F', x (ix3 b n f) := by
  rw [hostReduceAdd_apply, Ideal.hostReduceAdd_single h' h, constant_apply, Ideal.ofBits_zero_f32, zero_add]
  exact Finset.sum_congr rfl fun k _ => congrArg x (lift_ix3 h b n k)

/-- A coordinate below an extent `n` is `0` when `n = 1`, and itself otherwise (the side condition of a broadcast, axis by
    axis). -/
theorem val_eq_ite_one {n : ℕ} (i : Fin n) (m : ℕ) (hm : m = n) : i.val = if m = 1 then 0 else i.val := by
  subst hm
  split_ifs with h
  · have := i.isLt; omega
  · rfl

/-- A `[B, N]` array given a unit last axis: entry `(b, n, u)` is entry `(b, n)`. -/
theorem keepdims_apply {α : Type} {B N : ℕ} (x : (⟨2, ![B, N]⟩ : Shape).Idx → α)
    (h : (⟨2, ![B, N]⟩ : Shape).BroadcastsInDim ⟨3, ![B, N, 1]⟩ ![0, 1]) (b : Fin B) (n : Fin N) (u : Fin 1) :
    broadcastInDim ⟨3, ![B, N, 1]⟩ ![0, 1] h x (ix3 b n u) = x (ix2 b n) :=
  broadcastInDim_apply _ h x _ _ (fun a => match a with
    | ⟨0, _⟩ => val_eq_ite_one b _ rfl
    | ⟨1, _⟩ => val_eq_ite_one n _ rfl)

/-- A `[B, N, 1]` column spread over `O` columns: entry `(b, n, o)` is entry `(b, n, 0)`. -/
theorem spread_apply {α : Type} {B N O : ℕ} (x : (⟨3, ![B, N, 1]⟩ : Shape).Idx → α)
    (h : (⟨3, ![B, N, 1]⟩ : Shape).BroadcastsInDim ⟨3, ![B, N, O]⟩ ![0, 1, 2]) (b : Fin B) (n : Fin N) (o : Fin O) :
    broadcastInDim ⟨3, ![B, N, O]⟩ ![0, 1, 2] h x (ix3 b n o) = x (ix3 b n (0 : Fin 1)) :=
  broadcastInDim_apply _ h x _ _ (fun a => match a with
    | ⟨0, _⟩ => val_eq_ite_one b _ rfl
    | ⟨1, _⟩ => val_eq_ite_one n _ rfl
    | ⟨2, _⟩ => (if_pos rfl).symm)

end Cert.LibRowNorm

end
-- ==== Proof.LibBiasSpread.lean ====
/-
  A BIAS VECTOR SPREAD OVER A BATCH, READ AT AN INDEX. A vector `x : [O]` placed as the one row `[1, 1, O]` (dims [2]) and
  spread over `[B, N, O]` (dims [0, 1, 2]) reads `x(o)` at `(b, n, o)`; placed as `[1, 1, 1, O]` (dims [3]) and spread over
  `[B, N, K, O]` (dims [0, 1, 2, 3]) it reads `x(o)` at `(b, n, k, o)` — what `y + bias` lowers to on the host for a rank-3
  and a rank-4 `y`. General in the extents and the element type.
-/
import Idealize.ShloMosaic.Lib.ValueIdx
import Idealize.ShloMosaic.Lib.Pipeline.Value

namespace Cert.LibBiasSpread

open Idealize.ShloMosaic Idealize.ShloMosaic.ValueIdx

/-- A coordinate below an extent `n` is `0` when `n = 1`, and itself otherwise (a broadcast's side condition on one axis). -/
private theorem val_eq_ite_one {n : ℕ} (i : Fin n) (m : ℕ) (hm : m = n) : i.val = if m = 1 then 0 else i.val := by
  subst hm
  split_ifs with h
  · have := i.isLt; omega
  · rfl

/-- Rank 3: the vector as one row `[1, 1, O]`, read at `(u, v, o)`. -/
theorem row3_apply {α : Type} {O : ℕ} (x : (⟨1, ![O]⟩ : Shape).Idx → α)
    (h : (⟨1, ![O]⟩ : Shape).BroadcastsInDim ⟨3, ![1, 1, O]⟩ ![2]) (u v : Fin 1) (o : Fin O) :
    broadcastInDim ⟨3, ![1, 1, O]⟩ ![2] h x (ix3 u v o) = x (ix1 o) :=
  broadcastInDim_apply _ h x _ _ (fun a => match a with
    | ⟨0, _⟩ => val_eq_ite_one o _ rfl)

/-- Rank 3: the row spread over `[B, N, O]`, read at `(b, n, o)`. -/
theorem spread3_apply {α : Type} {B N O : ℕ} (x : (⟨3, ![1, 1, O]⟩ : Shape).Idx → α)
    (h : (⟨3, ![1, 1, O]⟩ : Shape).BroadcastsInDim ⟨3, ![B, N, O]⟩ ![0, 1, 2]) (b : Fin B) (n : Fin N) (o : Fin O) :
    broadcastInDim ⟨3, ![B, N, O]⟩ ![0, 1, 2] h x (ix3 b n o) = x (ix3 (0 : Fin 1) (0 : Fin 1) o) :=
  broadcastInDim_apply _ h x _ _ (fun a => match a with
    | ⟨0, _⟩ => (if_pos rfl).symm
    | ⟨1, _⟩ => (if_pos rfl).symm
    | ⟨2, _⟩ => val_eq_ite_one o _ rfl)

/-- Rank 3: the bias at `(b, n, o)` is the vector's entry `o`. -/
theorem bias3_apply {α : Type} {B N O : ℕ} (x : (⟨1, ![O]⟩ : Shape).Idx → α)
    (h₁ : (⟨1, ![O]⟩ : Shape).BroadcastsInDim ⟨3, ![1, 1, O]⟩ ![2])
    (h₂ : (⟨3, ![1, 1, O]⟩ : Shape).BroadcastsInDim ⟨3, ![B, N, O]⟩ ![0, 1, 2]) (b : Fin B) (n : Fin N) (o : Fin O) :
    broadcastInDim ⟨3, ![B, N, O]⟩ ![0, 1, 2] h₂ (broadcastInDim ⟨3, ![1, 1, O]⟩ ![2] h₁ x) (ix3 b n o) = x (ix1 o) := by
  rw [spread3_apply, row3_apply]

/-- Rank 4: the vector as one row `[1, 1, 1, O]`, read at `(u, v, w, o)`. -/
theorem row4_apply {α : Type} {O : ℕ} (x : (⟨1, ![O]⟩ : Shape).Idx → α)
    (h : (⟨1, ![O]⟩ : Shape).BroadcastsInDim ⟨4, ![1, 1, 1, O]⟩ ![3]) (u v w : Fin 1) (o : Fin O) :
    broadcastInDim ⟨4, ![1, 1, 1, O]⟩ ![3] h x (ix4 u v w o) = x (ix1 o) :=
  broadcastInDim_apply _ h x _ _ (fun a => match a with
    | ⟨0, _⟩ => val_eq_ite_one o _ rfl)

/-- Rank 4: the row spread over `[B, N, K, O]`, read at `(b, n, k, o)`. -/
theorem spread4_apply {α : Type} {B N K O : ℕ} (x : (⟨4, ![1, 1, 1, O]⟩ : Shape).Idx → α)
    (h : (⟨4, ![1, 1, 1, O]⟩ : Shape).BroadcastsInDim ⟨4, ![B, N, K, O]⟩ ![0, 1, 2, 3])
    (b : Fin B) (n : Fin N) (k : Fin K) (o : Fin O) :
    broadcastInDim ⟨4, ![B, N, K, O]⟩ ![0, 1, 2, 3] h x (ix4 b n k o) = x (ix4 (0 : Fin 1) (0 : Fin 1) (0 : Fin 1) o) :=
  broadcastInDim_apply _ h x _ _ (fun a => match a with
    | ⟨0, _⟩ => (if_pos rfl).symm
    | ⟨1, _⟩ => (if_pos rfl).symm
    | ⟨2, _⟩ => (if_pos rfl).symm
    | ⟨3, _⟩ => val_eq_ite_one o _ rfl)

/-- Rank 4: the bias at `(b, n, k, o)` is the vector's entry `o`. -/
theorem bias4_apply {α : Type} {B N K O : ℕ} (x : (⟨1, ![O]⟩ : Shape).Idx → α)
    (h₁ : (⟨1, ![O]⟩ : Shape).BroadcastsInDim ⟨4, ![1, 1, 1, O]⟩ ![3])
    (h₂ : (⟨4, ![1, 1, 1, O]⟩ : Shape).BroadcastsInDim ⟨4, ![B, N, K, O]⟩ ![0, 1, 2, 3])
    (b : Fin B) (n : Fin N) (k : Fin K) (o : Fin O) :
    broadcastInDim ⟨4, ![B, N, K, O]⟩ ![0, 1, 2, 3] h₂ (broadcastInDim ⟨4, ![1, 1, 1, O]⟩ ![3] h₁ x) (ix4 b n k o)
      = x (ix1 o) := by
  rw [spread4_apply, row4_apply]

end Cert.LibBiasSpread
-- ==== Proof.LibConcatFeature.lean ====
/-
  TWO ARRAYS JOINED ALONG THEIR LAST (FEATURE) AXIS, READ AT AN INDEX. For `x₁ : [B, N, a]` and `x₂ : [B, N, b]` joined into
  `[B, N, c]`, entry `(p, q, f)` with `f < a` is `x₁(p, q, f)` and entry `(p, q, a + f)` is `x₂(p, q, f)`; the same with one more
  leading axis, for `[B, N, K, a]` and `[B, N, K, b]`. A sum over the joined axis `a + b` is the sum over the first `a`
  positions plus the sum over the last `b`: a contraction against the joined axis splits into the two pieces' contractions.
-/
import Idealize.ShloMosaic.Lib.ValueIdx
import Idealize.ShloMosaic.Lib.Pipeline.Value
import Mathlib.Algebra.BigOperators.Fin

namespace Cert.LibConcatFeature

open Idealize.ShloMosaic Idealize.ShloMosaic.ValueIdx
open scoped BigOperators

/-- Rank 3, a position of the first piece. -/
theorem concat3_left {α : Type} {B N a b c : ℕ} (x₁ : (⟨3, ![B, N, a]⟩ : Shape).Idx → α) (x₂ : (⟨3, ![B, N, b]⟩ : Shape).Idx → α)
    (h : Shape.Concatenates [⟨3, ![B, N, a]⟩, ⟨3, ![B, N, b]⟩] ⟨3, ![B, N, c]⟩ 2)
    (p : Fin B) (q : Fin N) (f : Fin a) (hf : f.val < c) :
    concatenate ⟨3, ![B, N, c]⟩ 2 [⟨⟨3, ![B, N, a]⟩, x₁⟩, ⟨⟨3, ![B, N, b]⟩, x₂⟩] h (ix3 p q ⟨f.val, hf⟩) = x₁ (ix3 p q f) :=
  concatenate_pair_apply_left 2 x₁ x₂ h _ rfl _ (fun t => match t with
    | ⟨0, _⟩ => rfl
    | ⟨1, _⟩ => rfl
    | ⟨2, _⟩ => rfl)

/-- Rank 3, a position of the second piece. -/
theorem concat3_right {α : Type} {B N a b c : ℕ} (x₁ : (⟨3, ![B, N, a]⟩ : Shape).Idx → α) (x₂ : (⟨3, ![B, N, b]⟩ : Shape).Idx → α)
    (h : Shape.Concatenates [⟨3, ![B, N, a]⟩, ⟨3, ![B, N, b]⟩] ⟨3, ![B, N, c]⟩ 2)
    (p : Fin B) (q : Fin N) (f : Fin b) (hf : a + f.val < c) :
    concatenate ⟨3, ![B, N, c]⟩ 2 [⟨⟨3, ![B, N, a]⟩, x₁⟩, ⟨⟨3, ![B, N, b]⟩, x₂⟩] h (ix3 p q ⟨a + f.val, hf⟩) = x₂ (ix3 p q f) :=
  concatenate_pair_apply_right 2 x₁ x₂ h _ rfl rfl _ (fun t ht => match t, ht with
    | ⟨0, _⟩, _ => rfl
    | ⟨1, _⟩, _ => rfl
    | ⟨2, _⟩, ht => absurd rfl ht) (Nat.add_comm f.val a)

/-- Rank 4, a position of the first piece. -/
theorem concat4_left {α : Type} {B N K a b c : ℕ} (x₁ : (⟨4, ![B, N, K, a]⟩ : Shape).Idx → α)
    (x₂ : (⟨4, ![B, N, K, b]⟩ : Shape).Idx → α)
    (h : Shape.Concatenates [⟨4, ![B, N, K, a]⟩, ⟨4, ![B, N, K, b]⟩] ⟨4, ![B, N, K, c]⟩ 3)
    (p : Fin B) (q : Fin N) (k : Fin K) (f : Fin a) (hf : f.val < c) :
    concatenate ⟨4, ![B, N, K, c]⟩ 3 [⟨⟨4, ![B, N, K, a]⟩, x₁⟩, ⟨⟨4, ![B, N, K, b]⟩, x₂⟩] h (ix4 p q k ⟨f.val, hf⟩)
      = x₁ (ix4 p q k f) :=
  concatenate_pair_apply_left 3 x₁ x₂ h _ rfl _ (fun t => match t with
    | ⟨0, _⟩ => rfl
    | ⟨1, _⟩ => rfl
    | ⟨2, _⟩ => rfl
    | ⟨3, _⟩ => rfl)

/-- Rank 4, a position of the second piece. -/
theorem concat4_right {α : Type} {B N K a b c : ℕ} (x₁ : (⟨4, ![B, N, K, a]⟩ : Shape).Idx → α)
    (x₂ : (⟨4, ![B, N, K, b]⟩ : Shape).Idx → α)
    (h : Shape.Concatenates [⟨4, ![B, N, K, a]⟩, ⟨4, ![B, N, K, b]⟩] ⟨4, ![B, N, K, c]⟩ 3)
    (p : Fin B) (q : Fin N) (k : Fin K) (f : Fin b) (hf : a + f.val < c) :
    concatenate ⟨4, ![B, N, K, c]⟩ 3 [⟨⟨4, ![B, N, K, a]⟩, x₁⟩, ⟨⟨4, ![B, N, K, b]⟩, x₂⟩] h (ix4 p q k ⟨a + f.val, hf⟩)
      = x₂ (ix4 p q k f) :=
  concatenate_pair_apply_right 3 x₁ x₂ h _ rfl rfl _ (fun t ht => match t, ht with
    | ⟨0, _⟩, _ => rfl
    | ⟨1, _⟩, _ => rfl
    | ⟨2, _⟩, _ => rfl
    | ⟨3, _⟩, ht => absurd rfl ht) (Nat.add_comm f.val a)

/-- A sum over `a + b` positions is the sum over the first `a` plus the sum over the last `b`, the positions written
    out as naturals below `a + b`. -/
theorem sum_split {R : Type*} [AddCommMonoid R] (a b : ℕ) (g : Fin (a + b) → R) :
    ∑ f : Fin (a + b), g f
      = ∑ f : Fin a, g ⟨f.val, Nat.lt_add_right b f.isLt⟩ + ∑ d : Fin b, g ⟨a + d.val, Nat.add_lt_add_left d.isLt a⟩ := by
  rw [Fin.sum_univ_add]
  rfl

end Cert.LibConcatFeature
-- ==== Proof.RefLayer.lean ====
/-
  ONE LAYER OF THE REFERENCE, READ AT AN INDEX. The reference's host operations for layer `i` — the two gathers through
  the static neighbour tables, the joined 48 features, the contraction with eW[i], the bias eb[i], the tanh, the maximum
  over the three neighbour slots, the joined 64 features, the contraction with hW[i] and the bias hb[i]; then for
  i < 4 the tanh, the row lengths and the division — as pure functions of the layer's input and the six argument arrays,
  spelled as the printed program spells them, and each read at an index as the network's formula (Spec.lean).
  The tables: the printed constant holds sv and se interleaved; after the host's wrap of negative entries each entry,
  read as a signed integer and clamped to the gathered axis, is sv(n, k), respectively se(n, k) — decided over the
  54 × 3 positions.
-/
import proofs.«182073_g78494822302262_cont_9to1_m_206_7_alg».proof.ReferenceIdeal
import proofs.«182073_g78494822302262_cont_9to1_m_206_7_alg».proof.Proof.Gen.ReferenceIdeal
import proofs.«182073_g78494822302262_cont_9to1_m_206_7_alg».proof.Proof.Spec
import proofs.«182073_g78494822302262_cont_9to1_m_206_7_alg».proof.Proof.LibNeighbourGather
import proofs.«182073_g78494822302262_cont_9to1_m_206_7_alg».proof.Proof.LibLayerSlice
import proofs.«182073_g78494822302262_cont_9to1_m_206_7_alg».proof.Proof.LibFeatureDot
import proofs.«182073_g78494822302262_cont_9to1_m_206_7_alg».proof.Proof.LibNeighbourMax
import proofs.«182073_g78494822302262_cont_9to1_m_206_7_alg».proof.Proof.LibRowNorm
import proofs.«182073_g78494822302262_cont_9to1_m_206_7_alg».proof.Proof.LibBiasSpread
import proofs.«182073_g78494822302262_cont_9to1_m_206_7_alg».proof.Proof.LibConcatFeature
import Idealize.ShloMosaic.Lib.ValueIdx
import Idealize.ShloMosaic.Lib.Pipeline.Value

noncomputable section

namespace Cert.RefLayer

open Cert.ReferenceIdeal Cert.ReferenceIdeal.Facts₀ Cert.ReferenceIdeal.Facts Idealize.ShloMosaic Idealize.ShloMosaic.ValueIdx
open scoped BigOperators

/-! ## The neighbour tables -/

/-- A printed neighbour table after the host's wrap of negative entries (compare with 0, add the extent, select), with a
    unit last axis: the index operand of a gather. -/
def tabFix (N : BitVec 32) (t : IVec S54x3 32) : IVec S54x3x1 32 :=
  broadcastInDim S54x3x1 ![0, 1] bcast_S54x3_S54x3x1_0_1
    (select (cmpi .slt t (broadcastInDim S54x3 ![] bcast_S_S54x3 (constantI S_ 32 0#32)))
      (addi t (broadcastInDim S54x3 ![] bcast_S_S54x3 (constantI S_ 32 N))) t)

/-- The vertex table: the even entries of the printed constant. -/
def svTab : IVec S54x3 32 :=
  shapeCast S54x3 (extractStridedSlice S54x3x1 ![0, 0, 0] (fun i => lit0 (S54x3x2.rowMajor i)) slices_S54x3x2_S54x3x1_0_0_0)
    shapeCasts_S54x3x1_S54x3

/-- The edge table: the odd entries. -/
def seTab : IVec S54x3 32 :=
  shapeCast S54x3 (extractStridedSlice S54x3x1 ![0, 0, 1] (fun i => lit0 (S54x3x2.rowMajor i)) slices_S54x3x2_S54x3x1_0_0_1)
    shapeCasts_S54x3x1_S54x3

/-- Entry (n, k) of the vertex table, read signed and clamped to 54 rows, is (n + k + 1) mod 54. -/
theorem sv_row : ∀ (n : Fin 54) (k : Fin 3),
    min (tabFix 54#32 svTab (ix3 n k (0 : Fin 1))).toInt.toNat (54 - 1) = (n.val + k.val + 1) % 54 := by
  decide +kernel

/-- Entry (n, k) of the edge table, read signed and clamped to 72 rows, is (3 n + k) mod 72. -/
theorem se_row : ∀ (n : Fin 54) (k : Fin 3),
    min (tabFix 72#32 seTab (ix3 n k (0 : Fin 1))).toInt.toNat (72 - 1) = (3 * n.val + k.val) % 72 := by
  decide +kernel

/-! ## The messages -/

variable {F : FTy → Type} [FloatOps F]

/-- The three messages of every vertex: tanh of the joined neighbour features against eW[i], plus eb[i]. -/
def embT (i : ℕ) (hsW : S5x48x32.Slices ![i, 0, 0] S1x48x32) (hsb : S5x32.Slices ![i, 0] S1x32)
    (vf : FVec F S4096x54x32 .f32) (e : FVec F S4096x72x16 .f32) (eW : FVec F S5x48x32 .f32) (eb : FVec F S5x32 .f32) :
    FVec F S4096x54x3x32 .f32 :=
  Host.tanh (addf
    (Host.dotGeneral dot_S4096x54x3x48_S48x32_S4096x54x3x32_3_0_012_1_n_n none
      (concatenate S4096x54x3x48 3
        [⟨S4096x54x3x32, Host.gather gather_S4096x54x32_S54x3x1_S4096x54x3x32_03_1_n_n_1_2_4096132 vf (tabFix 54#32 svTab)⟩,
         ⟨S4096x54x3x16, Host.gather gather_S4096x72x16_S54x3x1_S4096x54x3x16_03_1_n_n_1_2_4096116 e (tabFix 72#32 seTab)⟩]
        concatenates_S4096x54x3x32_S4096x54x3x16_S4096x54x3x48_d3)
      (shapeCast S48x32 (extractStridedSlice S1x48x32 ![i, 0, 0] eW hsW) shapeCasts_S1x48x32_S48x32))
    (broadcastInDim S4096x54x3x32 ![0, 1, 2, 3] bcast_S1x1x1x32_S4096x54x3x32_0_1_2_3
      (broadcastInDim S1x1x1x32 ![3] bcast_S32_S1x1x1x32_3
        (shapeCast S32 (extractStridedSlice S1x32 ![i, 0] eb hsb) shapeCasts_S1x32_S32))))

/-- The gathered vertex row: the layer's input at the neighbour vertex. -/
theorem gatherV_apply (vf : FVec Ideal S4096x54x32 .f32) (b : Fin 4096) (n : Fin 54) (k : Fin 3) (f : Fin 32) :
    Host.gather gather_S4096x54x32_S54x3x1_S4096x54x3x32_03_1_n_n_1_2_4096132 vf (tabFix 54#32 svTab) (ix4 b n k f) = vf (ix3 b (Cert.Spec.sv n k) f) := by
  rw [Cert.LibNeighbourGather.neighbourGather_apply (by decide) gather_S4096x54x32_S54x3x1_S4096x54x3x32_03_1_n_n_1_2_4096132 rfl rfl rfl rfl rfl rfl rfl]
  exact congrArg vf (congrArg (fun r => ix3 b r f) (Fin.ext (sv_row n k)))

/-- The gathered edge row. -/
theorem gatherE_apply (e : FVec Ideal S4096x72x16 .f32) (b : Fin 4096) (n : Fin 54) (k : Fin 3) (d : Fin 16) :
    Host.gather gather_S4096x72x16_S54x3x1_S4096x54x3x16_03_1_n_n_1_2_4096116 e (tabFix 72#32 seTab) (ix4 b n k d) = e (ix3 b (Cert.Spec.se n k) d) := by
  rw [Cert.LibNeighbourGather.neighbourGather_apply (by decide) gather_S4096x72x16_S54x3x1_S4096x54x3x16_03_1_n_n_1_2_4096116 rfl rfl rfl rfl rfl rfl rfl]
  exact congrArg e (congrArg (fun r => ix3 b r d) (Fin.ext (se_row n k)))

/-- A message at (b, n, k, o) is the network's: the contraction over the 48 joined features splits into the vertex
    part against rows 0 … 31 of eW[i] and the edge part against rows 32 … 47. -/
theorem embT_apply (i : ℕ) (hi : i < 5) (hsW : S5x48x32.Slices ![i, 0, 0] S1x48x32) (hsb : S5x32.Slices ![i, 0] S1x32)
    (vf : FVec Ideal S4096x54x32 .f32) (e : FVec Ideal S4096x72x16 .f32) (eW : FVec Ideal S5x48x32 .f32)
    (eb : FVec Ideal S5x32 .f32) (b : Fin 4096) (n : Fin 54) (k : Fin 3) (o : Fin 32) :
    embT (F := Ideal) i hsW hsb vf e eW eb (ix4 b n k o)
      = Cert.Spec.emb (fun f o => eW (ix3 (⟨i, hi⟩ : Fin 5) f o)) (fun o => eb (ix2 (⟨i, hi⟩ : Fin 5) o))
          (fun b n f => vf (ix3 b n f)) (fun b n d => e (ix3 b n d)) b n k o := by
  unfold embT Cert.Spec.emb
  show Ideal.tanh (FloatOps.dotGeneral (F := Ideal) _ none .single _ _ (ix4 b n k o) + broadcastInDim _ _ _ _ (ix4 b n k o)) = _
  rw [Cert.LibBiasSpread.bias4_apply, Cert.LibLayerSlice.layerVector_apply i hi,
    Cert.LibFeatureDot.dotGeneral4_apply _ rfl rfl rfl rfl rfl rfl]
  refine congrArg Ideal.tanh (congrArg (· + eb (ix2 (⟨i, hi⟩ : Fin 5) o)) ?_)
  refine (Cert.LibConcatFeature.sum_split 32 16 _).trans ?_
  refine congrArg₂ (· + ·) (Finset.sum_congr rfl fun f _ => ?_) (Finset.sum_congr rfl fun d _ => ?_)
  · exact congrArg₂ (· * ·)
      ((Cert.LibConcatFeature.concat4_left _ _ _ b n k f _).trans (gatherV_apply vf b n k f))
      (Cert.LibLayerSlice.layerMatrix_apply i hi eW hsW _ _ o)
  · exact congrArg₂ (· * ·)
      ((Cert.LibConcatFeature.concat4_right _ _ _ b n k d _).trans (gatherE_apply e b n k d))
      (Cert.LibLayerSlice.layerMatrix_apply i hi eW hsW _ _ o)

/-! ## The strongest message, the update, the activation -/

/-- The maximum over the three neighbour slots, from −∞. -/
def aggT (i : ℕ) (hsW : S5x48x32.Slices ![i, 0, 0] S1x48x32) (hsb : S5x32.Slices ![i, 0] S1x32)
    (vf : FVec F S4096x54x32 .f32) (e : FVec F S4096x72x16 .f32) (eW : FVec F S5x48x32 .f32) (eb : FVec F S5x32 .f32) :
    FVec F S4096x54x32 .f32 :=
  Host.reduce FloatOps.maximumf (embT i hsW hsb vf e eW eb) (constant S_ .f32 0xFF800000#32)
    reducesTo_S4096x54x3x32_S4096x54x32_d2 h_S_

theorem aggT_apply (i : ℕ) (hi : i < 5) (hsW : S5x48x32.Slices ![i, 0, 0] S1x48x32) (hsb : S5x32.Slices ![i, 0] S1x32)
    (vf : FVec Ideal S4096x54x32 .f32) (e : FVec Ideal S4096x72x16 .f32) (eW : FVec Ideal S5x48x32 .f32)
    (eb : FVec Ideal S5x32 .f32) (b : Fin 4096) (n : Fin 54) (o : Fin 32) :
    aggT (F := Ideal) i hsW hsb vf e eW eb (ix3 b n o)
      = Cert.Spec.agg (fun f o => eW (ix3 (⟨i, hi⟩ : Fin 5) f o)) (fun o => eb (ix2 (⟨i, hi⟩ : Fin 5) o))
          (fun b n f => vf (ix3 b n f)) (fun b n d => e (ix3 b n d)) b n o := by
  unfold aggT Cert.Spec.agg
  rw [Cert.LibNeighbourMax.hostMax3_apply _ reducesTo_S4096x54x3x32_S4096x54x32_d2 (by decide) h_S_ b n o,
    embT_apply i hi, embT_apply i hi, embT_apply i hi]

/-- The vertex update: the joined 64 features (the layer's input, then the strongest message) against hW[i], plus
    hb[i]. -/
def linT (i : ℕ) (hsW : S5x48x32.Slices ![i, 0, 0] S1x48x32) (hsb : S5x32.Slices ![i, 0] S1x32)
    (hsH : S5x64x32.Slices ![i, 0, 0] S1x64x32)
    (vf : FVec F S4096x54x32 .f32) (e : FVec F S4096x72x16 .f32) (eW : FVec F S5x48x32 .f32) (eb : FVec F S5x32 .f32)
    (hW : FVec F S5x64x32 .f32) (hb : FVec F S5x32 .f32) : FVec F S4096x54x32 .f32 :=
  addf
    (Host.dotGeneral dot_S4096x54x64_S64x32_S4096x54x32_2_0_01_1_n_n none
      (concatenate S4096x54x64 2 [⟨S4096x54x32, vf⟩, ⟨S4096x54x32, aggT i hsW hsb vf e eW eb⟩]
        concatenates_S4096x54x32_S4096x54x32_S4096x54x64_d2)
      (shapeCast S64x32 (extractStridedSlice S1x64x32 ![i, 0, 0] hW hsH) shapeCasts_S1x64x32_S64x32))
    (broadcastInDim S4096x54x32 ![0, 1, 2] bcast_S1x1x32_S4096x54x32_0_1_2
      (broadcastInDim S1x1x32 ![2] bcast_S32_S1x1x32_2
        (shapeCast S32 (extractStridedSlice S1x32 ![i, 0] hb hsb) shapeCasts_S1x32_S32)))

theorem linT_apply (i : ℕ) (hi : i < 5) (hsW : S5x48x32.Slices ![i, 0, 0] S1x48x32) (hsb : S5x32.Slices ![i, 0] S1x32)
    (hsH : S5x64x32.Slices ![i, 0, 0] S1x64x32)
    (vf : FVec Ideal S4096x54x32 .f32) (e : FVec Ideal S4096x72x16 .f32) (eW : FVec Ideal S5x48x32 .f32)
    (eb : FVec Ideal S5x32 .f32) (hW : FVec Ideal S5x64x32 .f32) (hb : FVec Ideal S5x32 .f32)
    (b : Fin 4096) (n : Fin 54) (o : Fin 32) :
    linT (F := Ideal) i hsW hsb hsH vf e eW eb hW hb (ix3 b n o)
      = Cert.Spec.lin (fun f o => eW (ix3 (⟨i, hi⟩ : Fin 5) f o)) (fun o => eb (ix2 (⟨i, hi⟩ : Fin 5) o))
          (fun f o => hW (ix3 (⟨i, hi⟩ : Fin 5) f o)) (fun o => hb (ix2 (⟨i, hi⟩ : Fin 5) o))
          (fun b n f => vf (ix3 b n f)) (fun b n d => e (ix3 b n d)) b n o := by
  unfold linT Cert.Spec.lin
  show FloatOps.dotGeneral (F := Ideal) _ none .single _ _ (ix3 b n o) + broadcastInDim _ _ _ _ (ix3 b n o) = _
  rw [Cert.LibBiasSpread.bias3_apply, Cert.LibLayerSlice.layerVector_apply i hi,
    Cert.LibFeatureDot.dotGeneral3_apply _ rfl rfl rfl rfl rfl rfl]
  refine congrArg (· + hb (ix2 (⟨i, hi⟩ : Fin 5) o)) ?_
  refine (Cert.LibConcatFeature.sum_split 32 32 _).trans ?_
  refine congrArg₂ (· + ·) (Finset.sum_congr rfl fun f _ => ?_) (Finset.sum_congr rfl fun f _ => ?_)
  · exact congrArg₂ (· * ·) (Cert.LibConcatFeature.concat3_left _ _ _ b n f _)
      (Cert.LibLayerSlice.layerMatrix_apply i hi hW hsH _ _ o)
  · exact congrArg₂ (· * ·)
      ((Cert.LibConcatFeature.concat3_right _ _ _ b n f _).trans (aggT_apply i hi hsW hsb vf e eW eb b n f))
      (Cert.LibLayerSlice.layerMatrix_apply i hi hW hsH _ _ o)

/-! ## Scaling a row to unit length, the reference's way -/

/-- The reference's `x / norm(x, axis = 2, keepdims)`: the row sum of squares from the zero word, given a unit axis, its
    square root, spread over the row, and the quotient. -/
def unitT (x : FVec F S4096x54x32 .f32) : FVec F S4096x54x32 .f32 :=
  Host.divf x (broadcastInDim S4096x54x32 ![0, 1, 2] bcast_S4096x54x1_S4096x54x32_0_1_2
    (Host.sqrt (broadcastInDim S4096x54x1 ![0, 1] bcast_S4096x54_S4096x54x1_0_1
      (Host.reduceAdd (mulf x x) (constant S_ .f32 0x00000000#32) reducesTo_S4096x54x32_S4096x54_d2 h_S_))))

/-- The row lengths the reference divides by, as a [4096, 54, 1] array: entry (b, n, 0) is the square root of the row's
    sum of squares. -/
theorem norm_apply (x : FVec Ideal S4096x54x32 .f32) (b : Fin 4096) (n : Fin 54) (u : Fin 1) :
    Host.sqrt (broadcastInDim S4096x54x1 ![0, 1] bcast_S4096x54_S4096x54x1_0_1
      (Host.reduceAdd (mulf x x) (constant S_ .f32 0x00000000#32) reducesTo_S4096x54x32_S4096x54_d2 h_S_)) (ix3 b n u)
      = Ideal.sqrt (Cert.Spec.sumSq (fun b n f => x (ix3 b n f)) b n) := by
  show Ideal.sqrt (broadcastInDim _ _ _ _ (ix3 b n u)) = _
  rw [Cert.LibRowNorm.keepdims_apply, Cert.LibRowNorm.hostSum_lastAxis _ reducesTo_S4096x54x32_S4096x54_d2 (by decide) h_S_ b n]
  rfl

theorem unitT_apply (x : FVec Ideal S4096x54x32 .f32) (b : Fin 4096) (n : Fin 54) (o : Fin 32) :
    unitT (F := Ideal) x (ix3 b n o) = Cert.Spec.unitDiv (fun b n f => x (ix3 b n f)) b n o := by
  unfold unitT Cert.Spec.unitDiv
  show Ideal.div (x (ix3 b n o)) (broadcastInDim _ _ _ _ (ix3 b n o)) = _
  rw [Cert.LibRowNorm.spread_apply, norm_apply]

/-- One normalising layer of the reference. -/
def layerT (i : ℕ) (hsW : S5x48x32.Slices ![i, 0, 0] S1x48x32) (hsb : S5x32.Slices ![i, 0] S1x32)
    (hsH : S5x64x32.Slices ![i, 0, 0] S1x64x32)
    (vf : FVec F S4096x54x32 .f32) (e : FVec F S4096x72x16 .f32) (eW : FVec F S5x48x32 .f32) (eb : FVec F S5x32 .f32)
    (hW : FVec F S5x64x32 .f32) (hb : FVec F S5x32 .f32) : FVec F S4096x54x32 .f32 :=
  unitT (Host.tanh (linT i hsW hsb hsH vf e eW eb hW hb))

/-- A normalising layer of the reference at (b, n, o) is the network's layer, in the spelling that divides. -/
theorem layerT_apply (i : ℕ) (hi : i < 5) (hsW : S5x48x32.Slices ![i, 0, 0] S1x48x32) (hsb : S5x32.Slices ![i, 0] S1x32)
    (hsH : S5x64x32.Slices ![i, 0, 0] S1x64x32)
    (vf : FVec Ideal S4096x54x32 .f32) (e : FVec Ideal S4096x72x16 .f32) (eW : FVec Ideal S5x48x32 .f32)
    (eb : FVec Ideal S5x32 .f32) (hW : FVec Ideal S5x64x32 .f32) (hb : FVec Ideal S5x32 .f32)
    (b : Fin 4096) (n : Fin 54) (o : Fin 32) :
    layerT (F := Ideal) i hsW hsb hsH vf e eW eb hW hb (ix3 b n o)
      = Cert.Spec.layerDiv (fun f o => eW (ix3 (⟨i, hi⟩ : Fin 5) f o)) (fun o => eb (ix2 (⟨i, hi⟩ : Fin 5) o))
          (fun f o => hW (ix3 (⟨i, hi⟩ : Fin 5) f o)) (fun o => hb (ix2 (⟨i, hi⟩ : Fin 5) o))
          (fun b n d => e (ix3 b n d)) (fun b n f => vf (ix3 b n f)) b n o := by
  unfold layerT Cert.Spec.layerDiv
  rw [unitT_apply]
  have hx : (fun b n f => Host.tanh (linT (F := Ideal) i hsW hsb hsH vf e eW eb hW hb) (ix3 b n f))
      = Cert.Spec.act (fun f o => eW (ix3 (⟨i, hi⟩ : Fin 5) f o)) (fun o => eb (ix2 (⟨i, hi⟩ : Fin 5) o))
          (fun f o => hW (ix3 (⟨i, hi⟩ : Fin 5) f o)) (fun o => hb (ix2 (⟨i, hi⟩ : Fin 5) o))
          (fun b n f => vf (ix3 b n f)) (fun b n d => e (ix3 b n d)) := by
    funext b n f
    show Ideal.tanh (linT (F := Ideal) i hsW hsb hsH vf e eW eb hW hb (ix3 b n f)) = _
    rw [linT_apply i hi]
    rfl
  rw [hx]

end Cert.RefLayer

end
-- ==== Proof.LibConcatCongr.lean ====
/-
  A TWO-PIECE CONCATENATION RESPECTS EQUALITY OF ITS PIECES, in the form of a congruence rule for the simplifier. Each
  piece of a concatenation is the second component of a pair whose first component is the piece's shape, so a
  rewriting pass does not enter it on its own; with this rule it does, and a chain of host operations that ends in a
  concatenation is read in one pass.
-/
import Idealize.ShloMosaic.PureOps.ShapeOps

namespace Cert.LibConcatCongr

open Idealize.ShloMosaic

/-- Two pieces joined along an axis: equal pieces give equal joins. (Not tagged here: a module that wants the
    simplifier to use it says so locally.) -/
theorem concatenate_pair_congr {α : Type} {t s₁ s₂ : Shape} (a : Fin t.rank) (x₁ x₁' : s₁.Idx → α)
    (x₂ x₂' : s₂.Idx → α) (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

end Cert.LibConcatCongr
-- ==== Proof.RefChunks.lean ====
/-
  THE REFERENCE'S OPERATIONS, LAYER BY LAYER. The 232 operations cut after each division into the five layers' lists (the
  lists are transcribed from proof/Proof/RefRun.lean's list by scratch/gen_refchunks.js, cut after operations 51, 98, 145
  and 192); the whole list is their concatenation. Each layer's list, run from ANY valuation whose neighbour-table
  buffers hold the tables, leaves in its result buffer the layer function (RefLayer.lean) of what the valuation holds in
  the layer's input buffer and the arguments, and leaves the tables and the arguments as they were. The first list
  also computes the tables.
-/
import proofs.«182073_g78494822302262_cont_9to1_m_206_7_alg».proof.Proof.RefRun
import proofs.«182073_g78494822302262_cont_9to1_m_206_7_alg».proof.Proof.RefLayer
import proofs.«182073_g78494822302262_cont_9to1_m_206_7_alg».proof.Proof.LibConcatCongr

noncomputable section

namespace Cert.RefChunks

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- Running a list then another is running their concatenation. -/
theorem after_append (A B : List (HloOp τ sig (Elt F))) (V : Valuation τ sig (Elt F)) : after (A ++ B) V = after B (after A V) := by
  induction A generalizing V with
  | nil => rfl
  | cons a A ih => exact ih _

set_option maxRecDepth 4096 in
/-- Layer 0's operations. -/
abbrev L0 : List (HloOp τ sig (Elt F)) :=
  [
    StableHlo.nullary main_c (fun i => lit0 (S54x3x2.rowMajor i)),
    StableHlo.unary main_c main_v0 ((extractStridedSlice S54x3x1 ![0, 0, 0] · slices_S54x3x2_S54x3x1_0_0_0) : (⟨S54x3x2, .i32⟩ : BufTy).Contents (Elt F) → (⟨S54x3x1, .i32⟩ : BufTy).Contents (Elt F)),
    StableHlo.reshape main_v0 main_v1 rfl shapeCasts_S54x3x1_S54x3,
    StableHlo.unary main_c main_v2 ((extractStridedSlice S54x3x1 ![0, 0, 1] · slices_S54x3x2_S54x3x1_0_0_1) : (⟨S54x3x2, .i32⟩ : BufTy).Contents (Elt F) → (⟨S54x3x1, .i32⟩ : BufTy).Contents (Elt F)),
    StableHlo.reshape main_v2 main_v3 rfl shapeCasts_S54x3x1_S54x3,
    StableHlo.nullary main_c_0 (constantI S_ 32 0#32),
    StableHlo.unary main_c_0 main_v4 (broadcastInDim S54x3 ![] bcast_S_S54x3 : (⟨S_, .i32⟩ : BufTy).Contents (Elt F) → (⟨S54x3, .i32⟩ : BufTy).Contents (Elt F)),
    StableHlo.binary main_v1 main_v4 main_v5 (cmpi .slt : (⟨S54x3, .i32⟩ : BufTy).Contents (Elt F) → (⟨S54x3, .i32⟩ : BufTy).Contents (Elt F) → (⟨S54x3, .i1⟩ : BufTy).Contents (Elt F)),
    StableHlo.nullary main_c_1 (constantI S_ 32 54#32),
    StableHlo.unary main_c_1 main_v6 (broadcastInDim S54x3 ![] bcast_S_S54x3 : (⟨S_, .i32⟩ : BufTy).Contents (Elt F) → (⟨S54x3, .i32⟩ : BufTy).Contents (Elt F)),
    StableHlo.binary main_v1 main_v6 main_v7 (addi : (⟨S54x3, .i32⟩ : BufTy).Contents (Elt F) → (⟨S54x3, .i32⟩ : BufTy).Contents (Elt F) → (⟨S54x3, .i32⟩ : BufTy).Contents (Elt F)),
    StableHlo.ternary main_v5 main_v7 main_v1 main_v8 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v8 main_v9 (broadcastInDim S54x3x1 ![0, 1] bcast_S54x3_S54x3x1_0_1 : (⟨S54x3, .i32⟩ : BufTy).Contents (Elt F) → (⟨S54x3x1, .i32⟩ : BufTy).Contents (Elt F)),
    StableHlo.binary main_arg0 main_v9 main_v10 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_2 (constantI S_ 32 0#32),
    StableHlo.unary main_c_2 main_v11 (broadcastInDim S54x3 ![] bcast_S_S54x3 : (⟨S_, .i32⟩ : BufTy).Contents (Elt F) → (⟨S54x3, .i32⟩ : BufTy).Contents (Elt F)),
    StableHlo.binary main_v3 main_v11 main_v12 (cmpi .slt : (⟨S54x3, .i32⟩ : BufTy).Contents (Elt F) → (⟨S54x3, .i32⟩ : BufTy).Contents (Elt F) → (⟨S54x3, .i1⟩ : BufTy).Contents (Elt F)),
    StableHlo.nullary main_c_3 (constantI S_ 32 72#32),
    StableHlo.unary main_c_3 main_v13 (broadcastInDim S54x3 ![] bcast_S_S54x3 : (⟨S_, .i32⟩ : BufTy).Contents (Elt F) → (⟨S54x3, .i32⟩ : BufTy).Contents (Elt F)),
    StableHlo.binary main_v3 main_v13 main_v14 (addi : (⟨S54x3, .i32⟩ : BufTy).Contents (Elt F) → (⟨S54x3, .i32⟩ : BufTy).Contents (Elt F) → (⟨S54x3, .i32⟩ : BufTy).Contents (Elt F)),
    StableHlo.ternary main_v12 main_v14 main_v3 main_v15 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v15 main_v16 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v16 main_v17 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)),
    StableHlo.binary main_v10 main_v17 main_v18 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v19 ((extractStridedSlice S1x48x32 ![0, 0, 0] · slices_S5x48x32_S1x48x32_0_0_0) : (⟨S5x48x32, .f32⟩ : BufTy).Contents (Elt F) → (⟨S1x48x32, .f32⟩ : BufTy).Contents (Elt F)),
    StableHlo.reshape main_v19 main_v20 rfl shapeCasts_S1x48x32_S48x32,
    StableHlo.binary main_v18 main_v20 main_v21 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v22 ((extractStridedSlice S1x32 ![0, 0] · slices_S5x32_S1x32_0_0) : (⟨S5x32, .f32⟩ : BufTy).Contents (Elt F) → (⟨S1x32, .f32⟩ : BufTy).Contents (Elt F)),
    StableHlo.reshape main_v22 main_v23 rfl shapeCasts_S1x32_S32,
    StableHlo.unary main_v23 main_v24 (broadcastInDim S1x1x1x32 ![3] bcast_S32_S1x1x1x32_3 : (⟨S32, .f32⟩ : BufTy).Contents (Elt F) → (⟨S1x1x1x32, .f32⟩ : BufTy).Contents (Elt F)),
    StableHlo.unary main_v24 main_v25 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v21 main_v25 main_v26 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v26 main_v27 (Host.tanh : (⟨S4096x54x3x32, .f32⟩ : BufTy).Contents (Elt F) → (⟨S4096x54x3x32, .f32⟩ : BufTy).Contents (Elt F)),
    StableHlo.nullary main_cst (constant S_ .f32 0xFF800000#32),
    StableHlo.binary main_v27 main_cst main_v28 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)),
    StableHlo.binary main_arg0 main_v28 main_v29 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v30 ((extractStridedSlice S1x64x32 ![0, 0, 0] · slices_S5x64x32_S1x64x32_0_0_0) : (⟨S5x64x32, .f32⟩ : BufTy).Contents (Elt F) → (⟨S1x64x32, .f32⟩ : BufTy).Contents (Elt F)),
    StableHlo.reshape main_v30 main_v31 rfl shapeCasts_S1x64x32_S64x32,
    StableHlo.binary main_v29 main_v31 main_v32 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v33 ((extractStridedSlice S1x32 ![0, 0] · slices_S5x32_S1x32_0_0) : (⟨S5x32, .f32⟩ : BufTy).Contents (Elt F) → (⟨S1x32, .f32⟩ : BufTy).Contents (Elt F)),
    StableHlo.reshape main_v33 main_v34 rfl shapeCasts_S1x32_S32,
    StableHlo.unary main_v34 main_v35 (broadcastInDim S1x1x32 ![2] bcast_S32_S1x1x32_2 : (⟨S32, .f32⟩ : BufTy).Contents (Elt F) → (⟨S1x1x32, .f32⟩ : BufTy).Contents (Elt F)),
    StableHlo.unary main_v35 main_v36 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v32 main_v36 main_v37 (addf : (⟨S4096x54x32, .f32⟩ : BufTy).Contents (Elt F) → (⟨S4096x54x32, .f32⟩ : BufTy).Contents (Elt F) → (⟨S4096x54x32, .f32⟩ : BufTy).Contents (Elt F)),
    StableHlo.unary main_v37 main_v38 (Host.tanh : (⟨S4096x54x32, .f32⟩ : BufTy).Contents (Elt F) → (⟨S4096x54x32, .f32⟩ : BufTy).Contents (Elt F)),
    StableHlo.TRef.binary (.of main_v38) (.of main_v38) main_call0.v0 mulf,
    StableHlo.TRef.nullary main_call0.cst (constant S_ .f32 0x00000000#32),
    StableHlo.TRef.binary main_call0.v0 main_call0.cst main_call0.v1 (fun x v => Host.reduceAdd x v reducesTo_S4096x54x32_S4096x54_d2 h_S_),
    StableHlo.TRef.unary main_call0.v1 main_call0.v2 (broadcastInDim S4096x54x1 ![0, 1] bcast_S4096x54_S4096x54x1_0_1),
    StableHlo.TRef.unary main_call0.v2 main_call0.v3 Host.sqrt,
    StableHlo.unary main_v39 main_v40 (broadcastInDim S4096x54x32 ![0, 1, 2] bcast_S4096x54x1_S4096x54x32_0_1_2 : (⟨S4096x54x1, .f32⟩ : BufTy).Contents (Elt F) → (⟨S4096x54x32, .f32⟩ : BufTy).Contents (Elt F)),
    StableHlo.binary main_v38 main_v40 main_v41 (Host.divf : (⟨S4096x54x32, .f32⟩ : BufTy).Contents (Elt F) → (⟨S4096x54x32, .f32⟩ : BufTy).Contents (Elt F) → (⟨S4096x54x32, .f32⟩ : BufTy).Contents (Elt F)) ]

set_option maxRecDepth 4096 in
/-- Layer 1's operations. -/
abbrev L1 : List (HloOp τ sig (Elt F)) :=
  [
    StableHlo.nullary main_c_4 (constantI S_ 32 0#32),
    StableHlo.unary main_c_4 main_v42 (broadcastInDim S54x3 ![] bcast_S_S54x3 : (⟨S_, .i32⟩ : BufTy).Contents (Elt F) → (⟨S54x3, .i32⟩ : BufTy).Contents (Elt F)),
    StableHlo.binary main_v1 main_v42 main_v43 (cmpi .slt : (⟨S54x3, .i32⟩ : BufTy).Contents (Elt F) → (⟨S54x3, .i32⟩ : BufTy).Contents (Elt F) → (⟨S54x3, .i1⟩ : BufTy).Contents (Elt F)),
    StableHlo.nullary main_c_5 (constantI S_ 32 54#32),
    StableHlo.unary main_c_5 main_v44 (broadcastInDim S54x3 ![] bcast_S_S54x3 : (⟨S_, .i32⟩ : BufTy).Contents (Elt F) → (⟨S54x3, .i32⟩ : BufTy).Contents (Elt F)),
    StableHlo.binary main_v1 main_v44 main_v45 (addi : (⟨S54x3, .i32⟩ : BufTy).Contents (Elt F) → (⟨S54x3, .i32⟩ : BufTy).Contents (Elt F) → (⟨S54x3, .i32⟩ : BufTy).Contents (Elt F)),
    StableHlo.ternary main_v43 main_v45 main_v1 main_v46 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v46 main_v47 (broadcastInDim S54x3x1 ![0, 1] bcast_S54x3_S54x3x1_0_1 : (⟨S54x3, .i32⟩ : BufTy).Contents (Elt F) → (⟨S54x3x1, .i32⟩ : BufTy).Contents (Elt F)),
    StableHlo.binary main_v41 main_v47 main_v48 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_6 (constantI S_ 32 0#32),
    StableHlo.unary main_c_6 main_v49 (broadcastInDim S54x3 ![] bcast_S_S54x3 : (⟨S_, .i32⟩ : BufTy).Contents (Elt F) → (⟨S54x3, .i32⟩ : BufTy).Contents (Elt F)),
    StableHlo.binary main_v3 main_v49 main_v50 (cmpi .slt : (⟨S54x3, .i32⟩ : BufTy).Contents (Elt F) → (⟨S54x3, .i32⟩ : BufTy).Contents (Elt F) → (⟨S54x3, .i1⟩ : BufTy).Contents (Elt F)),
    StableHlo.nullary main_c_7 (constantI S_ 32 72#32),
    StableHlo.unary main_c_7 main_v51 (broadcastInDim S54x3 ![] bcast_S_S54x3 : (⟨S_, .i32⟩ : BufTy).Contents (Elt F) → (⟨S54x3, .i32⟩ : BufTy).Contents (Elt F)),
    StableHlo.binary main_v3 main_v51 main_v52 (addi : (⟨S54x3, .i32⟩ : BufTy).Contents (Elt F) → (⟨S54x3, .i32⟩ : BufTy).Contents (Elt F) → (⟨S54x3, .i32⟩ : BufTy).Contents (Elt F)),
    StableHlo.ternary main_v50 main_v52 main_v3 main_v53 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v53 main_v54 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v54 main_v55 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)),
    StableHlo.binary main_v48 main_v55 main_v56 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v57 ((extractStridedSlice S1x48x32 ![1, 0, 0] · slices_S5x48x32_S1x48x32_1_0_0) : (⟨S5x48x32, .f32⟩ : BufTy).Contents (Elt F) → (⟨S1x48x32, .f32⟩ : BufTy).Contents (Elt F)),
    StableHlo.reshape main_v57 main_v58 rfl shapeCasts_S1x48x32_S48x32,
    StableHlo.binary main_v56 main_v58 main_v59 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v60 ((extractStridedSlice S1x32 ![1, 0] · slices_S5x32_S1x32_1_0) : (⟨S5x32, .f32⟩ : BufTy).Contents (Elt F) → (⟨S1x32, .f32⟩ : BufTy).Contents (Elt F)),
    StableHlo.reshape main_v60 main_v61 rfl shapeCasts_S1x32_S32,
    StableHlo.unary main_v61 main_v62 (broadcastInDim S1x1x1x32 ![3] bcast_S32_S1x1x1x32_3 : (⟨S32, .f32⟩ : BufTy).Contents (Elt F) → (⟨S1x1x1x32, .f32⟩ : BufTy).Contents (Elt F)),
    StableHlo.unary main_v62 main_v63 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v59 main_v63 main_v64 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v64 main_v65 (Host.tanh : (⟨S4096x54x3x32, .f32⟩ : BufTy).Contents (Elt F) → (⟨S4096x54x3x32, .f32⟩ : BufTy).Contents (Elt F)),
    StableHlo.nullary main_cst_8 (constant S_ .f32 0xFF800000#32),
    StableHlo.binary main_v65 main_cst_8 main_v66 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)),
    StableHlo.binary main_v41 main_v66 main_v67 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v68 ((extractStridedSlice S1x64x32 ![1, 0, 0] · slices_S5x64x32_S1x64x32_1_0_0) : (⟨S5x64x32, .f32⟩ : BufTy).Contents (Elt F) → (⟨S1x64x32, .f32⟩ : BufTy).Contents (Elt F)),
    StableHlo.reshape main_v68 main_v69 rfl shapeCasts_S1x64x32_S64x32,
    StableHlo.binary main_v67 main_v69 main_v70 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v71 ((extractStridedSlice S1x32 ![1, 0] · slices_S5x32_S1x32_1_0) : (⟨S5x32, .f32⟩ : BufTy).Contents (Elt F) → (⟨S1x32, .f32⟩ : BufTy).Contents (Elt F)),
    StableHlo.reshape main_v71 main_v72 rfl shapeCasts_S1x32_S32,
    StableHlo.unary main_v72 main_v73 (broadcastInDim S1x1x32 ![2] bcast_S32_S1x1x32_2 : (⟨S32, .f32⟩ : BufTy).Contents (Elt F) → (⟨S1x1x32, .f32⟩ : BufTy).Contents (Elt F)),
    StableHlo.unary main_v73 main_v74 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v70 main_v74 main_v75 (addf : (⟨S4096x54x32, .f32⟩ : BufTy).Contents (Elt F) → (⟨S4096x54x32, .f32⟩ : BufTy).Contents (Elt F) → (⟨S4096x54x32, .f32⟩ : BufTy).Contents (Elt F)),
    StableHlo.unary main_v75 main_v76 (Host.tanh : (⟨S4096x54x32, .f32⟩ : BufTy).Contents (Elt F) → (⟨S4096x54x32, .f32⟩ : BufTy).Contents (Elt F)),
    StableHlo.TRef.binary (.of main_v76) (.of main_v76) main_call1.v0 mulf,
    StableHlo.TRef.nullary main_call1.cst (constant S_ .f32 0x00000000#32),
    StableHlo.TRef.binary main_call1.v0 main_call1.cst main_call1.v1 (fun x v => Host.reduceAdd x v reducesTo_S4096x54x32_S4096x54_d2 h_S_),
    StableHlo.TRef.unary main_call1.v1 main_call1.v2 (broadcastInDim S4096x54x1 ![0, 1] bcast_S4096x54_S4096x54x1_0_1),
    StableHlo.TRef.unary main_call1.v2 main_call1.v3 Host.sqrt,
    StableHlo.unary main_v77 main_v78 (broadcastInDim S4096x54x32 ![0, 1, 2] bcast_S4096x54x1_S4096x54x32_0_1_2 : (⟨S4096x54x1, .f32⟩ : BufTy).Contents (Elt F) → (⟨S4096x54x32, .f32⟩ : BufTy).Contents (Elt F)),
    StableHlo.binary main_v76 main_v78 main_v79 (Host.divf : (⟨S4096x54x32, .f32⟩ : BufTy).Contents (Elt F) → (⟨S4096x54x32, .f32⟩ : BufTy).Contents (Elt F) → (⟨S4096x54x32, .f32⟩ : BufTy).Contents (Elt F)) ]

set_option maxRecDepth 4096 in
/-- Layer 2's operations. -/
abbrev L2 : List (HloOp τ sig (Elt F)) :=
  [
    StableHlo.nullary main_c_9 (constantI S_ 32 0#32),
    StableHlo.unary main_c_9 main_v80 (broadcastInDim S54x3 ![] bcast_S_S54x3 : (⟨S_, .i32⟩ : BufTy).Contents (Elt F) → (⟨S54x3, .i32⟩ : BufTy).Contents (Elt F)),
    StableHlo.binary main_v1 main_v80 main_v81 (cmpi .slt : (⟨S54x3, .i32⟩ : BufTy).Contents (Elt F) → (⟨S54x3, .i32⟩ : BufTy).Contents (Elt F) → (⟨S54x3, .i1⟩ : BufTy).Contents (Elt F)),
    StableHlo.nullary main_c_10 (constantI S_ 32 54#32),
    StableHlo.unary main_c_10 main_v82 (broadcastInDim S54x3 ![] bcast_S_S54x3 : (⟨S_, .i32⟩ : BufTy).Contents (Elt F) → (⟨S54x3, .i32⟩ : BufTy).Contents (Elt F)),
    StableHlo.binary main_v1 main_v82 main_v83 (addi : (⟨S54x3, .i32⟩ : BufTy).Contents (Elt F) → (⟨S54x3, .i32⟩ : BufTy).Contents (Elt F) → (⟨S54x3, .i32⟩ : BufTy).Contents (Elt F)),
    StableHlo.ternary main_v81 main_v83 main_v1 main_v84 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v84 main_v85 (broadcastInDim S54x3x1 ![0, 1] bcast_S54x3_S54x3x1_0_1 : (⟨S54x3, .i32⟩ : BufTy).Contents (Elt F) → (⟨S54x3x1, .i32⟩ : BufTy).Contents (Elt F)),
    StableHlo.binary main_v79 main_v85 main_v86 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_11 (constantI S_ 32 0#32),
    StableHlo.unary main_c_11 main_v87 (broadcastInDim S54x3 ![] bcast_S_S54x3 : (⟨S_, .i32⟩ : BufTy).Contents (Elt F) → (⟨S54x3, .i32⟩ : BufTy).Contents (Elt F)),
    StableHlo.binary main_v3 main_v87 main_v88 (cmpi .slt : (⟨S54x3, .i32⟩ : BufTy).Contents (Elt F) → (⟨S54x3, .i32⟩ : BufTy).Contents (Elt F) → (⟨S54x3, .i1⟩ : BufTy).Contents (Elt F)),
    StableHlo.nullary main_c_12 (constantI S_ 32 72#32),
    StableHlo.unary main_c_12 main_v89 (broadcastInDim S54x3 ![] bcast_S_S54x3 : (⟨S_, .i32⟩ : BufTy).Contents (Elt F) → (⟨S54x3, .i32⟩ : BufTy).Contents (Elt F)),
    StableHlo.binary main_v3 main_v89 main_v90 (addi : (⟨S54x3, .i32⟩ : BufTy).Contents (Elt F) → (⟨S54x3, .i32⟩ : BufTy).Contents (Elt F) → (⟨S54x3, .i32⟩ : BufTy).Contents (Elt F)),
    StableHlo.ternary main_v88 main_v90 main_v3 main_v91 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v91 main_v92 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v92 main_v93 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)),
    StableHlo.binary main_v86 main_v93 main_v94 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v95 ((extractStridedSlice S1x48x32 ![2, 0, 0] · slices_S5x48x32_S1x48x32_2_0_0) : (⟨S5x48x32, .f32⟩ : BufTy).Contents (Elt F) → (⟨S1x48x32, .f32⟩ : BufTy).Contents (Elt F)),
    StableHlo.reshape main_v95 main_v96 rfl shapeCasts_S1x48x32_S48x32,
    StableHlo.binary main_v94 main_v96 main_v97 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v98 ((extractStridedSlice S1x32 ![2, 0] · slices_S5x32_S1x32_2_0) : (⟨S5x32, .f32⟩ : BufTy).Contents (Elt F) → (⟨S1x32, .f32⟩ : BufTy).Contents (Elt F)),
    StableHlo.reshape main_v98 main_v99 rfl shapeCasts_S1x32_S32,
    StableHlo.unary main_v99 main_v100 (broadcastInDim S1x1x1x32 ![3] bcast_S32_S1x1x1x32_3 : (⟨S32, .f32⟩ : BufTy).Contents (Elt F) → (⟨S1x1x1x32, .f32⟩ : BufTy).Contents (Elt F)),
    StableHlo.unary main_v100 main_v101 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v97 main_v101 main_v102 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v102 main_v103 (Host.tanh : (⟨S4096x54x3x32, .f32⟩ : BufTy).Contents (Elt F) → (⟨S4096x54x3x32, .f32⟩ : BufTy).Contents (Elt F)),
    StableHlo.nullary main_cst_13 (constant S_ .f32 0xFF800000#32),
    StableHlo.binary main_v103 main_cst_13 main_v104 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)),
    StableHlo.binary main_v79 main_v104 main_v105 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v106 ((extractStridedSlice S1x64x32 ![2, 0, 0] · slices_S5x64x32_S1x64x32_2_0_0) : (⟨S5x64x32, .f32⟩ : BufTy).Contents (Elt F) → (⟨S1x64x32, .f32⟩ : BufTy).Contents (Elt F)),
    StableHlo.reshape main_v106 main_v107 rfl shapeCasts_S1x64x32_S64x32,
    StableHlo.binary main_v105 main_v107 main_v108 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v109 ((extractStridedSlice S1x32 ![2, 0] · slices_S5x32_S1x32_2_0) : (⟨S5x32, .f32⟩ : BufTy).Contents (Elt F) → (⟨S1x32, .f32⟩ : BufTy).Contents (Elt F)),
    StableHlo.reshape main_v109 main_v110 rfl shapeCasts_S1x32_S32,
    StableHlo.unary main_v110 main_v111 (broadcastInDim S1x1x32 ![2] bcast_S32_S1x1x32_2 : (⟨S32, .f32⟩ : BufTy).Contents (Elt F) → (⟨S1x1x32, .f32⟩ : BufTy).Contents (Elt F)),
    StableHlo.unary main_v111 main_v112 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v108 main_v112 main_v113 (addf : (⟨S4096x54x32, .f32⟩ : BufTy).Contents (Elt F) → (⟨S4096x54x32, .f32⟩ : BufTy).Contents (Elt F) → (⟨S4096x54x32, .f32⟩ : BufTy).Contents (Elt F)),
    StableHlo.unary main_v113 main_v114 (Host.tanh : (⟨S4096x54x32, .f32⟩ : BufTy).Contents (Elt F) → (⟨S4096x54x32, .f32⟩ : BufTy).Contents (Elt F)),
    StableHlo.TRef.binary (.of main_v114) (.of main_v114) main_call2.v0 mulf,
    StableHlo.TRef.nullary main_call2.cst (constant S_ .f32 0x00000000#32),
    StableHlo.TRef.binary main_call2.v0 main_call2.cst main_call2.v1 (fun x v => Host.reduceAdd x v reducesTo_S4096x54x32_S4096x54_d2 h_S_),
    StableHlo.TRef.unary main_call2.v1 main_call2.v2 (broadcastInDim S4096x54x1 ![0, 1] bcast_S4096x54_S4096x54x1_0_1),
    StableHlo.TRef.unary main_call2.v2 main_call2.v3 Host.sqrt,
    StableHlo.unary main_v115 main_v116 (broadcastInDim S4096x54x32 ![0, 1, 2] bcast_S4096x54x1_S4096x54x32_0_1_2 : (⟨S4096x54x1, .f32⟩ : BufTy).Contents (Elt F) → (⟨S4096x54x32, .f32⟩ : BufTy).Contents (Elt F)),
    StableHlo.binary main_v114 main_v116 main_v117 (Host.divf : (⟨S4096x54x32, .f32⟩ : BufTy).Contents (Elt F) → (⟨S4096x54x32, .f32⟩ : BufTy).Contents (Elt F) → (⟨S4096x54x32, .f32⟩ : BufTy).Contents (Elt F)) ]

set_option maxRecDepth 4096 in
/-- Layer 3's operations. -/
abbrev L3 : List (HloOp τ sig (Elt F)) :=
  [
    StableHlo.nullary main_c_14 (constantI S_ 32 0#32),
    StableHlo.unary main_c_14 main_v118 (broadcastInDim S54x3 ![] bcast_S_S54x3 : (⟨S_, .i32⟩ : BufTy).Contents (Elt F) → (⟨S54x3, .i32⟩ : BufTy).Contents (Elt F)),
    StableHlo.binary main_v1 main_v118 main_v119 (cmpi .slt : (⟨S54x3, .i32⟩ : BufTy).Contents (Elt F) → (⟨S54x3, .i32⟩ : BufTy).Contents (Elt F) → (⟨S54x3, .i1⟩ : BufTy).Contents (Elt F)),
    StableHlo.nullary main_c_15 (constantI S_ 32 54#32),
    StableHlo.unary main_c_15 main_v120 (broadcastInDim S54x3 ![] bcast_S_S54x3 : (⟨S_, .i32⟩ : BufTy).Contents (Elt F) → (⟨S54x3, .i32⟩ : BufTy).Contents (Elt F)),
    StableHlo.binary main_v1 main_v120 main_v121 (addi : (⟨S54x3, .i32⟩ : BufTy).Contents (Elt F) → (⟨S54x3, .i32⟩ : BufTy).Contents (Elt F) → (⟨S54x3, .i32⟩ : BufTy).Contents (Elt F)),
    StableHlo.ternary main_v119 main_v121 main_v1 main_v122 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v122 main_v123 (broadcastInDim S54x3x1 ![0, 1] bcast_S54x3_S54x3x1_0_1 : (⟨S54x3, .i32⟩ : BufTy).Contents (Elt F) → (⟨S54x3x1, .i32⟩ : BufTy).Contents (Elt F)),
    StableHlo.binary main_v117 main_v123 main_v124 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_16 (constantI S_ 32 0#32),
    StableHlo.unary main_c_16 main_v125 (broadcastInDim S54x3 ![] bcast_S_S54x3 : (⟨S_, .i32⟩ : BufTy).Contents (Elt F) → (⟨S54x3, .i32⟩ : BufTy).Contents (Elt F)),
    StableHlo.binary main_v3 main_v125 main_v126 (cmpi .slt : (⟨S54x3, .i32⟩ : BufTy).Contents (Elt F) → (⟨S54x3, .i32⟩ : BufTy).Contents (Elt F) → (⟨S54x3, .i1⟩ : BufTy).Contents (Elt F)),
    StableHlo.nullary main_c_17 (constantI S_ 32 72#32),
    StableHlo.unary main_c_17 main_v127 (broadcastInDim S54x3 ![] bcast_S_S54x3 : (⟨S_, .i32⟩ : BufTy).Contents (Elt F) → (⟨S54x3, .i32⟩ : BufTy).Contents (Elt F)),
    StableHlo.binary main_v3 main_v127 main_v128 (addi : (⟨S54x3, .i32⟩ : BufTy).Contents (Elt F) → (⟨S54x3, .i32⟩ : BufTy).Contents (Elt F) → (⟨S54x3, .i32⟩ : BufTy).Contents (Elt F)),
    StableHlo.ternary main_v126 main_v128 main_v3 main_v129 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v129 main_v130 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v130 main_v131 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)),
    StableHlo.binary main_v124 main_v131 main_v132 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v133 ((extractStridedSlice S1x48x32 ![3, 0, 0] · slices_S5x48x32_S1x48x32_3_0_0) : (⟨S5x48x32, .f32⟩ : BufTy).Contents (Elt F) → (⟨S1x48x32, .f32⟩ : BufTy).Contents (Elt F)),
    StableHlo.reshape main_v133 main_v134 rfl shapeCasts_S1x48x32_S48x32,
    StableHlo.binary main_v132 main_v134 main_v135 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v136 ((extractStridedSlice S1x32 ![3, 0] · slices_S5x32_S1x32_3_0) : (⟨S5x32, .f32⟩ : BufTy).Contents (Elt F) → (⟨S1x32, .f32⟩ : BufTy).Contents (Elt F)),
    StableHlo.reshape main_v136 main_v137 rfl shapeCasts_S1x32_S32,
    StableHlo.unary main_v137 main_v138 (broadcastInDim S1x1x1x32 ![3] bcast_S32_S1x1x1x32_3 : (⟨S32, .f32⟩ : BufTy).Contents (Elt F) → (⟨S1x1x1x32, .f32⟩ : BufTy).Contents (Elt F)),
    StableHlo.unary main_v138 main_v139 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v135 main_v139 main_v140 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v140 main_v141 (Host.tanh : (⟨S4096x54x3x32, .f32⟩ : BufTy).Contents (Elt F) → (⟨S4096x54x3x32, .f32⟩ : BufTy).Contents (Elt F)),
    StableHlo.nullary main_cst_18 (constant S_ .f32 0xFF800000#32),
    StableHlo.binary main_v141 main_cst_18 main_v142 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)),
    StableHlo.binary main_v117 main_v142 main_v143 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v144 ((extractStridedSlice S1x64x32 ![3, 0, 0] · slices_S5x64x32_S1x64x32_3_0_0) : (⟨S5x64x32, .f32⟩ : BufTy).Contents (Elt F) → (⟨S1x64x32, .f32⟩ : BufTy).Contents (Elt F)),
    StableHlo.reshape main_v144 main_v145 rfl shapeCasts_S1x64x32_S64x32,
    StableHlo.binary main_v143 main_v145 main_v146 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v147 ((extractStridedSlice S1x32 ![3, 0] · slices_S5x32_S1x32_3_0) : (⟨S5x32, .f32⟩ : BufTy).Contents (Elt F) → (⟨S1x32, .f32⟩ : BufTy).Contents (Elt F)),
    StableHlo.reshape main_v147 main_v148 rfl shapeCasts_S1x32_S32,
    StableHlo.unary main_v148 main_v149 (broadcastInDim S1x1x32 ![2] bcast_S32_S1x1x32_2 : (⟨S32, .f32⟩ : BufTy).Contents (Elt F) → (⟨S1x1x32, .f32⟩ : BufTy).Contents (Elt F)),
    StableHlo.unary main_v149 main_v150 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v146 main_v150 main_v151 (addf : (⟨S4096x54x32, .f32⟩ : BufTy).Contents (Elt F) → (⟨S4096x54x32, .f32⟩ : BufTy).Contents (Elt F) → (⟨S4096x54x32, .f32⟩ : BufTy).Contents (Elt F)),
    StableHlo.unary main_v151 main_v152 (Host.tanh : (⟨S4096x54x32, .f32⟩ : BufTy).Contents (Elt F) → (⟨S4096x54x32, .f32⟩ : BufTy).Contents (Elt F)),
    StableHlo.TRef.binary (.of main_v152) (.of main_v152) main_call3.v0 mulf,
    StableHlo.TRef.nullary main_call3.cst (constant S_ .f32 0x00000000#32),
    StableHlo.TRef.binary main_call3.v0 main_call3.cst main_call3.v1 (fun x v => Host.reduceAdd x v reducesTo_S4096x54x32_S4096x54_d2 h_S_),
    StableHlo.TRef.unary main_call3.v1 main_call3.v2 (broadcastInDim S4096x54x1 ![0, 1] bcast_S4096x54_S4096x54x1_0_1),
    StableHlo.TRef.unary main_call3.v2 main_call3.v3 Host.sqrt,
    StableHlo.unary main_v153 main_v154 (broadcastInDim S4096x54x32 ![0, 1, 2] bcast_S4096x54x1_S4096x54x32_0_1_2 : (⟨S4096x54x1, .f32⟩ : BufTy).Contents (Elt F) → (⟨S4096x54x32, .f32⟩ : BufTy).Contents (Elt F)),
    StableHlo.binary main_v152 main_v154 main_v155 (Host.divf : (⟨S4096x54x32, .f32⟩ : BufTy).Contents (Elt F) → (⟨S4096x54x32, .f32⟩ : BufTy).Contents (Elt F) → (⟨S4096x54x32, .f32⟩ : BufTy).Contents (Elt F)) ]

set_option maxRecDepth 4096 in
/-- Layer 4's operations. -/
abbrev L4 : List (HloOp τ sig (Elt F)) :=
  [
    StableHlo.nullary main_c_19 (constantI S_ 32 0#32),
    StableHlo.unary main_c_19 main_v156 (broadcastInDim S54x3 ![] bcast_S_S54x3 : (⟨S_, .i32⟩ : BufTy).Contents (Elt F) → (⟨S54x3, .i32⟩ : BufTy).Contents (Elt F)),
    StableHlo.binary main_v1 main_v156 main_v157 (cmpi .slt : (⟨S54x3, .i32⟩ : BufTy).Contents (Elt F) → (⟨S54x3, .i32⟩ : BufTy).Contents (Elt F) → (⟨S54x3, .i1⟩ : BufTy).Contents (Elt F)),
    StableHlo.nullary main_c_20 (constantI S_ 32 54#32),
    StableHlo.unary main_c_20 main_v158 (broadcastInDim S54x3 ![] bcast_S_S54x3 : (⟨S_, .i32⟩ : BufTy).Contents (Elt F) → (⟨S54x3, .i32⟩ : BufTy).Contents (Elt F)),
    StableHlo.binary main_v1 main_v158 main_v159 (addi : (⟨S54x3, .i32⟩ : BufTy).Contents (Elt F) → (⟨S54x3, .i32⟩ : BufTy).Contents (Elt F) → (⟨S54x3, .i32⟩ : BufTy).Contents (Elt F)),
    StableHlo.ternary main_v157 main_v159 main_v1 main_v160 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v160 main_v161 (broadcastInDim S54x3x1 ![0, 1] bcast_S54x3_S54x3x1_0_1 : (⟨S54x3, .i32⟩ : BufTy).Contents (Elt F) → (⟨S54x3x1, .i32⟩ : BufTy).Contents (Elt F)),
    StableHlo.binary main_v155 main_v161 main_v162 ((fun x i => Host.gather gather_S4096x54x32_S54x3x1_S4096x54x3x32_03_1_n_n_1_2_4096132 x i) : (⟨S4096x54x32, .f32⟩ : BufTy).Contents (Elt F) → (⟨S54x3x1, .i32⟩ : BufTy).Contents (Elt F) → (⟨S4096x54x3x32, .f32⟩ : BufTy).Contents (Elt F)),
    StableHlo.nullary main_c_21 (constantI S_ 32 0#32),
    StableHlo.unary main_c_21 main_v163 (broadcastInDim S54x3 ![] bcast_S_S54x3 : (⟨S_, .i32⟩ : BufTy).Contents (Elt F) → (⟨S54x3, .i32⟩ : BufTy).Contents (Elt F)),
    StableHlo.binary main_v3 main_v163 main_v164 (cmpi .slt : (⟨S54x3, .i32⟩ : BufTy).Contents (Elt F) → (⟨S54x3, .i32⟩ : BufTy).Contents (Elt F) → (⟨S54x3, .i1⟩ : BufTy).Contents (Elt F)),
    StableHlo.nullary main_c_22 (constantI S_ 32 72#32),
    StableHlo.unary main_c_22 main_v165 (broadcastInDim S54x3 ![] bcast_S_S54x3 : (⟨S_, .i32⟩ : BufTy).Contents (Elt F) → (⟨S54x3, .i32⟩ : BufTy).Contents (Elt F)),
    StableHlo.binary main_v3 main_v165 main_v166 (addi : (⟨S54x3, .i32⟩ : BufTy).Contents (Elt F) → (⟨S54x3, .i32⟩ : BufTy).Contents (Elt F) → (⟨S54x3, .i32⟩ : BufTy).Contents (Elt F)),
    StableHlo.ternary main_v164 main_v166 main_v3 main_v167 (select : (⟨S54x3, .i1⟩ : BufTy).Contents (Elt F) → (⟨S54x3, .i32⟩ : BufTy).Contents (Elt F) → (⟨S54x3, .i32⟩ : BufTy).Contents (Elt F) → (⟨S54x3, .i32⟩ : BufTy).Contents (Elt F)),
    StableHlo.unary main_v167 main_v168 (broadcastInDim S54x3x1 ![0, 1] bcast_S54x3_S54x3x1_0_1 : (⟨S54x3, .i32⟩ : BufTy).Contents (Elt F) → (⟨S54x3x1, .i32⟩ : BufTy).Contents (Elt F)),
    StableHlo.binary main_arg1 main_v168 main_v169 ((fun x i => Host.gather gather_S4096x72x16_S54x3x1_S4096x54x3x16_03_1_n_n_1_2_4096116 x i) : (⟨S4096x72x16, .f32⟩ : BufTy).Contents (Elt F) → (⟨S54x3x1, .i32⟩ : BufTy).Contents (Elt F) → (⟨S4096x54x3x16, .f32⟩ : BufTy).Contents (Elt F)),
    StableHlo.binary main_v162 main_v169 main_v170 ((fun a b => concatenate S4096x54x3x48 3 [⟨S4096x54x3x32, a⟩, ⟨S4096x54x3x16, b⟩] concatenates_S4096x54x3x32_S4096x54x3x16_S4096x54x3x48_d3) : (⟨S4096x54x3x32, .f32⟩ : BufTy).Contents (Elt F) → (⟨S4096x54x3x16, .f32⟩ : BufTy).Contents (Elt F) → (⟨S4096x54x3x48, .f32⟩ : BufTy).Contents (Elt F)),
    StableHlo.unary main_arg2 main_v171 ((extractStridedSlice S1x48x32 ![4, 0, 0] · slices_S5x48x32_S1x48x32_4_0_0) : (⟨S5x48x32, .f32⟩ : BufTy).Contents (Elt F) → (⟨S1x48x32, .f32⟩ : BufTy).Contents (Elt F)),
    StableHlo.reshape main_v171 main_v172 rfl shapeCasts_S1x48x32_S48x32,
    StableHlo.binary main_v170 main_v172 main_v173 ((fun l r => Host.dotGeneral dot_S4096x54x3x48_S48x32_S4096x54x3x32_3_0_012_1_n_n none l r) : (⟨S4096x54x3x48, .f32⟩ : BufTy).Contents (Elt F) → (⟨S48x32, .f32⟩ : BufTy).Contents (Elt F) → (⟨S4096x54x3x32, .f32⟩ : BufTy).Contents (Elt F)),
    StableHlo.unary main_arg3 main_v174 ((extractStridedSlice S1x32 ![4, 0] · slices_S5x32_S1x32_4_0) : (⟨S5x32, .f32⟩ : BufTy).Contents (Elt F) → (⟨S1x32, .f32⟩ : BufTy).Contents (Elt F)),
    StableHlo.reshape main_v174 main_v175 rfl shapeCasts_S1x32_S32,
    StableHlo.unary main_v175 main_v176 (broadcastInDim S1x1x1x32 ![3] bcast_S32_S1x1x1x32_3 : (⟨S32, .f32⟩ : BufTy).Contents (Elt F) → (⟨S1x1x1x32, .f32⟩ : BufTy).Contents (Elt F)),
    StableHlo.unary main_v176 main_v177 (broadcastInDim S4096x54x3x32 ![0, 1, 2, 3] bcast_S1x1x1x32_S4096x54x3x32_0_1_2_3 : (⟨S1x1x1x32, .f32⟩ : BufTy).Contents (Elt F) → (⟨S4096x54x3x32, .f32⟩ : BufTy).Contents (Elt F)),
    StableHlo.binary main_v173 main_v177 main_v178 (addf : (⟨S4096x54x3x32, .f32⟩ : BufTy).Contents (Elt F) → (⟨S4096x54x3x32, .f32⟩ : BufTy).Contents (Elt F) → (⟨S4096x54x3x32, .f32⟩ : BufTy).Contents (Elt F)),
    StableHlo.unary main_v178 main_v179 (Host.tanh : (⟨S4096x54x3x32, .f32⟩ : BufTy).Contents (Elt F) → (⟨S4096x54x3x32, .f32⟩ : BufTy).Contents (Elt F)),
    StableHlo.nullary main_cst_23 (constant S_ .f32 0xFF800000#32),
    StableHlo.binary main_v179 main_cst_23 main_v180 ((fun x v => Host.reduce FloatOps.maximumf x v reducesTo_S4096x54x3x32_S4096x54x32_d2 h_S_) : (⟨S4096x54x3x32, .f32⟩ : BufTy).Contents (Elt F) → (⟨S_, .f32⟩ : BufTy).Contents (Elt F) → (⟨S4096x54x32, .f32⟩ : BufTy).Contents (Elt F)),
    StableHlo.binary main_v155 main_v180 main_v181 ((fun a b => concatenate S4096x54x64 2 [⟨S4096x54x32, a⟩, ⟨S4096x54x32, b⟩] concatenates_S4096x54x32_S4096x54x32_S4096x54x64_d2) : (⟨S4096x54x32, .f32⟩ : BufTy).Contents (Elt F) → (⟨S4096x54x32, .f32⟩ : BufTy).Contents (Elt F) → (⟨S4096x54x64, .f32⟩ : BufTy).Contents (Elt F)),
    StableHlo.unary main_arg4 main_v182 ((extractStridedSlice S1x64x32 ![4, 0, 0] · slices_S5x64x32_S1x64x32_4_0_0) : (⟨S5x64x32, .f32⟩ : BufTy).Contents (Elt F) → (⟨S1x64x32, .f32⟩ : BufTy).Contents (Elt F)),
    StableHlo.reshape main_v182 main_v183 rfl shapeCasts_S1x64x32_S64x32,
    StableHlo.binary main_v181 main_v183 main_v184 ((fun l r => Host.dotGeneral dot_S4096x54x64_S64x32_S4096x54x32_2_0_01_1_n_n none l r) : (⟨S4096x54x64, .f32⟩ : BufTy).Contents (Elt F) → (⟨S64x32, .f32⟩ : BufTy).Contents (Elt F) → (⟨S4096x54x32, .f32⟩ : BufTy).Contents (Elt F)),
    StableHlo.unary main_arg5 main_v185 ((extractStridedSlice S1x32 ![4, 0] · slices_S5x32_S1x32_4_0) : (⟨S5x32, .f32⟩ : BufTy).Contents (Elt F) → (⟨S1x32, .f32⟩ : BufTy).Contents (Elt F)),
    StableHlo.reshape main_v185 main_v186 rfl shapeCasts_S1x32_S32,
    StableHlo.unary main_v186 main_v187 (broadcastInDim S1x1x32 ![2] bcast_S32_S1x1x32_2 : (⟨S32, .f32⟩ : BufTy).Contents (Elt F) → (⟨S1x1x32, .f32⟩ : BufTy).Contents (Elt F)),
    StableHlo.unary main_v187 main_v188 (broadcastInDim S4096x54x32 ![0, 1, 2] bcast_S1x1x32_S4096x54x32_0_1_2 : (⟨S1x1x32, .f32⟩ : BufTy).Contents (Elt F) → (⟨S4096x54x32, .f32⟩ : BufTy).Contents (Elt F)),
    StableHlo.binary main_v184 main_v188 main_v189 (addf : (⟨S4096x54x32, .f32⟩ : BufTy).Contents (Elt F) → (⟨S4096x54x32, .f32⟩ : BufTy).Contents (Elt F) → (⟨S4096x54x32, .f32⟩ : BufTy).Contents (Elt F)) ]

set_option maxRecDepth 16384 in
theorem ops_eq : Cert.RefRun.ops (F := F) = L0 ++ (L1 ++ (L2 ++ (L3 ++ L4))) := rfl

set_option maxRecDepth 8192 in
set_option maxHeartbeats 4000000 in
theorem c0_keep_main_arg1 (W : Valuation τ sig (Elt F)) : after (L0 (F := F)) W (main_arg1 : DevRef τ sig) = W (main_arg1 : DevRef τ sig) :=
  after_of_forall_not_mem (b := Proc.devRef .tc main_arg1) _ _ (List.forall_iff_forall_mem.mp (by
    simp only [L0, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c0_keep_main_arg2 (W : Valuation τ sig (Elt F)) : after (L0 (F := F)) W (main_arg2 : DevRef τ sig) = W (main_arg2 : DevRef τ sig) :=
  after_of_forall_not_mem (b := Proc.devRef .tc main_arg2) _ _ (List.forall_iff_forall_mem.mp (by
    simp only [L0, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c0_keep_main_arg3 (W : Valuation τ sig (Elt F)) : after (L0 (F := F)) W (main_arg3 : DevRef τ sig) = W (main_arg3 : DevRef τ sig) :=
  after_of_forall_not_mem (b := Proc.devRef .tc main_arg3) _ _ (List.forall_iff_forall_mem.mp (by
    simp only [L0, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c0_keep_main_arg4 (W : Valuation τ sig (Elt F)) : after (L0 (F := F)) W (main_arg4 : DevRef τ sig) = W (main_arg4 : DevRef τ sig) :=
  after_of_forall_not_mem (b := Proc.devRef .tc main_arg4) _ _ (List.forall_iff_forall_mem.mp (by
    simp only [L0, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c0_keep_main_arg5 (W : Valuation τ sig (Elt F)) : after (L0 (F := F)) W (main_arg5 : DevRef τ sig) = W (main_arg5 : DevRef τ sig) :=
  after_of_forall_not_mem (b := Proc.devRef .tc main_arg5) _ _ (List.forall_iff_forall_mem.mp (by
    simp only [L0, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c1_keep_main_v1 (W : Valuation τ sig (Elt F)) : after (L1 (F := F)) W (main_v1 : DevRef τ sig) = W (main_v1 : DevRef τ sig) :=
  after_of_forall_not_mem (b := Proc.devRef .tc main_v1) _ _ (List.forall_iff_forall_mem.mp (by
    simp only [L1, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c1_keep_main_v3 (W : Valuation τ sig (Elt F)) : after (L1 (F := F)) W (main_v3 : DevRef τ sig) = W (main_v3 : DevRef τ sig) :=
  after_of_forall_not_mem (b := Proc.devRef .tc main_v3) _ _ (List.forall_iff_forall_mem.mp (by
    simp only [L1, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c1_keep_main_arg1 (W : Valuation τ sig (Elt F)) : after (L1 (F := F)) W (main_arg1 : DevRef τ sig) = W (main_arg1 : DevRef τ sig) :=
  after_of_forall_not_mem (b := Proc.devRef .tc main_arg1) _ _ (List.forall_iff_forall_mem.mp (by
    simp only [L1, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c1_keep_main_arg2 (W : Valuation τ sig (Elt F)) : after (L1 (F := F)) W (main_arg2 : DevRef τ sig) = W (main_arg2 : DevRef τ sig) :=
  after_of_forall_not_mem (b := Proc.devRef .tc main_arg2) _ _ (List.forall_iff_forall_mem.mp (by
    simp only [L1, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c1_keep_main_arg3 (W : Valuation τ sig (Elt F)) : after (L1 (F := F)) W (main_arg3 : DevRef τ sig) = W (main_arg3 : DevRef τ sig) :=
  after_of_forall_not_mem (b := Proc.devRef .tc main_arg3) _ _ (List.forall_iff_forall_mem.mp (by
    simp only [L1, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c1_keep_main_arg4 (W : Valuation τ sig (Elt F)) : after (L1 (F := F)) W (main_arg4 : DevRef τ sig) = W (main_arg4 : DevRef τ sig) :=
  after_of_forall_not_mem (b := Proc.devRef .tc main_arg4) _ _ (List.forall_iff_forall_mem.mp (by
    simp only [L1, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c1_keep_main_arg5 (W : Valuation τ sig (Elt F)) : after (L1 (F := F)) W (main_arg5 : DevRef τ sig) = W (main_arg5 : DevRef τ sig) :=
  after_of_forall_not_mem (b := Proc.devRef .tc main_arg5) _ _ (List.forall_iff_forall_mem.mp (by
    simp only [L1, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c2_keep_main_v1 (W : Valuation τ sig (Elt F)) : after (L2 (F := F)) W (main_v1 : DevRef τ sig) = W (main_v1 : DevRef τ sig) :=
  after_of_forall_not_mem (b := Proc.devRef .tc main_v1) _ _ (List.forall_iff_forall_mem.mp (by
    simp only [L2, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c2_keep_main_v3 (W : Valuation τ sig (Elt F)) : after (L2 (F := F)) W (main_v3 : DevRef τ sig) = W (main_v3 : DevRef τ sig) :=
  after_of_forall_not_mem (b := Proc.devRef .tc main_v3) _ _ (List.forall_iff_forall_mem.mp (by
    simp only [L2, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c2_keep_main_arg1 (W : Valuation τ sig (Elt F)) : after (L2 (F := F)) W (main_arg1 : DevRef τ sig) = W (main_arg1 : DevRef τ sig) :=
  after_of_forall_not_mem (b := Proc.devRef .tc main_arg1) _ _ (List.forall_iff_forall_mem.mp (by
    simp only [L2, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c2_keep_main_arg2 (W : Valuation τ sig (Elt F)) : after (L2 (F := F)) W (main_arg2 : DevRef τ sig) = W (main_arg2 : DevRef τ sig) :=
  after_of_forall_not_mem (b := Proc.devRef .tc main_arg2) _ _ (List.forall_iff_forall_mem.mp (by
    simp only [L2, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c2_keep_main_arg3 (W : Valuation τ sig (Elt F)) : after (L2 (F := F)) W (main_arg3 : DevRef τ sig) = W (main_arg3 : DevRef τ sig) :=
  after_of_forall_not_mem (b := Proc.devRef .tc main_arg3) _ _ (List.forall_iff_forall_mem.mp (by
    simp only [L2, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c2_keep_main_arg4 (W : Valuation τ sig (Elt F)) : after (L2 (F := F)) W (main_arg4 : DevRef τ sig) = W (main_arg4 : DevRef τ sig) :=
  after_of_forall_not_mem (b := Proc.devRef .tc main_arg4) _ _ (List.forall_iff_forall_mem.mp (by
    simp only [L2, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c2_keep_main_arg5 (W : Valuation τ sig (Elt F)) : after (L2 (F := F)) W (main_arg5 : DevRef τ sig) = W (main_arg5 : DevRef τ sig) :=
  after_of_forall_not_mem (b := Proc.devRef .tc main_arg5) _ _ (List.forall_iff_forall_mem.mp (by
    simp only [L2, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c3_keep_main_v1 (W : Valuation τ sig (Elt F)) : after (L3 (F := F)) W (main_v1 : DevRef τ sig) = W (main_v1 : DevRef τ sig) :=
  after_of_forall_not_mem (b := Proc.devRef .tc main_v1) _ _ (List.forall_iff_forall_mem.mp (by
    simp only [L3, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c3_keep_main_v3 (W : Valuation τ sig (Elt F)) : after (L3 (F := F)) W (main_v3 : DevRef τ sig) = W (main_v3 : DevRef τ sig) :=
  after_of_forall_not_mem (b := Proc.devRef .tc main_v3) _ _ (List.forall_iff_forall_mem.mp (by
    simp only [L3, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c3_keep_main_arg1 (W : Valuation τ sig (Elt F)) : after (L3 (F := F)) W (main_arg1 : DevRef τ sig) = W (main_arg1 : DevRef τ sig) :=
  after_of_forall_not_mem (b := Proc.devRef .tc main_arg1) _ _ (List.forall_iff_forall_mem.mp (by
    simp only [L3, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c3_keep_main_arg2 (W : Valuation τ sig (Elt F)) : after (L3 (F := F)) W (main_arg2 : DevRef τ sig) = W (main_arg2 : DevRef τ sig) :=
  after_of_forall_not_mem (b := Proc.devRef .tc main_arg2) _ _ (List.forall_iff_forall_mem.mp (by
    simp only [L3, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c3_keep_main_arg3 (W : Valuation τ sig (Elt F)) : after (L3 (F := F)) W (main_arg3 : DevRef τ sig) = W (main_arg3 : DevRef τ sig) :=
  after_of_forall_not_mem (b := Proc.devRef .tc main_arg3) _ _ (List.forall_iff_forall_mem.mp (by
    simp only [L3, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c3_keep_main_arg4 (W : Valuation τ sig (Elt F)) : after (L3 (F := F)) W (main_arg4 : DevRef τ sig) = W (main_arg4 : DevRef τ sig) :=
  after_of_forall_not_mem (b := Proc.devRef .tc main_arg4) _ _ (List.forall_iff_forall_mem.mp (by
    simp only [L3, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c3_keep_main_arg5 (W : Valuation τ sig (Elt F)) : after (L3 (F := F)) W (main_arg5 : DevRef τ sig) = W (main_arg5 : DevRef τ sig) :=
  after_of_forall_not_mem (b := Proc.devRef .tc main_arg5) _ _ (List.forall_iff_forall_mem.mp (by
    simp only [L3, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c4_keep_main_v1 (W : Valuation τ sig (Elt F)) : after (L4 (F := F)) W (main_v1 : DevRef τ sig) = W (main_v1 : DevRef τ sig) :=
  after_of_forall_not_mem (b := Proc.devRef .tc main_v1) _ _ (List.forall_iff_forall_mem.mp (by
    simp only [L4, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c4_keep_main_v3 (W : Valuation τ sig (Elt F)) : after (L4 (F := F)) W (main_v3 : DevRef τ sig) = W (main_v3 : DevRef τ sig) :=
  after_of_forall_not_mem (b := Proc.devRef .tc main_v3) _ _ (List.forall_iff_forall_mem.mp (by
    simp only [L4, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c4_keep_main_arg1 (W : Valuation τ sig (Elt F)) : after (L4 (F := F)) W (main_arg1 : DevRef τ sig) = W (main_arg1 : DevRef τ sig) :=
  after_of_forall_not_mem (b := Proc.devRef .tc main_arg1) _ _ (List.forall_iff_forall_mem.mp (by
    simp only [L4, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c4_keep_main_arg2 (W : Valuation τ sig (Elt F)) : after (L4 (F := F)) W (main_arg2 : DevRef τ sig) = W (main_arg2 : DevRef τ sig) :=
  after_of_forall_not_mem (b := Proc.devRef .tc main_arg2) _ _ (List.forall_iff_forall_mem.mp (by
    simp only [L4, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c4_keep_main_arg3 (W : Valuation τ sig (Elt F)) : after (L4 (F := F)) W (main_arg3 : DevRef τ sig) = W (main_arg3 : DevRef τ sig) :=
  after_of_forall_not_mem (b := Proc.devRef .tc main_arg3) _ _ (List.forall_iff_forall_mem.mp (by
    simp only [L4, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c4_keep_main_arg4 (W : Valuation τ sig (Elt F)) : after (L4 (F := F)) W (main_arg4 : DevRef τ sig) = W (main_arg4 : DevRef τ sig) :=
  after_of_forall_not_mem (b := Proc.devRef .tc main_arg4) _ _ (List.forall_iff_forall_mem.mp (by
    simp only [L4, List.Forall, nullary_writes, unary_writes, binary_writes, ternary_writes, reshape_writes, Finset.mem_singleton]
    repeat' apply And.intro
    all_goals exact devRef_ne_of_ne (by decide)))
set_option maxRecDepth 8192 in
set_option maxHeartbeats 4000000 in
theorem c4_keep_main_arg5 (W : Valuation τ sig (Elt F)) : after (L4 (F := F)) W (main_arg5 : DevRef τ sig) = W (main_arg5 : DevRef τ sig) :=
  after_of_forall_not_mem (b := Proc.devRef .tc main_arg5) _ _ (List.forall_iff_forall_mem.mp (by
    simp only [L4, List.Forall, nullary_writes, unary_writes, binary_writes, ternary_writes, reshape_writes, Finset.mem_singleton]
    repeat' apply And.intro
    all_goals exact devRef_ne_of_ne (by decide)))

/-! ## The layers' read-backs -/

attribute [local congr] Cert.LibConcatCongr.concatenate_pair_congr in
attribute [local irreducible] Host.reduce Host.gather Host.reduceAdd in
set_option maxRecDepth 65536 in
set_option maxHeartbeats 8000000 in
theorem c0_sv (W : Valuation τ sig (Elt F)) : after (L0 (F := F)) W (main_v1 : DevRef τ sig) = Cert.RefLayer.svTab := by
  after_results_simp
  rfl

attribute [local congr] Cert.LibConcatCongr.concatenate_pair_congr in
attribute [local irreducible] Host.reduce Host.gather Host.reduceAdd in
set_option maxRecDepth 65536 in
set_option maxHeartbeats 8000000 in
theorem c0_se (W : Valuation τ sig (Elt F)) : after (L0 (F := F)) W (main_v3 : DevRef τ sig) = Cert.RefLayer.seTab := by
  after_results_simp
  rfl

attribute [local congr] Cert.LibConcatCongr.concatenate_pair_congr in
attribute [local irreducible] Host.reduce Host.gather Host.reduceAdd in
set_option maxRecDepth 65536 in
set_option maxHeartbeats 8000000 in
theorem c0_out (W : Valuation τ sig (Elt F)) : after (L0 (F := F)) W (main_v41 : DevRef τ sig)
    = Cert.RefLayer.layerT 0 slices_S5x48x32_S1x48x32_0_0_0 slices_S5x32_S1x32_0_0 slices_S5x64x32_S1x64x32_0_0_0 (W (main_arg0 : DevRef τ sig)) (W (main_arg1 : DevRef τ sig)) (W (main_arg2 : DevRef τ sig))
        (W (main_arg3 : DevRef τ sig)) (W (main_arg4 : DevRef τ sig)) (W (main_arg5 : DevRef τ sig)) := by
  after_results_simp
  rfl

attribute [local congr] Cert.LibConcatCongr.concatenate_pair_congr in
attribute [local irreducible] Host.reduce Host.gather Host.reduceAdd in
set_option maxRecDepth 65536 in
set_option maxHeartbeats 8000000 in
theorem c1_out (W : Valuation τ sig (Elt F)) (h1 : W (main_v1 : DevRef τ sig) = Cert.RefLayer.svTab) (h3 : W (main_v3 : DevRef τ sig) = Cert.RefLayer.seTab) :
    after (L1 (F := F)) W (main_v79 : DevRef τ sig)
    = Cert.RefLayer.layerT 1 slices_S5x48x32_S1x48x32_1_0_0 slices_S5x32_S1x32_1_0 slices_S5x64x32_S1x64x32_1_0_0 (W (main_v41 : DevRef τ sig)) (W (main_arg1 : DevRef τ sig)) (W (main_arg2 : DevRef τ sig))
        (W (main_arg3 : DevRef τ sig)) (W (main_arg4 : DevRef τ sig)) (W (main_arg5 : DevRef τ sig)) := by
  after_results_simp
  rw [h1, h3]
  rfl

attribute [local congr] Cert.LibConcatCongr.concatenate_pair_congr in
attribute [local irreducible] Host.reduce Host.gather Host.reduceAdd in
set_option maxRecDepth 65536 in
set_option maxHeartbeats 8000000 in
theorem c2_out (W : Valuation τ sig (Elt F)) (h1 : W (main_v1 : DevRef τ sig) = Cert.RefLayer.svTab) (h3 : W (main_v3 : DevRef τ sig) = Cert.RefLayer.seTab) :
    after (L2 (F := F)) W (main_v117 : DevRef τ sig)
    = Cert.RefLayer.layerT 2 slices_S5x48x32_S1x48x32_2_0_0 slices_S5x32_S1x32_2_0 slices_S5x64x32_S1x64x32_2_0_0 (W (main_v79 : DevRef τ sig)) (W (main_arg1 : DevRef τ sig)) (W (main_arg2 : DevRef τ sig))
        (W (main_arg3 : DevRef τ sig)) (W (main_arg4 : DevRef τ sig)) (W (main_arg5 : DevRef τ sig)) := by
  after_results_simp
  rw [h1, h3]
  rfl

attribute [local congr] Cert.LibConcatCongr.concatenate_pair_congr in
attribute [local irreducible] Host.reduce Host.gather Host.reduceAdd in
set_option maxRecDepth 65536 in
set_option maxHeartbeats 8000000 in
theorem c3_out (W : Valuation τ sig (Elt F)) (h1 : W (main_v1 : DevRef τ sig) = Cert.RefLayer.svTab) (h3 : W (main_v3 : DevRef τ sig) = Cert.RefLayer.seTab) :
    after (L3 (F := F)) W (main_v155 : DevRef τ sig)
    = Cert.RefLayer.layerT 3 slices_S5x48x32_S1x48x32_3_0_0 slices_S5x32_S1x32_3_0 slices_S5x64x32_S1x64x32_3_0_0 (W (main_v117 : DevRef τ sig)) (W (main_arg1 : DevRef τ sig)) (W (main_arg2 : DevRef τ sig))
        (W (main_arg3 : DevRef τ sig)) (W (main_arg4 : DevRef τ sig)) (W (main_arg5 : DevRef τ sig)) := by
  after_results_simp
  rw [h1, h3]
  rfl

attribute [local congr] Cert.LibConcatCongr.concatenate_pair_congr in
attribute [local irreducible] Host.reduce Host.gather Host.reduceAdd in
set_option maxRecDepth 65536 in
set_option maxHeartbeats 8000000 in
theorem c4_out (W : Valuation τ sig (Elt F)) (h1 : W (main_v1 : DevRef τ sig) = Cert.RefLayer.svTab) (h3 : W (main_v3 : DevRef τ sig) = Cert.RefLayer.seTab) :
    after (L4 (F := F)) W (main_v189 : DevRef τ sig)
    = Cert.RefLayer.linT 4 slices_S5x48x32_S1x48x32_4_0_0 slices_S5x32_S1x32_4_0 slices_S5x64x32_S1x64x32_4_0_0 (W (main_v155 : DevRef τ sig)) (W (main_arg1 : DevRef τ sig)) (W (main_arg2 : DevRef τ sig))
        (W (main_arg3 : DevRef τ sig)) (W (main_arg4 : DevRef τ sig)) (W (main_arg5 : DevRef τ sig)) := by
  after_results_simp
  rw [h1, h3]
  rfl

end Cert.RefChunks

end
-- ==== Proof.RefValue.lean ====
/-
  THE REFERENCE'S RESULT. After the reference's 232 operations its result buffer holds the composition of five layers:
  four normalising layers (RefLayer.layerT at layer indices 0 … 3, each fed the one before, the first the vertices) and
  the update of layer 4 (RefLayer.linT) — the operations' fold read back at the result buffer is that term. Read at
  (b, n, o) it is the network of Spec.lean in the spelling that divides by the row length.
-/
import proofs.«182073_g78494822302262_cont_9to1_m_206_7_alg».proof.Proof.RefRun
import proofs.«182073_g78494822302262_cont_9to1_m_206_7_alg».proof.Proof.RefLayer
import proofs.«182073_g78494822302262_cont_9to1_m_206_7_alg».proof.Proof.RefChunks

noncomputable section

namespace Cert.RefValue

open Cert.ReferenceIdeal Cert.ReferenceIdeal.Facts₀ Cert.ReferenceIdeal.Facts
open Idealize.ShloMosaic Idealize.ShloMosaic.TcCoe Idealize.SL.Sem Idealize.ShloMosaic.StableHlo Idealize.ShloMosaic.ValueIdx

variable {F : FTy → Type} [FloatOps F]

/-- The reference's result as a function of its six arguments. -/
def net (a0 : FVec F S4096x54x32 .f32) (a1 : FVec F S4096x72x16 .f32) (a2 : FVec F S5x48x32 .f32) (a3 : FVec F S5x32 .f32)
    (a4 : FVec F S5x64x32 .f32) (a5 : FVec F S5x32 .f32) : FVec F S4096x54x32 .f32 :=
  Cert.RefLayer.linT 4 slices_S5x48x32_S1x48x32_4_0_0 slices_S5x32_S1x32_4_0 slices_S5x64x32_S1x64x32_4_0_0
    (Cert.RefLayer.layerT 3 slices_S5x48x32_S1x48x32_3_0_0 slices_S5x32_S1x32_3_0 slices_S5x64x32_S1x64x32_3_0_0
      (Cert.RefLayer.layerT 2 slices_S5x48x32_S1x48x32_2_0_0 slices_S5x32_S1x32_2_0 slices_S5x64x32_S1x64x32_2_0_0
        (Cert.RefLayer.layerT 1 slices_S5x48x32_S1x48x32_1_0_0 slices_S5x32_S1x32_1_0 slices_S5x64x32_S1x64x32_1_0_0
          (Cert.RefLayer.layerT 0 slices_S5x48x32_S1x48x32_0_0_0 slices_S5x32_S1x32_0_0 slices_S5x64x32_S1x64x32_0_0_0 a0 a1 a2 a3 a4 a5)
          a1 a2 a3 a4 a5)
        a1 a2 a3 a4 a5)
      a1 a2 a3 a4 a5)
    a1 a2 a3 a4 a5

open Cert.RefChunks in
set_option maxRecDepth 65536 in
set_option maxHeartbeats 8000000 in
/-- The fold of the operations at the result buffer is that composition: the five layers' lists one after another, each
    read back on what the lists before it left (RefChunks.lean), the tables and the arguments untouched in between. -/
theorem out_eq (V : Valuation τ sig (Elt F)) :
    after (Cert.RefRun.ops (F := F)) V (main_v189 : DevRef τ sig)
      = net (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_eq, after_append, after_append, after_append, after_append]
  have k1a := c0_sv V
  have k1b := c0_se V
  have k2a : after L1 (after L0 V) (main_v1 : DevRef τ sig) = Cert.RefLayer.svTab := (c1_keep_main_v1 _).trans k1a
  have k2b : after L1 (after L0 V) (main_v3 : DevRef τ sig) = Cert.RefLayer.seTab := (c1_keep_main_v3 _).trans k1b
  have k3a : after L2 (after L1 (after L0 V)) (main_v1 : DevRef τ sig) = Cert.RefLayer.svTab := (c2_keep_main_v1 _).trans k2a
  have k3b : after L2 (after L1 (after L0 V)) (main_v3 : DevRef τ sig) = Cert.RefLayer.seTab := (c2_keep_main_v3 _).trans k2b
  have k4a : after L3 (after L2 (after L1 (after L0 V))) (main_v1 : DevRef τ sig) = Cert.RefLayer.svTab := (c3_keep_main_v1 _).trans k3a
  have k4b : after L3 (after L2 (after L1 (after L0 V))) (main_v3 : DevRef τ sig) = Cert.RefLayer.seTab := (c3_keep_main_v3 _).trans k3b
  rw [c4_out _ k4a k4b, c3_out _ k3a k3b, c2_out _ k2a k2b, c1_out _ k1a k1b, c0_out]
  rw [c3_keep_main_arg1, c3_keep_main_arg2, c3_keep_main_arg3, c3_keep_main_arg4, c3_keep_main_arg5,
    c2_keep_main_arg1, c2_keep_main_arg2, c2_keep_main_arg3, c2_keep_main_arg4, c2_keep_main_arg5,
    c1_keep_main_arg1, c1_keep_main_arg2, c1_keep_main_arg3, c1_keep_main_arg4, c1_keep_main_arg5,
    c0_keep_main_arg1, c0_keep_main_arg2, c0_keep_main_arg3, c0_keep_main_arg4, c0_keep_main_arg5]
  rfl

/-! ## The result at an index -/

section AtIdeal

variable (a0 : FVec Ideal S4096x54x32 .f32) (a1 : FVec Ideal S4096x72x16 .f32) (a2 : FVec Ideal S5x48x32 .f32)
  (a3 : FVec Ideal S5x32 .f32) (a4 : FVec Ideal S5x64x32 .f32) (a5 : FVec Ideal S5x32 .f32)

/-- The arguments as index functions. -/
abbrev eWf : Fin 5 → Fin 48 → Fin 32 → EReal := fun i f o => a2 (ix3 i f o)
abbrev ebf : Fin 5 → Fin 32 → EReal := fun i o => a3 (ix2 i o)
abbrev hWf : Fin 5 → Fin 64 → Fin 32 → EReal := fun i f o => a4 (ix3 i f o)
abbrev hbf : Fin 5 → Fin 32 → EReal := fun i o => a5 (ix2 i o)
abbrev ef : Fin 4096 → Fin 72 → Fin 16 → EReal := fun b n d => a1 (ix3 b n d)
abbrev vf0 : Fin 4096 → Fin 54 → Fin 32 → EReal := fun b n f => a0 (ix3 b n f)

/-- The layer inputs along the reference, as arrays: the vertices, then each normalising layer's output. -/
def state1 : FVec Ideal S4096x54x32 .f32 := Cert.RefLayer.layerT 0 slices_S5x48x32_S1x48x32_0_0_0 slices_S5x32_S1x32_0_0 slices_S5x64x32_S1x64x32_0_0_0 a0 a1 a2 a3 a4 a5
def state2 : FVec Ideal S4096x54x32 .f32 := Cert.RefLayer.layerT 1 slices_S5x48x32_S1x48x32_1_0_0 slices_S5x32_S1x32_1_0 slices_S5x64x32_S1x64x32_1_0_0 (state1 a0 a1 a2 a3 a4 a5) a1 a2 a3 a4 a5
def state3 : FVec Ideal S4096x54x32 .f32 := Cert.RefLayer.layerT 2 slices_S5x48x32_S1x48x32_2_0_0 slices_S5x32_S1x32_2_0 slices_S5x64x32_S1x64x32_2_0_0 (state2 a0 a1 a2 a3 a4 a5) a1 a2 a3 a4 a5
def state4 : FVec Ideal S4096x54x32 .f32 := Cert.RefLayer.layerT 3 slices_S5x48x32_S1x48x32_3_0_0 slices_S5x32_S1x32_3_0 slices_S5x64x32_S1x64x32_3_0_0 (state3 a0 a1 a2 a3 a4 a5) a1 a2 a3 a4 a5
def state : (i : ℕ) → FVec Ideal S4096x54x32 .f32
  | 0 => a0
  | 1 => state1 a0 a1 a2 a3 a4 a5
  | 2 => state2 a0 a1 a2 a3 a4 a5
  | 3 => state3 a0 a1 a2 a3 a4 a5
  | _ + 4 => state4 a0 a1 a2 a3 a4 a5

/-- Each of them, index by index, is the specification's state in the spelling that divides. -/
theorem state_apply (i : ℕ) (hi : i ≤ 4) :
    (fun b n f => state a0 a1 a2 a3 a4 a5 i (ix3 b n f))
      = Cert.Spec.stateDiv (eWf a2) (ebf a3) (hWf a4) (hbf a5) (ef a1) (vf0 a0) i := by
  match i, hi with
  | 0, _ => rfl
  | 1, _ =>
    funext b n f
    show Cert.RefLayer.layerT 0 _ _ _ a0 a1 a2 a3 a4 a5 (ix3 b n f) = _
    rw [Cert.RefLayer.layerT_apply 0 (by decide)]
    rfl
  | 2, _ =>
    funext b n f
    show Cert.RefLayer.layerT 1 _ _ _ (state a0 a1 a2 a3 a4 a5 1) a1 a2 a3 a4 a5 (ix3 b n f) = _
    rw [Cert.RefLayer.layerT_apply 1 (by decide), state_apply 1 (by decide)]
    rfl
  | 3, _ =>
    funext b n f
    show Cert.RefLayer.layerT 2 _ _ _ (state a0 a1 a2 a3 a4 a5 2) a1 a2 a3 a4 a5 (ix3 b n f) = _
    rw [Cert.RefLayer.layerT_apply 2 (by decide), state_apply 2 (by decide)]
    rfl
  | 4, _ =>
    funext b n f
    show Cert.RefLayer.layerT 3 _ _ _ (state a0 a1 a2 a3 a4 a5 3) a1 a2 a3 a4 a5 (ix3 b n f) = _
    rw [Cert.RefLayer.layerT_apply 3 (by decide), state_apply 3 (by decide)]
    rfl

/-- The reference's result at (b, n, o) is the network in the spelling that divides. -/
theorem net_apply (b : Fin 4096) (n : Fin 54) (o : Fin 32) :
    net (F := Ideal) a0 a1 a2 a3 a4 a5 (ix3 b n o)
      = Cert.Spec.netDiv (eWf a2) (ebf a3) (hWf a4) (hbf a5) (ef a1) (vf0 a0) b n o := by
  show Cert.RefLayer.linT 4 _ _ _ (state a0 a1 a2 a3 a4 a5 4) a1 a2 a3 a4 a5 (ix3 b n o) = _
  rw [Cert.RefLayer.linT_apply 4 (by decide), state_apply a0 a1 a2 a3 a4 a5 4 (by decide)]
  rfl

end AtIdeal

end Cert.RefValue

end
-- ==== Proof.PreLayer.lean ====
/-
  ONE LAYER AS THE PRECONDITION COMPUTES IT, READ AT AN INDEX. The precondition repeats the reference's first four layers
  to state that every row length the reference divides by is nonzero; its printed function applies the same host
  operations as the reference's layer (the same gathers through the same static tables, contractions, biases, tanh,
  maximum over the neighbour slots, row lengths and division), under its own program's records. This module is the
  reference's layer module read in the precondition's program: the same pure functions of a layer's input and the six
  arguments, and each read at an index as the network's formula (Spec.lean).
-/
import proofs.«182073_g78494822302262_cont_9to1_m_206_7_alg».proof.Pre_finite_inputs
import proofs.«182073_g78494822302262_cont_9to1_m_206_7_alg».proof.Proof.Gen.Pre_finite_inputs
import proofs.«182073_g78494822302262_cont_9to1_m_206_7_alg».proof.Proof.Spec
import proofs.«182073_g78494822302262_cont_9to1_m_206_7_alg».proof.Proof.LibNeighbourGather
import proofs.«182073_g78494822302262_cont_9to1_m_206_7_alg».proof.Proof.LibLayerSlice
import proofs.«182073_g78494822302262_cont_9to1_m_206_7_alg».proof.Proof.LibFeatureDot
import proofs.«182073_g78494822302262_cont_9to1_m_206_7_alg».proof.Proof.LibNeighbourMax
import proofs.«182073_g78494822302262_cont_9to1_m_206_7_alg».proof.Proof.LibRowNorm
import proofs.«182073_g78494822302262_cont_9to1_m_206_7_alg».proof.Proof.LibBiasSpread
import proofs.«182073_g78494822302262_cont_9to1_m_206_7_alg».proof.Proof.LibConcatFeature
import Idealize.ShloMosaic.Lib.ValueIdx
import Idealize.ShloMosaic.Lib.Pipeline.Value

noncomputable section

namespace Cert.PreLayer

open Cert.Pre_finite_inputs Cert.Pre_finite_inputs.Facts Idealize.ShloMosaic Idealize.ShloMosaic.ValueIdx
open scoped BigOperators

/-! ## The neighbour tables -/

/-- A printed neighbour table after the host's wrap of negative entries (compare with 0, add the extent, select), with a
    unit last axis: the index operand of a gather. -/
def tabFix (N : BitVec 32) (t : IVec S54x3 32) : IVec S54x3x1 32 :=
  broadcastInDim S54x3x1 ![0, 1] bcast_S54x3_S54x3x1_0_1
    (select (cmpi .slt t (broadcastInDim S54x3 ![] bcast_S_S54x3 (constantI S_ 32 0#32)))
      (addi t (broadcastInDim S54x3 ![] bcast_S_S54x3 (constantI S_ 32 N))) t)

/-- The vertex table: the even entries of the printed constant. -/
def svTab : IVec S54x3 32 :=
  shapeCast S54x3 (extractStridedSlice S54x3x1 ![0, 0, 0] (fun i => lit0 (S54x3x2.rowMajor i)) slices_S54x3x2_S54x3x1_0_0_0)
    shapeCasts_S54x3x1_S54x3

/-- The edge table: the odd entries. -/
def seTab : IVec S54x3 32 :=
  shapeCast S54x3 (extractStridedSlice S54x3x1 ![0, 0, 1] (fun i => lit0 (S54x3x2.rowMajor i)) slices_S54x3x2_S54x3x1_0_0_1)
    shapeCasts_S54x3x1_S54x3

/-- Entry (n, k) of the vertex table, read signed and clamped to 54 rows, is (n + k + 1) mod 54. -/
theorem sv_row : ∀ (n : Fin 54) (k : Fin 3),
    min (tabFix 54#32 svTab (ix3 n k (0 : Fin 1))).toInt.toNat (54 - 1) = (n.val + k.val + 1) % 54 := by
  decide +kernel

/-- Entry (n, k) of the edge table, read signed and clamped to 72 rows, is (3 n + k) mod 72. -/
theorem se_row : ∀ (n : Fin 54) (k : Fin 3),
    min (tabFix 72#32 seTab (ix3 n k (0 : Fin 1))).toInt.toNat (72 - 1) = (3 * n.val + k.val) % 72 := by
  decide +kernel

/-! ## The messages -/

variable {F : FTy → Type} [FloatOps F]

/-- The three messages of every vertex: tanh of the joined neighbour features against eW[i], plus eb[i]. -/
def embT (i : ℕ) (hsW : S5x48x32.Slices ![i, 0, 0] S1x48x32) (hsb : S5x32.Slices ![i, 0] S1x32)
    (vf : FVec F S4096x54x32 .f32) (e : FVec F S4096x72x16 .f32) (eW : FVec F S5x48x32 .f32) (eb : FVec F S5x32 .f32) :
    FVec F S4096x54x3x32 .f32 :=
  Host.tanh (addf
    (Host.dotGeneral dot_S4096x54x3x48_S48x32_S4096x54x3x32_3_0_012_1_n_n none
      (concatenate S4096x54x3x48 3
        [⟨S4096x54x3x32, Host.gather gather_S4096x54x32_S54x3x1_S4096x54x3x32_03_1_n_n_1_2_4096132 vf (tabFix 54#32 svTab)⟩,
         ⟨S4096x54x3x16, Host.gather gather_S4096x72x16_S54x3x1_S4096x54x3x16_03_1_n_n_1_2_4096116 e (tabFix 72#32 seTab)⟩]
        concatenates_S4096x54x3x32_S4096x54x3x16_S4096x54x3x48_d3)
      (shapeCast S48x32 (extractStridedSlice S1x48x32 ![i, 0, 0] eW hsW) shapeCasts_S1x48x32_S48x32))
    (broadcastInDim S4096x54x3x32 ![0, 1, 2, 3] bcast_S1x1x1x32_S4096x54x3x32_0_1_2_3
      (broadcastInDim S1x1x1x32 ![3] bcast_S32_S1x1x1x32_3
        (shapeCast S32 (extractStridedSlice S1x32 ![i, 0] eb hsb) shapeCasts_S1x32_S32))))

/-- The gathered vertex row: the layer's input at the neighbour vertex. -/
theorem gatherV_apply (vf : FVec Ideal S4096x54x32 .f32) (b : Fin 4096) (n : Fin 54) (k : Fin 3) (f : Fin 32) :
    Host.gather gather_S4096x54x32_S54x3x1_S4096x54x3x32_03_1_n_n_1_2_4096132 vf (tabFix 54#32 svTab) (ix4 b n k f) = vf (ix3 b (Cert.Spec.sv n k) f) := by
  rw [Cert.LibNeighbourGather.neighbourGather_apply (by decide) gather_S4096x54x32_S54x3x1_S4096x54x3x32_03_1_n_n_1_2_4096132 rfl rfl rfl rfl rfl rfl rfl]
  exact congrArg vf (congrArg (fun r => ix3 b r f) (Fin.ext (sv_row n k)))

/-- The gathered edge row. -/
theorem gatherE_apply (e : FVec Ideal S4096x72x16 .f32) (b : Fin 4096) (n : Fin 54) (k : Fin 3) (d : Fin 16) :
    Host.gather gather_S4096x72x16_S54x3x1_S4096x54x3x16_03_1_n_n_1_2_4096116 e (tabFix 72#32 seTab) (ix4 b n k d) = e (ix3 b (Cert.Spec.se n k) d) := by
  rw [Cert.LibNeighbourGather.neighbourGather_apply (by decide) gather_S4096x72x16_S54x3x1_S4096x54x3x16_03_1_n_n_1_2_4096116 rfl rfl rfl rfl rfl rfl rfl]
  exact congrArg e (congrArg (fun r => ix3 b r d) (Fin.ext (se_row n k)))

/-- A message at (b, n, k, o) is the network's: the contraction over the 48 joined features splits into the vertex
    part against rows 0 … 31 of eW[i] and the edge part against rows 32 … 47. -/
theorem embT_apply (i : ℕ) (hi : i < 5) (hsW : S5x48x32.Slices ![i, 0, 0] S1x48x32) (hsb : S5x32.Slices ![i, 0] S1x32)
    (vf : FVec Ideal S4096x54x32 .f32) (e : FVec Ideal S4096x72x16 .f32) (eW : FVec Ideal S5x48x32 .f32)
    (eb : FVec Ideal S5x32 .f32) (b : Fin 4096) (n : Fin 54) (k : Fin 3) (o : Fin 32) :
    embT (F := Ideal) i hsW hsb vf e eW eb (ix4 b n k o)
      = Cert.Spec.emb (fun f o => eW (ix3 (⟨i, hi⟩ : Fin 5) f o)) (fun o => eb (ix2 (⟨i, hi⟩ : Fin 5) o))
          (fun b n f => vf (ix3 b n f)) (fun b n d => e (ix3 b n d)) b n k o := by
  unfold embT Cert.Spec.emb
  show Ideal.tanh (FloatOps.dotGeneral (F := Ideal) _ none .single _ _ (ix4 b n k o) + broadcastInDim _ _ _ _ (ix4 b n k o)) = _
  rw [Cert.LibBiasSpread.bias4_apply, Cert.LibLayerSlice.layerVector_apply i hi,
    Cert.LibFeatureDot.dotGeneral4_apply _ rfl rfl rfl rfl rfl rfl]
  refine congrArg Ideal.tanh (congrArg (· + eb (ix2 (⟨i, hi⟩ : Fin 5) o)) ?_)
  refine (Cert.LibConcatFeature.sum_split 32 16 _).trans ?_
  refine congrArg₂ (· + ·) (Finset.sum_congr rfl fun f _ => ?_) (Finset.sum_congr rfl fun d _ => ?_)
  · exact congrArg₂ (· * ·)
      ((Cert.LibConcatFeature.concat4_left _ _ _ b n k f _).trans (gatherV_apply vf b n k f))
      (Cert.LibLayerSlice.layerMatrix_apply i hi eW hsW _ _ o)
  · exact congrArg₂ (· * ·)
      ((Cert.LibConcatFeature.concat4_right _ _ _ b n k d _).trans (gatherE_apply e b n k d))
      (Cert.LibLayerSlice.layerMatrix_apply i hi eW hsW _ _ o)

/-! ## The strongest message, the update, the activation -/

/-- The maximum over the three neighbour slots, from −∞. -/
def aggT (i : ℕ) (hsW : S5x48x32.Slices ![i, 0, 0] S1x48x32) (hsb : S5x32.Slices ![i, 0] S1x32)
    (vf : FVec F S4096x54x32 .f32) (e : FVec F S4096x72x16 .f32) (eW : FVec F S5x48x32 .f32) (eb : FVec F S5x32 .f32) :
    FVec F S4096x54x32 .f32 :=
  Host.reduce FloatOps.maximumf (embT i hsW hsb vf e eW eb) (constant S_ .f32 0xFF800000#32)
    reducesTo_S4096x54x3x32_S4096x54x32_d2 h_S_

theorem aggT_apply (i : ℕ) (hi : i < 5) (hsW : S5x48x32.Slices ![i, 0, 0] S1x48x32) (hsb : S5x32.Slices ![i, 0] S1x32)
    (vf : FVec Ideal S4096x54x32 .f32) (e : FVec Ideal S4096x72x16 .f32) (eW : FVec Ideal S5x48x32 .f32)
    (eb : FVec Ideal S5x32 .f32) (b : Fin 4096) (n : Fin 54) (o : Fin 32) :
    aggT (F := Ideal) i hsW hsb vf e eW eb (ix3 b n o)
      = Cert.Spec.agg (fun f o => eW (ix3 (⟨i, hi⟩ : Fin 5) f o)) (fun o => eb (ix2 (⟨i, hi⟩ : Fin 5) o))
          (fun b n f => vf (ix3 b n f)) (fun b n d => e (ix3 b n d)) b n o := by
  unfold aggT Cert.Spec.agg
  rw [Cert.LibNeighbourMax.hostMax3_apply _ reducesTo_S4096x54x3x32_S4096x54x32_d2 (by decide) h_S_ b n o,
    embT_apply i hi, embT_apply i hi, embT_apply i hi]

/-- The vertex update: the joined 64 features (the layer's input, then the strongest message) against hW[i], plus
    hb[i]. -/
def linT (i : ℕ) (hsW : S5x48x32.Slices ![i, 0, 0] S1x48x32) (hsb : S5x32.Slices ![i, 0] S1x32)
    (hsH : S5x64x32.Slices ![i, 0, 0] S1x64x32)
    (vf : FVec F S4096x54x32 .f32) (e : FVec F S4096x72x16 .f32) (eW : FVec F S5x48x32 .f32) (eb : FVec F S5x32 .f32)
    (hW : FVec F S5x64x32 .f32) (hb : FVec F S5x32 .f32) : FVec F S4096x54x32 .f32 :=
  addf
    (Host.dotGeneral dot_S4096x54x64_S64x32_S4096x54x32_2_0_01_1_n_n none
      (concatenate S4096x54x64 2 [⟨S4096x54x32, vf⟩, ⟨S4096x54x32, aggT i hsW hsb vf e eW eb⟩]
        concatenates_S4096x54x32_S4096x54x32_S4096x54x64_d2)
      (shapeCast S64x32 (extractStridedSlice S1x64x32 ![i, 0, 0] hW hsH) shapeCasts_S1x64x32_S64x32))
    (broadcastInDim S4096x54x32 ![0, 1, 2] bcast_S1x1x32_S4096x54x32_0_1_2
      (broadcastInDim S1x1x32 ![2] bcast_S32_S1x1x32_2
        (shapeCast S32 (extractStridedSlice S1x32 ![i, 0] hb hsb) shapeCasts_S1x32_S32)))

theorem linT_apply (i : ℕ) (hi : i < 5) (hsW : S5x48x32.Slices ![i, 0, 0] S1x48x32) (hsb : S5x32.Slices ![i, 0] S1x32)
    (hsH : S5x64x32.Slices ![i, 0, 0] S1x64x32)
    (vf : FVec Ideal S4096x54x32 .f32) (e : FVec Ideal S4096x72x16 .f32) (eW : FVec Ideal S5x48x32 .f32)
    (eb : FVec Ideal S5x32 .f32) (hW : FVec Ideal S5x64x32 .f32) (hb : FVec Ideal S5x32 .f32)
    (b : Fin 4096) (n : Fin 54) (o : Fin 32) :
    linT (F := Ideal) i hsW hsb hsH vf e eW eb hW hb (ix3 b n o)
      = Cert.Spec.lin (fun f o => eW (ix3 (⟨i, hi⟩ : Fin 5) f o)) (fun o => eb (ix2 (⟨i, hi⟩ : Fin 5) o))
          (fun f o => hW (ix3 (⟨i, hi⟩ : Fin 5) f o)) (fun o => hb (ix2 (⟨i, hi⟩ : Fin 5) o))
          (fun b n f => vf (ix3 b n f)) (fun b n d => e (ix3 b n d)) b n o := by
  unfold linT Cert.Spec.lin
  show FloatOps.dotGeneral (F := Ideal) _ none .single _ _ (ix3 b n o) + broadcastInDim _ _ _ _ (ix3 b n o) = _
  rw [Cert.LibBiasSpread.bias3_apply, Cert.LibLayerSlice.layerVector_apply i hi,
    Cert.LibFeatureDot.dotGeneral3_apply _ rfl rfl rfl rfl rfl rfl]
  refine congrArg (· + hb (ix2 (⟨i, hi⟩ : Fin 5) o)) ?_
  refine (Cert.LibConcatFeature.sum_split 32 32 _).trans ?_
  refine congrArg₂ (· + ·) (Finset.sum_congr rfl fun f _ => ?_) (Finset.sum_congr rfl fun f _ => ?_)
  · exact congrArg₂ (· * ·) (Cert.LibConcatFeature.concat3_left _ _ _ b n f _)
      (Cert.LibLayerSlice.layerMatrix_apply i hi hW hsH _ _ o)
  · exact congrArg₂ (· * ·)
      ((Cert.LibConcatFeature.concat3_right _ _ _ b n f _).trans (aggT_apply i hi hsW hsb vf e eW eb b n f))
      (Cert.LibLayerSlice.layerMatrix_apply i hi hW hsH _ _ o)

/-! ## Scaling a row to unit length, the reference's way -/

/-- The reference's `x / norm(x, axis = 2, keepdims)`: the row sum of squares from the zero word, given a unit axis, its
    square root, spread over the row, and the quotient. -/
def unitT (x : FVec F S4096x54x32 .f32) : FVec F S4096x54x32 .f32 :=
  Host.divf x (broadcastInDim S4096x54x32 ![0, 1, 2] bcast_S4096x54x1_S4096x54x32_0_1_2
    (Host.sqrt (broadcastInDim S4096x54x1 ![0, 1] bcast_S4096x54_S4096x54x1_0_1
      (Host.reduceAdd (mulf x x) (constant S_ .f32 0x00000000#32) reducesTo_S4096x54x32_S4096x54_d2 h_S_))))

/-- The row lengths the reference divides by, as a [4096, 54, 1] array: entry (b, n, 0) is the square root of the row's
    sum of squares. -/
theorem norm_apply (x : FVec Ideal S4096x54x32 .f32) (b : Fin 4096) (n : Fin 54) (u : Fin 1) :
    Host.sqrt (broadcastInDim S4096x54x1 ![0, 1] bcast_S4096x54_S4096x54x1_0_1
      (Host.reduceAdd (mulf x x) (constant S_ .f32 0x00000000#32) reducesTo_S4096x54x32_S4096x54_d2 h_S_)) (ix3 b n u)
      = Ideal.sqrt (Cert.Spec.sumSq (fun b n f => x (ix3 b n f)) b n) := by
  show Ideal.sqrt (broadcastInDim _ _ _ _ (ix3 b n u)) = _
  rw [Cert.LibRowNorm.keepdims_apply, Cert.LibRowNorm.hostSum_lastAxis _ reducesTo_S4096x54x32_S4096x54_d2 (by decide) h_S_ b n]
  rfl

theorem unitT_apply (x : FVec Ideal S4096x54x32 .f32) (b : Fin 4096) (n : Fin 54) (o : Fin 32) :
    unitT (F := Ideal) x (ix3 b n o) = Cert.Spec.unitDiv (fun b n f => x (ix3 b n f)) b n o := by
  unfold unitT Cert.Spec.unitDiv
  show Ideal.div (x (ix3 b n o)) (broadcastInDim _ _ _ _ (ix3 b n o)) = _
  rw [Cert.LibRowNorm.spread_apply, norm_apply]

/-- One normalising layer of the reference. -/
def layerT (i : ℕ) (hsW : S5x48x32.Slices ![i, 0, 0] S1x48x32) (hsb : S5x32.Slices ![i, 0] S1x32)
    (hsH : S5x64x32.Slices ![i, 0, 0] S1x64x32)
    (vf : FVec F S4096x54x32 .f32) (e : FVec F S4096x72x16 .f32) (eW : FVec F S5x48x32 .f32) (eb : FVec F S5x32 .f32)
    (hW : FVec F S5x64x32 .f32) (hb : FVec F S5x32 .f32) : FVec F S4096x54x32 .f32 :=
  unitT (Host.tanh (linT i hsW hsb hsH vf e eW eb hW hb))

/-- A normalising layer of the reference at (b, n, o) is the network's layer, in the spelling that divides. -/
theorem layerT_apply (i : ℕ) (hi : i < 5) (hsW : S5x48x32.Slices ![i, 0, 0] S1x48x32) (hsb : S5x32.Slices ![i, 0] S1x32)
    (hsH : S5x64x32.Slices ![i, 0, 0] S1x64x32)
    (vf : FVec Ideal S4096x54x32 .f32) (e : FVec Ideal S4096x72x16 .f32) (eW : FVec Ideal S5x48x32 .f32)
    (eb : FVec Ideal S5x32 .f32) (hW : FVec Ideal S5x64x32 .f32) (hb : FVec Ideal S5x32 .f32)
    (b : Fin 4096) (n : Fin 54) (o : Fin 32) :
    layerT (F := Ideal) i hsW hsb hsH vf e eW eb hW hb (ix3 b n o)
      = Cert.Spec.layerDiv (fun f o => eW (ix3 (⟨i, hi⟩ : Fin 5) f o)) (fun o => eb (ix2 (⟨i, hi⟩ : Fin 5) o))
          (fun f o => hW (ix3 (⟨i, hi⟩ : Fin 5) f o)) (fun o => hb (ix2 (⟨i, hi⟩ : Fin 5) o))
          (fun b n d => e (ix3 b n d)) (fun b n f => vf (ix3 b n f)) b n o := by
  unfold layerT Cert.Spec.layerDiv
  rw [unitT_apply]
  have hx : (fun b n f => Host.tanh (linT (F := Ideal) i hsW hsb hsH vf e eW eb hW hb) (ix3 b n f))
      = Cert.Spec.act (fun f o => eW (ix3 (⟨i, hi⟩ : Fin 5) f o)) (fun o => eb (ix2 (⟨i, hi⟩ : Fin 5) o))
          (fun f o => hW (ix3 (⟨i, hi⟩ : Fin 5) f o)) (fun o => hb (ix2 (⟨i, hi⟩ : Fin 5) o))
          (fun b n f => vf (ix3 b n f)) (fun b n d => e (ix3 b n d)) := by
    funext b n f
    show Ideal.tanh (linT (F := Ideal) i hsW hsb hsH vf e eW eb hW hb (ix3 b n f)) = _
    rw [linT_apply i hi]
    rfl
  rw [hx]

end Cert.PreLayer

end
-- ==== Proof.PreValue.lean ====
/-
  WHAT THE PRECONDITION SAYS. The printed precondition is a conjunction: a finiteness part over the six arguments, and for
  each of the layers 0 … 3 the test that every entry of the [4096, 54, 1] array of row lengths — the square root of the
  row sum of squares of that layer's activation, the activations computed layer after layer as the reference computes
  them — differs from zero. So where the precondition holds, no row length the dividing network divides by is zero
  (Spec.NormsNonzero at the layers 0 … 3).
-/
import proofs.«182073_g78494822302262_cont_9to1_m_206_7_alg».proof.Proof.PreLayer
import Idealize.ShloMosaic.Lib.ReduceAll
import Idealize.ShloMosaic.Lib.IdealHost
import Idealize.ShloMosaic.PureOps.Ideal.Laws

noncomputable section

namespace Cert.PreValue

open Cert.Pre_finite_inputs Cert.Pre_finite_inputs.Facts Idealize.ShloMosaic Idealize.ShloMosaic.ValueIdx

variable {F : FTy → Type} [FloatOps F]

/-- The row lengths of an activation, as a [4096, 54, 1] array. -/
def nrmP (x : FVec F S4096x54x32 .f32) : FVec F S4096x54x1 .f32 :=
  Host.sqrt (broadcastInDim S4096x54x1 ![0, 1] bcast_S4096x54_S4096x54x1_0_1
    (Host.reduceAdd (mulf x x) (constant S_ .f32 0x00000000#32) reducesTo_S4096x54x32_S4096x54_d2 h_S_))

/-- The test "every row length differs from zero". -/
def okP (x : FVec F S4096x54x32 .f32) : IVec S_ 1 :=
  Host.reduce IntOp.andi
    (cmpf .une (nrmP x) (broadcastInDim S4096x54x1 ![] bcast_S_S4096x54x1 (constant S_ .f32 0x00000000#32)))
    (constantI S_ 1 1#1) reducesTo_S4096x54x1_S_d0_1_2 h_S_

variable (a0 : FVec F S4096x54x32 .f32) (a1 : FVec F S4096x72x16 .f32) (a2 : FVec F S5x48x32 .f32)
  (a3 : FVec F S5x32 .f32) (a4 : FVec F S5x64x32 .f32) (a5 : FVec F S5x32 .f32)

/-- The activation of layer i on a layer input. -/
abbrev actP0 (vf : FVec F S4096x54x32 .f32) := Host.tanh (Cert.PreLayer.linT 0 slices_S5x48x32_S1x48x32_0_0_0 slices_S5x32_S1x32_0_0 slices_S5x64x32_S1x64x32_0_0_0 vf a1 a2 a3 a4 a5)
abbrev actP1 (vf : FVec F S4096x54x32 .f32) := Host.tanh (Cert.PreLayer.linT 1 slices_S5x48x32_S1x48x32_1_0_0 slices_S5x32_S1x32_1_0 slices_S5x64x32_S1x64x32_1_0_0 vf a1 a2 a3 a4 a5)
abbrev actP2 (vf : FVec F S4096x54x32 .f32) := Host.tanh (Cert.PreLayer.linT 2 slices_S5x48x32_S1x48x32_2_0_0 slices_S5x32_S1x32_2_0 slices_S5x64x32_S1x64x32_2_0_0 vf a1 a2 a3 a4 a5)
abbrev actP3 (vf : FVec F S4096x54x32 .f32) := Host.tanh (Cert.PreLayer.linT 3 slices_S5x48x32_S1x48x32_3_0_0 slices_S5x32_S1x32_3_0 slices_S5x64x32_S1x64x32_3_0_0 vf a1 a2 a3 a4 a5)

/-- The layer inputs along the precondition's computation. -/
abbrev st1 := Cert.PreLayer.unitT (actP0 a1 a2 a3 a4 a5 a0)
abbrev st2 := Cert.PreLayer.unitT (actP1 a1 a2 a3 a4 a5 (st1 a0 a1 a2 a3 a4 a5))
abbrev st3 := Cert.PreLayer.unitT (actP2 a1 a2 a3 a4 a5 (st2 a0 a1 a2 a3 a4 a5))

set_option maxRecDepth 65536 in
set_option maxHeartbeats 8000000 in
/-- The printed precondition is the conjunction of a finiteness part and the four tests. -/
theorem fn_eq : ∃ fin : IVec S_ 1, fn (F := F) a0 a1 a2 a3 a4 a5
    = andi fin (andi (andi (andi (okP (actP0 a1 a2 a3 a4 a5 a0)) (okP (actP1 a1 a2 a3 a4 a5 (st1 a0 a1 a2 a3 a4 a5))))
        (okP (actP2 a1 a2 a3 a4 a5 (st2 a0 a1 a2 a3 a4 a5)))) (okP (actP3 a1 a2 a3 a4 a5 (st3 a0 a1 a2 a3 a4 a5)))) := by
  refine ⟨?_, ?_⟩
  swap
  unfold fn fn_part1 fn_part2 fn_part3 fn_part4 fn_part5 fn_part6 fn_part7 fn_part8 fn_part9 fn_part10
  rfl

/-! ## Reading the conjunction back -/

instance : Subsingleton S_.Idx := ⟨fun a b => funext fun d => d.elim0⟩

/-- A test that holds says every row length of its activation differs from zero. -/
theorem norm_ne_zero_of_ok (x : FVec Ideal S4096x54x32 .f32) (h : okP (F := Ideal) x ix0 = 1#1) (b : Fin 4096) (n : Fin 54) :
    Ideal.sqrt (Cert.Spec.sumSq (fun b n f => x (ix3 b n f)) b n) ≠ 0 := by
  have hc := Host.reduce_andi_all _ _ reducesTo_S4096x54x1_S_d0_1_2 h_S_ ix0 h (ix3 b n (0 : Fin 1))
  rw [cmpf_apply] at hc
  have hn : nrmP (F := Ideal) x (ix3 b n (0 : Fin 1)) = Ideal.sqrt (Cert.Spec.sumSq (fun b n f => x (ix3 b n f)) b n) :=
    Cert.PreLayer.norm_apply x b n 0
  have hz : broadcastInDim S4096x54x1 ![] bcast_S_S4096x54x1 (constant (F := Ideal) S_ .f32 0x00000000#32) (ix3 b n (0 : Fin 1)) = (0 : EReal) := by
    rw [broadcastInDim_scalar_apply, constant_apply, Ideal.ofBits_zero_f32]
  rw [hn, hz] at hc
  intro h0
  rw [h0] at hc
  revert hc
  simp [Ideal.cmpf_def, Ideal.cmp]

section AtIdeal

variable (b0 : FVec Ideal S4096x54x32 .f32) (b1 : FVec Ideal S4096x72x16 .f32) (b2 : FVec Ideal S5x48x32 .f32)
  (b3 : FVec Ideal S5x32 .f32) (b4 : FVec Ideal S5x64x32 .f32) (b5 : FVec Ideal S5x32 .f32)

/-- Where the precondition holds, each of the four tests holds. -/
theorem oks_of_pre (h : fn (F := Ideal) b0 b1 b2 b3 b4 b5 = fun _ => 1#1) :
    okP (actP0 b1 b2 b3 b4 b5 b0) ix0 = 1#1 ∧ okP (actP1 b1 b2 b3 b4 b5 (st1 b0 b1 b2 b3 b4 b5)) ix0 = 1#1
      ∧ okP (actP2 b1 b2 b3 b4 b5 (st2 b0 b1 b2 b3 b4 b5)) ix0 = 1#1 ∧ okP (actP3 b1 b2 b3 b4 b5 (st3 b0 b1 b2 b3 b4 b5)) ix0 = 1#1 := by
  obtain ⟨fin, hfn⟩ := fn_eq (F := Ideal) b0 b1 b2 b3 b4 b5
  have h1 := congrFun h ix0
  rw [hfn] at h1
  obtain ⟨-, h2⟩ := IntOp.andi_eq_one.1 h1
  obtain ⟨h3, h4⟩ := IntOp.andi_eq_one.1 h2
  obtain ⟨h5, h6⟩ := IntOp.andi_eq_one.1 h3
  obtain ⟨h7, h8⟩ := IntOp.andi_eq_one.1 h5
  exact ⟨h7, h8, h6, h4⟩

end AtIdeal

/-! ## The tests in the specification's terms -/

section Norms

variable (b0 : FVec Ideal S4096x54x32 .f32) (b1 : FVec Ideal S4096x72x16 .f32) (b2 : FVec Ideal S5x48x32 .f32)
  (b3 : FVec Ideal S5x32 .f32) (b4 : FVec Ideal S5x64x32 .f32) (b5 : FVec Ideal S5x32 .f32)

abbrev eWf : Fin 5 → Fin 48 → Fin 32 → EReal := fun i f o => b2 (ix3 i f o)
abbrev ebf : Fin 5 → Fin 32 → EReal := fun i o => b3 (ix2 i o)
abbrev hWf : Fin 5 → Fin 64 → Fin 32 → EReal := fun i f o => b4 (ix3 i f o)
abbrev hbf : Fin 5 → Fin 32 → EReal := fun i o => b5 (ix2 i o)
abbrev ef : Fin 4096 → Fin 72 → Fin 16 → EReal := fun b n d => b1 (ix3 b n d)
abbrev vf0 : Fin 4096 → Fin 54 → Fin 32 → EReal := fun b n f => b0 (ix3 b n f)

/-- The layer inputs along the precondition's computation. -/
def stP1 : FVec Ideal S4096x54x32 .f32 := Cert.PreLayer.layerT 0 slices_S5x48x32_S1x48x32_0_0_0 slices_S5x32_S1x32_0_0 slices_S5x64x32_S1x64x32_0_0_0 b0 b1 b2 b3 b4 b5
def stP2 : FVec Ideal S4096x54x32 .f32 := Cert.PreLayer.layerT 1 slices_S5x48x32_S1x48x32_1_0_0 slices_S5x32_S1x32_1_0 slices_S5x64x32_S1x64x32_1_0_0 (stP1 b0 b1 b2 b3 b4 b5) b1 b2 b3 b4 b5
def stP3 : FVec Ideal S4096x54x32 .f32 := Cert.PreLayer.layerT 2 slices_S5x48x32_S1x48x32_2_0_0 slices_S5x32_S1x32_2_0 slices_S5x64x32_S1x64x32_2_0_0 (stP2 b0 b1 b2 b3 b4 b5) b1 b2 b3 b4 b5
def stP : (i : ℕ) → FVec Ideal S4096x54x32 .f32
  | 0 => b0
  | 1 => stP1 b0 b1 b2 b3 b4 b5
  | 2 => stP2 b0 b1 b2 b3 b4 b5
  | _ + 3 => stP3 b0 b1 b2 b3 b4 b5

/-- Each is the specification's state in the spelling that divides. -/
theorem stP_apply (i : ℕ) (hi : i ≤ 3) :
    (fun b n f => stP b0 b1 b2 b3 b4 b5 i (ix3 b n f))
      = Cert.Spec.stateDiv (eWf b2) (ebf b3) (hWf b4) (hbf b5) (ef b1) (vf0 b0) i := by
  match i, hi with
  | 0, _ => rfl
  | 1, _ =>
    funext b n f
    show Cert.PreLayer.layerT 0 _ _ _ b0 b1 b2 b3 b4 b5 (ix3 b n f) = _
    rw [Cert.PreLayer.layerT_apply 0 (by decide)]
    rfl
  | 2, _ =>
    funext b n f
    show Cert.PreLayer.layerT 1 _ _ _ (stP b0 b1 b2 b3 b4 b5 1) b1 b2 b3 b4 b5 (ix3 b n f) = _
    rw [Cert.PreLayer.layerT_apply 1 (by decide), stP_apply 1 (by decide)]
    rfl
  | 3, _ =>
    funext b n f
    show Cert.PreLayer.layerT 2 _ _ _ (stP b0 b1 b2 b3 b4 b5 2) b1 b2 b3 b4 b5 (ix3 b n f) = _
    rw [Cert.PreLayer.layerT_apply 2 (by decide), stP_apply 2 (by decide)]
    rfl

set_option maxHeartbeats 4000000 in
/-- A test on the activation of layer i computed from state i says no row length of that layer is zero. -/
theorem norms_of_ok (i : ℕ) (hi : i < 4) (hsW : S5x48x32.Slices ![i, 0, 0] S1x48x32) (hsb : S5x32.Slices ![i, 0] S1x32)
    (hsH : S5x64x32.Slices ![i, 0, 0] S1x64x32)
    (h : okP (F := Ideal) (Host.tanh (Cert.PreLayer.linT i hsW hsb hsH (stP b0 b1 b2 b3 b4 b5 i) b1 b2 b3 b4 b5)) ix0 = 1#1) :
    Cert.Spec.NormsNonzero (eWf b2) (ebf b3) (hWf b4) (hbf b5) (ef b1) (vf0 b0) i := by
  intro b n
  have h0 := norm_ne_zero_of_ok _ h b n
  have hact : (fun b n f => Host.tanh (Cert.PreLayer.linT (F := Ideal) i hsW hsb hsH (stP b0 b1 b2 b3 b4 b5 i) b1 b2 b3 b4 b5) (ix3 b n f))
      = Cert.Spec.act (eWf b2 ⟨i % 5, Nat.mod_lt _ (by decide)⟩) (ebf b3 ⟨i % 5, Nat.mod_lt _ (by decide)⟩)
          (hWf b4 ⟨i % 5, Nat.mod_lt _ (by decide)⟩) (hbf b5 ⟨i % 5, Nat.mod_lt _ (by decide)⟩)
          (Cert.Spec.stateDiv (eWf b2) (ebf b3) (hWf b4) (hbf b5) (ef b1) (vf0 b0) i) (ef b1) := by
    funext b n f
    show Ideal.tanh (Cert.PreLayer.linT (F := Ideal) i hsW hsb hsH (stP b0 b1 b2 b3 b4 b5 i) b1 b2 b3 b4 b5 (ix3 b n f)) = _
    rw [Cert.PreLayer.linT_apply i (by omega), stP_apply b0 b1 b2 b3 b4 b5 i (by omega)]
    have hi5 : (⟨i % 5, Nat.mod_lt _ (by decide)⟩ : Fin 5) = ⟨i, by omega⟩ := Fin.ext (Nat.mod_eq_of_lt (by omega))
    rw [hi5]
    rfl
  rw [hact] at h0
  exact h0

set_option maxHeartbeats 8000000 in
/-- Where the precondition holds, no row length the dividing network divides by is zero. -/
theorem norms_of_pre (h : fn (F := Ideal) b0 b1 b2 b3 b4 b5 = fun _ => 1#1) :
    ∀ j < 4, Cert.Spec.NormsNonzero (eWf b2) (ebf b3) (hWf b4) (hbf b5) (ef b1) (vf0 b0) j := by
  obtain ⟨h0, h1, h2, h3⟩ := oks_of_pre b0 b1 b2 b3 b4 b5 h
  intro j hj
  match j, hj with
  | 0, _ => exact norms_of_ok b0 b1 b2 b3 b4 b5 0 (by decide) _ _ _ h0
  | 1, _ => exact norms_of_ok b0 b1 b2 b3 b4 b5 1 (by decide) _ _ _ h1
  | 2, _ => exact norms_of_ok b0 b1 b2 b3 b4 b5 2 (by decide) _ _ _ h2
  | 3, _ => exact norms_of_ok b0 b1 b2 b3 b4 b5 3 (by decide) _ _ _ h3

end Norms

end Cert.PreValue

end
-- ==== Proof.Algebraic.lean ====
/-
  THE TWO PROGRAMS END AT ONE VALUE. From memories that agree on the six arguments and satisfy the precondition: the kernel
  ends with its result buffer at the fold of its segments (KIRun), which index by index is the network in the spelling
  that multiplies by the reciprocal square root (KIFinal); the reference ends with its result buffer at the composition
  of its five layers (RefRun, RefValue), which index by index is the network in the spelling that divides; the
  precondition says no row length the dividing network divides by is zero (PreValue), and then the two spellings are one
  function (Spec.net_eq). Both runs keep their arguments.
-/
import proofs.«182073_g78494822302262_cont_9to1_m_206_7_alg».proof.Defs
import proofs.«182073_g78494822302262_cont_9to1_m_206_7_alg».proof.Proof.KIFinal
import proofs.«182073_g78494822302262_cont_9to1_m_206_7_alg».proof.Proof.RefValue
import proofs.«182073_g78494822302262_cont_9to1_m_206_7_alg».proof.Proof.PreValue

set_option maxRecDepth 16384

noncomputable section

namespace Cert.Algebraic

open Idealize.ShloMosaic Idealize.ShloMosaic.TcCoe Idealize.SL.Sem Idealize.ShloMosaic.ValueIdx

set_option maxHeartbeats 2000000 in
/-- The reference's composition of its arguments is the kernel's result buffer, when the reference's arguments are the
    kernel's and the precondition holds of them. -/
theorem ref_value (m : (ℓ : Loc Cert.KernelIdeal.nD Cert.KernelIdeal.τ Cert.KernelIdeal.sig) → Buf (Elt Ideal) ℓ)
    (g : Dev Cert.KernelIdeal.nD → PrngReg) (c : Dev Cert.KernelIdeal.nD)
    (a0 : FVec Ideal Cert.ReferenceIdeal.S4096x54x32 .f32) (a1 : FVec Ideal Cert.ReferenceIdeal.S4096x72x16 .f32)
    (a2 : FVec Ideal Cert.ReferenceIdeal.S5x48x32 .f32) (a3 : FVec Ideal Cert.ReferenceIdeal.S5x32 .f32)
    (a4 : FVec Ideal Cert.ReferenceIdeal.S5x64x32 .f32) (a5 : FVec Ideal Cert.ReferenceIdeal.S5x32 .f32)
    (e0 : a0 = (m ((c.tc : Thread Cert.KernelIdeal.nD Cert.KernelIdeal.τ).loc Cert.KernelIdeal.main_arg0))) (e1 : a1 = (m ((c.tc : Thread Cert.KernelIdeal.nD Cert.KernelIdeal.τ).loc Cert.KernelIdeal.main_arg1))) (e2 : a2 = (m ((c.tc : Thread Cert.KernelIdeal.nD Cert.KernelIdeal.τ).loc Cert.KernelIdeal.main_arg2))) (e3 : a3 = (m ((c.tc : Thread Cert.KernelIdeal.nD Cert.KernelIdeal.τ).loc Cert.KernelIdeal.main_arg3))) (e4 : a4 = (m ((c.tc : Thread Cert.KernelIdeal.nD Cert.KernelIdeal.τ).loc Cert.KernelIdeal.main_arg4))) (e5 : a5 = (m ((c.tc : Thread Cert.KernelIdeal.nD Cert.KernelIdeal.τ).loc Cert.KernelIdeal.main_arg5)))
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1) :
    Cert.RefValue.net (F := Ideal) a0 a1 a2 a3 a4 a5
      = Cert.KernelIdeal.Hand.W11 (F := Ideal) m g c (Proc.devRef .tc Cert.KernelIdeal.main_v108) := by
  subst e0 e1 e2 e3 e4 e5
  funext idx
  obtain ⟨b, n, o, rfl⟩ : ∃ (b : Fin 4096) (n : Fin 54) (o : Fin 32), idx = ix3 b n o := ⟨idx 0, idx 1, idx 2, eq_ix3 idx⟩
  exact ((Cert.RefValue.net_apply _ _ _ _ _ _ b n o).trans
    (congrFun (congrFun (congrFun (Cert.Spec.net_eq _ _ _ _ _ _
      (Cert.PreValue.norms_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) hpre)) b) n) o).symm).trans
    (Cert.KernelIdeal.Hand.kernel_value m g c b n o).symm

set_option maxHeartbeats 2000000 in
theorem algebraic : Cert.algebraic_KernelIdeal_ReferenceIdeal := by
  intro m g m' g' hpre hag
  refine ⟨fun c => Cert.KernelIdeal.Hand.W11 (F := Ideal) m g c (Proc.devRef .tc Cert.KernelIdeal.main_v108), ?_, ?_⟩
  · exact (θ_run _ _ _).mono (fun r h c =>
      ⟨h c _ (Cert.KernelIdeal.Hand.mem_uc Cert.KernelIdeal.main_v108 (by decide)),
        (h c _ (Cert.KernelIdeal.Hand.mem_uc Cert.KernelIdeal.main_arg0 (by decide))).trans (Cert.KernelIdeal.Hand.W11_main_arg0 m g c),
        (h c _ (Cert.KernelIdeal.Hand.mem_uc Cert.KernelIdeal.main_arg1 (by decide))).trans (Cert.KernelIdeal.Hand.W11_main_arg1 m g c),
        (h c _ (Cert.KernelIdeal.Hand.mem_uc Cert.KernelIdeal.main_arg2 (by decide))).trans (Cert.KernelIdeal.Hand.W11_main_arg2 m g c),
        (h c _ (Cert.KernelIdeal.Hand.mem_uc Cert.KernelIdeal.main_arg3 (by decide))).trans (Cert.KernelIdeal.Hand.W11_main_arg3 m g c),
        (h c _ (Cert.KernelIdeal.Hand.mem_uc Cert.KernelIdeal.main_arg4 (by decide))).trans (Cert.KernelIdeal.Hand.W11_main_arg4 m g c),
        (h c _ (Cert.KernelIdeal.Hand.mem_uc Cert.KernelIdeal.main_arg5 (by decide))).trans (Cert.KernelIdeal.Hand.W11_main_arg5 m g c)⟩)
      (Cert.KernelIdeal.Hand.run_main (F := Ideal) m g)
  · exact (θ_run _ _ _).mono (fun r h c =>
      ⟨(h c Cert.ReferenceIdeal.main_v189).trans ((Cert.RefValue.out_eq _).trans
          (ref_value m g c _ _ _ _ _ _ (hag c).1 (hag c).2.1 (hag c).2.2.1 (hag c).2.2.2.1 (hag c).2.2.2.2.1 (hag c).2.2.2.2.2 (hpre c))),
        (h c Cert.ReferenceIdeal.main_arg0).trans (Cert.RefRun.arg0_kept _), (h c Cert.ReferenceIdeal.main_arg1).trans (Cert.RefRun.arg1_kept _),
        (h c Cert.ReferenceIdeal.main_arg2).trans (Cert.RefRun.arg2_kept _), (h c Cert.ReferenceIdeal.main_arg3).trans (Cert.RefRun.arg3_kept _),
        (h c Cert.ReferenceIdeal.main_arg4).trans (Cert.RefRun.arg4_kept _), (h c Cert.ReferenceIdeal.main_arg5).trans (Cert.RefRun.arg5_kept _)⟩)
      (Cert.RefRun.run_main (F := Ideal) m' g')

end Cert.Algebraic

end
-- ==== Proof.lean ====
/-
  The kernel is a five-layer message-passing network on 54 vertices and 72 edges with static neighbour tables
  sv(n, k) = (n + k + 1) mod 54 and se(n, k) = (3 n + k) mod 72. For layer i = 0 … 4, on vf : [4096, 54, 32]
  (vf of layer 0 the vertices):

    agg(b, n, o) = max over k < 3 of tanh( ∑ f < 32, vf(b, sv(n,k), f) · eW(i, f, o)
                                          + ∑ d < 16, edges(b, se(n,k), d) · eW(i, 32 + d, o) + eb(i, o) )
    lin(b, n, o) = ∑ f < 32, vf(b, n, f) · hW(i, f, o) + ∑ f < 32, agg(b, n, f) · hW(i, 32 + f, o) + hb(i, o)

  and the result is lin of layer 4; for i < 4 the next vf is x scaled to unit length along its last axis, x = tanh(lin):
  the reference divides x by the square root of s = ∑ o, x(b, n, o)², the kernel multiplies x by the reciprocal square
  root of s. The kernel takes the maximum over k before the tanh (tanh is monotone on the extended reals:
  LibTanhOrder), splits each contraction in two (48 = 32 + 16 and 64 = 32 + 32), packs four batch elements into 128
  lanes against block-diagonal weights (LibBlockDiagonal: the products off the diagonal blocks are zero), reads the
  neighbour rows as leading-axis rolls and tiles, and works on four batch chunks of 1024. For s > 0 the two scalings
  are one extended real (LibUnitRow); at s = 0 they differ (0 · +∞ = 0 against 0 / 0), which is why the precondition
  asks that every row norm the reference divides by is nonzero.

  The claim's five conjuncts are stated one by one below. The ideal pass rewrote nothing, so the idealized kernel is
  the kernel's own text and that conjunct is trivial. The frames: each pallas region's body runs to its return on its
  staging buffers (KRegion0 … 3, KIRegion0 … 3), @main is eleven segments from the launch to the return (KRun, KIRun),
  and the reference is its 232 host operations in order (RefRun).
-/
import proofs.«182073_g78494822302262_cont_9to1_m_206_7_alg».proof.Defs
import proofs.«182073_g78494822302262_cont_9to1_m_206_7_alg».proof.Proof.Gen.Kernel
import proofs.«182073_g78494822302262_cont_9to1_m_206_7_alg».proof.Proof.Gen.Kernel.Skeleton
import proofs.«182073_g78494822302262_cont_9to1_m_206_7_alg».proof.Proof.Gen.Kernel.Launch
import proofs.«182073_g78494822302262_cont_9to1_m_206_7_alg».proof.Proof.Gen.Kernel.Regions
import proofs.«182073_g78494822302262_cont_9to1_m_206_7_alg».proof.Proof.Gen.Kernel.Points
import proofs.«182073_g78494822302262_cont_9to1_m_206_7_alg».proof.Proof.Gen.KernelIdeal
import proofs.«182073_g78494822302262_cont_9to1_m_206_7_alg».proof.Proof.Gen.KernelIdeal.Skeleton
import proofs.«182073_g78494822302262_cont_9to1_m_206_7_alg».proof.Proof.Gen.KernelIdeal.Launch
import proofs.«182073_g78494822302262_cont_9to1_m_206_7_alg».proof.Proof.Gen.KernelIdeal.Regions
import proofs.«182073_g78494822302262_cont_9to1_m_206_7_alg».proof.Proof.Gen.KernelIdeal.Points
import proofs.«182073_g78494822302262_cont_9to1_m_206_7_alg».proof.Proof.Gen.ReferenceIdeal
import proofs.«182073_g78494822302262_cont_9to1_m_206_7_alg».proof.Proof.Gen.Pre_finite_inputs
import proofs.«182073_g78494822302262_cont_9to1_m_206_7_alg».proof.Proof.KRun
import proofs.«182073_g78494822302262_cont_9to1_m_206_7_alg».proof.Proof.KIRun
import proofs.«182073_g78494822302262_cont_9to1_m_206_7_alg».proof.Proof.RefRun
import proofs.«182073_g78494822302262_cont_9to1_m_206_7_alg».proof.Proof.Algebraic
import proofs.«182073_g78494822302262_cont_9to1_m_206_7_alg».proof.Proof.LibTanhOrder
import proofs.«182073_g78494822302262_cont_9to1_m_206_7_alg».proof.Proof.LibUnitRow
import proofs.«182073_g78494822302262_cont_9to1_m_206_7_alg».proof.Proof.LibNeighbourGather
import proofs.«182073_g78494822302262_cont_9to1_m_206_7_alg».proof.Proof.LibBlockDiagonal
import Idealize.ShloMosaic.Adequacy
import Idealize.ShloMosaic.Init

noncomputable section

namespace Cert.Proof

open Idealize.ShloMosaic Idealize.SL.Sem

/-- The kernel as printed, at the word level: every weakly fair execution of its four regions and the host
    operations around them terminates without a fault and leaves the six argument arrays unchanged (KRun.lean: @main as
    eleven segments, each region's body obligation from its body's triple, KRegion0 … 3). -/
theorem frame_kernel : Cert.frame_Kernel := fun m ρ _ => Cert.Kernel.Hand.frame (F := Bits) m ρ

/-- The same of the idealized kernel, read at the extended reals. -/
theorem frame_kernelIdeal : Cert.frame_KernelIdeal := fun m ρ _ => Cert.KernelIdeal.Hand.frame (F := Ideal) m ρ

/-- The reference's host program terminates without a fault and leaves its arguments unchanged. -/
theorem frame_referenceIdeal : Cert.frame_ReferenceIdeal := fun m ρ _ => Cert.RefRun.frame (F := Ideal) m ρ

/-- The ideal pass rewrote no operation. -/
theorem preserves : Cert.preserves_Kernel_KernelIdeal := trivial

/-- At the extended reals, from memories agreeing on the arguments and satisfying the precondition, both programs end
    with the network's value written out in the header, index by index (Algebraic.lean: the kernel's result through
    KIFinal, KIValue0 … 3, KNet and KLayerAt; the reference's through RefValue, RefChunks and RefLayer; the
    precondition's nonzero row lengths through PreValue; the two scalings agree there, Spec.net_eq). -/
theorem algebraic : Cert.algebraic_KernelIdeal_ReferenceIdeal := Cert.Algebraic.algebraic

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
